-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v408)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v408) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v403) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1x1024x8 : Shape := ⟨4, ![2, 1, 1024, 8]⟩
abbrev S2x2x1024x8 : Shape := ⟨4, ![2, 2, 1024, 8]⟩
abbrev S2x2x2x1024x8 : Shape := ⟨5, ![2, 2, 2, 1024, 8]⟩
abbrev S_ : Shape := ⟨0, ![]⟩

class Facts : Prop where
  bcast_S_S2x1x1024x8 : S_.BroadcastsInDim S2x1x1024x8 (![] : Fin 0 → Fin S2x1x1024x8.rank)
  reducesTo_S2x1x1024x8_S_d0_1_2_3 : S2x1x1024x8.ReducesTo [0, 1, 2, 3] S_
  h_S_ : 0 < S_.numel
  bcast_S_S2x2x1024x8 : S_.BroadcastsInDim S2x2x1024x8 (![] : Fin 0 → Fin S2x2x1024x8.rank)
  reducesTo_S2x2x1024x8_S_d0_1_2_3 : S2x2x1024x8.ReducesTo [0, 1, 2, 3] S_
  bcast_S_S2x2x2x1024x8 : S_.BroadcastsInDim S2x2x2x1024x8 (![] : Fin 0 → Fin S2x2x2x1024x8.rank)
  reducesTo_S2x2x2x1024x8_S_d0_1_2_3_4 : S2x2x2x1024x8.ReducesTo [0, 1, 2, 3, 4] S_

variable [Facts]

def fn_part1 {F : FTy → Type} [FloatOps F] (main_v13 : IVec S_ 1) (main_v16 : IVec S2x1x1024x8 1) : IVec S_ 1 :=
  let main_c_5 : IVec S_ 1 := constantI S_ 1 1#1
  let main_v17 : IVec S_ 1 := (fun x v => Host.reduce IntOp.andi x v reducesTo_S2x1x1024x8_S_d0_1_2_3 h_S_) main_v16 main_c_5
  let main_v18 : IVec S_ 1 := andi main_v13 main_v17
  main_v18

def fn {F : FTy → Type} [FloatOps F] (main_arg0 : FVec F S2x1x1024x8 .f32) (main_arg1 : FVec F S2x2x1024x8 .f32) (main_arg2 : FVec F S2x2x2x1024x8 .f32) (main_arg3 : FVec F S2x1x1024x8 .f32) : IVec S_ 1 :=
  let main_v0 : FVec F S2x1x1024x8 .f32 := Host.absf main_arg0
  let main_cst : FVec F S_ .f32 := constant S_ .f32 0x7F800000#32
  let main_v1 : FVec F S2x1x1024x8 .f32 := broadcastInDim S2x1x1024x8 ![] bcast_S_S2x1x1024x8 main_cst
  let main_v2 : IVec S2x1x1024x8 1 := cmpf .olt main_v0 main_v1
  let main_c : IVec S_ 1 := constantI S_ 1 1#1
  let main_v3 : IVec S_ 1 := (fun x v => Host.reduce IntOp.andi x v reducesTo_S2x1x1024x8_S_d0_1_2_3 h_S_) main_v2 main_c
  let main_v4 : FVec F S2x2x1024x8 .f32 := Host.absf main_arg1
  let main_cst_0 : FVec F S_ .f32 := constant S_ .f32 0x7F800000#32
  let main_v5 : FVec F S2x2x1024x8 .f32 := broadcastInDim S2x2x1024x8 ![] bcast_S_S2x2x1024x8 main_cst_0
  let main_v6 : IVec S2x2x1024x8 1 := cmpf .olt main_v4 main_v5
  let main_c_1 : IVec S_ 1 := constantI S_ 1 1#1
  let main_v7 : IVec S_ 1 := (fun x v => Host.reduce IntOp.andi x v reducesTo_S2x2x1024x8_S_d0_1_2_3 h_S_) main_v6 main_c_1
  let main_v8 : IVec S_ 1 := andi main_v3 main_v7
  let main_v9 : FVec F S2x2x2x1024x8 .f32 := Host.absf main_arg2
  let main_cst_2 : FVec F S_ .f32 := constant S_ .f32 0x7F800000#32
  let main_v10 : FVec F S2x2x2x1024x8 .f32 := broadcastInDim S2x2x2x1024x8 ![] bcast_S_S2x2x2x1024x8 main_cst_2
  let main_v11 : IVec S2x2x2x1024x8 1 := cmpf .olt main_v9 main_v10
  let main_c_3 : IVec S_ 1 := constantI S_ 1 1#1
  let main_v12 : IVec S_ 1 := (fun x v => Host.reduce IntOp.andi x v reducesTo_S2x2x2x1024x8_S_d0_1_2_3_4 h_S_) main_v11 main_c_3
  let main_v13 : IVec S_ 1 := andi main_v8 main_v12
  let main_v14 : FVec F S2x1x1024x8 .f32 := Host.absf main_arg3
  let main_cst_4 : FVec F S_ .f32 := constant S_ .f32 0x7F800000#32
  let main_v15 : FVec F S2x1x1024x8 .f32 := broadcastInDim S2x1x1024x8 ![] bcast_S_S2x1x1024x8 main_cst_4
  let main_v16 : IVec S2x1x1024x8 1 := cmpf .olt main_v14 main_v15
  fn_part1 (F := F) main_v13 main_v16
-- ==== Kernel.lean ====
abbrev S2x1x1024x8 : Shape := ⟨4, ![2, 1, 1024, 8]⟩
abbrev S2x2x1024x8 : Shape := ⟨4, ![2, 2, 1024, 8]⟩
abbrev S2x2x2x1024x8 : Shape := ⟨5, ![2, 2, 2, 1024, 8]⟩
abbrev S2x1024x8 : Shape := ⟨3, ![2, 1024, 8]⟩
abbrev S2x8x1024 : Shape := ⟨3, ![2, 8, 1024]⟩
abbrev S2x1x1x1024x8 : Shape := ⟨5, ![2, 1, 1, 1024, 8]⟩
abbrev S16x1024 : Shape := ⟨2, ![16, 1024]⟩
abbrev S1024 : Shape := ⟨1, ![1024]⟩
abbrev S_ : Shape := ⟨0, ![]⟩
abbrev S1024x1024 : Shape := ⟨2, ![1024, 1024]⟩
abbrev S1024x1 : Shape := ⟨2, ![1024, 1]⟩
abbrev S1024x2 : Shape := ⟨2, ![1024, 2]⟩
abbrev S16x1024x1024 : Shape := ⟨3, ![16, 1024, 1024]⟩
abbrev S2x8x1024x1024 : Shape := ⟨4, ![2, 8, 1024, 1024]⟩
abbrev S1x1x1024x1024 : Shape := ⟨4, ![1, 1, 1024, 1024]⟩
abbrev S2x8x1024x1 : Shape := ⟨4, ![2, 8, 1024, 1]⟩
abbrev S1x1024x1024 : Shape := ⟨3, ![1, 1024, 1024]⟩
abbrev S2x7x1024 : Shape := ⟨3, ![2, 7, 1024]⟩
abbrev S2x1x1024 : Shape := ⟨3, ![2, 1, 1024]⟩
abbrev S2x1x1024x1024 : Shape := ⟨4, ![2, 1, 1024, 1024]⟩
abbrev S2x7x1024x1024 : Shape := ⟨4, ![2, 7, 1024, 1024]⟩
abbrev S2x1x8x1024x1024 : Shape := ⟨5, ![2, 1, 8, 1024, 1024]⟩
abbrev S2x3x8x1024x1024 : Shape := ⟨5, ![2, 3, 8, 1024, 1024]⟩

abbrev nBuf : Space → Nat
  | .hbm => 713
  | .vmem => 6
  | .smem => 0
  | _ => 0

abbrev hbmTy0_0 (i : Nat) : BufTy := match i % 128 with
  | 0 => ⟨S2x1x1024x8, .f32⟩
  | 1 => ⟨S2x2x1024x8, .f32⟩
  | 2 => ⟨S2x2x2x1024x8, .f32⟩
  | 3 => ⟨S2x1x1024x8, .f32⟩
  | 4 => ⟨S2x1024x8, .f32⟩
  | 5 => ⟨S2x8x1024, .f32⟩
  | 6 => ⟨S2x1x1024x8, .f32⟩
  | 7 => ⟨S2x1024x8, .f32⟩
  | 8 => ⟨S2x8x1024, .f32⟩
  | 9 => ⟨S2x1x1024x8, .f32⟩
  | 10 => ⟨S2x1024x8, .f32⟩
  | 11 => ⟨S2x8x1024, .f32⟩
  | 12 => ⟨S2x1x1x1024x8, .f32⟩
  | 13 => ⟨S2x1024x8, .f32⟩
  | 14 => ⟨S2x8x1024, .f32⟩
  | 15 => ⟨S2x1x1x1024x8, .f32⟩
  | 16 => ⟨S2x1024x8, .f32⟩
  | 17 => ⟨S2x8x1024, .f32⟩
  | 18 => ⟨S2x1x1x1024x8, .f32⟩
  | 19 => ⟨S2x1024x8, .f32⟩
  | 20 => ⟨S2x8x1024, .f32⟩
  | 21 => ⟨S2x1024x8, .f32⟩
  | 22 => ⟨S2x8x1024, .f32⟩
  | 23 => ⟨S16x1024, .f32⟩
  | 24 => ⟨S16x1024, .f32⟩
  | 25 => ⟨S16x1024, .f32⟩
  | 26 => ⟨S16x1024, .f32⟩
  | 27 => ⟨S16x1024, .f32⟩
  | 28 => ⟨S16x1024, .f32⟩
  | 29 => ⟨S1024, .i32⟩
  | 30 => ⟨S_, .i32⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S1024, .i32⟩
  | 39 => ⟨S1024, .i32⟩
  | 40 => ⟨S_, .i32⟩
  | 41 => ⟨S1024, .i32⟩
  | 42 => ⟨S1024, .i1⟩
  | 43 => ⟨S1024, .i1⟩
  | 44 => ⟨S_, .i32⟩
  | 45 => ⟨S1024, .i32⟩
  | 46 => ⟨S1024, .i32⟩
  | 47 => ⟨S1024, .i32⟩
  | 48 => ⟨S_, .i32⟩
  | 49 => ⟨S_, .i1⟩
  | 50 => ⟨S_, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i1⟩
  | 60 => ⟨S_, .i32⟩
  | 61 => ⟨S_, .i1⟩
  | 62 => ⟨S1024, .i1⟩
  | 63 => ⟨S1024, .i1⟩
  | 64 => ⟨S1024, .i1⟩
  | 65 => ⟨S1024, .i32⟩
  | 66 => ⟨S1024, .i32⟩
  | 67 => ⟨S1024, .i32⟩
  | 68 => ⟨S1024, .i32⟩
  | 69 => ⟨S_, .f32⟩
  | 70 => ⟨S1024x1024, .f32⟩
  | 71 => ⟨S16x1024, .f32⟩
  | 72 => ⟨S_, .f32⟩
  | 73 => ⟨S16x1024, .f32⟩
  | 74 => ⟨S16x1024, .f32⟩
  | 75 => ⟨S_, .f32⟩
  | 76 => ⟨S16x1024, .f32⟩
  | 77 => ⟨S16x1024, .f32⟩
  | 78 => ⟨S16x1024, .f32⟩
  | 79 => ⟨S_, .f32⟩
  | 80 => ⟨S16x1024, .f32⟩
  | 81 => ⟨S16x1024, .f32⟩
  | 82 => ⟨S_, .f32⟩
  | 83 => ⟨S16x1024, .f32⟩
  | 84 => ⟨S16x1024, .f32⟩
  | 85 => ⟨S16x1024, .f32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S_, .i32⟩
  | 94 => ⟨S1024, .i32⟩
  | 95 => ⟨S1024, .i1⟩
  | 96 => ⟨S_, .i32⟩
  | 97 => ⟨S1024, .i32⟩
  | 98 => ⟨S1024, .i32⟩
  | 99 => ⟨S1024, .i32⟩
  | 100 => ⟨S1024x1, .i32⟩
  | 101 => ⟨S1024x1, .i32⟩
  | 102 => ⟨S1024x2, .i32⟩
  | 103 => ⟨S16x1024x1024, .f32⟩
  | 104 => ⟨S16x1024x1024, .f32⟩
  | 105 => ⟨S16x1024, .f32⟩
  | 106 => ⟨S_, .f32⟩
  | 107 => ⟨S16x1024, .f32⟩
  | 108 => ⟨S16x1024, .f32⟩
  | 109 => ⟨S_, .f32⟩
  | 110 => ⟨S16x1024, .f32⟩
  | 111 => ⟨S16x1024, .f32⟩
  | 112 => ⟨S16x1024, .f32⟩
  | 113 => ⟨S_, .i32⟩
  | 114 => ⟨S1024, .i32⟩
  | 115 => ⟨S1024, .i32⟩
  | 116 => ⟨S_, .i32⟩
  | 117 => ⟨S1024, .i32⟩
  | 118 => ⟨S1024, .i32⟩
  | 119 => ⟨S_, .i32⟩
  | 120 => ⟨S1024, .i32⟩
  | 121 => ⟨S1024, .i1⟩
  | 122 => ⟨S_, .i32⟩
  | 123 => ⟨S1024, .i32⟩
  | 124 => ⟨S1024, .i1⟩
  | 125 => ⟨S1024, .i1⟩
  | 126 => ⟨S_, .i32⟩
  | 127 => ⟨S1024, .i32⟩
  | _ => ⟨S2x1x1024x8, .f32⟩

abbrev hbmTy0_1 (i : Nat) : BufTy := match i % 128 with
  | 0 => ⟨S1024, .i1⟩
  | 1 => ⟨S1024, .i1⟩
  | 2 => ⟨S_, .i32⟩
  | 3 => ⟨S1024, .i32⟩
  | 4 => ⟨S1024, .i1⟩
  | 5 => ⟨S1024, .i1⟩
  | 6 => ⟨S_, .i32⟩
  | 7 => ⟨S_, .i32⟩
  | 8 => ⟨S_, .i32⟩
  | 9 => ⟨S1024, .i32⟩
  | 10 => ⟨S1024, .i32⟩
  | 11 => ⟨S_, .i32⟩
  | 12 => ⟨S1024, .i32⟩
  | 13 => ⟨S1024, .i32⟩
  | 14 => ⟨S_, .i32⟩
  | 15 => ⟨S1024, .i32⟩
  | 16 => ⟨S1024, .i32⟩
  | 17 => ⟨S_, .i32⟩
  | 18 => ⟨S_, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i32⟩
  | 25 => ⟨S1024, .i32⟩
  | 26 => ⟨S_, .f32⟩
  | 27 => ⟨S_, .f32⟩
  | 28 => ⟨S1024, .f32⟩
  | 29 => ⟨S16x1024, .i1⟩
  | 30 => ⟨S16x1024, .f32⟩
  | 31 => ⟨S16x1024, .f32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1024x1, .i32⟩
  | 48 => ⟨S1024x2, .i32⟩
  | 49 => ⟨S16x1024x1024, .f32⟩
  | 50 => ⟨S16x1024, .f32⟩
  | 51 => ⟨S_, .f32⟩
  | 52 => ⟨S16x1024, .f32⟩
  | 53 => ⟨S16x1024, .f32⟩
  | 54 => ⟨S_, .f32⟩
  | 55 => ⟨S16x1024, .f32⟩
  | 56 => ⟨S16x1024, .f32⟩
  | 57 => ⟨S16x1024, .f32⟩
  | 58 => ⟨S_, .i32⟩
  | 59 => ⟨S1024, .i32⟩
  | 60 => ⟨S1024, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i1⟩
  | 70 => ⟨S1024, .i1⟩
  | 71 => ⟨S_, .i32⟩
  | 72 => ⟨S1024, .i32⟩
  | 73 => ⟨S1024, .i1⟩
  | 74 => ⟨S1024, .i1⟩
  | 75 => ⟨S_, .i32⟩
  | 76 => ⟨S1024, .i32⟩
  | 77 => ⟨S1024, .i1⟩
  | 78 => ⟨S1024, .i1⟩
  | 79 => ⟨S_, .i32⟩
  | 80 => ⟨S_, .i32⟩
  | 81 => ⟨S_, .i32⟩
  | 82 => ⟨S1024, .i32⟩
  | 83 => ⟨S1024, .i32⟩
  | 84 => ⟨S_, .i32⟩
  | 85 => ⟨S1024, .i32⟩
  | 86 => ⟨S1024, .i32⟩
  | 87 => ⟨S_, .i32⟩
  | 88 => ⟨S1024, .i32⟩
  | 89 => ⟨S1024, .i32⟩
  | 90 => ⟨S_, .i32⟩
  | 91 => ⟨S_, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i32⟩
  | 98 => ⟨S1024, .i32⟩
  | 99 => ⟨S_, .f32⟩
  | 100 => ⟨S_, .f32⟩
  | 101 => ⟨S1024, .f32⟩
  | 102 => ⟨S16x1024, .i1⟩
  | 103 => ⟨S16x1024, .f32⟩
  | 104 => ⟨S16x1024, .f32⟩
  | 105 => ⟨S_, .i32⟩
  | 106 => ⟨S1024, .i32⟩
  | 107 => ⟨S1024, .i1⟩
  | 108 => ⟨S_, .i32⟩
  | 109 => ⟨S1024, .i32⟩
  | 110 => ⟨S1024, .i32⟩
  | 111 => ⟨S1024, .i32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S1024x1, .i32⟩
  | 120 => ⟨S1024x1, .i32⟩
  | 121 => ⟨S1024x2, .i32⟩
  | 122 => ⟨S16x1024x1024, .f32⟩
  | 123 => ⟨S16x1024, .f32⟩
  | 124 => ⟨S_, .f32⟩
  | 125 => ⟨S16x1024, .f32⟩
  | 126 => ⟨S16x1024, .f32⟩
  | 127 => ⟨S_, .f32⟩
  | _ => ⟨S2x1x1024x8, .f32⟩

abbrev hbmTy0_2 (i : Nat) : BufTy := match i % 128 with
  | 0 => ⟨S16x1024, .f32⟩
  | 1 => ⟨S16x1024, .f32⟩
  | 2 => ⟨S16x1024, .f32⟩
  | 3 => ⟨S_, .i32⟩
  | 4 => ⟨S1024, .i32⟩
  | 5 => ⟨S1024, .i32⟩
  | 6 => ⟨S_, .i32⟩
  | 7 => ⟨S1024, .i32⟩
  | 8 => ⟨S1024, .i32⟩
  | 9 => ⟨S_, .i32⟩
  | 10 => ⟨S1024, .i32⟩
  | 11 => ⟨S1024, .i1⟩
  | 12 => ⟨S_, .i32⟩
  | 13 => ⟨S1024, .i32⟩
  | 14 => ⟨S1024, .i1⟩
  | 15 => ⟨S1024, .i1⟩
  | 16 => ⟨S_, .i32⟩
  | 17 => ⟨S1024, .i32⟩
  | 18 => ⟨S1024, .i1⟩
  | 19 => ⟨S1024, .i1⟩
  | 20 => ⟨S_, .i32⟩
  | 21 => ⟨S1024, .i32⟩
  | 22 => ⟨S1024, .i1⟩
  | 23 => ⟨S1024, .i1⟩
  | 24 => ⟨S_, .i32⟩
  | 25 => ⟨S_, .i32⟩
  | 26 => ⟨S_, .i32⟩
  | 27 => ⟨S1024, .i32⟩
  | 28 => ⟨S1024, .i32⟩
  | 29 => ⟨S_, .i32⟩
  | 30 => ⟨S1024, .i32⟩
  | 31 => ⟨S1024, .i32⟩
  | 32 => ⟨S_, .i32⟩
  | 33 => ⟨S1024, .i32⟩
  | 34 => ⟨S1024, .i32⟩
  | 35 => ⟨S_, .i32⟩
  | 36 => ⟨S_, .i32⟩
  | 37 => ⟨S_, .i32⟩
  | 38 => ⟨S1024, .i32⟩
  | 39 => ⟨S1024, .i32⟩
  | 40 => ⟨S_, .i32⟩
  | 41 => ⟨S1024, .i32⟩
  | 42 => ⟨S1024, .i32⟩
  | 43 => ⟨S1024, .i32⟩
  | 44 => ⟨S_, .f32⟩
  | 45 => ⟨S_, .f32⟩
  | 46 => ⟨S1024, .f32⟩
  | 47 => ⟨S16x1024, .i1⟩
  | 48 => ⟨S16x1024, .f32⟩
  | 49 => ⟨S16x1024, .f32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S1024x1, .i32⟩
  | 66 => ⟨S1024x2, .i32⟩
  | 67 => ⟨S16x1024x1024, .f32⟩
  | 68 => ⟨S16x1024, .f32⟩
  | 69 => ⟨S_, .f32⟩
  | 70 => ⟨S16x1024, .f32⟩
  | 71 => ⟨S16x1024, .f32⟩
  | 72 => ⟨S_, .f32⟩
  | 73 => ⟨S16x1024, .f32⟩
  | 74 => ⟨S16x1024, .f32⟩
  | 75 => ⟨S16x1024, .f32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S_, .i32⟩
  | 83 => ⟨S1024, .i32⟩
  | 84 => ⟨S1024, .i1⟩
  | 85 => ⟨S_, .i32⟩
  | 86 => ⟨S1024, .i32⟩
  | 87 => ⟨S1024, .i1⟩
  | 88 => ⟨S1024, .i1⟩
  | 89 => ⟨S_, .i32⟩
  | 90 => ⟨S1024, .i32⟩
  | 91 => ⟨S1024, .i1⟩
  | 92 => ⟨S1024, .i1⟩
  | 93 => ⟨S_, .i32⟩
  | 94 => ⟨S1024, .i32⟩
  | 95 => ⟨S1024, .i1⟩
  | 96 => ⟨S1024, .i1⟩
  | 97 => ⟨S_, .i32⟩
  | 98 => ⟨S_, .i32⟩
  | 99 => ⟨S_, .i32⟩
  | 100 => ⟨S1024, .i32⟩
  | 101 => ⟨S1024, .i32⟩
  | 102 => ⟨S_, .i32⟩
  | 103 => ⟨S1024, .i32⟩
  | 104 => ⟨S1024, .i32⟩
  | 105 => ⟨S_, .i32⟩
  | 106 => ⟨S1024, .i32⟩
  | 107 => ⟨S1024, .i32⟩
  | 108 => ⟨S_, .i32⟩
  | 109 => ⟨S_, .i32⟩
  | 110 => ⟨S_, .i32⟩
  | 111 => ⟨S1024, .i32⟩
  | 112 => ⟨S1024, .i32⟩
  | 113 => ⟨S_, .i32⟩
  | 114 => ⟨S1024, .i32⟩
  | 115 => ⟨S1024, .i32⟩
  | 116 => ⟨S1024, .i32⟩
  | 117 => ⟨S_, .f32⟩
  | 118 => ⟨S_, .f32⟩
  | 119 => ⟨S1024, .f32⟩
  | 120 => ⟨S16x1024, .i1⟩
  | 121 => ⟨S16x1024, .f32⟩
  | 122 => ⟨S16x1024, .f32⟩
  | 123 => ⟨S_, .i32⟩
  | 124 => ⟨S1024, .i32⟩
  | 125 => ⟨S1024, .i1⟩
  | 126 => ⟨S_, .i32⟩
  | 127 => ⟨S1024, .i32⟩
  | _ => ⟨S2x1x1024x8, .f32⟩

abbrev hbmTy0_3 (i : Nat) : BufTy := match i % 128 with
  | 0 => ⟨S1024, .i32⟩
  | 1 => ⟨S1024, .i32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S1024x1, .i32⟩
  | 10 => ⟨S1024x1, .i32⟩
  | 11 => ⟨S1024x2, .i32⟩
  | 12 => ⟨S16x1024x1024, .f32⟩
  | 13 => ⟨S_, .f32⟩
  | 14 => ⟨S16x1024, .f32⟩
  | 15 => ⟨S16x1024, .f32⟩
  | 16 => ⟨S16x1024, .f32⟩
  | 17 => ⟨S_, .i32⟩
  | 18 => ⟨S1024, .i32⟩
  | 19 => ⟨S1024, .i32⟩
  | 20 => ⟨S_, .i32⟩
  | 21 => ⟨S1024, .i32⟩
  | 22 => ⟨S1024, .i32⟩
  | 23 => ⟨S_, .i32⟩
  | 24 => ⟨S1024, .i32⟩
  | 25 => ⟨S1024, .i1⟩
  | 26 => ⟨S_, .i32⟩
  | 27 => ⟨S1024, .i32⟩
  | 28 => ⟨S1024, .i1⟩
  | 29 => ⟨S1024, .i1⟩
  | 30 => ⟨S_, .i32⟩
  | 31 => ⟨S1024, .i32⟩
  | 32 => ⟨S1024, .i1⟩
  | 33 => ⟨S1024, .i1⟩
  | 34 => ⟨S_, .i32⟩
  | 35 => ⟨S1024, .i32⟩
  | 36 => ⟨S1024, .i1⟩
  | 37 => ⟨S1024, .i1⟩
  | 38 => ⟨S_, .i32⟩
  | 39 => ⟨S_, .i32⟩
  | 40 => ⟨S_, .i32⟩
  | 41 => ⟨S1024, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S_, .i32⟩
  | 50 => ⟨S_, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i32⟩
  | 57 => ⟨S1024, .i32⟩
  | 58 => ⟨S_, .f32⟩
  | 59 => ⟨S_, .f32⟩
  | 60 => ⟨S1024, .f32⟩
  | 61 => ⟨S16x1024, .i1⟩
  | 62 => ⟨S16x1024, .f32⟩
  | 63 => ⟨S16x1024, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1024x1, .i32⟩
  | 80 => ⟨S1024x2, .i32⟩
  | 81 => ⟨S16x1024x1024, .f32⟩
  | 82 => ⟨S16x1024, .f32⟩
  | 83 => ⟨S_, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i1⟩
  | 92 => ⟨S_, .i32⟩
  | 93 => ⟨S1024, .i32⟩
  | 94 => ⟨S1024, .i1⟩
  | 95 => ⟨S1024, .i1⟩
  | 96 => ⟨S_, .i32⟩
  | 97 => ⟨S1024, .i32⟩
  | 98 => ⟨S1024, .i1⟩
  | 99 => ⟨S1024, .i1⟩
  | 100 => ⟨S_, .i32⟩
  | 101 => ⟨S1024, .i32⟩
  | 102 => ⟨S1024, .i1⟩
  | 103 => ⟨S1024, .i1⟩
  | 104 => ⟨S_, .i32⟩
  | 105 => ⟨S_, .i32⟩
  | 106 => ⟨S_, .i32⟩
  | 107 => ⟨S1024, .i32⟩
  | 108 => ⟨S1024, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i32⟩
  | 115 => ⟨S_, .i32⟩
  | 116 => ⟨S_, .i32⟩
  | 117 => ⟨S_, .i32⟩
  | 118 => ⟨S1024, .i32⟩
  | 119 => ⟨S1024, .i32⟩
  | 120 => ⟨S_, .i32⟩
  | 121 => ⟨S1024, .i32⟩
  | 122 => ⟨S1024, .i32⟩
  | 123 => ⟨S1024, .i32⟩
  | 124 => ⟨S_, .f32⟩
  | 125 => ⟨S_, .f32⟩
  | 126 => ⟨S1024, .f32⟩
  | 127 => ⟨S16x1024, .i1⟩
  | _ => ⟨S2x1x1024x8, .f32⟩

abbrev hbmTy0_4 (i : Nat) : BufTy := match i % 128 with
  | 0 => ⟨S16x1024, .f32⟩
  | 1 => ⟨S16x1024, .f32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1024x1, .i32⟩
  | 18 => ⟨S1024x2, .i32⟩
  | 19 => ⟨S16x1024x1024, .f32⟩
  | 20 => ⟨S_, .i32⟩
  | 21 => ⟨S1024, .i32⟩
  | 22 => ⟨S1024, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i1⟩
  | 29 => ⟨S_, .i32⟩
  | 30 => ⟨S1024, .i32⟩
  | 31 => ⟨S1024, .i1⟩
  | 32 => ⟨S1024, .i1⟩
  | 33 => ⟨S_, .i32⟩
  | 34 => ⟨S1024, .i32⟩
  | 35 => ⟨S1024, .i1⟩
  | 36 => ⟨S1024, .i1⟩
  | 37 => ⟨S_, .i32⟩
  | 38 => ⟨S1024, .i32⟩
  | 39 => ⟨S1024, .i1⟩
  | 40 => ⟨S1024, .i1⟩
  | 41 => ⟨S_, .i32⟩
  | 42 => ⟨S_, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S_, .i32⟩
  | 50 => ⟨S1024, .i32⟩
  | 51 => ⟨S1024, .i32⟩
  | 52 => ⟨S_, .i32⟩
  | 53 => ⟨S_, .i32⟩
  | 54 => ⟨S_, .i32⟩
  | 55 => ⟨S1024, .i32⟩
  | 56 => ⟨S1024, .i32⟩
  | 57 => ⟨S_, .i32⟩
  | 58 => ⟨S1024, .i32⟩
  | 59 => ⟨S1024, .i32⟩
  | 60 => ⟨S1024, .i32⟩
  | 61 => ⟨S_, .f32⟩
  | 62 => ⟨S_, .f32⟩
  | 63 => ⟨S1024, .f32⟩
  | 64 => ⟨S16x1024, .i1⟩
  | 65 => ⟨S16x1024, .f32⟩
  | 66 => ⟨S16x1024, .f32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S_, .i32⟩
  | 75 => ⟨S1024, .i32⟩
  | 76 => ⟨S1024, .i1⟩
  | 77 => ⟨S_, .i32⟩
  | 78 => ⟨S1024, .i32⟩
  | 79 => ⟨S1024, .i32⟩
  | 80 => ⟨S1024, .i32⟩
  | 81 => ⟨S1024x1, .i32⟩
  | 82 => ⟨S1024x1, .i32⟩
  | 83 => ⟨S1024x2, .i32⟩
  | 84 => ⟨S16x1024x1024, .f32⟩
  | 85 => ⟨S_, .i32⟩
  | 86 => ⟨S1024, .i32⟩
  | 87 => ⟨S1024, .i32⟩
  | 88 => ⟨S_, .i32⟩
  | 89 => ⟨S1024, .i32⟩
  | 90 => ⟨S1024, .i32⟩
  | 91 => ⟨S_, .i32⟩
  | 92 => ⟨S1024, .i32⟩
  | 93 => ⟨S1024, .i1⟩
  | 94 => ⟨S_, .i32⟩
  | 95 => ⟨S1024, .i32⟩
  | 96 => ⟨S1024, .i1⟩
  | 97 => ⟨S1024, .i1⟩
  | 98 => ⟨S_, .i32⟩
  | 99 => ⟨S1024, .i32⟩
  | 100 => ⟨S1024, .i1⟩
  | 101 => ⟨S1024, .i1⟩
  | 102 => ⟨S_, .i32⟩
  | 103 => ⟨S1024, .i32⟩
  | 104 => ⟨S1024, .i1⟩
  | 105 => ⟨S1024, .i1⟩
  | 106 => ⟨S_, .i32⟩
  | 107 => ⟨S_, .i32⟩
  | 108 => ⟨S_, .i32⟩
  | 109 => ⟨S1024, .i32⟩
  | 110 => ⟨S1024, .i32⟩
  | 111 => ⟨S_, .i32⟩
  | 112 => ⟨S1024, .i32⟩
  | 113 => ⟨S1024, .i32⟩
  | 114 => ⟨S_, .i32⟩
  | 115 => ⟨S1024, .i32⟩
  | 116 => ⟨S1024, .i32⟩
  | 117 => ⟨S_, .i32⟩
  | 118 => ⟨S_, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i32⟩
  | 125 => ⟨S1024, .i32⟩
  | 126 => ⟨S_, .f32⟩
  | 127 => ⟨S_, .f32⟩
  | _ => ⟨S2x1x1024x8, .f32⟩

abbrev hbmTy0_5 (i : Nat) : BufTy := match i % 128 with
  | 0 => ⟨S1024, .f32⟩
  | 1 => ⟨S16x1024, .i1⟩
  | 2 => ⟨S16x1024, .f32⟩
  | 3 => ⟨S16x1024, .f32⟩
  | 4 => ⟨S_, .i32⟩
  | 5 => ⟨S1024, .i32⟩
  | 6 => ⟨S1024, .i1⟩
  | 7 => ⟨S_, .i32⟩
  | 8 => ⟨S1024, .i32⟩
  | 9 => ⟨S1024, .i32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S1024x1, .i32⟩
  | 20 => ⟨S1024x2, .i32⟩
  | 21 => ⟨S16x1024x1024, .f32⟩
  | 22 => ⟨S2x8x1024x1024, .f32⟩
  | 23 => ⟨S1024x1024, .i32⟩
  | 24 => ⟨S1024x1024, .i32⟩
  | 25 => ⟨S_, .i32⟩
  | 26 => ⟨S1024x1024, .i32⟩
  | 27 => ⟨S1024x1024, .i32⟩
  | 28 => ⟨S1024x1024, .i1⟩
  | 29 => ⟨S1024x1024, .f32⟩
  | 30 => ⟨S_, .f32⟩
  | 31 => ⟨S2x8x1024x1024, .f32⟩
  | 32 => ⟨S2x8x1024x1024, .f32⟩
  | 33 => ⟨S1x1x1024x1024, .f32⟩
  | 34 => ⟨S2x8x1024x1024, .f32⟩
  | 35 => ⟨S2x8x1024x1024, .f32⟩
  | 36 => ⟨S2x8x1024, .f32⟩
  | 37 => ⟨S_, .f32⟩
  | 38 => ⟨S2x8x1024, .f32⟩
  | 39 => ⟨S2x8x1024, .f32⟩
  | 40 => ⟨S2x8x1024x1, .f32⟩
  | 41 => ⟨S2x8x1024x1024, .f32⟩
  | 42 => ⟨S2x8x1024x1024, .f32⟩
  | 43 => ⟨S16x1024x1024, .f32⟩
  | 44 => ⟨S16x1024x1024, .f32⟩
  | 45 => ⟨S16x1024x1024, .bf16⟩
  | 46 => ⟨S16x1024x1024, .bf16⟩
  | 47 => ⟨S16x1024x1024, .f32⟩
  | 48 => ⟨S2x8x1024x1024, .f32⟩
  | 49 => ⟨S2x7x1024, .f32⟩
  | 50 => ⟨S2x1x1024, .f32⟩
  | 51 => ⟨S_, .f32⟩
  | 52 => ⟨S2x1x1024, .f32⟩
  | 53 => ⟨S2x8x1024, .f32⟩
  | 54 => ⟨S2x8x1024x1, .f32⟩
  | 55 => ⟨S1x1x1024x1024, .f32⟩
  | 56 => ⟨S2x8x1024x1024, .f32⟩
  | 57 => ⟨S2x8x1024x1024, .f32⟩
  | 58 => ⟨S2x8x1024x1024, .f32⟩
  | 59 => ⟨S2x8x1024x1024, .f32⟩
  | 60 => ⟨S_, .f32⟩
  | 61 => ⟨S2x1x1024x1024, .f32⟩
  | 62 => ⟨S2x7x1024x1024, .f32⟩
  | 63 => ⟨S2x7x1024x1024, .f32⟩
  | 64 => ⟨S2x7x1024x1024, .f32⟩
  | 65 => ⟨S2x8x1024x1024, .f32⟩
  | 66 => ⟨S2x7x1024x1024, .f32⟩
  | 67 => ⟨S2x7x1024x1024, .f32⟩
  | 68 => ⟨S2x8x1024x1024, .f32⟩
  | 69 => ⟨S2x1x8x1024x1024, .f32⟩
  | 70 => ⟨S2x1x8x1024x1024, .f32⟩
  | 71 => ⟨S2x1x8x1024x1024, .f32⟩
  | 72 => ⟨S2x3x8x1024x1024, .f32⟩
  | _ => ⟨S2x1x1024x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x1x1024x8, .f32⟩

abbrev bufTy : (tb : Table) → Fin (tcTables nBuf tb) → BufTy
  | .hbm, ⟨i, _⟩ => hbmTy i
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .f32⟩
  | .local _ .vmem, ⟨5, _⟩ => ⟨S1x1024x1024, .f32⟩
  | _, _ => ⟨S2x1x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_call0_v0 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_c : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_c_0 : Ref sig .tc := ⟨.hbm, 44, rfl⟩
abbrev main_call0_call0_v11 : Ref sig .tc := ⟨.hbm, 45, rfl⟩
abbrev main_call0_call0_v12 : Ref sig .tc := ⟨.hbm, 46, rfl⟩
abbrev main_v26_0 : Ref sig .tc := ⟨.hbm, 47, rfl⟩
abbrev main_call0_call1_c : Ref sig .tc := ⟨.hbm, 48, rfl⟩
abbrev main_call0_call1_v0 : Ref sig .tc := ⟨.hbm, 49, rfl⟩
abbrev main_call0_call1_c_0 : Ref sig .tc := ⟨.hbm, 50, rfl⟩
abbrev main_call0_call1_v1 : Ref sig .tc := ⟨.hbm, 51, rfl⟩
abbrev main_call0_call1_v2 : Ref sig .tc := ⟨.hbm, 52, rfl⟩
abbrev main_call0_call1_v3 : Ref sig .tc := ⟨.hbm, 53, rfl⟩
abbrev main_call0_call1_c_1 : Ref sig .tc := ⟨.hbm, 54, rfl⟩
abbrev main_call0_call1_v4 : Ref sig .tc := ⟨.hbm, 55, rfl⟩
abbrev main_call0_call1_v5 : Ref sig .tc := ⟨.hbm, 56, rfl⟩
abbrev main_call0_call1_c_2 : Ref sig .tc := ⟨.hbm, 57, rfl⟩
abbrev main_call0_call1_v6 : Ref sig .tc := ⟨.hbm, 58, rfl⟩
abbrev main_call0_call1_v7 : Ref sig .tc := ⟨.hbm, 59, rfl⟩
abbrev main_call0_call1_c_3 : Ref sig .tc := ⟨.hbm, 60, rfl⟩
abbrev main_call0_call1_v8 : Ref sig .tc := ⟨.hbm, 61, rfl⟩
abbrev main_call0_call1_v9 : Ref sig .tc := ⟨.hbm, 62, rfl⟩
abbrev main_call0_call1_v10 : Ref sig .tc := ⟨.hbm, 63, rfl⟩
abbrev main_call0_call1_v11 : Ref sig .tc := ⟨.hbm, 64, rfl⟩
abbrev main_call0_call1_v12 : Ref sig .tc := ⟨.hbm, 65, rfl⟩
abbrev main_call0_call1_v13 : Ref sig .tc := ⟨.hbm, 66, rfl⟩
abbrev main_v26_1 : Ref sig .tc := ⟨.hbm, 67, rfl⟩
abbrev main_v27 : Ref sig .tc := ⟨.hbm, 68, rfl⟩
abbrev main_cst : Ref sig .tc := ⟨.hbm, 69, rfl⟩
abbrev main_v28 : Ref sig .tc := ⟨.hbm, 70, rfl⟩
abbrev main_v29 : Ref sig .tc := ⟨.hbm, 71, rfl⟩
abbrev main_cst_0 : Ref sig .tc := ⟨.hbm, 72, rfl⟩
abbrev main_v30 : Ref sig .tc := ⟨.hbm, 73, rfl⟩
abbrev main_v31 : Ref sig .tc := ⟨.hbm, 74, rfl⟩
abbrev main_cst_1 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_2 : Ref sig .tc := ⟨.hbm, 79, rfl⟩
abbrev main_v35 : Ref sig .tc := ⟨.hbm, 80, rfl⟩
abbrev main_v36 : Ref sig .tc := ⟨.hbm, 81, rfl⟩
abbrev main_cst_3 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_4 : Ref sig .tc := ⟨.hbm, 86, rfl⟩
abbrev main_v40 : Ref sig .tc := ⟨.hbm, 87, rfl⟩
abbrev main_v41 : Ref sig .tc := ⟨.hbm, 88, rfl⟩
abbrev main_c_5 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_c_6 : Ref sig .tc := ⟨.hbm, 93, rfl⟩
abbrev main_v45 : Ref sig .tc := ⟨.hbm, 94, rfl⟩
abbrev main_v46 : Ref sig .tc := ⟨.hbm, 95, rfl⟩
abbrev main_c_7 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_cst_9 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_c_10 : Ref sig .tc := ⟨.hbm, 113, rfl⟩
abbrev main_v61 : Ref sig .tc := ⟨.hbm, 114, rfl⟩
abbrev main_v62 : Ref sig .tc := ⟨.hbm, 115, rfl⟩
abbrev main_c_11 : Ref sig .tc := ⟨.hbm, 116, rfl⟩
abbrev main_v63 : Ref sig .tc := ⟨.hbm, 117, rfl⟩
abbrev main_v64 : Ref sig .tc := ⟨.hbm, 118, rfl⟩
abbrev main_c_12 : Ref sig .tc := ⟨.hbm, 119, rfl⟩
abbrev main_v65 : Ref sig .tc := ⟨.hbm, 120, rfl⟩
abbrev main_v66 : Ref sig .tc := ⟨.hbm, 121, rfl⟩
abbrev main_c_13 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_c_14 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_15 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_c_16 : Ref sig .tc := ⟨.hbm, 134, rfl⟩
abbrev main_c_17 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_v76 : Ref sig .tc := ⟨.hbm, 141, rfl⟩
abbrev main_c_18 : Ref sig .tc := ⟨.hbm, 142, rfl⟩
abbrev main_v77 : Ref sig .tc := ⟨.hbm, 143, rfl⟩
abbrev main_v78 : Ref sig .tc := ⟨.hbm, 144, rfl⟩
abbrev main_c_19 : Ref sig .tc := ⟨.hbm, 145, rfl⟩
abbrev main_c_20 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_v79 : Ref sig .tc := ⟨.hbm, 152, rfl⟩
abbrev main_v80 : Ref sig .tc := ⟨.hbm, 153, rfl⟩
abbrev main_cst_21 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_v81 : Ref sig .tc := ⟨.hbm, 159, rfl⟩
abbrev main_c_22 : Ref sig .tc := ⟨.hbm, 160, rfl⟩
abbrev main_v82 : Ref sig .tc := ⟨.hbm, 161, rfl⟩
abbrev main_v83 : Ref sig .tc := ⟨.hbm, 162, rfl⟩
abbrev main_c_23 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_c_24 : Ref sig .tc := ⟨.hbm, 167, rfl⟩
abbrev main_v87 : Ref sig .tc := ⟨.hbm, 168, rfl⟩
abbrev main_v88 : Ref sig .tc := ⟨.hbm, 169, rfl⟩
abbrev main_c_25 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_26 : Ref sig .tc := ⟨.hbm, 179, rfl⟩
abbrev main_v97 : Ref sig .tc := ⟨.hbm, 180, rfl⟩
abbrev main_v98 : Ref sig .tc := ⟨.hbm, 181, rfl⟩
abbrev main_cst_27 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_c_28 : Ref sig .tc := ⟨.hbm, 186, rfl⟩
abbrev main_v102 : Ref sig .tc := ⟨.hbm, 187, rfl⟩
abbrev main_v103 : Ref sig .tc := ⟨.hbm, 188, rfl⟩
abbrev main_c_29 : Ref sig .tc := ⟨.hbm, 189, rfl⟩
abbrev main_v104 : Ref sig .tc := ⟨.hbm, 190, rfl⟩
abbrev main_v105 : Ref sig .tc := ⟨.hbm, 191, rfl⟩
abbrev main_c_30 : Ref sig .tc := ⟨.hbm, 192, rfl⟩
abbrev main_v106 : Ref sig .tc := ⟨.hbm, 193, rfl⟩
abbrev main_v107 : Ref sig .tc := ⟨.hbm, 194, rfl⟩
abbrev main_c_31 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_c_32 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_c_33 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_c_34 : Ref sig .tc := ⟨.hbm, 207, rfl⟩
abbrev main_c_35 : Ref sig .tc := ⟨.hbm, 208, rfl⟩
abbrev main_call4_v0 : Ref sig .tc := ⟨.hbm, 209, rfl⟩
abbrev main_call4_v1 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_v117 : Ref sig .tc := ⟨.hbm, 214, rfl⟩
abbrev main_c_36 : Ref sig .tc := ⟨.hbm, 215, rfl⟩
abbrev main_v118 : Ref sig .tc := ⟨.hbm, 216, rfl⟩
abbrev main_v119 : Ref sig .tc := ⟨.hbm, 217, rfl⟩
abbrev main_c_37 : Ref sig .tc := ⟨.hbm, 218, rfl⟩
abbrev main_c_38 : Ref sig .tc := ⟨.hbm, 219, rfl⟩
abbrev main_call5_v0 : Ref sig .tc := ⟨.hbm, 220, rfl⟩
abbrev main_call5_v1 : Ref sig .tc := ⟨.hbm, 221, rfl⟩
abbrev main_call5_v2 : Ref sig .tc := ⟨.hbm, 222, rfl⟩
abbrev main_call5_v3 : Ref sig .tc := ⟨.hbm, 223, rfl⟩
abbrev main_call5_v4 : Ref sig .tc := ⟨.hbm, 224, rfl⟩
abbrev main_v120 : Ref sig .tc := ⟨.hbm, 225, rfl⟩
abbrev main_v121 : Ref sig .tc := ⟨.hbm, 226, rfl⟩
abbrev main_cst_39 : Ref sig .tc := ⟨.hbm, 227, rfl⟩
abbrev main_call6_v0 : Ref sig .tc := ⟨.hbm, 228, rfl⟩
abbrev main_call6_v1 : Ref sig .tc := ⟨.hbm, 229, rfl⟩
abbrev main_call6_v2 : Ref sig .tc := ⟨.hbm, 230, rfl⟩
abbrev main_call6_v3 : Ref sig .tc := ⟨.hbm, 231, rfl⟩
abbrev main_v122 : Ref sig .tc := ⟨.hbm, 232, rfl⟩
abbrev main_c_40 : Ref sig .tc := ⟨.hbm, 233, rfl⟩
abbrev main_v123 : Ref sig .tc := ⟨.hbm, 234, rfl⟩
abbrev main_v124 : Ref sig .tc := ⟨.hbm, 235, rfl⟩
abbrev main_c_41 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_c_42 : Ref sig .tc := ⟨.hbm, 240, rfl⟩
abbrev main_v128 : Ref sig .tc := ⟨.hbm, 241, rfl⟩
abbrev main_v129 : Ref sig .tc := ⟨.hbm, 242, rfl⟩
abbrev main_c_43 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_cst_44 : Ref sig .tc := ⟨.hbm, 252, rfl⟩
abbrev main_v138 : Ref sig .tc := ⟨.hbm, 253, rfl⟩
abbrev main_v139 : Ref sig .tc := ⟨.hbm, 254, rfl⟩
abbrev main_cst_45 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_c_46 : Ref sig .tc := ⟨.hbm, 259, rfl⟩
abbrev main_v143 : Ref sig .tc := ⟨.hbm, 260, rfl⟩
abbrev main_v144 : Ref sig .tc := ⟨.hbm, 261, rfl⟩
abbrev main_c_47 : Ref sig .tc := ⟨.hbm, 262, rfl⟩
abbrev main_v145 : Ref sig .tc := ⟨.hbm, 263, rfl⟩
abbrev main_v146 : Ref sig .tc := ⟨.hbm, 264, rfl⟩
abbrev main_c_48 : Ref sig .tc := ⟨.hbm, 265, rfl⟩
abbrev main_v147 : Ref sig .tc := ⟨.hbm, 266, rfl⟩
abbrev main_v148 : Ref sig .tc := ⟨.hbm, 267, rfl⟩
abbrev main_c_49 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_c_50 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_c_51 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_c_52 : Ref sig .tc := ⟨.hbm, 280, rfl⟩
abbrev main_c_53 : Ref sig .tc := ⟨.hbm, 281, rfl⟩
abbrev main_call7_v0 : Ref sig .tc := ⟨.hbm, 282, rfl⟩
abbrev main_call7_v1 : Ref sig .tc := ⟨.hbm, 283, rfl⟩
abbrev main_call7_v2 : Ref sig .tc := ⟨.hbm, 284, rfl⟩
abbrev main_call7_v3 : Ref sig .tc := ⟨.hbm, 285, rfl⟩
abbrev main_call7_v4 : Ref sig .tc := ⟨.hbm, 286, rfl⟩
abbrev main_v158 : Ref sig .tc := ⟨.hbm, 287, rfl⟩
abbrev main_c_54 : Ref sig .tc := ⟨.hbm, 288, rfl⟩
abbrev main_v159 : Ref sig .tc := ⟨.hbm, 289, rfl⟩
abbrev main_v160 : Ref sig .tc := ⟨.hbm, 290, rfl⟩
abbrev main_c_55 : Ref sig .tc := ⟨.hbm, 291, rfl⟩
abbrev main_c_56 : Ref sig .tc := ⟨.hbm, 292, rfl⟩
abbrev main_call8_v0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_v161 : Ref sig .tc := ⟨.hbm, 298, rfl⟩
abbrev main_v162 : Ref sig .tc := ⟨.hbm, 299, rfl⟩
abbrev main_cst_57 : Ref sig .tc := ⟨.hbm, 300, rfl⟩
abbrev main_call9_v0 : Ref sig .tc := ⟨.hbm, 301, rfl⟩
abbrev main_call9_v1 : Ref sig .tc := ⟨.hbm, 302, rfl⟩
abbrev main_call9_v2 : Ref sig .tc := ⟨.hbm, 303, rfl⟩
abbrev main_call9_v3 : Ref sig .tc := ⟨.hbm, 304, rfl⟩
abbrev main_v163 : Ref sig .tc := ⟨.hbm, 305, rfl⟩
abbrev main_c_58 : Ref sig .tc := ⟨.hbm, 306, rfl⟩
abbrev main_v164 : Ref sig .tc := ⟨.hbm, 307, rfl⟩
abbrev main_v165 : Ref sig .tc := ⟨.hbm, 308, rfl⟩
abbrev main_c_59 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_c_60 : Ref sig .tc := ⟨.hbm, 313, rfl⟩
abbrev main_v169 : Ref sig .tc := ⟨.hbm, 314, rfl⟩
abbrev main_v170 : Ref sig .tc := ⟨.hbm, 315, rfl⟩
abbrev main_c_61 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_v174 : Ref sig .tc := ⟨.hbm, 320, rfl⟩
abbrev main_v175 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_cst_62 : Ref sig .tc := ⟨.hbm, 325, rfl⟩
abbrev main_v179 : Ref sig .tc := ⟨.hbm, 326, rfl⟩
abbrev main_v180 : Ref sig .tc := ⟨.hbm, 327, rfl⟩
abbrev main_cst_63 : Ref sig .tc := ⟨.hbm, 328, rfl⟩
abbrev main_v181 : Ref sig .tc := ⟨.hbm, 329, rfl⟩
abbrev main_v182 : Ref sig .tc := ⟨.hbm, 330, rfl⟩
abbrev main_v183 : Ref sig .tc := ⟨.hbm, 331, rfl⟩
abbrev main_c_64 : Ref sig .tc := ⟨.hbm, 332, rfl⟩
abbrev main_v184 : Ref sig .tc := ⟨.hbm, 333, rfl⟩
abbrev main_v185 : Ref sig .tc := ⟨.hbm, 334, rfl⟩
abbrev main_c_65 : Ref sig .tc := ⟨.hbm, 335, rfl⟩
abbrev main_v186 : Ref sig .tc := ⟨.hbm, 336, rfl⟩
abbrev main_v187 : Ref sig .tc := ⟨.hbm, 337, rfl⟩
abbrev main_c_66 : Ref sig .tc := ⟨.hbm, 338, rfl⟩
abbrev main_v188 : Ref sig .tc := ⟨.hbm, 339, rfl⟩
abbrev main_v189 : Ref sig .tc := ⟨.hbm, 340, rfl⟩
abbrev main_c_67 : Ref sig .tc := ⟨.hbm, 341, rfl⟩
abbrev main_v190 : Ref sig .tc := ⟨.hbm, 342, rfl⟩
abbrev main_v191 : Ref sig .tc := ⟨.hbm, 343, rfl⟩
abbrev main_v192 : Ref sig .tc := ⟨.hbm, 344, rfl⟩
abbrev main_c_68 : Ref sig .tc := ⟨.hbm, 345, rfl⟩
abbrev main_v193 : Ref sig .tc := ⟨.hbm, 346, rfl⟩
abbrev main_v194 : Ref sig .tc := ⟨.hbm, 347, rfl⟩
abbrev main_v195 : Ref sig .tc := ⟨.hbm, 348, rfl⟩
abbrev main_c_69 : Ref sig .tc := ⟨.hbm, 349, rfl⟩
abbrev main_v196 : Ref sig .tc := ⟨.hbm, 350, rfl⟩
abbrev main_v197 : Ref sig .tc := ⟨.hbm, 351, rfl⟩
abbrev main_v198 : Ref sig .tc := ⟨.hbm, 352, rfl⟩
abbrev main_c_70 : Ref sig .tc := ⟨.hbm, 353, rfl⟩
abbrev main_c_71 : Ref sig .tc := ⟨.hbm, 354, rfl⟩
abbrev main_call10_v0 : Ref sig .tc := ⟨.hbm, 355, rfl⟩
abbrev main_call10_v1 : Ref sig .tc := ⟨.hbm, 356, rfl⟩
abbrev main_call10_v2 : Ref sig .tc := ⟨.hbm, 357, rfl⟩
abbrev main_call10_v3 : Ref sig .tc := ⟨.hbm, 358, rfl⟩
abbrev main_call10_v4 : Ref sig .tc := ⟨.hbm, 359, rfl⟩
abbrev main_v199 : Ref sig .tc := ⟨.hbm, 360, rfl⟩
abbrev main_c_72 : Ref sig .tc := ⟨.hbm, 361, rfl⟩
abbrev main_v200 : Ref sig .tc := ⟨.hbm, 362, rfl⟩
abbrev main_v201 : Ref sig .tc := ⟨.hbm, 363, rfl⟩
abbrev main_c_73 : Ref sig .tc := ⟨.hbm, 364, rfl⟩
abbrev main_c_74 : Ref sig .tc := ⟨.hbm, 365, rfl⟩
abbrev main_call11_v0 : Ref sig .tc := ⟨.hbm, 366, rfl⟩
abbrev main_call11_v1 : Ref sig .tc := ⟨.hbm, 367, rfl⟩
abbrev main_call11_v2 : Ref sig .tc := ⟨.hbm, 368, rfl⟩
abbrev main_call11_v3 : Ref sig .tc := ⟨.hbm, 369, rfl⟩
abbrev main_call11_v4 : Ref sig .tc := ⟨.hbm, 370, rfl⟩
abbrev main_v202 : Ref sig .tc := ⟨.hbm, 371, rfl⟩
abbrev main_v203 : Ref sig .tc := ⟨.hbm, 372, rfl⟩
abbrev main_cst_75 : Ref sig .tc := ⟨.hbm, 373, rfl⟩
abbrev main_call12_v0 : Ref sig .tc := ⟨.hbm, 374, rfl⟩
abbrev main_call12_v1 : Ref sig .tc := ⟨.hbm, 375, rfl⟩
abbrev main_call12_v2 : Ref sig .tc := ⟨.hbm, 376, rfl⟩
abbrev main_call12_v3 : Ref sig .tc := ⟨.hbm, 377, rfl⟩
abbrev main_v204 : Ref sig .tc := ⟨.hbm, 378, rfl⟩
abbrev main_c_76 : Ref sig .tc := ⟨.hbm, 379, rfl⟩
abbrev main_v205 : Ref sig .tc := ⟨.hbm, 380, rfl⟩
abbrev main_v206 : Ref sig .tc := ⟨.hbm, 381, rfl⟩
abbrev main_c_77 : Ref sig .tc := ⟨.hbm, 382, rfl⟩
abbrev main_v207 : Ref sig .tc := ⟨.hbm, 383, rfl⟩
abbrev main_v208 : Ref sig .tc := ⟨.hbm, 384, rfl⟩
abbrev main_v209 : Ref sig .tc := ⟨.hbm, 385, rfl⟩
abbrev main_c_78 : Ref sig .tc := ⟨.hbm, 386, rfl⟩
abbrev main_v210 : Ref sig .tc := ⟨.hbm, 387, rfl⟩
abbrev main_v211 : Ref sig .tc := ⟨.hbm, 388, rfl⟩
abbrev main_c_79 : Ref sig .tc := ⟨.hbm, 389, rfl⟩
abbrev main_v212 : Ref sig .tc := ⟨.hbm, 390, rfl⟩
abbrev main_v213 : Ref sig .tc := ⟨.hbm, 391, rfl⟩
abbrev main_v214 : Ref sig .tc := ⟨.hbm, 392, rfl⟩
abbrev main_v215 : Ref sig .tc := ⟨.hbm, 393, rfl⟩
abbrev main_v216 : Ref sig .tc := ⟨.hbm, 394, rfl⟩
abbrev main_v217 : Ref sig .tc := ⟨.hbm, 395, rfl⟩
abbrev main_v218 : Ref sig .tc := ⟨.hbm, 396, rfl⟩
abbrev main_cst_80 : Ref sig .tc := ⟨.hbm, 397, rfl⟩
abbrev main_v219 : Ref sig .tc := ⟨.hbm, 398, rfl⟩
abbrev main_v220 : Ref sig .tc := ⟨.hbm, 399, rfl⟩
abbrev main_v221 : Ref sig .tc := ⟨.hbm, 400, rfl⟩
abbrev main_c_81 : Ref sig .tc := ⟨.hbm, 401, rfl⟩
abbrev main_v222 : Ref sig .tc := ⟨.hbm, 402, rfl⟩
abbrev main_v223 : Ref sig .tc := ⟨.hbm, 403, rfl⟩
abbrev main_c_82 : Ref sig .tc := ⟨.hbm, 404, rfl⟩
abbrev main_v224 : Ref sig .tc := ⟨.hbm, 405, rfl⟩
abbrev main_v225 : Ref sig .tc := ⟨.hbm, 406, rfl⟩
abbrev main_c_83 : Ref sig .tc := ⟨.hbm, 407, rfl⟩
abbrev main_v226 : Ref sig .tc := ⟨.hbm, 408, rfl⟩
abbrev main_v227 : Ref sig .tc := ⟨.hbm, 409, rfl⟩
abbrev main_c_84 : Ref sig .tc := ⟨.hbm, 410, rfl⟩
abbrev main_v228 : Ref sig .tc := ⟨.hbm, 411, rfl⟩
abbrev main_v229 : Ref sig .tc := ⟨.hbm, 412, rfl⟩
abbrev main_v230 : Ref sig .tc := ⟨.hbm, 413, rfl⟩
abbrev main_c_85 : Ref sig .tc := ⟨.hbm, 414, rfl⟩
abbrev main_v231 : Ref sig .tc := ⟨.hbm, 415, rfl⟩
abbrev main_v232 : Ref sig .tc := ⟨.hbm, 416, rfl⟩
abbrev main_v233 : Ref sig .tc := ⟨.hbm, 417, rfl⟩
abbrev main_c_86 : Ref sig .tc := ⟨.hbm, 418, rfl⟩
abbrev main_v234 : Ref sig .tc := ⟨.hbm, 419, rfl⟩
abbrev main_v235 : Ref sig .tc := ⟨.hbm, 420, rfl⟩
abbrev main_v236 : Ref sig .tc := ⟨.hbm, 421, rfl⟩
abbrev main_c_87 : Ref sig .tc := ⟨.hbm, 422, rfl⟩
abbrev main_c_88 : Ref sig .tc := ⟨.hbm, 423, rfl⟩
abbrev main_call13_v0 : Ref sig .tc := ⟨.hbm, 424, rfl⟩
abbrev main_call13_v1 : Ref sig .tc := ⟨.hbm, 425, rfl⟩
abbrev main_call13_v2 : Ref sig .tc := ⟨.hbm, 426, rfl⟩
abbrev main_call13_v3 : Ref sig .tc := ⟨.hbm, 427, rfl⟩
abbrev main_call13_v4 : Ref sig .tc := ⟨.hbm, 428, rfl⟩
abbrev main_v237 : Ref sig .tc := ⟨.hbm, 429, rfl⟩
abbrev main_c_89 : Ref sig .tc := ⟨.hbm, 430, rfl⟩
abbrev main_v238 : Ref sig .tc := ⟨.hbm, 431, rfl⟩
abbrev main_v239 : Ref sig .tc := ⟨.hbm, 432, rfl⟩
abbrev main_c_90 : Ref sig .tc := ⟨.hbm, 433, rfl⟩
abbrev main_c_91 : Ref sig .tc := ⟨.hbm, 434, rfl⟩
abbrev main_call14_v0 : Ref sig .tc := ⟨.hbm, 435, rfl⟩
abbrev main_call14_v1 : Ref sig .tc := ⟨.hbm, 436, rfl⟩
abbrev main_call14_v2 : Ref sig .tc := ⟨.hbm, 437, rfl⟩
abbrev main_call14_v3 : Ref sig .tc := ⟨.hbm, 438, rfl⟩
abbrev main_call14_v4 : Ref sig .tc := ⟨.hbm, 439, rfl⟩
abbrev main_v240 : Ref sig .tc := ⟨.hbm, 440, rfl⟩
abbrev main_v241 : Ref sig .tc := ⟨.hbm, 441, rfl⟩
abbrev main_cst_92 : Ref sig .tc := ⟨.hbm, 442, rfl⟩
abbrev main_call15_v0 : Ref sig .tc := ⟨.hbm, 443, rfl⟩
abbrev main_call15_v1 : Ref sig .tc := ⟨.hbm, 444, rfl⟩
abbrev main_call15_v2 : Ref sig .tc := ⟨.hbm, 445, rfl⟩
abbrev main_call15_v3 : Ref sig .tc := ⟨.hbm, 446, rfl⟩
abbrev main_v242 : Ref sig .tc := ⟨.hbm, 447, rfl⟩
abbrev main_c_93 : Ref sig .tc := ⟨.hbm, 448, rfl⟩
abbrev main_v243 : Ref sig .tc := ⟨.hbm, 449, rfl⟩
abbrev main_v244 : Ref sig .tc := ⟨.hbm, 450, rfl⟩
abbrev main_c_94 : Ref sig .tc := ⟨.hbm, 451, rfl⟩
abbrev main_v245 : Ref sig .tc := ⟨.hbm, 452, rfl⟩
abbrev main_v246 : Ref sig .tc := ⟨.hbm, 453, rfl⟩
abbrev main_v247 : Ref sig .tc := ⟨.hbm, 454, rfl⟩
abbrev main_c_95 : Ref sig .tc := ⟨.hbm, 455, rfl⟩
abbrev main_v248 : Ref sig .tc := ⟨.hbm, 456, rfl⟩
abbrev main_v249 : Ref sig .tc := ⟨.hbm, 457, rfl⟩
abbrev main_c_96 : Ref sig .tc := ⟨.hbm, 458, rfl⟩
abbrev main_v250 : Ref sig .tc := ⟨.hbm, 459, rfl⟩
abbrev main_v251 : Ref sig .tc := ⟨.hbm, 460, rfl⟩
abbrev main_v252 : Ref sig .tc := ⟨.hbm, 461, rfl⟩
abbrev main_v253 : Ref sig .tc := ⟨.hbm, 462, rfl⟩
abbrev main_v254 : Ref sig .tc := ⟨.hbm, 463, rfl⟩
abbrev main_v255 : Ref sig .tc := ⟨.hbm, 464, rfl⟩
abbrev main_v256 : Ref sig .tc := ⟨.hbm, 465, rfl⟩
abbrev main_v257 : Ref sig .tc := ⟨.hbm, 466, rfl⟩
abbrev main_c_97 : Ref sig .tc := ⟨.hbm, 467, rfl⟩
abbrev main_v258 : Ref sig .tc := ⟨.hbm, 468, rfl⟩
abbrev main_v259 : Ref sig .tc := ⟨.hbm, 469, rfl⟩
abbrev main_c_98 : Ref sig .tc := ⟨.hbm, 470, rfl⟩
abbrev main_v260 : Ref sig .tc := ⟨.hbm, 471, rfl⟩
abbrev main_v261 : Ref sig .tc := ⟨.hbm, 472, rfl⟩
abbrev main_c_99 : Ref sig .tc := ⟨.hbm, 473, rfl⟩
abbrev main_v262 : Ref sig .tc := ⟨.hbm, 474, rfl⟩
abbrev main_v263 : Ref sig .tc := ⟨.hbm, 475, rfl⟩
abbrev main_c_100 : Ref sig .tc := ⟨.hbm, 476, rfl⟩
abbrev main_v264 : Ref sig .tc := ⟨.hbm, 477, rfl⟩
abbrev main_v265 : Ref sig .tc := ⟨.hbm, 478, rfl⟩
abbrev main_v266 : Ref sig .tc := ⟨.hbm, 479, rfl⟩
abbrev main_c_101 : Ref sig .tc := ⟨.hbm, 480, rfl⟩
abbrev main_v267 : Ref sig .tc := ⟨.hbm, 481, rfl⟩
abbrev main_v268 : Ref sig .tc := ⟨.hbm, 482, rfl⟩
abbrev main_v269 : Ref sig .tc := ⟨.hbm, 483, rfl⟩
abbrev main_c_102 : Ref sig .tc := ⟨.hbm, 484, rfl⟩
abbrev main_v270 : Ref sig .tc := ⟨.hbm, 485, rfl⟩
abbrev main_v271 : Ref sig .tc := ⟨.hbm, 486, rfl⟩
abbrev main_v272 : Ref sig .tc := ⟨.hbm, 487, rfl⟩
abbrev main_c_103 : Ref sig .tc := ⟨.hbm, 488, rfl⟩
abbrev main_c_104 : Ref sig .tc := ⟨.hbm, 489, rfl⟩
abbrev main_call16_v0 : Ref sig .tc := ⟨.hbm, 490, rfl⟩
abbrev main_call16_v1 : Ref sig .tc := ⟨.hbm, 491, rfl⟩
abbrev main_call16_v2 : Ref sig .tc := ⟨.hbm, 492, rfl⟩
abbrev main_call16_v3 : Ref sig .tc := ⟨.hbm, 493, rfl⟩
abbrev main_call16_v4 : Ref sig .tc := ⟨.hbm, 494, rfl⟩
abbrev main_v273 : Ref sig .tc := ⟨.hbm, 495, rfl⟩
abbrev main_c_105 : Ref sig .tc := ⟨.hbm, 496, rfl⟩
abbrev main_v274 : Ref sig .tc := ⟨.hbm, 497, rfl⟩
abbrev main_v275 : Ref sig .tc := ⟨.hbm, 498, rfl⟩
abbrev main_c_106 : Ref sig .tc := ⟨.hbm, 499, rfl⟩
abbrev main_c_107 : Ref sig .tc := ⟨.hbm, 500, rfl⟩
abbrev main_call17_v0 : Ref sig .tc := ⟨.hbm, 501, rfl⟩
abbrev main_call17_v1 : Ref sig .tc := ⟨.hbm, 502, rfl⟩
abbrev main_call17_v2 : Ref sig .tc := ⟨.hbm, 503, rfl⟩
abbrev main_call17_v3 : Ref sig .tc := ⟨.hbm, 504, rfl⟩
abbrev main_call17_v4 : Ref sig .tc := ⟨.hbm, 505, rfl⟩
abbrev main_v276 : Ref sig .tc := ⟨.hbm, 506, rfl⟩
abbrev main_v277 : Ref sig .tc := ⟨.hbm, 507, rfl⟩
abbrev main_cst_108 : Ref sig .tc := ⟨.hbm, 508, rfl⟩
abbrev main_call18_v0 : Ref sig .tc := ⟨.hbm, 509, rfl⟩
abbrev main_call18_v1 : Ref sig .tc := ⟨.hbm, 510, rfl⟩
abbrev main_call18_v2 : Ref sig .tc := ⟨.hbm, 511, rfl⟩
abbrev main_call18_v3 : Ref sig .tc := ⟨.hbm, 512, rfl⟩
abbrev main_v278 : Ref sig .tc := ⟨.hbm, 513, rfl⟩
abbrev main_c_109 : Ref sig .tc := ⟨.hbm, 514, rfl⟩
abbrev main_v279 : Ref sig .tc := ⟨.hbm, 515, rfl⟩
abbrev main_v280 : Ref sig .tc := ⟨.hbm, 516, rfl⟩
abbrev main_c_110 : Ref sig .tc := ⟨.hbm, 517, rfl⟩
abbrev main_v281 : Ref sig .tc := ⟨.hbm, 518, rfl⟩
abbrev main_v282 : Ref sig .tc := ⟨.hbm, 519, rfl⟩
abbrev main_v283 : Ref sig .tc := ⟨.hbm, 520, rfl⟩
abbrev main_c_111 : Ref sig .tc := ⟨.hbm, 521, rfl⟩
abbrev main_v284 : Ref sig .tc := ⟨.hbm, 522, rfl⟩
abbrev main_v285 : Ref sig .tc := ⟨.hbm, 523, rfl⟩
abbrev main_c_112 : Ref sig .tc := ⟨.hbm, 524, rfl⟩
abbrev main_v286 : Ref sig .tc := ⟨.hbm, 525, rfl⟩
abbrev main_v287 : Ref sig .tc := ⟨.hbm, 526, rfl⟩
abbrev main_v288 : Ref sig .tc := ⟨.hbm, 527, rfl⟩
abbrev main_v289 : Ref sig .tc := ⟨.hbm, 528, rfl⟩
abbrev main_v290 : Ref sig .tc := ⟨.hbm, 529, rfl⟩
abbrev main_v291 : Ref sig .tc := ⟨.hbm, 530, rfl⟩
abbrev main_v292 : Ref sig .tc := ⟨.hbm, 531, rfl⟩
abbrev main_c_113 : Ref sig .tc := ⟨.hbm, 532, rfl⟩
abbrev main_v293 : Ref sig .tc := ⟨.hbm, 533, rfl⟩
abbrev main_v294 : Ref sig .tc := ⟨.hbm, 534, rfl⟩
abbrev main_c_114 : Ref sig .tc := ⟨.hbm, 535, rfl⟩
abbrev main_v295 : Ref sig .tc := ⟨.hbm, 536, rfl⟩
abbrev main_v296 : Ref sig .tc := ⟨.hbm, 537, rfl⟩
abbrev main_c_115 : Ref sig .tc := ⟨.hbm, 538, rfl⟩
abbrev main_v297 : Ref sig .tc := ⟨.hbm, 539, rfl⟩
abbrev main_v298 : Ref sig .tc := ⟨.hbm, 540, rfl⟩
abbrev main_c_116 : Ref sig .tc := ⟨.hbm, 541, rfl⟩
abbrev main_v299 : Ref sig .tc := ⟨.hbm, 542, rfl⟩
abbrev main_v300 : Ref sig .tc := ⟨.hbm, 543, rfl⟩
abbrev main_v301 : Ref sig .tc := ⟨.hbm, 544, rfl⟩
abbrev main_c_117 : Ref sig .tc := ⟨.hbm, 545, rfl⟩
abbrev main_v302 : Ref sig .tc := ⟨.hbm, 546, rfl⟩
abbrev main_v303 : Ref sig .tc := ⟨.hbm, 547, rfl⟩
abbrev main_v304 : Ref sig .tc := ⟨.hbm, 548, rfl⟩
abbrev main_c_118 : Ref sig .tc := ⟨.hbm, 549, rfl⟩
abbrev main_v305 : Ref sig .tc := ⟨.hbm, 550, rfl⟩
abbrev main_v306 : Ref sig .tc := ⟨.hbm, 551, rfl⟩
abbrev main_v307 : Ref sig .tc := ⟨.hbm, 552, rfl⟩
abbrev main_c_119 : Ref sig .tc := ⟨.hbm, 553, rfl⟩
abbrev main_c_120 : Ref sig .tc := ⟨.hbm, 554, rfl⟩
abbrev main_call19_v0 : Ref sig .tc := ⟨.hbm, 555, rfl⟩
abbrev main_call19_v1 : Ref sig .tc := ⟨.hbm, 556, rfl⟩
abbrev main_call19_v2 : Ref sig .tc := ⟨.hbm, 557, rfl⟩
abbrev main_call19_v3 : Ref sig .tc := ⟨.hbm, 558, rfl⟩
abbrev main_call19_v4 : Ref sig .tc := ⟨.hbm, 559, rfl⟩
abbrev main_v308 : Ref sig .tc := ⟨.hbm, 560, rfl⟩
abbrev main_c_121 : Ref sig .tc := ⟨.hbm, 561, rfl⟩
abbrev main_v309 : Ref sig .tc := ⟨.hbm, 562, rfl⟩
abbrev main_v310 : Ref sig .tc := ⟨.hbm, 563, rfl⟩
abbrev main_c_122 : Ref sig .tc := ⟨.hbm, 564, rfl⟩
abbrev main_c_123 : Ref sig .tc := ⟨.hbm, 565, rfl⟩
abbrev main_call20_v0 : Ref sig .tc := ⟨.hbm, 566, rfl⟩
abbrev main_call20_v1 : Ref sig .tc := ⟨.hbm, 567, rfl⟩
abbrev main_call20_v2 : Ref sig .tc := ⟨.hbm, 568, rfl⟩
abbrev main_call20_v3 : Ref sig .tc := ⟨.hbm, 569, rfl⟩
abbrev main_call20_v4 : Ref sig .tc := ⟨.hbm, 570, rfl⟩
abbrev main_v311 : Ref sig .tc := ⟨.hbm, 571, rfl⟩
abbrev main_v312 : Ref sig .tc := ⟨.hbm, 572, rfl⟩
abbrev main_cst_124 : Ref sig .tc := ⟨.hbm, 573, rfl⟩
abbrev main_call21_v0 : Ref sig .tc := ⟨.hbm, 574, rfl⟩
abbrev main_call21_v1 : Ref sig .tc := ⟨.hbm, 575, rfl⟩
abbrev main_call21_v2 : Ref sig .tc := ⟨.hbm, 576, rfl⟩
abbrev main_call21_v3 : Ref sig .tc := ⟨.hbm, 577, rfl⟩
abbrev main_v313 : Ref sig .tc := ⟨.hbm, 578, rfl⟩
abbrev main_c_125 : Ref sig .tc := ⟨.hbm, 579, rfl⟩
abbrev main_v314 : Ref sig .tc := ⟨.hbm, 580, rfl⟩
abbrev main_v315 : Ref sig .tc := ⟨.hbm, 581, rfl⟩
abbrev main_c_126 : Ref sig .tc := ⟨.hbm, 582, rfl⟩
abbrev main_v316 : Ref sig .tc := ⟨.hbm, 583, rfl⟩
abbrev main_v317 : Ref sig .tc := ⟨.hbm, 584, rfl⟩
abbrev main_v318 : Ref sig .tc := ⟨.hbm, 585, rfl⟩
abbrev main_c_127 : Ref sig .tc := ⟨.hbm, 586, rfl⟩
abbrev main_v319 : Ref sig .tc := ⟨.hbm, 587, rfl⟩
abbrev main_v320 : Ref sig .tc := ⟨.hbm, 588, rfl⟩
abbrev main_c_128 : Ref sig .tc := ⟨.hbm, 589, rfl⟩
abbrev main_v321 : Ref sig .tc := ⟨.hbm, 590, rfl⟩
abbrev main_v322 : Ref sig .tc := ⟨.hbm, 591, rfl⟩
abbrev main_v323 : Ref sig .tc := ⟨.hbm, 592, rfl⟩
abbrev main_v324 : Ref sig .tc := ⟨.hbm, 593, rfl⟩
abbrev main_v325 : Ref sig .tc := ⟨.hbm, 594, rfl⟩
abbrev main_v326 : Ref sig .tc := ⟨.hbm, 595, rfl⟩
abbrev main_v327 : Ref sig .tc := ⟨.hbm, 596, rfl⟩
abbrev main_c_129 : Ref sig .tc := ⟨.hbm, 597, rfl⟩
abbrev main_v328 : Ref sig .tc := ⟨.hbm, 598, rfl⟩
abbrev main_v329 : Ref sig .tc := ⟨.hbm, 599, rfl⟩
abbrev main_c_130 : Ref sig .tc := ⟨.hbm, 600, rfl⟩
abbrev main_v330 : Ref sig .tc := ⟨.hbm, 601, rfl⟩
abbrev main_v331 : Ref sig .tc := ⟨.hbm, 602, rfl⟩
abbrev main_c_131 : Ref sig .tc := ⟨.hbm, 603, rfl⟩
abbrev main_v332 : Ref sig .tc := ⟨.hbm, 604, rfl⟩
abbrev main_v333 : Ref sig .tc := ⟨.hbm, 605, rfl⟩
abbrev main_c_132 : Ref sig .tc := ⟨.hbm, 606, rfl⟩
abbrev main_v334 : Ref sig .tc := ⟨.hbm, 607, rfl⟩
abbrev main_v335 : Ref sig .tc := ⟨.hbm, 608, rfl⟩
abbrev main_v336 : Ref sig .tc := ⟨.hbm, 609, rfl⟩
abbrev main_c_133 : Ref sig .tc := ⟨.hbm, 610, rfl⟩
abbrev main_v337 : Ref sig .tc := ⟨.hbm, 611, rfl⟩
abbrev main_v338 : Ref sig .tc := ⟨.hbm, 612, rfl⟩
abbrev main_v339 : Ref sig .tc := ⟨.hbm, 613, rfl⟩
abbrev main_c_134 : Ref sig .tc := ⟨.hbm, 614, rfl⟩
abbrev main_v340 : Ref sig .tc := ⟨.hbm, 615, rfl⟩
abbrev main_v341 : Ref sig .tc := ⟨.hbm, 616, rfl⟩
abbrev main_v342 : Ref sig .tc := ⟨.hbm, 617, rfl⟩
abbrev main_c_135 : Ref sig .tc := ⟨.hbm, 618, rfl⟩
abbrev main_c_136 : Ref sig .tc := ⟨.hbm, 619, rfl⟩
abbrev main_call22_v0 : Ref sig .tc := ⟨.hbm, 620, rfl⟩
abbrev main_call22_v1 : Ref sig .tc := ⟨.hbm, 621, rfl⟩
abbrev main_call22_v2 : Ref sig .tc := ⟨.hbm, 622, rfl⟩
abbrev main_call22_v3 : Ref sig .tc := ⟨.hbm, 623, rfl⟩
abbrev main_call22_v4 : Ref sig .tc := ⟨.hbm, 624, rfl⟩
abbrev main_v343 : Ref sig .tc := ⟨.hbm, 625, rfl⟩
abbrev main_c_137 : Ref sig .tc := ⟨.hbm, 626, rfl⟩
abbrev main_v344 : Ref sig .tc := ⟨.hbm, 627, rfl⟩
abbrev main_v345 : Ref sig .tc := ⟨.hbm, 628, rfl⟩
abbrev main_c_138 : Ref sig .tc := ⟨.hbm, 629, rfl⟩
abbrev main_c_139 : Ref sig .tc := ⟨.hbm, 630, rfl⟩
abbrev main_call23_v0 : Ref sig .tc := ⟨.hbm, 631, rfl⟩
abbrev main_call23_v1 : Ref sig .tc := ⟨.hbm, 632, rfl⟩
abbrev main_call23_v2 : Ref sig .tc := ⟨.hbm, 633, rfl⟩
abbrev main_call23_v3 : Ref sig .tc := ⟨.hbm, 634, rfl⟩
abbrev main_call23_v4 : Ref sig .tc := ⟨.hbm, 635, rfl⟩
abbrev main_v346 : Ref sig .tc := ⟨.hbm, 636, rfl⟩
abbrev main_v347 : Ref sig .tc := ⟨.hbm, 637, rfl⟩
abbrev main_cst_140 : Ref sig .tc := ⟨.hbm, 638, rfl⟩
abbrev main_call24_v0 : Ref sig .tc := ⟨.hbm, 639, rfl⟩
abbrev main_call24_v1 : Ref sig .tc := ⟨.hbm, 640, rfl⟩
abbrev main_call24_v2 : Ref sig .tc := ⟨.hbm, 641, rfl⟩
abbrev main_call24_v3 : Ref sig .tc := ⟨.hbm, 642, rfl⟩
abbrev main_v348 : Ref sig .tc := ⟨.hbm, 643, rfl⟩
abbrev main_c_141 : Ref sig .tc := ⟨.hbm, 644, rfl⟩
abbrev main_v349 : Ref sig .tc := ⟨.hbm, 645, rfl⟩
abbrev main_v350 : Ref sig .tc := ⟨.hbm, 646, rfl⟩
abbrev main_c_142 : Ref sig .tc := ⟨.hbm, 647, rfl⟩
abbrev main_v351 : Ref sig .tc := ⟨.hbm, 648, rfl⟩
abbrev main_v352 : Ref sig .tc := ⟨.hbm, 649, rfl⟩
abbrev main_v353 : Ref sig .tc := ⟨.hbm, 650, rfl⟩
abbrev main_c_143 : Ref sig .tc := ⟨.hbm, 651, rfl⟩
abbrev main_v354 : Ref sig .tc := ⟨.hbm, 652, rfl⟩
abbrev main_v355 : Ref sig .tc := ⟨.hbm, 653, rfl⟩
abbrev main_c_144 : Ref sig .tc := ⟨.hbm, 654, rfl⟩
abbrev main_v356 : Ref sig .tc := ⟨.hbm, 655, rfl⟩
abbrev main_v357 : Ref sig .tc := ⟨.hbm, 656, rfl⟩
abbrev main_v358 : Ref sig .tc := ⟨.hbm, 657, rfl⟩
abbrev main_v359 : Ref sig .tc := ⟨.hbm, 658, rfl⟩
abbrev main_v360 : Ref sig .tc := ⟨.hbm, 659, rfl⟩
abbrev main_v361 : Ref sig .tc := ⟨.hbm, 660, rfl⟩
abbrev main_v362 : Ref sig .tc := ⟨.hbm, 661, rfl⟩
abbrev main_v363 : Ref sig .tc := ⟨.hbm, 662, rfl⟩
abbrev main_v364 : Ref sig .tc := ⟨.hbm, 663, rfl⟩
abbrev main_v365 : Ref sig .tc := ⟨.hbm, 664, rfl⟩
abbrev main_c_145 : Ref sig .tc := ⟨.hbm, 665, rfl⟩
abbrev main_v366 : Ref sig .tc := ⟨.hbm, 666, rfl⟩
abbrev main_v367 : Ref sig .tc := ⟨.hbm, 667, rfl⟩
abbrev main_v368 : Ref sig .tc := ⟨.hbm, 668, rfl⟩
abbrev main_v369 : Ref sig .tc := ⟨.hbm, 669, rfl⟩
abbrev main_cst_146 : Ref sig .tc := ⟨.hbm, 670, rfl⟩
abbrev main_v370 : Ref sig .tc := ⟨.hbm, 671, rfl⟩
abbrev main_v371 : Ref sig .tc := ⟨.hbm, 672, rfl⟩
abbrev main_v372 : Ref sig .tc := ⟨.hbm, 673, rfl⟩
abbrev main_v373 : Ref sig .tc := ⟨.hbm, 674, rfl⟩
abbrev main_v374 : Ref sig .tc := ⟨.hbm, 675, rfl⟩
abbrev main_v375 : Ref sig .tc := ⟨.hbm, 676, rfl⟩
abbrev main_cst_147 : Ref sig .tc := ⟨.hbm, 677, rfl⟩
abbrev main_v376 : Ref sig .tc := ⟨.hbm, 678, rfl⟩
abbrev main_v377 : Ref sig .tc := ⟨.hbm, 679, rfl⟩
abbrev main_v378 : Ref sig .tc := ⟨.hbm, 680, rfl⟩
abbrev main_v379 : Ref sig .tc := ⟨.hbm, 681, rfl⟩
abbrev main_v380 : Ref sig .tc := ⟨.hbm, 682, rfl⟩
abbrev main_v381 : Ref sig .tc := ⟨.hbm, 683, rfl⟩
abbrev main_v382 : Ref sig .tc := ⟨.hbm, 684, rfl⟩
abbrev main_v383 : Ref sig .tc := ⟨.hbm, 685, rfl⟩
abbrev main_v384 : Ref sig .tc := ⟨.hbm, 686, rfl⟩
abbrev main_v385 : Ref sig .tc := ⟨.hbm, 687, rfl⟩
abbrev main_v386 : Ref sig .tc := ⟨.hbm, 688, rfl⟩
abbrev main_v387 : Ref sig .tc := ⟨.hbm, 689, rfl⟩
abbrev main_v388 : Ref sig .tc := ⟨.hbm, 690, rfl⟩
abbrev main_cst_148 : Ref sig .tc := ⟨.hbm, 691, rfl⟩
abbrev main_v389 : Ref sig .tc := ⟨.hbm, 692, rfl⟩
abbrev main_v390 : Ref sig .tc := ⟨.hbm, 693, rfl⟩
abbrev main_v391 : Ref sig .tc := ⟨.hbm, 694, rfl⟩
abbrev main_v392 : Ref sig .tc := ⟨.hbm, 695, rfl⟩
abbrev main_v393 : Ref sig .tc := ⟨.hbm, 696, rfl⟩
abbrev main_v394 : Ref sig .tc := ⟨.hbm, 697, rfl⟩
abbrev main_v395 : Ref sig .tc := ⟨.hbm, 698, rfl⟩
abbrev main_v396 : Ref sig .tc := ⟨.hbm, 699, rfl⟩
abbrev main_cst_149 : Ref sig .tc := ⟨.hbm, 700, rfl⟩
abbrev main_v397 : Ref sig .tc := ⟨.hbm, 701, rfl⟩
abbrev main_v398 : Ref sig .tc := ⟨.hbm, 702, rfl⟩
abbrev main_v399 : Ref sig .tc := ⟨.hbm, 703, rfl⟩
abbrev main_v400 : Ref sig .tc := ⟨.hbm, 704, rfl⟩
abbrev main_v401 : Ref sig .tc := ⟨.hbm, 705, rfl⟩
abbrev main_v402 : Ref sig .tc := ⟨.hbm, 706, rfl⟩
abbrev main_v403 : Ref sig .tc := ⟨.hbm, 707, rfl⟩
abbrev main_v404 : Ref sig .tc := ⟨.hbm, 708, rfl⟩
abbrev main_v405 : Ref sig .tc := ⟨.hbm, 709, rfl⟩
abbrev main_v406 : Ref sig .tc := ⟨.hbm, 710, rfl⟩
abbrev main_v407 : Ref sig .tc := ⟨.hbm, 711, rfl⟩
abbrev main_v408 : Ref sig .tc := ⟨.hbm, 712, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x1x1024x8_S2x1024x8 : S2x1x1024x8.ShapeCasts S2x1024x8
  transposes_S2x1024x8_S2x8x1024_0_2_1 : S2x1024x8.Transposes [0, 2, 1] S2x8x1024
  slices_S2x2x1024x8_S2x1x1024x8_0_0_0_0 : S2x2x1024x8.Slices ![0, 0, 0, 0] S2x1x1024x8
  slices_S2x2x1024x8_S2x1x1024x8_0_1_0_0 : S2x2x1024x8.Slices ![0, 1, 0, 0] S2x1x1024x8
  slices_S2x2x2x1024x8_S2x1x1x1024x8_0_0_0_0_0 : S2x2x2x1024x8.Slices ![0, 0, 0, 0, 0] S2x1x1x1024x8
  shapeCasts_S2x1x1x1024x8_S2x1024x8 : S2x1x1x1024x8.ShapeCasts S2x1024x8
  slices_S2x2x2x1024x8_S2x1x1x1024x8_0_0_1_0_0 : S2x2x2x1024x8.Slices ![0, 0, 1, 0, 0] S2x1x1x1024x8
  slices_S2x2x2x1024x8_S2x1x1x1024x8_0_1_1_0_0 : S2x2x2x1024x8.Slices ![0, 1, 1, 0, 0] S2x1x1x1024x8
  shapeCasts_S2x8x1024_S16x1024 : S2x8x1024.ShapeCasts S16x1024
  bcast_S_S1024 : S_.BroadcastsInDim S1024 (![] : Fin 0 → Fin S1024.rank)
  bcast_S_S1024x1024 : S_.BroadcastsInDim S1024x1024 (![] : Fin 0 → Fin S1024x1024.rank)
  bcast_S_S16x1024 : S_.BroadcastsInDim S16x1024 (![] : Fin 0 → Fin S16x1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S1024x1024_S16x1024x1024_1_2 : S1024x1024.BroadcastsInDim S16x1024x1024 (![1, 2] : Fin 2 → Fin S16x1024x1024.rank)
  bcast_S1024_S16x1024_1 : S1024.BroadcastsInDim S16x1024 (![1] : Fin 1 → Fin S16x1024.rank)
  shapeCasts_S16x1024x1024_S2x8x1024x1024 : S16x1024x1024.ShapeCasts S2x8x1024x1024
  bcast_S_S2x8x1024x1024 : S_.BroadcastsInDim S2x8x1024x1024 (![] : Fin 0 → Fin S2x8x1024x1024.rank)
  bcast_S1024x1024_S1x1x1024x1024_2_3 : S1024x1024.BroadcastsInDim S1x1x1024x1024 (![2, 3] : Fin 2 → Fin S1x1x1024x1024.rank)
  bcast_S1x1x1024x1024_S2x8x1024x1024_0_1_2_3 : S1x1x1024x1024.BroadcastsInDim S2x8x1024x1024 (![0, 1, 2, 3] : Fin 4 → Fin S2x8x1024x1024.rank)
  bcast_S_S2x8x1024 : S_.BroadcastsInDim S2x8x1024 (![] : Fin 0 → Fin S2x8x1024.rank)
  bcast_S2x8x1024_S2x8x1024x1_0_1_2 : S2x8x1024.BroadcastsInDim S2x8x1024x1 (![0, 1, 2] : Fin 3 → Fin S2x8x1024x1.rank)
  bcast_S2x8x1024x1_S2x8x1024x1024_0_1_2_3 : S2x8x1024x1.BroadcastsInDim S2x8x1024x1024 (![0, 1, 2, 3] : Fin 4 → Fin S2x8x1024x1024.rank)
  shapeCasts_S2x8x1024x1024_S16x1024x1024 : S2x8x1024x1024.ShapeCasts S16x1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  slices_S2x8x1024_S2x7x1024_0_1_0 : S2x8x1024.Slices ![0, 1, 0] S2x7x1024
  slices_S2x8x1024_S2x1x1024_0_0_0 : S2x8x1024.Slices ![0, 0, 0] S2x1x1024
  bcast_S_S2x1x1024 : S_.BroadcastsInDim S2x1x1024 (![] : Fin 0 → Fin S2x1x1024.rank)
  concatenates_S2x7x1024_S2x1x1024_S2x8x1024_d1 : Shape.Concatenates [S2x7x1024, S2x1x1024] S2x8x1024 1
  bcast_S_S2x1x1024x1024 : S_.BroadcastsInDim S2x1x1024x1024 (![] : Fin 0 → Fin S2x1x1024x1024.rank)
  slices_S2x8x1024x1024_S2x7x1024x1024_0_1_0_0 : S2x8x1024x1024.Slices ![0, 1, 0, 0] S2x7x1024x1024
  transposes_S2x7x1024x1024_S2x7x1024x1024_0_1_3_2 : S2x7x1024x1024.Transposes [0, 1, 3, 2] S2x7x1024x1024
  concatenates_S2x1x1024x1024_S2x7x1024x1024_S2x8x1024x1024_d1 : Shape.Concatenates [S2x1x1024x1024, S2x7x1024x1024] S2x8x1024x1024 1
  concatenates_S2x7x1024x1024_S2x1x1024x1024_S2x8x1024x1024_d1 : Shape.Concatenates [S2x7x1024x1024, S2x1x1024x1024] S2x8x1024x1024 1
  bcast_S2x8x1024x1024_S2x1x8x1024x1024_0_2_3_4 : S2x8x1024x1024.BroadcastsInDim S2x1x8x1024x1024 (![0, 2, 3, 4] : Fin 4 → Fin S2x1x8x1024x1024.rank)
  concatenates_S2x1x8x1024x1024_S2x1x8x1024x1024_S2x1x8x1024x1024_S2x3x8x1024x1024_d1 : Shape.Concatenates [S2x1x8x1024x1024, S2x1x8x1024x1024, S2x1x8x1024x1024] S2x3x8x1024x1024 1
  scatter_S16x1024x1024_S1024x2_S16x1024_0_12_12_1_wf : ScatterDims.WF S16x1024x1024 S1024x2 S16x1024 [0] [1, 2] [1, 2] 1
  dot_S1024x1024_S1024x1024_S1024x1024_0_0_1_1_n_n_wf : DotDims.WF S1024x1024 S1024x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .bf16 = 32 ∨ (Rect.block (s := S16x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .bf16 = 32 ∨ (Rect.block (s := S16x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .f32 = 32 ∨ (Rect.block (s := S16x1024x1024) S1x1024x1024.size (cc0_transform_2 i) (hinb0_2 i)).WholeWords (EltTy.packing .f32)

variable [Facts₀]

def scatter_S16x1024x1024_S1024x2_S16x1024_0_12_12_1 : ScatterDims S16x1024x1024 S1024x2 S16x1024 where
  updateWindowDims := [0]
  insertedWindowDims := [1, 2]
  scatterDimsToOperandDims := [1, 2]
  indexVectorDim := 1
  wf := scatter_S16x1024x1024_S1024x2_S16x1024_0_12_12_1_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf

abbrev win0_0 : Pipeline.Window sig grid0 :=
  Pipeline.Window.ofSpec (Memref.whole main_v383) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v384) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v385) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x1x1024x8 : Shape := ⟨4, ![2, 1, 1024, 8]⟩
abbrev S2x2x1024x8 : Shape := ⟨4, ![2, 2, 1024, 8]⟩
abbrev S2x2x2x1024x8 : Shape := ⟨5, ![2, 2, 2, 1024, 8]⟩
abbrev S2x1024x8 : Shape := ⟨3, ![2, 1024, 8]⟩
abbrev S2x8x1024 : Shape := ⟨3, ![2, 8, 1024]⟩
abbrev S2x1x1x1024x8 : Shape := ⟨5, ![2, 1, 1, 1024, 8]⟩
abbrev S16x1024 : Shape := ⟨2, ![16, 1024]⟩
abbrev S1024 : Shape := ⟨1, ![1024]⟩
abbrev S_ : Shape := ⟨0, ![]⟩
abbrev S1024x1024 : Shape := ⟨2, ![1024, 1024]⟩
abbrev S1024x1 : Shape := ⟨2, ![1024, 1]⟩
abbrev S1024x2 : Shape := ⟨2, ![1024, 2]⟩
abbrev S16x1024x1024 : Shape := ⟨3, ![16, 1024, 1024]⟩
abbrev S2x8x1024x1024 : Shape := ⟨4, ![2, 8, 1024, 1024]⟩
abbrev S1x1x1024x1024 : Shape := ⟨4, ![1, 1, 1024, 1024]⟩
abbrev S2x8x1024x1 : Shape := ⟨4, ![2, 8, 1024, 1]⟩
abbrev S2x7x1024 : Shape := ⟨3, ![2, 7, 1024]⟩
abbrev S2x1x1024 : Shape := ⟨3, ![2, 1, 1024]⟩
abbrev S2x1x1024x1024 : Shape := ⟨4, ![2, 1, 1024, 1024]⟩
abbrev S2x7x1024x1024 : Shape := ⟨4, ![2, 7, 1024, 1024]⟩
abbrev S2x1x8x1024x1024 : Shape := ⟨5, ![2, 1, 8, 1024, 1024]⟩
abbrev S2x3x8x1024x1024 : Shape := ⟨5, ![2, 3, 8, 1024, 1024]⟩

abbrev nBuf : Space → Nat
  | .hbm => 708
  | .vmem => 0
  | .smem => 0
  | _ => 0

abbrev hbmTy0_0 (i : Nat) : BufTy := match i % 128 with
  | 0 => ⟨S2x1x1024x8, .f32⟩
  | 1 => ⟨S2x2x1024x8, .f32⟩
  | 2 => ⟨S2x2x2x1024x8, .f32⟩
  | 3 => ⟨S2x1x1024x8, .f32⟩
  | 4 => ⟨S2x1024x8, .f32⟩
  | 5 => ⟨S2x8x1024, .f32⟩
  | 6 => ⟨S2x1x1024x8, .f32⟩
  | 7 => ⟨S2x1024x8, .f32⟩
  | 8 => ⟨S2x8x1024, .f32⟩
  | 9 => ⟨S2x1x1024x8, .f32⟩
  | 10 => ⟨S2x1024x8, .f32⟩
  | 11 => ⟨S2x8x1024, .f32⟩
  | 12 => ⟨S2x1x1x1024x8, .f32⟩
  | 13 => ⟨S2x1024x8, .f32⟩
  | 14 => ⟨S2x8x1024, .f32⟩
  | 15 => ⟨S2x1x1x1024x8, .f32⟩
  | 16 => ⟨S2x1024x8, .f32⟩
  | 17 => ⟨S2x8x1024, .f32⟩
  | 18 => ⟨S2x1x1x1024x8, .f32⟩
  | 19 => ⟨S2x1024x8, .f32⟩
  | 20 => ⟨S2x8x1024, .f32⟩
  | 21 => ⟨S2x1024x8, .f32⟩
  | 22 => ⟨S2x8x1024, .f32⟩
  | 23 => ⟨S16x1024, .f32⟩
  | 24 => ⟨S16x1024, .f32⟩
  | 25 => ⟨S16x1024, .f32⟩
  | 26 => ⟨S16x1024, .f32⟩
  | 27 => ⟨S16x1024, .f32⟩
  | 28 => ⟨S16x1024, .f32⟩
  | 29 => ⟨S1024, .i32⟩
  | 30 => ⟨S_, .i32⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S1024, .i32⟩
  | 39 => ⟨S1024, .i32⟩
  | 40 => ⟨S_, .i32⟩
  | 41 => ⟨S1024, .i32⟩
  | 42 => ⟨S1024, .i1⟩
  | 43 => ⟨S1024, .i1⟩
  | 44 => ⟨S_, .i32⟩
  | 45 => ⟨S1024, .i32⟩
  | 46 => ⟨S1024, .i32⟩
  | 47 => ⟨S1024, .i32⟩
  | 48 => ⟨S_, .i32⟩
  | 49 => ⟨S_, .i1⟩
  | 50 => ⟨S_, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i1⟩
  | 57 => ⟨S_, .i32⟩
  | 58 => ⟨S1024, .i32⟩
  | 59 => ⟨S1024, .i1⟩
  | 60 => ⟨S_, .i32⟩
  | 61 => ⟨S_, .i1⟩
  | 62 => ⟨S1024, .i1⟩
  | 63 => ⟨S1024, .i1⟩
  | 64 => ⟨S1024, .i1⟩
  | 65 => ⟨S1024, .i32⟩
  | 66 => ⟨S1024, .i32⟩
  | 67 => ⟨S1024, .i32⟩
  | 68 => ⟨S1024, .i32⟩
  | 69 => ⟨S_, .f32⟩
  | 70 => ⟨S1024x1024, .f32⟩
  | 71 => ⟨S16x1024, .f32⟩
  | 72 => ⟨S_, .f32⟩
  | 73 => ⟨S16x1024, .f32⟩
  | 74 => ⟨S16x1024, .f32⟩
  | 75 => ⟨S_, .f32⟩
  | 76 => ⟨S16x1024, .f32⟩
  | 77 => ⟨S16x1024, .f32⟩
  | 78 => ⟨S16x1024, .f32⟩
  | 79 => ⟨S_, .f32⟩
  | 80 => ⟨S16x1024, .f32⟩
  | 81 => ⟨S16x1024, .f32⟩
  | 82 => ⟨S_, .f32⟩
  | 83 => ⟨S16x1024, .f32⟩
  | 84 => ⟨S16x1024, .f32⟩
  | 85 => ⟨S16x1024, .f32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S_, .i32⟩
  | 94 => ⟨S1024, .i32⟩
  | 95 => ⟨S1024, .i1⟩
  | 96 => ⟨S_, .i32⟩
  | 97 => ⟨S1024, .i32⟩
  | 98 => ⟨S1024, .i32⟩
  | 99 => ⟨S1024, .i32⟩
  | 100 => ⟨S1024x1, .i32⟩
  | 101 => ⟨S1024x1, .i32⟩
  | 102 => ⟨S1024x2, .i32⟩
  | 103 => ⟨S16x1024x1024, .f32⟩
  | 104 => ⟨S16x1024x1024, .f32⟩
  | 105 => ⟨S16x1024, .f32⟩
  | 106 => ⟨S_, .f32⟩
  | 107 => ⟨S16x1024, .f32⟩
  | 108 => ⟨S16x1024, .f32⟩
  | 109 => ⟨S_, .f32⟩
  | 110 => ⟨S16x1024, .f32⟩
  | 111 => ⟨S16x1024, .f32⟩
  | 112 => ⟨S16x1024, .f32⟩
  | 113 => ⟨S_, .i32⟩
  | 114 => ⟨S1024, .i32⟩
  | 115 => ⟨S1024, .i32⟩
  | 116 => ⟨S_, .i32⟩
  | 117 => ⟨S1024, .i32⟩
  | 118 => ⟨S1024, .i32⟩
  | 119 => ⟨S_, .i32⟩
  | 120 => ⟨S1024, .i32⟩
  | 121 => ⟨S1024, .i1⟩
  | 122 => ⟨S_, .i32⟩
  | 123 => ⟨S1024, .i32⟩
  | 124 => ⟨S1024, .i1⟩
  | 125 => ⟨S1024, .i1⟩
  | 126 => ⟨S_, .i32⟩
  | 127 => ⟨S1024, .i32⟩
  | _ => ⟨S2x1x1024x8, .f32⟩

abbrev hbmTy0_1 (i : Nat) : BufTy := match i % 128 with
  | 0 => ⟨S1024, .i1⟩
  | 1 => ⟨S1024, .i1⟩
  | 2 => ⟨S_, .i32⟩
  | 3 => ⟨S1024, .i32⟩
  | 4 => ⟨S1024, .i1⟩
  | 5 => ⟨S1024, .i1⟩
  | 6 => ⟨S_, .i32⟩
  | 7 => ⟨S_, .i32⟩
  | 8 => ⟨S_, .i32⟩
  | 9 => ⟨S1024, .i32⟩
  | 10 => ⟨S1024, .i32⟩
  | 11 => ⟨S_, .i32⟩
  | 12 => ⟨S1024, .i32⟩
  | 13 => ⟨S1024, .i32⟩
  | 14 => ⟨S_, .i32⟩
  | 15 => ⟨S1024, .i32⟩
  | 16 => ⟨S1024, .i32⟩
  | 17 => ⟨S_, .i32⟩
  | 18 => ⟨S_, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i32⟩
  | 25 => ⟨S1024, .i32⟩
  | 26 => ⟨S_, .f32⟩
  | 27 => ⟨S_, .f32⟩
  | 28 => ⟨S1024, .f32⟩
  | 29 => ⟨S16x1024, .i1⟩
  | 30 => ⟨S16x1024, .f32⟩
  | 31 => ⟨S16x1024, .f32⟩
  | 32 => ⟨S_, .i32⟩
  | 33 => ⟨S1024, .i32⟩
  | 34 => ⟨S1024, .i1⟩
  | 35 => ⟨S_, .i32⟩
  | 36 => ⟨S1024, .i32⟩
  | 37 => ⟨S1024, .i32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1024x1, .i32⟩
  | 48 => ⟨S1024x2, .i32⟩
  | 49 => ⟨S16x1024x1024, .f32⟩
  | 50 => ⟨S16x1024, .f32⟩
  | 51 => ⟨S_, .f32⟩
  | 52 => ⟨S16x1024, .f32⟩
  | 53 => ⟨S16x1024, .f32⟩
  | 54 => ⟨S_, .f32⟩
  | 55 => ⟨S16x1024, .f32⟩
  | 56 => ⟨S16x1024, .f32⟩
  | 57 => ⟨S16x1024, .f32⟩
  | 58 => ⟨S_, .i32⟩
  | 59 => ⟨S1024, .i32⟩
  | 60 => ⟨S1024, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i1⟩
  | 70 => ⟨S1024, .i1⟩
  | 71 => ⟨S_, .i32⟩
  | 72 => ⟨S1024, .i32⟩
  | 73 => ⟨S1024, .i1⟩
  | 74 => ⟨S1024, .i1⟩
  | 75 => ⟨S_, .i32⟩
  | 76 => ⟨S1024, .i32⟩
  | 77 => ⟨S1024, .i1⟩
  | 78 => ⟨S1024, .i1⟩
  | 79 => ⟨S_, .i32⟩
  | 80 => ⟨S_, .i32⟩
  | 81 => ⟨S_, .i32⟩
  | 82 => ⟨S1024, .i32⟩
  | 83 => ⟨S1024, .i32⟩
  | 84 => ⟨S_, .i32⟩
  | 85 => ⟨S1024, .i32⟩
  | 86 => ⟨S1024, .i32⟩
  | 87 => ⟨S_, .i32⟩
  | 88 => ⟨S1024, .i32⟩
  | 89 => ⟨S1024, .i32⟩
  | 90 => ⟨S_, .i32⟩
  | 91 => ⟨S_, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i32⟩
  | 98 => ⟨S1024, .i32⟩
  | 99 => ⟨S_, .f32⟩
  | 100 => ⟨S_, .f32⟩
  | 101 => ⟨S1024, .f32⟩
  | 102 => ⟨S16x1024, .i1⟩
  | 103 => ⟨S16x1024, .f32⟩
  | 104 => ⟨S16x1024, .f32⟩
  | 105 => ⟨S_, .i32⟩
  | 106 => ⟨S1024, .i32⟩
  | 107 => ⟨S1024, .i1⟩
  | 108 => ⟨S_, .i32⟩
  | 109 => ⟨S1024, .i32⟩
  | 110 => ⟨S1024, .i32⟩
  | 111 => ⟨S1024, .i32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S1024x1, .i32⟩
  | 120 => ⟨S1024x1, .i32⟩
  | 121 => ⟨S1024x2, .i32⟩
  | 122 => ⟨S16x1024x1024, .f32⟩
  | 123 => ⟨S16x1024, .f32⟩
  | 124 => ⟨S_, .f32⟩
  | 125 => ⟨S16x1024, .f32⟩
  | 126 => ⟨S16x1024, .f32⟩
  | 127 => ⟨S_, .f32⟩
  | _ => ⟨S2x1x1024x8, .f32⟩

abbrev hbmTy0_2 (i : Nat) : BufTy := match i % 128 with
  | 0 => ⟨S16x1024, .f32⟩
  | 1 => ⟨S16x1024, .f32⟩
  | 2 => ⟨S16x1024, .f32⟩
  | 3 => ⟨S_, .i32⟩
  | 4 => ⟨S1024, .i32⟩
  | 5 => ⟨S1024, .i32⟩
  | 6 => ⟨S_, .i32⟩
  | 7 => ⟨S1024, .i32⟩
  | 8 => ⟨S1024, .i32⟩
  | 9 => ⟨S_, .i32⟩
  | 10 => ⟨S1024, .i32⟩
  | 11 => ⟨S1024, .i1⟩
  | 12 => ⟨S_, .i32⟩
  | 13 => ⟨S1024, .i32⟩
  | 14 => ⟨S1024, .i1⟩
  | 15 => ⟨S1024, .i1⟩
  | 16 => ⟨S_, .i32⟩
  | 17 => ⟨S1024, .i32⟩
  | 18 => ⟨S1024, .i1⟩
  | 19 => ⟨S1024, .i1⟩
  | 20 => ⟨S_, .i32⟩
  | 21 => ⟨S1024, .i32⟩
  | 22 => ⟨S1024, .i1⟩
  | 23 => ⟨S1024, .i1⟩
  | 24 => ⟨S_, .i32⟩
  | 25 => ⟨S_, .i32⟩
  | 26 => ⟨S_, .i32⟩
  | 27 => ⟨S1024, .i32⟩
  | 28 => ⟨S1024, .i32⟩
  | 29 => ⟨S_, .i32⟩
  | 30 => ⟨S1024, .i32⟩
  | 31 => ⟨S1024, .i32⟩
  | 32 => ⟨S_, .i32⟩
  | 33 => ⟨S1024, .i32⟩
  | 34 => ⟨S1024, .i32⟩
  | 35 => ⟨S_, .i32⟩
  | 36 => ⟨S_, .i32⟩
  | 37 => ⟨S_, .i32⟩
  | 38 => ⟨S1024, .i32⟩
  | 39 => ⟨S1024, .i32⟩
  | 40 => ⟨S_, .i32⟩
  | 41 => ⟨S1024, .i32⟩
  | 42 => ⟨S1024, .i32⟩
  | 43 => ⟨S1024, .i32⟩
  | 44 => ⟨S_, .f32⟩
  | 45 => ⟨S_, .f32⟩
  | 46 => ⟨S1024, .f32⟩
  | 47 => ⟨S16x1024, .i1⟩
  | 48 => ⟨S16x1024, .f32⟩
  | 49 => ⟨S16x1024, .f32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S_, .i32⟩
  | 58 => ⟨S1024, .i32⟩
  | 59 => ⟨S1024, .i1⟩
  | 60 => ⟨S_, .i32⟩
  | 61 => ⟨S1024, .i32⟩
  | 62 => ⟨S1024, .i32⟩
  | 63 => ⟨S1024, .i32⟩
  | 64 => ⟨S1024x1, .i32⟩
  | 65 => ⟨S1024x1, .i32⟩
  | 66 => ⟨S1024x2, .i32⟩
  | 67 => ⟨S16x1024x1024, .f32⟩
  | 68 => ⟨S16x1024, .f32⟩
  | 69 => ⟨S_, .f32⟩
  | 70 => ⟨S16x1024, .f32⟩
  | 71 => ⟨S16x1024, .f32⟩
  | 72 => ⟨S_, .f32⟩
  | 73 => ⟨S16x1024, .f32⟩
  | 74 => ⟨S16x1024, .f32⟩
  | 75 => ⟨S16x1024, .f32⟩
  | 76 => ⟨S_, .i32⟩
  | 77 => ⟨S1024, .i32⟩
  | 78 => ⟨S1024, .i32⟩
  | 79 => ⟨S_, .i32⟩
  | 80 => ⟨S1024, .i32⟩
  | 81 => ⟨S1024, .i32⟩
  | 82 => ⟨S_, .i32⟩
  | 83 => ⟨S1024, .i32⟩
  | 84 => ⟨S1024, .i1⟩
  | 85 => ⟨S_, .i32⟩
  | 86 => ⟨S1024, .i32⟩
  | 87 => ⟨S1024, .i1⟩
  | 88 => ⟨S1024, .i1⟩
  | 89 => ⟨S_, .i32⟩
  | 90 => ⟨S1024, .i32⟩
  | 91 => ⟨S1024, .i1⟩
  | 92 => ⟨S1024, .i1⟩
  | 93 => ⟨S_, .i32⟩
  | 94 => ⟨S1024, .i32⟩
  | 95 => ⟨S1024, .i1⟩
  | 96 => ⟨S1024, .i1⟩
  | 97 => ⟨S_, .i32⟩
  | 98 => ⟨S_, .i32⟩
  | 99 => ⟨S_, .i32⟩
  | 100 => ⟨S1024, .i32⟩
  | 101 => ⟨S1024, .i32⟩
  | 102 => ⟨S_, .i32⟩
  | 103 => ⟨S1024, .i32⟩
  | 104 => ⟨S1024, .i32⟩
  | 105 => ⟨S_, .i32⟩
  | 106 => ⟨S1024, .i32⟩
  | 107 => ⟨S1024, .i32⟩
  | 108 => ⟨S_, .i32⟩
  | 109 => ⟨S_, .i32⟩
  | 110 => ⟨S_, .i32⟩
  | 111 => ⟨S1024, .i32⟩
  | 112 => ⟨S1024, .i32⟩
  | 113 => ⟨S_, .i32⟩
  | 114 => ⟨S1024, .i32⟩
  | 115 => ⟨S1024, .i32⟩
  | 116 => ⟨S1024, .i32⟩
  | 117 => ⟨S_, .f32⟩
  | 118 => ⟨S_, .f32⟩
  | 119 => ⟨S1024, .f32⟩
  | 120 => ⟨S16x1024, .i1⟩
  | 121 => ⟨S16x1024, .f32⟩
  | 122 => ⟨S16x1024, .f32⟩
  | 123 => ⟨S_, .i32⟩
  | 124 => ⟨S1024, .i32⟩
  | 125 => ⟨S1024, .i1⟩
  | 126 => ⟨S_, .i32⟩
  | 127 => ⟨S1024, .i32⟩
  | _ => ⟨S2x1x1024x8, .f32⟩

abbrev hbmTy0_3 (i : Nat) : BufTy := match i % 128 with
  | 0 => ⟨S1024, .i32⟩
  | 1 => ⟨S1024, .i32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S1024x1, .i32⟩
  | 10 => ⟨S1024x1, .i32⟩
  | 11 => ⟨S1024x2, .i32⟩
  | 12 => ⟨S16x1024x1024, .f32⟩
  | 13 => ⟨S_, .f32⟩
  | 14 => ⟨S16x1024, .f32⟩
  | 15 => ⟨S16x1024, .f32⟩
  | 16 => ⟨S16x1024, .f32⟩
  | 17 => ⟨S_, .i32⟩
  | 18 => ⟨S1024, .i32⟩
  | 19 => ⟨S1024, .i32⟩
  | 20 => ⟨S_, .i32⟩
  | 21 => ⟨S1024, .i32⟩
  | 22 => ⟨S1024, .i32⟩
  | 23 => ⟨S_, .i32⟩
  | 24 => ⟨S1024, .i32⟩
  | 25 => ⟨S1024, .i1⟩
  | 26 => ⟨S_, .i32⟩
  | 27 => ⟨S1024, .i32⟩
  | 28 => ⟨S1024, .i1⟩
  | 29 => ⟨S1024, .i1⟩
  | 30 => ⟨S_, .i32⟩
  | 31 => ⟨S1024, .i32⟩
  | 32 => ⟨S1024, .i1⟩
  | 33 => ⟨S1024, .i1⟩
  | 34 => ⟨S_, .i32⟩
  | 35 => ⟨S1024, .i32⟩
  | 36 => ⟨S1024, .i1⟩
  | 37 => ⟨S1024, .i1⟩
  | 38 => ⟨S_, .i32⟩
  | 39 => ⟨S_, .i32⟩
  | 40 => ⟨S_, .i32⟩
  | 41 => ⟨S1024, .i32⟩
  | 42 => ⟨S1024, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S_, .i32⟩
  | 50 => ⟨S_, .i32⟩
  | 51 => ⟨S_, .i32⟩
  | 52 => ⟨S1024, .i32⟩
  | 53 => ⟨S1024, .i32⟩
  | 54 => ⟨S_, .i32⟩
  | 55 => ⟨S1024, .i32⟩
  | 56 => ⟨S1024, .i32⟩
  | 57 => ⟨S1024, .i32⟩
  | 58 => ⟨S_, .f32⟩
  | 59 => ⟨S_, .f32⟩
  | 60 => ⟨S1024, .f32⟩
  | 61 => ⟨S16x1024, .i1⟩
  | 62 => ⟨S16x1024, .f32⟩
  | 63 => ⟨S16x1024, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S_, .i32⟩
  | 72 => ⟨S1024, .i32⟩
  | 73 => ⟨S1024, .i1⟩
  | 74 => ⟨S_, .i32⟩
  | 75 => ⟨S1024, .i32⟩
  | 76 => ⟨S1024, .i32⟩
  | 77 => ⟨S1024, .i32⟩
  | 78 => ⟨S1024x1, .i32⟩
  | 79 => ⟨S1024x1, .i32⟩
  | 80 => ⟨S1024x2, .i32⟩
  | 81 => ⟨S16x1024x1024, .f32⟩
  | 82 => ⟨S16x1024, .f32⟩
  | 83 => ⟨S_, .i32⟩
  | 84 => ⟨S1024, .i32⟩
  | 85 => ⟨S1024, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i1⟩
  | 92 => ⟨S_, .i32⟩
  | 93 => ⟨S1024, .i32⟩
  | 94 => ⟨S1024, .i1⟩
  | 95 => ⟨S1024, .i1⟩
  | 96 => ⟨S_, .i32⟩
  | 97 => ⟨S1024, .i32⟩
  | 98 => ⟨S1024, .i1⟩
  | 99 => ⟨S1024, .i1⟩
  | 100 => ⟨S_, .i32⟩
  | 101 => ⟨S1024, .i32⟩
  | 102 => ⟨S1024, .i1⟩
  | 103 => ⟨S1024, .i1⟩
  | 104 => ⟨S_, .i32⟩
  | 105 => ⟨S_, .i32⟩
  | 106 => ⟨S_, .i32⟩
  | 107 => ⟨S1024, .i32⟩
  | 108 => ⟨S1024, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i32⟩
  | 115 => ⟨S_, .i32⟩
  | 116 => ⟨S_, .i32⟩
  | 117 => ⟨S_, .i32⟩
  | 118 => ⟨S1024, .i32⟩
  | 119 => ⟨S1024, .i32⟩
  | 120 => ⟨S_, .i32⟩
  | 121 => ⟨S1024, .i32⟩
  | 122 => ⟨S1024, .i32⟩
  | 123 => ⟨S1024, .i32⟩
  | 124 => ⟨S_, .f32⟩
  | 125 => ⟨S_, .f32⟩
  | 126 => ⟨S1024, .f32⟩
  | 127 => ⟨S16x1024, .i1⟩
  | _ => ⟨S2x1x1024x8, .f32⟩

abbrev hbmTy0_4 (i : Nat) : BufTy := match i % 128 with
  | 0 => ⟨S16x1024, .f32⟩
  | 1 => ⟨S16x1024, .f32⟩
  | 2 => ⟨S_, .i32⟩
  | 3 => ⟨S1024, .i32⟩
  | 4 => ⟨S1024, .i1⟩
  | 5 => ⟨S_, .i32⟩
  | 6 => ⟨S1024, .i32⟩
  | 7 => ⟨S1024, .i32⟩
  | 8 => ⟨S1024, .i32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1024x1, .i32⟩
  | 18 => ⟨S1024x2, .i32⟩
  | 19 => ⟨S16x1024x1024, .f32⟩
  | 20 => ⟨S_, .i32⟩
  | 21 => ⟨S1024, .i32⟩
  | 22 => ⟨S1024, .i32⟩
  | 23 => ⟨S_, .i32⟩
  | 24 => ⟨S1024, .i32⟩
  | 25 => ⟨S1024, .i32⟩
  | 26 => ⟨S_, .i32⟩
  | 27 => ⟨S1024, .i32⟩
  | 28 => ⟨S1024, .i1⟩
  | 29 => ⟨S_, .i32⟩
  | 30 => ⟨S1024, .i32⟩
  | 31 => ⟨S1024, .i1⟩
  | 32 => ⟨S1024, .i1⟩
  | 33 => ⟨S_, .i32⟩
  | 34 => ⟨S1024, .i32⟩
  | 35 => ⟨S1024, .i1⟩
  | 36 => ⟨S1024, .i1⟩
  | 37 => ⟨S_, .i32⟩
  | 38 => ⟨S1024, .i32⟩
  | 39 => ⟨S1024, .i1⟩
  | 40 => ⟨S1024, .i1⟩
  | 41 => ⟨S_, .i32⟩
  | 42 => ⟨S_, .i32⟩
  | 43 => ⟨S_, .i32⟩
  | 44 => ⟨S1024, .i32⟩
  | 45 => ⟨S1024, .i32⟩
  | 46 => ⟨S_, .i32⟩
  | 47 => ⟨S1024, .i32⟩
  | 48 => ⟨S1024, .i32⟩
  | 49 => ⟨S_, .i32⟩
  | 50 => ⟨S1024, .i32⟩
  | 51 => ⟨S1024, .i32⟩
  | 52 => ⟨S_, .i32⟩
  | 53 => ⟨S_, .i32⟩
  | 54 => ⟨S_, .i32⟩
  | 55 => ⟨S1024, .i32⟩
  | 56 => ⟨S1024, .i32⟩
  | 57 => ⟨S_, .i32⟩
  | 58 => ⟨S1024, .i32⟩
  | 59 => ⟨S1024, .i32⟩
  | 60 => ⟨S1024, .i32⟩
  | 61 => ⟨S_, .f32⟩
  | 62 => ⟨S_, .f32⟩
  | 63 => ⟨S1024, .f32⟩
  | 64 => ⟨S16x1024, .i1⟩
  | 65 => ⟨S16x1024, .f32⟩
  | 66 => ⟨S16x1024, .f32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S_, .i32⟩
  | 75 => ⟨S1024, .i32⟩
  | 76 => ⟨S1024, .i1⟩
  | 77 => ⟨S_, .i32⟩
  | 78 => ⟨S1024, .i32⟩
  | 79 => ⟨S1024, .i32⟩
  | 80 => ⟨S1024, .i32⟩
  | 81 => ⟨S1024x1, .i32⟩
  | 82 => ⟨S1024x1, .i32⟩
  | 83 => ⟨S1024x2, .i32⟩
  | 84 => ⟨S16x1024x1024, .f32⟩
  | 85 => ⟨S_, .i32⟩
  | 86 => ⟨S1024, .i32⟩
  | 87 => ⟨S1024, .i32⟩
  | 88 => ⟨S_, .i32⟩
  | 89 => ⟨S1024, .i32⟩
  | 90 => ⟨S1024, .i32⟩
  | 91 => ⟨S_, .i32⟩
  | 92 => ⟨S1024, .i32⟩
  | 93 => ⟨S1024, .i1⟩
  | 94 => ⟨S_, .i32⟩
  | 95 => ⟨S1024, .i32⟩
  | 96 => ⟨S1024, .i1⟩
  | 97 => ⟨S1024, .i1⟩
  | 98 => ⟨S_, .i32⟩
  | 99 => ⟨S1024, .i32⟩
  | 100 => ⟨S1024, .i1⟩
  | 101 => ⟨S1024, .i1⟩
  | 102 => ⟨S_, .i32⟩
  | 103 => ⟨S1024, .i32⟩
  | 104 => ⟨S1024, .i1⟩
  | 105 => ⟨S1024, .i1⟩
  | 106 => ⟨S_, .i32⟩
  | 107 => ⟨S_, .i32⟩
  | 108 => ⟨S_, .i32⟩
  | 109 => ⟨S1024, .i32⟩
  | 110 => ⟨S1024, .i32⟩
  | 111 => ⟨S_, .i32⟩
  | 112 => ⟨S1024, .i32⟩
  | 113 => ⟨S1024, .i32⟩
  | 114 => ⟨S_, .i32⟩
  | 115 => ⟨S1024, .i32⟩
  | 116 => ⟨S1024, .i32⟩
  | 117 => ⟨S_, .i32⟩
  | 118 => ⟨S_, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i32⟩
  | 125 => ⟨S1024, .i32⟩
  | 126 => ⟨S_, .f32⟩
  | 127 => ⟨S_, .f32⟩
  | _ => ⟨S2x1x1024x8, .f32⟩

abbrev hbmTy0_5 (i : Nat) : BufTy := match i % 128 with
  | 0 => ⟨S1024, .f32⟩
  | 1 => ⟨S16x1024, .i1⟩
  | 2 => ⟨S16x1024, .f32⟩
  | 3 => ⟨S16x1024, .f32⟩
  | 4 => ⟨S_, .i32⟩
  | 5 => ⟨S1024, .i32⟩
  | 6 => ⟨S1024, .i1⟩
  | 7 => ⟨S_, .i32⟩
  | 8 => ⟨S1024, .i32⟩
  | 9 => ⟨S1024, .i32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S1024x1, .i32⟩
  | 20 => ⟨S1024x2, .i32⟩
  | 21 => ⟨S16x1024x1024, .f32⟩
  | 22 => ⟨S2x8x1024x1024, .f32⟩
  | 23 => ⟨S1024x1024, .i32⟩
  | 24 => ⟨S1024x1024, .i32⟩
  | 25 => ⟨S_, .i32⟩
  | 26 => ⟨S1024x1024, .i32⟩
  | 27 => ⟨S1024x1024, .i32⟩
  | 28 => ⟨S1024x1024, .i1⟩
  | 29 => ⟨S1024x1024, .f32⟩
  | 30 => ⟨S_, .f32⟩
  | 31 => ⟨S2x8x1024x1024, .f32⟩
  | 32 => ⟨S2x8x1024x1024, .f32⟩
  | 33 => ⟨S1x1x1024x1024, .f32⟩
  | 34 => ⟨S2x8x1024x1024, .f32⟩
  | 35 => ⟨S2x8x1024x1024, .f32⟩
  | 36 => ⟨S2x8x1024, .f32⟩
  | 37 => ⟨S_, .f32⟩
  | 38 => ⟨S2x8x1024, .f32⟩
  | 39 => ⟨S2x8x1024, .f32⟩
  | 40 => ⟨S2x8x1024x1, .f32⟩
  | 41 => ⟨S2x8x1024x1024, .f32⟩
  | 42 => ⟨S2x8x1024x1024, .f32⟩
  | 43 => ⟨S2x8x1024x1024, .f32⟩
  | 44 => ⟨S2x7x1024, .f32⟩
  | 45 => ⟨S2x1x1024, .f32⟩
  | 46 => ⟨S_, .f32⟩
  | 47 => ⟨S2x1x1024, .f32⟩
  | 48 => ⟨S2x8x1024, .f32⟩
  | 49 => ⟨S2x8x1024x1, .f32⟩
  | 50 => ⟨S1x1x1024x1024, .f32⟩
  | 51 => ⟨S2x8x1024x1024, .f32⟩
  | 52 => ⟨S2x8x1024x1024, .f32⟩
  | 53 => ⟨S2x8x1024x1024, .f32⟩
  | 54 => ⟨S2x8x1024x1024, .f32⟩
  | 55 => ⟨S_, .f32⟩
  | 56 => ⟨S2x1x1024x1024, .f32⟩
  | 57 => ⟨S2x7x1024x1024, .f32⟩
  | 58 => ⟨S2x7x1024x1024, .f32⟩
  | 59 => ⟨S2x7x1024x1024, .f32⟩
  | 60 => ⟨S2x8x1024x1024, .f32⟩
  | 61 => ⟨S2x7x1024x1024, .f32⟩
  | 62 => ⟨S2x7x1024x1024, .f32⟩
  | 63 => ⟨S2x8x1024x1024, .f32⟩
  | 64 => ⟨S2x1x8x1024x1024, .f32⟩
  | 65 => ⟨S2x1x8x1024x1024, .f32⟩
  | 66 => ⟨S2x1x8x1024x1024, .f32⟩
  | 67 => ⟨S2x3x8x1024x1024, .f32⟩
  | _ => ⟨S2x1x1024x8, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x1x1024x8, .f32⟩

abbrev bufTy : (tb : Table) → Fin (tcTables nBuf tb) → BufTy
  | .hbm, ⟨i, _⟩ => hbmTy i
  | _, _ => ⟨S2x1x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_c : Ref sig .tc := ⟨.hbm, 30, rfl⟩
abbrev main_call0_v0 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_call0_v2 : Ref sig .tc := ⟨.hbm, 34, rfl⟩
abbrev main_call0_call0_v3 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_c : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_c_0 : Ref sig .tc := ⟨.hbm, 44, rfl⟩
abbrev main_call0_call0_v11 : Ref sig .tc := ⟨.hbm, 45, rfl⟩
abbrev main_call0_call0_v12 : Ref sig .tc := ⟨.hbm, 46, rfl⟩
abbrev main_v26_0 : Ref sig .tc := ⟨.hbm, 47, rfl⟩
abbrev main_call0_call1_c : Ref sig .tc := ⟨.hbm, 48, rfl⟩
abbrev main_call0_call1_v0 : Ref sig .tc := ⟨.hbm, 49, rfl⟩
abbrev main_call0_call1_c_0 : Ref sig .tc := ⟨.hbm, 50, rfl⟩
abbrev main_call0_call1_v1 : Ref sig .tc := ⟨.hbm, 51, rfl⟩
abbrev main_call0_call1_v2 : Ref sig .tc := ⟨.hbm, 52, rfl⟩
abbrev main_call0_call1_v3 : Ref sig .tc := ⟨.hbm, 53, rfl⟩
abbrev main_call0_call1_c_1 : Ref sig .tc := ⟨.hbm, 54, rfl⟩
abbrev main_call0_call1_v4 : Ref sig .tc := ⟨.hbm, 55, rfl⟩
abbrev main_call0_call1_v5 : Ref sig .tc := ⟨.hbm, 56, rfl⟩
abbrev main_call0_call1_c_2 : Ref sig .tc := ⟨.hbm, 57, rfl⟩
abbrev main_call0_call1_v6 : Ref sig .tc := ⟨.hbm, 58, rfl⟩
abbrev main_call0_call1_v7 : Ref sig .tc := ⟨.hbm, 59, rfl⟩
abbrev main_call0_call1_c_3 : Ref sig .tc := ⟨.hbm, 60, rfl⟩
abbrev main_call0_call1_v8 : Ref sig .tc := ⟨.hbm, 61, rfl⟩
abbrev main_call0_call1_v9 : Ref sig .tc := ⟨.hbm, 62, rfl⟩
abbrev main_call0_call1_v10 : Ref sig .tc := ⟨.hbm, 63, rfl⟩
abbrev main_call0_call1_v11 : Ref sig .tc := ⟨.hbm, 64, rfl⟩
abbrev main_call0_call1_v12 : Ref sig .tc := ⟨.hbm, 65, rfl⟩
abbrev main_call0_call1_v13 : Ref sig .tc := ⟨.hbm, 66, rfl⟩
abbrev main_v26_1 : Ref sig .tc := ⟨.hbm, 67, rfl⟩
abbrev main_v27 : Ref sig .tc := ⟨.hbm, 68, rfl⟩
abbrev main_cst : Ref sig .tc := ⟨.hbm, 69, rfl⟩
abbrev main_v28 : Ref sig .tc := ⟨.hbm, 70, rfl⟩
abbrev main_v29 : Ref sig .tc := ⟨.hbm, 71, rfl⟩
abbrev main_cst_0 : Ref sig .tc := ⟨.hbm, 72, rfl⟩
abbrev main_v30 : Ref sig .tc := ⟨.hbm, 73, rfl⟩
abbrev main_v31 : Ref sig .tc := ⟨.hbm, 74, rfl⟩
abbrev main_cst_1 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_2 : Ref sig .tc := ⟨.hbm, 79, rfl⟩
abbrev main_v35 : Ref sig .tc := ⟨.hbm, 80, rfl⟩
abbrev main_v36 : Ref sig .tc := ⟨.hbm, 81, rfl⟩
abbrev main_cst_3 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_c_4 : Ref sig .tc := ⟨.hbm, 86, rfl⟩
abbrev main_v40 : Ref sig .tc := ⟨.hbm, 87, rfl⟩
abbrev main_v41 : Ref sig .tc := ⟨.hbm, 88, rfl⟩
abbrev main_c_5 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_c_6 : Ref sig .tc := ⟨.hbm, 93, rfl⟩
abbrev main_v45 : Ref sig .tc := ⟨.hbm, 94, rfl⟩
abbrev main_v46 : Ref sig .tc := ⟨.hbm, 95, rfl⟩
abbrev main_c_7 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_cst_9 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_c_10 : Ref sig .tc := ⟨.hbm, 113, rfl⟩
abbrev main_v61 : Ref sig .tc := ⟨.hbm, 114, rfl⟩
abbrev main_v62 : Ref sig .tc := ⟨.hbm, 115, rfl⟩
abbrev main_c_11 : Ref sig .tc := ⟨.hbm, 116, rfl⟩
abbrev main_v63 : Ref sig .tc := ⟨.hbm, 117, rfl⟩
abbrev main_v64 : Ref sig .tc := ⟨.hbm, 118, rfl⟩
abbrev main_c_12 : Ref sig .tc := ⟨.hbm, 119, rfl⟩
abbrev main_v65 : Ref sig .tc := ⟨.hbm, 120, rfl⟩
abbrev main_v66 : Ref sig .tc := ⟨.hbm, 121, rfl⟩
abbrev main_c_13 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_c_14 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_c_15 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_c_16 : Ref sig .tc := ⟨.hbm, 134, rfl⟩
abbrev main_c_17 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_call1_v3 : Ref sig .tc := ⟨.hbm, 139, rfl⟩
abbrev main_call1_v4 : Ref sig .tc := ⟨.hbm, 140, rfl⟩
abbrev main_v76 : Ref sig .tc := ⟨.hbm, 141, rfl⟩
abbrev main_c_18 : Ref sig .tc := ⟨.hbm, 142, rfl⟩
abbrev main_v77 : Ref sig .tc := ⟨.hbm, 143, rfl⟩
abbrev main_v78 : Ref sig .tc := ⟨.hbm, 144, rfl⟩
abbrev main_c_19 : Ref sig .tc := ⟨.hbm, 145, rfl⟩
abbrev main_c_20 : Ref sig .tc := ⟨.hbm, 146, rfl⟩
abbrev main_call2_v0 : Ref sig .tc := ⟨.hbm, 147, rfl⟩
abbrev main_call2_v1 : Ref sig .tc := ⟨.hbm, 148, rfl⟩
abbrev main_call2_v2 : Ref sig .tc := ⟨.hbm, 149, rfl⟩
abbrev main_call2_v3 : Ref sig .tc := ⟨.hbm, 150, rfl⟩
abbrev main_call2_v4 : Ref sig .tc := ⟨.hbm, 151, rfl⟩
abbrev main_v79 : Ref sig .tc := ⟨.hbm, 152, rfl⟩
abbrev main_v80 : Ref sig .tc := ⟨.hbm, 153, rfl⟩
abbrev main_cst_21 : Ref sig .tc := ⟨.hbm, 154, rfl⟩
abbrev main_call3_v0 : Ref sig .tc := ⟨.hbm, 155, rfl⟩
abbrev main_call3_v1 : Ref sig .tc := ⟨.hbm, 156, rfl⟩
abbrev main_call3_v2 : Ref sig .tc := ⟨.hbm, 157, rfl⟩
abbrev main_call3_v3 : Ref sig .tc := ⟨.hbm, 158, rfl⟩
abbrev main_v81 : Ref sig .tc := ⟨.hbm, 159, rfl⟩
abbrev main_c_22 : Ref sig .tc := ⟨.hbm, 160, rfl⟩
abbrev main_v82 : Ref sig .tc := ⟨.hbm, 161, rfl⟩
abbrev main_v83 : Ref sig .tc := ⟨.hbm, 162, rfl⟩
abbrev main_c_23 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_c_24 : Ref sig .tc := ⟨.hbm, 167, rfl⟩
abbrev main_v87 : Ref sig .tc := ⟨.hbm, 168, rfl⟩
abbrev main_v88 : Ref sig .tc := ⟨.hbm, 169, rfl⟩
abbrev main_c_25 : Ref sig .tc := ⟨.hbm, 170, rfl⟩
abbrev main_v89 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_v94 : Ref sig .tc := ⟨.hbm, 176, rfl⟩
abbrev main_v95 : Ref sig .tc := ⟨.hbm, 177, rfl⟩
abbrev main_v96 : Ref sig .tc := ⟨.hbm, 178, rfl⟩
abbrev main_cst_26 : Ref sig .tc := ⟨.hbm, 179, rfl⟩
abbrev main_v97 : Ref sig .tc := ⟨.hbm, 180, rfl⟩
abbrev main_v98 : Ref sig .tc := ⟨.hbm, 181, rfl⟩
abbrev main_cst_27 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_c_28 : Ref sig .tc := ⟨.hbm, 186, rfl⟩
abbrev main_v102 : Ref sig .tc := ⟨.hbm, 187, rfl⟩
abbrev main_v103 : Ref sig .tc := ⟨.hbm, 188, rfl⟩
abbrev main_c_29 : Ref sig .tc := ⟨.hbm, 189, rfl⟩
abbrev main_v104 : Ref sig .tc := ⟨.hbm, 190, rfl⟩
abbrev main_v105 : Ref sig .tc := ⟨.hbm, 191, rfl⟩
abbrev main_c_30 : Ref sig .tc := ⟨.hbm, 192, rfl⟩
abbrev main_v106 : Ref sig .tc := ⟨.hbm, 193, rfl⟩
abbrev main_v107 : Ref sig .tc := ⟨.hbm, 194, rfl⟩
abbrev main_c_31 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_c_32 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_c_33 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_c_34 : Ref sig .tc := ⟨.hbm, 207, rfl⟩
abbrev main_c_35 : Ref sig .tc := ⟨.hbm, 208, rfl⟩
abbrev main_call4_v0 : Ref sig .tc := ⟨.hbm, 209, rfl⟩
abbrev main_call4_v1 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_v117 : Ref sig .tc := ⟨.hbm, 214, rfl⟩
abbrev main_c_36 : Ref sig .tc := ⟨.hbm, 215, rfl⟩
abbrev main_v118 : Ref sig .tc := ⟨.hbm, 216, rfl⟩
abbrev main_v119 : Ref sig .tc := ⟨.hbm, 217, rfl⟩
abbrev main_c_37 : Ref sig .tc := ⟨.hbm, 218, rfl⟩
abbrev main_c_38 : Ref sig .tc := ⟨.hbm, 219, rfl⟩
abbrev main_call5_v0 : Ref sig .tc := ⟨.hbm, 220, rfl⟩
abbrev main_call5_v1 : Ref sig .tc := ⟨.hbm, 221, rfl⟩
abbrev main_call5_v2 : Ref sig .tc := ⟨.hbm, 222, rfl⟩
abbrev main_call5_v3 : Ref sig .tc := ⟨.hbm, 223, rfl⟩
abbrev main_call5_v4 : Ref sig .tc := ⟨.hbm, 224, rfl⟩
abbrev main_v120 : Ref sig .tc := ⟨.hbm, 225, rfl⟩
abbrev main_v121 : Ref sig .tc := ⟨.hbm, 226, rfl⟩
abbrev main_cst_39 : Ref sig .tc := ⟨.hbm, 227, rfl⟩
abbrev main_call6_v0 : Ref sig .tc := ⟨.hbm, 228, rfl⟩
abbrev main_call6_v1 : Ref sig .tc := ⟨.hbm, 229, rfl⟩
abbrev main_call6_v2 : Ref sig .tc := ⟨.hbm, 230, rfl⟩
abbrev main_call6_v3 : Ref sig .tc := ⟨.hbm, 231, rfl⟩
abbrev main_v122 : Ref sig .tc := ⟨.hbm, 232, rfl⟩
abbrev main_c_40 : Ref sig .tc := ⟨.hbm, 233, rfl⟩
abbrev main_v123 : Ref sig .tc := ⟨.hbm, 234, rfl⟩
abbrev main_v124 : Ref sig .tc := ⟨.hbm, 235, rfl⟩
abbrev main_c_41 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_c_42 : Ref sig .tc := ⟨.hbm, 240, rfl⟩
abbrev main_v128 : Ref sig .tc := ⟨.hbm, 241, rfl⟩
abbrev main_v129 : Ref sig .tc := ⟨.hbm, 242, rfl⟩
abbrev main_c_43 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_v137 : Ref sig .tc := ⟨.hbm, 251, rfl⟩
abbrev main_cst_44 : Ref sig .tc := ⟨.hbm, 252, rfl⟩
abbrev main_v138 : Ref sig .tc := ⟨.hbm, 253, rfl⟩
abbrev main_v139 : Ref sig .tc := ⟨.hbm, 254, rfl⟩
abbrev main_cst_45 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_c_46 : Ref sig .tc := ⟨.hbm, 259, rfl⟩
abbrev main_v143 : Ref sig .tc := ⟨.hbm, 260, rfl⟩
abbrev main_v144 : Ref sig .tc := ⟨.hbm, 261, rfl⟩
abbrev main_c_47 : Ref sig .tc := ⟨.hbm, 262, rfl⟩
abbrev main_v145 : Ref sig .tc := ⟨.hbm, 263, rfl⟩
abbrev main_v146 : Ref sig .tc := ⟨.hbm, 264, rfl⟩
abbrev main_c_48 : Ref sig .tc := ⟨.hbm, 265, rfl⟩
abbrev main_v147 : Ref sig .tc := ⟨.hbm, 266, rfl⟩
abbrev main_v148 : Ref sig .tc := ⟨.hbm, 267, rfl⟩
abbrev main_c_49 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩
abbrev main_c_50 : Ref sig .tc := ⟨.hbm, 272, rfl⟩
abbrev main_v152 : Ref sig .tc := ⟨.hbm, 273, rfl⟩
abbrev main_v153 : Ref sig .tc := ⟨.hbm, 274, rfl⟩
abbrev main_v154 : Ref sig .tc := ⟨.hbm, 275, rfl⟩
abbrev main_c_51 : Ref sig .tc := ⟨.hbm, 276, rfl⟩
abbrev main_v155 : Ref sig .tc := ⟨.hbm, 277, rfl⟩
abbrev main_v156 : Ref sig .tc := ⟨.hbm, 278, rfl⟩
abbrev main_v157 : Ref sig .tc := ⟨.hbm, 279, rfl⟩
abbrev main_c_52 : Ref sig .tc := ⟨.hbm, 280, rfl⟩
abbrev main_c_53 : Ref sig .tc := ⟨.hbm, 281, rfl⟩
abbrev main_call7_v0 : Ref sig .tc := ⟨.hbm, 282, rfl⟩
abbrev main_call7_v1 : Ref sig .tc := ⟨.hbm, 283, rfl⟩
abbrev main_call7_v2 : Ref sig .tc := ⟨.hbm, 284, rfl⟩
abbrev main_call7_v3 : Ref sig .tc := ⟨.hbm, 285, rfl⟩
abbrev main_call7_v4 : Ref sig .tc := ⟨.hbm, 286, rfl⟩
abbrev main_v158 : Ref sig .tc := ⟨.hbm, 287, rfl⟩
abbrev main_c_54 : Ref sig .tc := ⟨.hbm, 288, rfl⟩
abbrev main_v159 : Ref sig .tc := ⟨.hbm, 289, rfl⟩
abbrev main_v160 : Ref sig .tc := ⟨.hbm, 290, rfl⟩
abbrev main_c_55 : Ref sig .tc := ⟨.hbm, 291, rfl⟩
abbrev main_c_56 : Ref sig .tc := ⟨.hbm, 292, rfl⟩
abbrev main_call8_v0 : Ref sig .tc := ⟨.hbm, 293, rfl⟩
abbrev main_call8_v1 : Ref sig .tc := ⟨.hbm, 294, rfl⟩
abbrev main_call8_v2 : Ref sig .tc := ⟨.hbm, 295, rfl⟩
abbrev main_call8_v3 : Ref sig .tc := ⟨.hbm, 296, rfl⟩
abbrev main_call8_v4 : Ref sig .tc := ⟨.hbm, 297, rfl⟩
abbrev main_v161 : Ref sig .tc := ⟨.hbm, 298, rfl⟩
abbrev main_v162 : Ref sig .tc := ⟨.hbm, 299, rfl⟩
abbrev main_cst_57 : Ref sig .tc := ⟨.hbm, 300, rfl⟩
abbrev main_call9_v0 : Ref sig .tc := ⟨.hbm, 301, rfl⟩
abbrev main_call9_v1 : Ref sig .tc := ⟨.hbm, 302, rfl⟩
abbrev main_call9_v2 : Ref sig .tc := ⟨.hbm, 303, rfl⟩
abbrev main_call9_v3 : Ref sig .tc := ⟨.hbm, 304, rfl⟩
abbrev main_v163 : Ref sig .tc := ⟨.hbm, 305, rfl⟩
abbrev main_c_58 : Ref sig .tc := ⟨.hbm, 306, rfl⟩
abbrev main_v164 : Ref sig .tc := ⟨.hbm, 307, rfl⟩
abbrev main_v165 : Ref sig .tc := ⟨.hbm, 308, rfl⟩
abbrev main_c_59 : Ref sig .tc := ⟨.hbm, 309, rfl⟩
abbrev main_v166 : Ref sig .tc := ⟨.hbm, 310, rfl⟩
abbrev main_v167 : Ref sig .tc := ⟨.hbm, 311, rfl⟩
abbrev main_v168 : Ref sig .tc := ⟨.hbm, 312, rfl⟩
abbrev main_c_60 : Ref sig .tc := ⟨.hbm, 313, rfl⟩
abbrev main_v169 : Ref sig .tc := ⟨.hbm, 314, rfl⟩
abbrev main_v170 : Ref sig .tc := ⟨.hbm, 315, rfl⟩
abbrev main_c_61 : Ref sig .tc := ⟨.hbm, 316, rfl⟩
abbrev main_v171 : Ref sig .tc := ⟨.hbm, 317, rfl⟩
abbrev main_v172 : Ref sig .tc := ⟨.hbm, 318, rfl⟩
abbrev main_v173 : Ref sig .tc := ⟨.hbm, 319, rfl⟩
abbrev main_v174 : Ref sig .tc := ⟨.hbm, 320, rfl⟩
abbrev main_v175 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_cst_62 : Ref sig .tc := ⟨.hbm, 325, rfl⟩
abbrev main_v179 : Ref sig .tc := ⟨.hbm, 326, rfl⟩
abbrev main_v180 : Ref sig .tc := ⟨.hbm, 327, rfl⟩
abbrev main_cst_63 : Ref sig .tc := ⟨.hbm, 328, rfl⟩
abbrev main_v181 : Ref sig .tc := ⟨.hbm, 329, rfl⟩
abbrev main_v182 : Ref sig .tc := ⟨.hbm, 330, rfl⟩
abbrev main_v183 : Ref sig .tc := ⟨.hbm, 331, rfl⟩
abbrev main_c_64 : Ref sig .tc := ⟨.hbm, 332, rfl⟩
abbrev main_v184 : Ref sig .tc := ⟨.hbm, 333, rfl⟩
abbrev main_v185 : Ref sig .tc := ⟨.hbm, 334, rfl⟩
abbrev main_c_65 : Ref sig .tc := ⟨.hbm, 335, rfl⟩
abbrev main_v186 : Ref sig .tc := ⟨.hbm, 336, rfl⟩
abbrev main_v187 : Ref sig .tc := ⟨.hbm, 337, rfl⟩
abbrev main_c_66 : Ref sig .tc := ⟨.hbm, 338, rfl⟩
abbrev main_v188 : Ref sig .tc := ⟨.hbm, 339, rfl⟩
abbrev main_v189 : Ref sig .tc := ⟨.hbm, 340, rfl⟩
abbrev main_c_67 : Ref sig .tc := ⟨.hbm, 341, rfl⟩
abbrev main_v190 : Ref sig .tc := ⟨.hbm, 342, rfl⟩
abbrev main_v191 : Ref sig .tc := ⟨.hbm, 343, rfl⟩
abbrev main_v192 : Ref sig .tc := ⟨.hbm, 344, rfl⟩
abbrev main_c_68 : Ref sig .tc := ⟨.hbm, 345, rfl⟩
abbrev main_v193 : Ref sig .tc := ⟨.hbm, 346, rfl⟩
abbrev main_v194 : Ref sig .tc := ⟨.hbm, 347, rfl⟩
abbrev main_v195 : Ref sig .tc := ⟨.hbm, 348, rfl⟩
abbrev main_c_69 : Ref sig .tc := ⟨.hbm, 349, rfl⟩
abbrev main_v196 : Ref sig .tc := ⟨.hbm, 350, rfl⟩
abbrev main_v197 : Ref sig .tc := ⟨.hbm, 351, rfl⟩
abbrev main_v198 : Ref sig .tc := ⟨.hbm, 352, rfl⟩
abbrev main_c_70 : Ref sig .tc := ⟨.hbm, 353, rfl⟩
abbrev main_c_71 : Ref sig .tc := ⟨.hbm, 354, rfl⟩
abbrev main_call10_v0 : Ref sig .tc := ⟨.hbm, 355, rfl⟩
abbrev main_call10_v1 : Ref sig .tc := ⟨.hbm, 356, rfl⟩
abbrev main_call10_v2 : Ref sig .tc := ⟨.hbm, 357, rfl⟩
abbrev main_call10_v3 : Ref sig .tc := ⟨.hbm, 358, rfl⟩
abbrev main_call10_v4 : Ref sig .tc := ⟨.hbm, 359, rfl⟩
abbrev main_v199 : Ref sig .tc := ⟨.hbm, 360, rfl⟩
abbrev main_c_72 : Ref sig .tc := ⟨.hbm, 361, rfl⟩
abbrev main_v200 : Ref sig .tc := ⟨.hbm, 362, rfl⟩
abbrev main_v201 : Ref sig .tc := ⟨.hbm, 363, rfl⟩
abbrev main_c_73 : Ref sig .tc := ⟨.hbm, 364, rfl⟩
abbrev main_c_74 : Ref sig .tc := ⟨.hbm, 365, rfl⟩
abbrev main_call11_v0 : Ref sig .tc := ⟨.hbm, 366, rfl⟩
abbrev main_call11_v1 : Ref sig .tc := ⟨.hbm, 367, rfl⟩
abbrev main_call11_v2 : Ref sig .tc := ⟨.hbm, 368, rfl⟩
abbrev main_call11_v3 : Ref sig .tc := ⟨.hbm, 369, rfl⟩
abbrev main_call11_v4 : Ref sig .tc := ⟨.hbm, 370, rfl⟩
abbrev main_v202 : Ref sig .tc := ⟨.hbm, 371, rfl⟩
abbrev main_v203 : Ref sig .tc := ⟨.hbm, 372, rfl⟩
abbrev main_cst_75 : Ref sig .tc := ⟨.hbm, 373, rfl⟩
abbrev main_call12_v0 : Ref sig .tc := ⟨.hbm, 374, rfl⟩
abbrev main_call12_v1 : Ref sig .tc := ⟨.hbm, 375, rfl⟩
abbrev main_call12_v2 : Ref sig .tc := ⟨.hbm, 376, rfl⟩
abbrev main_call12_v3 : Ref sig .tc := ⟨.hbm, 377, rfl⟩
abbrev main_v204 : Ref sig .tc := ⟨.hbm, 378, rfl⟩
abbrev main_c_76 : Ref sig .tc := ⟨.hbm, 379, rfl⟩
abbrev main_v205 : Ref sig .tc := ⟨.hbm, 380, rfl⟩
abbrev main_v206 : Ref sig .tc := ⟨.hbm, 381, rfl⟩
abbrev main_c_77 : Ref sig .tc := ⟨.hbm, 382, rfl⟩
abbrev main_v207 : Ref sig .tc := ⟨.hbm, 383, rfl⟩
abbrev main_v208 : Ref sig .tc := ⟨.hbm, 384, rfl⟩
abbrev main_v209 : Ref sig .tc := ⟨.hbm, 385, rfl⟩
abbrev main_c_78 : Ref sig .tc := ⟨.hbm, 386, rfl⟩
abbrev main_v210 : Ref sig .tc := ⟨.hbm, 387, rfl⟩
abbrev main_v211 : Ref sig .tc := ⟨.hbm, 388, rfl⟩
abbrev main_c_79 : Ref sig .tc := ⟨.hbm, 389, rfl⟩
abbrev main_v212 : Ref sig .tc := ⟨.hbm, 390, rfl⟩
abbrev main_v213 : Ref sig .tc := ⟨.hbm, 391, rfl⟩
abbrev main_v214 : Ref sig .tc := ⟨.hbm, 392, rfl⟩
abbrev main_v215 : Ref sig .tc := ⟨.hbm, 393, rfl⟩
abbrev main_v216 : Ref sig .tc := ⟨.hbm, 394, rfl⟩
abbrev main_v217 : Ref sig .tc := ⟨.hbm, 395, rfl⟩
abbrev main_v218 : Ref sig .tc := ⟨.hbm, 396, rfl⟩
abbrev main_cst_80 : Ref sig .tc := ⟨.hbm, 397, rfl⟩
abbrev main_v219 : Ref sig .tc := ⟨.hbm, 398, rfl⟩
abbrev main_v220 : Ref sig .tc := ⟨.hbm, 399, rfl⟩
abbrev main_v221 : Ref sig .tc := ⟨.hbm, 400, rfl⟩
abbrev main_c_81 : Ref sig .tc := ⟨.hbm, 401, rfl⟩
abbrev main_v222 : Ref sig .tc := ⟨.hbm, 402, rfl⟩
abbrev main_v223 : Ref sig .tc := ⟨.hbm, 403, rfl⟩
abbrev main_c_82 : Ref sig .tc := ⟨.hbm, 404, rfl⟩
abbrev main_v224 : Ref sig .tc := ⟨.hbm, 405, rfl⟩
abbrev main_v225 : Ref sig .tc := ⟨.hbm, 406, rfl⟩
abbrev main_c_83 : Ref sig .tc := ⟨.hbm, 407, rfl⟩
abbrev main_v226 : Ref sig .tc := ⟨.hbm, 408, rfl⟩
abbrev main_v227 : Ref sig .tc := ⟨.hbm, 409, rfl⟩
abbrev main_c_84 : Ref sig .tc := ⟨.hbm, 410, rfl⟩
abbrev main_v228 : Ref sig .tc := ⟨.hbm, 411, rfl⟩
abbrev main_v229 : Ref sig .tc := ⟨.hbm, 412, rfl⟩
abbrev main_v230 : Ref sig .tc := ⟨.hbm, 413, rfl⟩
abbrev main_c_85 : Ref sig .tc := ⟨.hbm, 414, rfl⟩
abbrev main_v231 : Ref sig .tc := ⟨.hbm, 415, rfl⟩
abbrev main_v232 : Ref sig .tc := ⟨.hbm, 416, rfl⟩
abbrev main_v233 : Ref sig .tc := ⟨.hbm, 417, rfl⟩
abbrev main_c_86 : Ref sig .tc := ⟨.hbm, 418, rfl⟩
abbrev main_v234 : Ref sig .tc := ⟨.hbm, 419, rfl⟩
abbrev main_v235 : Ref sig .tc := ⟨.hbm, 420, rfl⟩
abbrev main_v236 : Ref sig .tc := ⟨.hbm, 421, rfl⟩
abbrev main_c_87 : Ref sig .tc := ⟨.hbm, 422, rfl⟩
abbrev main_c_88 : Ref sig .tc := ⟨.hbm, 423, rfl⟩
abbrev main_call13_v0 : Ref sig .tc := ⟨.hbm, 424, rfl⟩
abbrev main_call13_v1 : Ref sig .tc := ⟨.hbm, 425, rfl⟩
abbrev main_call13_v2 : Ref sig .tc := ⟨.hbm, 426, rfl⟩
abbrev main_call13_v3 : Ref sig .tc := ⟨.hbm, 427, rfl⟩
abbrev main_call13_v4 : Ref sig .tc := ⟨.hbm, 428, rfl⟩
abbrev main_v237 : Ref sig .tc := ⟨.hbm, 429, rfl⟩
abbrev main_c_89 : Ref sig .tc := ⟨.hbm, 430, rfl⟩
abbrev main_v238 : Ref sig .tc := ⟨.hbm, 431, rfl⟩
abbrev main_v239 : Ref sig .tc := ⟨.hbm, 432, rfl⟩
abbrev main_c_90 : Ref sig .tc := ⟨.hbm, 433, rfl⟩
abbrev main_c_91 : Ref sig .tc := ⟨.hbm, 434, rfl⟩
abbrev main_call14_v0 : Ref sig .tc := ⟨.hbm, 435, rfl⟩
abbrev main_call14_v1 : Ref sig .tc := ⟨.hbm, 436, rfl⟩
abbrev main_call14_v2 : Ref sig .tc := ⟨.hbm, 437, rfl⟩
abbrev main_call14_v3 : Ref sig .tc := ⟨.hbm, 438, rfl⟩
abbrev main_call14_v4 : Ref sig .tc := ⟨.hbm, 439, rfl⟩
abbrev main_v240 : Ref sig .tc := ⟨.hbm, 440, rfl⟩
abbrev main_v241 : Ref sig .tc := ⟨.hbm, 441, rfl⟩
abbrev main_cst_92 : Ref sig .tc := ⟨.hbm, 442, rfl⟩
abbrev main_call15_v0 : Ref sig .tc := ⟨.hbm, 443, rfl⟩
abbrev main_call15_v1 : Ref sig .tc := ⟨.hbm, 444, rfl⟩
abbrev main_call15_v2 : Ref sig .tc := ⟨.hbm, 445, rfl⟩
abbrev main_call15_v3 : Ref sig .tc := ⟨.hbm, 446, rfl⟩
abbrev main_v242 : Ref sig .tc := ⟨.hbm, 447, rfl⟩
abbrev main_c_93 : Ref sig .tc := ⟨.hbm, 448, rfl⟩
abbrev main_v243 : Ref sig .tc := ⟨.hbm, 449, rfl⟩
abbrev main_v244 : Ref sig .tc := ⟨.hbm, 450, rfl⟩
abbrev main_c_94 : Ref sig .tc := ⟨.hbm, 451, rfl⟩
abbrev main_v245 : Ref sig .tc := ⟨.hbm, 452, rfl⟩
abbrev main_v246 : Ref sig .tc := ⟨.hbm, 453, rfl⟩
abbrev main_v247 : Ref sig .tc := ⟨.hbm, 454, rfl⟩
abbrev main_c_95 : Ref sig .tc := ⟨.hbm, 455, rfl⟩
abbrev main_v248 : Ref sig .tc := ⟨.hbm, 456, rfl⟩
abbrev main_v249 : Ref sig .tc := ⟨.hbm, 457, rfl⟩
abbrev main_c_96 : Ref sig .tc := ⟨.hbm, 458, rfl⟩
abbrev main_v250 : Ref sig .tc := ⟨.hbm, 459, rfl⟩
abbrev main_v251 : Ref sig .tc := ⟨.hbm, 460, rfl⟩
abbrev main_v252 : Ref sig .tc := ⟨.hbm, 461, rfl⟩
abbrev main_v253 : Ref sig .tc := ⟨.hbm, 462, rfl⟩
abbrev main_v254 : Ref sig .tc := ⟨.hbm, 463, rfl⟩
abbrev main_v255 : Ref sig .tc := ⟨.hbm, 464, rfl⟩
abbrev main_v256 : Ref sig .tc := ⟨.hbm, 465, rfl⟩
abbrev main_v257 : Ref sig .tc := ⟨.hbm, 466, rfl⟩
abbrev main_c_97 : Ref sig .tc := ⟨.hbm, 467, rfl⟩
abbrev main_v258 : Ref sig .tc := ⟨.hbm, 468, rfl⟩
abbrev main_v259 : Ref sig .tc := ⟨.hbm, 469, rfl⟩
abbrev main_c_98 : Ref sig .tc := ⟨.hbm, 470, rfl⟩
abbrev main_v260 : Ref sig .tc := ⟨.hbm, 471, rfl⟩
abbrev main_v261 : Ref sig .tc := ⟨.hbm, 472, rfl⟩
abbrev main_c_99 : Ref sig .tc := ⟨.hbm, 473, rfl⟩
abbrev main_v262 : Ref sig .tc := ⟨.hbm, 474, rfl⟩
abbrev main_v263 : Ref sig .tc := ⟨.hbm, 475, rfl⟩
abbrev main_c_100 : Ref sig .tc := ⟨.hbm, 476, rfl⟩
abbrev main_v264 : Ref sig .tc := ⟨.hbm, 477, rfl⟩
abbrev main_v265 : Ref sig .tc := ⟨.hbm, 478, rfl⟩
abbrev main_v266 : Ref sig .tc := ⟨.hbm, 479, rfl⟩
abbrev main_c_101 : Ref sig .tc := ⟨.hbm, 480, rfl⟩
abbrev main_v267 : Ref sig .tc := ⟨.hbm, 481, rfl⟩
abbrev main_v268 : Ref sig .tc := ⟨.hbm, 482, rfl⟩
abbrev main_v269 : Ref sig .tc := ⟨.hbm, 483, rfl⟩
abbrev main_c_102 : Ref sig .tc := ⟨.hbm, 484, rfl⟩
abbrev main_v270 : Ref sig .tc := ⟨.hbm, 485, rfl⟩
abbrev main_v271 : Ref sig .tc := ⟨.hbm, 486, rfl⟩
abbrev main_v272 : Ref sig .tc := ⟨.hbm, 487, rfl⟩
abbrev main_c_103 : Ref sig .tc := ⟨.hbm, 488, rfl⟩
abbrev main_c_104 : Ref sig .tc := ⟨.hbm, 489, rfl⟩
abbrev main_call16_v0 : Ref sig .tc := ⟨.hbm, 490, rfl⟩
abbrev main_call16_v1 : Ref sig .tc := ⟨.hbm, 491, rfl⟩
abbrev main_call16_v2 : Ref sig .tc := ⟨.hbm, 492, rfl⟩
abbrev main_call16_v3 : Ref sig .tc := ⟨.hbm, 493, rfl⟩
abbrev main_call16_v4 : Ref sig .tc := ⟨.hbm, 494, rfl⟩
abbrev main_v273 : Ref sig .tc := ⟨.hbm, 495, rfl⟩
abbrev main_c_105 : Ref sig .tc := ⟨.hbm, 496, rfl⟩
abbrev main_v274 : Ref sig .tc := ⟨.hbm, 497, rfl⟩
abbrev main_v275 : Ref sig .tc := ⟨.hbm, 498, rfl⟩
abbrev main_c_106 : Ref sig .tc := ⟨.hbm, 499, rfl⟩
abbrev main_c_107 : Ref sig .tc := ⟨.hbm, 500, rfl⟩
abbrev main_call17_v0 : Ref sig .tc := ⟨.hbm, 501, rfl⟩
abbrev main_call17_v1 : Ref sig .tc := ⟨.hbm, 502, rfl⟩
abbrev main_call17_v2 : Ref sig .tc := ⟨.hbm, 503, rfl⟩
abbrev main_call17_v3 : Ref sig .tc := ⟨.hbm, 504, rfl⟩
abbrev main_call17_v4 : Ref sig .tc := ⟨.hbm, 505, rfl⟩
abbrev main_v276 : Ref sig .tc := ⟨.hbm, 506, rfl⟩
abbrev main_v277 : Ref sig .tc := ⟨.hbm, 507, rfl⟩
abbrev main_cst_108 : Ref sig .tc := ⟨.hbm, 508, rfl⟩
abbrev main_call18_v0 : Ref sig .tc := ⟨.hbm, 509, rfl⟩
abbrev main_call18_v1 : Ref sig .tc := ⟨.hbm, 510, rfl⟩
abbrev main_call18_v2 : Ref sig .tc := ⟨.hbm, 511, rfl⟩
abbrev main_call18_v3 : Ref sig .tc := ⟨.hbm, 512, rfl⟩
abbrev main_v278 : Ref sig .tc := ⟨.hbm, 513, rfl⟩
abbrev main_c_109 : Ref sig .tc := ⟨.hbm, 514, rfl⟩
abbrev main_v279 : Ref sig .tc := ⟨.hbm, 515, rfl⟩
abbrev main_v280 : Ref sig .tc := ⟨.hbm, 516, rfl⟩
abbrev main_c_110 : Ref sig .tc := ⟨.hbm, 517, rfl⟩
abbrev main_v281 : Ref sig .tc := ⟨.hbm, 518, rfl⟩
abbrev main_v282 : Ref sig .tc := ⟨.hbm, 519, rfl⟩
abbrev main_v283 : Ref sig .tc := ⟨.hbm, 520, rfl⟩
abbrev main_c_111 : Ref sig .tc := ⟨.hbm, 521, rfl⟩
abbrev main_v284 : Ref sig .tc := ⟨.hbm, 522, rfl⟩
abbrev main_v285 : Ref sig .tc := ⟨.hbm, 523, rfl⟩
abbrev main_c_112 : Ref sig .tc := ⟨.hbm, 524, rfl⟩
abbrev main_v286 : Ref sig .tc := ⟨.hbm, 525, rfl⟩
abbrev main_v287 : Ref sig .tc := ⟨.hbm, 526, rfl⟩
abbrev main_v288 : Ref sig .tc := ⟨.hbm, 527, rfl⟩
abbrev main_v289 : Ref sig .tc := ⟨.hbm, 528, rfl⟩
abbrev main_v290 : Ref sig .tc := ⟨.hbm, 529, rfl⟩
abbrev main_v291 : Ref sig .tc := ⟨.hbm, 530, rfl⟩
abbrev main_v292 : Ref sig .tc := ⟨.hbm, 531, rfl⟩
abbrev main_c_113 : Ref sig .tc := ⟨.hbm, 532, rfl⟩
abbrev main_v293 : Ref sig .tc := ⟨.hbm, 533, rfl⟩
abbrev main_v294 : Ref sig .tc := ⟨.hbm, 534, rfl⟩
abbrev main_c_114 : Ref sig .tc := ⟨.hbm, 535, rfl⟩
abbrev main_v295 : Ref sig .tc := ⟨.hbm, 536, rfl⟩
abbrev main_v296 : Ref sig .tc := ⟨.hbm, 537, rfl⟩
abbrev main_c_115 : Ref sig .tc := ⟨.hbm, 538, rfl⟩
abbrev main_v297 : Ref sig .tc := ⟨.hbm, 539, rfl⟩
abbrev main_v298 : Ref sig .tc := ⟨.hbm, 540, rfl⟩
abbrev main_c_116 : Ref sig .tc := ⟨.hbm, 541, rfl⟩
abbrev main_v299 : Ref sig .tc := ⟨.hbm, 542, rfl⟩
abbrev main_v300 : Ref sig .tc := ⟨.hbm, 543, rfl⟩
abbrev main_v301 : Ref sig .tc := ⟨.hbm, 544, rfl⟩
abbrev main_c_117 : Ref sig .tc := ⟨.hbm, 545, rfl⟩
abbrev main_v302 : Ref sig .tc := ⟨.hbm, 546, rfl⟩
abbrev main_v303 : Ref sig .tc := ⟨.hbm, 547, rfl⟩
abbrev main_v304 : Ref sig .tc := ⟨.hbm, 548, rfl⟩
abbrev main_c_118 : Ref sig .tc := ⟨.hbm, 549, rfl⟩
abbrev main_v305 : Ref sig .tc := ⟨.hbm, 550, rfl⟩
abbrev main_v306 : Ref sig .tc := ⟨.hbm, 551, rfl⟩
abbrev main_v307 : Ref sig .tc := ⟨.hbm, 552, rfl⟩
abbrev main_c_119 : Ref sig .tc := ⟨.hbm, 553, rfl⟩
abbrev main_c_120 : Ref sig .tc := ⟨.hbm, 554, rfl⟩
abbrev main_call19_v0 : Ref sig .tc := ⟨.hbm, 555, rfl⟩
abbrev main_call19_v1 : Ref sig .tc := ⟨.hbm, 556, rfl⟩
abbrev main_call19_v2 : Ref sig .tc := ⟨.hbm, 557, rfl⟩
abbrev main_call19_v3 : Ref sig .tc := ⟨.hbm, 558, rfl⟩
abbrev main_call19_v4 : Ref sig .tc := ⟨.hbm, 559, rfl⟩
abbrev main_v308 : Ref sig .tc := ⟨.hbm, 560, rfl⟩
abbrev main_c_121 : Ref sig .tc := ⟨.hbm, 561, rfl⟩
abbrev main_v309 : Ref sig .tc := ⟨.hbm, 562, rfl⟩
abbrev main_v310 : Ref sig .tc := ⟨.hbm, 563, rfl⟩
abbrev main_c_122 : Ref sig .tc := ⟨.hbm, 564, rfl⟩
abbrev main_c_123 : Ref sig .tc := ⟨.hbm, 565, rfl⟩
abbrev main_call20_v0 : Ref sig .tc := ⟨.hbm, 566, rfl⟩
abbrev main_call20_v1 : Ref sig .tc := ⟨.hbm, 567, rfl⟩
abbrev main_call20_v2 : Ref sig .tc := ⟨.hbm, 568, rfl⟩
abbrev main_call20_v3 : Ref sig .tc := ⟨.hbm, 569, rfl⟩
abbrev main_call20_v4 : Ref sig .tc := ⟨.hbm, 570, rfl⟩
abbrev main_v311 : Ref sig .tc := ⟨.hbm, 571, rfl⟩
abbrev main_v312 : Ref sig .tc := ⟨.hbm, 572, rfl⟩
abbrev main_cst_124 : Ref sig .tc := ⟨.hbm, 573, rfl⟩
abbrev main_call21_v0 : Ref sig .tc := ⟨.hbm, 574, rfl⟩
abbrev main_call21_v1 : Ref sig .tc := ⟨.hbm, 575, rfl⟩
abbrev main_call21_v2 : Ref sig .tc := ⟨.hbm, 576, rfl⟩
abbrev main_call21_v3 : Ref sig .tc := ⟨.hbm, 577, rfl⟩
abbrev main_v313 : Ref sig .tc := ⟨.hbm, 578, rfl⟩
abbrev main_c_125 : Ref sig .tc := ⟨.hbm, 579, rfl⟩
abbrev main_v314 : Ref sig .tc := ⟨.hbm, 580, rfl⟩
abbrev main_v315 : Ref sig .tc := ⟨.hbm, 581, rfl⟩
abbrev main_c_126 : Ref sig .tc := ⟨.hbm, 582, rfl⟩
abbrev main_v316 : Ref sig .tc := ⟨.hbm, 583, rfl⟩
abbrev main_v317 : Ref sig .tc := ⟨.hbm, 584, rfl⟩
abbrev main_v318 : Ref sig .tc := ⟨.hbm, 585, rfl⟩
abbrev main_c_127 : Ref sig .tc := ⟨.hbm, 586, rfl⟩
abbrev main_v319 : Ref sig .tc := ⟨.hbm, 587, rfl⟩
abbrev main_v320 : Ref sig .tc := ⟨.hbm, 588, rfl⟩
abbrev main_c_128 : Ref sig .tc := ⟨.hbm, 589, rfl⟩
abbrev main_v321 : Ref sig .tc := ⟨.hbm, 590, rfl⟩
abbrev main_v322 : Ref sig .tc := ⟨.hbm, 591, rfl⟩
abbrev main_v323 : Ref sig .tc := ⟨.hbm, 592, rfl⟩
abbrev main_v324 : Ref sig .tc := ⟨.hbm, 593, rfl⟩
abbrev main_v325 : Ref sig .tc := ⟨.hbm, 594, rfl⟩
abbrev main_v326 : Ref sig .tc := ⟨.hbm, 595, rfl⟩
abbrev main_v327 : Ref sig .tc := ⟨.hbm, 596, rfl⟩
abbrev main_c_129 : Ref sig .tc := ⟨.hbm, 597, rfl⟩
abbrev main_v328 : Ref sig .tc := ⟨.hbm, 598, rfl⟩
abbrev main_v329 : Ref sig .tc := ⟨.hbm, 599, rfl⟩
abbrev main_c_130 : Ref sig .tc := ⟨.hbm, 600, rfl⟩
abbrev main_v330 : Ref sig .tc := ⟨.hbm, 601, rfl⟩
abbrev main_v331 : Ref sig .tc := ⟨.hbm, 602, rfl⟩
abbrev main_c_131 : Ref sig .tc := ⟨.hbm, 603, rfl⟩
abbrev main_v332 : Ref sig .tc := ⟨.hbm, 604, rfl⟩
abbrev main_v333 : Ref sig .tc := ⟨.hbm, 605, rfl⟩
abbrev main_c_132 : Ref sig .tc := ⟨.hbm, 606, rfl⟩
abbrev main_v334 : Ref sig .tc := ⟨.hbm, 607, rfl⟩
abbrev main_v335 : Ref sig .tc := ⟨.hbm, 608, rfl⟩
abbrev main_v336 : Ref sig .tc := ⟨.hbm, 609, rfl⟩
abbrev main_c_133 : Ref sig .tc := ⟨.hbm, 610, rfl⟩
abbrev main_v337 : Ref sig .tc := ⟨.hbm, 611, rfl⟩
abbrev main_v338 : Ref sig .tc := ⟨.hbm, 612, rfl⟩
abbrev main_v339 : Ref sig .tc := ⟨.hbm, 613, rfl⟩
abbrev main_c_134 : Ref sig .tc := ⟨.hbm, 614, rfl⟩
abbrev main_v340 : Ref sig .tc := ⟨.hbm, 615, rfl⟩
abbrev main_v341 : Ref sig .tc := ⟨.hbm, 616, rfl⟩
abbrev main_v342 : Ref sig .tc := ⟨.hbm, 617, rfl⟩
abbrev main_c_135 : Ref sig .tc := ⟨.hbm, 618, rfl⟩
abbrev main_c_136 : Ref sig .tc := ⟨.hbm, 619, rfl⟩
abbrev main_call22_v0 : Ref sig .tc := ⟨.hbm, 620, rfl⟩
abbrev main_call22_v1 : Ref sig .tc := ⟨.hbm, 621, rfl⟩
abbrev main_call22_v2 : Ref sig .tc := ⟨.hbm, 622, rfl⟩
abbrev main_call22_v3 : Ref sig .tc := ⟨.hbm, 623, rfl⟩
abbrev main_call22_v4 : Ref sig .tc := ⟨.hbm, 624, rfl⟩
abbrev main_v343 : Ref sig .tc := ⟨.hbm, 625, rfl⟩
abbrev main_c_137 : Ref sig .tc := ⟨.hbm, 626, rfl⟩
abbrev main_v344 : Ref sig .tc := ⟨.hbm, 627, rfl⟩
abbrev main_v345 : Ref sig .tc := ⟨.hbm, 628, rfl⟩
abbrev main_c_138 : Ref sig .tc := ⟨.hbm, 629, rfl⟩
abbrev main_c_139 : Ref sig .tc := ⟨.hbm, 630, rfl⟩
abbrev main_call23_v0 : Ref sig .tc := ⟨.hbm, 631, rfl⟩
abbrev main_call23_v1 : Ref sig .tc := ⟨.hbm, 632, rfl⟩
abbrev main_call23_v2 : Ref sig .tc := ⟨.hbm, 633, rfl⟩
abbrev main_call23_v3 : Ref sig .tc := ⟨.hbm, 634, rfl⟩
abbrev main_call23_v4 : Ref sig .tc := ⟨.hbm, 635, rfl⟩
abbrev main_v346 : Ref sig .tc := ⟨.hbm, 636, rfl⟩
abbrev main_v347 : Ref sig .tc := ⟨.hbm, 637, rfl⟩
abbrev main_cst_140 : Ref sig .tc := ⟨.hbm, 638, rfl⟩
abbrev main_call24_v0 : Ref sig .tc := ⟨.hbm, 639, rfl⟩
abbrev main_call24_v1 : Ref sig .tc := ⟨.hbm, 640, rfl⟩
abbrev main_call24_v2 : Ref sig .tc := ⟨.hbm, 641, rfl⟩
abbrev main_call24_v3 : Ref sig .tc := ⟨.hbm, 642, rfl⟩
abbrev main_v348 : Ref sig .tc := ⟨.hbm, 643, rfl⟩
abbrev main_c_141 : Ref sig .tc := ⟨.hbm, 644, rfl⟩
abbrev main_v349 : Ref sig .tc := ⟨.hbm, 645, rfl⟩
abbrev main_v350 : Ref sig .tc := ⟨.hbm, 646, rfl⟩
abbrev main_c_142 : Ref sig .tc := ⟨.hbm, 647, rfl⟩
abbrev main_v351 : Ref sig .tc := ⟨.hbm, 648, rfl⟩
abbrev main_v352 : Ref sig .tc := ⟨.hbm, 649, rfl⟩
abbrev main_v353 : Ref sig .tc := ⟨.hbm, 650, rfl⟩
abbrev main_c_143 : Ref sig .tc := ⟨.hbm, 651, rfl⟩
abbrev main_v354 : Ref sig .tc := ⟨.hbm, 652, rfl⟩
abbrev main_v355 : Ref sig .tc := ⟨.hbm, 653, rfl⟩
abbrev main_c_144 : Ref sig .tc := ⟨.hbm, 654, rfl⟩
abbrev main_v356 : Ref sig .tc := ⟨.hbm, 655, rfl⟩
abbrev main_v357 : Ref sig .tc := ⟨.hbm, 656, rfl⟩
abbrev main_v358 : Ref sig .tc := ⟨.hbm, 657, rfl⟩
abbrev main_v359 : Ref sig .tc := ⟨.hbm, 658, rfl⟩
abbrev main_v360 : Ref sig .tc := ⟨.hbm, 659, rfl⟩
abbrev main_v361 : Ref sig .tc := ⟨.hbm, 660, rfl⟩
abbrev main_v362 : Ref sig .tc := ⟨.hbm, 661, rfl⟩
abbrev main_v363 : Ref sig .tc := ⟨.hbm, 662, rfl⟩
abbrev main_v364 : Ref sig .tc := ⟨.hbm, 663, rfl⟩
abbrev main_v365 : Ref sig .tc := ⟨.hbm, 664, rfl⟩
abbrev main_c_145 : Ref sig .tc := ⟨.hbm, 665, rfl⟩
abbrev main_v366 : Ref sig .tc := ⟨.hbm, 666, rfl⟩
abbrev main_v367 : Ref sig .tc := ⟨.hbm, 667, rfl⟩
abbrev main_v368 : Ref sig .tc := ⟨.hbm, 668, rfl⟩
abbrev main_v369 : Ref sig .tc := ⟨.hbm, 669, rfl⟩
abbrev main_cst_146 : Ref sig .tc := ⟨.hbm, 670, rfl⟩
abbrev main_v370 : Ref sig .tc := ⟨.hbm, 671, rfl⟩
abbrev main_v371 : Ref sig .tc := ⟨.hbm, 672, rfl⟩
abbrev main_v372 : Ref sig .tc := ⟨.hbm, 673, rfl⟩
abbrev main_v373 : Ref sig .tc := ⟨.hbm, 674, rfl⟩
abbrev main_v374 : Ref sig .tc := ⟨.hbm, 675, rfl⟩
abbrev main_v375 : Ref sig .tc := ⟨.hbm, 676, rfl⟩
abbrev main_cst_147 : Ref sig .tc := ⟨.hbm, 677, rfl⟩
abbrev main_v376 : Ref sig .tc := ⟨.hbm, 678, rfl⟩
abbrev main_v377 : Ref sig .tc := ⟨.hbm, 679, rfl⟩
abbrev main_v378 : Ref sig .tc := ⟨.hbm, 680, rfl⟩
abbrev main_v379 : Ref sig .tc := ⟨.hbm, 681, rfl⟩
abbrev main_v380 : Ref sig .tc := ⟨.hbm, 682, rfl⟩
abbrev main_v381 : Ref sig .tc := ⟨.hbm, 683, rfl⟩
abbrev main_v382 : Ref sig .tc := ⟨.hbm, 684, rfl⟩
abbrev main_v383 : Ref sig .tc := ⟨.hbm, 685, rfl⟩
abbrev main_cst_148 : Ref sig .tc := ⟨.hbm, 686, rfl⟩
abbrev main_v384 : Ref sig .tc := ⟨.hbm, 687, rfl⟩
abbrev main_v385 : Ref sig .tc := ⟨.hbm, 688, rfl⟩
abbrev main_v386 : Ref sig .tc := ⟨.hbm, 689, rfl⟩
abbrev main_v387 : Ref sig .tc := ⟨.hbm, 690, rfl⟩
abbrev main_v388 : Ref sig .tc := ⟨.hbm, 691, rfl⟩
abbrev main_v389 : Ref sig .tc := ⟨.hbm, 692, rfl⟩
abbrev main_v390 : Ref sig .tc := ⟨.hbm, 693, rfl⟩
abbrev main_v391 : Ref sig .tc := ⟨.hbm, 694, rfl⟩
abbrev main_cst_149 : Ref sig .tc := ⟨.hbm, 695, rfl⟩
abbrev main_v392 : Ref sig .tc := ⟨.hbm, 696, rfl⟩
abbrev main_v393 : Ref sig .tc := ⟨.hbm, 697, rfl⟩
abbrev main_v394 : Ref sig .tc := ⟨.hbm, 698, rfl⟩
abbrev main_v395 : Ref sig .tc := ⟨.hbm, 699, rfl⟩
abbrev main_v396 : Ref sig .tc := ⟨.hbm, 700, rfl⟩
abbrev main_v397 : Ref sig .tc := ⟨.hbm, 701, rfl⟩
abbrev main_v398 : Ref sig .tc := ⟨.hbm, 702, rfl⟩
abbrev main_v399 : Ref sig .tc := ⟨.hbm, 703, rfl⟩
abbrev main_v400 : Ref sig .tc := ⟨.hbm, 704, rfl⟩
abbrev main_v401 : Ref sig .tc := ⟨.hbm, 705, rfl⟩
abbrev main_v402 : Ref sig .tc := ⟨.hbm, 706, rfl⟩
abbrev main_v403 : Ref sig .tc := ⟨.hbm, 707, rfl⟩

abbrev nD : Nat := 1
abbrev τ : Topo := Topo.v7x

variable {F : FTy → Type} [FloatOps F]

class Facts₀ : Prop where
  shapeCasts_S2x1x1024x8_S2x1024x8 : S2x1x1024x8.ShapeCasts S2x1024x8
  transposes_S2x1024x8_S2x8x1024_0_2_1 : S2x1024x8.Transposes [0, 2, 1] S2x8x1024
  slices_S2x2x1024x8_S2x1x1024x8_0_0_0_0 : S2x2x1024x8.Slices ![0, 0, 0, 0] S2x1x1024x8
  slices_S2x2x1024x8_S2x1x1024x8_0_1_0_0 : S2x2x1024x8.Slices ![0, 1, 0, 0] S2x1x1024x8
  slices_S2x2x2x1024x8_S2x1x1x1024x8_0_0_0_0_0 : S2x2x2x1024x8.Slices ![0, 0, 0, 0, 0] S2x1x1x1024x8
  shapeCasts_S2x1x1x1024x8_S2x1024x8 : S2x1x1x1024x8.ShapeCasts S2x1024x8
  slices_S2x2x2x1024x8_S2x1x1x1024x8_0_0_1_0_0 : S2x2x2x1024x8.Slices ![0, 0, 1, 0, 0] S2x1x1x1024x8
  slices_S2x2x2x1024x8_S2x1x1x1024x8_0_1_1_0_0 : S2x2x2x1024x8.Slices ![0, 1, 1, 0, 0] S2x1x1x1024x8
  shapeCasts_S2x8x1024_S16x1024 : S2x8x1024.ShapeCasts S16x1024
  bcast_S_S1024 : S_.BroadcastsInDim S1024 (![] : Fin 0 → Fin S1024.rank)
  bcast_S_S1024x1024 : S_.BroadcastsInDim S1024x1024 (![] : Fin 0 → Fin S1024x1024.rank)
  bcast_S_S16x1024 : S_.BroadcastsInDim S16x1024 (![] : Fin 0 → Fin S16x1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bcast_S1024x1024_S16x1024x1024_1_2 : S1024x1024.BroadcastsInDim S16x1024x1024 (![1, 2] : Fin 2 → Fin S16x1024x1024.rank)
  bcast_S1024_S16x1024_1 : S1024.BroadcastsInDim S16x1024 (![1] : Fin 1 → Fin S16x1024.rank)
  shapeCasts_S16x1024x1024_S2x8x1024x1024 : S16x1024x1024.ShapeCasts S2x8x1024x1024
  bcast_S_S2x8x1024x1024 : S_.BroadcastsInDim S2x8x1024x1024 (![] : Fin 0 → Fin S2x8x1024x1024.rank)
  bcast_S1024x1024_S1x1x1024x1024_2_3 : S1024x1024.BroadcastsInDim S1x1x1024x1024 (![2, 3] : Fin 2 → Fin S1x1x1024x1024.rank)
  bcast_S1x1x1024x1024_S2x8x1024x1024_0_1_2_3 : S1x1x1024x1024.BroadcastsInDim S2x8x1024x1024 (![0, 1, 2, 3] : Fin 4 → Fin S2x8x1024x1024.rank)
  bcast_S_S2x8x1024 : S_.BroadcastsInDim S2x8x1024 (![] : Fin 0 → Fin S2x8x1024.rank)
  bcast_S2x8x1024_S2x8x1024x1_0_1_2 : S2x8x1024.BroadcastsInDim S2x8x1024x1 (![0, 1, 2] : Fin 3 → Fin S2x8x1024x1.rank)
  bcast_S2x8x1024x1_S2x8x1024x1024_0_1_2_3 : S2x8x1024x1.BroadcastsInDim S2x8x1024x1024 (![0, 1, 2, 3] : Fin 4 → Fin S2x8x1024x1024.rank)
  slices_S2x8x1024_S2x7x1024_0_1_0 : S2x8x1024.Slices ![0, 1, 0] S2x7x1024
  slices_S2x8x1024_S2x1x1024_0_0_0 : S2x8x1024.Slices ![0, 0, 0] S2x1x1024
  bcast_S_S2x1x1024 : S_.BroadcastsInDim S2x1x1024 (![] : Fin 0 → Fin S2x1x1024.rank)
  concatenates_S2x7x1024_S2x1x1024_S2x8x1024_d1 : Shape.Concatenates [S2x7x1024, S2x1x1024] S2x8x1024 1
  bcast_S_S2x1x1024x1024 : S_.BroadcastsInDim S2x1x1024x1024 (![] : Fin 0 → Fin S2x1x1024x1024.rank)
  slices_S2x8x1024x1024_S2x7x1024x1024_0_1_0_0 : S2x8x1024x1024.Slices ![0, 1, 0, 0] S2x7x1024x1024
  transposes_S2x7x1024x1024_S2x7x1024x1024_0_1_3_2 : S2x7x1024x1024.Transposes [0, 1, 3, 2] S2x7x1024x1024
  concatenates_S2x1x1024x1024_S2x7x1024x1024_S2x8x1024x1024_d1 : Shape.Concatenates [S2x1x1024x1024, S2x7x1024x1024] S2x8x1024x1024 1
  concatenates_S2x7x1024x1024_S2x1x1024x1024_S2x8x1024x1024_d1 : Shape.Concatenates [S2x7x1024x1024, S2x1x1024x1024] S2x8x1024x1024 1
  bcast_S2x8x1024x1024_S2x1x8x1024x1024_0_2_3_4 : S2x8x1024x1024.BroadcastsInDim S2x1x8x1024x1024 (![0, 2, 3, 4] : Fin 4 → Fin S2x1x8x1024x1024.rank)
  concatenates_S2x1x8x1024x1024_S2x1x8x1024x1024_S2x1x8x1024x1024_S2x3x8x1024x1024_d1 : Shape.Concatenates [S2x1x8x1024x1024, S2x1x8x1024x1024, S2x1x8x1024x1024] S2x3x8x1024x1024 1
  scatter_S16x1024x1024_S1024x2_S16x1024_0_12_12_1_wf : ScatterDims.WF S16x1024x1024 S1024x2 S16x1024 [0] [1, 2] [1, 2] 1
  dot_S2x8x1024x1024_S2x8x1024x1024_S2x8x1024x1024_2_2_3_3_01_01_wf : DotDims.WF S2x8x1024x1024 S2x8x1024x1024 S2x8x1024x1024 [2] [2] [3] [3] [0, 1] [0, 1]

variable [Facts₀]

def scatter_S16x1024x1024_S1024x2_S16x1024_0_12_12_1 : ScatterDims S16x1024x1024 S1024x2 S16x1024 where
  updateWindowDims := [0]
  insertedWindowDims := [1, 2]
  scatterDimsToOperandDims := [1, 2]
  indexVectorDim := 1
  wf := scatter_S16x1024x1024_S1024x2_S16x1024_0_12_12_1_wf
def dot_S2x8x1024x1024_S2x8x1024x1024_S2x8x1024x1024_2_2_3_3_01_01 : DotDims S2x8x1024x1024 S2x8x1024x1024 S2x8x1024x1024 where
  lhsContracting := [2]
  rhsContracting := [2]
  lhsNonContracting := [3]
  rhsNonContracting := [3]
  lhsBatch := [0, 1]
  rhsBatch := [0, 1]
  wf := dot_S2x8x1024x1024_S2x8x1024x1024_S2x8x1024x1024_2_2_3_3_01_01_wf

class Facts : Prop extends Facts₀ where

variable [Facts]
-- ==== Proof.FrameDataK.lean ====
/- The proof data of the one region (the product Mᵀ·(diag(w)·M), one (batch, time) pair per grid point).
   Sixteen grid points; window 0 and window 1 stage block t of the two [16,1024,1024] operands (the matrices of pair t,
   whole), window 2 stages block t of the [16,1024,1024] result. The body loads both input blocks whole, drops the
   leading unit axis, multiplies the first transposed by the second into a zero accumulator and stores the product
   whole: so after the body at point t the output's staging buffer holds that product of the two input blocks at t,
   and the input buffers hold their blocks. `V0` is a core's buffer contents when the region is entered: the launch
   memory after every host operation before the region. -/
import proofs.«117756_j83829171683377_1_alg».proof.Proof.LaunchK
import proofs.«117756_j83829171683377_1_alg».proof.Proof.Gen.Kernel.Skeleton
import proofs.«117756_j83829171683377_1_alg».proof.Proof.Gen.Kernel.Points
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen Cert.Kernel.GenP

variable {F : FTy → Type} [FloatOps F]

variable (m : (ℓ : Loc nD τ sig) → Buf (Elt F) ℓ)

/-- The host operations before the region, stretch by stretch, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]

/-- Core `c`'s buffer contents when the region is entered. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole [1,1024,1024] staging buffer as one rectangle. -/
abbrev rWhole : Rect S1x1024x1024 := Rect.unit (s := S1x1024x1024) ![0, 0, 0] S1x1024x1024.size inb_S1x1024x1024_S1x1024x1024_0_0_0

/-- What the body leaves in the output's staging buffer, from the two input blocks: its one store, of the product. -/
def out0_2 (x0 x1 : Vec F S1x1024x1024 .bf16) : Vec F S1x1024x1024 .f32 :=
  View.canon [⟨rWhole, k0_pay1 (View.ld x0 rWhole) (View.ld x1 rWhole)⟩]

/-- The proof data on core `c`: arrays as the region finds them; after the body each input buffer at its block and the
    output buffer at the product of the two input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Hand

end
-- ==== Proof.FrameK_Host.lean ====
/- The host part of the frame: @main is the host operations before the region (51 stretches), the region, and the
   host operations after it; none of them allocates, each touches unscoped TensorCore buffers only, and none writes an
   argument array — each writes its own result buffer, a different reference. So an argument array holds at the
   region's entry, and again at the end of @main, what it held at launch. -/
import proofs.«117756_j83829171683377_1_alg».proof.Proof.FrameDataK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## No host operation writes an argument array

Each operation writes one buffer, its result; the result references are all different from the four argument
references (decided on the references). -/

/-- The operation writes none of the four argument arrays. -/
abbrev KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

theorem hostOps0_keeps : (hostOps0 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_1_keeps : (hostOps0_1 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_2_keeps : (hostOps0_2 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_3_keeps : (hostOps0_3 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_4_keeps : (hostOps0_4 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_5_keeps : (hostOps0_5 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_6_keeps : (hostOps0_6 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_7_keeps : (hostOps0_7 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_8_keeps : (hostOps0_8 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_9_keeps : (hostOps0_9 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_10_keeps : (hostOps0_10 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_11_keeps : (hostOps0_11 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_12_keeps : (hostOps0_12 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_13_keeps : (hostOps0_13 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_14_keeps : (hostOps0_14 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_15_keeps : (hostOps0_15 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_16_keeps : (hostOps0_16 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_17_keeps : (hostOps0_17 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_18_keeps : (hostOps0_18 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_19_keeps : (hostOps0_19 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_20_keeps : (hostOps0_20 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_21_keeps : (hostOps0_21 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_22_keeps : (hostOps0_22 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_23_keeps : (hostOps0_23 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_24_keeps : (hostOps0_24 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_25_keeps : (hostOps0_25 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_26_keeps : (hostOps0_26 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_27_keeps : (hostOps0_27 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_28_keeps : (hostOps0_28 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_29_keeps : (hostOps0_29 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_30_keeps : (hostOps0_30 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_31_keeps : (hostOps0_31 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_32_keeps : (hostOps0_32 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_33_keeps : (hostOps0_33 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_34_keeps : (hostOps0_34 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_35_keeps : (hostOps0_35 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_36_keeps : (hostOps0_36 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_37_keeps : (hostOps0_37 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_38_keeps : (hostOps0_38 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_39_keeps : (hostOps0_39 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_40_keeps : (hostOps0_40 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_41_keeps : (hostOps0_41 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_42_keeps : (hostOps0_42 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_43_keeps : (hostOps0_43 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_44_keeps : (hostOps0_44 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_45_keeps : (hostOps0_45 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_46_keeps : (hostOps0_46 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_47_keeps : (hostOps0_47 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_48_keeps : (hostOps0_48 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_49_keeps : (hostOps0_49 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_50_keeps : (hostOps0_50 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps1_keeps : (hostOps1 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)

/-! ## @main around the region -/

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub⟩

theorem prefix_fresh : (prefixOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh⟩

theorem prefix_keeps : (prefixOps (F := F)).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps, hostOps0_50_keeps⟩

/-- @main is the 51 stretches, the region, and the last stretch: it reduces to the region continued by the last stretch,
    entered at the launch memory after the 51 stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-! ## The operations after the region -/

/-- They touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  rw [List.mem_singleton] at hops
  subst hops
  exact (List.forall_iff_forall_mem.mp hostOps1_fresh) op hop

/-- None writes an array of the pipeline: each writes its own result, none of which is a window's array. -/
theorem hostOps1_keepsArr : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops
  subst hops
  exact (List.forall_iff_forall_mem.mp hostOps1_keepsArr) op hop

/-! ## The argument arrays at the region's entry and at the end -/

/-- No operation of the 51 stretches writes an argument array. -/
theorem prefix_not_mem : ∀ op ∈ List.flatten (prefixOps (F := F)), KeepsArgs op := by
  intro op hop
  obtain ⟨ops, hops, hmem⟩ := List.mem_flatten.mp hop
  exact (List.forall_iff_forall_mem.mp ((List.forall_iff_forall_mem.mp prefix_keeps) ops hops)) op hmem

/-- Nor does one of the last stretch. -/
theorem tail_not_mem : ∀ op ∈ List.flatten ([hostOps1] : List (List (HloOp τ sig (Elt F)))), KeepsArgs op := by
  intro op hop
  obtain ⟨ops, hops, hmem⟩ := List.mem_flatten.mp hop
  rw [List.mem_singleton] at hops
  subst hops
  exact (List.forall_iff_forall_mem.mp hostOps1_keeps) op hmem

/-- The region finds `main_arg0` as launched. -/
theorem V_main_arg0 (c : Dev nD) : V m c main_arg0 = m ((c : Thread nD τ).loc main_arg0) :=
  StableHlo.after_of_forall_not_mem (b := Proc.devRef .tc main_arg0) _ _ (fun op hop => (prefix_not_mem op hop).1)

/-- The region finds `main_arg1` as launched. -/
theorem V_main_arg1 (c : Dev nD) : V m c main_arg1 = m ((c : Thread nD τ).loc main_arg1) :=
  StableHlo.after_of_forall_not_mem (b := Proc.devRef .tc main_arg1) _ _ (fun op hop => (prefix_not_mem op hop).2.1)

/-- The region finds `main_arg2` as launched. -/
theorem V_main_arg2 (c : Dev nD) : V m c main_arg2 = m ((c : Thread nD τ).loc main_arg2) :=
  StableHlo.after_of_forall_not_mem (b := Proc.devRef .tc main_arg2) _ _ (fun op hop => (prefix_not_mem op hop).2.2.1)

/-- The region finds `main_arg3` as launched. -/
theorem V_main_arg3 (c : Dev nD) : V m c main_arg3 = m ((c : Thread nD τ).loc main_arg3) :=
  StableHlo.after_of_forall_not_mem (b := Proc.devRef .tc main_arg3) _ _ (fun op hop => (prefix_not_mem op hop).2.2.2)

/-- `main_arg0` ends as launched: the last stretch does not write it, it is no array of the pipeline, and the region
    found it as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (fun op hop => (tail_not_mem op hop).1),
    Pipeline.withArrays_of_ne _ c (V0 m c) _ main_arg0 (by exact (by decide : ∀ w, Pipeline.arrRef spec0 w ≠ main_arg0))]
  exact V_main_arg0 m c

/-- `main_arg1` ends as launched: the last stretch does not write it, it is no array of the pipeline, and the region
    found it as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (fun op hop => (tail_not_mem op hop).2.1),
    Pipeline.withArrays_of_ne _ c (V0 m c) _ main_arg1 (by exact (by decide : ∀ w, Pipeline.arrRef spec0 w ≠ main_arg1))]
  exact V_main_arg1 m c

/-- `main_arg2` ends as launched: the last stretch does not write it, it is no array of the pipeline, and the region
    found it as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (fun op hop => (tail_not_mem op hop).2.2.1),
    Pipeline.withArrays_of_ne _ c (V0 m c) _ main_arg2 (by exact (by decide : ∀ w, Pipeline.arrRef spec0 w ≠ main_arg2))]
  exact V_main_arg2 m c

/-- `main_arg3` ends as launched: the last stretch does not write it, it is no array of the pipeline, and the region
    found it as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (fun op hop => (tail_not_mem op hop).2.2.2),
    Pipeline.withArrays_of_ne _ c (V0 m c) _ main_arg3 (by exact (by decide : ∀ w, Pipeline.arrRef spec0 w ≠ main_arg3))]
  exact V_main_arg3 m c

end Cert.Kernel.Hand

end
-- ==== Proof.FrameK_Body.lean ====
/- The body part of the frame: the kernel body, called on the three windows' whole staging buffers with the two inputs'
   holding their blocks and the output's holding anything, terminates without fault, leaves the inputs' as they were and
   the output's at the one whole-buffer store of the product — at every grid point. -/
import proofs.«117756_j83829171683377_1_alg».proof.Proof.FrameDataK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output buffer after the body -/

/-- The one store is of the whole buffer, so it covers it. -/
theorem cover0_2 (p0 : Vec F S1x1024x1024 .f32) (y : S1x1024x1024.Idx) :
    ∃ pc ∈ ([⟨rWhole, p0⟩] : List (View.Piece (Elt F) S1x1024x1024 .f32)), y ∈ pc.1.set :=
  View.cover_of_tiled [⟨rWhole, p0⟩] S1x1024x1024.size (by rfl) y

/-! ## The body's triple -/

set_option maxHeartbeats 1000000 in
/-- The body on whole staging memrefs — the inputs' read at `x0`, `x1`, the output's at any contents (its load's value
    is dropped) — runs to the continuation with the inputs' as they were and the output's at the store of the product:
    two loads, the dropped load, one store over the whole buffer. -/
theorem sound_kernel (c : Dev nD) (E : Set ℕ) (i : grid0.Coords)
    (arg1 : Memref sig .tc .vmem S1x1024x1024 .bf16) (harg1 : arg1.IsWhole)
    (arg2 : Memref sig .tc .vmem S1x1024x1024 .bf16) (harg2 : arg2.IsWhole)
    (arg3 : Memref sig .tc .vmem S1x1024x1024 .f32) (harg3 : arg3.IsWhole)
    (x0 x1 : Vec F S1x1024x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The input windows' buffers at a point -/

/-- Input window 0's current staging buffer holds its block at every point, fetched there or not: the window is uncut,
    never idle, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The same of input window 1. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the output's anything; the invariant and the core's
    count of owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.FrameK.lean ====
/- The frame of @main: every weakly fair execution terminates, faults nowhere, and ends with the four argument arrays
   as launched. The run is the library's frame run around the one region — host operations, the region on the proof
   data (each input window's buffer at its block, the output window's at the product of the two), host operations —;
   the argument arrays are no array of the region and no host operation writes them, so each ends as launched. -/
import proofs.«117756_j83829171683377_1_alg».proof.Proof.FrameK_Host
import proofs.«117756_j83829171683377_1_alg».proof.Proof.FrameK_Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the frame run's implicit arguments are found by unifying its conclusion with this one, through plain definitions in a
-- metavariable's type
set_option backward.isDefEq.respectTransparency.types false in
/-- From any memory with zero counters, for any values: every weakly fair execution of @main terminates, and every final
    state has each array of the region at what the proof data give and every other unscoped buffer as the operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- THE FRAME, at any `F`: the argument arrays are buffers the region's windows do not stage, so the run's post gives
    each at the end what the operations after the region leave, which is what was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c)⟩) (run_main m ρ)

end Cert.Kernel.Hand

end
-- ==== Proof.FrameDataKI.lean ====
/- The proof data of the one region (the product Mᵀ·(diag(w)·M), one (batch, time) pair per grid point).
   Sixteen grid points; window 0 and window 1 stage block t of the two [16,1024,1024] operands (the matrices of pair t,
   whole), window 2 stages block t of the [16,1024,1024] result. The body loads both input blocks whole, drops the
   leading unit axis, multiplies the first transposed by the second into a zero accumulator and stores the product
   whole: so after the body at point t the output's staging buffer holds that product of the two input blocks at t,
   and the input buffers hold their blocks. `V0` is a core's buffer contents when the region is entered: the launch
   memory after every host operation before the region. -/
import proofs.«117756_j83829171683377_1_alg».proof.Proof.LaunchKI
import proofs.«117756_j83829171683377_1_alg».proof.Proof.Gen.KernelIdeal.Skeleton
import proofs.«117756_j83829171683377_1_alg».proof.Proof.Gen.KernelIdeal.Points
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen Cert.KernelIdeal.GenP

variable {F : FTy → Type} [FloatOps F]

variable (m : (ℓ : Loc nD τ sig) → Buf (Elt F) ℓ)

/-- The host operations before the region, stretch by stretch, in order. -/
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]

/-- Core `c`'s buffer contents when the region is entered. -/
abbrev V0 (c : Dev nD) : Valuation τ sig (Elt F) := StableHlo.after (List.flatten prefixOps) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole [1,1024,1024] staging buffer as one rectangle. -/
abbrev rWhole : Rect S1x1024x1024 := Rect.unit (s := S1x1024x1024) ![0, 0, 0] S1x1024x1024.size inb_S1x1024x1024_S1x1024x1024_0_0_0

/-- What the body leaves in the output's staging buffer, from the two input blocks: its one store, of the product. -/
def out0_2 (x0 x1 : Vec F S1x1024x1024 .bf16) : Vec F S1x1024x1024 .f32 :=
  View.canon [⟨rWhole, k0_pay1 (View.ld x0 rWhole) (View.ld x1 rWhole)⟩]

/-- The proof data on core `c`: arrays as the region finds them; after the body each input buffer at its block and the
    output buffer at the product of the two input blocks; nothing owed, full shares, the class's invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Hand

end
-- ==== Proof.FrameKI_Host.lean ====
/- The host part of the frame: @main is the host operations before the region (51 stretches), the region, and the
   host operations after it; none of them allocates, each touches unscoped TensorCore buffers only, and none writes an
   argument array — each writes its own result buffer, a different reference. So an argument array holds at the
   region's entry, and again at the end of @main, what it held at launch. -/
import proofs.«117756_j83829171683377_1_alg».proof.Proof.FrameDataKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No host operation allocates -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## No host operation writes an argument array

Each operation writes one buffer, its result; the result references are all different from the four argument
references (decided on the references). -/

/-- The operation writes none of the four argument arrays. -/
abbrev KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

theorem hostOps0_keeps : (hostOps0 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_1_keeps : (hostOps0_1 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_2_keeps : (hostOps0_2 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_3_keeps : (hostOps0_3 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_4_keeps : (hostOps0_4 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_5_keeps : (hostOps0_5 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_6_keeps : (hostOps0_6 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_7_keeps : (hostOps0_7 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_8_keeps : (hostOps0_8 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_9_keeps : (hostOps0_9 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_10_keeps : (hostOps0_10 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_11_keeps : (hostOps0_11 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_12_keeps : (hostOps0_12 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_13_keeps : (hostOps0_13 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_14_keeps : (hostOps0_14 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_15_keeps : (hostOps0_15 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_16_keeps : (hostOps0_16 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_17_keeps : (hostOps0_17 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_18_keeps : (hostOps0_18 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_19_keeps : (hostOps0_19 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_20_keeps : (hostOps0_20 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_21_keeps : (hostOps0_21 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_22_keeps : (hostOps0_22 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_23_keeps : (hostOps0_23 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_24_keeps : (hostOps0_24 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_25_keeps : (hostOps0_25 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_26_keeps : (hostOps0_26 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_27_keeps : (hostOps0_27 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_28_keeps : (hostOps0_28 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_29_keeps : (hostOps0_29 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_30_keeps : (hostOps0_30 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_31_keeps : (hostOps0_31 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_32_keeps : (hostOps0_32 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_33_keeps : (hostOps0_33 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_34_keeps : (hostOps0_34 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_35_keeps : (hostOps0_35 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_36_keeps : (hostOps0_36 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_37_keeps : (hostOps0_37 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_38_keeps : (hostOps0_38 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_39_keeps : (hostOps0_39 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_40_keeps : (hostOps0_40 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_41_keeps : (hostOps0_41 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_42_keeps : (hostOps0_42 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_43_keeps : (hostOps0_43 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_44_keeps : (hostOps0_44 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_45_keeps : (hostOps0_45 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_46_keeps : (hostOps0_46 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_47_keeps : (hostOps0_47 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_48_keeps : (hostOps0_48 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_49_keeps : (hostOps0_49 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps0_50_keeps : (hostOps0_50 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)
theorem hostOps1_keeps : (hostOps1 : List (HloOp τ sig (Elt F))).Forall KeepsArgs := by
  simp only [List.Forall, KeepsArgs, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals exact StableHlo.devRef_ne_of_ne (by decide)

/-! ## @main around the region -/

theorem prefix_sub : (prefixOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub⟩

theorem prefix_fresh : (prefixOps (F := F)).Forall fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh⟩

theorem prefix_keeps : (prefixOps (F := F)).Forall fun ops => ops.Forall KeepsArgs :=
  ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps, hostOps0_50_keeps⟩

/-- @main is the 51 stretches, the region, and the last stretch: it reduces to the region continued by the last stretch,
    entered at the launch memory after the 51 stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main prefixOps [hostOps1] prefix_sub prefix_fresh main_chain

/-! ## The operations after the region -/

/-- They touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  rw [List.mem_singleton] at hops
  subst hops
  exact (List.forall_iff_forall_mem.mp hostOps1_fresh) op hop

/-- None writes an array of the pipeline: each writes its own result, none of which is a window's array. -/
theorem hostOps1_keepsArr : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  rw [List.mem_singleton] at hops
  subst hops
  exact (List.forall_iff_forall_mem.mp hostOps1_keepsArr) op hop

/-! ## The argument arrays at the region's entry and at the end -/

/-- No operation of the 51 stretches writes an argument array. -/
theorem prefix_not_mem : ∀ op ∈ List.flatten (prefixOps (F := F)), KeepsArgs op := by
  intro op hop
  obtain ⟨ops, hops, hmem⟩ := List.mem_flatten.mp hop
  exact (List.forall_iff_forall_mem.mp ((List.forall_iff_forall_mem.mp prefix_keeps) ops hops)) op hmem

/-- Nor does one of the last stretch. -/
theorem tail_not_mem : ∀ op ∈ List.flatten ([hostOps1] : List (List (HloOp τ sig (Elt F)))), KeepsArgs op := by
  intro op hop
  obtain ⟨ops, hops, hmem⟩ := List.mem_flatten.mp hop
  rw [List.mem_singleton] at hops
  subst hops
  exact (List.forall_iff_forall_mem.mp hostOps1_keeps) op hmem

/-- The region finds `main_arg0` as launched. -/
theorem V_main_arg0 (c : Dev nD) : V m c main_arg0 = m ((c : Thread nD τ).loc main_arg0) :=
  StableHlo.after_of_forall_not_mem (b := Proc.devRef .tc main_arg0) _ _ (fun op hop => (prefix_not_mem op hop).1)

/-- The region finds `main_arg1` as launched. -/
theorem V_main_arg1 (c : Dev nD) : V m c main_arg1 = m ((c : Thread nD τ).loc main_arg1) :=
  StableHlo.after_of_forall_not_mem (b := Proc.devRef .tc main_arg1) _ _ (fun op hop => (prefix_not_mem op hop).2.1)

/-- The region finds `main_arg2` as launched. -/
theorem V_main_arg2 (c : Dev nD) : V m c main_arg2 = m ((c : Thread nD τ).loc main_arg2) :=
  StableHlo.after_of_forall_not_mem (b := Proc.devRef .tc main_arg2) _ _ (fun op hop => (prefix_not_mem op hop).2.2.1)

/-- The region finds `main_arg3` as launched. -/
theorem V_main_arg3 (c : Dev nD) : V m c main_arg3 = m ((c : Thread nD τ).loc main_arg3) :=
  StableHlo.after_of_forall_not_mem (b := Proc.devRef .tc main_arg3) _ _ (fun op hop => (prefix_not_mem op hop).2.2.2)

/-- `main_arg0` ends as launched: the last stretch does not write it, it is no array of the pipeline, and the region
    found it as launched. -/
theorem W_main_arg0 (c : Dev nD) :
    Pipeline.afterTail₀ cfgs (dats m) 0 (V0 m) [hostOps1] c main_arg0 = m ((c : Thread nD τ).loc main_arg0) := by
  unfold Pipeline.afterTail₀
  rw [StableHlo.after_of_forall_not_mem (b := Proc.devRef .tc main_arg0) _ _ (fun op hop => (tail_not_mem op hop).1),
    Pipeline.withArrays_of_ne _ c (V0 m c) _ main_arg0 (by exact (by decide : ∀ w, Pipeline.arrRef spec0 w ≠ main_arg0))]
  exact V_main_arg0 m c

/-- `main_arg1` ends as launched: the last stretch does not write it, it is no array of the pipeline, and the region
    found it as launched. -/
theorem W_main_arg1 (c : Dev nD) :
    Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (fun op hop => (tail_not_mem op hop).2.1),
    Pipeline.withArrays_of_ne _ c (V0 m c) _ main_arg1 (by exact (by decide : ∀ w, Pipeline.arrRef spec0 w ≠ main_arg1))]
  exact V_main_arg1 m c

/-- `main_arg2` ends as launched: the last stretch does not write it, it is no array of the pipeline, and the region
    found it as launched. -/
theorem W_main_arg2 (c : Dev nD) :
    Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (fun op hop => (tail_not_mem op hop).2.2.1),
    Pipeline.withArrays_of_ne _ c (V0 m c) _ main_arg2 (by exact (by decide : ∀ w, Pipeline.arrRef spec0 w ≠ main_arg2))]
  exact V_main_arg2 m c

/-- `main_arg3` ends as launched: the last stretch does not write it, it is no array of the pipeline, and the region
    found it as launched. -/
theorem W_main_arg3 (c : Dev nD) :
    Pipeline.afterTail₀ cfgs (dats m) 0 (V0 m) [hostOps1] c main_arg3 = m ((c : Thread nD τ).loc main_arg3) := by
  unfold Pipeline.afterTail₀
  rw [StableHlo.after_of_forall_not_mem (b := Proc.devRef .tc main_arg3) _ _ (fun op hop => (tail_not_mem op hop).2.2.2),
    Pipeline.withArrays_of_ne _ c (V0 m c) _ main_arg3 (by exact (by decide : ∀ w, Pipeline.arrRef spec0 w ≠ main_arg3))]
  exact V_main_arg3 m c

end Cert.KernelIdeal.Hand

end
-- ==== Proof.FrameKI_Body.lean ====
/- The body part of the frame: the kernel body, called on the three windows' whole staging buffers with the two inputs'
   holding their blocks and the output's holding anything, terminates without fault, leaves the inputs' as they were and
   the output's at the one whole-buffer store of the product — at every grid point. -/
import proofs.«117756_j83829171683377_1_alg».proof.Proof.FrameDataKI
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The output buffer after the body -/

/-- The one store is of the whole buffer, so it covers it. -/
theorem cover0_2 (p0 : Vec F S1x1024x1024 .f32) (y : S1x1024x1024.Idx) :
    ∃ pc ∈ ([⟨rWhole, p0⟩] : List (View.Piece (Elt F) S1x1024x1024 .f32)), y ∈ pc.1.set :=
  View.cover_of_tiled [⟨rWhole, p0⟩] S1x1024x1024.size (by rfl) y

/-! ## The body's triple -/

set_option maxHeartbeats 1000000 in
/-- The body on whole staging memrefs — the inputs' read at `x0`, `x1`, the output's at any contents (its load's value
    is dropped) — runs to the continuation with the inputs' as they were and the output's at the store of the product:
    two loads, the dropped load, one store over the whole buffer. -/
theorem sound_kernel (c : Dev nD) (E : Set ℕ) (i : grid0.Coords)
    (arg1 : Memref sig .tc .vmem S1x1024x1024 .bf16) (harg1 : arg1.IsWhole)
    (arg2 : Memref sig .tc .vmem S1x1024x1024 .bf16) (harg2 : arg2.IsWhole)
    (arg3 : Memref sig .tc .vmem S1x1024x1024 .f32) (harg3 : arg3.IsWhole)
    (x0 x1 : Vec F S1x1024x1024 .bf16) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The input windows' buffers at a point -/

/-- Input window 0's current staging buffer holds its block at every point, fetched there or not: the window is uncut,
    never idle, and the body leaves the block in place. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

/-- The same of input window 1. -/
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the output's anything; the invariant and the core's
    count of owed transfers pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.FrameKI.lean ====
/- The frame of @main: every weakly fair execution terminates, faults nowhere, and ends with the four argument arrays
   as launched. The run is the library's frame run around the one region — host operations, the region on the proof
   data (each input window's buffer at its block, the output window's at the product of the two), host operations —;
   the argument arrays are no array of the region and no host operation writes them, so each ends as launched. -/
import proofs.«117756_j83829171683377_1_alg».proof.Proof.FrameKI_Host
import proofs.«117756_j83829171683377_1_alg».proof.Proof.FrameKI_Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the frame run's implicit arguments are found by unifying its conclusion with this one, through plain definitions in a
-- metavariable's type
set_option backward.isDefEq.respectTransparency.types false in
/-- From any memory with zero counters, for any values: every weakly fair execution of @main terminates, and every final
    state has each array of the region at what the proof data give and every other unscoped buffer as the operations
    after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- THE FRAME, at any `F`: the argument arrays are buffers the region's windows do not stage, so the run's post gives
    each at the end what the operations after the region leave, which is what was launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m c),
      ((h c).2 main_arg1 (Pipeline.mem_restRefs_of main_arg1 (by decide) (by decide))).trans (W_main_arg1 m c),
      ((h c).2 main_arg2 (Pipeline.mem_restRefs_of main_arg2 (by decide) (by decide))).trans (W_main_arg2 m c),
      ((h c).2 main_arg3 (Pipeline.mem_restRefs_of main_arg3 (by decide) (by decide))).trans (W_main_arg3 m c)⟩) (run_main m ρ)

end Cert.KernelIdeal.Hand

end
-- ==== Proof.RefOps.lean ====
/- The reference's @main as lists of host operations, cut two ways: by stretches (a stretch ends where a called
   function's body begins or ends) and by the printed windows of sixty statements. Up to the product of the two
   matrices the reference runs the very operations the kernel's program runs before its region, on buffers of the same
   names; from there on (the product as one dot_general, then the assembly of the three block diagonals) the lists are
   read off the reference's own text. -/
import proofs.«117756_j83829171683377_1_alg».proof.ReferenceIdeal
import proofs.«117756_j83829171683377_1_alg».proof.Proof.Gen.ReferenceIdeal
import Idealize.ShloMosaic.Lib.StableHlo.Run
import Idealize.ShloMosaic.Lib.Pipeline.Regions

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

/-! ## By stretches -/

/-- 27 host operations of @main, in order. -/
abbrev hostOps0 : List (HloOp τ sig (Elt F)) :=
  [ StableHlo.reshape main_arg0 main_v0 rfl shapeCasts_S2x1x1024x8_S2x1024x8,
    StableHlo.unary main_v0 main_v1 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg1 main_v2 ((extractStridedSlice S2x1x1024x8 ![0, 0, 0, 0] · slices_S2x2x1024x8_S2x1x1024x8_0_0_0_0) : (⟨S2x2x1024x8, .f32⟩ : BufTy).Contents (Elt F) → (⟨S2x1x1024x8, .f32⟩ : BufTy).Contents (Elt F)),
    StableHlo.reshape main_v2 main_v3 rfl shapeCasts_S2x1x1024x8_S2x1024x8,
    StableHlo.unary main_v3 main_v4 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg1 main_v5 ((extractStridedSlice S2x1x1024x8 ![0, 1, 0, 0] · slices_S2x2x1024x8_S2x1x1024x8_0_1_0_0) : (⟨S2x2x1024x8, .f32⟩ : BufTy).Contents (Elt F) → (⟨S2x1x1024x8, .f32⟩ : BufTy).Contents (Elt F)),
    StableHlo.reshape main_v5 main_v6 rfl shapeCasts_S2x1x1024x8_S2x1024x8,
    StableHlo.unary main_v6 main_v7 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg2 main_v8 ((extractStridedSlice S2x1x1x1024x8 ![0, 0, 0, 0, 0] · slices_S2x2x2x1024x8_S2x1x1x1024x8_0_0_0_0_0) : (⟨S2x2x2x1024x8, .f32⟩ : BufTy).Contents (Elt F) → (⟨S2x1x1x1024x8, .f32⟩ : BufTy).Contents (Elt F)),
    StableHlo.reshape main_v8 main_v9 rfl shapeCasts_S2x1x1x1024x8_S2x1024x8,
    StableHlo.unary main_v9 main_v10 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg2 main_v11 ((extractStridedSlice S2x1x1x1024x8 ![0, 0, 1, 0, 0] · slices_S2x2x2x1024x8_S2x1x1x1024x8_0_0_1_0_0) : (⟨S2x2x2x1024x8, .f32⟩ : BufTy).Contents (Elt F) → (⟨S2x1x1x1024x8, .f32⟩ : BufTy).Contents (Elt F)),
    StableHlo.reshape main_v11 main_v12 rfl shapeCasts_S2x1x1x1024x8_S2x1024x8,
    StableHlo.unary main_v12 main_v13 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg2 main_v14 ((extractStridedSlice S2x1x1x1024x8 ![0, 1, 1, 0, 0] · slices_S2x2x2x1024x8_S2x1x1x1024x8_0_1_1_0_0) : (⟨S2x2x2x1024x8, .f32⟩ : BufTy).Contents (Elt F) → (⟨S2x1x1x1024x8, .f32⟩ : BufTy).Contents (Elt F)),
    StableHlo.reshape main_v14 main_v15 rfl shapeCasts_S2x1x1x1024x8_S2x1024x8,
    StableHlo.unary main_v15 main_v16 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.reshape main_arg3 main_v17 rfl shapeCasts_S2x1x1024x8_S2x1024x8,
    StableHlo.unary main_v17 main_v18 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.reshape main_v1 main_v19 rfl shapeCasts_S2x8x1024_S16x1024,
    StableHlo.reshape main_v4 main_v20 rfl shapeCasts_S2x8x1024_S16x1024,
    StableHlo.reshape main_v7 main_v21 rfl shapeCasts_S2x8x1024_S16x1024,
    StableHlo.reshape main_v10 main_v22 rfl shapeCasts_S2x8x1024_S16x1024,
    StableHlo.reshape main_v13 main_v23 rfl shapeCasts_S2x8x1024_S16x1024,
    StableHlo.reshape main_v16 main_v24 rfl shapeCasts_S2x8x1024_S16x1024,
    StableHlo.nullary main_v25 (iotaInDim S1024 32 0),
    StableHlo.nullary main_c (constantI S_ 32 32#32) ]
theorem hostOps0_sub : (hostOps0 : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.nullary_bufs_sub ..⟩
/-- 37 host operations of @divmod (main_call0), in order. -/
abbrev hostOps0_1 : List (HloOp τ sig (Elt F)) :=
  ( StableHlo.TRef.unary (.of main_c : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_call0_v0 : StableHlo.TRef sig ⟨S1024, .i32⟩) (broadcastInDim S1024 ![] bcast_S_S1024)
  :: StableHlo.TRef.binary (.of main_v25 : StableHlo.TRef sig ⟨S1024, .i32⟩) (.of main_call0_call0_v0 : StableHlo.TRef sig ⟨S1024, .i32⟩) (.of main_call0_call0_v1 : StableHlo.TRef sig ⟨S1024, .i32⟩) Host.divsi
  :: StableHlo.TRef.unary (.of main_v25 : StableHlo.TRef sig ⟨S1024, .i32⟩) (.of main_call0_call0_v2 : StableHlo.TRef sig ⟨S1024, .i32⟩) signi
  :: StableHlo.TRef.unary (.of main_call0_v0 : StableHlo.TRef sig ⟨S_, .i32⟩) (.of main_call0_call0_v3 : StableHlo.TRef sig ⟨S_, .i32⟩) signi
  :: StableHlo.TRef.unary (.of main_call0_call0_v3 : StableHlo.TRef sig ⟨S_, .i32⟩) (.of main_call0_call0_v4 : StableHlo.TRef sig ⟨S1024, .i32⟩) (broadcastInDim S1024 ![] bcast_S_S1024)
  :: StableHlo.TRef.binary (.of main_call0_call0_v2 : StableHlo.TRef sig ⟨S1024, .i32⟩) (.of main_call0_call0_v4 : StableHlo.TRef sig ⟨S1024, .i32⟩) (.of main_call0_call0_v5 : StableHlo.TRef sig ⟨S1024, .i1⟩) (cmpi .ne)
  :: StableHlo.TRef.unary (.of main_call0_v0 : StableHlo.TRef sig ⟨S_, .i32⟩) (.of main_call0_call0_v6 : StableHlo.TRef sig ⟨S1024, .i32⟩) (broadcastInDim S1024 ![] bcast_S_S1024)
  :: StableHlo.TRef.binary (.of main_v25 : StableHlo.TRef sig ⟨S1024, .i32⟩) (.of main_call0_call0_v6 : StableHlo.TRef sig ⟨S1024, .i32⟩) (.of main_call0_call0_v7 : StableHlo.TRef sig ⟨S1024, .i32⟩) Host.remsi
  :: StableHlo.TRef.nullary (.of main_call0_call0_c : StableHlo.TRef sig ⟨S_, .i32⟩) (constantI S_ 32 0#32)
  :: StableHlo.TRef.unary (.of main_call0_call0_c : StableHlo.TRef sig ⟨S_, .i32⟩) (.of main_call0_call0_v8 : StableHlo.TRef sig ⟨S1024, .i32⟩) (broadcastInDim S1024 ![] bcast_S_S1024)
  :: StableHlo.TRef.binary (.of main_call0_call0_v7 : StableHlo.TRef sig ⟨S1024, .i32⟩) (.of main_call0_call0_v8 : StableHlo.TRef sig ⟨S1024, .i32⟩) (.of main_call0_call0_v9 : StableHlo.TRef sig ⟨S1024, .i1⟩) (cmpi .ne)
  :: StableHlo.TRef.binary (.of main_call0_call0_v5 : StableHlo.TRef sig ⟨S1024, .i1⟩) (.of main_call0_call0_v9 : StableHlo.TRef sig ⟨S1024, .i1⟩) (.of main_call0_call0_v10 : StableHlo.TRef sig ⟨S1024, .i1⟩) andi
  :: StableHlo.TRef.nullary (.of main_call0_call0_c_0 : StableHlo.TRef sig ⟨S_, .i32⟩) (constantI S_ 32 1#32)
  :: StableHlo.TRef.unary (.of main_call0_call0_c_0 : StableHlo.TRef sig ⟨S_, .i32⟩) (.of main_call0_call0_v11 : StableHlo.TRef sig ⟨S1024, .i32⟩) (broadcastInDim S1024 ![] bcast_S_S1024)
  :: StableHlo.TRef.binary (.of main_call0_call0_v1 : StableHlo.TRef sig ⟨S1024, .i32⟩) (.of main_call0_call0_v11 : StableHlo.TRef sig ⟨S1024, .i32⟩) (.of main_call0_call0_v12 : StableHlo.TRef sig ⟨S1024, .i32⟩) subi
  :: StableHlo.TRef.ternary (.of main_call0_call0_v10 : StableHlo.TRef sig ⟨S1024, .i1⟩) (.of main_call0_call0_v12 : StableHlo.TRef sig ⟨S1024, .i32⟩) (.of main_call0_call0_v1 : StableHlo.TRef sig ⟨S1024, .i32⟩) (.of main_v26_0 : StableHlo.TRef sig ⟨S1024, .i32⟩) select
  :: StableHlo.TRef.nullary (.of main_call0_call1_c : StableHlo.TRef sig ⟨S_, .i32⟩) (constantI S_ 32 0#32)
  :: StableHlo.TRef.binary (.of main_call0_v0 : StableHlo.TRef sig ⟨S_, .i32⟩) (.of main_call0_call1_c : StableHlo.TRef sig ⟨S_, .i32⟩) (.of main_call0_call1_v0 : StableHlo.TRef sig ⟨S_, .i1⟩) (cmpi .eq)
  :: StableHlo.TRef.nullary (.of main_call0_call1_c_0 : StableHlo.TRef sig ⟨S_, .i32⟩) (constantI S_ 32 1#32)
  :: StableHlo.TRef.ternary (.of main_call0_call1_v0 : StableHlo.TRef sig ⟨S_, .i1⟩) (.of main_call0_call1_c_0 : StableHlo.TRef sig ⟨S_, .i32⟩) (.of main_call0_v0 : StableHlo.TRef sig ⟨S_, .i32⟩) (.of main_call0_call1_v1 : StableHlo.TRef sig ⟨S_, .i32⟩) select
  :: StableHlo.TRef.unary main_call0_call1_call0.v0 (.of main_call0_call1_v2 : StableHlo.TRef sig ⟨S1024, .i32⟩) (broadcastInDim S1024 ![] bcast_S_S1024)
  :: StableHlo.TRef.binary (.of main_v25 : StableHlo.TRef sig ⟨S1024, .i32⟩) (.of main_call0_call1_v2 : StableHlo.TRef sig ⟨S1024, .i32⟩) (.of main_call0_call1_v3 : StableHlo.TRef sig ⟨S1024, .i32⟩) Host.remsi
  :: StableHlo.TRef.nullary (.of main_call0_call1_c_1 : StableHlo.TRef sig ⟨S_, .i32⟩) (constantI S_ 32 0#32)
  :: StableHlo.TRef.unary (.of main_call0_call1_c_1 : StableHlo.TRef sig ⟨S_, .i32⟩) (.of main_call0_call1_v4 : StableHlo.TRef sig ⟨S1024, .i32⟩) (broadcastInDim S1024 ![] bcast_S_S1024)
  :: StableHlo.TRef.binary (.of main_call0_call1_v3 : StableHlo.TRef sig ⟨S1024, .i32⟩) (.of main_call0_call1_v4 : StableHlo.TRef sig ⟨S1024, .i32⟩) (.of main_call0_call1_v5 : StableHlo.TRef sig ⟨S1024, .i1⟩) (cmpi .ne)
  :: StableHlo.TRef.nullary (.of main_call0_call1_c_2 : StableHlo.TRef sig ⟨S_, .i32⟩) (constantI S_ 32 0#32)
  :: StableHlo.TRef.unary (.of main_call0_call1_c_2 : StableHlo.TRef sig ⟨S_, .i32⟩) (.of main_call0_call1_v6 : StableHlo.TRef sig ⟨S1024, .i32⟩) (broadcastInDim S1024 ![] bcast_S_S1024)
  :: StableHlo.TRef.binary (.of main_call0_call1_v3 : StableHlo.TRef sig ⟨S1024, .i32⟩) (.of main_call0_call1_v6 : StableHlo.TRef sig ⟨S1024, .i32⟩) (.of main_call0_call1_v7 : StableHlo.TRef sig ⟨S1024, .i1⟩) (cmpi .slt)
  :: StableHlo.TRef.nullary (.of main_call0_call1_c_3 : StableHlo.TRef sig ⟨S_, .i32⟩) (constantI S_ 32 0#32)
  :: StableHlo.TRef.binary main_call0_call1_call0.v0 (.of main_call0_call1_c_3 : StableHlo.TRef sig ⟨S_, .i32⟩) (.of main_call0_call1_v8 : StableHlo.TRef sig ⟨S_, .i1⟩) (cmpi .slt)
  :: StableHlo.TRef.unary (.of main_call0_call1_v8 : StableHlo.TRef sig ⟨S_, .i1⟩) (.of main_call0_call1_v9 : StableHlo.TRef sig ⟨S1024, .i1⟩) (broadcastInDim S1024 ![] bcast_S_S1024)
  :: StableHlo.TRef.binary (.of main_call0_call1_v7 : StableHlo.TRef sig ⟨S1024, .i1⟩) (.of main_call0_call1_v9 : StableHlo.TRef sig ⟨S1024, .i1⟩) (.of main_call0_call1_v10 : StableHlo.TRef sig ⟨S1024, .i1⟩) (cmpi .ne)
  :: StableHlo.TRef.binary (.of main_call0_call1_v10 : StableHlo.TRef sig ⟨S1024, .i1⟩) (.of main_call0_call1_v5 : StableHlo.TRef sig ⟨S1024, .i1⟩) (.of main_call0_call1_v11 : StableHlo.TRef sig ⟨S1024, .i1⟩) andi
  :: StableHlo.TRef.unary main_call0_call1_call0.v0 (.of main_call0_call1_v12 : StableHlo.TRef sig ⟨S1024, .i32⟩) (broadcastInDim S1024 ![] bcast_S_S1024)
  :: StableHlo.TRef.binary (.of main_call0_call1_v3 : StableHlo.TRef sig ⟨S1024, .i32⟩) (.of main_call0_call1_v12 : StableHlo.TRef sig ⟨S1024, .i32⟩) (.of main_call0_call1_v13 : StableHlo.TRef sig ⟨S1024, .i32⟩) addi
  :: StableHlo.TRef.ternary (.of main_call0_call1_v11 : StableHlo.TRef sig ⟨S1024, .i1⟩) (.of main_call0_call1_v13 : StableHlo.TRef sig ⟨S1024, .i32⟩) (.of main_call0_call1_v3 : StableHlo.TRef sig ⟨S1024, .i32⟩) (.of main_v26_1 : StableHlo.TRef sig ⟨S1024, .i32⟩) select
  :: [] )
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 68 host operations of @main, in order. -/
abbrev hostOps0_2 : List (HloOp τ sig (Elt F)) :=
  ( StableHlo.nullary main_v27 (iotaInDim S1024 32 0)
  :: StableHlo.nullary main_cst (constant S_ .f32 0x00000000#32)
  :: StableHlo.unary main_cst main_v28 (broadcastInDim S1024x1024 ![] bcast_S_S1024x1024 : (⟨S_, .f32⟩ : BufTy).Contents (Elt F) → (⟨S1024x1024, .f32⟩ : BufTy).Contents (Elt F))
  :: StableHlo.binary main_v19 main_v19 main_v29 (mulf : (⟨S16x1024, .f32⟩ : BufTy).Contents (Elt F) → (⟨S16x1024, .f32⟩ : BufTy).Contents (Elt F) → (⟨S16x1024, .f32⟩ : BufTy).Contents (Elt F))
  :: StableHlo.nullary main_cst_0 (constant S_ .f32 0x40000000#32)
  :: StableHlo.unary main_cst_0 main_v30 (broadcastInDim S16x1024 ![] bcast_S_S16x1024 : (⟨S_, .f32⟩ : BufTy).Contents (Elt F) → (⟨S16x1024, .f32⟩ : BufTy).Contents (Elt F))
  :: StableHlo.binary main_v30 main_v22 main_v31 (mulf : (⟨S16x1024, .f32⟩ : BufTy).Contents (Elt F) → (⟨S16x1024, .f32⟩ : BufTy).Contents (Elt F) → (⟨S16x1024, .f32⟩ : BufTy).Contents (Elt F))
  :: StableHlo.nullary main_cst_1 (constant S_ .f32 0x3F800000#32)
  :: StableHlo.unary main_cst_1 main_v32 (broadcastInDim S16x1024 ![] bcast_S_S16x1024 : (⟨S_, .f32⟩ : BufTy).Contents (Elt F) → (⟨S16x1024, .f32⟩ : BufTy).Contents (Elt F))
  :: StableHlo.binary main_v31 main_v32 main_v33 (Host.divf : (⟨S16x1024, .f32⟩ : BufTy).Contents (Elt F) → (⟨S16x1024, .f32⟩ : BufTy).Contents (Elt F) → (⟨S16x1024, .f32⟩ : BufTy).Contents (Elt F))
  :: StableHlo.binary main_v29 main_v33 main_v34 (addf : (⟨S16x1024, .f32⟩ : BufTy).Contents (Elt F) → (⟨S16x1024, .f32⟩ : BufTy).Contents (Elt F) → (⟨S16x1024, .f32⟩ : BufTy).Contents (Elt F))
  :: StableHlo.nullary main_cst_2 (constant S_ .f32 0x40000000#32)
  :: StableHlo.unary main_cst_2 main_v35 (broadcastInDim S16x1024 ![] bcast_S_S16x1024 : (⟨S_, .f32⟩ : BufTy).Contents (Elt F) → (⟨S16x1024, .f32⟩ : BufTy).Contents (Elt F))
  :: StableHlo.binary main_v35 main_v24 main_v36 (mulf : (⟨S16x1024, .f32⟩ : BufTy).Contents (Elt F) → (⟨S16x1024, .f32⟩ : BufTy).Contents (Elt F) → (⟨S16x1024, .f32⟩ : BufTy).Contents (Elt F))
  :: StableHlo.nullary main_cst_3 (constant S_ .f32 0x3F800000#32)
  :: StableHlo.unary main_cst_3 main_v37 (broadcastInDim S16x1024 ![] bcast_S_S16x1024 : (⟨S_, .f32⟩ : BufTy).Contents (Elt F) → (⟨S16x1024, .f32⟩ : BufTy).Contents (Elt F))
  :: StableHlo.binary main_v36 main_v37 main_v38 (Host.divf : (⟨S16x1024, .f32⟩ : BufTy).Contents (Elt F) → (⟨S16x1024, .f32⟩ : BufTy).Contents (Elt F) → (⟨S16x1024, .f32⟩ : BufTy).Contents (Elt F))
  :: StableHlo.binary main_v34 main_v38 main_v39 (addf : (⟨S16x1024, .f32⟩ : BufTy).Contents (Elt F) → (⟨S16x1024, .f32⟩ : BufTy).Contents (Elt F) → (⟨S16x1024, .f32⟩ : BufTy).Contents (Elt F))
  :: StableHlo.nullary main_c_4 (constantI S_ 32 0#32)
  :: StableHlo.unary main_c_4 main_v40 (broadcastInDim S1024 ![] bcast_S_S1024 : (⟨S_, .i32⟩ : BufTy).Contents (Elt F) → (⟨S1024, .i32⟩ : BufTy).Contents (Elt F))
  :: StableHlo.binary main_v27 main_v40 main_v41 (cmpi .slt : (⟨S1024, .i32⟩ : BufTy).Contents (Elt F) → (⟨S1024, .i32⟩ : BufTy).Contents (Elt F) → (⟨S1024, .i1⟩ : BufTy).Contents (Elt F))
  :: StableHlo.nullary main_c_5 (constantI S_ 32 1024#32)
  :: StableHlo.unary main_c_5 main_v42 (broadcastInDim S1024 ![] bcast_S_S1024 : (⟨S_, .i32⟩ : BufTy).Contents (Elt F) → (⟨S1024, .i32⟩ : BufTy).Contents (Elt F))
  :: StableHlo.binary main_v27 main_v42 main_v43 (addi : (⟨S1024, .i32⟩ : BufTy).Contents (Elt F) → (⟨S1024, .i32⟩ : BufTy).Contents (Elt F) → (⟨S1024, .i32⟩ : BufTy).Contents (Elt F))
  :: StableHlo.ternary main_v41 main_v43 main_v27 main_v44 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_6 (constantI S_ 32 0#32)
  :: StableHlo.unary main_c_6 main_v45 (broadcastInDim S1024 ![] bcast_S_S1024 : (⟨S_, .i32⟩ : BufTy).Contents (Elt F) → (⟨S1024, .i32⟩ : BufTy).Contents (Elt F))
  :: StableHlo.binary main_v27 main_v45 main_v46 (cmpi .slt : (⟨S1024, .i32⟩ : BufTy).Contents (Elt F) → (⟨S1024, .i32⟩ : BufTy).Contents (Elt F) → (⟨S1024, .i1⟩ : BufTy).Contents (Elt F))
  :: StableHlo.nullary main_c_7 (constantI S_ 32 1024#32)
  :: StableHlo.unary main_c_7 main_v47 (broadcastInDim S1024 ![] bcast_S_S1024 : (⟨S_, .i32⟩ : BufTy).Contents (Elt F) → (⟨S1024, .i32⟩ : BufTy).Contents (Elt F))
  :: StableHlo.binary main_v27 main_v47 main_v48 (addi : (⟨S1024, .i32⟩ : BufTy).Contents (Elt F) → (⟨S1024, .i32⟩ : BufTy).Contents (Elt F) → (⟨S1024, .i32⟩ : BufTy).Contents (Elt F))
  :: StableHlo.ternary main_v46 main_v48 main_v27 main_v49 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v44 main_v50 (broadcastInDim S1024x1 ![0] bcast_S1024_S1024x1_0 : (⟨S1024, .i32⟩ : BufTy).Contents (Elt F) → (⟨S1024x1, .i32⟩ : BufTy).Contents (Elt F))
  :: StableHlo.unary main_v49 main_v51 (broadcastInDim S1024x1 ![0] bcast_S1024_S1024x1_0 : (⟨S1024, .i32⟩ : BufTy).Contents (Elt F) → (⟨S1024x1, .i32⟩ : BufTy).Contents (Elt F))
  :: StableHlo.binary main_v50 main_v51 main_v52 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.unary main_v28 main_v53 (broadcastInDim S16x1024x1024 ![1, 2] bcast_S1024x1024_S16x1024x1024_1_2 : (⟨S1024x1024, .f32⟩ : BufTy).Contents (Elt F) → (⟨S16x1024x1024, .f32⟩ : BufTy).Contents (Elt F))
  :: StableHlo.ternary main_v53 main_v52 main_v39 main_v54 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v22 main_v55 (Host.negf : (⟨S16x1024, .f32⟩ : BufTy).Contents (Elt F) → (⟨S16x1024, .f32⟩ : BufTy).Contents (Elt F))
  :: StableHlo.nullary main_cst_8 (constant S_ .f32 0x3F800000#32)
  :: StableHlo.unary main_cst_8 main_v56 (broadcastInDim S16x1024 ![] bcast_S_S16x1024 : (⟨S_, .f32⟩ : BufTy).Contents (Elt F) → (⟨S16x1024, .f32⟩ : BufTy).Contents (Elt F))
  :: StableHlo.binary main_v55 main_v56 main_v57 (Host.divf : (⟨S16x1024, .f32⟩ : BufTy).Contents (Elt F) → (⟨S16x1024, .f32⟩ : BufTy).Contents (Elt F) → (⟨S16x1024, .f32⟩ : BufTy).Contents (Elt F))
  :: StableHlo.nullary main_cst_9 (constant S_ .f32 0x40000000#32)
  :: StableHlo.unary main_cst_9 main_v58 (broadcastInDim S16x1024 ![] bcast_S_S16x1024 : (⟨S_, .f32⟩ : BufTy).Contents (Elt F) → (⟨S16x1024, .f32⟩ : BufTy).Contents (Elt F))
  :: StableHlo.binary main_v20 main_v58 main_v59 (Host.divf : (⟨S16x1024, .f32⟩ : BufTy).Contents (Elt F) → (⟨S16x1024, .f32⟩ : BufTy).Contents (Elt F) → (⟨S16x1024, .f32⟩ : BufTy).Contents (Elt F))
  :: StableHlo.binary main_v57 main_v59 main_v60 (addf : (⟨S16x1024, .f32⟩ : BufTy).Contents (Elt F) → (⟨S16x1024, .f32⟩ : BufTy).Contents (Elt F) → (⟨S16x1024, .f32⟩ : BufTy).Contents (Elt F))
  :: StableHlo.nullary main_c_10 (constantI S_ 32 0#32)
  :: StableHlo.unary main_c_10 main_v61 (broadcastInDim S1024 ![] bcast_S_S1024 : (⟨S_, .i32⟩ : BufTy).Contents (Elt F) → (⟨S1024, .i32⟩ : BufTy).Contents (Elt F))
  :: StableHlo.binary main_v26_0 main_v61 main_v62 (addi : (⟨S1024, .i32⟩ : BufTy).Contents (Elt F) → (⟨S1024, .i32⟩ : BufTy).Contents (Elt F) → (⟨S1024, .i32⟩ : BufTy).Contents (Elt F))
  :: StableHlo.nullary main_c_11 (constantI S_ 32 1#32)
  :: StableHlo.unary main_c_11 main_v63 (broadcastInDim S1024 ![] bcast_S_S1024 : (⟨S_, .i32⟩ : BufTy).Contents (Elt F) → (⟨S1024, .i32⟩ : BufTy).Contents (Elt F))
  :: StableHlo.binary main_v26_1 main_v63 main_v64 (addi : (⟨S1024, .i32⟩ : BufTy).Contents (Elt F) → (⟨S1024, .i32⟩ : BufTy).Contents (Elt F) → (⟨S1024, .i32⟩ : BufTy).Contents (Elt F))
  :: StableHlo.nullary main_c_12 (constantI S_ 32 0#32)
  :: StableHlo.unary main_c_12 main_v65 (broadcastInDim S1024 ![] bcast_S_S1024 : (⟨S_, .i32⟩ : BufTy).Contents (Elt F) → (⟨S1024, .i32⟩ : BufTy).Contents (Elt F))
  :: StableHlo.binary main_v62 main_v65 main_v66 (cmpi .sge : (⟨S1024, .i32⟩ : BufTy).Contents (Elt F) → (⟨S1024, .i32⟩ : BufTy).Contents (Elt F) → (⟨S1024, .i1⟩ : BufTy).Contents (Elt F))
  :: StableHlo.nullary main_c_13 (constantI S_ 32 32#32)
  :: StableHlo.unary main_c_13 main_v67 (broadcastInDim S1024 ![] bcast_S_S1024 : (⟨S_, .i32⟩ : BufTy).Contents (Elt F) → (⟨S1024, .i32⟩ : BufTy).Contents (Elt F))
  :: StableHlo.binary main_v62 main_v67 main_v68 (cmpi .slt : (⟨S1024, .i32⟩ : BufTy).Contents (Elt F) → (⟨S1024, .i32⟩ : BufTy).Contents (Elt F) → (⟨S1024, .i1⟩ : BufTy).Contents (Elt F))
  :: StableHlo.binary main_v66 main_v68 main_v69 (andi : (⟨S1024, .i1⟩ : BufTy).Contents (Elt F) → (⟨S1024, .i1⟩ : BufTy).Contents (Elt F) → (⟨S1024, .i1⟩ : BufTy).Contents (Elt F))
  :: StableHlo.nullary main_c_14 (constantI S_ 32 0#32)
  :: StableHlo.unary main_c_14 main_v70 (broadcastInDim S1024 ![] bcast_S_S1024 : (⟨S_, .i32⟩ : BufTy).Contents (Elt F) → (⟨S1024, .i32⟩ : BufTy).Contents (Elt F))
  :: StableHlo.binary main_v64 main_v70 main_v71 (cmpi .sge : (⟨S1024, .i32⟩ : BufTy).Contents (Elt F) → (⟨S1024, .i32⟩ : BufTy).Contents (Elt F) → (⟨S1024, .i1⟩ : BufTy).Contents (Elt F))
  :: StableHlo.binary main_v69 main_v71 main_v72 (andi : (⟨S1024, .i1⟩ : BufTy).Contents (Elt F) → (⟨S1024, .i1⟩ : BufTy).Contents (Elt F) → (⟨S1024, .i1⟩ : BufTy).Contents (Elt F))
  :: StableHlo.nullary main_c_15 (constantI S_ 32 32#32)
  :: StableHlo.unary main_c_15 main_v73 (broadcastInDim S1024 ![] bcast_S_S1024 : (⟨S_, .i32⟩ : BufTy).Contents (Elt F) → (⟨S1024, .i32⟩ : BufTy).Contents (Elt F))
  :: StableHlo.binary main_v64 main_v73 main_v74 (cmpi .slt : (⟨S1024, .i32⟩ : BufTy).Contents (Elt F) → (⟨S1024, .i32⟩ : BufTy).Contents (Elt F) → (⟨S1024, .i1⟩ : BufTy).Contents (Elt F))
  :: StableHlo.binary main_v72 main_v74 main_v75 (andi : (⟨S1024, .i1⟩ : BufTy).Contents (Elt F) → (⟨S1024, .i1⟩ : BufTy).Contents (Elt F) → (⟨S1024, .i1⟩ : BufTy).Contents (Elt F))
  :: StableHlo.nullary main_c_16 (constantI S_ 32 0#32)
  :: StableHlo.nullary main_c_17 (constantI S_ 32 31#32)
  :: [] )
set_option maxHeartbeats 40000000 in  -- a long stretch: its list (or the term over it) exceeds the default budget
theorem hostOps0_2_sub : (hostOps0_2 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call1), in order. -/
abbrev hostOps0_3 : List (HloOp τ sig (Elt F)) :=
  [ StableHlo.TRef.unary (.of main_c_16 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S1024, .i32⟩) (broadcastInDim S1024 ![] bcast_S_S1024),
    StableHlo.TRef.binary (.of main_call1_v1 : StableHlo.TRef sig ⟨S1024, .i32⟩) (.of main_v62 : StableHlo.TRef sig ⟨S1024, .i32⟩) (.of main_call1_v2 : StableHlo.TRef sig ⟨S1024, .i32⟩) maxsi,
    StableHlo.TRef.unary (.of main_c_17 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S1024, .i32⟩) (broadcastInDim S1024 ![] bcast_S_S1024),
    StableHlo.TRef.binary (.of main_call1_v4 : StableHlo.TRef sig ⟨S1024, .i32⟩) (.of main_call1_v2 : StableHlo.TRef sig ⟨S1024, .i32⟩) (.of main_v76 : StableHlo.TRef sig ⟨S1024, .i32⟩) minsi ]
theorem hostOps0_3_sub : (hostOps0_3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_4 : List (HloOp τ sig (Elt F)) :=
  [ StableHlo.nullary main_c_18 (constantI S_ 32 32#32),
    StableHlo.unary main_c_18 main_v77 (broadcastInDim S1024 ![] bcast_S_S1024 : (⟨S_, .i32⟩ : BufTy).Contents (Elt F) → (⟨S1024, .i32⟩ : BufTy).Contents (Elt F)),
    StableHlo.binary main_v76 main_v77 main_v78 (muli : (⟨S1024, .i32⟩ : BufTy).Contents (Elt F) → (⟨S1024, .i32⟩ : BufTy).Contents (Elt F) → (⟨S1024, .i32⟩ : BufTy).Contents (Elt F)),
    StableHlo.nullary main_c_19 (constantI S_ 32 0#32),
    StableHlo.nullary main_c_20 (constantI S_ 32 31#32) ]
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call2), in order. -/
abbrev hostOps0_5 : List (HloOp τ sig (Elt F)) :=
  [ StableHlo.TRef.unary (.of main_c_19 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S1024, .i32⟩) (broadcastInDim S1024 ![] bcast_S_S1024),
    StableHlo.TRef.binary (.of main_call2_v1 : StableHlo.TRef sig ⟨S1024, .i32⟩) (.of main_v64 : StableHlo.TRef sig ⟨S1024, .i32⟩) (.of main_call2_v2 : StableHlo.TRef sig ⟨S1024, .i32⟩) maxsi,
    StableHlo.TRef.unary (.of main_c_20 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S1024, .i32⟩) (broadcastInDim S1024 ![] bcast_S_S1024),
    StableHlo.TRef.binary (.of main_call2_v4 : StableHlo.TRef sig ⟨S1024, .i32⟩) (.of main_call2_v2 : StableHlo.TRef sig ⟨S1024, .i32⟩) (.of main_v79 : StableHlo.TRef sig ⟨S1024, .i32⟩) minsi ]
theorem hostOps0_5_sub : (hostOps0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_6 : List (HloOp τ sig (Elt F)) :=
  [ StableHlo.binary main_v78 main_v79 main_v80 (addi : (⟨S1024, .i32⟩ : BufTy).Contents (Elt F) → (⟨S1024, .i32⟩ : BufTy).Contents (Elt F) → (⟨S1024, .i32⟩ : BufTy).Contents (Elt F)),
    StableHlo.nullary main_cst_21 (constant S_ .f32 0x00000000#32) ]
theorem hostOps0_6_sub : (hostOps0_6 : List (HloOp τ sig (Elt F))).Forall fun op => op.bufs ⊆ StableHlo.tcRefs τ sig :=
  ⟨StableHlo.binary_bufs_sub .., StableHlo.nullary_bufs_sub ..⟩
/-- 5 host operations of @_where_1 (main_call3), in order. -/
abbrev hostOps0_7 : List (HloOp τ sig (Elt F)) :=
  [ StableHlo.TRef.unary (.of main_cst_21 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S1024, .f32⟩) (broadcastInDim S1024 ![] bcast_S_S1024),
    StableHlo.TRef.unary (.of main_v75 : StableHlo.TRef sig ⟨S1024, .i1⟩) (.of main_call3_v2 : StableHlo.TRef sig ⟨S16x1024, .i1⟩) (broadcastInDim S16x1024 ![1] bcast_S1024_S16x1024_1),
    StableHlo.TRef.unary (.of main_call3_v1 : StableHlo.TRef sig ⟨S1024, .f32⟩) (.of main_call3_v3 : StableHlo.TRef sig ⟨S16x1024, .f32⟩) (broadcastInDim S16x1024 ![1] bcast_S1024_S16x1024_1),
    StableHlo.TRef.ternary (.of main_call3_v2 : StableHlo.TRef sig ⟨S16x1024, .i1⟩) (.of main_v60 : StableHlo.TRef sig ⟨S16x1024, .f32⟩) (.of main_call3_v3 : StableHlo.TRef sig ⟨S16x1024, .f32⟩) (.of main_v81 : StableHlo.TRef sig ⟨S16x1024, .f32⟩) select ]
theorem hostOps0_7_sub : (hostOps0_7 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 49 host operations of @main, in order. -/
abbrev hostOps0_8 : List (HloOp τ sig (Elt F)) :=
  ( StableHlo.nullary main_c_22 (constantI S_ 32 0#32)
  :: StableHlo.unary main_c_22 main_v82 (broadcastInDim S1024 ![] bcast_S_S1024 : (⟨S_, .i32⟩ : BufTy).Contents (Elt F) → (⟨S1024, .i32⟩ : BufTy).Contents (Elt F))
  :: StableHlo.binary main_v27 main_v82 main_v83 (cmpi .slt : (⟨S1024, .i32⟩ : BufTy).Contents (Elt F) → (⟨S1024, .i32⟩ : BufTy).Contents (Elt F) → (⟨S1024, .i1⟩ : BufTy).Contents (Elt F))
  :: StableHlo.nullary main_c_23 (constantI S_ 32 1024#32)
  :: StableHlo.unary main_c_23 main_v84 (broadcastInDim S1024 ![] bcast_S_S1024 : (⟨S_, .i32⟩ : BufTy).Contents (Elt F) → (⟨S1024, .i32⟩ : BufTy).Contents (Elt F))
  :: StableHlo.binary main_v27 main_v84 main_v85 (addi : (⟨S1024, .i32⟩ : BufTy).Contents (Elt F) → (⟨S1024, .i32⟩ : BufTy).Contents (Elt F) → (⟨S1024, .i32⟩ : BufTy).Contents (Elt F))
  :: StableHlo.ternary main_v83 main_v85 main_v27 main_v86 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_24 (constantI S_ 32 0#32)
  :: StableHlo.unary main_c_24 main_v87 (broadcastInDim S1024 ![] bcast_S_S1024 : (⟨S_, .i32⟩ : BufTy).Contents (Elt F) → (⟨S1024, .i32⟩ : BufTy).Contents (Elt F))
  :: StableHlo.binary main_v80 main_v87 main_v88 (cmpi .slt : (⟨S1024, .i32⟩ : BufTy).Contents (Elt F) → (⟨S1024, .i32⟩ : BufTy).Contents (Elt F) → (⟨S1024, .i1⟩ : BufTy).Contents (Elt F))
  :: StableHlo.nullary main_c_25 (constantI S_ 32 1024#32)
  :: StableHlo.unary main_c_25 main_v89 (broadcastInDim S1024 ![] bcast_S_S1024 : (⟨S_, .i32⟩ : BufTy).Contents (Elt F) → (⟨S1024, .i32⟩ : BufTy).Contents (Elt F))
  :: StableHlo.binary main_v80 main_v89 main_v90 (addi : (⟨S1024, .i32⟩ : BufTy).Contents (Elt F) → (⟨S1024, .i32⟩ : BufTy).Contents (Elt F) → (⟨S1024, .i32⟩ : BufTy).Contents (Elt F))
  :: StableHlo.ternary main_v88 main_v90 main_v80 main_v91 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v86 main_v92 (broadcastInDim S1024x1 ![0] bcast_S1024_S1024x1_0 : (⟨S1024, .i32⟩ : BufTy).Contents (Elt F) → (⟨S1024x1, .i32⟩ : BufTy).Contents (Elt F))
  :: StableHlo.unary main_v91 main_v93 (broadcastInDim S1024x1 ![0] bcast_S1024_S1024x1_0 : (⟨S1024, .i32⟩ : BufTy).Contents (Elt F) → (⟨S1024x1, .i32⟩ : BufTy).Contents (Elt F))
  :: StableHlo.binary main_v92 main_v93 main_v94 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v54 main_v94 main_v81 main_v95 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v22 main_v96 (Host.negf : (⟨S16x1024, .f32⟩ : BufTy).Contents (Elt F) → (⟨S16x1024, .f32⟩ : BufTy).Contents (Elt F))
  :: StableHlo.nullary main_cst_26 (constant S_ .f32 0x3F800000#32)
  :: StableHlo.unary main_cst_26 main_v97 (broadcastInDim S16x1024 ![] bcast_S_S16x1024 : (⟨S_, .f32⟩ : BufTy).Contents (Elt F) → (⟨S16x1024, .f32⟩ : BufTy).Contents (Elt F))
  :: StableHlo.binary main_v96 main_v97 main_v98 (Host.divf : (⟨S16x1024, .f32⟩ : BufTy).Contents (Elt F) → (⟨S16x1024, .f32⟩ : BufTy).Contents (Elt F) → (⟨S16x1024, .f32⟩ : BufTy).Contents (Elt F))
  :: StableHlo.nullary main_cst_27 (constant S_ .f32 0x40000000#32)
  :: StableHlo.unary main_cst_27 main_v99 (broadcastInDim S16x1024 ![] bcast_S_S16x1024 : (⟨S_, .f32⟩ : BufTy).Contents (Elt F) → (⟨S16x1024, .f32⟩ : BufTy).Contents (Elt F))
  :: StableHlo.binary main_v20 main_v99 main_v100 (Host.divf : (⟨S16x1024, .f32⟩ : BufTy).Contents (Elt F) → (⟨S16x1024, .f32⟩ : BufTy).Contents (Elt F) → (⟨S16x1024, .f32⟩ : BufTy).Contents (Elt F))
  :: StableHlo.binary main_v98 main_v100 main_v101 (subf : (⟨S16x1024, .f32⟩ : BufTy).Contents (Elt F) → (⟨S16x1024, .f32⟩ : BufTy).Contents (Elt F) → (⟨S16x1024, .f32⟩ : BufTy).Contents (Elt F))
  :: StableHlo.nullary main_c_28 (constantI S_ 32 0#32)
  :: StableHlo.unary main_c_28 main_v102 (broadcastInDim S1024 ![] bcast_S_S1024 : (⟨S_, .i32⟩ : BufTy).Contents (Elt F) → (⟨S1024, .i32⟩ : BufTy).Contents (Elt F))
  :: StableHlo.binary main_v26_0 main_v102 main_v103 (addi : (⟨S1024, .i32⟩ : BufTy).Contents (Elt F) → (⟨S1024, .i32⟩ : BufTy).Contents (Elt F) → (⟨S1024, .i32⟩ : BufTy).Contents (Elt F))
  :: StableHlo.nullary main_c_29 (constantI S_ 32 4294967295#32)
  :: StableHlo.unary main_c_29 main_v104 (broadcastInDim S1024 ![] bcast_S_S1024 : (⟨S_, .i32⟩ : BufTy).Contents (Elt F) → (⟨S1024, .i32⟩ : BufTy).Contents (Elt F))
  :: StableHlo.binary main_v26_1 main_v104 main_v105 (addi : (⟨S1024, .i32⟩ : BufTy).Contents (Elt F) → (⟨S1024, .i32⟩ : BufTy).Contents (Elt F) → (⟨S1024, .i32⟩ : BufTy).Contents (Elt F))
  :: StableHlo.nullary main_c_30 (constantI S_ 32 0#32)
  :: StableHlo.unary main_c_30 main_v106 (broadcastInDim S1024 ![] bcast_S_S1024 : (⟨S_, .i32⟩ : BufTy).Contents (Elt F) → (⟨S1024, .i32⟩ : BufTy).Contents (Elt F))
  :: StableHlo.binary main_v103 main_v106 main_v107 (cmpi .sge : (⟨S1024, .i32⟩ : BufTy).Contents (Elt F) → (⟨S1024, .i32⟩ : BufTy).Contents (Elt F) → (⟨S1024, .i1⟩ : BufTy).Contents (Elt F))
  :: StableHlo.nullary main_c_31 (constantI S_ 32 32#32)
  :: StableHlo.unary main_c_31 main_v108 (broadcastInDim S1024 ![] bcast_S_S1024 : (⟨S_, .i32⟩ : BufTy).Contents (Elt F) → (⟨S1024, .i32⟩ : BufTy).Contents (Elt F))
  :: StableHlo.binary main_v103 main_v108 main_v109 (cmpi .slt : (⟨S1024, .i32⟩ : BufTy).Contents (Elt F) → (⟨S1024, .i32⟩ : BufTy).Contents (Elt F) → (⟨S1024, .i1⟩ : BufTy).Contents (Elt F))
  :: StableHlo.binary main_v107 main_v109 main_v110 (andi : (⟨S1024, .i1⟩ : BufTy).Contents (Elt F) → (⟨S1024, .i1⟩ : BufTy).Contents (Elt F) → (⟨S1024, .i1⟩ : BufTy).Contents (Elt F))
  :: StableHlo.nullary main_c_32 (constantI S_ 32 0#32)
  :: StableHlo.unary main_c_32 main_v111 (broadcastInDim S1024 ![] bcast_S_S1024 : (⟨S_, .i32⟩ : BufTy).Contents (Elt F) → (⟨S1024, .i32⟩ : BufTy).Contents (Elt F))
  :: StableHlo.binary main_v105 main_v111 main_v112 (cmpi .sge : (⟨S1024, .i32⟩ : BufTy).Contents (Elt F) → (⟨S1024, .i32⟩ : BufTy).Contents (Elt F) → (⟨S1024, .i1⟩ : BufTy).Contents (Elt F))
  :: StableHlo.binary main_v110 main_v112 main_v113 (andi : (⟨S1024, .i1⟩ : BufTy).Contents (Elt F) → (⟨S1024, .i1⟩ : BufTy).Contents (Elt F) → (⟨S1024, .i1⟩ : BufTy).Contents (Elt F))
  :: StableHlo.nullary main_c_33 (constantI S_ 32 32#32)
  :: StableHlo.unary main_c_33 main_v114 (broadcastInDim S1024 ![] bcast_S_S1024 : (⟨S_, .i32⟩ : BufTy).Contents (Elt F) → (⟨S1024, .i32⟩ : BufTy).Contents (Elt F))
  :: StableHlo.binary main_v105 main_v114 main_v115 (cmpi .slt : (⟨S1024, .i32⟩ : BufTy).Contents (Elt F) → (⟨S1024, .i32⟩ : BufTy).Contents (Elt F) → (⟨S1024, .i1⟩ : BufTy).Contents (Elt F))
  :: StableHlo.binary main_v113 main_v115 main_v116 (andi : (⟨S1024, .i1⟩ : BufTy).Contents (Elt F) → (⟨S1024, .i1⟩ : BufTy).Contents (Elt F) → (⟨S1024, .i1⟩ : BufTy).Contents (Elt F))
  :: StableHlo.nullary main_c_34 (constantI S_ 32 0#32)
  :: StableHlo.nullary main_c_35 (constantI S_ 32 31#32)
  :: [] )
theorem hostOps0_8_sub : (hostOps0_8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call4), in order. -/
abbrev hostOps0_9 : List (HloOp τ sig (Elt F)) :=
  [ StableHlo.TRef.unary (.of main_c_34 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S1024, .i32⟩) (broadcastInDim S1024 ![] bcast_S_S1024),
    StableHlo.TRef.binary (.of main_call4_v1 : StableHlo.TRef sig ⟨S1024, .i32⟩) (.of main_v103 : StableHlo.TRef sig ⟨S1024, .i32⟩) (.of main_call4_v2 : StableHlo.TRef sig ⟨S1024, .i32⟩) maxsi,
    StableHlo.TRef.unary (.of main_c_35 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S1024, .i32⟩) (broadcastInDim S1024 ![] bcast_S_S1024),
    StableHlo.TRef.binary (.of main_call4_v4 : StableHlo.TRef sig ⟨S1024, .i32⟩) (.of main_call4_v2 : StableHlo.TRef sig ⟨S1024, .i32⟩) (.of main_v117 : StableHlo.TRef sig ⟨S1024, .i32⟩) minsi ]
theorem hostOps0_9_sub : (hostOps0_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_10 : List (HloOp τ sig (Elt F)) :=
  [ StableHlo.nullary main_c_36 (constantI S_ 32 32#32),
    StableHlo.unary main_c_36 main_v118 (broadcastInDim S1024 ![] bcast_S_S1024 : (⟨S_, .i32⟩ : BufTy).Contents (Elt F) → (⟨S1024, .i32⟩ : BufTy).Contents (Elt F)),
    StableHlo.binary main_v117 main_v118 main_v119 (muli : (⟨S1024, .i32⟩ : BufTy).Contents (Elt F) → (⟨S1024, .i32⟩ : BufTy).Contents (Elt F) → (⟨S1024, .i32⟩ : BufTy).Contents (Elt F)),
    StableHlo.nullary main_c_37 (constantI S_ 32 0#32),
    StableHlo.nullary main_c_38 (constantI S_ 32 31#32) ]
theorem hostOps0_10_sub : (hostOps0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call5), in order. -/
abbrev hostOps0_11 : List (HloOp τ sig (Elt F)) :=
  [ StableHlo.TRef.unary (.of main_c_37 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S1024, .i32⟩) (broadcastInDim S1024 ![] bcast_S_S1024),
    StableHlo.TRef.binary (.of main_call5_v1 : StableHlo.TRef sig ⟨S1024, .i32⟩) (.of main_v105 : StableHlo.TRef sig ⟨S1024, .i32⟩) (.of main_call5_v2 : StableHlo.TRef sig ⟨S1024, .i32⟩) maxsi,
    StableHlo.TRef.unary (.of main_c_38 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S1024, .i32⟩) (broadcastInDim S1024 ![] bcast_S_S1024),
    StableHlo.TRef.binary (.of main_call5_v4 : StableHlo.TRef sig ⟨S1024, .i32⟩) (.of main_call5_v2 : StableHlo.TRef sig ⟨S1024, .i32⟩) (.of main_v120 : StableHlo.TRef sig ⟨S1024, .i32⟩) minsi ]
theorem hostOps0_11_sub : (hostOps0_11 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_12 : List (HloOp τ sig (Elt F)) :=
  [ StableHlo.binary main_v119 main_v120 main_v121 (addi : (⟨S1024, .i32⟩ : BufTy).Contents (Elt F) → (⟨S1024, .i32⟩ : BufTy).Contents (Elt F) → (⟨S1024, .i32⟩ : BufTy).Contents (Elt F)),
    StableHlo.nullary main_cst_39 (constant S_ .f32 0x00000000#32) ]
theorem hostOps0_12_sub : (hostOps0_12 : List (HloOp τ sig (Elt F))).Forall fun op => op.bufs ⊆ StableHlo.tcRefs τ sig :=
  ⟨StableHlo.binary_bufs_sub .., StableHlo.nullary_bufs_sub ..⟩
/-- 5 host operations of @_where_1 (main_call6), in order. -/
abbrev hostOps0_13 : List (HloOp τ sig (Elt F)) :=
  [ StableHlo.TRef.unary (.of main_cst_39 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S1024, .f32⟩) (broadcastInDim S1024 ![] bcast_S_S1024),
    StableHlo.TRef.unary (.of main_v116 : StableHlo.TRef sig ⟨S1024, .i1⟩) (.of main_call6_v2 : StableHlo.TRef sig ⟨S16x1024, .i1⟩) (broadcastInDim S16x1024 ![1] bcast_S1024_S16x1024_1),
    StableHlo.TRef.unary (.of main_call6_v1 : StableHlo.TRef sig ⟨S1024, .f32⟩) (.of main_call6_v3 : StableHlo.TRef sig ⟨S16x1024, .f32⟩) (broadcastInDim S16x1024 ![1] bcast_S1024_S16x1024_1),
    StableHlo.TRef.ternary (.of main_call6_v2 : StableHlo.TRef sig ⟨S16x1024, .i1⟩) (.of main_v101 : StableHlo.TRef sig ⟨S16x1024, .f32⟩) (.of main_call6_v3 : StableHlo.TRef sig ⟨S16x1024, .f32⟩) (.of main_v122 : StableHlo.TRef sig ⟨S16x1024, .f32⟩) select ]
theorem hostOps0_13_sub : (hostOps0_13 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 49 host operations of @main, in order. -/
abbrev hostOps0_14 : List (HloOp τ sig (Elt F)) :=
  ( StableHlo.nullary main_c_40 (constantI S_ 32 0#32)
  :: StableHlo.unary main_c_40 main_v123 (broadcastInDim S1024 ![] bcast_S_S1024 : (⟨S_, .i32⟩ : BufTy).Contents (Elt F) → (⟨S1024, .i32⟩ : BufTy).Contents (Elt F))
  :: StableHlo.binary main_v27 main_v123 main_v124 (cmpi .slt : (⟨S1024, .i32⟩ : BufTy).Contents (Elt F) → (⟨S1024, .i32⟩ : BufTy).Contents (Elt F) → (⟨S1024, .i1⟩ : BufTy).Contents (Elt F))
  :: StableHlo.nullary main_c_41 (constantI S_ 32 1024#32)
  :: StableHlo.unary main_c_41 main_v125 (broadcastInDim S1024 ![] bcast_S_S1024 : (⟨S_, .i32⟩ : BufTy).Contents (Elt F) → (⟨S1024, .i32⟩ : BufTy).Contents (Elt F))
  :: StableHlo.binary main_v27 main_v125 main_v126 (addi : (⟨S1024, .i32⟩ : BufTy).Contents (Elt F) → (⟨S1024, .i32⟩ : BufTy).Contents (Elt F) → (⟨S1024, .i32⟩ : BufTy).Contents (Elt F))
  :: StableHlo.ternary main_v124 main_v126 main_v27 main_v127 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_42 (constantI S_ 32 0#32)
  :: StableHlo.unary main_c_42 main_v128 (broadcastInDim S1024 ![] bcast_S_S1024 : (⟨S_, .i32⟩ : BufTy).Contents (Elt F) → (⟨S1024, .i32⟩ : BufTy).Contents (Elt F))
  :: StableHlo.binary main_v121 main_v128 main_v129 (cmpi .slt : (⟨S1024, .i32⟩ : BufTy).Contents (Elt F) → (⟨S1024, .i32⟩ : BufTy).Contents (Elt F) → (⟨S1024, .i1⟩ : BufTy).Contents (Elt F))
  :: StableHlo.nullary main_c_43 (constantI S_ 32 1024#32)
  :: StableHlo.unary main_c_43 main_v130 (broadcastInDim S1024 ![] bcast_S_S1024 : (⟨S_, .i32⟩ : BufTy).Contents (Elt F) → (⟨S1024, .i32⟩ : BufTy).Contents (Elt F))
  :: StableHlo.binary main_v121 main_v130 main_v131 (addi : (⟨S1024, .i32⟩ : BufTy).Contents (Elt F) → (⟨S1024, .i32⟩ : BufTy).Contents (Elt F) → (⟨S1024, .i32⟩ : BufTy).Contents (Elt F))
  :: StableHlo.ternary main_v129 main_v131 main_v121 main_v132 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v127 main_v133 (broadcastInDim S1024x1 ![0] bcast_S1024_S1024x1_0 : (⟨S1024, .i32⟩ : BufTy).Contents (Elt F) → (⟨S1024x1, .i32⟩ : BufTy).Contents (Elt F))
  :: StableHlo.unary main_v132 main_v134 (broadcastInDim S1024x1 ![0] bcast_S1024_S1024x1_0 : (⟨S1024, .i32⟩ : BufTy).Contents (Elt F) → (⟨S1024x1, .i32⟩ : BufTy).Contents (Elt F))
  :: StableHlo.binary main_v133 main_v134 main_v135 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v95 main_v135 main_v122 main_v136 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v137 (Host.negf : (⟨S16x1024, .f32⟩ : BufTy).Contents (Elt F) → (⟨S16x1024, .f32⟩ : BufTy).Contents (Elt F))
  :: StableHlo.nullary main_cst_44 (constant S_ .f32 0x3F800000#32)
  :: StableHlo.unary main_cst_44 main_v138 (broadcastInDim S16x1024 ![] bcast_S_S16x1024 : (⟨S_, .f32⟩ : BufTy).Contents (Elt F) → (⟨S16x1024, .f32⟩ : BufTy).Contents (Elt F))
  :: StableHlo.binary main_v137 main_v138 main_v139 (Host.divf : (⟨S16x1024, .f32⟩ : BufTy).Contents (Elt F) → (⟨S16x1024, .f32⟩ : BufTy).Contents (Elt F) → (⟨S16x1024, .f32⟩ : BufTy).Contents (Elt F))
  :: StableHlo.nullary main_cst_45 (constant S_ .f32 0x40000000#32)
  :: StableHlo.unary main_cst_45 main_v140 (broadcastInDim S16x1024 ![] bcast_S_S16x1024 : (⟨S_, .f32⟩ : BufTy).Contents (Elt F) → (⟨S16x1024, .f32⟩ : BufTy).Contents (Elt F))
  :: StableHlo.binary main_v21 main_v140 main_v141 (Host.divf : (⟨S16x1024, .f32⟩ : BufTy).Contents (Elt F) → (⟨S16x1024, .f32⟩ : BufTy).Contents (Elt F) → (⟨S16x1024, .f32⟩ : BufTy).Contents (Elt F))
  :: StableHlo.binary main_v139 main_v141 main_v142 (addf : (⟨S16x1024, .f32⟩ : BufTy).Contents (Elt F) → (⟨S16x1024, .f32⟩ : BufTy).Contents (Elt F) → (⟨S16x1024, .f32⟩ : BufTy).Contents (Elt F))
  :: StableHlo.nullary main_c_46 (constantI S_ 32 1#32)
  :: StableHlo.unary main_c_46 main_v143 (broadcastInDim S1024 ![] bcast_S_S1024 : (⟨S_, .i32⟩ : BufTy).Contents (Elt F) → (⟨S1024, .i32⟩ : BufTy).Contents (Elt F))
  :: StableHlo.binary main_v26_0 main_v143 main_v144 (addi : (⟨S1024, .i32⟩ : BufTy).Contents (Elt F) → (⟨S1024, .i32⟩ : BufTy).Contents (Elt F) → (⟨S1024, .i32⟩ : BufTy).Contents (Elt F))
  :: StableHlo.nullary main_c_47 (constantI S_ 32 0#32)
  :: StableHlo.unary main_c_47 main_v145 (broadcastInDim S1024 ![] bcast_S_S1024 : (⟨S_, .i32⟩ : BufTy).Contents (Elt F) → (⟨S1024, .i32⟩ : BufTy).Contents (Elt F))
  :: StableHlo.binary main_v26_1 main_v145 main_v146 (addi : (⟨S1024, .i32⟩ : BufTy).Contents (Elt F) → (⟨S1024, .i32⟩ : BufTy).Contents (Elt F) → (⟨S1024, .i32⟩ : BufTy).Contents (Elt F))
  :: StableHlo.nullary main_c_48 (constantI S_ 32 0#32)
  :: StableHlo.unary main_c_48 main_v147 (broadcastInDim S1024 ![] bcast_S_S1024 : (⟨S_, .i32⟩ : BufTy).Contents (Elt F) → (⟨S1024, .i32⟩ : BufTy).Contents (Elt F))
  :: StableHlo.binary main_v144 main_v147 main_v148 (cmpi .sge : (⟨S1024, .i32⟩ : BufTy).Contents (Elt F) → (⟨S1024, .i32⟩ : BufTy).Contents (Elt F) → (⟨S1024, .i1⟩ : BufTy).Contents (Elt F))
  :: StableHlo.nullary main_c_49 (constantI S_ 32 32#32)
  :: StableHlo.unary main_c_49 main_v149 (broadcastInDim S1024 ![] bcast_S_S1024 : (⟨S_, .i32⟩ : BufTy).Contents (Elt F) → (⟨S1024, .i32⟩ : BufTy).Contents (Elt F))
  :: StableHlo.binary main_v144 main_v149 main_v150 (cmpi .slt : (⟨S1024, .i32⟩ : BufTy).Contents (Elt F) → (⟨S1024, .i32⟩ : BufTy).Contents (Elt F) → (⟨S1024, .i1⟩ : BufTy).Contents (Elt F))
  :: StableHlo.binary main_v148 main_v150 main_v151 (andi : (⟨S1024, .i1⟩ : BufTy).Contents (Elt F) → (⟨S1024, .i1⟩ : BufTy).Contents (Elt F) → (⟨S1024, .i1⟩ : BufTy).Contents (Elt F))
  :: StableHlo.nullary main_c_50 (constantI S_ 32 0#32)
  :: StableHlo.unary main_c_50 main_v152 (broadcastInDim S1024 ![] bcast_S_S1024 : (⟨S_, .i32⟩ : BufTy).Contents (Elt F) → (⟨S1024, .i32⟩ : BufTy).Contents (Elt F))
  :: StableHlo.binary main_v146 main_v152 main_v153 (cmpi .sge : (⟨S1024, .i32⟩ : BufTy).Contents (Elt F) → (⟨S1024, .i32⟩ : BufTy).Contents (Elt F) → (⟨S1024, .i1⟩ : BufTy).Contents (Elt F))
  :: StableHlo.binary main_v151 main_v153 main_v154 (andi : (⟨S1024, .i1⟩ : BufTy).Contents (Elt F) → (⟨S1024, .i1⟩ : BufTy).Contents (Elt F) → (⟨S1024, .i1⟩ : BufTy).Contents (Elt F))
  :: StableHlo.nullary main_c_51 (constantI S_ 32 32#32)
  :: StableHlo.unary main_c_51 main_v155 (broadcastInDim S1024 ![] bcast_S_S1024 : (⟨S_, .i32⟩ : BufTy).Contents (Elt F) → (⟨S1024, .i32⟩ : BufTy).Contents (Elt F))
  :: StableHlo.binary main_v146 main_v155 main_v156 (cmpi .slt : (⟨S1024, .i32⟩ : BufTy).Contents (Elt F) → (⟨S1024, .i32⟩ : BufTy).Contents (Elt F) → (⟨S1024, .i1⟩ : BufTy).Contents (Elt F))
  :: StableHlo.binary main_v154 main_v156 main_v157 (andi : (⟨S1024, .i1⟩ : BufTy).Contents (Elt F) → (⟨S1024, .i1⟩ : BufTy).Contents (Elt F) → (⟨S1024, .i1⟩ : BufTy).Contents (Elt F))
  :: StableHlo.nullary main_c_52 (constantI S_ 32 0#32)
  :: StableHlo.nullary main_c_53 (constantI S_ 32 31#32)
  :: [] )
theorem hostOps0_14_sub : (hostOps0_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call7), in order. -/
abbrev hostOps0_15 : List (HloOp τ sig (Elt F)) :=
  [ StableHlo.TRef.unary (.of main_c_52 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S1024, .i32⟩) (broadcastInDim S1024 ![] bcast_S_S1024),
    StableHlo.TRef.binary (.of main_call7_v1 : StableHlo.TRef sig ⟨S1024, .i32⟩) (.of main_v144 : StableHlo.TRef sig ⟨S1024, .i32⟩) (.of main_call7_v2 : StableHlo.TRef sig ⟨S1024, .i32⟩) maxsi,
    StableHlo.TRef.unary (.of main_c_53 : StableHlo.TRef sig ⟨S_, .i32⟩) (.of main_call7_v3 : StableHlo.TRef sig ⟨S_, .i32⟩) id,
    StableHlo.TRef.unary (.of main_call7_v3 : StableHlo.TRef sig ⟨S_, .i32⟩) (.of main_call7_v4 : StableHlo.TRef sig ⟨S1024, .i32⟩) (broadcastInDim S1024 ![] bcast_S_S1024),
    StableHlo.TRef.binary (.of main_call7_v4 : StableHlo.TRef sig ⟨S1024, .i32⟩) (.of main_call7_v2 : StableHlo.TRef sig ⟨S1024, .i32⟩) (.of main_v158 : StableHlo.TRef sig ⟨S1024, .i32⟩) minsi ]
theorem hostOps0_15_sub : (hostOps0_15 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_16 : List (HloOp τ sig (Elt F)) :=
  [ StableHlo.nullary main_c_54 (constantI S_ 32 32#32),
    StableHlo.unary main_c_54 main_v159 (broadcastInDim S1024 ![] bcast_S_S1024 : (⟨S_, .i32⟩ : BufTy).Contents (Elt F) → (⟨S1024, .i32⟩ : BufTy).Contents (Elt F)),
    StableHlo.binary main_v158 main_v159 main_v160 (muli : (⟨S1024, .i32⟩ : BufTy).Contents (Elt F) → (⟨S1024, .i32⟩ : BufTy).Contents (Elt F) → (⟨S1024, .i32⟩ : BufTy).Contents (Elt F)),
    StableHlo.nullary main_c_55 (constantI S_ 32 0#32),
    StableHlo.nullary main_c_56 (constantI S_ 32 31#32) ]
theorem hostOps0_16_sub : (hostOps0_16 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call8), in order. -/
abbrev hostOps0_17 : List (HloOp τ sig (Elt F)) :=
  [ StableHlo.TRef.unary (.of main_c_55 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S1024, .i32⟩) (broadcastInDim S1024 ![] bcast_S_S1024),
    StableHlo.TRef.binary (.of main_call8_v1 : StableHlo.TRef sig ⟨S1024, .i32⟩) (.of main_v146 : StableHlo.TRef sig ⟨S1024, .i32⟩) (.of main_call8_v2 : StableHlo.TRef sig ⟨S1024, .i32⟩) maxsi,
    StableHlo.TRef.unary (.of main_c_56 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S1024, .i32⟩) (broadcastInDim S1024 ![] bcast_S_S1024),
    StableHlo.TRef.binary (.of main_call8_v4 : StableHlo.TRef sig ⟨S1024, .i32⟩) (.of main_call8_v2 : StableHlo.TRef sig ⟨S1024, .i32⟩) (.of main_v161 : StableHlo.TRef sig ⟨S1024, .i32⟩) minsi ]
theorem hostOps0_17_sub : (hostOps0_17 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_18 : List (HloOp τ sig (Elt F)) :=
  [ StableHlo.binary main_v160 main_v161 main_v162 (addi : (⟨S1024, .i32⟩ : BufTy).Contents (Elt F) → (⟨S1024, .i32⟩ : BufTy).Contents (Elt F) → (⟨S1024, .i32⟩ : BufTy).Contents (Elt F)),
    StableHlo.nullary main_cst_57 (constant S_ .f32 0x00000000#32) ]
theorem hostOps0_18_sub : (hostOps0_18 : List (HloOp τ sig (Elt F))).Forall fun op => op.bufs ⊆ StableHlo.tcRefs τ sig :=
  ⟨StableHlo.binary_bufs_sub .., StableHlo.nullary_bufs_sub ..⟩
/-- 5 host operations of @_where_1 (main_call9), in order. -/
abbrev hostOps0_19 : List (HloOp τ sig (Elt F)) :=
  [ StableHlo.TRef.unary (.of main_cst_57 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S1024, .f32⟩) (broadcastInDim S1024 ![] bcast_S_S1024),
    StableHlo.TRef.unary (.of main_v157 : StableHlo.TRef sig ⟨S1024, .i1⟩) (.of main_call9_v2 : StableHlo.TRef sig ⟨S16x1024, .i1⟩) (broadcastInDim S16x1024 ![1] bcast_S1024_S16x1024_1),
    StableHlo.TRef.unary (.of main_call9_v1 : StableHlo.TRef sig ⟨S1024, .f32⟩) (.of main_call9_v3 : StableHlo.TRef sig ⟨S16x1024, .f32⟩) (broadcastInDim S16x1024 ![1] bcast_S1024_S16x1024_1),
    StableHlo.TRef.ternary (.of main_call9_v2 : StableHlo.TRef sig ⟨S16x1024, .i1⟩) (.of main_v142 : StableHlo.TRef sig ⟨S16x1024, .f32⟩) (.of main_call9_v3 : StableHlo.TRef sig ⟨S16x1024, .f32⟩) (.of main_v163 : StableHlo.TRef sig ⟨S16x1024, .f32⟩) select ]
theorem hostOps0_19_sub : (hostOps0_19 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 49 host operations of @main, in order. -/
abbrev hostOps0_20 : List (HloOp τ sig (Elt F)) :=
  ( StableHlo.nullary main_c_58 (constantI S_ 32 0#32)
  :: StableHlo.unary main_c_58 main_v164 (broadcastInDim S1024 ![] bcast_S_S1024 : (⟨S_, .i32⟩ : BufTy).Contents (Elt F) → (⟨S1024, .i32⟩ : BufTy).Contents (Elt F))
  :: StableHlo.binary main_v27 main_v164 main_v165 (cmpi .slt : (⟨S1024, .i32⟩ : BufTy).Contents (Elt F) → (⟨S1024, .i32⟩ : BufTy).Contents (Elt F) → (⟨S1024, .i1⟩ : BufTy).Contents (Elt F))
  :: StableHlo.nullary main_c_59 (constantI S_ 32 1024#32)
  :: StableHlo.unary main_c_59 main_v166 (broadcastInDim S1024 ![] bcast_S_S1024 : (⟨S_, .i32⟩ : BufTy).Contents (Elt F) → (⟨S1024, .i32⟩ : BufTy).Contents (Elt F))
  :: StableHlo.binary main_v27 main_v166 main_v167 (addi : (⟨S1024, .i32⟩ : BufTy).Contents (Elt F) → (⟨S1024, .i32⟩ : BufTy).Contents (Elt F) → (⟨S1024, .i32⟩ : BufTy).Contents (Elt F))
  :: StableHlo.ternary main_v165 main_v167 main_v27 main_v168 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_60 (constantI S_ 32 0#32)
  :: StableHlo.unary main_c_60 main_v169 (broadcastInDim S1024 ![] bcast_S_S1024 : (⟨S_, .i32⟩ : BufTy).Contents (Elt F) → (⟨S1024, .i32⟩ : BufTy).Contents (Elt F))
  :: StableHlo.binary main_v162 main_v169 main_v170 (cmpi .slt : (⟨S1024, .i32⟩ : BufTy).Contents (Elt F) → (⟨S1024, .i32⟩ : BufTy).Contents (Elt F) → (⟨S1024, .i1⟩ : BufTy).Contents (Elt F))
  :: StableHlo.nullary main_c_61 (constantI S_ 32 1024#32)
  :: StableHlo.unary main_c_61 main_v171 (broadcastInDim S1024 ![] bcast_S_S1024 : (⟨S_, .i32⟩ : BufTy).Contents (Elt F) → (⟨S1024, .i32⟩ : BufTy).Contents (Elt F))
  :: StableHlo.binary main_v162 main_v171 main_v172 (addi : (⟨S1024, .i32⟩ : BufTy).Contents (Elt F) → (⟨S1024, .i32⟩ : BufTy).Contents (Elt F) → (⟨S1024, .i32⟩ : BufTy).Contents (Elt F))
  :: StableHlo.ternary main_v170 main_v172 main_v162 main_v173 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v168 main_v174 (broadcastInDim S1024x1 ![0] bcast_S1024_S1024x1_0 : (⟨S1024, .i32⟩ : BufTy).Contents (Elt F) → (⟨S1024x1, .i32⟩ : BufTy).Contents (Elt F))
  :: StableHlo.unary main_v173 main_v175 (broadcastInDim S1024x1 ![0] bcast_S1024_S1024x1_0 : (⟨S1024, .i32⟩ : BufTy).Contents (Elt F) → (⟨S1024x1, .i32⟩ : BufTy).Contents (Elt F))
  :: StableHlo.binary main_v174 main_v175 main_v176 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v136 main_v176 main_v163 main_v177 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v178 (Host.negf : (⟨S16x1024, .f32⟩ : BufTy).Contents (Elt F) → (⟨S16x1024, .f32⟩ : BufTy).Contents (Elt F))
  :: StableHlo.nullary main_cst_62 (constant S_ .f32 0x3F800000#32)
  :: StableHlo.unary main_cst_62 main_v179 (broadcastInDim S16x1024 ![] bcast_S_S16x1024 : (⟨S_, .f32⟩ : BufTy).Contents (Elt F) → (⟨S16x1024, .f32⟩ : BufTy).Contents (Elt F))
  :: StableHlo.binary main_v178 main_v179 main_v180 (Host.divf : (⟨S16x1024, .f32⟩ : BufTy).Contents (Elt F) → (⟨S16x1024, .f32⟩ : BufTy).Contents (Elt F) → (⟨S16x1024, .f32⟩ : BufTy).Contents (Elt F))
  :: StableHlo.nullary main_cst_63 (constant S_ .f32 0x40000000#32)
  :: StableHlo.unary main_cst_63 main_v181 (broadcastInDim S16x1024 ![] bcast_S_S16x1024 : (⟨S_, .f32⟩ : BufTy).Contents (Elt F) → (⟨S16x1024, .f32⟩ : BufTy).Contents (Elt F))
  :: StableHlo.binary main_v21 main_v181 main_v182 (Host.divf : (⟨S16x1024, .f32⟩ : BufTy).Contents (Elt F) → (⟨S16x1024, .f32⟩ : BufTy).Contents (Elt F) → (⟨S16x1024, .f32⟩ : BufTy).Contents (Elt F))
  :: StableHlo.binary main_v180 main_v182 main_v183 (subf : (⟨S16x1024, .f32⟩ : BufTy).Contents (Elt F) → (⟨S16x1024, .f32⟩ : BufTy).Contents (Elt F) → (⟨S16x1024, .f32⟩ : BufTy).Contents (Elt F))
  :: StableHlo.nullary main_c_64 (constantI S_ 32 4294967295#32)
  :: StableHlo.unary main_c_64 main_v184 (broadcastInDim S1024 ![] bcast_S_S1024 : (⟨S_, .i32⟩ : BufTy).Contents (Elt F) → (⟨S1024, .i32⟩ : BufTy).Contents (Elt F))
  :: StableHlo.binary main_v26_0 main_v184 main_v185 (addi : (⟨S1024, .i32⟩ : BufTy).Contents (Elt F) → (⟨S1024, .i32⟩ : BufTy).Contents (Elt F) → (⟨S1024, .i32⟩ : BufTy).Contents (Elt F))
  :: StableHlo.nullary main_c_65 (constantI S_ 32 0#32)
  :: StableHlo.unary main_c_65 main_v186 (broadcastInDim S1024 ![] bcast_S_S1024 : (⟨S_, .i32⟩ : BufTy).Contents (Elt F) → (⟨S1024, .i32⟩ : BufTy).Contents (Elt F))
  :: StableHlo.binary main_v26_1 main_v186 main_v187 (addi : (⟨S1024, .i32⟩ : BufTy).Contents (Elt F) → (⟨S1024, .i32⟩ : BufTy).Contents (Elt F) → (⟨S1024, .i32⟩ : BufTy).Contents (Elt F))
  :: StableHlo.nullary main_c_66 (constantI S_ 32 0#32)
  :: StableHlo.unary main_c_66 main_v188 (broadcastInDim S1024 ![] bcast_S_S1024 : (⟨S_, .i32⟩ : BufTy).Contents (Elt F) → (⟨S1024, .i32⟩ : BufTy).Contents (Elt F))
  :: StableHlo.binary main_v185 main_v188 main_v189 (cmpi .sge : (⟨S1024, .i32⟩ : BufTy).Contents (Elt F) → (⟨S1024, .i32⟩ : BufTy).Contents (Elt F) → (⟨S1024, .i1⟩ : BufTy).Contents (Elt F))
  :: StableHlo.nullary main_c_67 (constantI S_ 32 32#32)
  :: StableHlo.unary main_c_67 main_v190 (broadcastInDim S1024 ![] bcast_S_S1024 : (⟨S_, .i32⟩ : BufTy).Contents (Elt F) → (⟨S1024, .i32⟩ : BufTy).Contents (Elt F))
  :: StableHlo.binary main_v185 main_v190 main_v191 (cmpi .slt : (⟨S1024, .i32⟩ : BufTy).Contents (Elt F) → (⟨S1024, .i32⟩ : BufTy).Contents (Elt F) → (⟨S1024, .i1⟩ : BufTy).Contents (Elt F))
  :: StableHlo.binary main_v189 main_v191 main_v192 (andi : (⟨S1024, .i1⟩ : BufTy).Contents (Elt F) → (⟨S1024, .i1⟩ : BufTy).Contents (Elt F) → (⟨S1024, .i1⟩ : BufTy).Contents (Elt F))
  :: StableHlo.nullary main_c_68 (constantI S_ 32 0#32)
  :: StableHlo.unary main_c_68 main_v193 (broadcastInDim S1024 ![] bcast_S_S1024 : (⟨S_, .i32⟩ : BufTy).Contents (Elt F) → (⟨S1024, .i32⟩ : BufTy).Contents (Elt F))
  :: StableHlo.binary main_v187 main_v193 main_v194 (cmpi .sge : (⟨S1024, .i32⟩ : BufTy).Contents (Elt F) → (⟨S1024, .i32⟩ : BufTy).Contents (Elt F) → (⟨S1024, .i1⟩ : BufTy).Contents (Elt F))
  :: StableHlo.binary main_v192 main_v194 main_v195 (andi : (⟨S1024, .i1⟩ : BufTy).Contents (Elt F) → (⟨S1024, .i1⟩ : BufTy).Contents (Elt F) → (⟨S1024, .i1⟩ : BufTy).Contents (Elt F))
  :: StableHlo.nullary main_c_69 (constantI S_ 32 32#32)
  :: StableHlo.unary main_c_69 main_v196 (broadcastInDim S1024 ![] bcast_S_S1024 : (⟨S_, .i32⟩ : BufTy).Contents (Elt F) → (⟨S1024, .i32⟩ : BufTy).Contents (Elt F))
  :: StableHlo.binary main_v187 main_v196 main_v197 (cmpi .slt : (⟨S1024, .i32⟩ : BufTy).Contents (Elt F) → (⟨S1024, .i32⟩ : BufTy).Contents (Elt F) → (⟨S1024, .i1⟩ : BufTy).Contents (Elt F))
  :: StableHlo.binary main_v195 main_v197 main_v198 (andi : (⟨S1024, .i1⟩ : BufTy).Contents (Elt F) → (⟨S1024, .i1⟩ : BufTy).Contents (Elt F) → (⟨S1024, .i1⟩ : BufTy).Contents (Elt F))
  :: StableHlo.nullary main_c_70 (constantI S_ 32 0#32)
  :: StableHlo.nullary main_c_71 (constantI S_ 32 31#32)
  :: [] )
theorem hostOps0_20_sub : (hostOps0_20 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call10), in order. -/
abbrev hostOps0_21 : List (HloOp τ sig (Elt F)) :=
  [ StableHlo.TRef.unary (.of main_c_70 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S1024, .i32⟩) (broadcastInDim S1024 ![] bcast_S_S1024),
    StableHlo.TRef.binary (.of main_call10_v1 : StableHlo.TRef sig ⟨S1024, .i32⟩) (.of main_v185 : StableHlo.TRef sig ⟨S1024, .i32⟩) (.of main_call10_v2 : StableHlo.TRef sig ⟨S1024, .i32⟩) maxsi,
    StableHlo.TRef.unary (.of main_c_71 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S1024, .i32⟩) (broadcastInDim S1024 ![] bcast_S_S1024),
    StableHlo.TRef.binary (.of main_call10_v4 : StableHlo.TRef sig ⟨S1024, .i32⟩) (.of main_call10_v2 : StableHlo.TRef sig ⟨S1024, .i32⟩) (.of main_v199 : StableHlo.TRef sig ⟨S1024, .i32⟩) minsi ]
theorem hostOps0_21_sub : (hostOps0_21 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_22 : List (HloOp τ sig (Elt F)) :=
  [ StableHlo.nullary main_c_72 (constantI S_ 32 32#32),
    StableHlo.unary main_c_72 main_v200 (broadcastInDim S1024 ![] bcast_S_S1024 : (⟨S_, .i32⟩ : BufTy).Contents (Elt F) → (⟨S1024, .i32⟩ : BufTy).Contents (Elt F)),
    StableHlo.binary main_v199 main_v200 main_v201 (muli : (⟨S1024, .i32⟩ : BufTy).Contents (Elt F) → (⟨S1024, .i32⟩ : BufTy).Contents (Elt F) → (⟨S1024, .i32⟩ : BufTy).Contents (Elt F)),
    StableHlo.nullary main_c_73 (constantI S_ 32 0#32),
    StableHlo.nullary main_c_74 (constantI S_ 32 31#32) ]
theorem hostOps0_22_sub : (hostOps0_22 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call11), in order. -/
abbrev hostOps0_23 : List (HloOp τ sig (Elt F)) :=
  [ StableHlo.TRef.unary (.of main_c_73 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S1024, .i32⟩) (broadcastInDim S1024 ![] bcast_S_S1024),
    StableHlo.TRef.binary (.of main_call11_v1 : StableHlo.TRef sig ⟨S1024, .i32⟩) (.of main_v187 : StableHlo.TRef sig ⟨S1024, .i32⟩) (.of main_call11_v2 : StableHlo.TRef sig ⟨S1024, .i32⟩) maxsi,
    StableHlo.TRef.unary (.of main_c_74 : StableHlo.TRef sig ⟨S_, .i32⟩) (.of main_call11_v3 : StableHlo.TRef sig ⟨S_, .i32⟩) id,
    StableHlo.TRef.unary (.of main_call11_v3 : StableHlo.TRef sig ⟨S_, .i32⟩) (.of main_call11_v4 : StableHlo.TRef sig ⟨S1024, .i32⟩) (broadcastInDim S1024 ![] bcast_S_S1024),
    StableHlo.TRef.binary (.of main_call11_v4 : StableHlo.TRef sig ⟨S1024, .i32⟩) (.of main_call11_v2 : StableHlo.TRef sig ⟨S1024, .i32⟩) (.of main_v202 : StableHlo.TRef sig ⟨S1024, .i32⟩) minsi ]
theorem hostOps0_23_sub : (hostOps0_23 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_24 : List (HloOp τ sig (Elt F)) :=
  [ StableHlo.binary main_v201 main_v202 main_v203 (addi : (⟨S1024, .i32⟩ : BufTy).Contents (Elt F) → (⟨S1024, .i32⟩ : BufTy).Contents (Elt F) → (⟨S1024, .i32⟩ : BufTy).Contents (Elt F)),
    StableHlo.nullary main_cst_75 (constant S_ .f32 0x00000000#32) ]
theorem hostOps0_24_sub : (hostOps0_24 : List (HloOp τ sig (Elt F))).Forall fun op => op.bufs ⊆ StableHlo.tcRefs τ sig :=
  ⟨StableHlo.binary_bufs_sub .., StableHlo.nullary_bufs_sub ..⟩
/-- 5 host operations of @_where_1 (main_call12), in order. -/
abbrev hostOps0_25 : List (HloOp τ sig (Elt F)) :=
  [ StableHlo.TRef.unary (.of main_cst_75 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S1024, .f32⟩) (broadcastInDim S1024 ![] bcast_S_S1024),
    StableHlo.TRef.unary (.of main_v198 : StableHlo.TRef sig ⟨S1024, .i1⟩) (.of main_call12_v2 : StableHlo.TRef sig ⟨S16x1024, .i1⟩) (broadcastInDim S16x1024 ![1] bcast_S1024_S16x1024_1),
    StableHlo.TRef.unary (.of main_call12_v1 : StableHlo.TRef sig ⟨S1024, .f32⟩) (.of main_call12_v3 : StableHlo.TRef sig ⟨S16x1024, .f32⟩) (broadcastInDim S16x1024 ![1] bcast_S1024_S16x1024_1),
    StableHlo.TRef.ternary (.of main_call12_v2 : StableHlo.TRef sig ⟨S16x1024, .i1⟩) (.of main_v183 : StableHlo.TRef sig ⟨S16x1024, .f32⟩) (.of main_call12_v3 : StableHlo.TRef sig ⟨S16x1024, .f32⟩) (.of main_v204 : StableHlo.TRef sig ⟨S16x1024, .f32⟩) select ]
theorem hostOps0_25_sub : (hostOps0_25 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 45 host operations of @main, in order. -/
abbrev hostOps0_26 : List (HloOp τ sig (Elt F)) :=
  ( StableHlo.nullary main_c_76 (constantI S_ 32 0#32)
  :: StableHlo.unary main_c_76 main_v205 (broadcastInDim S1024 ![] bcast_S_S1024 : (⟨S_, .i32⟩ : BufTy).Contents (Elt F) → (⟨S1024, .i32⟩ : BufTy).Contents (Elt F))
  :: StableHlo.binary main_v27 main_v205 main_v206 (cmpi .slt : (⟨S1024, .i32⟩ : BufTy).Contents (Elt F) → (⟨S1024, .i32⟩ : BufTy).Contents (Elt F) → (⟨S1024, .i1⟩ : BufTy).Contents (Elt F))
  :: StableHlo.nullary main_c_77 (constantI S_ 32 1024#32)
  :: StableHlo.unary main_c_77 main_v207 (broadcastInDim S1024 ![] bcast_S_S1024 : (⟨S_, .i32⟩ : BufTy).Contents (Elt F) → (⟨S1024, .i32⟩ : BufTy).Contents (Elt F))
  :: StableHlo.binary main_v27 main_v207 main_v208 (addi : (⟨S1024, .i32⟩ : BufTy).Contents (Elt F) → (⟨S1024, .i32⟩ : BufTy).Contents (Elt F) → (⟨S1024, .i32⟩ : BufTy).Contents (Elt F))
  :: StableHlo.ternary main_v206 main_v208 main_v27 main_v209 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_78 (constantI S_ 32 0#32)
  :: StableHlo.unary main_c_78 main_v210 (broadcastInDim S1024 ![] bcast_S_S1024 : (⟨S_, .i32⟩ : BufTy).Contents (Elt F) → (⟨S1024, .i32⟩ : BufTy).Contents (Elt F))
  :: StableHlo.binary main_v203 main_v210 main_v211 (cmpi .slt : (⟨S1024, .i32⟩ : BufTy).Contents (Elt F) → (⟨S1024, .i32⟩ : BufTy).Contents (Elt F) → (⟨S1024, .i1⟩ : BufTy).Contents (Elt F))
  :: StableHlo.nullary main_c_79 (constantI S_ 32 1024#32)
  :: StableHlo.unary main_c_79 main_v212 (broadcastInDim S1024 ![] bcast_S_S1024 : (⟨S_, .i32⟩ : BufTy).Contents (Elt F) → (⟨S1024, .i32⟩ : BufTy).Contents (Elt F))
  :: StableHlo.binary main_v203 main_v212 main_v213 (addi : (⟨S1024, .i32⟩ : BufTy).Contents (Elt F) → (⟨S1024, .i32⟩ : BufTy).Contents (Elt F) → (⟨S1024, .i32⟩ : BufTy).Contents (Elt F))
  :: StableHlo.ternary main_v211 main_v213 main_v203 main_v214 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v209 main_v215 (broadcastInDim S1024x1 ![0] bcast_S1024_S1024x1_0 : (⟨S1024, .i32⟩ : BufTy).Contents (Elt F) → (⟨S1024x1, .i32⟩ : BufTy).Contents (Elt F))
  :: StableHlo.unary main_v214 main_v216 (broadcastInDim S1024x1 ![0] bcast_S1024_S1024x1_0 : (⟨S1024, .i32⟩ : BufTy).Contents (Elt F) → (⟨S1024x1, .i32⟩ : BufTy).Contents (Elt F))
  :: StableHlo.binary main_v215 main_v216 main_v217 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v177 main_v217 main_v204 main_v218 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_cst_80 (constant S_ .f32 0x40000000#32)
  :: StableHlo.unary main_cst_80 main_v219 (broadcastInDim S16x1024 ![] bcast_S_S16x1024 : (⟨S_, .f32⟩ : BufTy).Contents (Elt F) → (⟨S16x1024, .f32⟩ : BufTy).Contents (Elt F))
  :: StableHlo.binary main_v23 main_v219 main_v220 (Host.divf : (⟨S16x1024, .f32⟩ : BufTy).Contents (Elt F) → (⟨S16x1024, .f32⟩ : BufTy).Contents (Elt F) → (⟨S16x1024, .f32⟩ : BufTy).Contents (Elt F))
  :: StableHlo.unary main_v220 main_v221 (Host.negf : (⟨S16x1024, .f32⟩ : BufTy).Contents (Elt F) → (⟨S16x1024, .f32⟩ : BufTy).Contents (Elt F))
  :: StableHlo.nullary main_c_81 (constantI S_ 32 1#32)
  :: StableHlo.unary main_c_81 main_v222 (broadcastInDim S1024 ![] bcast_S_S1024 : (⟨S_, .i32⟩ : BufTy).Contents (Elt F) → (⟨S1024, .i32⟩ : BufTy).Contents (Elt F))
  :: StableHlo.binary main_v26_0 main_v222 main_v223 (addi : (⟨S1024, .i32⟩ : BufTy).Contents (Elt F) → (⟨S1024, .i32⟩ : BufTy).Contents (Elt F) → (⟨S1024, .i32⟩ : BufTy).Contents (Elt F))
  :: StableHlo.nullary main_c_82 (constantI S_ 32 1#32)
  :: StableHlo.unary main_c_82 main_v224 (broadcastInDim S1024 ![] bcast_S_S1024 : (⟨S_, .i32⟩ : BufTy).Contents (Elt F) → (⟨S1024, .i32⟩ : BufTy).Contents (Elt F))
  :: StableHlo.binary main_v26_1 main_v224 main_v225 (addi : (⟨S1024, .i32⟩ : BufTy).Contents (Elt F) → (⟨S1024, .i32⟩ : BufTy).Contents (Elt F) → (⟨S1024, .i32⟩ : BufTy).Contents (Elt F))
  :: StableHlo.nullary main_c_83 (constantI S_ 32 0#32)
  :: StableHlo.unary main_c_83 main_v226 (broadcastInDim S1024 ![] bcast_S_S1024 : (⟨S_, .i32⟩ : BufTy).Contents (Elt F) → (⟨S1024, .i32⟩ : BufTy).Contents (Elt F))
  :: StableHlo.binary main_v223 main_v226 main_v227 (cmpi .sge : (⟨S1024, .i32⟩ : BufTy).Contents (Elt F) → (⟨S1024, .i32⟩ : BufTy).Contents (Elt F) → (⟨S1024, .i1⟩ : BufTy).Contents (Elt F))
  :: StableHlo.nullary main_c_84 (constantI S_ 32 32#32)
  :: StableHlo.unary main_c_84 main_v228 (broadcastInDim S1024 ![] bcast_S_S1024 : (⟨S_, .i32⟩ : BufTy).Contents (Elt F) → (⟨S1024, .i32⟩ : BufTy).Contents (Elt F))
  :: StableHlo.binary main_v223 main_v228 main_v229 (cmpi .slt : (⟨S1024, .i32⟩ : BufTy).Contents (Elt F) → (⟨S1024, .i32⟩ : BufTy).Contents (Elt F) → (⟨S1024, .i1⟩ : BufTy).Contents (Elt F))
  :: StableHlo.binary main_v227 main_v229 main_v230 (andi : (⟨S1024, .i1⟩ : BufTy).Contents (Elt F) → (⟨S1024, .i1⟩ : BufTy).Contents (Elt F) → (⟨S1024, .i1⟩ : BufTy).Contents (Elt F))
  :: StableHlo.nullary main_c_85 (constantI S_ 32 0#32)
  :: StableHlo.unary main_c_85 main_v231 (broadcastInDim S1024 ![] bcast_S_S1024 : (⟨S_, .i32⟩ : BufTy).Contents (Elt F) → (⟨S1024, .i32⟩ : BufTy).Contents (Elt F))
  :: StableHlo.binary main_v225 main_v231 main_v232 (cmpi .sge : (⟨S1024, .i32⟩ : BufTy).Contents (Elt F) → (⟨S1024, .i32⟩ : BufTy).Contents (Elt F) → (⟨S1024, .i1⟩ : BufTy).Contents (Elt F))
  :: StableHlo.binary main_v230 main_v232 main_v233 (andi : (⟨S1024, .i1⟩ : BufTy).Contents (Elt F) → (⟨S1024, .i1⟩ : BufTy).Contents (Elt F) → (⟨S1024, .i1⟩ : BufTy).Contents (Elt F))
  :: StableHlo.nullary main_c_86 (constantI S_ 32 32#32)
  :: StableHlo.unary main_c_86 main_v234 (broadcastInDim S1024 ![] bcast_S_S1024 : (⟨S_, .i32⟩ : BufTy).Contents (Elt F) → (⟨S1024, .i32⟩ : BufTy).Contents (Elt F))
  :: StableHlo.binary main_v225 main_v234 main_v235 (cmpi .slt : (⟨S1024, .i32⟩ : BufTy).Contents (Elt F) → (⟨S1024, .i32⟩ : BufTy).Contents (Elt F) → (⟨S1024, .i1⟩ : BufTy).Contents (Elt F))
  :: StableHlo.binary main_v233 main_v235 main_v236 (andi : (⟨S1024, .i1⟩ : BufTy).Contents (Elt F) → (⟨S1024, .i1⟩ : BufTy).Contents (Elt F) → (⟨S1024, .i1⟩ : BufTy).Contents (Elt F))
  :: StableHlo.nullary main_c_87 (constantI S_ 32 0#32)
  :: StableHlo.nullary main_c_88 (constantI S_ 32 31#32)
  :: [] )
theorem hostOps0_26_sub : (hostOps0_26 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call13), in order. -/
abbrev hostOps0_27 : List (HloOp τ sig (Elt F)) :=
  [ StableHlo.TRef.unary (.of main_c_87 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S1024, .i32⟩) (broadcastInDim S1024 ![] bcast_S_S1024),
    StableHlo.TRef.binary (.of main_call13_v1 : StableHlo.TRef sig ⟨S1024, .i32⟩) (.of main_v223 : StableHlo.TRef sig ⟨S1024, .i32⟩) (.of main_call13_v2 : StableHlo.TRef sig ⟨S1024, .i32⟩) maxsi,
    StableHlo.TRef.unary (.of main_c_88 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S1024, .i32⟩) (broadcastInDim S1024 ![] bcast_S_S1024),
    StableHlo.TRef.binary (.of main_call13_v4 : StableHlo.TRef sig ⟨S1024, .i32⟩) (.of main_call13_v2 : StableHlo.TRef sig ⟨S1024, .i32⟩) (.of main_v237 : StableHlo.TRef sig ⟨S1024, .i32⟩) minsi ]
theorem hostOps0_27_sub : (hostOps0_27 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_28 : List (HloOp τ sig (Elt F)) :=
  [ StableHlo.nullary main_c_89 (constantI S_ 32 32#32),
    StableHlo.unary main_c_89 main_v238 (broadcastInDim S1024 ![] bcast_S_S1024 : (⟨S_, .i32⟩ : BufTy).Contents (Elt F) → (⟨S1024, .i32⟩ : BufTy).Contents (Elt F)),
    StableHlo.binary main_v237 main_v238 main_v239 (muli : (⟨S1024, .i32⟩ : BufTy).Contents (Elt F) → (⟨S1024, .i32⟩ : BufTy).Contents (Elt F) → (⟨S1024, .i32⟩ : BufTy).Contents (Elt F)),
    StableHlo.nullary main_c_90 (constantI S_ 32 0#32),
    StableHlo.nullary main_c_91 (constantI S_ 32 31#32) ]
theorem hostOps0_28_sub : (hostOps0_28 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call14), in order. -/
abbrev hostOps0_29 : List (HloOp τ sig (Elt F)) :=
  [ StableHlo.TRef.unary (.of main_c_90 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S1024, .i32⟩) (broadcastInDim S1024 ![] bcast_S_S1024),
    StableHlo.TRef.binary (.of main_call14_v1 : StableHlo.TRef sig ⟨S1024, .i32⟩) (.of main_v225 : StableHlo.TRef sig ⟨S1024, .i32⟩) (.of main_call14_v2 : StableHlo.TRef sig ⟨S1024, .i32⟩) maxsi,
    StableHlo.TRef.unary (.of main_c_91 : StableHlo.TRef sig ⟨S_, .i32⟩) (.of main_call14_v3 : StableHlo.TRef sig ⟨S_, .i32⟩) id,
    StableHlo.TRef.unary (.of main_call14_v3 : StableHlo.TRef sig ⟨S_, .i32⟩) (.of main_call14_v4 : StableHlo.TRef sig ⟨S1024, .i32⟩) (broadcastInDim S1024 ![] bcast_S_S1024),
    StableHlo.TRef.binary (.of main_call14_v4 : StableHlo.TRef sig ⟨S1024, .i32⟩) (.of main_call14_v2 : StableHlo.TRef sig ⟨S1024, .i32⟩) (.of main_v240 : StableHlo.TRef sig ⟨S1024, .i32⟩) minsi ]
theorem hostOps0_29_sub : (hostOps0_29 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_30 : List (HloOp τ sig (Elt F)) :=
  [ StableHlo.binary main_v239 main_v240 main_v241 (addi : (⟨S1024, .i32⟩ : BufTy).Contents (Elt F) → (⟨S1024, .i32⟩ : BufTy).Contents (Elt F) → (⟨S1024, .i32⟩ : BufTy).Contents (Elt F)),
    StableHlo.nullary main_cst_92 (constant S_ .f32 0x00000000#32) ]
theorem hostOps0_30_sub : (hostOps0_30 : List (HloOp τ sig (Elt F))).Forall fun op => op.bufs ⊆ StableHlo.tcRefs τ sig :=
  ⟨StableHlo.binary_bufs_sub .., StableHlo.nullary_bufs_sub ..⟩
/-- 5 host operations of @_where_1 (main_call15), in order. -/
abbrev hostOps0_31 : List (HloOp τ sig (Elt F)) :=
  [ StableHlo.TRef.unary (.of main_cst_92 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S1024, .f32⟩) (broadcastInDim S1024 ![] bcast_S_S1024),
    StableHlo.TRef.unary (.of main_v236 : StableHlo.TRef sig ⟨S1024, .i1⟩) (.of main_call15_v2 : StableHlo.TRef sig ⟨S16x1024, .i1⟩) (broadcastInDim S16x1024 ![1] bcast_S1024_S16x1024_1),
    StableHlo.TRef.unary (.of main_call15_v1 : StableHlo.TRef sig ⟨S1024, .f32⟩) (.of main_call15_v3 : StableHlo.TRef sig ⟨S16x1024, .f32⟩) (broadcastInDim S16x1024 ![1] bcast_S1024_S16x1024_1),
    StableHlo.TRef.ternary (.of main_call15_v2 : StableHlo.TRef sig ⟨S16x1024, .i1⟩) (.of main_v221 : StableHlo.TRef sig ⟨S16x1024, .f32⟩) (.of main_call15_v3 : StableHlo.TRef sig ⟨S16x1024, .f32⟩) (.of main_v242 : StableHlo.TRef sig ⟨S16x1024, .f32⟩) select ]
theorem hostOps0_31_sub : (hostOps0_31 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 42 host operations of @main, in order. -/
abbrev hostOps0_32 : List (HloOp τ sig (Elt F)) :=
  ( StableHlo.nullary main_c_93 (constantI S_ 32 0#32)
  :: StableHlo.unary main_c_93 main_v243 (broadcastInDim S1024 ![] bcast_S_S1024 : (⟨S_, .i32⟩ : BufTy).Contents (Elt F) → (⟨S1024, .i32⟩ : BufTy).Contents (Elt F))
  :: StableHlo.binary main_v27 main_v243 main_v244 (cmpi .slt : (⟨S1024, .i32⟩ : BufTy).Contents (Elt F) → (⟨S1024, .i32⟩ : BufTy).Contents (Elt F) → (⟨S1024, .i1⟩ : BufTy).Contents (Elt F))
  :: StableHlo.nullary main_c_94 (constantI S_ 32 1024#32)
  :: StableHlo.unary main_c_94 main_v245 (broadcastInDim S1024 ![] bcast_S_S1024 : (⟨S_, .i32⟩ : BufTy).Contents (Elt F) → (⟨S1024, .i32⟩ : BufTy).Contents (Elt F))
  :: StableHlo.binary main_v27 main_v245 main_v246 (addi : (⟨S1024, .i32⟩ : BufTy).Contents (Elt F) → (⟨S1024, .i32⟩ : BufTy).Contents (Elt F) → (⟨S1024, .i32⟩ : BufTy).Contents (Elt F))
  :: StableHlo.ternary main_v244 main_v246 main_v27 main_v247 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_95 (constantI S_ 32 0#32)
  :: StableHlo.unary main_c_95 main_v248 (broadcastInDim S1024 ![] bcast_S_S1024 : (⟨S_, .i32⟩ : BufTy).Contents (Elt F) → (⟨S1024, .i32⟩ : BufTy).Contents (Elt F))
  :: StableHlo.binary main_v241 main_v248 main_v249 (cmpi .slt : (⟨S1024, .i32⟩ : BufTy).Contents (Elt F) → (⟨S1024, .i32⟩ : BufTy).Contents (Elt F) → (⟨S1024, .i1⟩ : BufTy).Contents (Elt F))
  :: StableHlo.nullary main_c_96 (constantI S_ 32 1024#32)
  :: StableHlo.unary main_c_96 main_v250 (broadcastInDim S1024 ![] bcast_S_S1024 : (⟨S_, .i32⟩ : BufTy).Contents (Elt F) → (⟨S1024, .i32⟩ : BufTy).Contents (Elt F))
  :: StableHlo.binary main_v241 main_v250 main_v251 (addi : (⟨S1024, .i32⟩ : BufTy).Contents (Elt F) → (⟨S1024, .i32⟩ : BufTy).Contents (Elt F) → (⟨S1024, .i32⟩ : BufTy).Contents (Elt F))
  :: StableHlo.ternary main_v249 main_v251 main_v241 main_v252 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v247 main_v253 (broadcastInDim S1024x1 ![0] bcast_S1024_S1024x1_0 : (⟨S1024, .i32⟩ : BufTy).Contents (Elt F) → (⟨S1024x1, .i32⟩ : BufTy).Contents (Elt F))
  :: StableHlo.unary main_v252 main_v254 (broadcastInDim S1024x1 ![0] bcast_S1024_S1024x1_0 : (⟨S1024, .i32⟩ : BufTy).Contents (Elt F) → (⟨S1024x1, .i32⟩ : BufTy).Contents (Elt F))
  :: StableHlo.binary main_v253 main_v254 main_v255 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v218 main_v255 main_v242 main_v256 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v220 main_v257 (Host.negf : (⟨S16x1024, .f32⟩ : BufTy).Contents (Elt F) → (⟨S16x1024, .f32⟩ : BufTy).Contents (Elt F))
  :: StableHlo.nullary main_c_97 (constantI S_ 32 4294967295#32)
  :: StableHlo.unary main_c_97 main_v258 (broadcastInDim S1024 ![] bcast_S_S1024 : (⟨S_, .i32⟩ : BufTy).Contents (Elt F) → (⟨S1024, .i32⟩ : BufTy).Contents (Elt F))
  :: StableHlo.binary main_v26_0 main_v258 main_v259 (addi : (⟨S1024, .i32⟩ : BufTy).Contents (Elt F) → (⟨S1024, .i32⟩ : BufTy).Contents (Elt F) → (⟨S1024, .i32⟩ : BufTy).Contents (Elt F))
  :: StableHlo.nullary main_c_98 (constantI S_ 32 4294967295#32)
  :: StableHlo.unary main_c_98 main_v260 (broadcastInDim S1024 ![] bcast_S_S1024 : (⟨S_, .i32⟩ : BufTy).Contents (Elt F) → (⟨S1024, .i32⟩ : BufTy).Contents (Elt F))
  :: StableHlo.binary main_v26_1 main_v260 main_v261 (addi : (⟨S1024, .i32⟩ : BufTy).Contents (Elt F) → (⟨S1024, .i32⟩ : BufTy).Contents (Elt F) → (⟨S1024, .i32⟩ : BufTy).Contents (Elt F))
  :: StableHlo.nullary main_c_99 (constantI S_ 32 0#32)
  :: StableHlo.unary main_c_99 main_v262 (broadcastInDim S1024 ![] bcast_S_S1024 : (⟨S_, .i32⟩ : BufTy).Contents (Elt F) → (⟨S1024, .i32⟩ : BufTy).Contents (Elt F))
  :: StableHlo.binary main_v259 main_v262 main_v263 (cmpi .sge : (⟨S1024, .i32⟩ : BufTy).Contents (Elt F) → (⟨S1024, .i32⟩ : BufTy).Contents (Elt F) → (⟨S1024, .i1⟩ : BufTy).Contents (Elt F))
  :: StableHlo.nullary main_c_100 (constantI S_ 32 32#32)
  :: StableHlo.unary main_c_100 main_v264 (broadcastInDim S1024 ![] bcast_S_S1024 : (⟨S_, .i32⟩ : BufTy).Contents (Elt F) → (⟨S1024, .i32⟩ : BufTy).Contents (Elt F))
  :: StableHlo.binary main_v259 main_v264 main_v265 (cmpi .slt : (⟨S1024, .i32⟩ : BufTy).Contents (Elt F) → (⟨S1024, .i32⟩ : BufTy).Contents (Elt F) → (⟨S1024, .i1⟩ : BufTy).Contents (Elt F))
  :: StableHlo.binary main_v263 main_v265 main_v266 (andi : (⟨S1024, .i1⟩ : BufTy).Contents (Elt F) → (⟨S1024, .i1⟩ : BufTy).Contents (Elt F) → (⟨S1024, .i1⟩ : BufTy).Contents (Elt F))
  :: StableHlo.nullary main_c_101 (constantI S_ 32 0#32)
  :: StableHlo.unary main_c_101 main_v267 (broadcastInDim S1024 ![] bcast_S_S1024 : (⟨S_, .i32⟩ : BufTy).Contents (Elt F) → (⟨S1024, .i32⟩ : BufTy).Contents (Elt F))
  :: StableHlo.binary main_v261 main_v267 main_v268 (cmpi .sge : (⟨S1024, .i32⟩ : BufTy).Contents (Elt F) → (⟨S1024, .i32⟩ : BufTy).Contents (Elt F) → (⟨S1024, .i1⟩ : BufTy).Contents (Elt F))
  :: StableHlo.binary main_v266 main_v268 main_v269 (andi : (⟨S1024, .i1⟩ : BufTy).Contents (Elt F) → (⟨S1024, .i1⟩ : BufTy).Contents (Elt F) → (⟨S1024, .i1⟩ : BufTy).Contents (Elt F))
  :: StableHlo.nullary main_c_102 (constantI S_ 32 32#32)
  :: StableHlo.unary main_c_102 main_v270 (broadcastInDim S1024 ![] bcast_S_S1024 : (⟨S_, .i32⟩ : BufTy).Contents (Elt F) → (⟨S1024, .i32⟩ : BufTy).Contents (Elt F))
  :: StableHlo.binary main_v261 main_v270 main_v271 (cmpi .slt : (⟨S1024, .i32⟩ : BufTy).Contents (Elt F) → (⟨S1024, .i32⟩ : BufTy).Contents (Elt F) → (⟨S1024, .i1⟩ : BufTy).Contents (Elt F))
  :: StableHlo.binary main_v269 main_v271 main_v272 (andi : (⟨S1024, .i1⟩ : BufTy).Contents (Elt F) → (⟨S1024, .i1⟩ : BufTy).Contents (Elt F) → (⟨S1024, .i1⟩ : BufTy).Contents (Elt F))
  :: StableHlo.nullary main_c_103 (constantI S_ 32 0#32)
  :: StableHlo.nullary main_c_104 (constantI S_ 32 31#32)
  :: [] )
theorem hostOps0_32_sub : (hostOps0_32 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call16), in order. -/
abbrev hostOps0_33 : List (HloOp τ sig (Elt F)) :=
  [ StableHlo.TRef.unary (.of main_c_103 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S1024, .i32⟩) (broadcastInDim S1024 ![] bcast_S_S1024),
    StableHlo.TRef.binary (.of main_call16_v1 : StableHlo.TRef sig ⟨S1024, .i32⟩) (.of main_v259 : StableHlo.TRef sig ⟨S1024, .i32⟩) (.of main_call16_v2 : StableHlo.TRef sig ⟨S1024, .i32⟩) maxsi,
    StableHlo.TRef.unary (.of main_c_104 : StableHlo.TRef sig ⟨S_, .i32⟩) (.of main_call16_v3 : StableHlo.TRef sig ⟨S_, .i32⟩) id,
    StableHlo.TRef.unary (.of main_call16_v3 : StableHlo.TRef sig ⟨S_, .i32⟩) (.of main_call16_v4 : StableHlo.TRef sig ⟨S1024, .i32⟩) (broadcastInDim S1024 ![] bcast_S_S1024),
    StableHlo.TRef.binary (.of main_call16_v4 : StableHlo.TRef sig ⟨S1024, .i32⟩) (.of main_call16_v2 : StableHlo.TRef sig ⟨S1024, .i32⟩) (.of main_v273 : StableHlo.TRef sig ⟨S1024, .i32⟩) minsi ]
theorem hostOps0_33_sub : (hostOps0_33 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_34 : List (HloOp τ sig (Elt F)) :=
  [ StableHlo.nullary main_c_105 (constantI S_ 32 32#32),
    StableHlo.unary main_c_105 main_v274 (broadcastInDim S1024 ![] bcast_S_S1024 : (⟨S_, .i32⟩ : BufTy).Contents (Elt F) → (⟨S1024, .i32⟩ : BufTy).Contents (Elt F)),
    StableHlo.binary main_v273 main_v274 main_v275 (muli : (⟨S1024, .i32⟩ : BufTy).Contents (Elt F) → (⟨S1024, .i32⟩ : BufTy).Contents (Elt F) → (⟨S1024, .i32⟩ : BufTy).Contents (Elt F)),
    StableHlo.nullary main_c_106 (constantI S_ 32 0#32),
    StableHlo.nullary main_c_107 (constantI S_ 32 31#32) ]
theorem hostOps0_34_sub : (hostOps0_34 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call17), in order. -/
abbrev hostOps0_35 : List (HloOp τ sig (Elt F)) :=
  [ StableHlo.TRef.unary (.of main_c_106 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S1024, .i32⟩) (broadcastInDim S1024 ![] bcast_S_S1024),
    StableHlo.TRef.binary (.of main_call17_v1 : StableHlo.TRef sig ⟨S1024, .i32⟩) (.of main_v261 : StableHlo.TRef sig ⟨S1024, .i32⟩) (.of main_call17_v2 : StableHlo.TRef sig ⟨S1024, .i32⟩) maxsi,
    StableHlo.TRef.unary (.of main_c_107 : StableHlo.TRef sig ⟨S_, .i32⟩) (.of main_call17_v3 : StableHlo.TRef sig ⟨S_, .i32⟩) id,
    StableHlo.TRef.unary (.of main_call17_v3 : StableHlo.TRef sig ⟨S_, .i32⟩) (.of main_call17_v4 : StableHlo.TRef sig ⟨S1024, .i32⟩) (broadcastInDim S1024 ![] bcast_S_S1024),
    StableHlo.TRef.binary (.of main_call17_v4 : StableHlo.TRef sig ⟨S1024, .i32⟩) (.of main_call17_v2 : StableHlo.TRef sig ⟨S1024, .i32⟩) (.of main_v276 : StableHlo.TRef sig ⟨S1024, .i32⟩) minsi ]
theorem hostOps0_35_sub : (hostOps0_35 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_36 : List (HloOp τ sig (Elt F)) :=
  [ StableHlo.binary main_v275 main_v276 main_v277 (addi : (⟨S1024, .i32⟩ : BufTy).Contents (Elt F) → (⟨S1024, .i32⟩ : BufTy).Contents (Elt F) → (⟨S1024, .i32⟩ : BufTy).Contents (Elt F)),
    StableHlo.nullary main_cst_108 (constant S_ .f32 0x00000000#32) ]
theorem hostOps0_36_sub : (hostOps0_36 : List (HloOp τ sig (Elt F))).Forall fun op => op.bufs ⊆ StableHlo.tcRefs τ sig :=
  ⟨StableHlo.binary_bufs_sub .., StableHlo.nullary_bufs_sub ..⟩
/-- 5 host operations of @_where_1 (main_call18), in order. -/
abbrev hostOps0_37 : List (HloOp τ sig (Elt F)) :=
  [ StableHlo.TRef.unary (.of main_cst_108 : StableHlo.TRef sig ⟨S_, .f32⟩) (.of main_call18_v0 : StableHlo.TRef sig ⟨S_, .f32⟩) id,
    StableHlo.TRef.unary (.of main_call18_v0 : StableHlo.TRef sig ⟨S_, .f32⟩) (.of main_call18_v1 : StableHlo.TRef sig ⟨S1024, .f32⟩) (broadcastInDim S1024 ![] bcast_S_S1024),
    StableHlo.TRef.unary (.of main_v272 : StableHlo.TRef sig ⟨S1024, .i1⟩) (.of main_call18_v2 : StableHlo.TRef sig ⟨S16x1024, .i1⟩) (broadcastInDim S16x1024 ![1] bcast_S1024_S16x1024_1),
    StableHlo.TRef.unary (.of main_call18_v1 : StableHlo.TRef sig ⟨S1024, .f32⟩) (.of main_call18_v3 : StableHlo.TRef sig ⟨S16x1024, .f32⟩) (broadcastInDim S16x1024 ![1] bcast_S1024_S16x1024_1),
    StableHlo.TRef.ternary (.of main_call18_v2 : StableHlo.TRef sig ⟨S16x1024, .i1⟩) (.of main_v257 : StableHlo.TRef sig ⟨S16x1024, .f32⟩) (.of main_call18_v3 : StableHlo.TRef sig ⟨S16x1024, .f32⟩) (.of main_v278 : StableHlo.TRef sig ⟨S16x1024, .f32⟩) select ]
theorem hostOps0_37_sub : (hostOps0_37 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 41 host operations of @main, in order. -/
abbrev hostOps0_38 : List (HloOp τ sig (Elt F)) :=
  ( StableHlo.nullary main_c_109 (constantI S_ 32 0#32)
  :: StableHlo.unary main_c_109 main_v279 (broadcastInDim S1024 ![] bcast_S_S1024 : (⟨S_, .i32⟩ : BufTy).Contents (Elt F) → (⟨S1024, .i32⟩ : BufTy).Contents (Elt F))
  :: StableHlo.binary main_v27 main_v279 main_v280 (cmpi .slt : (⟨S1024, .i32⟩ : BufTy).Contents (Elt F) → (⟨S1024, .i32⟩ : BufTy).Contents (Elt F) → (⟨S1024, .i1⟩ : BufTy).Contents (Elt F))
  :: StableHlo.nullary main_c_110 (constantI S_ 32 1024#32)
  :: StableHlo.unary main_c_110 main_v281 (broadcastInDim S1024 ![] bcast_S_S1024 : (⟨S_, .i32⟩ : BufTy).Contents (Elt F) → (⟨S1024, .i32⟩ : BufTy).Contents (Elt F))
  :: StableHlo.binary main_v27 main_v281 main_v282 (addi : (⟨S1024, .i32⟩ : BufTy).Contents (Elt F) → (⟨S1024, .i32⟩ : BufTy).Contents (Elt F) → (⟨S1024, .i32⟩ : BufTy).Contents (Elt F))
  :: StableHlo.ternary main_v280 main_v282 main_v27 main_v283 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_111 (constantI S_ 32 0#32)
  :: StableHlo.unary main_c_111 main_v284 (broadcastInDim S1024 ![] bcast_S_S1024 : (⟨S_, .i32⟩ : BufTy).Contents (Elt F) → (⟨S1024, .i32⟩ : BufTy).Contents (Elt F))
  :: StableHlo.binary main_v277 main_v284 main_v285 (cmpi .slt : (⟨S1024, .i32⟩ : BufTy).Contents (Elt F) → (⟨S1024, .i32⟩ : BufTy).Contents (Elt F) → (⟨S1024, .i1⟩ : BufTy).Contents (Elt F))
  :: StableHlo.nullary main_c_112 (constantI S_ 32 1024#32)
  :: StableHlo.unary main_c_112 main_v286 (broadcastInDim S1024 ![] bcast_S_S1024 : (⟨S_, .i32⟩ : BufTy).Contents (Elt F) → (⟨S1024, .i32⟩ : BufTy).Contents (Elt F))
  :: StableHlo.binary main_v277 main_v286 main_v287 (addi : (⟨S1024, .i32⟩ : BufTy).Contents (Elt F) → (⟨S1024, .i32⟩ : BufTy).Contents (Elt F) → (⟨S1024, .i32⟩ : BufTy).Contents (Elt F))
  :: StableHlo.ternary main_v285 main_v287 main_v277 main_v288 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v283 main_v289 (broadcastInDim S1024x1 ![0] bcast_S1024_S1024x1_0 : (⟨S1024, .i32⟩ : BufTy).Contents (Elt F) → (⟨S1024x1, .i32⟩ : BufTy).Contents (Elt F))
  :: StableHlo.unary main_v288 main_v290 (broadcastInDim S1024x1 ![0] bcast_S1024_S1024x1_0 : (⟨S1024, .i32⟩ : BufTy).Contents (Elt F) → (⟨S1024x1, .i32⟩ : BufTy).Contents (Elt F))
  :: StableHlo.binary main_v289 main_v290 main_v291 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v256 main_v291 main_v278 main_v292 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_c_113 (constantI S_ 32 1#32)
  :: StableHlo.unary main_c_113 main_v293 (broadcastInDim S1024 ![] bcast_S_S1024 : (⟨S_, .i32⟩ : BufTy).Contents (Elt F) → (⟨S1024, .i32⟩ : BufTy).Contents (Elt F))
  :: StableHlo.binary main_v26_0 main_v293 main_v294 (addi : (⟨S1024, .i32⟩ : BufTy).Contents (Elt F) → (⟨S1024, .i32⟩ : BufTy).Contents (Elt F) → (⟨S1024, .i32⟩ : BufTy).Contents (Elt F))
  :: StableHlo.nullary main_c_114 (constantI S_ 32 4294967295#32)
  :: StableHlo.unary main_c_114 main_v295 (broadcastInDim S1024 ![] bcast_S_S1024 : (⟨S_, .i32⟩ : BufTy).Contents (Elt F) → (⟨S1024, .i32⟩ : BufTy).Contents (Elt F))
  :: StableHlo.binary main_v26_1 main_v295 main_v296 (addi : (⟨S1024, .i32⟩ : BufTy).Contents (Elt F) → (⟨S1024, .i32⟩ : BufTy).Contents (Elt F) → (⟨S1024, .i32⟩ : BufTy).Contents (Elt F))
  :: StableHlo.nullary main_c_115 (constantI S_ 32 0#32)
  :: StableHlo.unary main_c_115 main_v297 (broadcastInDim S1024 ![] bcast_S_S1024 : (⟨S_, .i32⟩ : BufTy).Contents (Elt F) → (⟨S1024, .i32⟩ : BufTy).Contents (Elt F))
  :: StableHlo.binary main_v294 main_v297 main_v298 (cmpi .sge : (⟨S1024, .i32⟩ : BufTy).Contents (Elt F) → (⟨S1024, .i32⟩ : BufTy).Contents (Elt F) → (⟨S1024, .i1⟩ : BufTy).Contents (Elt F))
  :: StableHlo.nullary main_c_116 (constantI S_ 32 32#32)
  :: StableHlo.unary main_c_116 main_v299 (broadcastInDim S1024 ![] bcast_S_S1024 : (⟨S_, .i32⟩ : BufTy).Contents (Elt F) → (⟨S1024, .i32⟩ : BufTy).Contents (Elt F))
  :: StableHlo.binary main_v294 main_v299 main_v300 (cmpi .slt : (⟨S1024, .i32⟩ : BufTy).Contents (Elt F) → (⟨S1024, .i32⟩ : BufTy).Contents (Elt F) → (⟨S1024, .i1⟩ : BufTy).Contents (Elt F))
  :: StableHlo.binary main_v298 main_v300 main_v301 (andi : (⟨S1024, .i1⟩ : BufTy).Contents (Elt F) → (⟨S1024, .i1⟩ : BufTy).Contents (Elt F) → (⟨S1024, .i1⟩ : BufTy).Contents (Elt F))
  :: StableHlo.nullary main_c_117 (constantI S_ 32 0#32)
  :: StableHlo.unary main_c_117 main_v302 (broadcastInDim S1024 ![] bcast_S_S1024 : (⟨S_, .i32⟩ : BufTy).Contents (Elt F) → (⟨S1024, .i32⟩ : BufTy).Contents (Elt F))
  :: StableHlo.binary main_v296 main_v302 main_v303 (cmpi .sge : (⟨S1024, .i32⟩ : BufTy).Contents (Elt F) → (⟨S1024, .i32⟩ : BufTy).Contents (Elt F) → (⟨S1024, .i1⟩ : BufTy).Contents (Elt F))
  :: StableHlo.binary main_v301 main_v303 main_v304 (andi : (⟨S1024, .i1⟩ : BufTy).Contents (Elt F) → (⟨S1024, .i1⟩ : BufTy).Contents (Elt F) → (⟨S1024, .i1⟩ : BufTy).Contents (Elt F))
  :: StableHlo.nullary main_c_118 (constantI S_ 32 32#32)
  :: StableHlo.unary main_c_118 main_v305 (broadcastInDim S1024 ![] bcast_S_S1024 : (⟨S_, .i32⟩ : BufTy).Contents (Elt F) → (⟨S1024, .i32⟩ : BufTy).Contents (Elt F))
  :: StableHlo.binary main_v296 main_v305 main_v306 (cmpi .slt : (⟨S1024, .i32⟩ : BufTy).Contents (Elt F) → (⟨S1024, .i32⟩ : BufTy).Contents (Elt F) → (⟨S1024, .i1⟩ : BufTy).Contents (Elt F))
  :: StableHlo.binary main_v304 main_v306 main_v307 (andi : (⟨S1024, .i1⟩ : BufTy).Contents (Elt F) → (⟨S1024, .i1⟩ : BufTy).Contents (Elt F) → (⟨S1024, .i1⟩ : BufTy).Contents (Elt F))
  :: StableHlo.nullary main_c_119 (constantI S_ 32 0#32)
  :: StableHlo.nullary main_c_120 (constantI S_ 32 31#32)
  :: [] )
theorem hostOps0_38_sub : (hostOps0_38 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call19), in order. -/
abbrev hostOps0_39 : List (HloOp τ sig (Elt F)) :=
  [ StableHlo.TRef.unary (.of main_c_119 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S1024, .i32⟩) (broadcastInDim S1024 ![] bcast_S_S1024),
    StableHlo.TRef.binary (.of main_call19_v1 : StableHlo.TRef sig ⟨S1024, .i32⟩) (.of main_v294 : StableHlo.TRef sig ⟨S1024, .i32⟩) (.of main_call19_v2 : StableHlo.TRef sig ⟨S1024, .i32⟩) maxsi,
    StableHlo.TRef.unary (.of main_c_120 : StableHlo.TRef sig ⟨S_, .i32⟩) (.of main_call19_v3 : StableHlo.TRef sig ⟨S_, .i32⟩) id,
    StableHlo.TRef.unary (.of main_call19_v3 : StableHlo.TRef sig ⟨S_, .i32⟩) (.of main_call19_v4 : StableHlo.TRef sig ⟨S1024, .i32⟩) (broadcastInDim S1024 ![] bcast_S_S1024),
    StableHlo.TRef.binary (.of main_call19_v4 : StableHlo.TRef sig ⟨S1024, .i32⟩) (.of main_call19_v2 : StableHlo.TRef sig ⟨S1024, .i32⟩) (.of main_v308 : StableHlo.TRef sig ⟨S1024, .i32⟩) minsi ]
theorem hostOps0_39_sub : (hostOps0_39 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_40 : List (HloOp τ sig (Elt F)) :=
  [ StableHlo.nullary main_c_121 (constantI S_ 32 32#32),
    StableHlo.unary main_c_121 main_v309 (broadcastInDim S1024 ![] bcast_S_S1024 : (⟨S_, .i32⟩ : BufTy).Contents (Elt F) → (⟨S1024, .i32⟩ : BufTy).Contents (Elt F)),
    StableHlo.binary main_v308 main_v309 main_v310 (muli : (⟨S1024, .i32⟩ : BufTy).Contents (Elt F) → (⟨S1024, .i32⟩ : BufTy).Contents (Elt F) → (⟨S1024, .i32⟩ : BufTy).Contents (Elt F)),
    StableHlo.nullary main_c_122 (constantI S_ 32 0#32),
    StableHlo.nullary main_c_123 (constantI S_ 32 31#32) ]
theorem hostOps0_40_sub : (hostOps0_40 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call20), in order. -/
abbrev hostOps0_41 : List (HloOp τ sig (Elt F)) :=
  [ StableHlo.TRef.unary (.of main_c_122 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S1024, .i32⟩) (broadcastInDim S1024 ![] bcast_S_S1024),
    StableHlo.TRef.binary (.of main_call20_v1 : StableHlo.TRef sig ⟨S1024, .i32⟩) (.of main_v296 : StableHlo.TRef sig ⟨S1024, .i32⟩) (.of main_call20_v2 : StableHlo.TRef sig ⟨S1024, .i32⟩) maxsi,
    StableHlo.TRef.unary (.of main_c_123 : StableHlo.TRef sig ⟨S_, .i32⟩) (.of main_call20_v3 : StableHlo.TRef sig ⟨S_, .i32⟩) id,
    StableHlo.TRef.unary (.of main_call20_v3 : StableHlo.TRef sig ⟨S_, .i32⟩) (.of main_call20_v4 : StableHlo.TRef sig ⟨S1024, .i32⟩) (broadcastInDim S1024 ![] bcast_S_S1024),
    StableHlo.TRef.binary (.of main_call20_v4 : StableHlo.TRef sig ⟨S1024, .i32⟩) (.of main_call20_v2 : StableHlo.TRef sig ⟨S1024, .i32⟩) (.of main_v311 : StableHlo.TRef sig ⟨S1024, .i32⟩) minsi ]
theorem hostOps0_41_sub : (hostOps0_41 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_42 : List (HloOp τ sig (Elt F)) :=
  [ StableHlo.binary main_v310 main_v311 main_v312 (addi : (⟨S1024, .i32⟩ : BufTy).Contents (Elt F) → (⟨S1024, .i32⟩ : BufTy).Contents (Elt F) → (⟨S1024, .i32⟩ : BufTy).Contents (Elt F)),
    StableHlo.nullary main_cst_124 (constant S_ .f32 0x00000000#32) ]
theorem hostOps0_42_sub : (hostOps0_42 : List (HloOp τ sig (Elt F))).Forall fun op => op.bufs ⊆ StableHlo.tcRefs τ sig :=
  ⟨StableHlo.binary_bufs_sub .., StableHlo.nullary_bufs_sub ..⟩
/-- 5 host operations of @_where_1 (main_call21), in order. -/
abbrev hostOps0_43 : List (HloOp τ sig (Elt F)) :=
  [ StableHlo.TRef.unary (.of main_cst_124 : StableHlo.TRef sig ⟨S_, .f32⟩) (.of main_call21_v0 : StableHlo.TRef sig ⟨S_, .f32⟩) id,
    StableHlo.TRef.unary (.of main_call21_v0 : StableHlo.TRef sig ⟨S_, .f32⟩) (.of main_call21_v1 : StableHlo.TRef sig ⟨S1024, .f32⟩) (broadcastInDim S1024 ![] bcast_S_S1024),
    StableHlo.TRef.unary (.of main_v307 : StableHlo.TRef sig ⟨S1024, .i1⟩) (.of main_call21_v2 : StableHlo.TRef sig ⟨S16x1024, .i1⟩) (broadcastInDim S16x1024 ![1] bcast_S1024_S16x1024_1),
    StableHlo.TRef.unary (.of main_call21_v1 : StableHlo.TRef sig ⟨S1024, .f32⟩) (.of main_call21_v3 : StableHlo.TRef sig ⟨S16x1024, .f32⟩) (broadcastInDim S16x1024 ![1] bcast_S1024_S16x1024_1),
    StableHlo.TRef.ternary (.of main_call21_v2 : StableHlo.TRef sig ⟨S16x1024, .i1⟩) (.of main_v220 : StableHlo.TRef sig ⟨S16x1024, .f32⟩) (.of main_call21_v3 : StableHlo.TRef sig ⟨S16x1024, .f32⟩) (.of main_v313 : StableHlo.TRef sig ⟨S16x1024, .f32⟩) select ]
theorem hostOps0_43_sub : (hostOps0_43 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 41 host operations of @main, in order. -/
abbrev hostOps0_44 : List (HloOp τ sig (Elt F)) :=
  ( StableHlo.nullary main_c_125 (constantI S_ 32 0#32)
  :: StableHlo.unary main_c_125 main_v314 (broadcastInDim S1024 ![] bcast_S_S1024 : (⟨S_, .i32⟩ : BufTy).Contents (Elt F) → (⟨S1024, .i32⟩ : BufTy).Contents (Elt F))
  :: StableHlo.binary main_v27 main_v314 main_v315 (cmpi .slt : (⟨S1024, .i32⟩ : BufTy).Contents (Elt F) → (⟨S1024, .i32⟩ : BufTy).Contents (Elt F) → (⟨S1024, .i1⟩ : BufTy).Contents (Elt F))
  :: StableHlo.nullary main_c_126 (constantI S_ 32 1024#32)
  :: StableHlo.unary main_c_126 main_v316 (broadcastInDim S1024 ![] bcast_S_S1024 : (⟨S_, .i32⟩ : BufTy).Contents (Elt F) → (⟨S1024, .i32⟩ : BufTy).Contents (Elt F))
  :: StableHlo.binary main_v27 main_v316 main_v317 (addi : (⟨S1024, .i32⟩ : BufTy).Contents (Elt F) → (⟨S1024, .i32⟩ : BufTy).Contents (Elt F) → (⟨S1024, .i32⟩ : BufTy).Contents (Elt F))
  :: StableHlo.ternary main_v315 main_v317 main_v27 main_v318 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_127 (constantI S_ 32 0#32)
  :: StableHlo.unary main_c_127 main_v319 (broadcastInDim S1024 ![] bcast_S_S1024 : (⟨S_, .i32⟩ : BufTy).Contents (Elt F) → (⟨S1024, .i32⟩ : BufTy).Contents (Elt F))
  :: StableHlo.binary main_v312 main_v319 main_v320 (cmpi .slt : (⟨S1024, .i32⟩ : BufTy).Contents (Elt F) → (⟨S1024, .i32⟩ : BufTy).Contents (Elt F) → (⟨S1024, .i1⟩ : BufTy).Contents (Elt F))
  :: StableHlo.nullary main_c_128 (constantI S_ 32 1024#32)
  :: StableHlo.unary main_c_128 main_v321 (broadcastInDim S1024 ![] bcast_S_S1024 : (⟨S_, .i32⟩ : BufTy).Contents (Elt F) → (⟨S1024, .i32⟩ : BufTy).Contents (Elt F))
  :: StableHlo.binary main_v312 main_v321 main_v322 (addi : (⟨S1024, .i32⟩ : BufTy).Contents (Elt F) → (⟨S1024, .i32⟩ : BufTy).Contents (Elt F) → (⟨S1024, .i32⟩ : BufTy).Contents (Elt F))
  :: StableHlo.ternary main_v320 main_v322 main_v312 main_v323 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v318 main_v324 (broadcastInDim S1024x1 ![0] bcast_S1024_S1024x1_0 : (⟨S1024, .i32⟩ : BufTy).Contents (Elt F) → (⟨S1024x1, .i32⟩ : BufTy).Contents (Elt F))
  :: StableHlo.unary main_v323 main_v325 (broadcastInDim S1024x1 ![0] bcast_S1024_S1024x1_0 : (⟨S1024, .i32⟩ : BufTy).Contents (Elt F) → (⟨S1024x1, .i32⟩ : BufTy).Contents (Elt F))
  :: StableHlo.binary main_v324 main_v325 main_v326 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v292 main_v326 main_v313 main_v327 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_c_129 (constantI S_ 32 4294967295#32)
  :: StableHlo.unary main_c_129 main_v328 (broadcastInDim S1024 ![] bcast_S_S1024 : (⟨S_, .i32⟩ : BufTy).Contents (Elt F) → (⟨S1024, .i32⟩ : BufTy).Contents (Elt F))
  :: StableHlo.binary main_v26_0 main_v328 main_v329 (addi : (⟨S1024, .i32⟩ : BufTy).Contents (Elt F) → (⟨S1024, .i32⟩ : BufTy).Contents (Elt F) → (⟨S1024, .i32⟩ : BufTy).Contents (Elt F))
  :: StableHlo.nullary main_c_130 (constantI S_ 32 1#32)
  :: StableHlo.unary main_c_130 main_v330 (broadcastInDim S1024 ![] bcast_S_S1024 : (⟨S_, .i32⟩ : BufTy).Contents (Elt F) → (⟨S1024, .i32⟩ : BufTy).Contents (Elt F))
  :: StableHlo.binary main_v26_1 main_v330 main_v331 (addi : (⟨S1024, .i32⟩ : BufTy).Contents (Elt F) → (⟨S1024, .i32⟩ : BufTy).Contents (Elt F) → (⟨S1024, .i32⟩ : BufTy).Contents (Elt F))
  :: StableHlo.nullary main_c_131 (constantI S_ 32 0#32)
  :: StableHlo.unary main_c_131 main_v332 (broadcastInDim S1024 ![] bcast_S_S1024 : (⟨S_, .i32⟩ : BufTy).Contents (Elt F) → (⟨S1024, .i32⟩ : BufTy).Contents (Elt F))
  :: StableHlo.binary main_v329 main_v332 main_v333 (cmpi .sge : (⟨S1024, .i32⟩ : BufTy).Contents (Elt F) → (⟨S1024, .i32⟩ : BufTy).Contents (Elt F) → (⟨S1024, .i1⟩ : BufTy).Contents (Elt F))
  :: StableHlo.nullary main_c_132 (constantI S_ 32 32#32)
  :: StableHlo.unary main_c_132 main_v334 (broadcastInDim S1024 ![] bcast_S_S1024 : (⟨S_, .i32⟩ : BufTy).Contents (Elt F) → (⟨S1024, .i32⟩ : BufTy).Contents (Elt F))
  :: StableHlo.binary main_v329 main_v334 main_v335 (cmpi .slt : (⟨S1024, .i32⟩ : BufTy).Contents (Elt F) → (⟨S1024, .i32⟩ : BufTy).Contents (Elt F) → (⟨S1024, .i1⟩ : BufTy).Contents (Elt F))
  :: StableHlo.binary main_v333 main_v335 main_v336 (andi : (⟨S1024, .i1⟩ : BufTy).Contents (Elt F) → (⟨S1024, .i1⟩ : BufTy).Contents (Elt F) → (⟨S1024, .i1⟩ : BufTy).Contents (Elt F))
  :: StableHlo.nullary main_c_133 (constantI S_ 32 0#32)
  :: StableHlo.unary main_c_133 main_v337 (broadcastInDim S1024 ![] bcast_S_S1024 : (⟨S_, .i32⟩ : BufTy).Contents (Elt F) → (⟨S1024, .i32⟩ : BufTy).Contents (Elt F))
  :: StableHlo.binary main_v331 main_v337 main_v338 (cmpi .sge : (⟨S1024, .i32⟩ : BufTy).Contents (Elt F) → (⟨S1024, .i32⟩ : BufTy).Contents (Elt F) → (⟨S1024, .i1⟩ : BufTy).Contents (Elt F))
  :: StableHlo.binary main_v336 main_v338 main_v339 (andi : (⟨S1024, .i1⟩ : BufTy).Contents (Elt F) → (⟨S1024, .i1⟩ : BufTy).Contents (Elt F) → (⟨S1024, .i1⟩ : BufTy).Contents (Elt F))
  :: StableHlo.nullary main_c_134 (constantI S_ 32 32#32)
  :: StableHlo.unary main_c_134 main_v340 (broadcastInDim S1024 ![] bcast_S_S1024 : (⟨S_, .i32⟩ : BufTy).Contents (Elt F) → (⟨S1024, .i32⟩ : BufTy).Contents (Elt F))
  :: StableHlo.binary main_v331 main_v340 main_v341 (cmpi .slt : (⟨S1024, .i32⟩ : BufTy).Contents (Elt F) → (⟨S1024, .i32⟩ : BufTy).Contents (Elt F) → (⟨S1024, .i1⟩ : BufTy).Contents (Elt F))
  :: StableHlo.binary main_v339 main_v341 main_v342 (andi : (⟨S1024, .i1⟩ : BufTy).Contents (Elt F) → (⟨S1024, .i1⟩ : BufTy).Contents (Elt F) → (⟨S1024, .i1⟩ : BufTy).Contents (Elt F))
  :: StableHlo.nullary main_c_135 (constantI S_ 32 0#32)
  :: StableHlo.nullary main_c_136 (constantI S_ 32 31#32)
  :: [] )
theorem hostOps0_44_sub : (hostOps0_44 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call22), in order. -/
abbrev hostOps0_45 : List (HloOp τ sig (Elt F)) :=
  [ StableHlo.TRef.unary (.of main_c_135 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S1024, .i32⟩) (broadcastInDim S1024 ![] bcast_S_S1024),
    StableHlo.TRef.binary (.of main_call22_v1 : StableHlo.TRef sig ⟨S1024, .i32⟩) (.of main_v329 : StableHlo.TRef sig ⟨S1024, .i32⟩) (.of main_call22_v2 : StableHlo.TRef sig ⟨S1024, .i32⟩) maxsi,
    StableHlo.TRef.unary (.of main_c_136 : StableHlo.TRef sig ⟨S_, .i32⟩) (.of main_call22_v3 : StableHlo.TRef sig ⟨S_, .i32⟩) id,
    StableHlo.TRef.unary (.of main_call22_v3 : StableHlo.TRef sig ⟨S_, .i32⟩) (.of main_call22_v4 : StableHlo.TRef sig ⟨S1024, .i32⟩) (broadcastInDim S1024 ![] bcast_S_S1024),
    StableHlo.TRef.binary (.of main_call22_v4 : StableHlo.TRef sig ⟨S1024, .i32⟩) (.of main_call22_v2 : StableHlo.TRef sig ⟨S1024, .i32⟩) (.of main_v343 : StableHlo.TRef sig ⟨S1024, .i32⟩) minsi ]
theorem hostOps0_45_sub : (hostOps0_45 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, in order. -/
abbrev hostOps0_46 : List (HloOp τ sig (Elt F)) :=
  [ StableHlo.nullary main_c_137 (constantI S_ 32 32#32),
    StableHlo.unary main_c_137 main_v344 (broadcastInDim S1024 ![] bcast_S_S1024 : (⟨S_, .i32⟩ : BufTy).Contents (Elt F) → (⟨S1024, .i32⟩ : BufTy).Contents (Elt F)),
    StableHlo.binary main_v343 main_v344 main_v345 (muli : (⟨S1024, .i32⟩ : BufTy).Contents (Elt F) → (⟨S1024, .i32⟩ : BufTy).Contents (Elt F) → (⟨S1024, .i32⟩ : BufTy).Contents (Elt F)),
    StableHlo.nullary main_c_138 (constantI S_ 32 0#32),
    StableHlo.nullary main_c_139 (constantI S_ 32 31#32) ]
theorem hostOps0_46_sub : (hostOps0_46 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call23), in order. -/
abbrev hostOps0_47 : List (HloOp τ sig (Elt F)) :=
  [ StableHlo.TRef.unary (.of main_c_138 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S1024, .i32⟩) (broadcastInDim S1024 ![] bcast_S_S1024),
    StableHlo.TRef.binary (.of main_call23_v1 : StableHlo.TRef sig ⟨S1024, .i32⟩) (.of main_v331 : StableHlo.TRef sig ⟨S1024, .i32⟩) (.of main_call23_v2 : StableHlo.TRef sig ⟨S1024, .i32⟩) maxsi,
    StableHlo.TRef.unary (.of main_c_139 : StableHlo.TRef sig ⟨S_, .i32⟩) (.of main_call23_v3 : StableHlo.TRef sig ⟨S_, .i32⟩) id,
    StableHlo.TRef.unary (.of main_call23_v3 : StableHlo.TRef sig ⟨S_, .i32⟩) (.of main_call23_v4 : StableHlo.TRef sig ⟨S1024, .i32⟩) (broadcastInDim S1024 ![] bcast_S_S1024),
    StableHlo.TRef.binary (.of main_call23_v4 : StableHlo.TRef sig ⟨S1024, .i32⟩) (.of main_call23_v2 : StableHlo.TRef sig ⟨S1024, .i32⟩) (.of main_v346 : StableHlo.TRef sig ⟨S1024, .i32⟩) minsi ]
theorem hostOps0_47_sub : (hostOps0_47 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, in order. -/
abbrev hostOps0_48 : List (HloOp τ sig (Elt F)) :=
  [ StableHlo.binary main_v345 main_v346 main_v347 (addi : (⟨S1024, .i32⟩ : BufTy).Contents (Elt F) → (⟨S1024, .i32⟩ : BufTy).Contents (Elt F) → (⟨S1024, .i32⟩ : BufTy).Contents (Elt F)),
    StableHlo.nullary main_cst_140 (constant S_ .f32 0x00000000#32) ]
theorem hostOps0_48_sub : (hostOps0_48 : List (HloOp τ sig (Elt F))).Forall fun op => op.bufs ⊆ StableHlo.tcRefs τ sig :=
  ⟨StableHlo.binary_bufs_sub .., StableHlo.nullary_bufs_sub ..⟩
/-- 5 host operations of @_where_1 (main_call24), in order. -/
abbrev hostOps0_49 : List (HloOp τ sig (Elt F)) :=
  [ StableHlo.TRef.unary (.of main_cst_140 : StableHlo.TRef sig ⟨S_, .f32⟩) (.of main_call24_v0 : StableHlo.TRef sig ⟨S_, .f32⟩) id,
    StableHlo.TRef.unary (.of main_call24_v0 : StableHlo.TRef sig ⟨S_, .f32⟩) (.of main_call24_v1 : StableHlo.TRef sig ⟨S1024, .f32⟩) (broadcastInDim S1024 ![] bcast_S_S1024),
    StableHlo.TRef.unary (.of main_v342 : StableHlo.TRef sig ⟨S1024, .i1⟩) (.of main_call24_v2 : StableHlo.TRef sig ⟨S16x1024, .i1⟩) (broadcastInDim S16x1024 ![1] bcast_S1024_S16x1024_1),
    StableHlo.TRef.unary (.of main_call24_v1 : StableHlo.TRef sig ⟨S1024, .f32⟩) (.of main_call24_v3 : StableHlo.TRef sig ⟨S16x1024, .f32⟩) (broadcastInDim S16x1024 ![1] bcast_S1024_S16x1024_1),
    StableHlo.TRef.ternary (.of main_call24_v2 : StableHlo.TRef sig ⟨S16x1024, .i1⟩) (.of main_v220 : StableHlo.TRef sig ⟨S16x1024, .f32⟩) (.of main_call24_v3 : StableHlo.TRef sig ⟨S16x1024, .f32⟩) (.of main_v348 : StableHlo.TRef sig ⟨S16x1024, .f32⟩) select ]
theorem hostOps0_49_sub : (hostOps0_49 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
set_option maxHeartbeats 40000000 in
/-- The reference's last stretch: everything after the last called function, to the result. -/
abbrev refOps50 : List (HloOp τ sig (Elt F)) :=
  ( StableHlo.nullary main_c_141 (constantI S_ 32 0#32)
  :: StableHlo.unary main_c_141 main_v349 (broadcastInDim S1024 ![] bcast_S_S1024 : (⟨S_, .i32⟩ : BufTy).Contents (Elt F) → (⟨S1024, .i32⟩ : BufTy).Contents (Elt F))
  :: StableHlo.binary main_v27 main_v349 main_v350 (cmpi .slt : (⟨S1024, .i32⟩ : BufTy).Contents (Elt F) → (⟨S1024, .i32⟩ : BufTy).Contents (Elt F) → (⟨S1024, .i1⟩ : BufTy).Contents (Elt F))
  :: StableHlo.nullary main_c_142 (constantI S_ 32 1024#32)
  :: StableHlo.unary main_c_142 main_v351 (broadcastInDim S1024 ![] bcast_S_S1024 : (⟨S_, .i32⟩ : BufTy).Contents (Elt F) → (⟨S1024, .i32⟩ : BufTy).Contents (Elt F))
  :: StableHlo.binary main_v27 main_v351 main_v352 (addi : (⟨S1024, .i32⟩ : BufTy).Contents (Elt F) → (⟨S1024, .i32⟩ : BufTy).Contents (Elt F) → (⟨S1024, .i32⟩ : BufTy).Contents (Elt F))
  :: StableHlo.ternary main_v350 main_v352 main_v27 main_v353 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_143 (constantI S_ 32 0#32)
  :: StableHlo.unary main_c_143 main_v354 (broadcastInDim S1024 ![] bcast_S_S1024 : (⟨S_, .i32⟩ : BufTy).Contents (Elt F) → (⟨S1024, .i32⟩ : BufTy).Contents (Elt F))
  :: StableHlo.binary main_v347 main_v354 main_v355 (cmpi .slt : (⟨S1024, .i32⟩ : BufTy).Contents (Elt F) → (⟨S1024, .i32⟩ : BufTy).Contents (Elt F) → (⟨S1024, .i1⟩ : BufTy).Contents (Elt F))
  :: StableHlo.nullary main_c_144 (constantI S_ 32 1024#32)
  :: StableHlo.unary main_c_144 main_v356 (broadcastInDim S1024 ![] bcast_S_S1024 : (⟨S_, .i32⟩ : BufTy).Contents (Elt F) → (⟨S1024, .i32⟩ : BufTy).Contents (Elt F))
  :: StableHlo.binary main_v347 main_v356 main_v357 (addi : (⟨S1024, .i32⟩ : BufTy).Contents (Elt F) → (⟨S1024, .i32⟩ : BufTy).Contents (Elt F) → (⟨S1024, .i32⟩ : BufTy).Contents (Elt F))
  :: StableHlo.ternary main_v355 main_v357 main_v347 main_v358 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v353 main_v359 (broadcastInDim S1024x1 ![0] bcast_S1024_S1024x1_0 : (⟨S1024, .i32⟩ : BufTy).Contents (Elt F) → (⟨S1024x1, .i32⟩ : BufTy).Contents (Elt F))
  :: StableHlo.unary main_v358 main_v360 (broadcastInDim S1024x1 ![0] bcast_S1024_S1024x1_0 : (⟨S1024, .i32⟩ : BufTy).Contents (Elt F) → (⟨S1024x1, .i32⟩ : BufTy).Contents (Elt F))
  :: StableHlo.binary main_v359 main_v360 main_v361 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v327 main_v361 main_v348 main_v362 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.reshape main_v362 main_v363 rfl shapeCasts_S16x1024x1024_S2x8x1024x1024
  :: StableHlo.nullary main_v364 (iotaInDim S1024x1024 32 0)
  :: StableHlo.nullary main_v365 (iotaInDim S1024x1024 32 1)
  :: StableHlo.nullary main_c_145 (constantI S_ 32 0#32)
  :: StableHlo.unary main_c_145 main_v366 (broadcastInDim S1024x1024 ![] bcast_S_S1024x1024 : (⟨S_, .i32⟩ : BufTy).Contents (Elt F) → (⟨S1024x1024, .i32⟩ : BufTy).Contents (Elt F))
  :: StableHlo.binary main_v364 main_v366 main_v367 (addi : (⟨S1024x1024, .i32⟩ : BufTy).Contents (Elt F) → (⟨S1024x1024, .i32⟩ : BufTy).Contents (Elt F) → (⟨S1024x1024, .i32⟩ : BufTy).Contents (Elt F))
  :: StableHlo.binary main_v367 main_v365 main_v368 (cmpi .eq : (⟨S1024x1024, .i32⟩ : BufTy).Contents (Elt F) → (⟨S1024x1024, .i32⟩ : BufTy).Contents (Elt F) → (⟨S1024x1024, .i1⟩ : BufTy).Contents (Elt F))
  :: StableHlo.unary main_v368 main_v369 (uitofp .f32 : (⟨S1024x1024, .i1⟩ : BufTy).Contents (Elt F) → (⟨S1024x1024, .f32⟩ : BufTy).Contents (Elt F))
  :: StableHlo.nullary main_cst_146 (constant S_ .f32 0x3F800000#32)
  :: StableHlo.unary main_cst_146 main_v370 (broadcastInDim S2x8x1024x1024 ![] bcast_S_S2x8x1024x1024 : (⟨S_, .f32⟩ : BufTy).Contents (Elt F) → (⟨S2x8x1024x1024, .f32⟩ : BufTy).Contents (Elt F))
  :: StableHlo.binary main_v370 main_v363 main_v371 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v369 main_v372 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v372 main_v373 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v373 main_v371 main_v374 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v18 main_v18 main_v375 (mulf : (⟨S2x8x1024, .f32⟩ : BufTy).Contents (Elt F) → (⟨S2x8x1024, .f32⟩ : BufTy).Contents (Elt F) → (⟨S2x8x1024, .f32⟩ : BufTy).Contents (Elt F))
  :: StableHlo.nullary main_cst_147 (constant S_ .f32 0x3F800000#32)
  :: StableHlo.unary main_cst_147 main_v376 (broadcastInDim S2x8x1024 ![] bcast_S_S2x8x1024 : (⟨S_, .f32⟩ : BufTy).Contents (Elt F) → (⟨S2x8x1024, .f32⟩ : BufTy).Contents (Elt F))
  :: StableHlo.binary main_v376 main_v375 main_v377 (Host.divf : (⟨S2x8x1024, .f32⟩ : BufTy).Contents (Elt F) → (⟨S2x8x1024, .f32⟩ : BufTy).Contents (Elt F) → (⟨S2x8x1024, .f32⟩ : BufTy).Contents (Elt F))
  :: StableHlo.unary main_v377 main_v378 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v378 main_v379 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.binary main_v379 main_v374 main_v380 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v374 main_v380 main_v381 ((fun l r => Host.dotGeneral dot_S2x8x1024x1024_S2x8x1024x1024_S2x8x1024x1024_2_2_3_3_01_01 none l r) : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v377 main_v382 ((extractStridedSlice S2x7x1024 ![0, 1, 0] · slices_S2x8x1024_S2x7x1024_0_1_0) : (⟨S2x8x1024, .f32⟩ : BufTy).Contents (Elt F) → (⟨S2x7x1024, .f32⟩ : BufTy).Contents (Elt F))
  :: StableHlo.unary main_v377 main_v383 ((extractStridedSlice S2x1x1024 ![0, 0, 0] · slices_S2x8x1024_S2x1x1024_0_0_0) : (⟨S2x8x1024, .f32⟩ : BufTy).Contents (Elt F) → (⟨S2x1x1024, .f32⟩ : BufTy).Contents (Elt F))
  :: StableHlo.nullary main_cst_148 (constant S_ .f32 0x00000000#32)
  :: StableHlo.unary main_cst_148 main_v384 (broadcastInDim S2x1x1024 ![] bcast_S_S2x1x1024 : (⟨S_, .f32⟩ : BufTy).Contents (Elt F) → (⟨S2x1x1024, .f32⟩ : BufTy).Contents (Elt F))
  :: StableHlo.binary main_v382 main_v384 main_v385 ((fun a b => concatenate S2x8x1024 1 [⟨S2x7x1024, a⟩, ⟨S2x1x1024, b⟩] concatenates_S2x7x1024_S2x1x1024_S2x8x1024_d1) : (⟨S2x7x1024, .f32⟩ : BufTy).Contents (Elt F) → (⟨S2x1x1024, .f32⟩ : BufTy).Contents (Elt F) → (⟨S2x8x1024, .f32⟩ : BufTy).Contents (Elt F))
  :: StableHlo.unary main_v385 main_v386 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v369 main_v387 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v386 main_v388 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.unary main_v387 main_v389 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v388 main_v389 main_v390 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v381 main_v390 main_v391 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.nullary main_cst_149 (constant S_ .f32 0x00000000#32)
  :: StableHlo.unary main_cst_149 main_v392 (broadcastInDim S2x1x1024x1024 ![] bcast_S_S2x1x1024x1024 : (⟨S_, .f32⟩ : BufTy).Contents (Elt F) → (⟨S2x1x1024x1024, .f32⟩ : BufTy).Contents (Elt F))
  :: StableHlo.unary main_v380 main_v393 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v393 main_v394 ((transpose S2x7x1024x1024 [0, 1, 3, 2] · transposes_S2x7x1024x1024_S2x7x1024x1024_0_1_3_2) : (⟨S2x7x1024x1024, .f32⟩ : BufTy).Contents (Elt F) → (⟨S2x7x1024x1024, .f32⟩ : BufTy).Contents (Elt F))
  :: StableHlo.unary main_v394 main_v395 (Host.negf : (⟨S2x7x1024x1024, .f32⟩ : BufTy).Contents (Elt F) → (⟨S2x7x1024x1024, .f32⟩ : BufTy).Contents (Elt F))
  :: StableHlo.binary main_v392 main_v395 main_v396 ((fun a b => concatenate S2x8x1024x1024 1 [⟨S2x1x1024x1024, a⟩, ⟨S2x7x1024x1024, b⟩] concatenates_S2x1x1024x1024_S2x7x1024x1024_S2x8x1024x1024_d1) : (⟨S2x1x1024x1024, .f32⟩ : BufTy).Contents (Elt F) → (⟨S2x7x1024x1024, .f32⟩ : BufTy).Contents (Elt F) → (⟨S2x8x1024x1024, .f32⟩ : BufTy).Contents (Elt F))
  :: StableHlo.unary main_v380 main_v397 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v397 main_v398 (Host.negf : (⟨S2x7x1024x1024, .f32⟩ : BufTy).Contents (Elt F) → (⟨S2x7x1024x1024, .f32⟩ : BufTy).Contents (Elt F))
  :: StableHlo.binary main_v398 main_v392 main_v399 ((fun a b => concatenate S2x8x1024x1024 1 [⟨S2x7x1024x1024, a⟩, ⟨S2x1x1024x1024, b⟩] concatenates_S2x7x1024x1024_S2x1x1024x1024_S2x8x1024x1024_d1) : (⟨S2x7x1024x1024, .f32⟩ : BufTy).Contents (Elt F) → (⟨S2x1x1024x1024, .f32⟩ : BufTy).Contents (Elt F) → (⟨S2x8x1024x1024, .f32⟩ : BufTy).Contents (Elt F))
  :: StableHlo.unary main_v391 main_v400 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v396 main_v401 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v399 main_v402 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.nary ![main_v400, main_v401, main_v402] main_v403 (fun u => concatenate S2x3x8x1024x1024 1 [⟨S2x1x8x1024x1024, u 0⟩, ⟨S2x1x8x1024x1024, u 1⟩, ⟨S2x1x8x1024x1024, u 2⟩] concatenates_S2x1x8x1024x1024_S2x1x8x1024x1024_S2x1x8x1024x1024_S2x3x8x1024x1024_d1)
  :: [] )
theorem refOps50_sub : (refOps50 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.reshape_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.nary_bufs_sub ..⟩

/-! ## By windows -/

/-- 27 host operations of @main, window 0 (statements 1 … 60), in order. -/
abbrev main_part0_ops0 : List (HloOp τ sig (Elt F)) :=
  [ StableHlo.reshape main_arg0 main_v0 rfl shapeCasts_S2x1x1024x8_S2x1024x8,
    StableHlo.unary main_v0 main_v1 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg1 main_v2 ((extractStridedSlice S2x1x1024x8 ![0, 0, 0, 0] · slices_S2x2x1024x8_S2x1x1024x8_0_0_0_0) : (⟨S2x2x1024x8, .f32⟩ : BufTy).Contents (Elt F) → (⟨S2x1x1024x8, .f32⟩ : BufTy).Contents (Elt F)),
    StableHlo.reshape main_v2 main_v3 rfl shapeCasts_S2x1x1024x8_S2x1024x8,
    StableHlo.unary main_v3 main_v4 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg1 main_v5 ((extractStridedSlice S2x1x1024x8 ![0, 1, 0, 0] · slices_S2x2x1024x8_S2x1x1024x8_0_1_0_0) : (⟨S2x2x1024x8, .f32⟩ : BufTy).Contents (Elt F) → (⟨S2x1x1024x8, .f32⟩ : BufTy).Contents (Elt F)),
    StableHlo.reshape main_v5 main_v6 rfl shapeCasts_S2x1x1024x8_S2x1024x8,
    StableHlo.unary main_v6 main_v7 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg2 main_v8 ((extractStridedSlice S2x1x1x1024x8 ![0, 0, 0, 0, 0] · slices_S2x2x2x1024x8_S2x1x1x1024x8_0_0_0_0_0) : (⟨S2x2x2x1024x8, .f32⟩ : BufTy).Contents (Elt F) → (⟨S2x1x1x1024x8, .f32⟩ : BufTy).Contents (Elt F)),
    StableHlo.reshape main_v8 main_v9 rfl shapeCasts_S2x1x1x1024x8_S2x1024x8,
    StableHlo.unary main_v9 main_v10 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg2 main_v11 ((extractStridedSlice S2x1x1x1024x8 ![0, 0, 1, 0, 0] · slices_S2x2x2x1024x8_S2x1x1x1024x8_0_0_1_0_0) : (⟨S2x2x2x1024x8, .f32⟩ : BufTy).Contents (Elt F) → (⟨S2x1x1x1024x8, .f32⟩ : BufTy).Contents (Elt F)),
    StableHlo.reshape main_v11 main_v12 rfl shapeCasts_S2x1x1x1024x8_S2x1024x8,
    StableHlo.unary main_v12 main_v13 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.unary main_arg2 main_v14 ((extractStridedSlice S2x1x1x1024x8 ![0, 1, 1, 0, 0] · slices_S2x2x2x1024x8_S2x1x1x1024x8_0_1_1_0_0) : (⟨S2x2x2x1024x8, .f32⟩ : BufTy).Contents (Elt F) → (⟨S2x1x1x1024x8, .f32⟩ : BufTy).Contents (Elt F)),
    StableHlo.reshape main_v14 main_v15 rfl shapeCasts_S2x1x1x1024x8_S2x1024x8,
    StableHlo.unary main_v15 main_v16 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.reshape main_arg3 main_v17 rfl shapeCasts_S2x1x1024x8_S2x1024x8,
    StableHlo.unary main_v17 main_v18 ((transpose S2x8x1024 [0, 2, 1] · transposes_S2x1024x8_S2x8x1024_0_2_1) : (⟨S2x1024x8, .f32⟩ : BufTy).Contents (Elt F) → (⟨S2x8x1024, .f32⟩ : BufTy).Contents (Elt F)),
    StableHlo.reshape main_v1 main_v19 rfl shapeCasts_S2x8x1024_S16x1024,
    StableHlo.reshape main_v4 main_v20 rfl shapeCasts_S2x8x1024_S16x1024,
    StableHlo.reshape main_v7 main_v21 rfl shapeCasts_S2x8x1024_S16x1024,
    StableHlo.reshape main_v10 main_v22 rfl shapeCasts_S2x8x1024_S16x1024,
    StableHlo.reshape main_v13 main_v23 rfl shapeCasts_S2x8x1024_S16x1024,
    StableHlo.reshape main_v16 main_v24 rfl shapeCasts_S2x8x1024_S16x1024,
    StableHlo.nullary main_v25 (iotaInDim S1024 32 0),
    StableHlo.nullary main_c (constantI S_ 32 32#32) ]
theorem main_part0_ops0_sub : (main_part0_ops0 : List (HloOp τ sig (Elt F))).Forall fun op => op.bufs ⊆ StableHlo.tcRefs τ sig :=
  ⟨StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.reshape_bufs_sub .., StableHlo.reshape_bufs_sub .., StableHlo.reshape_bufs_sub .., StableHlo.reshape_bufs_sub .., StableHlo.reshape_bufs_sub .., StableHlo.nullary_bufs_sub .., StableHlo.nullary_bufs_sub ..⟩
/-- 37 host operations of @divmod (main_call0), window 0 (statements 1 … 60), in order. -/
abbrev main_part0_ops1 : List (HloOp τ sig (Elt F)) :=
  ( StableHlo.TRef.unary (.of main_c : StableHlo.TRef sig ⟨S_, .i32⟩) (.of main_call0_v0 : StableHlo.TRef sig ⟨S_, .i32⟩) id
  :: StableHlo.TRef.unary (.of main_call0_v0 : StableHlo.TRef sig ⟨S_, .i32⟩) (.of main_call0_call0_v0 : StableHlo.TRef sig ⟨S1024, .i32⟩) (broadcastInDim S1024 ![] bcast_S_S1024)
  :: StableHlo.TRef.binary (.of main_v25 : StableHlo.TRef sig ⟨S1024, .i32⟩) (.of main_call0_call0_v0 : StableHlo.TRef sig ⟨S1024, .i32⟩) (.of main_call0_call0_v1 : StableHlo.TRef sig ⟨S1024, .i32⟩) Host.divsi
  :: StableHlo.TRef.unary (.of main_v25 : StableHlo.TRef sig ⟨S1024, .i32⟩) (.of main_call0_call0_v2 : StableHlo.TRef sig ⟨S1024, .i32⟩) signi
  :: StableHlo.TRef.unary (.of main_call0_v0 : StableHlo.TRef sig ⟨S_, .i32⟩) (.of main_call0_call0_v3 : StableHlo.TRef sig ⟨S_, .i32⟩) signi
  :: StableHlo.TRef.unary (.of main_call0_call0_v3 : StableHlo.TRef sig ⟨S_, .i32⟩) (.of main_call0_call0_v4 : StableHlo.TRef sig ⟨S1024, .i32⟩) (broadcastInDim S1024 ![] bcast_S_S1024)
  :: StableHlo.TRef.binary (.of main_call0_call0_v2 : StableHlo.TRef sig ⟨S1024, .i32⟩) (.of main_call0_call0_v4 : StableHlo.TRef sig ⟨S1024, .i32⟩) (.of main_call0_call0_v5 : StableHlo.TRef sig ⟨S1024, .i1⟩) (cmpi .ne)
  :: StableHlo.TRef.unary (.of main_call0_v0 : StableHlo.TRef sig ⟨S_, .i32⟩) (.of main_call0_call0_v6 : StableHlo.TRef sig ⟨S1024, .i32⟩) (broadcastInDim S1024 ![] bcast_S_S1024)
  :: StableHlo.TRef.binary (.of main_v25 : StableHlo.TRef sig ⟨S1024, .i32⟩) (.of main_call0_call0_v6 : StableHlo.TRef sig ⟨S1024, .i32⟩) (.of main_call0_call0_v7 : StableHlo.TRef sig ⟨S1024, .i32⟩) Host.remsi
  :: StableHlo.TRef.nullary (.of main_call0_call0_c : StableHlo.TRef sig ⟨S_, .i32⟩) (constantI S_ 32 0#32)
  :: StableHlo.TRef.unary (.of main_call0_call0_c : StableHlo.TRef sig ⟨S_, .i32⟩) (.of main_call0_call0_v8 : StableHlo.TRef sig ⟨S1024, .i32⟩) (broadcastInDim S1024 ![] bcast_S_S1024)
  :: StableHlo.TRef.binary (.of main_call0_call0_v7 : StableHlo.TRef sig ⟨S1024, .i32⟩) (.of main_call0_call0_v8 : StableHlo.TRef sig ⟨S1024, .i32⟩) (.of main_call0_call0_v9 : StableHlo.TRef sig ⟨S1024, .i1⟩) (cmpi .ne)
  :: StableHlo.TRef.binary (.of main_call0_call0_v5 : StableHlo.TRef sig ⟨S1024, .i1⟩) (.of main_call0_call0_v9 : StableHlo.TRef sig ⟨S1024, .i1⟩) (.of main_call0_call0_v10 : StableHlo.TRef sig ⟨S1024, .i1⟩) andi
  :: StableHlo.TRef.nullary (.of main_call0_call0_c_0 : StableHlo.TRef sig ⟨S_, .i32⟩) (constantI S_ 32 1#32)
  :: StableHlo.TRef.unary (.of main_call0_call0_c_0 : StableHlo.TRef sig ⟨S_, .i32⟩) (.of main_call0_call0_v11 : StableHlo.TRef sig ⟨S1024, .i32⟩) (broadcastInDim S1024 ![] bcast_S_S1024)
  :: StableHlo.TRef.binary (.of main_call0_call0_v1 : StableHlo.TRef sig ⟨S1024, .i32⟩) (.of main_call0_call0_v11 : StableHlo.TRef sig ⟨S1024, .i32⟩) (.of main_call0_call0_v12 : StableHlo.TRef sig ⟨S1024, .i32⟩) subi
  :: StableHlo.TRef.ternary (.of main_call0_call0_v10 : StableHlo.TRef sig ⟨S1024, .i1⟩) (.of main_call0_call0_v12 : StableHlo.TRef sig ⟨S1024, .i32⟩) (.of main_call0_call0_v1 : StableHlo.TRef sig ⟨S1024, .i32⟩) (.of main_v26_0 : StableHlo.TRef sig ⟨S1024, .i32⟩) select
  :: StableHlo.TRef.nullary (.of main_call0_call1_c : StableHlo.TRef sig ⟨S_, .i32⟩) (constantI S_ 32 0#32)
  :: StableHlo.TRef.binary (.of main_call0_v0 : StableHlo.TRef sig ⟨S_, .i32⟩) (.of main_call0_call1_c : StableHlo.TRef sig ⟨S_, .i32⟩) (.of main_call0_call1_v0 : StableHlo.TRef sig ⟨S_, .i1⟩) (cmpi .eq)
  :: StableHlo.TRef.nullary (.of main_call0_call1_c_0 : StableHlo.TRef sig ⟨S_, .i32⟩) (constantI S_ 32 1#32)
  :: StableHlo.TRef.ternary (.of main_call0_call1_v0 : StableHlo.TRef sig ⟨S_, .i1⟩) (.of main_call0_call1_c_0 : StableHlo.TRef sig ⟨S_, .i32⟩) (.of main_call0_v0 : StableHlo.TRef sig ⟨S_, .i32⟩) (.of main_call0_call1_v1 : StableHlo.TRef sig ⟨S_, .i32⟩) select
  :: StableHlo.TRef.unary main_call0_call1_call0.v0 (.of main_call0_call1_v2 : StableHlo.TRef sig ⟨S1024, .i32⟩) (broadcastInDim S1024 ![] bcast_S_S1024)
  :: StableHlo.TRef.binary (.of main_v25 : StableHlo.TRef sig ⟨S1024, .i32⟩) (.of main_call0_call1_v2 : StableHlo.TRef sig ⟨S1024, .i32⟩) (.of main_call0_call1_v3 : StableHlo.TRef sig ⟨S1024, .i32⟩) Host.remsi
  :: StableHlo.TRef.nullary (.of main_call0_call1_c_1 : StableHlo.TRef sig ⟨S_, .i32⟩) (constantI S_ 32 0#32)
  :: StableHlo.TRef.unary (.of main_call0_call1_c_1 : StableHlo.TRef sig ⟨S_, .i32⟩) (.of main_call0_call1_v4 : StableHlo.TRef sig ⟨S1024, .i32⟩) (broadcastInDim S1024 ![] bcast_S_S1024)
  :: StableHlo.TRef.binary (.of main_call0_call1_v3 : StableHlo.TRef sig ⟨S1024, .i32⟩) (.of main_call0_call1_v4 : StableHlo.TRef sig ⟨S1024, .i32⟩) (.of main_call0_call1_v5 : StableHlo.TRef sig ⟨S1024, .i1⟩) (cmpi .ne)
  :: StableHlo.TRef.nullary (.of main_call0_call1_c_2 : StableHlo.TRef sig ⟨S_, .i32⟩) (constantI S_ 32 0#32)
  :: StableHlo.TRef.unary (.of main_call0_call1_c_2 : StableHlo.TRef sig ⟨S_, .i32⟩) (.of main_call0_call1_v6 : StableHlo.TRef sig ⟨S1024, .i32⟩) (broadcastInDim S1024 ![] bcast_S_S1024)
  :: StableHlo.TRef.binary (.of main_call0_call1_v3 : StableHlo.TRef sig ⟨S1024, .i32⟩) (.of main_call0_call1_v6 : StableHlo.TRef sig ⟨S1024, .i32⟩) (.of main_call0_call1_v7 : StableHlo.TRef sig ⟨S1024, .i1⟩) (cmpi .slt)
  :: StableHlo.TRef.nullary (.of main_call0_call1_c_3 : StableHlo.TRef sig ⟨S_, .i32⟩) (constantI S_ 32 0#32)
  :: StableHlo.TRef.binary main_call0_call1_call0.v0 (.of main_call0_call1_c_3 : StableHlo.TRef sig ⟨S_, .i32⟩) (.of main_call0_call1_v8 : StableHlo.TRef sig ⟨S_, .i1⟩) (cmpi .slt)
  :: StableHlo.TRef.unary (.of main_call0_call1_v8 : StableHlo.TRef sig ⟨S_, .i1⟩) (.of main_call0_call1_v9 : StableHlo.TRef sig ⟨S1024, .i1⟩) (broadcastInDim S1024 ![] bcast_S_S1024)
  :: StableHlo.TRef.binary (.of main_call0_call1_v7 : StableHlo.TRef sig ⟨S1024, .i1⟩) (.of main_call0_call1_v9 : StableHlo.TRef sig ⟨S1024, .i1⟩) (.of main_call0_call1_v10 : StableHlo.TRef sig ⟨S1024, .i1⟩) (cmpi .ne)
  :: StableHlo.TRef.binary (.of main_call0_call1_v10 : StableHlo.TRef sig ⟨S1024, .i1⟩) (.of main_call0_call1_v5 : StableHlo.TRef sig ⟨S1024, .i1⟩) (.of main_call0_call1_v11 : StableHlo.TRef sig ⟨S1024, .i1⟩) andi
  :: StableHlo.TRef.unary main_call0_call1_call0.v0 (.of main_call0_call1_v12 : StableHlo.TRef sig ⟨S1024, .i32⟩) (broadcastInDim S1024 ![] bcast_S_S1024)
  :: StableHlo.TRef.binary (.of main_call0_call1_v3 : StableHlo.TRef sig ⟨S1024, .i32⟩) (.of main_call0_call1_v12 : StableHlo.TRef sig ⟨S1024, .i32⟩) (.of main_call0_call1_v13 : StableHlo.TRef sig ⟨S1024, .i32⟩) addi
  :: StableHlo.TRef.ternary (.of main_call0_call1_v11 : StableHlo.TRef sig ⟨S1024, .i1⟩) (.of main_call0_call1_v13 : StableHlo.TRef sig ⟨S1024, .i32⟩) (.of main_call0_call1_v3 : StableHlo.TRef sig ⟨S1024, .i32⟩) (.of main_v26_1 : StableHlo.TRef sig ⟨S1024, .i32⟩) select
  :: [] )
theorem main_part0_ops1_sub : (main_part0_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 32 host operations of @main, window 0 (statements 1 … 60), in order. -/
abbrev main_part0_ops2 : List (HloOp τ sig (Elt F)) :=
  [ StableHlo.nullary main_v27 (iotaInDim S1024 32 0),
    StableHlo.nullary main_cst (constant S_ .f32 0x00000000#32),
    StableHlo.unary main_cst main_v28 (broadcastInDim S1024x1024 ![] bcast_S_S1024x1024 : (⟨S_, .f32⟩ : BufTy).Contents (Elt F) → (⟨S1024x1024, .f32⟩ : BufTy).Contents (Elt F)),
    StableHlo.binary main_v19 main_v19 main_v29 (mulf : (⟨S16x1024, .f32⟩ : BufTy).Contents (Elt F) → (⟨S16x1024, .f32⟩ : BufTy).Contents (Elt F) → (⟨S16x1024, .f32⟩ : BufTy).Contents (Elt F)),
    StableHlo.nullary main_cst_0 (constant S_ .f32 0x40000000#32),
    StableHlo.unary main_cst_0 main_v30 (broadcastInDim S16x1024 ![] bcast_S_S16x1024 : (⟨S_, .f32⟩ : BufTy).Contents (Elt F) → (⟨S16x1024, .f32⟩ : BufTy).Contents (Elt F)),
    StableHlo.binary main_v30 main_v22 main_v31 (mulf : (⟨S16x1024, .f32⟩ : BufTy).Contents (Elt F) → (⟨S16x1024, .f32⟩ : BufTy).Contents (Elt F) → (⟨S16x1024, .f32⟩ : BufTy).Contents (Elt F)),
    StableHlo.nullary main_cst_1 (constant S_ .f32 0x3F800000#32),
    StableHlo.unary main_cst_1 main_v32 (broadcastInDim S16x1024 ![] bcast_S_S16x1024 : (⟨S_, .f32⟩ : BufTy).Contents (Elt F) → (⟨S16x1024, .f32⟩ : BufTy).Contents (Elt F)),
    StableHlo.binary main_v31 main_v32 main_v33 (Host.divf : (⟨S16x1024, .f32⟩ : BufTy).Contents (Elt F) → (⟨S16x1024, .f32⟩ : BufTy).Contents (Elt F) → (⟨S16x1024, .f32⟩ : BufTy).Contents (Elt F)),
    StableHlo.binary main_v29 main_v33 main_v34 (addf : (⟨S16x1024, .f32⟩ : BufTy).Contents (Elt F) → (⟨S16x1024, .f32⟩ : BufTy).Contents (Elt F) → (⟨S16x1024, .f32⟩ : BufTy).Contents (Elt F)),
    StableHlo.nullary main_cst_2 (constant S_ .f32 0x40000000#32),
    StableHlo.unary main_cst_2 main_v35 (broadcastInDim S16x1024 ![] bcast_S_S16x1024 : (⟨S_, .f32⟩ : BufTy).Contents (Elt F) → (⟨S16x1024, .f32⟩ : BufTy).Contents (Elt F)),
    StableHlo.binary main_v35 main_v24 main_v36 (mulf : (⟨S16x1024, .f32⟩ : BufTy).Contents (Elt F) → (⟨S16x1024, .f32⟩ : BufTy).Contents (Elt F) → (⟨S16x1024, .f32⟩ : BufTy).Contents (Elt F)),
    StableHlo.nullary main_cst_3 (constant S_ .f32 0x3F800000#32),
    StableHlo.unary main_cst_3 main_v37 (broadcastInDim S16x1024 ![] bcast_S_S16x1024 : (⟨S_, .f32⟩ : BufTy).Contents (Elt F) → (⟨S16x1024, .f32⟩ : BufTy).Contents (Elt F)),
    StableHlo.binary main_v36 main_v37 main_v38 (Host.divf : (⟨S16x1024, .f32⟩ : BufTy).Contents (Elt F) → (⟨S16x1024, .f32⟩ : BufTy).Contents (Elt F) → (⟨S16x1024, .f32⟩ : BufTy).Contents (Elt F)),
    StableHlo.binary main_v34 main_v38 main_v39 (addf : (⟨S16x1024, .f32⟩ : BufTy).Contents (Elt F) → (⟨S16x1024, .f32⟩ : BufTy).Contents (Elt F) → (⟨S16x1024, .f32⟩ : BufTy).Contents (Elt F)),
    StableHlo.nullary main_c_4 (constantI S_ 32 0#32),
    StableHlo.unary main_c_4 main_v40 (broadcastInDim S1024 ![] bcast_S_S1024 : (⟨S_, .i32⟩ : BufTy).Contents (Elt F) → (⟨S1024, .i32⟩ : BufTy).Contents (Elt F)),
    StableHlo.binary main_v27 main_v40 main_v41 (cmpi .slt : (⟨S1024, .i32⟩ : BufTy).Contents (Elt F) → (⟨S1024, .i32⟩ : BufTy).Contents (Elt F) → (⟨S1024, .i1⟩ : BufTy).Contents (Elt F)),
    StableHlo.nullary main_c_5 (constantI S_ 32 1024#32),
    StableHlo.unary main_c_5 main_v42 (broadcastInDim S1024 ![] bcast_S_S1024 : (⟨S_, .i32⟩ : BufTy).Contents (Elt F) → (⟨S1024, .i32⟩ : BufTy).Contents (Elt F)),
    StableHlo.binary main_v27 main_v42 main_v43 (addi : (⟨S1024, .i32⟩ : BufTy).Contents (Elt F) → (⟨S1024, .i32⟩ : BufTy).Contents (Elt F) → (⟨S1024, .i32⟩ : BufTy).Contents (Elt F)),
    StableHlo.ternary main_v41 main_v43 main_v27 main_v44 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_c_6 (constantI S_ 32 0#32),
    StableHlo.unary main_c_6 main_v45 (broadcastInDim S1024 ![] bcast_S_S1024 : (⟨S_, .i32⟩ : BufTy).Contents (Elt F) → (⟨S1024, .i32⟩ : BufTy).Contents (Elt F)),
    StableHlo.binary main_v27 main_v45 main_v46 (cmpi .slt : (⟨S1024, .i32⟩ : BufTy).Contents (Elt F) → (⟨S1024, .i32⟩ : BufTy).Contents (Elt F) → (⟨S1024, .i1⟩ : BufTy).Contents (Elt F)),
    StableHlo.nullary main_c_7 (constantI S_ 32 1024#32),
    StableHlo.unary main_c_7 main_v47 (broadcastInDim S1024 ![] bcast_S_S1024 : (⟨S_, .i32⟩ : BufTy).Contents (Elt F) → (⟨S1024, .i32⟩ : BufTy).Contents (Elt F)),
    StableHlo.binary main_v27 main_v47 main_v48 (addi : (⟨S1024, .i32⟩ : BufTy).Contents (Elt F) → (⟨S1024, .i32⟩ : BufTy).Contents (Elt F) → (⟨S1024, .i32⟩ : BufTy).Contents (Elt F)),
    StableHlo.ternary main_v46 main_v48 main_v27 main_v49 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ]
theorem main_part0_ops2_sub : (main_part0_ops2 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
/-- 36 host operations of @main, window 1 (statements 61 … 120), in order. -/
abbrev main_part1_ops0 : List (HloOp τ sig (Elt F)) :=
  ( StableHlo.unary main_v44 main_v50 (broadcastInDim S1024x1 ![0] bcast_S1024_S1024x1_0 : (⟨S1024, .i32⟩ : BufTy).Contents (Elt F) → (⟨S1024x1, .i32⟩ : BufTy).Contents (Elt F))
  :: StableHlo.unary main_v49 main_v51 (broadcastInDim S1024x1 ![0] bcast_S1024_S1024x1_0 : (⟨S1024, .i32⟩ : BufTy).Contents (Elt F) → (⟨S1024x1, .i32⟩ : BufTy).Contents (Elt F))
  :: StableHlo.binary main_v50 main_v51 main_v52 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.unary main_v28 main_v53 (broadcastInDim S16x1024x1024 ![1, 2] bcast_S1024x1024_S16x1024x1024_1_2 : (⟨S1024x1024, .f32⟩ : BufTy).Contents (Elt F) → (⟨S16x1024x1024, .f32⟩ : BufTy).Contents (Elt F))
  :: StableHlo.ternary main_v53 main_v52 main_v39 main_v54 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v22 main_v55 (Host.negf : (⟨S16x1024, .f32⟩ : BufTy).Contents (Elt F) → (⟨S16x1024, .f32⟩ : BufTy).Contents (Elt F))
  :: StableHlo.nullary main_cst_8 (constant S_ .f32 0x3F800000#32)
  :: StableHlo.unary main_cst_8 main_v56 (broadcastInDim S16x1024 ![] bcast_S_S16x1024 : (⟨S_, .f32⟩ : BufTy).Contents (Elt F) → (⟨S16x1024, .f32⟩ : BufTy).Contents (Elt F))
  :: StableHlo.binary main_v55 main_v56 main_v57 (Host.divf : (⟨S16x1024, .f32⟩ : BufTy).Contents (Elt F) → (⟨S16x1024, .f32⟩ : BufTy).Contents (Elt F) → (⟨S16x1024, .f32⟩ : BufTy).Contents (Elt F))
  :: StableHlo.nullary main_cst_9 (constant S_ .f32 0x40000000#32)
  :: StableHlo.unary main_cst_9 main_v58 (broadcastInDim S16x1024 ![] bcast_S_S16x1024 : (⟨S_, .f32⟩ : BufTy).Contents (Elt F) → (⟨S16x1024, .f32⟩ : BufTy).Contents (Elt F))
  :: StableHlo.binary main_v20 main_v58 main_v59 (Host.divf : (⟨S16x1024, .f32⟩ : BufTy).Contents (Elt F) → (⟨S16x1024, .f32⟩ : BufTy).Contents (Elt F) → (⟨S16x1024, .f32⟩ : BufTy).Contents (Elt F))
  :: StableHlo.binary main_v57 main_v59 main_v60 (addf : (⟨S16x1024, .f32⟩ : BufTy).Contents (Elt F) → (⟨S16x1024, .f32⟩ : BufTy).Contents (Elt F) → (⟨S16x1024, .f32⟩ : BufTy).Contents (Elt F))
  :: StableHlo.nullary main_c_10 (constantI S_ 32 0#32)
  :: StableHlo.unary main_c_10 main_v61 (broadcastInDim S1024 ![] bcast_S_S1024 : (⟨S_, .i32⟩ : BufTy).Contents (Elt F) → (⟨S1024, .i32⟩ : BufTy).Contents (Elt F))
  :: StableHlo.binary main_v26_0 main_v61 main_v62 (addi : (⟨S1024, .i32⟩ : BufTy).Contents (Elt F) → (⟨S1024, .i32⟩ : BufTy).Contents (Elt F) → (⟨S1024, .i32⟩ : BufTy).Contents (Elt F))
  :: StableHlo.nullary main_c_11 (constantI S_ 32 1#32)
  :: StableHlo.unary main_c_11 main_v63 (broadcastInDim S1024 ![] bcast_S_S1024 : (⟨S_, .i32⟩ : BufTy).Contents (Elt F) → (⟨S1024, .i32⟩ : BufTy).Contents (Elt F))
  :: StableHlo.binary main_v26_1 main_v63 main_v64 (addi : (⟨S1024, .i32⟩ : BufTy).Contents (Elt F) → (⟨S1024, .i32⟩ : BufTy).Contents (Elt F) → (⟨S1024, .i32⟩ : BufTy).Contents (Elt F))
  :: StableHlo.nullary main_c_12 (constantI S_ 32 0#32)
  :: StableHlo.unary main_c_12 main_v65 (broadcastInDim S1024 ![] bcast_S_S1024 : (⟨S_, .i32⟩ : BufTy).Contents (Elt F) → (⟨S1024, .i32⟩ : BufTy).Contents (Elt F))
  :: StableHlo.binary main_v62 main_v65 main_v66 (cmpi .sge : (⟨S1024, .i32⟩ : BufTy).Contents (Elt F) → (⟨S1024, .i32⟩ : BufTy).Contents (Elt F) → (⟨S1024, .i1⟩ : BufTy).Contents (Elt F))
  :: StableHlo.nullary main_c_13 (constantI S_ 32 32#32)
  :: StableHlo.unary main_c_13 main_v67 (broadcastInDim S1024 ![] bcast_S_S1024 : (⟨S_, .i32⟩ : BufTy).Contents (Elt F) → (⟨S1024, .i32⟩ : BufTy).Contents (Elt F))
  :: StableHlo.binary main_v62 main_v67 main_v68 (cmpi .slt : (⟨S1024, .i32⟩ : BufTy).Contents (Elt F) → (⟨S1024, .i32⟩ : BufTy).Contents (Elt F) → (⟨S1024, .i1⟩ : BufTy).Contents (Elt F))
  :: StableHlo.binary main_v66 main_v68 main_v69 (andi : (⟨S1024, .i1⟩ : BufTy).Contents (Elt F) → (⟨S1024, .i1⟩ : BufTy).Contents (Elt F) → (⟨S1024, .i1⟩ : BufTy).Contents (Elt F))
  :: StableHlo.nullary main_c_14 (constantI S_ 32 0#32)
  :: StableHlo.unary main_c_14 main_v70 (broadcastInDim S1024 ![] bcast_S_S1024 : (⟨S_, .i32⟩ : BufTy).Contents (Elt F) → (⟨S1024, .i32⟩ : BufTy).Contents (Elt F))
  :: StableHlo.binary main_v64 main_v70 main_v71 (cmpi .sge : (⟨S1024, .i32⟩ : BufTy).Contents (Elt F) → (⟨S1024, .i32⟩ : BufTy).Contents (Elt F) → (⟨S1024, .i1⟩ : BufTy).Contents (Elt F))
  :: StableHlo.binary main_v69 main_v71 main_v72 (andi : (⟨S1024, .i1⟩ : BufTy).Contents (Elt F) → (⟨S1024, .i1⟩ : BufTy).Contents (Elt F) → (⟨S1024, .i1⟩ : BufTy).Contents (Elt F))
  :: StableHlo.nullary main_c_15 (constantI S_ 32 32#32)
  :: StableHlo.unary main_c_15 main_v73 (broadcastInDim S1024 ![] bcast_S_S1024 : (⟨S_, .i32⟩ : BufTy).Contents (Elt F) → (⟨S1024, .i32⟩ : BufTy).Contents (Elt F))
  :: StableHlo.binary main_v64 main_v73 main_v74 (cmpi .slt : (⟨S1024, .i32⟩ : BufTy).Contents (Elt F) → (⟨S1024, .i32⟩ : BufTy).Contents (Elt F) → (⟨S1024, .i1⟩ : BufTy).Contents (Elt F))
  :: StableHlo.binary main_v72 main_v74 main_v75 (andi : (⟨S1024, .i1⟩ : BufTy).Contents (Elt F) → (⟨S1024, .i1⟩ : BufTy).Contents (Elt F) → (⟨S1024, .i1⟩ : BufTy).Contents (Elt F))
  :: StableHlo.nullary main_c_16 (constantI S_ 32 0#32)
  :: StableHlo.nullary main_c_17 (constantI S_ 32 31#32)
  :: [] )
theorem main_part1_ops0_sub : (main_part1_ops0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call1), window 1 (statements 61 … 120), in order. -/
abbrev main_part1_ops1 : List (HloOp τ sig (Elt F)) :=
  [ StableHlo.TRef.unary (.of main_c_16 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S1024, .i32⟩) (broadcastInDim S1024 ![] bcast_S_S1024),
    StableHlo.TRef.binary (.of main_call1_v1 : StableHlo.TRef sig ⟨S1024, .i32⟩) (.of main_v62 : StableHlo.TRef sig ⟨S1024, .i32⟩) (.of main_call1_v2 : StableHlo.TRef sig ⟨S1024, .i32⟩) maxsi,
    StableHlo.TRef.unary (.of main_c_17 : StableHlo.TRef sig ⟨S_, .i32⟩) (.of main_call1_v3 : StableHlo.TRef sig ⟨S_, .i32⟩) id,
    StableHlo.TRef.unary (.of main_call1_v3 : StableHlo.TRef sig ⟨S_, .i32⟩) (.of main_call1_v4 : StableHlo.TRef sig ⟨S1024, .i32⟩) (broadcastInDim S1024 ![] bcast_S_S1024),
    StableHlo.TRef.binary (.of main_call1_v4 : StableHlo.TRef sig ⟨S1024, .i32⟩) (.of main_call1_v2 : StableHlo.TRef sig ⟨S1024, .i32⟩) (.of main_v76 : StableHlo.TRef sig ⟨S1024, .i32⟩) minsi ]
theorem main_part1_ops1_sub : (main_part1_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 1 (statements 61 … 120), in order. -/
abbrev main_part1_ops2 : List (HloOp τ sig (Elt F)) :=
  [ StableHlo.nullary main_c_18 (constantI S_ 32 32#32),
    StableHlo.unary main_c_18 main_v77 (broadcastInDim S1024 ![] bcast_S_S1024 : (⟨S_, .i32⟩ : BufTy).Contents (Elt F) → (⟨S1024, .i32⟩ : BufTy).Contents (Elt F)),
    StableHlo.binary main_v76 main_v77 main_v78 (muli : (⟨S1024, .i32⟩ : BufTy).Contents (Elt F) → (⟨S1024, .i32⟩ : BufTy).Contents (Elt F) → (⟨S1024, .i32⟩ : BufTy).Contents (Elt F)),
    StableHlo.nullary main_c_19 (constantI S_ 32 0#32),
    StableHlo.nullary main_c_20 (constantI S_ 32 31#32) ]
theorem main_part1_ops2_sub : (main_part1_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call2), window 1 (statements 61 … 120), in order. -/
abbrev main_part1_ops3 : List (HloOp τ sig (Elt F)) :=
  [ StableHlo.TRef.unary (.of main_c_19 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S1024, .i32⟩) (broadcastInDim S1024 ![] bcast_S_S1024),
    StableHlo.TRef.binary (.of main_call2_v1 : StableHlo.TRef sig ⟨S1024, .i32⟩) (.of main_v64 : StableHlo.TRef sig ⟨S1024, .i32⟩) (.of main_call2_v2 : StableHlo.TRef sig ⟨S1024, .i32⟩) maxsi,
    StableHlo.TRef.unary (.of main_c_20 : StableHlo.TRef sig ⟨S_, .i32⟩) (.of main_call2_v3 : StableHlo.TRef sig ⟨S_, .i32⟩) id,
    StableHlo.TRef.unary (.of main_call2_v3 : StableHlo.TRef sig ⟨S_, .i32⟩) (.of main_call2_v4 : StableHlo.TRef sig ⟨S1024, .i32⟩) (broadcastInDim S1024 ![] bcast_S_S1024),
    StableHlo.TRef.binary (.of main_call2_v4 : StableHlo.TRef sig ⟨S1024, .i32⟩) (.of main_call2_v2 : StableHlo.TRef sig ⟨S1024, .i32⟩) (.of main_v79 : StableHlo.TRef sig ⟨S1024, .i32⟩) minsi ]
theorem main_part1_ops3_sub : (main_part1_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 1 (statements 61 … 120), in order. -/
abbrev main_part1_ops4 : List (HloOp τ sig (Elt F)) :=
  [ StableHlo.binary main_v78 main_v79 main_v80 (addi : (⟨S1024, .i32⟩ : BufTy).Contents (Elt F) → (⟨S1024, .i32⟩ : BufTy).Contents (Elt F) → (⟨S1024, .i32⟩ : BufTy).Contents (Elt F)),
    StableHlo.nullary main_cst_21 (constant S_ .f32 0x00000000#32) ]
theorem main_part1_ops4_sub : (main_part1_ops4 : List (HloOp τ sig (Elt F))).Forall fun op => op.bufs ⊆ StableHlo.tcRefs τ sig :=
  ⟨StableHlo.binary_bufs_sub .., StableHlo.nullary_bufs_sub ..⟩
/-- 5 host operations of @_where_1 (main_call3), window 1 (statements 61 … 120), in order. -/
abbrev main_part1_ops5 : List (HloOp τ sig (Elt F)) :=
  [ StableHlo.TRef.unary (.of main_cst_21 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S1024, .f32⟩) (broadcastInDim S1024 ![] bcast_S_S1024),
    StableHlo.TRef.unary (.of main_v75 : StableHlo.TRef sig ⟨S1024, .i1⟩) (.of main_call3_v2 : StableHlo.TRef sig ⟨S16x1024, .i1⟩) (broadcastInDim S16x1024 ![1] bcast_S1024_S16x1024_1),
    StableHlo.TRef.unary (.of main_call3_v1 : StableHlo.TRef sig ⟨S1024, .f32⟩) (.of main_call3_v3 : StableHlo.TRef sig ⟨S16x1024, .f32⟩) (broadcastInDim S16x1024 ![1] bcast_S1024_S16x1024_1),
    StableHlo.TRef.ternary (.of main_call3_v2 : StableHlo.TRef sig ⟨S16x1024, .i1⟩) (.of main_v60 : StableHlo.TRef sig ⟨S16x1024, .f32⟩) (.of main_call3_v3 : StableHlo.TRef sig ⟨S16x1024, .f32⟩) (.of main_v81 : StableHlo.TRef sig ⟨S16x1024, .f32⟩) select ]
theorem main_part1_ops5_sub : (main_part1_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 14 host operations of @main, window 1 (statements 61 … 120), in order. -/
abbrev main_part1_ops6 : List (HloOp τ sig (Elt F)) :=
  [ StableHlo.nullary main_c_22 (constantI S_ 32 0#32),
    StableHlo.unary main_c_22 main_v82 (broadcastInDim S1024 ![] bcast_S_S1024 : (⟨S_, .i32⟩ : BufTy).Contents (Elt F) → (⟨S1024, .i32⟩ : BufTy).Contents (Elt F)),
    StableHlo.binary main_v27 main_v82 main_v83 (cmpi .slt : (⟨S1024, .i32⟩ : BufTy).Contents (Elt F) → (⟨S1024, .i32⟩ : BufTy).Contents (Elt F) → (⟨S1024, .i1⟩ : BufTy).Contents (Elt F)),
    StableHlo.nullary main_c_23 (constantI S_ 32 1024#32),
    StableHlo.unary main_c_23 main_v84 (broadcastInDim S1024 ![] bcast_S_S1024 : (⟨S_, .i32⟩ : BufTy).Contents (Elt F) → (⟨S1024, .i32⟩ : BufTy).Contents (Elt F)),
    StableHlo.binary main_v27 main_v84 main_v85 (addi : (⟨S1024, .i32⟩ : BufTy).Contents (Elt F) → (⟨S1024, .i32⟩ : BufTy).Contents (Elt F) → (⟨S1024, .i32⟩ : BufTy).Contents (Elt F)),
    StableHlo.ternary main_v83 main_v85 main_v27 main_v86 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_c_24 (constantI S_ 32 0#32),
    StableHlo.unary main_c_24 main_v87 (broadcastInDim S1024 ![] bcast_S_S1024 : (⟨S_, .i32⟩ : BufTy).Contents (Elt F) → (⟨S1024, .i32⟩ : BufTy).Contents (Elt F)),
    StableHlo.binary main_v80 main_v87 main_v88 (cmpi .slt : (⟨S1024, .i32⟩ : BufTy).Contents (Elt F) → (⟨S1024, .i32⟩ : BufTy).Contents (Elt F) → (⟨S1024, .i1⟩ : BufTy).Contents (Elt F)),
    StableHlo.nullary main_c_25 (constantI S_ 32 1024#32),
    StableHlo.unary main_c_25 main_v89 (broadcastInDim S1024 ![] bcast_S_S1024 : (⟨S_, .i32⟩ : BufTy).Contents (Elt F) → (⟨S1024, .i32⟩ : BufTy).Contents (Elt F)),
    StableHlo.binary main_v80 main_v89 main_v90 (addi : (⟨S1024, .i32⟩ : BufTy).Contents (Elt F) → (⟨S1024, .i32⟩ : BufTy).Contents (Elt F) → (⟨S1024, .i32⟩ : BufTy).Contents (Elt F)),
    StableHlo.ternary main_v88 main_v90 main_v80 main_v91 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) ]
theorem main_part1_ops6_sub : (main_part1_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩
/-- 35 host operations of @main, window 2 (statements 121 … 180), in order. -/
abbrev main_part2_ops0 : List (HloOp τ sig (Elt F)) :=
  ( StableHlo.unary main_v86 main_v92 (broadcastInDim S1024x1 ![0] bcast_S1024_S1024x1_0 : (⟨S1024, .i32⟩ : BufTy).Contents (Elt F) → (⟨S1024x1, .i32⟩ : BufTy).Contents (Elt F))
  :: StableHlo.unary main_v91 main_v93 (broadcastInDim S1024x1 ![0] bcast_S1024_S1024x1_0 : (⟨S1024, .i32⟩ : BufTy).Contents (Elt F) → (⟨S1024x1, .i32⟩ : BufTy).Contents (Elt F))
  :: StableHlo.binary main_v92 main_v93 main_v94 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v54 main_v94 main_v81 main_v95 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v22 main_v96 (Host.negf : (⟨S16x1024, .f32⟩ : BufTy).Contents (Elt F) → (⟨S16x1024, .f32⟩ : BufTy).Contents (Elt F))
  :: StableHlo.nullary main_cst_26 (constant S_ .f32 0x3F800000#32)
  :: StableHlo.unary main_cst_26 main_v97 (broadcastInDim S16x1024 ![] bcast_S_S16x1024 : (⟨S_, .f32⟩ : BufTy).Contents (Elt F) → (⟨S16x1024, .f32⟩ : BufTy).Contents (Elt F))
  :: StableHlo.binary main_v96 main_v97 main_v98 (Host.divf : (⟨S16x1024, .f32⟩ : BufTy).Contents (Elt F) → (⟨S16x1024, .f32⟩ : BufTy).Contents (Elt F) → (⟨S16x1024, .f32⟩ : BufTy).Contents (Elt F))
  :: StableHlo.nullary main_cst_27 (constant S_ .f32 0x40000000#32)
  :: StableHlo.unary main_cst_27 main_v99 (broadcastInDim S16x1024 ![] bcast_S_S16x1024 : (⟨S_, .f32⟩ : BufTy).Contents (Elt F) → (⟨S16x1024, .f32⟩ : BufTy).Contents (Elt F))
  :: StableHlo.binary main_v20 main_v99 main_v100 (Host.divf : (⟨S16x1024, .f32⟩ : BufTy).Contents (Elt F) → (⟨S16x1024, .f32⟩ : BufTy).Contents (Elt F) → (⟨S16x1024, .f32⟩ : BufTy).Contents (Elt F))
  :: StableHlo.binary main_v98 main_v100 main_v101 (subf : (⟨S16x1024, .f32⟩ : BufTy).Contents (Elt F) → (⟨S16x1024, .f32⟩ : BufTy).Contents (Elt F) → (⟨S16x1024, .f32⟩ : BufTy).Contents (Elt F))
  :: StableHlo.nullary main_c_28 (constantI S_ 32 0#32)
  :: StableHlo.unary main_c_28 main_v102 (broadcastInDim S1024 ![] bcast_S_S1024 : (⟨S_, .i32⟩ : BufTy).Contents (Elt F) → (⟨S1024, .i32⟩ : BufTy).Contents (Elt F))
  :: StableHlo.binary main_v26_0 main_v102 main_v103 (addi : (⟨S1024, .i32⟩ : BufTy).Contents (Elt F) → (⟨S1024, .i32⟩ : BufTy).Contents (Elt F) → (⟨S1024, .i32⟩ : BufTy).Contents (Elt F))
  :: StableHlo.nullary main_c_29 (constantI S_ 32 4294967295#32)
  :: StableHlo.unary main_c_29 main_v104 (broadcastInDim S1024 ![] bcast_S_S1024 : (⟨S_, .i32⟩ : BufTy).Contents (Elt F) → (⟨S1024, .i32⟩ : BufTy).Contents (Elt F))
  :: StableHlo.binary main_v26_1 main_v104 main_v105 (addi : (⟨S1024, .i32⟩ : BufTy).Contents (Elt F) → (⟨S1024, .i32⟩ : BufTy).Contents (Elt F) → (⟨S1024, .i32⟩ : BufTy).Contents (Elt F))
  :: StableHlo.nullary main_c_30 (constantI S_ 32 0#32)
  :: StableHlo.unary main_c_30 main_v106 (broadcastInDim S1024 ![] bcast_S_S1024 : (⟨S_, .i32⟩ : BufTy).Contents (Elt F) → (⟨S1024, .i32⟩ : BufTy).Contents (Elt F))
  :: StableHlo.binary main_v103 main_v106 main_v107 (cmpi .sge : (⟨S1024, .i32⟩ : BufTy).Contents (Elt F) → (⟨S1024, .i32⟩ : BufTy).Contents (Elt F) → (⟨S1024, .i1⟩ : BufTy).Contents (Elt F))
  :: StableHlo.nullary main_c_31 (constantI S_ 32 32#32)
  :: StableHlo.unary main_c_31 main_v108 (broadcastInDim S1024 ![] bcast_S_S1024 : (⟨S_, .i32⟩ : BufTy).Contents (Elt F) → (⟨S1024, .i32⟩ : BufTy).Contents (Elt F))
  :: StableHlo.binary main_v103 main_v108 main_v109 (cmpi .slt : (⟨S1024, .i32⟩ : BufTy).Contents (Elt F) → (⟨S1024, .i32⟩ : BufTy).Contents (Elt F) → (⟨S1024, .i1⟩ : BufTy).Contents (Elt F))
  :: StableHlo.binary main_v107 main_v109 main_v110 (andi : (⟨S1024, .i1⟩ : BufTy).Contents (Elt F) → (⟨S1024, .i1⟩ : BufTy).Contents (Elt F) → (⟨S1024, .i1⟩ : BufTy).Contents (Elt F))
  :: StableHlo.nullary main_c_32 (constantI S_ 32 0#32)
  :: StableHlo.unary main_c_32 main_v111 (broadcastInDim S1024 ![] bcast_S_S1024 : (⟨S_, .i32⟩ : BufTy).Contents (Elt F) → (⟨S1024, .i32⟩ : BufTy).Contents (Elt F))
  :: StableHlo.binary main_v105 main_v111 main_v112 (cmpi .sge : (⟨S1024, .i32⟩ : BufTy).Contents (Elt F) → (⟨S1024, .i32⟩ : BufTy).Contents (Elt F) → (⟨S1024, .i1⟩ : BufTy).Contents (Elt F))
  :: StableHlo.binary main_v110 main_v112 main_v113 (andi : (⟨S1024, .i1⟩ : BufTy).Contents (Elt F) → (⟨S1024, .i1⟩ : BufTy).Contents (Elt F) → (⟨S1024, .i1⟩ : BufTy).Contents (Elt F))
  :: StableHlo.nullary main_c_33 (constantI S_ 32 32#32)
  :: StableHlo.unary main_c_33 main_v114 (broadcastInDim S1024 ![] bcast_S_S1024 : (⟨S_, .i32⟩ : BufTy).Contents (Elt F) → (⟨S1024, .i32⟩ : BufTy).Contents (Elt F))
  :: StableHlo.binary main_v105 main_v114 main_v115 (cmpi .slt : (⟨S1024, .i32⟩ : BufTy).Contents (Elt F) → (⟨S1024, .i32⟩ : BufTy).Contents (Elt F) → (⟨S1024, .i1⟩ : BufTy).Contents (Elt F))
  :: StableHlo.binary main_v113 main_v115 main_v116 (andi : (⟨S1024, .i1⟩ : BufTy).Contents (Elt F) → (⟨S1024, .i1⟩ : BufTy).Contents (Elt F) → (⟨S1024, .i1⟩ : BufTy).Contents (Elt F))
  :: StableHlo.nullary main_c_34 (constantI S_ 32 0#32)
  :: StableHlo.nullary main_c_35 (constantI S_ 32 31#32)
  :: [] )
theorem main_part2_ops0_sub : (main_part2_ops0 : List (HloOp τ sig (Elt F))).Forall fun op => op.bufs ⊆ StableHlo.tcRefs τ sig :=
  ⟨StableHlo.unary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call4), window 2 (statements 121 … 180), in order. -/
abbrev main_part2_ops1 : List (HloOp τ sig (Elt F)) :=
  [ StableHlo.TRef.unary (.of main_c_34 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S1024, .i32⟩) (broadcastInDim S1024 ![] bcast_S_S1024),
    StableHlo.TRef.binary (.of main_call4_v1 : StableHlo.TRef sig ⟨S1024, .i32⟩) (.of main_v103 : StableHlo.TRef sig ⟨S1024, .i32⟩) (.of main_call4_v2 : StableHlo.TRef sig ⟨S1024, .i32⟩) maxsi,
    StableHlo.TRef.unary (.of main_c_35 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S1024, .i32⟩) (broadcastInDim S1024 ![] bcast_S_S1024),
    StableHlo.TRef.binary (.of main_call4_v4 : StableHlo.TRef sig ⟨S1024, .i32⟩) (.of main_call4_v2 : StableHlo.TRef sig ⟨S1024, .i32⟩) (.of main_v117 : StableHlo.TRef sig ⟨S1024, .i32⟩) minsi ]
theorem main_part2_ops1_sub : (main_part2_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 2 (statements 121 … 180), in order. -/
abbrev main_part2_ops2 : List (HloOp τ sig (Elt F)) :=
  [ StableHlo.nullary main_c_36 (constantI S_ 32 32#32),
    StableHlo.unary main_c_36 main_v118 (broadcastInDim S1024 ![] bcast_S_S1024 : (⟨S_, .i32⟩ : BufTy).Contents (Elt F) → (⟨S1024, .i32⟩ : BufTy).Contents (Elt F)),
    StableHlo.binary main_v117 main_v118 main_v119 (muli : (⟨S1024, .i32⟩ : BufTy).Contents (Elt F) → (⟨S1024, .i32⟩ : BufTy).Contents (Elt F) → (⟨S1024, .i32⟩ : BufTy).Contents (Elt F)),
    StableHlo.nullary main_c_37 (constantI S_ 32 0#32),
    StableHlo.nullary main_c_38 (constantI S_ 32 31#32) ]
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call5), window 2 (statements 121 … 180), in order. -/
abbrev main_part2_ops3 : List (HloOp τ sig (Elt F)) :=
  [ StableHlo.TRef.unary (.of main_c_37 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S1024, .i32⟩) (broadcastInDim S1024 ![] bcast_S_S1024),
    StableHlo.TRef.binary (.of main_call5_v1 : StableHlo.TRef sig ⟨S1024, .i32⟩) (.of main_v105 : StableHlo.TRef sig ⟨S1024, .i32⟩) (.of main_call5_v2 : StableHlo.TRef sig ⟨S1024, .i32⟩) maxsi,
    StableHlo.TRef.unary (.of main_c_38 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S1024, .i32⟩) (broadcastInDim S1024 ![] bcast_S_S1024),
    StableHlo.TRef.binary (.of main_call5_v4 : StableHlo.TRef sig ⟨S1024, .i32⟩) (.of main_call5_v2 : StableHlo.TRef sig ⟨S1024, .i32⟩) (.of main_v120 : StableHlo.TRef sig ⟨S1024, .i32⟩) minsi ]
theorem main_part2_ops3_sub : (main_part2_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 2 (statements 121 … 180), in order. -/
abbrev main_part2_ops4 : List (HloOp τ sig (Elt F)) :=
  [ StableHlo.binary main_v119 main_v120 main_v121 (addi : (⟨S1024, .i32⟩ : BufTy).Contents (Elt F) → (⟨S1024, .i32⟩ : BufTy).Contents (Elt F) → (⟨S1024, .i32⟩ : BufTy).Contents (Elt F)),
    StableHlo.nullary main_cst_39 (constant S_ .f32 0x00000000#32) ]
theorem main_part2_ops4_sub : (main_part2_ops4 : List (HloOp τ sig (Elt F))).Forall fun op => op.bufs ⊆ StableHlo.tcRefs τ sig :=
  ⟨StableHlo.binary_bufs_sub .., StableHlo.nullary_bufs_sub ..⟩
/-- 5 host operations of @_where_1 (main_call6), window 2 (statements 121 … 180), in order. -/
abbrev main_part2_ops5 : List (HloOp τ sig (Elt F)) :=
  [ StableHlo.TRef.unary (.of main_cst_39 : StableHlo.TRef sig ⟨S_, .f32⟩) (.of main_call6_v0 : StableHlo.TRef sig ⟨S_, .f32⟩) id,
    StableHlo.TRef.unary (.of main_call6_v0 : StableHlo.TRef sig ⟨S_, .f32⟩) (.of main_call6_v1 : StableHlo.TRef sig ⟨S1024, .f32⟩) (broadcastInDim S1024 ![] bcast_S_S1024),
    StableHlo.TRef.unary (.of main_v116 : StableHlo.TRef sig ⟨S1024, .i1⟩) (.of main_call6_v2 : StableHlo.TRef sig ⟨S16x1024, .i1⟩) (broadcastInDim S16x1024 ![1] bcast_S1024_S16x1024_1),
    StableHlo.TRef.unary (.of main_call6_v1 : StableHlo.TRef sig ⟨S1024, .f32⟩) (.of main_call6_v3 : StableHlo.TRef sig ⟨S16x1024, .f32⟩) (broadcastInDim S16x1024 ![1] bcast_S1024_S16x1024_1),
    StableHlo.TRef.ternary (.of main_call6_v2 : StableHlo.TRef sig ⟨S16x1024, .i1⟩) (.of main_v101 : StableHlo.TRef sig ⟨S16x1024, .f32⟩) (.of main_call6_v3 : StableHlo.TRef sig ⟨S16x1024, .f32⟩) (.of main_v122 : StableHlo.TRef sig ⟨S16x1024, .f32⟩) select ]
theorem main_part2_ops5_sub : (main_part2_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 15 host operations of @main, window 2 (statements 121 … 180), in order. -/
abbrev main_part2_ops6 : List (HloOp τ sig (Elt F)) :=
  [ StableHlo.nullary main_c_40 (constantI S_ 32 0#32),
    StableHlo.unary main_c_40 main_v123 (broadcastInDim S1024 ![] bcast_S_S1024 : (⟨S_, .i32⟩ : BufTy).Contents (Elt F) → (⟨S1024, .i32⟩ : BufTy).Contents (Elt F)),
    StableHlo.binary main_v27 main_v123 main_v124 (cmpi .slt : (⟨S1024, .i32⟩ : BufTy).Contents (Elt F) → (⟨S1024, .i32⟩ : BufTy).Contents (Elt F) → (⟨S1024, .i1⟩ : BufTy).Contents (Elt F)),
    StableHlo.nullary main_c_41 (constantI S_ 32 1024#32),
    StableHlo.unary main_c_41 main_v125 (broadcastInDim S1024 ![] bcast_S_S1024 : (⟨S_, .i32⟩ : BufTy).Contents (Elt F) → (⟨S1024, .i32⟩ : BufTy).Contents (Elt F)),
    StableHlo.binary main_v27 main_v125 main_v126 (addi : (⟨S1024, .i32⟩ : BufTy).Contents (Elt F) → (⟨S1024, .i32⟩ : BufTy).Contents (Elt F) → (⟨S1024, .i32⟩ : BufTy).Contents (Elt F)),
    StableHlo.ternary main_v124 main_v126 main_v27 main_v127 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_c_42 (constantI S_ 32 0#32),
    StableHlo.unary main_c_42 main_v128 (broadcastInDim S1024 ![] bcast_S_S1024 : (⟨S_, .i32⟩ : BufTy).Contents (Elt F) → (⟨S1024, .i32⟩ : BufTy).Contents (Elt F)),
    StableHlo.binary main_v121 main_v128 main_v129 (cmpi .slt : (⟨S1024, .i32⟩ : BufTy).Contents (Elt F) → (⟨S1024, .i32⟩ : BufTy).Contents (Elt F) → (⟨S1024, .i1⟩ : BufTy).Contents (Elt F)),
    StableHlo.nullary main_c_43 (constantI S_ 32 1024#32),
    StableHlo.unary main_c_43 main_v130 (broadcastInDim S1024 ![] bcast_S_S1024 : (⟨S_, .i32⟩ : BufTy).Contents (Elt F) → (⟨S1024, .i32⟩ : BufTy).Contents (Elt F)),
    StableHlo.binary main_v121 main_v130 main_v131 (addi : (⟨S1024, .i32⟩ : BufTy).Contents (Elt F) → (⟨S1024, .i32⟩ : BufTy).Contents (Elt F) → (⟨S1024, .i32⟩ : BufTy).Contents (Elt F)),
    StableHlo.ternary main_v129 main_v131 main_v121 main_v132 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v127 main_v133 (broadcastInDim S1024x1 ![0] bcast_S1024_S1024x1_0 : (⟨S1024, .i32⟩ : BufTy).Contents (Elt F) → (⟨S1024x1, .i32⟩ : BufTy).Contents (Elt F)) ]
theorem main_part2_ops6_sub : (main_part2_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
/-- 34 host operations of @main, window 3 (statements 181 … 240), in order. -/
abbrev main_part3_ops0 : List (HloOp τ sig (Elt F)) :=
  ( StableHlo.unary main_v132 main_v134 (broadcastInDim S1024x1 ![0] bcast_S1024_S1024x1_0 : (⟨S1024, .i32⟩ : BufTy).Contents (Elt F) → (⟨S1024x1, .i32⟩ : BufTy).Contents (Elt F))
  :: StableHlo.binary main_v133 main_v134 main_v135 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v95 main_v135 main_v122 main_v136 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v137 (Host.negf : (⟨S16x1024, .f32⟩ : BufTy).Contents (Elt F) → (⟨S16x1024, .f32⟩ : BufTy).Contents (Elt F))
  :: StableHlo.nullary main_cst_44 (constant S_ .f32 0x3F800000#32)
  :: StableHlo.unary main_cst_44 main_v138 (broadcastInDim S16x1024 ![] bcast_S_S16x1024 : (⟨S_, .f32⟩ : BufTy).Contents (Elt F) → (⟨S16x1024, .f32⟩ : BufTy).Contents (Elt F))
  :: StableHlo.binary main_v137 main_v138 main_v139 (Host.divf : (⟨S16x1024, .f32⟩ : BufTy).Contents (Elt F) → (⟨S16x1024, .f32⟩ : BufTy).Contents (Elt F) → (⟨S16x1024, .f32⟩ : BufTy).Contents (Elt F))
  :: StableHlo.nullary main_cst_45 (constant S_ .f32 0x40000000#32)
  :: StableHlo.unary main_cst_45 main_v140 (broadcastInDim S16x1024 ![] bcast_S_S16x1024 : (⟨S_, .f32⟩ : BufTy).Contents (Elt F) → (⟨S16x1024, .f32⟩ : BufTy).Contents (Elt F))
  :: StableHlo.binary main_v21 main_v140 main_v141 (Host.divf : (⟨S16x1024, .f32⟩ : BufTy).Contents (Elt F) → (⟨S16x1024, .f32⟩ : BufTy).Contents (Elt F) → (⟨S16x1024, .f32⟩ : BufTy).Contents (Elt F))
  :: StableHlo.binary main_v139 main_v141 main_v142 (addf : (⟨S16x1024, .f32⟩ : BufTy).Contents (Elt F) → (⟨S16x1024, .f32⟩ : BufTy).Contents (Elt F) → (⟨S16x1024, .f32⟩ : BufTy).Contents (Elt F))
  :: StableHlo.nullary main_c_46 (constantI S_ 32 1#32)
  :: StableHlo.unary main_c_46 main_v143 (broadcastInDim S1024 ![] bcast_S_S1024 : (⟨S_, .i32⟩ : BufTy).Contents (Elt F) → (⟨S1024, .i32⟩ : BufTy).Contents (Elt F))
  :: StableHlo.binary main_v26_0 main_v143 main_v144 (addi : (⟨S1024, .i32⟩ : BufTy).Contents (Elt F) → (⟨S1024, .i32⟩ : BufTy).Contents (Elt F) → (⟨S1024, .i32⟩ : BufTy).Contents (Elt F))
  :: StableHlo.nullary main_c_47 (constantI S_ 32 0#32)
  :: StableHlo.unary main_c_47 main_v145 (broadcastInDim S1024 ![] bcast_S_S1024 : (⟨S_, .i32⟩ : BufTy).Contents (Elt F) → (⟨S1024, .i32⟩ : BufTy).Contents (Elt F))
  :: StableHlo.binary main_v26_1 main_v145 main_v146 (addi : (⟨S1024, .i32⟩ : BufTy).Contents (Elt F) → (⟨S1024, .i32⟩ : BufTy).Contents (Elt F) → (⟨S1024, .i32⟩ : BufTy).Contents (Elt F))
  :: StableHlo.nullary main_c_48 (constantI S_ 32 0#32)
  :: StableHlo.unary main_c_48 main_v147 (broadcastInDim S1024 ![] bcast_S_S1024 : (⟨S_, .i32⟩ : BufTy).Contents (Elt F) → (⟨S1024, .i32⟩ : BufTy).Contents (Elt F))
  :: StableHlo.binary main_v144 main_v147 main_v148 (cmpi .sge : (⟨S1024, .i32⟩ : BufTy).Contents (Elt F) → (⟨S1024, .i32⟩ : BufTy).Contents (Elt F) → (⟨S1024, .i1⟩ : BufTy).Contents (Elt F))
  :: StableHlo.nullary main_c_49 (constantI S_ 32 32#32)
  :: StableHlo.unary main_c_49 main_v149 (broadcastInDim S1024 ![] bcast_S_S1024 : (⟨S_, .i32⟩ : BufTy).Contents (Elt F) → (⟨S1024, .i32⟩ : BufTy).Contents (Elt F))
  :: StableHlo.binary main_v144 main_v149 main_v150 (cmpi .slt : (⟨S1024, .i32⟩ : BufTy).Contents (Elt F) → (⟨S1024, .i32⟩ : BufTy).Contents (Elt F) → (⟨S1024, .i1⟩ : BufTy).Contents (Elt F))
  :: StableHlo.binary main_v148 main_v150 main_v151 (andi : (⟨S1024, .i1⟩ : BufTy).Contents (Elt F) → (⟨S1024, .i1⟩ : BufTy).Contents (Elt F) → (⟨S1024, .i1⟩ : BufTy).Contents (Elt F))
  :: StableHlo.nullary main_c_50 (constantI S_ 32 0#32)
  :: StableHlo.unary main_c_50 main_v152 (broadcastInDim S1024 ![] bcast_S_S1024 : (⟨S_, .i32⟩ : BufTy).Contents (Elt F) → (⟨S1024, .i32⟩ : BufTy).Contents (Elt F))
  :: StableHlo.binary main_v146 main_v152 main_v153 (cmpi .sge : (⟨S1024, .i32⟩ : BufTy).Contents (Elt F) → (⟨S1024, .i32⟩ : BufTy).Contents (Elt F) → (⟨S1024, .i1⟩ : BufTy).Contents (Elt F))
  :: StableHlo.binary main_v151 main_v153 main_v154 (andi : (⟨S1024, .i1⟩ : BufTy).Contents (Elt F) → (⟨S1024, .i1⟩ : BufTy).Contents (Elt F) → (⟨S1024, .i1⟩ : BufTy).Contents (Elt F))
  :: StableHlo.nullary main_c_51 (constantI S_ 32 32#32)
  :: StableHlo.unary main_c_51 main_v155 (broadcastInDim S1024 ![] bcast_S_S1024 : (⟨S_, .i32⟩ : BufTy).Contents (Elt F) → (⟨S1024, .i32⟩ : BufTy).Contents (Elt F))
  :: StableHlo.binary main_v146 main_v155 main_v156 (cmpi .slt : (⟨S1024, .i32⟩ : BufTy).Contents (Elt F) → (⟨S1024, .i32⟩ : BufTy).Contents (Elt F) → (⟨S1024, .i1⟩ : BufTy).Contents (Elt F))
  :: StableHlo.binary main_v154 main_v156 main_v157 (andi : (⟨S1024, .i1⟩ : BufTy).Contents (Elt F) → (⟨S1024, .i1⟩ : BufTy).Contents (Elt F) → (⟨S1024, .i1⟩ : BufTy).Contents (Elt F))
  :: StableHlo.nullary main_c_52 (constantI S_ 32 0#32)
  :: StableHlo.nullary main_c_53 (constantI S_ 32 31#32)
  :: [] )
theorem main_part3_ops0_sub : (main_part3_ops0 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call7), window 3 (statements 181 … 240), in order. -/
abbrev main_part3_ops1 : List (HloOp τ sig (Elt F)) :=
  [ StableHlo.TRef.unary (.of main_c_52 : StableHlo.TRef sig ⟨S_, .i32⟩) (.of main_call7_v0 : StableHlo.TRef sig ⟨S_, .i32⟩) id,
    StableHlo.TRef.unary (.of main_call7_v0 : StableHlo.TRef sig ⟨S_, .i32⟩) (.of main_call7_v1 : StableHlo.TRef sig ⟨S1024, .i32⟩) (broadcastInDim S1024 ![] bcast_S_S1024),
    StableHlo.TRef.binary (.of main_call7_v1 : StableHlo.TRef sig ⟨S1024, .i32⟩) (.of main_v144 : StableHlo.TRef sig ⟨S1024, .i32⟩) (.of main_call7_v2 : StableHlo.TRef sig ⟨S1024, .i32⟩) maxsi,
    StableHlo.TRef.unary (.of main_c_53 : StableHlo.TRef sig ⟨S_, .i32⟩) (.of main_call7_v3 : StableHlo.TRef sig ⟨S_, .i32⟩) id,
    StableHlo.TRef.unary (.of main_call7_v3 : StableHlo.TRef sig ⟨S_, .i32⟩) (.of main_call7_v4 : StableHlo.TRef sig ⟨S1024, .i32⟩) (broadcastInDim S1024 ![] bcast_S_S1024),
    StableHlo.TRef.binary (.of main_call7_v4 : StableHlo.TRef sig ⟨S1024, .i32⟩) (.of main_call7_v2 : StableHlo.TRef sig ⟨S1024, .i32⟩) (.of main_v158 : StableHlo.TRef sig ⟨S1024, .i32⟩) minsi ]
theorem main_part3_ops1_sub : (main_part3_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 3 (statements 181 … 240), in order. -/
abbrev main_part3_ops2 : List (HloOp τ sig (Elt F)) :=
  [ StableHlo.nullary main_c_54 (constantI S_ 32 32#32),
    StableHlo.unary main_c_54 main_v159 (broadcastInDim S1024 ![] bcast_S_S1024 : (⟨S_, .i32⟩ : BufTy).Contents (Elt F) → (⟨S1024, .i32⟩ : BufTy).Contents (Elt F)),
    StableHlo.binary main_v158 main_v159 main_v160 (muli : (⟨S1024, .i32⟩ : BufTy).Contents (Elt F) → (⟨S1024, .i32⟩ : BufTy).Contents (Elt F) → (⟨S1024, .i32⟩ : BufTy).Contents (Elt F)),
    StableHlo.nullary main_c_55 (constantI S_ 32 0#32),
    StableHlo.nullary main_c_56 (constantI S_ 32 31#32) ]
theorem main_part3_ops2_sub : (main_part3_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call8), window 3 (statements 181 … 240), in order. -/
abbrev main_part3_ops3 : List (HloOp τ sig (Elt F)) :=
  [ StableHlo.TRef.unary (.of main_c_55 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S1024, .i32⟩) (broadcastInDim S1024 ![] bcast_S_S1024),
    StableHlo.TRef.binary (.of main_call8_v1 : StableHlo.TRef sig ⟨S1024, .i32⟩) (.of main_v146 : StableHlo.TRef sig ⟨S1024, .i32⟩) (.of main_call8_v2 : StableHlo.TRef sig ⟨S1024, .i32⟩) maxsi,
    StableHlo.TRef.unary (.of main_c_56 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S1024, .i32⟩) (broadcastInDim S1024 ![] bcast_S_S1024),
    StableHlo.TRef.binary (.of main_call8_v4 : StableHlo.TRef sig ⟨S1024, .i32⟩) (.of main_call8_v2 : StableHlo.TRef sig ⟨S1024, .i32⟩) (.of main_v161 : StableHlo.TRef sig ⟨S1024, .i32⟩) minsi ]
theorem main_part3_ops3_sub : (main_part3_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 3 (statements 181 … 240), in order. -/
abbrev main_part3_ops4 : List (HloOp τ sig (Elt F)) :=
  [ StableHlo.binary main_v160 main_v161 main_v162 (addi : (⟨S1024, .i32⟩ : BufTy).Contents (Elt F) → (⟨S1024, .i32⟩ : BufTy).Contents (Elt F) → (⟨S1024, .i32⟩ : BufTy).Contents (Elt F)),
    StableHlo.nullary main_cst_57 (constant S_ .f32 0x00000000#32) ]
theorem main_part3_ops4_sub : (main_part3_ops4 : List (HloOp τ sig (Elt F))).Forall fun op => op.bufs ⊆ StableHlo.tcRefs τ sig :=
  ⟨StableHlo.binary_bufs_sub .., StableHlo.nullary_bufs_sub ..⟩
/-- 5 host operations of @_where_1 (main_call9), window 3 (statements 181 … 240), in order. -/
abbrev main_part3_ops5 : List (HloOp τ sig (Elt F)) :=
  [ StableHlo.TRef.unary (.of main_cst_57 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S1024, .f32⟩) (broadcastInDim S1024 ![] bcast_S_S1024),
    StableHlo.TRef.unary (.of main_v157 : StableHlo.TRef sig ⟨S1024, .i1⟩) (.of main_call9_v2 : StableHlo.TRef sig ⟨S16x1024, .i1⟩) (broadcastInDim S16x1024 ![1] bcast_S1024_S16x1024_1),
    StableHlo.TRef.unary (.of main_call9_v1 : StableHlo.TRef sig ⟨S1024, .f32⟩) (.of main_call9_v3 : StableHlo.TRef sig ⟨S16x1024, .f32⟩) (broadcastInDim S16x1024 ![1] bcast_S1024_S16x1024_1),
    StableHlo.TRef.ternary (.of main_call9_v2 : StableHlo.TRef sig ⟨S16x1024, .i1⟩) (.of main_v142 : StableHlo.TRef sig ⟨S16x1024, .f32⟩) (.of main_call9_v3 : StableHlo.TRef sig ⟨S16x1024, .f32⟩) (.of main_v163 : StableHlo.TRef sig ⟨S16x1024, .f32⟩) select ]
theorem main_part3_ops5_sub : (main_part3_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 16 host operations of @main, window 3 (statements 181 … 240), in order. -/
abbrev main_part3_ops6 : List (HloOp τ sig (Elt F)) :=
  [ StableHlo.nullary main_c_58 (constantI S_ 32 0#32),
    StableHlo.unary main_c_58 main_v164 (broadcastInDim S1024 ![] bcast_S_S1024 : (⟨S_, .i32⟩ : BufTy).Contents (Elt F) → (⟨S1024, .i32⟩ : BufTy).Contents (Elt F)),
    StableHlo.binary main_v27 main_v164 main_v165 (cmpi .slt : (⟨S1024, .i32⟩ : BufTy).Contents (Elt F) → (⟨S1024, .i32⟩ : BufTy).Contents (Elt F) → (⟨S1024, .i1⟩ : BufTy).Contents (Elt F)),
    StableHlo.nullary main_c_59 (constantI S_ 32 1024#32),
    StableHlo.unary main_c_59 main_v166 (broadcastInDim S1024 ![] bcast_S_S1024 : (⟨S_, .i32⟩ : BufTy).Contents (Elt F) → (⟨S1024, .i32⟩ : BufTy).Contents (Elt F)),
    StableHlo.binary main_v27 main_v166 main_v167 (addi : (⟨S1024, .i32⟩ : BufTy).Contents (Elt F) → (⟨S1024, .i32⟩ : BufTy).Contents (Elt F) → (⟨S1024, .i32⟩ : BufTy).Contents (Elt F)),
    StableHlo.ternary main_v165 main_v167 main_v27 main_v168 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_c_60 (constantI S_ 32 0#32),
    StableHlo.unary main_c_60 main_v169 (broadcastInDim S1024 ![] bcast_S_S1024 : (⟨S_, .i32⟩ : BufTy).Contents (Elt F) → (⟨S1024, .i32⟩ : BufTy).Contents (Elt F)),
    StableHlo.binary main_v162 main_v169 main_v170 (cmpi .slt : (⟨S1024, .i32⟩ : BufTy).Contents (Elt F) → (⟨S1024, .i32⟩ : BufTy).Contents (Elt F) → (⟨S1024, .i1⟩ : BufTy).Contents (Elt F)),
    StableHlo.nullary main_c_61 (constantI S_ 32 1024#32),
    StableHlo.unary main_c_61 main_v171 (broadcastInDim S1024 ![] bcast_S_S1024 : (⟨S_, .i32⟩ : BufTy).Contents (Elt F) → (⟨S1024, .i32⟩ : BufTy).Contents (Elt F)),
    StableHlo.binary main_v162 main_v171 main_v172 (addi : (⟨S1024, .i32⟩ : BufTy).Contents (Elt F) → (⟨S1024, .i32⟩ : BufTy).Contents (Elt F) → (⟨S1024, .i32⟩ : BufTy).Contents (Elt F)),
    StableHlo.ternary main_v170 main_v172 main_v162 main_v173 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v168 main_v174 (broadcastInDim S1024x1 ![0] bcast_S1024_S1024x1_0 : (⟨S1024, .i32⟩ : BufTy).Contents (Elt F) → (⟨S1024x1, .i32⟩ : BufTy).Contents (Elt F)),
    StableHlo.unary main_v173 main_v175 (broadcastInDim S1024x1 ![0] bcast_S1024_S1024x1_0 : (⟨S1024, .i32⟩ : BufTy).Contents (Elt F) → (⟨S1024x1, .i32⟩ : BufTy).Contents (Elt F)) ]
theorem main_part3_ops6_sub : (main_part3_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub ..⟩
/-- 33 host operations of @main, window 4 (statements 241 … 300), in order. -/
abbrev main_part4_ops0 : List (HloOp τ sig (Elt F)) :=
  ( StableHlo.binary main_v174 main_v175 main_v176 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v136 main_v176 main_v163 main_v177 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v178 (Host.negf : (⟨S16x1024, .f32⟩ : BufTy).Contents (Elt F) → (⟨S16x1024, .f32⟩ : BufTy).Contents (Elt F))
  :: StableHlo.nullary main_cst_62 (constant S_ .f32 0x3F800000#32)
  :: StableHlo.unary main_cst_62 main_v179 (broadcastInDim S16x1024 ![] bcast_S_S16x1024 : (⟨S_, .f32⟩ : BufTy).Contents (Elt F) → (⟨S16x1024, .f32⟩ : BufTy).Contents (Elt F))
  :: StableHlo.binary main_v178 main_v179 main_v180 (Host.divf : (⟨S16x1024, .f32⟩ : BufTy).Contents (Elt F) → (⟨S16x1024, .f32⟩ : BufTy).Contents (Elt F) → (⟨S16x1024, .f32⟩ : BufTy).Contents (Elt F))
  :: StableHlo.nullary main_cst_63 (constant S_ .f32 0x40000000#32)
  :: StableHlo.unary main_cst_63 main_v181 (broadcastInDim S16x1024 ![] bcast_S_S16x1024 : (⟨S_, .f32⟩ : BufTy).Contents (Elt F) → (⟨S16x1024, .f32⟩ : BufTy).Contents (Elt F))
  :: StableHlo.binary main_v21 main_v181 main_v182 (Host.divf : (⟨S16x1024, .f32⟩ : BufTy).Contents (Elt F) → (⟨S16x1024, .f32⟩ : BufTy).Contents (Elt F) → (⟨S16x1024, .f32⟩ : BufTy).Contents (Elt F))
  :: StableHlo.binary main_v180 main_v182 main_v183 (subf : (⟨S16x1024, .f32⟩ : BufTy).Contents (Elt F) → (⟨S16x1024, .f32⟩ : BufTy).Contents (Elt F) → (⟨S16x1024, .f32⟩ : BufTy).Contents (Elt F))
  :: StableHlo.nullary main_c_64 (constantI S_ 32 4294967295#32)
  :: StableHlo.unary main_c_64 main_v184 (broadcastInDim S1024 ![] bcast_S_S1024 : (⟨S_, .i32⟩ : BufTy).Contents (Elt F) → (⟨S1024, .i32⟩ : BufTy).Contents (Elt F))
  :: StableHlo.binary main_v26_0 main_v184 main_v185 (addi : (⟨S1024, .i32⟩ : BufTy).Contents (Elt F) → (⟨S1024, .i32⟩ : BufTy).Contents (Elt F) → (⟨S1024, .i32⟩ : BufTy).Contents (Elt F))
  :: StableHlo.nullary main_c_65 (constantI S_ 32 0#32)
  :: StableHlo.unary main_c_65 main_v186 (broadcastInDim S1024 ![] bcast_S_S1024 : (⟨S_, .i32⟩ : BufTy).Contents (Elt F) → (⟨S1024, .i32⟩ : BufTy).Contents (Elt F))
  :: StableHlo.binary main_v26_1 main_v186 main_v187 (addi : (⟨S1024, .i32⟩ : BufTy).Contents (Elt F) → (⟨S1024, .i32⟩ : BufTy).Contents (Elt F) → (⟨S1024, .i32⟩ : BufTy).Contents (Elt F))
  :: StableHlo.nullary main_c_66 (constantI S_ 32 0#32)
  :: StableHlo.unary main_c_66 main_v188 (broadcastInDim S1024 ![] bcast_S_S1024 : (⟨S_, .i32⟩ : BufTy).Contents (Elt F) → (⟨S1024, .i32⟩ : BufTy).Contents (Elt F))
  :: StableHlo.binary main_v185 main_v188 main_v189 (cmpi .sge : (⟨S1024, .i32⟩ : BufTy).Contents (Elt F) → (⟨S1024, .i32⟩ : BufTy).Contents (Elt F) → (⟨S1024, .i1⟩ : BufTy).Contents (Elt F))
  :: StableHlo.nullary main_c_67 (constantI S_ 32 32#32)
  :: StableHlo.unary main_c_67 main_v190 (broadcastInDim S1024 ![] bcast_S_S1024 : (⟨S_, .i32⟩ : BufTy).Contents (Elt F) → (⟨S1024, .i32⟩ : BufTy).Contents (Elt F))
  :: StableHlo.binary main_v185 main_v190 main_v191 (cmpi .slt : (⟨S1024, .i32⟩ : BufTy).Contents (Elt F) → (⟨S1024, .i32⟩ : BufTy).Contents (Elt F) → (⟨S1024, .i1⟩ : BufTy).Contents (Elt F))
  :: StableHlo.binary main_v189 main_v191 main_v192 (andi : (⟨S1024, .i1⟩ : BufTy).Contents (Elt F) → (⟨S1024, .i1⟩ : BufTy).Contents (Elt F) → (⟨S1024, .i1⟩ : BufTy).Contents (Elt F))
  :: StableHlo.nullary main_c_68 (constantI S_ 32 0#32)
  :: StableHlo.unary main_c_68 main_v193 (broadcastInDim S1024 ![] bcast_S_S1024 : (⟨S_, .i32⟩ : BufTy).Contents (Elt F) → (⟨S1024, .i32⟩ : BufTy).Contents (Elt F))
  :: StableHlo.binary main_v187 main_v193 main_v194 (cmpi .sge : (⟨S1024, .i32⟩ : BufTy).Contents (Elt F) → (⟨S1024, .i32⟩ : BufTy).Contents (Elt F) → (⟨S1024, .i1⟩ : BufTy).Contents (Elt F))
  :: StableHlo.binary main_v192 main_v194 main_v195 (andi : (⟨S1024, .i1⟩ : BufTy).Contents (Elt F) → (⟨S1024, .i1⟩ : BufTy).Contents (Elt F) → (⟨S1024, .i1⟩ : BufTy).Contents (Elt F))
  :: StableHlo.nullary main_c_69 (constantI S_ 32 32#32)
  :: StableHlo.unary main_c_69 main_v196 (broadcastInDim S1024 ![] bcast_S_S1024 : (⟨S_, .i32⟩ : BufTy).Contents (Elt F) → (⟨S1024, .i32⟩ : BufTy).Contents (Elt F))
  :: StableHlo.binary main_v187 main_v196 main_v197 (cmpi .slt : (⟨S1024, .i32⟩ : BufTy).Contents (Elt F) → (⟨S1024, .i32⟩ : BufTy).Contents (Elt F) → (⟨S1024, .i1⟩ : BufTy).Contents (Elt F))
  :: StableHlo.binary main_v195 main_v197 main_v198 (andi : (⟨S1024, .i1⟩ : BufTy).Contents (Elt F) → (⟨S1024, .i1⟩ : BufTy).Contents (Elt F) → (⟨S1024, .i1⟩ : BufTy).Contents (Elt F))
  :: StableHlo.nullary main_c_70 (constantI S_ 32 0#32)
  :: StableHlo.nullary main_c_71 (constantI S_ 32 31#32)
  :: [] )
theorem main_part4_ops0_sub : (main_part4_ops0 : List (HloOp τ sig (Elt F))).Forall fun op => op.bufs ⊆ StableHlo.tcRefs τ sig :=
  ⟨StableHlo.binary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call10), window 4 (statements 241 … 300), in order. -/
abbrev main_part4_ops1 : List (HloOp τ sig (Elt F)) :=
  [ StableHlo.TRef.unary (.of main_c_70 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S1024, .i32⟩) (broadcastInDim S1024 ![] bcast_S_S1024),
    StableHlo.TRef.binary (.of main_call10_v1 : StableHlo.TRef sig ⟨S1024, .i32⟩) (.of main_v185 : StableHlo.TRef sig ⟨S1024, .i32⟩) (.of main_call10_v2 : StableHlo.TRef sig ⟨S1024, .i32⟩) maxsi,
    StableHlo.TRef.unary (.of main_c_71 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S1024, .i32⟩) (broadcastInDim S1024 ![] bcast_S_S1024),
    StableHlo.TRef.binary (.of main_call10_v4 : StableHlo.TRef sig ⟨S1024, .i32⟩) (.of main_call10_v2 : StableHlo.TRef sig ⟨S1024, .i32⟩) (.of main_v199 : StableHlo.TRef sig ⟨S1024, .i32⟩) minsi ]
theorem main_part4_ops1_sub : (main_part4_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 4 (statements 241 … 300), in order. -/
abbrev main_part4_ops2 : List (HloOp τ sig (Elt F)) :=
  [ StableHlo.nullary main_c_72 (constantI S_ 32 32#32),
    StableHlo.unary main_c_72 main_v200 (broadcastInDim S1024 ![] bcast_S_S1024 : (⟨S_, .i32⟩ : BufTy).Contents (Elt F) → (⟨S1024, .i32⟩ : BufTy).Contents (Elt F)),
    StableHlo.binary main_v199 main_v200 main_v201 (muli : (⟨S1024, .i32⟩ : BufTy).Contents (Elt F) → (⟨S1024, .i32⟩ : BufTy).Contents (Elt F) → (⟨S1024, .i32⟩ : BufTy).Contents (Elt F)),
    StableHlo.nullary main_c_73 (constantI S_ 32 0#32),
    StableHlo.nullary main_c_74 (constantI S_ 32 31#32) ]
theorem main_part4_ops2_sub : (main_part4_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call11), window 4 (statements 241 … 300), in order. -/
abbrev main_part4_ops3 : List (HloOp τ sig (Elt F)) :=
  [ StableHlo.TRef.unary (.of main_c_73 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S1024, .i32⟩) (broadcastInDim S1024 ![] bcast_S_S1024),
    StableHlo.TRef.binary (.of main_call11_v1 : StableHlo.TRef sig ⟨S1024, .i32⟩) (.of main_v187 : StableHlo.TRef sig ⟨S1024, .i32⟩) (.of main_call11_v2 : StableHlo.TRef sig ⟨S1024, .i32⟩) maxsi,
    StableHlo.TRef.unary (.of main_c_74 : StableHlo.TRef sig ⟨S_, .i32⟩) (.of main_call11_v3 : StableHlo.TRef sig ⟨S_, .i32⟩) id,
    StableHlo.TRef.unary (.of main_call11_v3 : StableHlo.TRef sig ⟨S_, .i32⟩) (.of main_call11_v4 : StableHlo.TRef sig ⟨S1024, .i32⟩) (broadcastInDim S1024 ![] bcast_S_S1024),
    StableHlo.TRef.binary (.of main_call11_v4 : StableHlo.TRef sig ⟨S1024, .i32⟩) (.of main_call11_v2 : StableHlo.TRef sig ⟨S1024, .i32⟩) (.of main_v202 : StableHlo.TRef sig ⟨S1024, .i32⟩) minsi ]
theorem main_part4_ops3_sub : (main_part4_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 4 (statements 241 … 300), in order. -/
abbrev main_part4_ops4 : List (HloOp τ sig (Elt F)) :=
  [ StableHlo.binary main_v201 main_v202 main_v203 (addi : (⟨S1024, .i32⟩ : BufTy).Contents (Elt F) → (⟨S1024, .i32⟩ : BufTy).Contents (Elt F) → (⟨S1024, .i32⟩ : BufTy).Contents (Elt F)),
    StableHlo.nullary main_cst_75 (constant S_ .f32 0x00000000#32) ]
theorem main_part4_ops4_sub : (main_part4_ops4 : List (HloOp τ sig (Elt F))).Forall fun op => op.bufs ⊆ StableHlo.tcRefs τ sig :=
  ⟨StableHlo.binary_bufs_sub .., StableHlo.nullary_bufs_sub ..⟩
/-- 5 host operations of @_where_1 (main_call12), window 4 (statements 241 … 300), in order. -/
abbrev main_part4_ops5 : List (HloOp τ sig (Elt F)) :=
  [ StableHlo.TRef.unary (.of main_cst_75 : StableHlo.TRef sig ⟨S_, .f32⟩) (.of main_call12_v0 : StableHlo.TRef sig ⟨S_, .f32⟩) id,
    StableHlo.TRef.unary (.of main_call12_v0 : StableHlo.TRef sig ⟨S_, .f32⟩) (.of main_call12_v1 : StableHlo.TRef sig ⟨S1024, .f32⟩) (broadcastInDim S1024 ![] bcast_S_S1024),
    StableHlo.TRef.unary (.of main_v198 : StableHlo.TRef sig ⟨S1024, .i1⟩) (.of main_call12_v2 : StableHlo.TRef sig ⟨S16x1024, .i1⟩) (broadcastInDim S16x1024 ![1] bcast_S1024_S16x1024_1),
    StableHlo.TRef.unary (.of main_call12_v1 : StableHlo.TRef sig ⟨S1024, .f32⟩) (.of main_call12_v3 : StableHlo.TRef sig ⟨S16x1024, .f32⟩) (broadcastInDim S16x1024 ![1] bcast_S1024_S16x1024_1),
    StableHlo.TRef.ternary (.of main_call12_v2 : StableHlo.TRef sig ⟨S16x1024, .i1⟩) (.of main_v183 : StableHlo.TRef sig ⟨S16x1024, .f32⟩) (.of main_call12_v3 : StableHlo.TRef sig ⟨S16x1024, .f32⟩) (.of main_v204 : StableHlo.TRef sig ⟨S16x1024, .f32⟩) select ]
theorem main_part4_ops5_sub : (main_part4_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 17 host operations of @main, window 4 (statements 241 … 300), in order. -/
abbrev main_part4_ops6 : List (HloOp τ sig (Elt F)) :=
  [ StableHlo.nullary main_c_76 (constantI S_ 32 0#32),
    StableHlo.unary main_c_76 main_v205 (broadcastInDim S1024 ![] bcast_S_S1024 : (⟨S_, .i32⟩ : BufTy).Contents (Elt F) → (⟨S1024, .i32⟩ : BufTy).Contents (Elt F)),
    StableHlo.binary main_v27 main_v205 main_v206 (cmpi .slt : (⟨S1024, .i32⟩ : BufTy).Contents (Elt F) → (⟨S1024, .i32⟩ : BufTy).Contents (Elt F) → (⟨S1024, .i1⟩ : BufTy).Contents (Elt F)),
    StableHlo.nullary main_c_77 (constantI S_ 32 1024#32),
    StableHlo.unary main_c_77 main_v207 (broadcastInDim S1024 ![] bcast_S_S1024 : (⟨S_, .i32⟩ : BufTy).Contents (Elt F) → (⟨S1024, .i32⟩ : BufTy).Contents (Elt F)),
    StableHlo.binary main_v27 main_v207 main_v208 (addi : (⟨S1024, .i32⟩ : BufTy).Contents (Elt F) → (⟨S1024, .i32⟩ : BufTy).Contents (Elt F) → (⟨S1024, .i32⟩ : BufTy).Contents (Elt F)),
    StableHlo.ternary main_v206 main_v208 main_v27 main_v209 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_c_78 (constantI S_ 32 0#32),
    StableHlo.unary main_c_78 main_v210 (broadcastInDim S1024 ![] bcast_S_S1024 : (⟨S_, .i32⟩ : BufTy).Contents (Elt F) → (⟨S1024, .i32⟩ : BufTy).Contents (Elt F)),
    StableHlo.binary main_v203 main_v210 main_v211 (cmpi .slt : (⟨S1024, .i32⟩ : BufTy).Contents (Elt F) → (⟨S1024, .i32⟩ : BufTy).Contents (Elt F) → (⟨S1024, .i1⟩ : BufTy).Contents (Elt F)),
    StableHlo.nullary main_c_79 (constantI S_ 32 1024#32),
    StableHlo.unary main_c_79 main_v212 (broadcastInDim S1024 ![] bcast_S_S1024 : (⟨S_, .i32⟩ : BufTy).Contents (Elt F) → (⟨S1024, .i32⟩ : BufTy).Contents (Elt F)),
    StableHlo.binary main_v203 main_v212 main_v213 (addi : (⟨S1024, .i32⟩ : BufTy).Contents (Elt F) → (⟨S1024, .i32⟩ : BufTy).Contents (Elt F) → (⟨S1024, .i32⟩ : BufTy).Contents (Elt F)),
    StableHlo.ternary main_v211 main_v213 main_v203 main_v214 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v209 main_v215 (broadcastInDim S1024x1 ![0] bcast_S1024_S1024x1_0 : (⟨S1024, .i32⟩ : BufTy).Contents (Elt F) → (⟨S1024x1, .i32⟩ : BufTy).Contents (Elt F)),
    StableHlo.unary main_v214 main_v216 (broadcastInDim S1024x1 ![0] bcast_S1024_S1024x1_0 : (⟨S1024, .i32⟩ : BufTy).Contents (Elt F) → (⟨S1024x1, .i32⟩ : BufTy).Contents (Elt F)),
    StableHlo.binary main_v215 main_v216 main_v217 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)) ]
theorem main_part4_ops6_sub : (main_part4_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub ..⟩
/-- 28 host operations of @main, window 5 (statements 301 … 360), in order. -/
abbrev main_part5_ops0 : List (HloOp τ sig (Elt F)) :=
  [ StableHlo.ternary main_v177 main_v217 main_v204 main_v218 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F)),
    StableHlo.nullary main_cst_80 (constant S_ .f32 0x40000000#32),
    StableHlo.unary main_cst_80 main_v219 (broadcastInDim S16x1024 ![] bcast_S_S16x1024 : (⟨S_, .f32⟩ : BufTy).Contents (Elt F) → (⟨S16x1024, .f32⟩ : BufTy).Contents (Elt F)),
    StableHlo.binary main_v23 main_v219 main_v220 (Host.divf : (⟨S16x1024, .f32⟩ : BufTy).Contents (Elt F) → (⟨S16x1024, .f32⟩ : BufTy).Contents (Elt F) → (⟨S16x1024, .f32⟩ : BufTy).Contents (Elt F)),
    StableHlo.unary main_v220 main_v221 (Host.negf : (⟨S16x1024, .f32⟩ : BufTy).Contents (Elt F) → (⟨S16x1024, .f32⟩ : BufTy).Contents (Elt F)),
    StableHlo.nullary main_c_81 (constantI S_ 32 1#32),
    StableHlo.unary main_c_81 main_v222 (broadcastInDim S1024 ![] bcast_S_S1024 : (⟨S_, .i32⟩ : BufTy).Contents (Elt F) → (⟨S1024, .i32⟩ : BufTy).Contents (Elt F)),
    StableHlo.binary main_v26_0 main_v222 main_v223 (addi : (⟨S1024, .i32⟩ : BufTy).Contents (Elt F) → (⟨S1024, .i32⟩ : BufTy).Contents (Elt F) → (⟨S1024, .i32⟩ : BufTy).Contents (Elt F)),
    StableHlo.nullary main_c_82 (constantI S_ 32 1#32),
    StableHlo.unary main_c_82 main_v224 (broadcastInDim S1024 ![] bcast_S_S1024 : (⟨S_, .i32⟩ : BufTy).Contents (Elt F) → (⟨S1024, .i32⟩ : BufTy).Contents (Elt F)),
    StableHlo.binary main_v26_1 main_v224 main_v225 (addi : (⟨S1024, .i32⟩ : BufTy).Contents (Elt F) → (⟨S1024, .i32⟩ : BufTy).Contents (Elt F) → (⟨S1024, .i32⟩ : BufTy).Contents (Elt F)),
    StableHlo.nullary main_c_83 (constantI S_ 32 0#32),
    StableHlo.unary main_c_83 main_v226 (broadcastInDim S1024 ![] bcast_S_S1024 : (⟨S_, .i32⟩ : BufTy).Contents (Elt F) → (⟨S1024, .i32⟩ : BufTy).Contents (Elt F)),
    StableHlo.binary main_v223 main_v226 main_v227 (cmpi .sge : (⟨S1024, .i32⟩ : BufTy).Contents (Elt F) → (⟨S1024, .i32⟩ : BufTy).Contents (Elt F) → (⟨S1024, .i1⟩ : BufTy).Contents (Elt F)),
    StableHlo.nullary main_c_84 (constantI S_ 32 32#32),
    StableHlo.unary main_c_84 main_v228 (broadcastInDim S1024 ![] bcast_S_S1024 : (⟨S_, .i32⟩ : BufTy).Contents (Elt F) → (⟨S1024, .i32⟩ : BufTy).Contents (Elt F)),
    StableHlo.binary main_v223 main_v228 main_v229 (cmpi .slt : (⟨S1024, .i32⟩ : BufTy).Contents (Elt F) → (⟨S1024, .i32⟩ : BufTy).Contents (Elt F) → (⟨S1024, .i1⟩ : BufTy).Contents (Elt F)),
    StableHlo.binary main_v227 main_v229 main_v230 (andi : (⟨S1024, .i1⟩ : BufTy).Contents (Elt F) → (⟨S1024, .i1⟩ : BufTy).Contents (Elt F) → (⟨S1024, .i1⟩ : BufTy).Contents (Elt F)),
    StableHlo.nullary main_c_85 (constantI S_ 32 0#32),
    StableHlo.unary main_c_85 main_v231 (broadcastInDim S1024 ![] bcast_S_S1024 : (⟨S_, .i32⟩ : BufTy).Contents (Elt F) → (⟨S1024, .i32⟩ : BufTy).Contents (Elt F)),
    StableHlo.binary main_v225 main_v231 main_v232 (cmpi .sge : (⟨S1024, .i32⟩ : BufTy).Contents (Elt F) → (⟨S1024, .i32⟩ : BufTy).Contents (Elt F) → (⟨S1024, .i1⟩ : BufTy).Contents (Elt F)),
    StableHlo.binary main_v230 main_v232 main_v233 (andi : (⟨S1024, .i1⟩ : BufTy).Contents (Elt F) → (⟨S1024, .i1⟩ : BufTy).Contents (Elt F) → (⟨S1024, .i1⟩ : BufTy).Contents (Elt F)),
    StableHlo.nullary main_c_86 (constantI S_ 32 32#32),
    StableHlo.unary main_c_86 main_v234 (broadcastInDim S1024 ![] bcast_S_S1024 : (⟨S_, .i32⟩ : BufTy).Contents (Elt F) → (⟨S1024, .i32⟩ : BufTy).Contents (Elt F)),
    StableHlo.binary main_v225 main_v234 main_v235 (cmpi .slt : (⟨S1024, .i32⟩ : BufTy).Contents (Elt F) → (⟨S1024, .i32⟩ : BufTy).Contents (Elt F) → (⟨S1024, .i1⟩ : BufTy).Contents (Elt F)),
    StableHlo.binary main_v233 main_v235 main_v236 (andi : (⟨S1024, .i1⟩ : BufTy).Contents (Elt F) → (⟨S1024, .i1⟩ : BufTy).Contents (Elt F) → (⟨S1024, .i1⟩ : BufTy).Contents (Elt F)),
    StableHlo.nullary main_c_87 (constantI S_ 32 0#32),
    StableHlo.nullary main_c_88 (constantI S_ 32 31#32) ]
theorem main_part5_ops0_sub : (main_part5_ops0 : List (HloOp τ sig (Elt F))).Forall fun op => op.bufs ⊆ StableHlo.tcRefs τ sig :=
  ⟨StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call13), window 5 (statements 301 … 360), in order. -/
abbrev main_part5_ops1 : List (HloOp τ sig (Elt F)) :=
  [ StableHlo.TRef.unary (.of main_c_87 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S1024, .i32⟩) (broadcastInDim S1024 ![] bcast_S_S1024),
    StableHlo.TRef.binary (.of main_call13_v1 : StableHlo.TRef sig ⟨S1024, .i32⟩) (.of main_v223 : StableHlo.TRef sig ⟨S1024, .i32⟩) (.of main_call13_v2 : StableHlo.TRef sig ⟨S1024, .i32⟩) maxsi,
    StableHlo.TRef.unary (.of main_c_88 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S1024, .i32⟩) (broadcastInDim S1024 ![] bcast_S_S1024),
    StableHlo.TRef.binary (.of main_call13_v4 : StableHlo.TRef sig ⟨S1024, .i32⟩) (.of main_call13_v2 : StableHlo.TRef sig ⟨S1024, .i32⟩) (.of main_v237 : StableHlo.TRef sig ⟨S1024, .i32⟩) minsi ]
theorem main_part5_ops1_sub : (main_part5_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 5 (statements 301 … 360), in order. -/
abbrev main_part5_ops2 : List (HloOp τ sig (Elt F)) :=
  [ StableHlo.nullary main_c_89 (constantI S_ 32 32#32),
    StableHlo.unary main_c_89 main_v238 (broadcastInDim S1024 ![] bcast_S_S1024 : (⟨S_, .i32⟩ : BufTy).Contents (Elt F) → (⟨S1024, .i32⟩ : BufTy).Contents (Elt F)),
    StableHlo.binary main_v237 main_v238 main_v239 (muli : (⟨S1024, .i32⟩ : BufTy).Contents (Elt F) → (⟨S1024, .i32⟩ : BufTy).Contents (Elt F) → (⟨S1024, .i32⟩ : BufTy).Contents (Elt F)),
    StableHlo.nullary main_c_90 (constantI S_ 32 0#32),
    StableHlo.nullary main_c_91 (constantI S_ 32 31#32) ]
theorem main_part5_ops2_sub : (main_part5_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call14), window 5 (statements 301 … 360), in order. -/
abbrev main_part5_ops3 : List (HloOp τ sig (Elt F)) :=
  [ StableHlo.TRef.unary (.of main_c_90 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S1024, .i32⟩) (broadcastInDim S1024 ![] bcast_S_S1024),
    StableHlo.TRef.binary (.of main_call14_v1 : StableHlo.TRef sig ⟨S1024, .i32⟩) (.of main_v225 : StableHlo.TRef sig ⟨S1024, .i32⟩) (.of main_call14_v2 : StableHlo.TRef sig ⟨S1024, .i32⟩) maxsi,
    StableHlo.TRef.unary (.of main_c_91 : StableHlo.TRef sig ⟨S_, .i32⟩) (.of main_call14_v3 : StableHlo.TRef sig ⟨S_, .i32⟩) id,
    StableHlo.TRef.unary (.of main_call14_v3 : StableHlo.TRef sig ⟨S_, .i32⟩) (.of main_call14_v4 : StableHlo.TRef sig ⟨S1024, .i32⟩) (broadcastInDim S1024 ![] bcast_S_S1024),
    StableHlo.TRef.binary (.of main_call14_v4 : StableHlo.TRef sig ⟨S1024, .i32⟩) (.of main_call14_v2 : StableHlo.TRef sig ⟨S1024, .i32⟩) (.of main_v240 : StableHlo.TRef sig ⟨S1024, .i32⟩) minsi ]
theorem main_part5_ops3_sub : (main_part5_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 5 (statements 301 … 360), in order. -/
abbrev main_part5_ops4 : List (HloOp τ sig (Elt F)) :=
  [ StableHlo.binary main_v239 main_v240 main_v241 (addi : (⟨S1024, .i32⟩ : BufTy).Contents (Elt F) → (⟨S1024, .i32⟩ : BufTy).Contents (Elt F) → (⟨S1024, .i32⟩ : BufTy).Contents (Elt F)),
    StableHlo.nullary main_cst_92 (constant S_ .f32 0x00000000#32) ]
theorem main_part5_ops4_sub : (main_part5_ops4 : List (HloOp τ sig (Elt F))).Forall fun op => op.bufs ⊆ StableHlo.tcRefs τ sig :=
  ⟨StableHlo.binary_bufs_sub .., StableHlo.nullary_bufs_sub ..⟩
/-- 5 host operations of @_where_1 (main_call15), window 5 (statements 301 … 360), in order. -/
abbrev main_part5_ops5 : List (HloOp τ sig (Elt F)) :=
  [ StableHlo.TRef.unary (.of main_cst_92 : StableHlo.TRef sig ⟨S_, .f32⟩) (.of main_call15_v0 : StableHlo.TRef sig ⟨S_, .f32⟩) id,
    StableHlo.TRef.unary (.of main_call15_v0 : StableHlo.TRef sig ⟨S_, .f32⟩) (.of main_call15_v1 : StableHlo.TRef sig ⟨S1024, .f32⟩) (broadcastInDim S1024 ![] bcast_S_S1024),
    StableHlo.TRef.unary (.of main_v236 : StableHlo.TRef sig ⟨S1024, .i1⟩) (.of main_call15_v2 : StableHlo.TRef sig ⟨S16x1024, .i1⟩) (broadcastInDim S16x1024 ![1] bcast_S1024_S16x1024_1),
    StableHlo.TRef.unary (.of main_call15_v1 : StableHlo.TRef sig ⟨S1024, .f32⟩) (.of main_call15_v3 : StableHlo.TRef sig ⟨S16x1024, .f32⟩) (broadcastInDim S16x1024 ![1] bcast_S1024_S16x1024_1),
    StableHlo.TRef.ternary (.of main_call15_v2 : StableHlo.TRef sig ⟨S16x1024, .i1⟩) (.of main_v221 : StableHlo.TRef sig ⟨S16x1024, .f32⟩) (.of main_call15_v3 : StableHlo.TRef sig ⟨S16x1024, .f32⟩) (.of main_v242 : StableHlo.TRef sig ⟨S16x1024, .f32⟩) select ]
theorem main_part5_ops5_sub : (main_part5_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 22 host operations of @main, window 5 (statements 301 … 360), in order. -/
abbrev main_part5_ops6 : List (HloOp τ sig (Elt F)) :=
  [ StableHlo.nullary main_c_93 (constantI S_ 32 0#32),
    StableHlo.unary main_c_93 main_v243 (broadcastInDim S1024 ![] bcast_S_S1024 : (⟨S_, .i32⟩ : BufTy).Contents (Elt F) → (⟨S1024, .i32⟩ : BufTy).Contents (Elt F)),
    StableHlo.binary main_v27 main_v243 main_v244 (cmpi .slt : (⟨S1024, .i32⟩ : BufTy).Contents (Elt F) → (⟨S1024, .i32⟩ : BufTy).Contents (Elt F) → (⟨S1024, .i1⟩ : BufTy).Contents (Elt F)),
    StableHlo.nullary main_c_94 (constantI S_ 32 1024#32),
    StableHlo.unary main_c_94 main_v245 (broadcastInDim S1024 ![] bcast_S_S1024 : (⟨S_, .i32⟩ : BufTy).Contents (Elt F) → (⟨S1024, .i32⟩ : BufTy).Contents (Elt F)),
    StableHlo.binary main_v27 main_v245 main_v246 (addi : (⟨S1024, .i32⟩ : BufTy).Contents (Elt F) → (⟨S1024, .i32⟩ : BufTy).Contents (Elt F) → (⟨S1024, .i32⟩ : BufTy).Contents (Elt F)),
    StableHlo.ternary main_v244 main_v246 main_v27 main_v247 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_c_95 (constantI S_ 32 0#32),
    StableHlo.unary main_c_95 main_v248 (broadcastInDim S1024 ![] bcast_S_S1024 : (⟨S_, .i32⟩ : BufTy).Contents (Elt F) → (⟨S1024, .i32⟩ : BufTy).Contents (Elt F)),
    StableHlo.binary main_v241 main_v248 main_v249 (cmpi .slt : (⟨S1024, .i32⟩ : BufTy).Contents (Elt F) → (⟨S1024, .i32⟩ : BufTy).Contents (Elt F) → (⟨S1024, .i1⟩ : BufTy).Contents (Elt F)),
    StableHlo.nullary main_c_96 (constantI S_ 32 1024#32),
    StableHlo.unary main_c_96 main_v250 (broadcastInDim S1024 ![] bcast_S_S1024 : (⟨S_, .i32⟩ : BufTy).Contents (Elt F) → (⟨S1024, .i32⟩ : BufTy).Contents (Elt F)),
    StableHlo.binary main_v241 main_v250 main_v251 (addi : (⟨S1024, .i32⟩ : BufTy).Contents (Elt F) → (⟨S1024, .i32⟩ : BufTy).Contents (Elt F) → (⟨S1024, .i32⟩ : BufTy).Contents (Elt F)),
    StableHlo.ternary main_v249 main_v251 main_v241 main_v252 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v247 main_v253 (broadcastInDim S1024x1 ![0] bcast_S1024_S1024x1_0 : (⟨S1024, .i32⟩ : BufTy).Contents (Elt F) → (⟨S1024x1, .i32⟩ : BufTy).Contents (Elt F)),
    StableHlo.unary main_v252 main_v254 (broadcastInDim S1024x1 ![0] bcast_S1024_S1024x1_0 : (⟨S1024, .i32⟩ : BufTy).Contents (Elt F) → (⟨S1024x1, .i32⟩ : BufTy).Contents (Elt F)),
    StableHlo.binary main_v253 main_v254 main_v255 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    StableHlo.ternary main_v218 main_v255 main_v242 main_v256 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F)),
    StableHlo.unary main_v220 main_v257 (Host.negf : (⟨S16x1024, .f32⟩ : BufTy).Contents (Elt F) → (⟨S16x1024, .f32⟩ : BufTy).Contents (Elt F)),
    StableHlo.nullary main_c_97 (constantI S_ 32 4294967295#32),
    StableHlo.unary main_c_97 main_v258 (broadcastInDim S1024 ![] bcast_S_S1024 : (⟨S_, .i32⟩ : BufTy).Contents (Elt F) → (⟨S1024, .i32⟩ : BufTy).Contents (Elt F)),
    StableHlo.binary main_v26_0 main_v258 main_v259 (addi : (⟨S1024, .i32⟩ : BufTy).Contents (Elt F) → (⟨S1024, .i32⟩ : BufTy).Contents (Elt F) → (⟨S1024, .i32⟩ : BufTy).Contents (Elt F)) ]
theorem main_part5_ops6_sub : (main_part5_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.nullary_bufs_sub .., StableHlo.unary_bufs_sub .., StableHlo.binary_bufs_sub ..⟩
/-- 20 host operations of @main, window 6 (statements 361 … 420), in order. -/
abbrev main_part6_ops0 : List (HloOp τ sig (Elt F)) :=
  [ StableHlo.nullary main_c_98 (constantI S_ 32 4294967295#32),
    StableHlo.unary main_c_98 main_v260 (broadcastInDim S1024 ![] bcast_S_S1024 : (⟨S_, .i32⟩ : BufTy).Contents (Elt F) → (⟨S1024, .i32⟩ : BufTy).Contents (Elt F)),
    StableHlo.binary main_v26_1 main_v260 main_v261 (addi : (⟨S1024, .i32⟩ : BufTy).Contents (Elt F) → (⟨S1024, .i32⟩ : BufTy).Contents (Elt F) → (⟨S1024, .i32⟩ : BufTy).Contents (Elt F)),
    StableHlo.nullary main_c_99 (constantI S_ 32 0#32),
    StableHlo.unary main_c_99 main_v262 (broadcastInDim S1024 ![] bcast_S_S1024 : (⟨S_, .i32⟩ : BufTy).Contents (Elt F) → (⟨S1024, .i32⟩ : BufTy).Contents (Elt F)),
    StableHlo.binary main_v259 main_v262 main_v263 (cmpi .sge : (⟨S1024, .i32⟩ : BufTy).Contents (Elt F) → (⟨S1024, .i32⟩ : BufTy).Contents (Elt F) → (⟨S1024, .i1⟩ : BufTy).Contents (Elt F)),
    StableHlo.nullary main_c_100 (constantI S_ 32 32#32),
    StableHlo.unary main_c_100 main_v264 (broadcastInDim S1024 ![] bcast_S_S1024 : (⟨S_, .i32⟩ : BufTy).Contents (Elt F) → (⟨S1024, .i32⟩ : BufTy).Contents (Elt F)),
    StableHlo.binary main_v259 main_v264 main_v265 (cmpi .slt : (⟨S1024, .i32⟩ : BufTy).Contents (Elt F) → (⟨S1024, .i32⟩ : BufTy).Contents (Elt F) → (⟨S1024, .i1⟩ : BufTy).Contents (Elt F)),
    StableHlo.binary main_v263 main_v265 main_v266 (andi : (⟨S1024, .i1⟩ : BufTy).Contents (Elt F) → (⟨S1024, .i1⟩ : BufTy).Contents (Elt F) → (⟨S1024, .i1⟩ : BufTy).Contents (Elt F)),
    StableHlo.nullary main_c_101 (constantI S_ 32 0#32),
    StableHlo.unary main_c_101 main_v267 (broadcastInDim S1024 ![] bcast_S_S1024 : (⟨S_, .i32⟩ : BufTy).Contents (Elt F) → (⟨S1024, .i32⟩ : BufTy).Contents (Elt F)),
    StableHlo.binary main_v261 main_v267 main_v268 (cmpi .sge : (⟨S1024, .i32⟩ : BufTy).Contents (Elt F) → (⟨S1024, .i32⟩ : BufTy).Contents (Elt F) → (⟨S1024, .i1⟩ : BufTy).Contents (Elt F)),
    StableHlo.binary main_v266 main_v268 main_v269 (andi : (⟨S1024, .i1⟩ : BufTy).Contents (Elt F) → (⟨S1024, .i1⟩ : BufTy).Contents (Elt F) → (⟨S1024, .i1⟩ : BufTy).Contents (Elt F)),
    StableHlo.nullary main_c_102 (constantI S_ 32 32#32),
    StableHlo.unary main_c_102 main_v270 (broadcastInDim S1024 ![] bcast_S_S1024 : (⟨S_, .i32⟩ : BufTy).Contents (Elt F) → (⟨S1024, .i32⟩ : BufTy).Contents (Elt F)),
    StableHlo.binary main_v261 main_v270 main_v271 (cmpi .slt : (⟨S1024, .i32⟩ : BufTy).Contents (Elt F) → (⟨S1024, .i32⟩ : BufTy).Contents (Elt F) → (⟨S1024, .i1⟩ : BufTy).Contents (Elt F)),
    StableHlo.binary main_v269 main_v271 main_v272 (andi : (⟨S1024, .i1⟩ : BufTy).Contents (Elt F) → (⟨S1024, .i1⟩ : BufTy).Contents (Elt F) → (⟨S1024, .i1⟩ : BufTy).Contents (Elt F)),
    StableHlo.nullary main_c_103 (constantI S_ 32 0#32),
    StableHlo.nullary main_c_104 (constantI S_ 32 31#32) ]
theorem main_part6_ops0_sub : (main_part6_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call16), window 6 (statements 361 … 420), in order. -/
abbrev main_part6_ops1 : List (HloOp τ sig (Elt F)) :=
  [ StableHlo.TRef.unary (.of main_c_103 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S1024, .i32⟩) (broadcastInDim S1024 ![] bcast_S_S1024),
    StableHlo.TRef.binary (.of main_call16_v1 : StableHlo.TRef sig ⟨S1024, .i32⟩) (.of main_v259 : StableHlo.TRef sig ⟨S1024, .i32⟩) (.of main_call16_v2 : StableHlo.TRef sig ⟨S1024, .i32⟩) maxsi,
    StableHlo.TRef.unary (.of main_c_104 : StableHlo.TRef sig ⟨S_, .i32⟩) (.of main_call16_v3 : StableHlo.TRef sig ⟨S_, .i32⟩) id,
    StableHlo.TRef.unary (.of main_call16_v3 : StableHlo.TRef sig ⟨S_, .i32⟩) (.of main_call16_v4 : StableHlo.TRef sig ⟨S1024, .i32⟩) (broadcastInDim S1024 ![] bcast_S_S1024),
    StableHlo.TRef.binary (.of main_call16_v4 : StableHlo.TRef sig ⟨S1024, .i32⟩) (.of main_call16_v2 : StableHlo.TRef sig ⟨S1024, .i32⟩) (.of main_v273 : StableHlo.TRef sig ⟨S1024, .i32⟩) minsi ]
theorem main_part6_ops1_sub : (main_part6_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 6 (statements 361 … 420), in order. -/
abbrev main_part6_ops2 : List (HloOp τ sig (Elt F)) :=
  [ StableHlo.nullary main_c_105 (constantI S_ 32 32#32),
    StableHlo.unary main_c_105 main_v274 (broadcastInDim S1024 ![] bcast_S_S1024 : (⟨S_, .i32⟩ : BufTy).Contents (Elt F) → (⟨S1024, .i32⟩ : BufTy).Contents (Elt F)),
    StableHlo.binary main_v273 main_v274 main_v275 (muli : (⟨S1024, .i32⟩ : BufTy).Contents (Elt F) → (⟨S1024, .i32⟩ : BufTy).Contents (Elt F) → (⟨S1024, .i32⟩ : BufTy).Contents (Elt F)),
    StableHlo.nullary main_c_106 (constantI S_ 32 0#32),
    StableHlo.nullary main_c_107 (constantI S_ 32 31#32) ]
theorem main_part6_ops2_sub : (main_part6_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call17), window 6 (statements 361 … 420), in order. -/
abbrev main_part6_ops3 : List (HloOp τ sig (Elt F)) :=
  [ StableHlo.TRef.unary (.of main_c_106 : StableHlo.TRef sig ⟨S_, .i32⟩) (.of main_call17_v0 : StableHlo.TRef sig ⟨S_, .i32⟩) id,
    StableHlo.TRef.unary (.of main_call17_v0 : StableHlo.TRef sig ⟨S_, .i32⟩) (.of main_call17_v1 : StableHlo.TRef sig ⟨S1024, .i32⟩) (broadcastInDim S1024 ![] bcast_S_S1024),
    StableHlo.TRef.binary (.of main_call17_v1 : StableHlo.TRef sig ⟨S1024, .i32⟩) (.of main_v261 : StableHlo.TRef sig ⟨S1024, .i32⟩) (.of main_call17_v2 : StableHlo.TRef sig ⟨S1024, .i32⟩) maxsi,
    StableHlo.TRef.unary (.of main_c_107 : StableHlo.TRef sig ⟨S_, .i32⟩) (.of main_call17_v3 : StableHlo.TRef sig ⟨S_, .i32⟩) id,
    StableHlo.TRef.unary (.of main_call17_v3 : StableHlo.TRef sig ⟨S_, .i32⟩) (.of main_call17_v4 : StableHlo.TRef sig ⟨S1024, .i32⟩) (broadcastInDim S1024 ![] bcast_S_S1024),
    StableHlo.TRef.binary (.of main_call17_v4 : StableHlo.TRef sig ⟨S1024, .i32⟩) (.of main_call17_v2 : StableHlo.TRef sig ⟨S1024, .i32⟩) (.of main_v276 : StableHlo.TRef sig ⟨S1024, .i32⟩) minsi ]
theorem main_part6_ops3_sub : (main_part6_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 6 (statements 361 … 420), in order. -/
abbrev main_part6_ops4 : List (HloOp τ sig (Elt F)) :=
  [ StableHlo.binary main_v275 main_v276 main_v277 (addi : (⟨S1024, .i32⟩ : BufTy).Contents (Elt F) → (⟨S1024, .i32⟩ : BufTy).Contents (Elt F) → (⟨S1024, .i32⟩ : BufTy).Contents (Elt F)),
    StableHlo.nullary main_cst_108 (constant S_ .f32 0x00000000#32) ]
theorem main_part6_ops4_sub : (main_part6_ops4 : List (HloOp τ sig (Elt F))).Forall fun op => op.bufs ⊆ StableHlo.tcRefs τ sig :=
  ⟨StableHlo.binary_bufs_sub .., StableHlo.nullary_bufs_sub ..⟩
/-- 5 host operations of @_where_1 (main_call18), window 6 (statements 361 … 420), in order. -/
abbrev main_part6_ops5 : List (HloOp τ sig (Elt F)) :=
  [ StableHlo.TRef.unary (.of main_cst_108 : StableHlo.TRef sig ⟨S_, .f32⟩) (.of main_call18_v0 : StableHlo.TRef sig ⟨S_, .f32⟩) id,
    StableHlo.TRef.unary (.of main_call18_v0 : StableHlo.TRef sig ⟨S_, .f32⟩) (.of main_call18_v1 : StableHlo.TRef sig ⟨S1024, .f32⟩) (broadcastInDim S1024 ![] bcast_S_S1024),
    StableHlo.TRef.unary (.of main_v272 : StableHlo.TRef sig ⟨S1024, .i1⟩) (.of main_call18_v2 : StableHlo.TRef sig ⟨S16x1024, .i1⟩) (broadcastInDim S16x1024 ![1] bcast_S1024_S16x1024_1),
    StableHlo.TRef.unary (.of main_call18_v1 : StableHlo.TRef sig ⟨S1024, .f32⟩) (.of main_call18_v3 : StableHlo.TRef sig ⟨S16x1024, .f32⟩) (broadcastInDim S16x1024 ![1] bcast_S1024_S16x1024_1),
    StableHlo.TRef.ternary (.of main_call18_v2 : StableHlo.TRef sig ⟨S16x1024, .i1⟩) (.of main_v257 : StableHlo.TRef sig ⟨S16x1024, .f32⟩) (.of main_call18_v3 : StableHlo.TRef sig ⟨S16x1024, .f32⟩) (.of main_v278 : StableHlo.TRef sig ⟨S16x1024, .f32⟩) select ]
theorem main_part6_ops5_sub : (main_part6_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 30 host operations of @main, window 6 (statements 361 … 420), in order. -/
abbrev main_part6_ops6 : List (HloOp τ sig (Elt F)) :=
  [ StableHlo.nullary main_c_109 (constantI S_ 32 0#32),
    StableHlo.unary main_c_109 main_v279 (broadcastInDim S1024 ![] bcast_S_S1024 : (⟨S_, .i32⟩ : BufTy).Contents (Elt F) → (⟨S1024, .i32⟩ : BufTy).Contents (Elt F)),
    StableHlo.binary main_v27 main_v279 main_v280 (cmpi .slt : (⟨S1024, .i32⟩ : BufTy).Contents (Elt F) → (⟨S1024, .i32⟩ : BufTy).Contents (Elt F) → (⟨S1024, .i1⟩ : BufTy).Contents (Elt F)),
    StableHlo.nullary main_c_110 (constantI S_ 32 1024#32),
    StableHlo.unary main_c_110 main_v281 (broadcastInDim S1024 ![] bcast_S_S1024 : (⟨S_, .i32⟩ : BufTy).Contents (Elt F) → (⟨S1024, .i32⟩ : BufTy).Contents (Elt F)),
    StableHlo.binary main_v27 main_v281 main_v282 (addi : (⟨S1024, .i32⟩ : BufTy).Contents (Elt F) → (⟨S1024, .i32⟩ : BufTy).Contents (Elt F) → (⟨S1024, .i32⟩ : BufTy).Contents (Elt F)),
    StableHlo.ternary main_v280 main_v282 main_v27 main_v283 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.nullary main_c_111 (constantI S_ 32 0#32),
    StableHlo.unary main_c_111 main_v284 (broadcastInDim S1024 ![] bcast_S_S1024 : (⟨S_, .i32⟩ : BufTy).Contents (Elt F) → (⟨S1024, .i32⟩ : BufTy).Contents (Elt F)),
    StableHlo.binary main_v277 main_v284 main_v285 (cmpi .slt : (⟨S1024, .i32⟩ : BufTy).Contents (Elt F) → (⟨S1024, .i32⟩ : BufTy).Contents (Elt F) → (⟨S1024, .i1⟩ : BufTy).Contents (Elt F)),
    StableHlo.nullary main_c_112 (constantI S_ 32 1024#32),
    StableHlo.unary main_c_112 main_v286 (broadcastInDim S1024 ![] bcast_S_S1024 : (⟨S_, .i32⟩ : BufTy).Contents (Elt F) → (⟨S1024, .i32⟩ : BufTy).Contents (Elt F)),
    StableHlo.binary main_v277 main_v286 main_v287 (addi : (⟨S1024, .i32⟩ : BufTy).Contents (Elt F) → (⟨S1024, .i32⟩ : BufTy).Contents (Elt F) → (⟨S1024, .i32⟩ : BufTy).Contents (Elt F)),
    StableHlo.ternary main_v285 main_v287 main_v277 main_v288 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v283 main_v289 (broadcastInDim S1024x1 ![0] bcast_S1024_S1024x1_0 : (⟨S1024, .i32⟩ : BufTy).Contents (Elt F) → (⟨S1024x1, .i32⟩ : BufTy).Contents (Elt F)),
    StableHlo.unary main_v288 main_v290 (broadcastInDim S1024x1 ![0] bcast_S1024_S1024x1_0 : (⟨S1024, .i32⟩ : BufTy).Contents (Elt F) → (⟨S1024x1, .i32⟩ : BufTy).Contents (Elt F)),
    StableHlo.binary main_v289 main_v290 main_v291 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)),
    StableHlo.ternary main_v256 main_v291 main_v278 main_v292 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F)),
    StableHlo.nullary main_c_113 (constantI S_ 32 1#32),
    StableHlo.unary main_c_113 main_v293 (broadcastInDim S1024 ![] bcast_S_S1024 : (⟨S_, .i32⟩ : BufTy).Contents (Elt F) → (⟨S1024, .i32⟩ : BufTy).Contents (Elt F)),
    StableHlo.binary main_v26_0 main_v293 main_v294 (addi : (⟨S1024, .i32⟩ : BufTy).Contents (Elt F) → (⟨S1024, .i32⟩ : BufTy).Contents (Elt F) → (⟨S1024, .i32⟩ : BufTy).Contents (Elt F)),
    StableHlo.nullary main_c_114 (constantI S_ 32 4294967295#32),
    StableHlo.unary main_c_114 main_v295 (broadcastInDim S1024 ![] bcast_S_S1024 : (⟨S_, .i32⟩ : BufTy).Contents (Elt F) → (⟨S1024, .i32⟩ : BufTy).Contents (Elt F)),
    StableHlo.binary main_v26_1 main_v295 main_v296 (addi : (⟨S1024, .i32⟩ : BufTy).Contents (Elt F) → (⟨S1024, .i32⟩ : BufTy).Contents (Elt F) → (⟨S1024, .i32⟩ : BufTy).Contents (Elt F)),
    StableHlo.nullary main_c_115 (constantI S_ 32 0#32),
    StableHlo.unary main_c_115 main_v297 (broadcastInDim S1024 ![] bcast_S_S1024 : (⟨S_, .i32⟩ : BufTy).Contents (Elt F) → (⟨S1024, .i32⟩ : BufTy).Contents (Elt F)),
    StableHlo.binary main_v294 main_v297 main_v298 (cmpi .sge : (⟨S1024, .i32⟩ : BufTy).Contents (Elt F) → (⟨S1024, .i32⟩ : BufTy).Contents (Elt F) → (⟨S1024, .i1⟩ : BufTy).Contents (Elt F)),
    StableHlo.nullary main_c_116 (constantI S_ 32 32#32),
    StableHlo.unary main_c_116 main_v299 (broadcastInDim S1024 ![] bcast_S_S1024 : (⟨S_, .i32⟩ : BufTy).Contents (Elt F) → (⟨S1024, .i32⟩ : BufTy).Contents (Elt F)),
    StableHlo.binary main_v294 main_v299 main_v300 (cmpi .slt : (⟨S1024, .i32⟩ : BufTy).Contents (Elt F) → (⟨S1024, .i32⟩ : BufTy).Contents (Elt F) → (⟨S1024, .i1⟩ : BufTy).Contents (Elt F)) ]
theorem main_part6_ops6_sub : (main_part6_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
/-- 11 host operations of @main, window 7 (statements 421 … 480), in order. -/
abbrev main_part7_ops0 : List (HloOp τ sig (Elt F)) :=
  [ StableHlo.binary main_v298 main_v300 main_v301 (andi : (⟨S1024, .i1⟩ : BufTy).Contents (Elt F) → (⟨S1024, .i1⟩ : BufTy).Contents (Elt F) → (⟨S1024, .i1⟩ : BufTy).Contents (Elt F)),
    StableHlo.nullary main_c_117 (constantI S_ 32 0#32),
    StableHlo.unary main_c_117 main_v302 (broadcastInDim S1024 ![] bcast_S_S1024 : (⟨S_, .i32⟩ : BufTy).Contents (Elt F) → (⟨S1024, .i32⟩ : BufTy).Contents (Elt F)),
    StableHlo.binary main_v296 main_v302 main_v303 (cmpi .sge : (⟨S1024, .i32⟩ : BufTy).Contents (Elt F) → (⟨S1024, .i32⟩ : BufTy).Contents (Elt F) → (⟨S1024, .i1⟩ : BufTy).Contents (Elt F)),
    StableHlo.binary main_v301 main_v303 main_v304 (andi : (⟨S1024, .i1⟩ : BufTy).Contents (Elt F) → (⟨S1024, .i1⟩ : BufTy).Contents (Elt F) → (⟨S1024, .i1⟩ : BufTy).Contents (Elt F)),
    StableHlo.nullary main_c_118 (constantI S_ 32 32#32),
    StableHlo.unary main_c_118 main_v305 (broadcastInDim S1024 ![] bcast_S_S1024 : (⟨S_, .i32⟩ : BufTy).Contents (Elt F) → (⟨S1024, .i32⟩ : BufTy).Contents (Elt F)),
    StableHlo.binary main_v296 main_v305 main_v306 (cmpi .slt : (⟨S1024, .i32⟩ : BufTy).Contents (Elt F) → (⟨S1024, .i32⟩ : BufTy).Contents (Elt F) → (⟨S1024, .i1⟩ : BufTy).Contents (Elt F)),
    StableHlo.binary main_v304 main_v306 main_v307 (andi : (⟨S1024, .i1⟩ : BufTy).Contents (Elt F) → (⟨S1024, .i1⟩ : BufTy).Contents (Elt F) → (⟨S1024, .i1⟩ : BufTy).Contents (Elt F)),
    StableHlo.nullary main_c_119 (constantI S_ 32 0#32),
    StableHlo.nullary main_c_120 (constantI S_ 32 31#32) ]
theorem main_part7_ops0_sub : (main_part7_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.nullary_bufs_sub ..⟩
/-- 6 host operations of @clip (main_call19), window 7 (statements 421 … 480), in order. -/
abbrev main_part7_ops1 : List (HloOp τ sig (Elt F)) :=
  [ StableHlo.TRef.unary (.of main_c_119 : StableHlo.TRef sig ⟨S_, .i32⟩) (.of main_call19_v0 : StableHlo.TRef sig ⟨S_, .i32⟩) id,
    StableHlo.TRef.unary (.of main_call19_v0 : StableHlo.TRef sig ⟨S_, .i32⟩) (.of main_call19_v1 : StableHlo.TRef sig ⟨S1024, .i32⟩) (broadcastInDim S1024 ![] bcast_S_S1024),
    StableHlo.TRef.binary (.of main_call19_v1 : StableHlo.TRef sig ⟨S1024, .i32⟩) (.of main_v294 : StableHlo.TRef sig ⟨S1024, .i32⟩) (.of main_call19_v2 : StableHlo.TRef sig ⟨S1024, .i32⟩) maxsi,
    StableHlo.TRef.unary (.of main_c_120 : StableHlo.TRef sig ⟨S_, .i32⟩) (.of main_call19_v3 : StableHlo.TRef sig ⟨S_, .i32⟩) id,
    StableHlo.TRef.unary (.of main_call19_v3 : StableHlo.TRef sig ⟨S_, .i32⟩) (.of main_call19_v4 : StableHlo.TRef sig ⟨S1024, .i32⟩) (broadcastInDim S1024 ![] bcast_S_S1024),
    StableHlo.TRef.binary (.of main_call19_v4 : StableHlo.TRef sig ⟨S1024, .i32⟩) (.of main_call19_v2 : StableHlo.TRef sig ⟨S1024, .i32⟩) (.of main_v308 : StableHlo.TRef sig ⟨S1024, .i32⟩) minsi ]
theorem main_part7_ops1_sub : (main_part7_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 7 (statements 421 … 480), in order. -/
abbrev main_part7_ops2 : List (HloOp τ sig (Elt F)) :=
  [ StableHlo.nullary main_c_121 (constantI S_ 32 32#32),
    StableHlo.unary main_c_121 main_v309 (broadcastInDim S1024 ![] bcast_S_S1024 : (⟨S_, .i32⟩ : BufTy).Contents (Elt F) → (⟨S1024, .i32⟩ : BufTy).Contents (Elt F)),
    StableHlo.binary main_v308 main_v309 main_v310 (muli : (⟨S1024, .i32⟩ : BufTy).Contents (Elt F) → (⟨S1024, .i32⟩ : BufTy).Contents (Elt F) → (⟨S1024, .i32⟩ : BufTy).Contents (Elt F)),
    StableHlo.nullary main_c_122 (constantI S_ 32 0#32),
    StableHlo.nullary main_c_123 (constantI S_ 32 31#32) ]
theorem main_part7_ops2_sub : (main_part7_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call20), window 7 (statements 421 … 480), in order. -/
abbrev main_part7_ops3 : List (HloOp τ sig (Elt F)) :=
  [ StableHlo.TRef.unary (.of main_c_122 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S1024, .i32⟩) (broadcastInDim S1024 ![] bcast_S_S1024),
    StableHlo.TRef.binary (.of main_call20_v1 : StableHlo.TRef sig ⟨S1024, .i32⟩) (.of main_v296 : StableHlo.TRef sig ⟨S1024, .i32⟩) (.of main_call20_v2 : StableHlo.TRef sig ⟨S1024, .i32⟩) maxsi,
    StableHlo.TRef.unary (.of main_c_123 : StableHlo.TRef sig ⟨S_, .i32⟩) (.of main_call20_v3 : StableHlo.TRef sig ⟨S_, .i32⟩) id,
    StableHlo.TRef.unary (.of main_call20_v3 : StableHlo.TRef sig ⟨S_, .i32⟩) (.of main_call20_v4 : StableHlo.TRef sig ⟨S1024, .i32⟩) (broadcastInDim S1024 ![] bcast_S_S1024),
    StableHlo.TRef.binary (.of main_call20_v4 : StableHlo.TRef sig ⟨S1024, .i32⟩) (.of main_call20_v2 : StableHlo.TRef sig ⟨S1024, .i32⟩) (.of main_v311 : StableHlo.TRef sig ⟨S1024, .i32⟩) minsi ]
theorem main_part7_ops3_sub : (main_part7_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 7 (statements 421 … 480), in order. -/
abbrev main_part7_ops4 : List (HloOp τ sig (Elt F)) :=
  [ StableHlo.binary main_v310 main_v311 main_v312 (addi : (⟨S1024, .i32⟩ : BufTy).Contents (Elt F) → (⟨S1024, .i32⟩ : BufTy).Contents (Elt F) → (⟨S1024, .i32⟩ : BufTy).Contents (Elt F)),
    StableHlo.nullary main_cst_124 (constant S_ .f32 0x00000000#32) ]
theorem main_part7_ops4_sub : (main_part7_ops4 : List (HloOp τ sig (Elt F))).Forall fun op => op.bufs ⊆ StableHlo.tcRefs τ sig :=
  ⟨StableHlo.binary_bufs_sub .., StableHlo.nullary_bufs_sub ..⟩
/-- 5 host operations of @_where_1 (main_call21), window 7 (statements 421 … 480), in order. -/
abbrev main_part7_ops5 : List (HloOp τ sig (Elt F)) :=
  [ StableHlo.TRef.unary (.of main_cst_124 : StableHlo.TRef sig ⟨S_, .f32⟩) (.of main_call21_v0 : StableHlo.TRef sig ⟨S_, .f32⟩) id,
    StableHlo.TRef.unary (.of main_call21_v0 : StableHlo.TRef sig ⟨S_, .f32⟩) (.of main_call21_v1 : StableHlo.TRef sig ⟨S1024, .f32⟩) (broadcastInDim S1024 ![] bcast_S_S1024),
    StableHlo.TRef.unary (.of main_v307 : StableHlo.TRef sig ⟨S1024, .i1⟩) (.of main_call21_v2 : StableHlo.TRef sig ⟨S16x1024, .i1⟩) (broadcastInDim S16x1024 ![1] bcast_S1024_S16x1024_1),
    StableHlo.TRef.unary (.of main_call21_v1 : StableHlo.TRef sig ⟨S1024, .f32⟩) (.of main_call21_v3 : StableHlo.TRef sig ⟨S16x1024, .f32⟩) (broadcastInDim S16x1024 ![1] bcast_S1024_S16x1024_1),
    StableHlo.TRef.ternary (.of main_call21_v2 : StableHlo.TRef sig ⟨S16x1024, .i1⟩) (.of main_v220 : StableHlo.TRef sig ⟨S16x1024, .f32⟩) (.of main_call21_v3 : StableHlo.TRef sig ⟨S16x1024, .f32⟩) (.of main_v313 : StableHlo.TRef sig ⟨S16x1024, .f32⟩) select ]
theorem main_part7_ops5_sub : (main_part7_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- 39 host operations of @main, window 7 (statements 421 … 480), in order. -/
abbrev main_part7_ops6 : List (HloOp τ sig (Elt F)) :=
  ( StableHlo.nullary main_c_125 (constantI S_ 32 0#32)
  :: StableHlo.unary main_c_125 main_v314 (broadcastInDim S1024 ![] bcast_S_S1024 : (⟨S_, .i32⟩ : BufTy).Contents (Elt F) → (⟨S1024, .i32⟩ : BufTy).Contents (Elt F))
  :: StableHlo.binary main_v27 main_v314 main_v315 (cmpi .slt : (⟨S1024, .i32⟩ : BufTy).Contents (Elt F) → (⟨S1024, .i32⟩ : BufTy).Contents (Elt F) → (⟨S1024, .i1⟩ : BufTy).Contents (Elt F))
  :: StableHlo.nullary main_c_126 (constantI S_ 32 1024#32)
  :: StableHlo.unary main_c_126 main_v316 (broadcastInDim S1024 ![] bcast_S_S1024 : (⟨S_, .i32⟩ : BufTy).Contents (Elt F) → (⟨S1024, .i32⟩ : BufTy).Contents (Elt F))
  :: StableHlo.binary main_v27 main_v316 main_v317 (addi : (⟨S1024, .i32⟩ : BufTy).Contents (Elt F) → (⟨S1024, .i32⟩ : BufTy).Contents (Elt F) → (⟨S1024, .i32⟩ : BufTy).Contents (Elt F))
  :: StableHlo.ternary main_v315 main_v317 main_v27 main_v318 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_127 (constantI S_ 32 0#32)
  :: StableHlo.unary main_c_127 main_v319 (broadcastInDim S1024 ![] bcast_S_S1024 : (⟨S_, .i32⟩ : BufTy).Contents (Elt F) → (⟨S1024, .i32⟩ : BufTy).Contents (Elt F))
  :: StableHlo.binary main_v312 main_v319 main_v320 (cmpi .slt : (⟨S1024, .i32⟩ : BufTy).Contents (Elt F) → (⟨S1024, .i32⟩ : BufTy).Contents (Elt F) → (⟨S1024, .i1⟩ : BufTy).Contents (Elt F))
  :: StableHlo.nullary main_c_128 (constantI S_ 32 1024#32)
  :: StableHlo.unary main_c_128 main_v321 (broadcastInDim S1024 ![] bcast_S_S1024 : (⟨S_, .i32⟩ : BufTy).Contents (Elt F) → (⟨S1024, .i32⟩ : BufTy).Contents (Elt F))
  :: StableHlo.binary main_v312 main_v321 main_v322 (addi : (⟨S1024, .i32⟩ : BufTy).Contents (Elt F) → (⟨S1024, .i32⟩ : BufTy).Contents (Elt F) → (⟨S1024, .i32⟩ : BufTy).Contents (Elt F))
  :: StableHlo.ternary main_v320 main_v322 main_v312 main_v323 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v318 main_v324 (broadcastInDim S1024x1 ![0] bcast_S1024_S1024x1_0 : (⟨S1024, .i32⟩ : BufTy).Contents (Elt F) → (⟨S1024x1, .i32⟩ : BufTy).Contents (Elt F))
  :: StableHlo.unary main_v323 main_v325 (broadcastInDim S1024x1 ![0] bcast_S1024_S1024x1_0 : (⟨S1024, .i32⟩ : BufTy).Contents (Elt F) → (⟨S1024x1, .i32⟩ : BufTy).Contents (Elt F))
  :: StableHlo.binary main_v324 main_v325 main_v326 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v292 main_v326 main_v313 main_v327 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_c_129 (constantI S_ 32 4294967295#32)
  :: StableHlo.unary main_c_129 main_v328 (broadcastInDim S1024 ![] bcast_S_S1024 : (⟨S_, .i32⟩ : BufTy).Contents (Elt F) → (⟨S1024, .i32⟩ : BufTy).Contents (Elt F))
  :: StableHlo.binary main_v26_0 main_v328 main_v329 (addi : (⟨S1024, .i32⟩ : BufTy).Contents (Elt F) → (⟨S1024, .i32⟩ : BufTy).Contents (Elt F) → (⟨S1024, .i32⟩ : BufTy).Contents (Elt F))
  :: StableHlo.nullary main_c_130 (constantI S_ 32 1#32)
  :: StableHlo.unary main_c_130 main_v330 (broadcastInDim S1024 ![] bcast_S_S1024 : (⟨S_, .i32⟩ : BufTy).Contents (Elt F) → (⟨S1024, .i32⟩ : BufTy).Contents (Elt F))
  :: StableHlo.binary main_v26_1 main_v330 main_v331 (addi : (⟨S1024, .i32⟩ : BufTy).Contents (Elt F) → (⟨S1024, .i32⟩ : BufTy).Contents (Elt F) → (⟨S1024, .i32⟩ : BufTy).Contents (Elt F))
  :: StableHlo.nullary main_c_131 (constantI S_ 32 0#32)
  :: StableHlo.unary main_c_131 main_v332 (broadcastInDim S1024 ![] bcast_S_S1024 : (⟨S_, .i32⟩ : BufTy).Contents (Elt F) → (⟨S1024, .i32⟩ : BufTy).Contents (Elt F))
  :: StableHlo.binary main_v329 main_v332 main_v333 (cmpi .sge : (⟨S1024, .i32⟩ : BufTy).Contents (Elt F) → (⟨S1024, .i32⟩ : BufTy).Contents (Elt F) → (⟨S1024, .i1⟩ : BufTy).Contents (Elt F))
  :: StableHlo.nullary main_c_132 (constantI S_ 32 32#32)
  :: StableHlo.unary main_c_132 main_v334 (broadcastInDim S1024 ![] bcast_S_S1024 : (⟨S_, .i32⟩ : BufTy).Contents (Elt F) → (⟨S1024, .i32⟩ : BufTy).Contents (Elt F))
  :: StableHlo.binary main_v329 main_v334 main_v335 (cmpi .slt : (⟨S1024, .i32⟩ : BufTy).Contents (Elt F) → (⟨S1024, .i32⟩ : BufTy).Contents (Elt F) → (⟨S1024, .i1⟩ : BufTy).Contents (Elt F))
  :: StableHlo.binary main_v333 main_v335 main_v336 (andi : (⟨S1024, .i1⟩ : BufTy).Contents (Elt F) → (⟨S1024, .i1⟩ : BufTy).Contents (Elt F) → (⟨S1024, .i1⟩ : BufTy).Contents (Elt F))
  :: StableHlo.nullary main_c_133 (constantI S_ 32 0#32)
  :: StableHlo.unary main_c_133 main_v337 (broadcastInDim S1024 ![] bcast_S_S1024 : (⟨S_, .i32⟩ : BufTy).Contents (Elt F) → (⟨S1024, .i32⟩ : BufTy).Contents (Elt F))
  :: StableHlo.binary main_v331 main_v337 main_v338 (cmpi .sge : (⟨S1024, .i32⟩ : BufTy).Contents (Elt F) → (⟨S1024, .i32⟩ : BufTy).Contents (Elt F) → (⟨S1024, .i1⟩ : BufTy).Contents (Elt F))
  :: StableHlo.binary main_v336 main_v338 main_v339 (andi : (⟨S1024, .i1⟩ : BufTy).Contents (Elt F) → (⟨S1024, .i1⟩ : BufTy).Contents (Elt F) → (⟨S1024, .i1⟩ : BufTy).Contents (Elt F))
  :: StableHlo.nullary main_c_134 (constantI S_ 32 32#32)
  :: StableHlo.unary main_c_134 main_v340 (broadcastInDim S1024 ![] bcast_S_S1024 : (⟨S_, .i32⟩ : BufTy).Contents (Elt F) → (⟨S1024, .i32⟩ : BufTy).Contents (Elt F))
  :: StableHlo.binary main_v331 main_v340 main_v341 (cmpi .slt : (⟨S1024, .i32⟩ : BufTy).Contents (Elt F) → (⟨S1024, .i32⟩ : BufTy).Contents (Elt F) → (⟨S1024, .i1⟩ : BufTy).Contents (Elt F))
  :: StableHlo.binary main_v339 main_v341 main_v342 (andi : (⟨S1024, .i1⟩ : BufTy).Contents (Elt F) → (⟨S1024, .i1⟩ : BufTy).Contents (Elt F) → (⟨S1024, .i1⟩ : BufTy).Contents (Elt F))
  :: [] )
theorem main_part7_ops6_sub : (main_part7_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub ..⟩
/-- 2 host operations of @main, window 8 (statements 481 … 540), in order. -/
abbrev main_part8_ops0 : List (HloOp τ sig (Elt F)) :=
  [ StableHlo.nullary main_c_135 (constantI S_ 32 0#32),
    StableHlo.nullary main_c_136 (constantI S_ 32 31#32) ]
theorem main_part8_ops0_sub : (main_part8_ops0 : List (HloOp τ sig (Elt F))).Forall fun op => op.bufs ⊆ StableHlo.tcRefs τ sig :=
  ⟨StableHlo.nullary_bufs_sub .., StableHlo.nullary_bufs_sub ..⟩
/-- 6 host operations of @clip (main_call22), window 8 (statements 481 … 540), in order. -/
abbrev main_part8_ops1 : List (HloOp τ sig (Elt F)) :=
  [ StableHlo.TRef.unary (.of main_c_135 : StableHlo.TRef sig ⟨S_, .i32⟩) (.of main_call22_v0 : StableHlo.TRef sig ⟨S_, .i32⟩) id,
    StableHlo.TRef.unary (.of main_call22_v0 : StableHlo.TRef sig ⟨S_, .i32⟩) (.of main_call22_v1 : StableHlo.TRef sig ⟨S1024, .i32⟩) (broadcastInDim S1024 ![] bcast_S_S1024),
    StableHlo.TRef.binary (.of main_call22_v1 : StableHlo.TRef sig ⟨S1024, .i32⟩) (.of main_v329 : StableHlo.TRef sig ⟨S1024, .i32⟩) (.of main_call22_v2 : StableHlo.TRef sig ⟨S1024, .i32⟩) maxsi,
    StableHlo.TRef.unary (.of main_c_136 : StableHlo.TRef sig ⟨S_, .i32⟩) (.of main_call22_v3 : StableHlo.TRef sig ⟨S_, .i32⟩) id,
    StableHlo.TRef.unary (.of main_call22_v3 : StableHlo.TRef sig ⟨S_, .i32⟩) (.of main_call22_v4 : StableHlo.TRef sig ⟨S1024, .i32⟩) (broadcastInDim S1024 ![] bcast_S_S1024),
    StableHlo.TRef.binary (.of main_call22_v4 : StableHlo.TRef sig ⟨S1024, .i32⟩) (.of main_call22_v2 : StableHlo.TRef sig ⟨S1024, .i32⟩) (.of main_v343 : StableHlo.TRef sig ⟨S1024, .i32⟩) minsi ]
theorem main_part8_ops1_sub : (main_part8_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 5 host operations of @main, window 8 (statements 481 … 540), in order. -/
abbrev main_part8_ops2 : List (HloOp τ sig (Elt F)) :=
  [ StableHlo.nullary main_c_137 (constantI S_ 32 32#32),
    StableHlo.unary main_c_137 main_v344 (broadcastInDim S1024 ![] bcast_S_S1024 : (⟨S_, .i32⟩ : BufTy).Contents (Elt F) → (⟨S1024, .i32⟩ : BufTy).Contents (Elt F)),
    StableHlo.binary main_v343 main_v344 main_v345 (muli : (⟨S1024, .i32⟩ : BufTy).Contents (Elt F) → (⟨S1024, .i32⟩ : BufTy).Contents (Elt F) → (⟨S1024, .i32⟩ : BufTy).Contents (Elt F)),
    StableHlo.nullary main_c_138 (constantI S_ 32 0#32),
    StableHlo.nullary main_c_139 (constantI S_ 32 31#32) ]
theorem main_part8_ops2_sub : (main_part8_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- 6 host operations of @clip (main_call23), window 8 (statements 481 … 540), in order. -/
abbrev main_part8_ops3 : List (HloOp τ sig (Elt F)) :=
  [ StableHlo.TRef.unary (.of main_c_138 : StableHlo.TRef sig ⟨S_, .i32⟩) (.of main_call23_v0 : StableHlo.TRef sig ⟨S_, .i32⟩) id,
    StableHlo.TRef.unary (.of main_call23_v0 : StableHlo.TRef sig ⟨S_, .i32⟩) (.of main_call23_v1 : StableHlo.TRef sig ⟨S1024, .i32⟩) (broadcastInDim S1024 ![] bcast_S_S1024),
    StableHlo.TRef.binary (.of main_call23_v1 : StableHlo.TRef sig ⟨S1024, .i32⟩) (.of main_v331 : StableHlo.TRef sig ⟨S1024, .i32⟩) (.of main_call23_v2 : StableHlo.TRef sig ⟨S1024, .i32⟩) maxsi,
    StableHlo.TRef.unary (.of main_c_139 : StableHlo.TRef sig ⟨S_, .i32⟩) (.of main_call23_v3 : StableHlo.TRef sig ⟨S_, .i32⟩) id,
    StableHlo.TRef.unary (.of main_call23_v3 : StableHlo.TRef sig ⟨S_, .i32⟩) (.of main_call23_v4 : StableHlo.TRef sig ⟨S1024, .i32⟩) (broadcastInDim S1024 ![] bcast_S_S1024),
    StableHlo.TRef.binary (.of main_call23_v4 : StableHlo.TRef sig ⟨S1024, .i32⟩) (.of main_call23_v2 : StableHlo.TRef sig ⟨S1024, .i32⟩) (.of main_v346 : StableHlo.TRef sig ⟨S1024, .i32⟩) minsi ]
theorem main_part8_ops3_sub : (main_part8_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- 2 host operations of @main, window 8 (statements 481 … 540), in order. -/
abbrev main_part8_ops4 : List (HloOp τ sig (Elt F)) :=
  [ StableHlo.binary main_v345 main_v346 main_v347 (addi : (⟨S1024, .i32⟩ : BufTy).Contents (Elt F) → (⟨S1024, .i32⟩ : BufTy).Contents (Elt F) → (⟨S1024, .i32⟩ : BufTy).Contents (Elt F)),
    StableHlo.nullary main_cst_140 (constant S_ .f32 0x00000000#32) ]
theorem main_part8_ops4_sub : (main_part8_ops4 : List (HloOp τ sig (Elt F))).Forall fun op => op.bufs ⊆ StableHlo.tcRefs τ sig :=
  ⟨StableHlo.binary_bufs_sub .., StableHlo.nullary_bufs_sub ..⟩
/-- 5 host operations of @_where_1 (main_call24), window 8 (statements 481 … 540), in order. -/
abbrev main_part8_ops5 : List (HloOp τ sig (Elt F)) :=
  [ StableHlo.TRef.unary (.of main_cst_140 : StableHlo.TRef sig ⟨S_, .f32⟩) (.of main_call24_v0 : StableHlo.TRef sig ⟨S_, .f32⟩) id,
    StableHlo.TRef.unary (.of main_call24_v0 : StableHlo.TRef sig ⟨S_, .f32⟩) (.of main_call24_v1 : StableHlo.TRef sig ⟨S1024, .f32⟩) (broadcastInDim S1024 ![] bcast_S_S1024),
    StableHlo.TRef.unary (.of main_v342 : StableHlo.TRef sig ⟨S1024, .i1⟩) (.of main_call24_v2 : StableHlo.TRef sig ⟨S16x1024, .i1⟩) (broadcastInDim S16x1024 ![1] bcast_S1024_S16x1024_1),
    StableHlo.TRef.unary (.of main_call24_v1 : StableHlo.TRef sig ⟨S1024, .f32⟩) (.of main_call24_v3 : StableHlo.TRef sig ⟨S16x1024, .f32⟩) (broadcastInDim S16x1024 ![1] bcast_S1024_S16x1024_1),
    StableHlo.TRef.ternary (.of main_call24_v2 : StableHlo.TRef sig ⟨S16x1024, .i1⟩) (.of main_v220 : StableHlo.TRef sig ⟨S16x1024, .f32⟩) (.of main_call24_v3 : StableHlo.TRef sig ⟨S16x1024, .f32⟩) (.of main_v348 : StableHlo.TRef sig ⟨S16x1024, .f32⟩) select ]
theorem main_part8_ops5_sub : (main_part8_ops5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
set_option maxHeartbeats 40000000 in
/-- Window 8 after its last called function. -/
abbrev main_part8_ops6 : List (HloOp τ sig (Elt F)) :=
  ( StableHlo.nullary main_c_141 (constantI S_ 32 0#32)
  :: StableHlo.unary main_c_141 main_v349 (broadcastInDim S1024 ![] bcast_S_S1024 : (⟨S_, .i32⟩ : BufTy).Contents (Elt F) → (⟨S1024, .i32⟩ : BufTy).Contents (Elt F))
  :: StableHlo.binary main_v27 main_v349 main_v350 (cmpi .slt : (⟨S1024, .i32⟩ : BufTy).Contents (Elt F) → (⟨S1024, .i32⟩ : BufTy).Contents (Elt F) → (⟨S1024, .i1⟩ : BufTy).Contents (Elt F))
  :: StableHlo.nullary main_c_142 (constantI S_ 32 1024#32)
  :: StableHlo.unary main_c_142 main_v351 (broadcastInDim S1024 ![] bcast_S_S1024 : (⟨S_, .i32⟩ : BufTy).Contents (Elt F) → (⟨S1024, .i32⟩ : BufTy).Contents (Elt F))
  :: StableHlo.binary main_v27 main_v351 main_v352 (addi : (⟨S1024, .i32⟩ : BufTy).Contents (Elt F) → (⟨S1024, .i32⟩ : BufTy).Contents (Elt F) → (⟨S1024, .i32⟩ : BufTy).Contents (Elt F))
  :: StableHlo.ternary main_v350 main_v352 main_v27 main_v353 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_143 (constantI S_ 32 0#32)
  :: StableHlo.unary main_c_143 main_v354 (broadcastInDim S1024 ![] bcast_S_S1024 : (⟨S_, .i32⟩ : BufTy).Contents (Elt F) → (⟨S1024, .i32⟩ : BufTy).Contents (Elt F))
  :: StableHlo.binary main_v347 main_v354 main_v355 (cmpi .slt : (⟨S1024, .i32⟩ : BufTy).Contents (Elt F) → (⟨S1024, .i32⟩ : BufTy).Contents (Elt F) → (⟨S1024, .i1⟩ : BufTy).Contents (Elt F))
  :: StableHlo.nullary main_c_144 (constantI S_ 32 1024#32)
  :: StableHlo.unary main_c_144 main_v356 (broadcastInDim S1024 ![] bcast_S_S1024 : (⟨S_, .i32⟩ : BufTy).Contents (Elt F) → (⟨S1024, .i32⟩ : BufTy).Contents (Elt F))
  :: StableHlo.binary main_v347 main_v356 main_v357 (addi : (⟨S1024, .i32⟩ : BufTy).Contents (Elt F) → (⟨S1024, .i32⟩ : BufTy).Contents (Elt F) → (⟨S1024, .i32⟩ : BufTy).Contents (Elt F))
  :: StableHlo.ternary main_v355 main_v357 main_v347 main_v358 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v353 main_v359 (broadcastInDim S1024x1 ![0] bcast_S1024_S1024x1_0 : (⟨S1024, .i32⟩ : BufTy).Contents (Elt F) → (⟨S1024x1, .i32⟩ : BufTy).Contents (Elt F))
  :: StableHlo.unary main_v358 main_v360 (broadcastInDim S1024x1 ![0] bcast_S1024_S1024x1_0 : (⟨S1024, .i32⟩ : BufTy).Contents (Elt F) → (⟨S1024x1, .i32⟩ : BufTy).Contents (Elt F))
  :: StableHlo.binary main_v359 main_v360 main_v361 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v327 main_v361 main_v348 main_v362 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.reshape main_v362 main_v363 rfl shapeCasts_S16x1024x1024_S2x8x1024x1024
  :: StableHlo.nullary main_v364 (iotaInDim S1024x1024 32 0)
  :: StableHlo.nullary main_v365 (iotaInDim S1024x1024 32 1)
  :: StableHlo.nullary main_c_145 (constantI S_ 32 0#32)
  :: StableHlo.unary main_c_145 main_v366 (broadcastInDim S1024x1024 ![] bcast_S_S1024x1024 : (⟨S_, .i32⟩ : BufTy).Contents (Elt F) → (⟨S1024x1024, .i32⟩ : BufTy).Contents (Elt F))
  :: StableHlo.binary main_v364 main_v366 main_v367 (addi : (⟨S1024x1024, .i32⟩ : BufTy).Contents (Elt F) → (⟨S1024x1024, .i32⟩ : BufTy).Contents (Elt F) → (⟨S1024x1024, .i32⟩ : BufTy).Contents (Elt F))
  :: StableHlo.binary main_v367 main_v365 main_v368 (cmpi .eq : (⟨S1024x1024, .i32⟩ : BufTy).Contents (Elt F) → (⟨S1024x1024, .i32⟩ : BufTy).Contents (Elt F) → (⟨S1024x1024, .i1⟩ : BufTy).Contents (Elt F))
  :: StableHlo.unary main_v368 main_v369 (uitofp .f32 : (⟨S1024x1024, .i1⟩ : BufTy).Contents (Elt F) → (⟨S1024x1024, .f32⟩ : BufTy).Contents (Elt F))
  :: StableHlo.nullary main_cst_146 (constant S_ .f32 0x3F800000#32)
  :: StableHlo.unary main_cst_146 main_v370 (broadcastInDim S2x8x1024x1024 ![] bcast_S_S2x8x1024x1024 : (⟨S_, .f32⟩ : BufTy).Contents (Elt F) → (⟨S2x8x1024x1024, .f32⟩ : BufTy).Contents (Elt F))
  :: StableHlo.binary main_v370 main_v363 main_v371 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v369 main_v372 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v372 main_v373 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v373 main_v371 main_v374 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v18 main_v18 main_v375 (mulf : (⟨S2x8x1024, .f32⟩ : BufTy).Contents (Elt F) → (⟨S2x8x1024, .f32⟩ : BufTy).Contents (Elt F) → (⟨S2x8x1024, .f32⟩ : BufTy).Contents (Elt F))
  :: StableHlo.nullary main_cst_147 (constant S_ .f32 0x3F800000#32)
  :: StableHlo.unary main_cst_147 main_v376 (broadcastInDim S2x8x1024 ![] bcast_S_S2x8x1024 : (⟨S_, .f32⟩ : BufTy).Contents (Elt F) → (⟨S2x8x1024, .f32⟩ : BufTy).Contents (Elt F))
  :: StableHlo.binary main_v376 main_v375 main_v377 (Host.divf : (⟨S2x8x1024, .f32⟩ : BufTy).Contents (Elt F) → (⟨S2x8x1024, .f32⟩ : BufTy).Contents (Elt F) → (⟨S2x8x1024, .f32⟩ : BufTy).Contents (Elt F))
  :: StableHlo.unary main_v377 main_v378 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v378 main_v379 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.binary main_v379 main_v374 main_v380 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v374 main_v380 main_v381 ((fun l r => Host.dotGeneral dot_S2x8x1024x1024_S2x8x1024x1024_S2x8x1024x1024_2_2_3_3_01_01 none l r) : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v377 main_v382 ((extractStridedSlice S2x7x1024 ![0, 1, 0] · slices_S2x8x1024_S2x7x1024_0_1_0) : (⟨S2x8x1024, .f32⟩ : BufTy).Contents (Elt F) → (⟨S2x7x1024, .f32⟩ : BufTy).Contents (Elt F))
  :: StableHlo.unary main_v377 main_v383 ((extractStridedSlice S2x1x1024 ![0, 0, 0] · slices_S2x8x1024_S2x1x1024_0_0_0) : (⟨S2x8x1024, .f32⟩ : BufTy).Contents (Elt F) → (⟨S2x1x1024, .f32⟩ : BufTy).Contents (Elt F))
  :: StableHlo.nullary main_cst_148 (constant S_ .f32 0x00000000#32)
  :: StableHlo.unary main_cst_148 main_v384 (broadcastInDim S2x1x1024 ![] bcast_S_S2x1x1024 : (⟨S_, .f32⟩ : BufTy).Contents (Elt F) → (⟨S2x1x1024, .f32⟩ : BufTy).Contents (Elt F))
  :: StableHlo.binary main_v382 main_v384 main_v385 ((fun a b => concatenate S2x8x1024 1 [⟨S2x7x1024, a⟩, ⟨S2x1x1024, b⟩] concatenates_S2x7x1024_S2x1x1024_S2x8x1024_d1) : (⟨S2x7x1024, .f32⟩ : BufTy).Contents (Elt F) → (⟨S2x1x1024, .f32⟩ : BufTy).Contents (Elt F) → (⟨S2x8x1024, .f32⟩ : BufTy).Contents (Elt F))
  :: StableHlo.unary main_v385 main_v386 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v369 main_v387 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v386 main_v388 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: [] )
theorem main_part8_ops6_sub : (main_part8_ops6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.reshape_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub ..⟩
set_option maxHeartbeats 40000000 in
/-- Window 9. -/
abbrev main_part9_ops0 : List (HloOp τ sig (Elt F)) :=
  ( StableHlo.unary main_v387 main_v389 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v388 main_v389 main_v390 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v381 main_v390 main_v391 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.nullary main_cst_149 (constant S_ .f32 0x00000000#32)
  :: StableHlo.unary main_cst_149 main_v392 (broadcastInDim S2x1x1024x1024 ![] bcast_S_S2x1x1024x1024 : (⟨S_, .f32⟩ : BufTy).Contents (Elt F) → (⟨S2x1x1024x1024, .f32⟩ : BufTy).Contents (Elt F))
  :: StableHlo.unary main_v380 main_v393 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v393 main_v394 ((transpose S2x7x1024x1024 [0, 1, 3, 2] · transposes_S2x7x1024x1024_S2x7x1024x1024_0_1_3_2) : (⟨S2x7x1024x1024, .f32⟩ : BufTy).Contents (Elt F) → (⟨S2x7x1024x1024, .f32⟩ : BufTy).Contents (Elt F))
  :: StableHlo.unary main_v394 main_v395 (Host.negf : (⟨S2x7x1024x1024, .f32⟩ : BufTy).Contents (Elt F) → (⟨S2x7x1024x1024, .f32⟩ : BufTy).Contents (Elt F))
  :: StableHlo.binary main_v392 main_v395 main_v396 ((fun a b => concatenate S2x8x1024x1024 1 [⟨S2x1x1024x1024, a⟩, ⟨S2x7x1024x1024, b⟩] concatenates_S2x1x1024x1024_S2x7x1024x1024_S2x8x1024x1024_d1) : (⟨S2x1x1024x1024, .f32⟩ : BufTy).Contents (Elt F) → (⟨S2x7x1024x1024, .f32⟩ : BufTy).Contents (Elt F) → (⟨S2x8x1024x1024, .f32⟩ : BufTy).Contents (Elt F))
  :: StableHlo.unary main_v380 main_v397 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v397 main_v398 (Host.negf : (⟨S2x7x1024x1024, .f32⟩ : BufTy).Contents (Elt F) → (⟨S2x7x1024x1024, .f32⟩ : BufTy).Contents (Elt F))
  :: StableHlo.binary main_v398 main_v392 main_v399 ((fun a b => concatenate S2x8x1024x1024 1 [⟨S2x7x1024x1024, a⟩, ⟨S2x1x1024x1024, b⟩] concatenates_S2x7x1024x1024_S2x1x1024x1024_S2x8x1024x1024_d1) : (⟨S2x7x1024x1024, .f32⟩ : BufTy).Contents (Elt F) → (⟨S2x1x1024x1024, .f32⟩ : BufTy).Contents (Elt F) → (⟨S2x8x1024x1024, .f32⟩ : BufTy).Contents (Elt F))
  :: StableHlo.unary main_v391 main_v400 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v396 main_v401 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v399 main_v402 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.nary ![main_v400, main_v401, main_v402] main_v403 (fun u => concatenate S2x3x8x1024x1024 1 [⟨S2x1x8x1024x1024, u 0⟩, ⟨S2x1x8x1024x1024, u 1⟩, ⟨S2x1x8x1024x1024, u 2⟩] concatenates_S2x1x8x1024x1024_S2x1x8x1024x1024_S2x1x8x1024x1024_S2x3x8x1024x1024_d1)
  :: [] )
theorem main_part9_ops0_sub : (main_part9_ops0 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.nary_bufs_sub ..⟩

end Cert.ReferenceIdeal.Hand

end
-- ==== Proof.RefRunChain.lean ====
/- The reference's @main as a chain of its operation stretches: each printed window is the chain of its pieces
   (both sides unfold to the same sequence of operations), the windows are joined at their boundaries, and the
   joined chain is the chain of the stretches (a stretch cut by a window boundary is two pieces on the windows' side). -/
import proofs.«117756_j83829171683377_1_alg».proof.Proof.RefOps
import Idealize.ShloMosaic.Lib.StableHlo.Run
import Idealize.ShloMosaic.Lib.Pipeline.Regions

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

set_option maxRecDepth 65536 in
/-- Window 0 of @main is the chain of its pieces, the last in tail position. -/
theorem main_part0_chain (c : Dev nD) : main_part0 (F := F) c = (Pipeline.chainK
  [ StableHlo.seq main_part0_ops0,
    StableHlo.seq main_part0_ops1 ]
  (StableHlo.seq main_part0_ops2) : Prog (TpuEff nD τ sig (Elt F) (Pipeline.Sig Λ₀ (Fin 0) fun p => (pcfgs (F := F) p).Adm) .tc) PUnit) := by
  chain_rfl

set_option maxRecDepth 65536 in
/-- Window 1 of @main is the chain of its pieces, the last in tail position. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5 ]
  (StableHlo.seq main_part1_ops6) : Prog (TpuEff nD τ sig (Elt F) (Pipeline.Sig Λ₀ (Fin 0) fun p => (pcfgs (F := F) p).Adm) .tc) PUnit) := by
  chain_rfl

set_option maxRecDepth 65536 in
/-- Window 2 of @main is the chain of its pieces, the last in tail position. -/
theorem main_part2_chain (c : Dev nD) : main_part2 (F := F) c = (Pipeline.chainK
  [ StableHlo.seq main_part2_ops0,
    StableHlo.seq main_part2_ops1,
    StableHlo.seq main_part2_ops2,
    StableHlo.seq main_part2_ops3,
    StableHlo.seq main_part2_ops4,
    StableHlo.seq main_part2_ops5 ]
  (StableHlo.seq main_part2_ops6) : Prog (TpuEff nD τ sig (Elt F) (Pipeline.Sig Λ₀ (Fin 0) fun p => (pcfgs (F := F) p).Adm) .tc) PUnit) := by
  chain_rfl

set_option maxRecDepth 65536 in
/-- Window 3 of @main is the chain of its pieces, the last in tail position. -/
theorem main_part3_chain (c : Dev nD) : main_part3 (F := F) c = (Pipeline.chainK
  [ StableHlo.seq main_part3_ops0,
    StableHlo.seq main_part3_ops1,
    StableHlo.seq main_part3_ops2,
    StableHlo.seq main_part3_ops3,
    StableHlo.seq main_part3_ops4,
    StableHlo.seq main_part3_ops5 ]
  (StableHlo.seq main_part3_ops6) : Prog (TpuEff nD τ sig (Elt F) (Pipeline.Sig Λ₀ (Fin 0) fun p => (pcfgs (F := F) p).Adm) .tc) PUnit) := by
  chain_rfl

set_option maxRecDepth 65536 in
/-- Window 4 of @main is the chain of its pieces, the last in tail position. -/
theorem main_part4_chain (c : Dev nD) : main_part4 (F := F) c = (Pipeline.chainK
  [ StableHlo.seq main_part4_ops0,
    StableHlo.seq main_part4_ops1,
    StableHlo.seq main_part4_ops2,
    StableHlo.seq main_part4_ops3,
    StableHlo.seq main_part4_ops4,
    StableHlo.seq main_part4_ops5 ]
  (StableHlo.seq main_part4_ops6) : Prog (TpuEff nD τ sig (Elt F) (Pipeline.Sig Λ₀ (Fin 0) fun p => (pcfgs (F := F) p).Adm) .tc) PUnit) := by
  chain_rfl

set_option maxRecDepth 65536 in
/-- Window 5 of @main is the chain of its pieces, the last in tail position. -/
theorem main_part5_chain (c : Dev nD) : main_part5 (F := F) c = (Pipeline.chainK
  [ StableHlo.seq main_part5_ops0,
    StableHlo.seq main_part5_ops1,
    StableHlo.seq main_part5_ops2,
    StableHlo.seq main_part5_ops3,
    StableHlo.seq main_part5_ops4,
    StableHlo.seq main_part5_ops5 ]
  (StableHlo.seq main_part5_ops6) : Prog (TpuEff nD τ sig (Elt F) (Pipeline.Sig Λ₀ (Fin 0) fun p => (pcfgs (F := F) p).Adm) .tc) PUnit) := by
  chain_rfl

set_option maxRecDepth 65536 in
set_option maxHeartbeats 4000000 in
/-- Window 6 of @main is the chain of its pieces, the last in tail position: both sides unfolded to the same
    right-nested sequence of operations. -/
theorem main_part6_chain (c : Dev nD) : main_part6 (F := F) c = (Pipeline.chainK
  [ StableHlo.seq main_part6_ops0,
    StableHlo.seq main_part6_ops1,
    StableHlo.seq main_part6_ops2,
    StableHlo.seq main_part6_ops3,
    StableHlo.seq main_part6_ops4,
    StableHlo.seq main_part6_ops5 ]
  (StableHlo.seq main_part6_ops6) : Prog (TpuEff nD τ sig (Elt F) (Pipeline.Sig Λ₀ (Fin 0) fun p => (pcfgs (F := F) p).Adm) .tc) PUnit) := by
  simp only [main_part6, fn_clip.body, fn_where_1.body, main_call16, main_call17, main_call18, Pipeline.chainK,
    StableHlo.seq, bind_assoc, pure_bind, main_part6_ops0, main_part6_ops1, main_part6_ops2, main_part6_ops3,
    main_part6_ops4, main_part6_ops5, main_part6_ops6]
  rfl

set_option maxRecDepth 65536 in
/-- Window 7 of @main is the chain of its pieces, the last in tail position. -/
theorem main_part7_chain (c : Dev nD) : main_part7 (F := F) c = (Pipeline.chainK
  [ StableHlo.seq main_part7_ops0,
    StableHlo.seq main_part7_ops1,
    StableHlo.seq main_part7_ops2,
    StableHlo.seq main_part7_ops3,
    StableHlo.seq main_part7_ops4,
    StableHlo.seq main_part7_ops5 ]
  (StableHlo.seq main_part7_ops6) : Prog (TpuEff nD τ sig (Elt F) (Pipeline.Sig Λ₀ (Fin 0) fun p => (pcfgs (F := F) p).Adm) .tc) PUnit) := by
  chain_rfl

set_option maxRecDepth 65536 in
/-- Window 8 of @main is the chain of its pieces, the last in tail position. -/
theorem main_part8_chain (c : Dev nD) : main_part8 (F := F) c = (Pipeline.chainK
  [ StableHlo.seq main_part8_ops0,
    StableHlo.seq main_part8_ops1,
    StableHlo.seq main_part8_ops2,
    StableHlo.seq main_part8_ops3,
    StableHlo.seq main_part8_ops4,
    StableHlo.seq main_part8_ops5 ]
  (StableHlo.seq main_part8_ops6) : Prog (TpuEff nD τ sig (Elt F) (Pipeline.Sig Λ₀ (Fin 0) fun p => (pcfgs (F := F) p).Adm) .tc) PUnit) := by
  chain_rfl

set_option maxRecDepth 65536 in
/-- The last window of @main is the chain of its pieces. -/
theorem main_part9_chain (c : Dev nD) : main_part9 (F := F) c = (Pipeline.chain
  [ StableHlo.seq main_part9_ops0 ] : Prog (TpuEff nD τ sig (Elt F) (Pipeline.Sig Λ₀ (Fin 0) fun p => (pcfgs (F := F) p).Adm) .tc) PUnit) := by
  chain_rfl

set_option maxRecDepth 65536 in
/-- @main is the chain of its 51 stretches: the windows' equations joined at the nine boundaries, then the two chains
    compared (the same operations in the same order, cut at different places). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31,
    StableHlo.seq hostOps0_32,
    StableHlo.seq hostOps0_33,
    StableHlo.seq hostOps0_34,
    StableHlo.seq hostOps0_35,
    StableHlo.seq hostOps0_36,
    StableHlo.seq hostOps0_37,
    StableHlo.seq hostOps0_38,
    StableHlo.seq hostOps0_39,
    StableHlo.seq hostOps0_40,
    StableHlo.seq hostOps0_41,
    StableHlo.seq hostOps0_42,
    StableHlo.seq hostOps0_43,
    StableHlo.seq hostOps0_44,
    StableHlo.seq hostOps0_45,
    StableHlo.seq hostOps0_46,
    StableHlo.seq hostOps0_47,
    StableHlo.seq hostOps0_48,
    StableHlo.seq hostOps0_49,
    StableHlo.seq refOps50 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c) = _
  rewrite [main_part9_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

end Cert.ReferenceIdeal.Hand

end
-- ==== Proof.RefRunKeep.lean ====
/- Two facts about every operation of the reference's 51 stretches, list by list: it determines its result (it writes
   no buffer with unspecified contents), and the one buffer it writes is none of @main's four arguments. -/
import proofs.«117756_j83829171683377_1_alg».proof.Proof.RefOps
import Idealize.ShloMosaic.Lib.StableHlo.Run

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

/-- @main's four arguments. -/
abbrev argRefs : List (Ref sig .tc) := [main_arg0, main_arg1, main_arg2, main_arg3]

/-- The operation writes none of @main's arguments. -/
def KeepsArgs (op : HloOp τ sig (Elt F)) : Prop := ∀ r ∈ argRefs, Proc.devRef (τ := τ) .tc r ∉ op.writes

/-- The arguments are the first four buffers of the device's memory. -/
theorem arg_idx_lt : ∀ r ∈ argRefs, r.idx.val < 4 := by decide

/-- A buffer from the fifth on is none of the arguments. -/
theorem ne_of_idx {y : Ref sig .tc} (h : 4 ≤ y.idx.val) : ∀ r ∈ argRefs, r ≠ y :=
  fun r hr e => absurd (e ▸ arg_idx_lt r hr) (Nat.not_lt.mpr h)

/-! Each builder writes its result buffer only: it keeps the arguments when its result is none of them (the references
    are told apart by computation). -/
section Builders
variable {x a b c y : Ref sig .tc}

theorem keeps_nullary {v : y.ty.Contents (Elt F)} {hy} (h : 4 ≤ y.idx.val) :
    KeepsArgs (F := F) (StableHlo.nullary (τ := τ) y v hy) :=
  fun r hr => by rw [StableHlo.nullary_writes, Finset.mem_singleton]; exact StableHlo.devRef_ne_of_ne (ne_of_idx h r hr)
theorem keeps_unary {f : x.ty.Contents (Elt F) → y.ty.Contents (Elt F)} {hx hy} (h : 4 ≤ y.idx.val) :
    KeepsArgs (F := F) (StableHlo.unary (τ := τ) x y f hx hy) :=
  fun r hr => by rw [StableHlo.unary_writes, Finset.mem_singleton]; exact StableHlo.devRef_ne_of_ne (ne_of_idx h r hr)
theorem keeps_binary {f : a.ty.Contents (Elt F) → b.ty.Contents (Elt F) → y.ty.Contents (Elt F)} {ha hb hy}
    (h : 4 ≤ y.idx.val) : KeepsArgs (F := F) (StableHlo.binary (τ := τ) a b y f ha hb hy) :=
  fun r hr => by rw [StableHlo.binary_writes, Finset.mem_singleton]; exact StableHlo.devRef_ne_of_ne (ne_of_idx h r hr)
theorem keeps_ternary {f : c.ty.Contents (Elt F) → a.ty.Contents (Elt F) → b.ty.Contents (Elt F) → y.ty.Contents (Elt F)}
    {hc ha hb hy} (h : 4 ≤ y.idx.val) : KeepsArgs (F := F) (StableHlo.ternary (τ := τ) c a b y f hc ha hb hy) :=
  fun r hr => by rw [StableHlo.ternary_writes, Finset.mem_singleton]; exact StableHlo.devRef_ne_of_ne (ne_of_idx h r hr)
theorem keeps_reshape {he hn hx hy} (h : 4 ≤ y.idx.val) :
    KeepsArgs (F := F) (StableHlo.reshape (τ := τ) (Val := Elt F) x y he hn hx hy) :=
  fun r hr => by rw [StableHlo.reshape_writes, Finset.mem_singleton]; exact StableHlo.devRef_ne_of_ne (ne_of_idx h r hr)
theorem keeps_nary {n : Nat} {xs : Fin n → Ref sig .tc}
    {f : ((k : Fin n) → (xs k).ty.Contents (Elt F)) → y.ty.Contents (Elt F)} {hxs hy} (h : 4 ≤ y.idx.val) :
    KeepsArgs (F := F) (StableHlo.nary (τ := τ) xs y f hxs hy) :=
  fun r hr => by rw [StableHlo.nary_writes, Finset.mem_singleton]; exact StableHlo.devRef_ne_of_ne (ne_of_idx h r hr)

end Builders

/-- A property of every element of every list is one of every element of their concatenation. -/
theorem forall_flatten {α : Type _} {p : α → Prop} {ls : List (List α)} (h : ls.Forall fun l => l.Forall p) :
    ls.flatten.Forall p := by
  rw [List.forall_iff_forall_mem] at h ⊢
  intro x hx
  obtain ⟨l, hl, hxl⟩ := List.mem_flatten.mp hx
  exact (List.forall_iff_forall_mem.mp (h l hl)) x hxl

/-! ## List by list -/

theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
theorem hostOps0_keeps : (hostOps0 : List (HloOp τ sig (Elt F))).Forall KeepsArgs :=
  ⟨keeps_reshape (by decide), keeps_unary (by decide), keeps_unary (by decide), keeps_reshape (by decide), keeps_unary (by decide), keeps_unary (by decide), keeps_reshape (by decide), keeps_unary (by decide), keeps_unary (by decide), keeps_reshape (by decide), keeps_unary (by decide), keeps_unary (by decide), keeps_reshape (by decide), keeps_unary (by decide), keeps_unary (by decide), keeps_reshape (by decide), keeps_unary (by decide), keeps_reshape (by decide), keeps_unary (by decide), keeps_reshape (by decide), keeps_reshape (by decide), keeps_reshape (by decide), keeps_reshape (by decide), keeps_reshape (by decide), keeps_reshape (by decide), keeps_nullary (by decide), keeps_nullary (by decide)⟩
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_1_keeps : (hostOps0_1 : List (HloOp τ sig (Elt F))).Forall KeepsArgs :=
  ⟨keeps_unary (by decide), keeps_unary (by decide), keeps_binary (by decide), keeps_unary (by decide), keeps_unary (by decide), keeps_unary (by decide), keeps_binary (by decide), keeps_unary (by decide), keeps_binary (by decide), keeps_nullary (by decide), keeps_unary (by decide), keeps_binary (by decide), keeps_binary (by decide), keeps_nullary (by decide), keeps_unary (by decide), keeps_binary (by decide), keeps_ternary (by decide), keeps_nullary (by decide), keeps_binary (by decide), keeps_nullary (by decide), keeps_ternary (by decide), keeps_unary (by decide), keeps_binary (by decide), keeps_nullary (by decide), keeps_unary (by decide), keeps_binary (by decide), keeps_nullary (by decide), keeps_unary (by decide), keeps_binary (by decide), keeps_nullary (by decide), keeps_binary (by decide), keeps_unary (by decide), keeps_binary (by decide), keeps_binary (by decide), keeps_unary (by decide), keeps_binary (by decide), keeps_ternary (by decide)⟩
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_2_keeps : (hostOps0_2 : List (HloOp τ sig (Elt F))).Forall KeepsArgs :=
  ⟨keeps_nullary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_unary (by decide), keeps_ternary (by decide), keeps_unary (by decide), keeps_nullary (by decide), keeps_unary (by decide), keeps_binary (by decide), keeps_nullary (by decide), keeps_unary (by decide), keeps_binary (by decide), keeps_binary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_3_fresh : (hostOps0_3 : List (HloOp τ sig (Elt F))).Forall fun op => op.fresh = ∅ :=
  ⟨rfl, rfl, rfl, rfl, rfl, rfl⟩
theorem hostOps0_3_keeps : (hostOps0_3 : List (HloOp τ sig (Elt F))).Forall KeepsArgs :=
  ⟨keeps_unary (by decide), keeps_unary (by decide), keeps_binary (by decide), keeps_unary (by decide), keeps_unary (by decide), keeps_binary (by decide)⟩
theorem hostOps0_4_fresh : (hostOps0_4 : List (HloOp τ sig (Elt F))).Forall fun op => op.fresh = ∅ :=
  ⟨rfl, rfl, rfl, rfl, rfl⟩
theorem hostOps0_4_keeps : (hostOps0_4 : List (HloOp τ sig (Elt F))).Forall KeepsArgs :=
  ⟨keeps_nullary (by decide), keeps_unary (by decide), keeps_binary (by decide), keeps_nullary (by decide), keeps_nullary (by decide)⟩
theorem hostOps0_5_fresh : (hostOps0_5 : List (HloOp τ sig (Elt F))).Forall fun op => op.fresh = ∅ :=
  ⟨rfl, rfl, rfl, rfl, rfl, rfl⟩
theorem hostOps0_5_keeps : (hostOps0_5 : List (HloOp τ sig (Elt F))).Forall KeepsArgs :=
  ⟨keeps_unary (by decide), keeps_unary (by decide), keeps_binary (by decide), keeps_unary (by decide), keeps_unary (by decide), keeps_binary (by decide)⟩
theorem hostOps0_6_fresh : (hostOps0_6 : List (HloOp τ sig (Elt F))).Forall fun op => op.fresh = ∅ :=
  ⟨rfl, rfl⟩
theorem hostOps0_6_keeps : (hostOps0_6 : List (HloOp τ sig (Elt F))).Forall KeepsArgs :=
  ⟨keeps_binary (by decide), keeps_nullary (by decide)⟩
theorem hostOps0_7_fresh : (hostOps0_7 : List (HloOp τ sig (Elt F))).Forall fun op => op.fresh = ∅ :=
  ⟨rfl, rfl, rfl, rfl, rfl⟩
theorem hostOps0_7_keeps : (hostOps0_7 : List (HloOp τ sig (Elt F))).Forall KeepsArgs :=
  ⟨keeps_unary (by decide), keeps_unary (by decide), keeps_unary (by decide), keeps_unary (by decide), keeps_ternary (by decide)⟩
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_8_keeps : (hostOps0_8 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_unary (by decide), keeps_nullary (by decide), keeps_unary (by decide), keeps_binary (by decide), keeps_nullary (by decide), keeps_unary (by decide), keeps_binary (by decide), keeps_binary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_9_fresh : (hostOps0_9 : List (HloOp τ sig (Elt F))).Forall fun op => op.fresh = ∅ :=
  ⟨rfl, rfl, rfl, rfl, rfl, rfl⟩
theorem hostOps0_9_keeps : (hostOps0_9 : List (HloOp τ sig (Elt F))).Forall KeepsArgs :=
  ⟨keeps_unary (by decide), keeps_unary (by decide), keeps_binary (by decide), keeps_unary (by decide), keeps_unary (by decide), keeps_binary (by decide)⟩
theorem hostOps0_10_fresh : (hostOps0_10 : List (HloOp τ sig (Elt F))).Forall fun op => op.fresh = ∅ :=
  ⟨rfl, rfl, rfl, rfl, rfl⟩
theorem hostOps0_10_keeps : (hostOps0_10 : List (HloOp τ sig (Elt F))).Forall KeepsArgs :=
  ⟨keeps_nullary (by decide), keeps_unary (by decide), keeps_binary (by decide), keeps_nullary (by decide), keeps_nullary (by decide)⟩
theorem hostOps0_11_fresh : (hostOps0_11 : List (HloOp τ sig (Elt F))).Forall fun op => op.fresh = ∅ :=
  ⟨rfl, rfl, rfl, rfl, rfl, rfl⟩
theorem hostOps0_11_keeps : (hostOps0_11 : List (HloOp τ sig (Elt F))).Forall KeepsArgs :=
  ⟨keeps_unary (by decide), keeps_unary (by decide), keeps_binary (by decide), keeps_unary (by decide), keeps_unary (by decide), keeps_binary (by decide)⟩
theorem hostOps0_12_fresh : (hostOps0_12 : List (HloOp τ sig (Elt F))).Forall fun op => op.fresh = ∅ :=
  ⟨rfl, rfl⟩
theorem hostOps0_12_keeps : (hostOps0_12 : List (HloOp τ sig (Elt F))).Forall KeepsArgs :=
  ⟨keeps_binary (by decide), keeps_nullary (by decide)⟩
theorem hostOps0_13_fresh : (hostOps0_13 : List (HloOp τ sig (Elt F))).Forall fun op => op.fresh = ∅ :=
  ⟨rfl, rfl, rfl, rfl, rfl⟩
theorem hostOps0_13_keeps : (hostOps0_13 : List (HloOp τ sig (Elt F))).Forall KeepsArgs :=
  ⟨keeps_unary (by decide), keeps_unary (by decide), keeps_unary (by decide), keeps_unary (by decide), keeps_ternary (by decide)⟩
theorem hostOps0_14_fresh : (hostOps0_14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_14_keeps : (hostOps0_14 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_unary (by decide), keeps_nullary (by decide), keeps_unary (by decide), keeps_binary (by decide), keeps_nullary (by decide), keeps_unary (by decide), keeps_binary (by decide), keeps_binary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_15_fresh : (hostOps0_15 : List (HloOp τ sig (Elt F))).Forall fun op => op.fresh = ∅ :=
  ⟨rfl, rfl, rfl, rfl, rfl, rfl⟩
theorem hostOps0_15_keeps : (hostOps0_15 : List (HloOp τ sig (Elt F))).Forall KeepsArgs :=
  ⟨keeps_unary (by decide), keeps_unary (by decide), keeps_binary (by decide), keeps_unary (by decide), keeps_unary (by decide), keeps_binary (by decide)⟩
theorem hostOps0_16_fresh : (hostOps0_16 : List (HloOp τ sig (Elt F))).Forall fun op => op.fresh = ∅ :=
  ⟨rfl, rfl, rfl, rfl, rfl⟩
theorem hostOps0_16_keeps : (hostOps0_16 : List (HloOp τ sig (Elt F))).Forall KeepsArgs :=
  ⟨keeps_nullary (by decide), keeps_unary (by decide), keeps_binary (by decide), keeps_nullary (by decide), keeps_nullary (by decide)⟩
theorem hostOps0_17_fresh : (hostOps0_17 : List (HloOp τ sig (Elt F))).Forall fun op => op.fresh = ∅ :=
  ⟨rfl, rfl, rfl, rfl, rfl, rfl⟩
theorem hostOps0_17_keeps : (hostOps0_17 : List (HloOp τ sig (Elt F))).Forall KeepsArgs :=
  ⟨keeps_unary (by decide), keeps_unary (by decide), keeps_binary (by decide), keeps_unary (by decide), keeps_unary (by decide), keeps_binary (by decide)⟩
theorem hostOps0_18_fresh : (hostOps0_18 : List (HloOp τ sig (Elt F))).Forall fun op => op.fresh = ∅ :=
  ⟨rfl, rfl⟩
theorem hostOps0_18_keeps : (hostOps0_18 : List (HloOp τ sig (Elt F))).Forall KeepsArgs :=
  ⟨keeps_binary (by decide), keeps_nullary (by decide)⟩
theorem hostOps0_19_fresh : (hostOps0_19 : List (HloOp τ sig (Elt F))).Forall fun op => op.fresh = ∅ :=
  ⟨rfl, rfl, rfl, rfl, rfl⟩
theorem hostOps0_19_keeps : (hostOps0_19 : List (HloOp τ sig (Elt F))).Forall KeepsArgs :=
  ⟨keeps_unary (by decide), keeps_unary (by decide), keeps_unary (by decide), keeps_unary (by decide), keeps_ternary (by decide)⟩
theorem hostOps0_20_fresh : (hostOps0_20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_20_keeps : (hostOps0_20 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_unary (by decide), keeps_nullary (by decide), keeps_unary (by decide), keeps_binary (by decide), keeps_nullary (by decide), keeps_unary (by decide), keeps_binary (by decide), keeps_binary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_21_fresh : (hostOps0_21 : List (HloOp τ sig (Elt F))).Forall fun op => op.fresh = ∅ :=
  ⟨rfl, rfl, rfl, rfl, rfl, rfl⟩
theorem hostOps0_21_keeps : (hostOps0_21 : List (HloOp τ sig (Elt F))).Forall KeepsArgs :=
  ⟨keeps_unary (by decide), keeps_unary (by decide), keeps_binary (by decide), keeps_unary (by decide), keeps_unary (by decide), keeps_binary (by decide)⟩
theorem hostOps0_22_fresh : (hostOps0_22 : List (HloOp τ sig (Elt F))).Forall fun op => op.fresh = ∅ :=
  ⟨rfl, rfl, rfl, rfl, rfl⟩
theorem hostOps0_22_keeps : (hostOps0_22 : List (HloOp τ sig (Elt F))).Forall KeepsArgs :=
  ⟨keeps_nullary (by decide), keeps_unary (by decide), keeps_binary (by decide), keeps_nullary (by decide), keeps_nullary (by decide)⟩
theorem hostOps0_23_fresh : (hostOps0_23 : List (HloOp τ sig (Elt F))).Forall fun op => op.fresh = ∅ :=
  ⟨rfl, rfl, rfl, rfl, rfl, rfl⟩
theorem hostOps0_23_keeps : (hostOps0_23 : List (HloOp τ sig (Elt F))).Forall KeepsArgs :=
  ⟨keeps_unary (by decide), keeps_unary (by decide), keeps_binary (by decide), keeps_unary (by decide), keeps_unary (by decide), keeps_binary (by decide)⟩
theorem hostOps0_24_fresh : (hostOps0_24 : List (HloOp τ sig (Elt F))).Forall fun op => op.fresh = ∅ :=
  ⟨rfl, rfl⟩
theorem hostOps0_24_keeps : (hostOps0_24 : List (HloOp τ sig (Elt F))).Forall KeepsArgs :=
  ⟨keeps_binary (by decide), keeps_nullary (by decide)⟩
theorem hostOps0_25_fresh : (hostOps0_25 : List (HloOp τ sig (Elt F))).Forall fun op => op.fresh = ∅ :=
  ⟨rfl, rfl, rfl, rfl, rfl⟩
theorem hostOps0_25_keeps : (hostOps0_25 : List (HloOp τ sig (Elt F))).Forall KeepsArgs :=
  ⟨keeps_unary (by decide), keeps_unary (by decide), keeps_unary (by decide), keeps_unary (by decide), keeps_ternary (by decide)⟩
theorem hostOps0_26_fresh : (hostOps0_26 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_26_keeps : (hostOps0_26 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_nullary (by decide), keeps_unary (by decide), keeps_binary (by decide), keeps_unary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_27_fresh : (hostOps0_27 : List (HloOp τ sig (Elt F))).Forall fun op => op.fresh = ∅ :=
  ⟨rfl, rfl, rfl, rfl, rfl, rfl⟩
theorem hostOps0_27_keeps : (hostOps0_27 : List (HloOp τ sig (Elt F))).Forall KeepsArgs :=
  ⟨keeps_unary (by decide), keeps_unary (by decide), keeps_binary (by decide), keeps_unary (by decide), keeps_unary (by decide), keeps_binary (by decide)⟩
theorem hostOps0_28_fresh : (hostOps0_28 : List (HloOp τ sig (Elt F))).Forall fun op => op.fresh = ∅ :=
  ⟨rfl, rfl, rfl, rfl, rfl⟩
theorem hostOps0_28_keeps : (hostOps0_28 : List (HloOp τ sig (Elt F))).Forall KeepsArgs :=
  ⟨keeps_nullary (by decide), keeps_unary (by decide), keeps_binary (by decide), keeps_nullary (by decide), keeps_nullary (by decide)⟩
theorem hostOps0_29_fresh : (hostOps0_29 : List (HloOp τ sig (Elt F))).Forall fun op => op.fresh = ∅ :=
  ⟨rfl, rfl, rfl, rfl, rfl, rfl⟩
theorem hostOps0_29_keeps : (hostOps0_29 : List (HloOp τ sig (Elt F))).Forall KeepsArgs :=
  ⟨keeps_unary (by decide), keeps_unary (by decide), keeps_binary (by decide), keeps_unary (by decide), keeps_unary (by decide), keeps_binary (by decide)⟩
theorem hostOps0_30_fresh : (hostOps0_30 : List (HloOp τ sig (Elt F))).Forall fun op => op.fresh = ∅ :=
  ⟨rfl, rfl⟩
theorem hostOps0_30_keeps : (hostOps0_30 : List (HloOp τ sig (Elt F))).Forall KeepsArgs :=
  ⟨keeps_binary (by decide), keeps_nullary (by decide)⟩
theorem hostOps0_31_fresh : (hostOps0_31 : List (HloOp τ sig (Elt F))).Forall fun op => op.fresh = ∅ :=
  ⟨rfl, rfl, rfl, rfl, rfl⟩
theorem hostOps0_31_keeps : (hostOps0_31 : List (HloOp τ sig (Elt F))).Forall KeepsArgs :=
  ⟨keeps_unary (by decide), keeps_unary (by decide), keeps_unary (by decide), keeps_unary (by decide), keeps_ternary (by decide)⟩
theorem hostOps0_32_fresh : (hostOps0_32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_32_keeps : (hostOps0_32 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_unary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_33_fresh : (hostOps0_33 : List (HloOp τ sig (Elt F))).Forall fun op => op.fresh = ∅ :=
  ⟨rfl, rfl, rfl, rfl, rfl, rfl⟩
theorem hostOps0_33_keeps : (hostOps0_33 : List (HloOp τ sig (Elt F))).Forall KeepsArgs :=
  ⟨keeps_unary (by decide), keeps_unary (by decide), keeps_binary (by decide), keeps_unary (by decide), keeps_unary (by decide), keeps_binary (by decide)⟩
theorem hostOps0_34_fresh : (hostOps0_34 : List (HloOp τ sig (Elt F))).Forall fun op => op.fresh = ∅ :=
  ⟨rfl, rfl, rfl, rfl, rfl⟩
theorem hostOps0_34_keeps : (hostOps0_34 : List (HloOp τ sig (Elt F))).Forall KeepsArgs :=
  ⟨keeps_nullary (by decide), keeps_unary (by decide), keeps_binary (by decide), keeps_nullary (by decide), keeps_nullary (by decide)⟩
theorem hostOps0_35_fresh : (hostOps0_35 : List (HloOp τ sig (Elt F))).Forall fun op => op.fresh = ∅ :=
  ⟨rfl, rfl, rfl, rfl, rfl, rfl⟩
theorem hostOps0_35_keeps : (hostOps0_35 : List (HloOp τ sig (Elt F))).Forall KeepsArgs :=
  ⟨keeps_unary (by decide), keeps_unary (by decide), keeps_binary (by decide), keeps_unary (by decide), keeps_unary (by decide), keeps_binary (by decide)⟩
theorem hostOps0_36_fresh : (hostOps0_36 : List (HloOp τ sig (Elt F))).Forall fun op => op.fresh = ∅ :=
  ⟨rfl, rfl⟩
theorem hostOps0_36_keeps : (hostOps0_36 : List (HloOp τ sig (Elt F))).Forall KeepsArgs :=
  ⟨keeps_binary (by decide), keeps_nullary (by decide)⟩
theorem hostOps0_37_fresh : (hostOps0_37 : List (HloOp τ sig (Elt F))).Forall fun op => op.fresh = ∅ :=
  ⟨rfl, rfl, rfl, rfl, rfl⟩
theorem hostOps0_37_keeps : (hostOps0_37 : List (HloOp τ sig (Elt F))).Forall KeepsArgs :=
  ⟨keeps_unary (by decide), keeps_unary (by decide), keeps_unary (by decide), keeps_unary (by decide), keeps_ternary (by decide)⟩
theorem hostOps0_38_fresh : (hostOps0_38 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_38_keeps : (hostOps0_38 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_39_fresh : (hostOps0_39 : List (HloOp τ sig (Elt F))).Forall fun op => op.fresh = ∅ :=
  ⟨rfl, rfl, rfl, rfl, rfl, rfl⟩
theorem hostOps0_39_keeps : (hostOps0_39 : List (HloOp τ sig (Elt F))).Forall KeepsArgs :=
  ⟨keeps_unary (by decide), keeps_unary (by decide), keeps_binary (by decide), keeps_unary (by decide), keeps_unary (by decide), keeps_binary (by decide)⟩
theorem hostOps0_40_fresh : (hostOps0_40 : List (HloOp τ sig (Elt F))).Forall fun op => op.fresh = ∅ :=
  ⟨rfl, rfl, rfl, rfl, rfl⟩
theorem hostOps0_40_keeps : (hostOps0_40 : List (HloOp τ sig (Elt F))).Forall KeepsArgs :=
  ⟨keeps_nullary (by decide), keeps_unary (by decide), keeps_binary (by decide), keeps_nullary (by decide), keeps_nullary (by decide)⟩
theorem hostOps0_41_fresh : (hostOps0_41 : List (HloOp τ sig (Elt F))).Forall fun op => op.fresh = ∅ :=
  ⟨rfl, rfl, rfl, rfl, rfl, rfl⟩
theorem hostOps0_41_keeps : (hostOps0_41 : List (HloOp τ sig (Elt F))).Forall KeepsArgs :=
  ⟨keeps_unary (by decide), keeps_unary (by decide), keeps_binary (by decide), keeps_unary (by decide), keeps_unary (by decide), keeps_binary (by decide)⟩
theorem hostOps0_42_fresh : (hostOps0_42 : List (HloOp τ sig (Elt F))).Forall fun op => op.fresh = ∅ :=
  ⟨rfl, rfl⟩
theorem hostOps0_42_keeps : (hostOps0_42 : List (HloOp τ sig (Elt F))).Forall KeepsArgs :=
  ⟨keeps_binary (by decide), keeps_nullary (by decide)⟩
theorem hostOps0_43_fresh : (hostOps0_43 : List (HloOp τ sig (Elt F))).Forall fun op => op.fresh = ∅ :=
  ⟨rfl, rfl, rfl, rfl, rfl⟩
theorem hostOps0_43_keeps : (hostOps0_43 : List (HloOp τ sig (Elt F))).Forall KeepsArgs :=
  ⟨keeps_unary (by decide), keeps_unary (by decide), keeps_unary (by decide), keeps_unary (by decide), keeps_ternary (by decide)⟩
theorem hostOps0_44_fresh : (hostOps0_44 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_44_keeps : (hostOps0_44 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_nullary (by decide), keeps_unary (by decide), keeps_binary (by decide), keeps_nullary (by decide), keeps_unary (by decide), keeps_binary (by decide), keeps_nullary (by decide), keeps_unary (by decide), keeps_binary (by decide), keeps_nullary (by decide), keeps_unary (by decide), keeps_binary (by decide), keeps_binary (by decide), keeps_nullary (by decide), keeps_unary (by decide), keeps_binary (by decide), keeps_binary (by decide), keeps_nullary (by decide), keeps_unary (by decide), keeps_binary (by decide), keeps_binary (by decide), keeps_nullary (by decide), keeps_nullary (by decide)⟩
theorem hostOps0_45_fresh : (hostOps0_45 : List (HloOp τ sig (Elt F))).Forall fun op => op.fresh = ∅ :=
  ⟨rfl, rfl, rfl, rfl, rfl, rfl⟩
theorem hostOps0_45_keeps : (hostOps0_45 : List (HloOp τ sig (Elt F))).Forall KeepsArgs :=
  ⟨keeps_unary (by decide), keeps_unary (by decide), keeps_binary (by decide), keeps_unary (by decide), keeps_unary (by decide), keeps_binary (by decide)⟩
theorem hostOps0_46_fresh : (hostOps0_46 : List (HloOp τ sig (Elt F))).Forall fun op => op.fresh = ∅ :=
  ⟨rfl, rfl, rfl, rfl, rfl⟩
theorem hostOps0_46_keeps : (hostOps0_46 : List (HloOp τ sig (Elt F))).Forall KeepsArgs :=
  ⟨keeps_nullary (by decide), keeps_unary (by decide), keeps_binary (by decide), keeps_nullary (by decide), keeps_nullary (by decide)⟩
theorem hostOps0_47_fresh : (hostOps0_47 : List (HloOp τ sig (Elt F))).Forall fun op => op.fresh = ∅ :=
  ⟨rfl, rfl, rfl, rfl, rfl, rfl⟩
theorem hostOps0_47_keeps : (hostOps0_47 : List (HloOp τ sig (Elt F))).Forall KeepsArgs :=
  ⟨keeps_unary (by decide), keeps_unary (by decide), keeps_binary (by decide), keeps_unary (by decide), keeps_unary (by decide), keeps_binary (by decide)⟩
theorem hostOps0_48_fresh : (hostOps0_48 : List (HloOp τ sig (Elt F))).Forall fun op => op.fresh = ∅ :=
  ⟨rfl, rfl⟩
theorem hostOps0_48_keeps : (hostOps0_48 : List (HloOp τ sig (Elt F))).Forall KeepsArgs :=
  ⟨keeps_binary (by decide), keeps_nullary (by decide)⟩
theorem hostOps0_49_fresh : (hostOps0_49 : List (HloOp τ sig (Elt F))).Forall fun op => op.fresh = ∅ :=
  ⟨rfl, rfl, rfl, rfl, rfl⟩
theorem hostOps0_49_keeps : (hostOps0_49 : List (HloOp τ sig (Elt F))).Forall KeepsArgs :=
  ⟨keeps_unary (by decide), keeps_unary (by decide), keeps_unary (by decide), keeps_unary (by decide), keeps_ternary (by decide)⟩
theorem refOps50_fresh : (refOps50 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem refOps50_keeps : (refOps50 : List (HloOp τ sig (Elt F))).Forall KeepsArgs :=
  ⟨keeps_nullary (by decide), keeps_unary (by decide), keeps_binary (by decide), keeps_nullary (by decide), keeps_unary (by decide), keeps_binary (by decide), keeps_ternary (by decide), keeps_nullary (by decide), keeps_unary (by decide), keeps_binary (by decide), keeps_nullary (by decide), keeps_unary (by decide), keeps_binary (by decide), keeps_ternary (by decide), keeps_unary (by decide), keeps_unary (by decide), keeps_binary (by decide), keeps_ternary (by decide), keeps_reshape (by decide), keeps_nullary (by decide), keeps_nullary (by decide), keeps_nullary (by decide), keeps_unary (by decide), keeps_binary (by decide), keeps_binary (by decide), keeps_unary (by decide), keeps_nullary (by decide), keeps_unary (by decide), keeps_binary (by decide), keeps_unary (by decide), keeps_unary (by decide), keeps_binary (by decide), keeps_binary (by decide), keeps_nullary (by decide), keeps_unary (by decide), keeps_binary (by decide), keeps_unary (by decide), keeps_unary (by decide), keeps_binary (by decide), keeps_binary (by decide), keeps_unary (by decide), keeps_unary (by decide), keeps_nullary (by decide), keeps_unary (by decide), keeps_binary (by decide), keeps_unary (by decide), keeps_unary (by decide), keeps_unary (by decide), keeps_unary (by decide), keeps_binary (by decide), keeps_binary (by decide), keeps_nullary (by decide), keeps_unary (by decide), keeps_unary (by decide), keeps_unary (by decide), keeps_unary (by decide), keeps_binary (by decide), keeps_unary (by decide), keeps_unary (by decide), keeps_binary (by decide), keeps_unary (by decide), keeps_unary (by decide), keeps_unary (by decide), keeps_nary (by decide)⟩

end Cert.ReferenceIdeal.Hand

end
-- ==== Proof.RefRun.lean ====
/- The reference program's run. @main is the straight line of the operations of its 51 stretches, in order; so every
   weakly fair execution of it terminates with each buffer at the fold of those operations' results over the launch
   contents, and, no operation writing an argument, the four arguments as launched. -/
import proofs.«117756_j83829171683377_1_alg».proof.Proof.RefOps
import Idealize.ShloMosaic.Lib.StableHlo.Run
import Idealize.ShloMosaic.Lib.Pipeline.Regions
import proofs.«117756_j83829171683377_1_alg».proof.Proof.RefRunChain
import proofs.«117756_j83829171683377_1_alg».proof.Proof.RefRunKeep

noncomputable section

namespace Cert.ReferenceIdeal.Hand

open Idealize.ShloMosaic Idealize.ShloMosaic.TcCoe
open Idealize.SL Idealize.SL.Sem
open Cert.ReferenceIdeal Cert.ReferenceIdeal.Gen

variable {F : FTy → Type} [FloatOps F]

/-- The reference's operations: its 51 stretches, in order. -/
abbrev refLists : List (List (HloOp τ sig (Elt F))) :=
  [ hostOps0,
    hostOps0_1,
    hostOps0_2,
    hostOps0_3,
    hostOps0_4,
    hostOps0_5,
    hostOps0_6,
    hostOps0_7,
    hostOps0_8,
    hostOps0_9,
    hostOps0_10,
    hostOps0_11,
    hostOps0_12,
    hostOps0_13,
    hostOps0_14,
    hostOps0_15,
    hostOps0_16,
    hostOps0_17,
    hostOps0_18,
    hostOps0_19,
    hostOps0_20,
    hostOps0_21,
    hostOps0_22,
    hostOps0_23,
    hostOps0_24,
    hostOps0_25,
    hostOps0_26,
    hostOps0_27,
    hostOps0_28,
    hostOps0_29,
    hostOps0_30,
    hostOps0_31,
    hostOps0_32,
    hostOps0_33,
    hostOps0_34,
    hostOps0_35,
    hostOps0_36,
    hostOps0_37,
    hostOps0_38,
    hostOps0_39,
    hostOps0_40,
    hostOps0_41,
    hostOps0_42,
    hostOps0_43,
    hostOps0_44,
    hostOps0_45,
    hostOps0_46,
    hostOps0_47,
    hostOps0_48,
    hostOps0_49,
    refOps50 ]

/-- The chain of the straight lines of some lists is the straight line of their concatenation. -/
theorem chain_map_seq (ls : List (List (HloOp τ sig (Elt F)))) :
    (Pipeline.chain (ls.map StableHlo.seq) : Prog (TpuEff nD τ sig (Elt F) (Pipeline.Sig Λ₀ (Fin 0) fun p => (pcfgs (F := F) p).Adm) .tc) PUnit) = StableHlo.seq ls.flatten := by
  induction ls with
  | nil => rfl
  | cons l ls ih => rw [List.map_cons, Pipeline.chain_cons, List.flatten_cons, StableHlo.seq_append, ih]

/-- @main is the straight line of all its operations. -/
theorem main_eq (c : Dev nD) : main (F := F) c = StableHlo.seq (List.flatten refLists) :=
  (main_chain c).trans (chain_map_seq refLists)

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem refLists_sub : (List.flatten (refLists (F := F))).Forall fun op => op.bufs ⊆ StableHlo.tcRefs τ sig :=
  forall_flatten (ls := refLists)
    ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, refOps50_sub⟩

/-- Every operation determines its result. -/
theorem refLists_fresh : (List.flatten (refLists (F := F))).Forall fun op => op.fresh = ∅ :=
  forall_flatten (ls := refLists)
    ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, refOps50_fresh⟩

/-- No operation writes an argument of @main. -/
theorem refLists_keeps : (List.flatten (refLists (F := F))).Forall KeepsArgs :=
  forall_flatten (ls := refLists)
    ⟨hostOps0_keeps, hostOps0_1_keeps, hostOps0_2_keeps, hostOps0_3_keeps, hostOps0_4_keeps, hostOps0_5_keeps, hostOps0_6_keeps, hostOps0_7_keeps, hostOps0_8_keeps, hostOps0_9_keeps, hostOps0_10_keeps, hostOps0_11_keeps, hostOps0_12_keeps, hostOps0_13_keeps, hostOps0_14_keeps, hostOps0_15_keeps, hostOps0_16_keeps, hostOps0_17_keeps, hostOps0_18_keeps, hostOps0_19_keeps, hostOps0_20_keeps, hostOps0_21_keeps, hostOps0_22_keeps, hostOps0_23_keeps, hostOps0_24_keeps, hostOps0_25_keeps, hostOps0_26_keeps, hostOps0_27_keeps, hostOps0_28_keeps, hostOps0_29_keeps, hostOps0_30_keeps, hostOps0_31_keeps, hostOps0_32_keeps, hostOps0_33_keeps, hostOps0_34_keeps, hostOps0_35_keeps, hostOps0_36_keeps, hostOps0_37_keeps, hostOps0_38_keeps, hostOps0_39_keeps, hostOps0_40_keeps, hostOps0_41_keeps, hostOps0_42_keeps, hostOps0_43_keeps, hostOps0_44_keeps, hostOps0_45_keeps, hostOps0_46_keeps, hostOps0_47_keeps, hostOps0_48_keeps, hostOps0_49_keeps, refOps50_keeps⟩

/-- On every device, for any float values, from any memory with zero counters: every weakly fair execution of @main
    terminates with each TensorCore buffer at the fold of the operations' results over its launch contents. -/
theorem run (m : (ℓ : Loc nD τ sig) → Buf (Elt F) ℓ) (ρ : Dev nD → PrngReg) :
    θ_run (defs (F := F)) (onTc (τ := τ) (main (F := F))) ⟨m, fun _ => 0, ρ⟩ (fun r => ∀ (d : Dev nD) (b : Ref sig .tc),
      r.2.mem ((d.tc : Thread nD τ).loc b) = StableHlo.after (List.flatten refLists) (StableHlo.launchContents m d) (Proc.devRef .tc b)) :=
  StableHlo.run_seq scopedRefs_eq scopedSems_eq defs main (fun _ => List.flatten refLists) main_eq (fun _ => refLists_sub) m ρ
    (fun _ => List.forall_iff_forall_mem.mp refLists_fresh)

/-- An argument of @main is as it was after all the operations: none writes it. -/
theorem kept_of_mem {r : Ref sig .tc} (hr : r ∈ argRefs) (V : Valuation τ sig (Elt F)) :
    StableHlo.after (List.flatten refLists) V (Proc.devRef .tc r) = V (Proc.devRef .tc r) :=
  StableHlo.after_of_forall_not_mem _ V fun op hop => (List.forall_iff_forall_mem.mp refLists_keeps) op hop r hr

theorem kept_arg0 (V : Valuation τ sig (Elt F)) :
    StableHlo.after (List.flatten refLists) V (Proc.devRef .tc main_arg0) = V (Proc.devRef .tc main_arg0) :=
  kept_of_mem List.mem_cons_self V
theorem kept_arg1 (V : Valuation τ sig (Elt F)) :
    StableHlo.after (List.flatten refLists) V (Proc.devRef .tc main_arg1) = V (Proc.devRef .tc main_arg1) :=
  kept_of_mem (List.mem_cons_of_mem _ List.mem_cons_self) V
theorem kept_arg2 (V : Valuation τ sig (Elt F)) :
    StableHlo.after (List.flatten refLists) V (Proc.devRef .tc main_arg2) = V (Proc.devRef .tc main_arg2) :=
  kept_of_mem (List.mem_cons_of_mem _ (List.mem_cons_of_mem _ List.mem_cons_self)) V
theorem kept_arg3 (V : Valuation τ sig (Elt F)) :
    StableHlo.after (List.flatten refLists) V (Proc.devRef .tc main_arg3) = V (Proc.devRef .tc main_arg3) :=
  kept_of_mem (List.mem_cons_of_mem _ (List.mem_cons_of_mem _ (List.mem_cons_of_mem _ List.mem_cons_self))) V

/-- The reference's frame: every weakly fair execution of @main terminates with the four arguments as launched. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_arg0).trans (kept_arg0 _), (h c main_arg1).trans (kept_arg1 _),
      (h c main_arg2).trans (kept_arg2 _), (h c main_arg3).trans (kept_arg3 _)⟩) (run m ρ)

end Cert.ReferenceIdeal.Hand

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.DotAt.lean ====
/- The two matrix products, read at an index.
   The kernel's body contracts the FIRST axis of both 1024×1024 operands: its product at (j, k) is Σ_i A(i,j)·B(i,k).
   The reference's dot_general has two batch axes (batch, time) and contracts axis 2 of both operands: at (b, t, j, k) it is
   Σ_i L(b,t,i,j)·R(b,t,i,k). At the ideal values both are plain finite sums over the one contracted coordinate, whatever
   the operands' float formats; the sums are re-indexed from the contraction shape's index to Fin 1024. -/
import proofs.«117756_j83829171683377_1_alg».proof.KernelIdeal
import proofs.«117756_j83829171683377_1_alg».proof.ReferenceIdeal
import proofs.«117756_j83829171683377_1_alg».proof.Proof.Gen.KernelIdeal
import proofs.«117756_j83829171683377_1_alg».proof.Proof.Gen.ReferenceIdeal
import proofs.«117756_j83829171683377_1_alg».proof.Proof.LibMatrixAtIndex
import Idealize.ShloMosaic.Lib.ValueIdx
import Idealize.ShloMosaic.PureOps.Ideal.Laws

open scoped BigOperators

noncomputable section

namespace Cert.Bridge

open Idealize.ShloMosaic Idealize.ShloMosaic.ValueIdx

/-- The kernel's contraction: first axis against first axis, no batch axis. -/
abbrev dK : DotDims Cert.KernelIdeal.S1024x1024 Cert.KernelIdeal.S1024x1024 Cert.KernelIdeal.S1024x1024 :=
  Cert.KernelIdeal.dot_S1024x1024_S1024x1024_S1024x1024_0_0_1_1_n_n

/-- The reference's contraction: axes 0 and 1 batched, axis 2 against axis 2. -/
abbrev dR : DotDims Cert.ReferenceIdeal.S2x8x1024x1024 Cert.ReferenceIdeal.S2x8x1024x1024 Cert.ReferenceIdeal.S2x8x1024x1024 :=
  Cert.ReferenceIdeal.dot_S2x8x1024x1024_S2x8x1024x1024_S2x8x1024x1024_2_2_3_3_01_01

/-- The kernel's product into a zero accumulator at (j, k): the sum over the shared first coordinate. -/
theorem matmulK_apply (A B : FVec Ideal Cert.KernelIdeal.S1024x1024 .bf16) (j k : Fin 1024) :
    matmul (F := Ideal) dK none A B (constant (F := Ideal) Cert.KernelIdeal.S1024x1024 .f32 0x00000000#32) (ix2 j k)
      = ∑ i : Fin 1024, A (ix2 i j) * B (ix2 i k) :=
  Cert.KernelIdeal.Pay.matmul_colcol_apply (m := 1024) (k := 1024) (n := 1024) dK rfl rfl rfl rfl rfl rfl rfl rfl none A B j k

/-- The reference's batched product at (b, t, j, k): the sum over the shared third coordinate, batch and time fixed. -/
theorem dotR_apply (L R : FVec Ideal Cert.ReferenceIdeal.S2x8x1024x1024 .f32) (b : Fin 2) (t : Fin 8) (j k : Fin 1024) :
    Host.dotGeneral (F := Ideal) dR none L R (ix4 b t j k) = ∑ i : Fin 1024, L (ix4 b t i j) * R (ix4 b t i k) := by
  have hr : dR.contr.rank = 1 := rfl
  have hs : dR.contr.size ⟨0, by omega⟩ = 1024 := rfl
  show FloatOps.dotGeneral dR none .single L R (ix4 b t j k) = _
  rw [Ideal.dotGeneral_apply, ← Equiv.sum_comp (contrEquiv1 dR 1024 hr hs).symm]
  refine Finset.sum_congr rfl fun i _ => ?_
  have hk := contrEquiv1_symm_val dR 1024 hr hs i
  have el : dR.lhsIdx (ix4 b t j k) ((contrEquiv1 dR 1024 hr hs).symm i) = ix4 b t i j := funext fun ax => Fin.ext (by
    match ax with
    | ⟨0, _⟩ => rfl
    | ⟨1, _⟩ => rfl
    | ⟨2, _⟩ => exact (dR.lhsIdx_val_of_single rfl _ _).trans hk
    | ⟨3, _⟩ => rfl)
  have er : dR.rhsIdx (ix4 b t j k) ((contrEquiv1 dR 1024 hr hs).symm i) = ix4 b t i k := funext fun ax => Fin.ext (by
    match ax with
    | ⟨0, _⟩ => rfl
    | ⟨1, _⟩ => rfl
    | ⟨2, _⟩ => exact (dR.rhsIdx_val_of_single rfl _ _).trans hk
    | ⟨3, _⟩ => rfl)
  rw [el, er]

end Cert.Bridge

end
-- ==== Proof.PayAt.lean ====
/- The kernel body's one payload, read at an index, at the ideal values: the stored [1,1024,1024] block at (u, j, k)
   is Σ_r x0(0,r,j)·x1(0,r,k) — the two loaded blocks lose their leading unit axis, the first is multiplied transposed
   by the second into a zero accumulator, and the product gets the unit axis back. -/
import proofs.«117756_j83829171683377_1_alg».proof.Proof.Gen.KernelIdeal.Skeleton
import proofs.«117756_j83829171683377_1_alg».proof.Proof.DotAt
import Idealize.ShloMosaic.Lib.ValueLayout

open scoped BigOperators

noncomputable section

namespace Cert.Bridge

open Idealize.ShloMosaic Idealize.ShloMosaic.ValueIdx

theorem pay_apply (x0 x1 : FVec Ideal Cert.KernelIdeal.S1x1024x1024 .bf16) (u : Fin 1) (j k : Fin 1024) :
    Cert.KernelIdeal.Gen.k0_pay1 (F := Ideal) x0 x1 (ix3 u j k)
      = ∑ r : Fin 1024, x0 (ix3 (0 : Fin 1) r j) * x1 (ix3 (0 : Fin 1) r k) := by
  unfold Cert.KernelIdeal.Gen.k0_pay1
  refine (shapeCast_ab_1ab_apply _ _ u j k).trans ?_
  refine (matmulK_apply _ _ j k).trans ?_
  refine Finset.sum_congr rfl fun r _ => ?_
  exact congrArg₂ (· * ·) (shapeCast_1ab_ab_apply x0 _ r j) (shapeCast_1ab_ab_apply x1 _ r k)

end Cert.Bridge

end
-- ==== Proof.KernelArray.lean ====
/- From blocks to the array. Grid point t writes back block t of the result — the 1024×1024 slab t — and what it
   writes is the product of slab t of the first operand, transposed, with slab t of the second. The sixteen slabs tile the
   [16,1024,1024] result, so after the region the whole array is one function of the two operand arrays as the region found
   them: at (t, j, k) the sum over r of X(t,r,j)·Y(t,r,k). -/
import proofs.«117756_j83829171683377_1_alg».proof.Proof.FrameDataKI
import proofs.«117756_j83829171683377_1_alg».proof.Proof.PayAt
import Idealize.ShloMosaic.Lib.Pipeline.Value

open scoped BigOperators

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.GenP

variable (m : (ℓ : Loc nD τ sig) → Buf (Elt Ideal) ℓ)

/-- The product slab by slab: at (t, j, k) the sum over r of X(t,r,j)·Y(t,r,k). -/
def slabProduct (X Y : FVec Ideal S16x1024x1024 .bf16) : FVec Ideal S16x1024x1024 .f32 :=
  fun i => ∑ r : Fin 1024, X (ix3 (i 0) r (i 1)) * Y (ix3 (i 0) r (i 2))

theorem hz3 : (![0, 0, 0] : Fin 3 → Nat) = fun _ => 0 := funext fun a => by fin_cases a <;> rfl

/-- The printed index maps over the grid: all three windows sit on slab t, at offset 0 on the two matrix axes. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (0 : Fin 3) ≤ 15 ∧ win0_2.index t (1 : Fin 3) = 0 ∧ win0_2.index t (2 : Fin 3) = 0 :=
  (by decide +kernel : ∀ t : Fin grid0.N, _)

/-- Every slab is some point's. -/
theorem idx_onto : ∀ q : Fin 16, ∃ t : Fin cfg0.N, win0_2.index t = ![q.val, 0, 0] :=
  (by decide +kernel : ∀ q : Fin 16, ∃ t : Fin grid0.N, win0_2.index t = ![q.val, 0, 0])

/-- The slab product read at an index. -/
theorem slabProduct_apply (X Y : FVec Ideal S16x1024x1024 .bf16) (i : S16x1024x1024.Idx) :
    slabProduct X Y i = ∑ r : Fin 1024, X (ix3 (i 0) r (i 1)) * Y (ix3 (i 0) r (i 2)) := rfl

/-- Window 0's array is the first operand's buffer, window 1's the second's. -/
theorem arr0_eq : Pipeline.arrRef spec0 0 = main_v383 := rfl
theorem arr1_eq : Pipeline.arrRef spec0 1 = main_v384 := rfl

/-- The region-entry contents of a window's array, named by the operand's reference (the two names are one reference). -/
theorem V_arr0 (c : Dev nD) : V m c (Pipeline.arrRef spec0 0) = V m c main_v383 := rfl
theorem V_arr1 (c : Dev nD) : V m c (Pipeline.arrRef spec0 1) = V m c main_v384 := rfl

/-- Input window 0's block at point t, read at an index of the block: the first operand array at that index's place. -/
theorem iblk0_apply (c : Dev nD) (t : Fin cfg0.N) (y : S1x1024x1024.Idx) :
    iblk m c 0 t y = V m c main_v383 (((cfg0.win 0).blk t).view.emb y) := by
  unfold iblk
  rw [View.read_apply, cast_eq, V_arr0]

/-- The same of input window 1 and the second operand array. -/
theorem iblk1_apply (c : Dev nD) (t : Fin cfg0.N) (y : S1x1024x1024.Idx) :
    iblk m c 1 t y = V m c main_v384 (((cfg0.win 1).blk t).view.emb y) := by
  unfold iblk
  rw [View.read_apply, cast_eq, V_arr1]

/-- Where (0, r, j) of input block 0 at point t sits in its array, against where (u, j, k) of the output block sits:
    the same slab, row r, the output's row coordinate as column. -/
theorem emb0_eq (t : Fin cfg0.N) (u : Fin 1) (r j k : Fin 1024) :
    ((cfg0.win 0).blk t).view.emb (ix3 (0 : Fin 1) r j)
      = ix3 ((((cfg0.win 2).blk t).view.emb (ix3 u j k)) 0) r ((((cfg0.win 2).blk t).view.emb (ix3 u j k)) 1) := by
  obtain ⟨e0, e1, e2, e3, e4, e5, e6, e7, e8⟩ := idx_facts t
  have hu : u.val = 0 := by omega
  funext a; apply Fin.ext
  match a with
  | ⟨0, _⟩ => show win0_0.index t (0 : Fin 3) * 1 + 1 * 0 = win0_2.index t (0 : Fin 3) * 1 + 1 * u.val; omega
  | ⟨1, _⟩ => show win0_0.index t (1 : Fin 3) * 1024 + 1 * r.val = r.val; omega
  | ⟨2, _⟩ => show win0_0.index t (2 : Fin 3) * 1024 + 1 * j.val = win0_2.index t (1 : Fin 3) * 1024 + 1 * j.val; omega

/-- The same of input block 1: the same slab, row r, the output's column coordinate as column. -/
theorem emb1_eq (t : Fin cfg0.N) (u : Fin 1) (r j k : Fin 1024) :
    ((cfg0.win 1).blk t).view.emb (ix3 (0 : Fin 1) r k)
      = ix3 ((((cfg0.win 2).blk t).view.emb (ix3 u j k)) 0) r ((((cfg0.win 2).blk t).view.emb (ix3 u j k)) 2) := by
  obtain ⟨e0, e1, e2, e3, e4, e5, e6, e7, e8⟩ := idx_facts t
  have hu : u.val = 0 := by omega
  funext a; apply Fin.ext
  match a with
  | ⟨0, _⟩ => show win0_1.index t (0 : Fin 3) * 1 + 1 * 0 = win0_2.index t (0 : Fin 3) * 1 + 1 * u.val; omega
  | ⟨1, _⟩ => show win0_1.index t (1 : Fin 3) * 1024 + 1 * r.val = r.val; omega
  | ⟨2, _⟩ => show win0_1.index t (2 : Fin 3) * 1024 + 1 * k.val = win0_2.index t (2 : Fin 3) * 1024 + 1 * k.val; omega

/-- What point t writes back is the body's payload of the two input blocks there: the output window is uncut, and the
    body's one store fills the buffer. -/
theorem flushed2_pay (c : Dev nD) (t : Fin cfg0.N) :
    (dats m 0 c).flushed 2 t = k0_pay1 (F := Ideal) (iblk m c 0 t) (iblk m c 1 t) := by
  show (cfg0.win 2).cut (grid0.coords t) ((dats m 0 c).after 2 t) = _
  rw [after0_2]
  unfold out0_2
  rw [View.canon_unit_zero hz3]
  simp only [View.ld_unit_zero (S := S1x1024x1024) hz3]
  generalize k0_pay1 (F := Ideal) (iblk m c 0 t) (iblk m c 1 t) = P
  rfl

/-- What point t writes back is block t of the slab product of the two operand arrays as the region finds them. -/
theorem flushed2_eq (c : Dev nD) (t : Fin cfg0.N) :
    (dats m 0 c).flushed 2 t
      = ((cfg0.win 2).blk t).view.read (Elt Ideal) (slabProduct (V m c main_v383) (V m c main_v384)) := by
  rw [flushed2_pay]
  funext y
  obtain ⟨u, j, k, rfl⟩ : ∃ (u : Fin 1) (j k : Fin 1024), y = ix3 u j k := ⟨y 0, y 1, y 2, eq_ix3 y⟩
  rw [View.read_apply, cast_eq, slabProduct_apply]
  refine (Cert.Bridge.pay_apply _ _ u j k).trans ?_
  refine Finset.sum_congr rfl fun r _ => ?_
  rw [iblk0_apply, iblk1_apply, emb0_eq t u r j k, emb1_eq t u r j k]
  rfl

/-- An index of the result is in point t's block iff each coordinate is in the block's range on its axis. -/
theorem mem_blk2 (t : Fin cfg0.N) (i : S16x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v385).slice (win0_2.rect t)).set ↔ _
  rw [View.set_slice_whole, Rect.mem_set_unit]
  exact Iff.rfl

/-- The sixteen slabs cover the result. -/
theorem covered (i : S16x1024x1024.Idx) : ∃ t : Fin cfg0.N, (cfg0.win 2).flush t = true ∧ i ∈ ((cfg0.win 2).blk t).view.set := by
  have hi0 : (i 0).val < 16 := (i 0).isLt
  have hi1 : (i 1).val < 1024 := (i 1).isLt
  have hi2 : (i 2).val < 1024 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- The result array after the region: the slab product of the two operand arrays as the region finds them. -/
theorem final2 (c : Dev nD) :
    (dats m 0 c).arrAt 2 cfg0.N = slabProduct (V m c main_v383) (V m c main_v384) :=
  (dats m 0 c).arrAt_eq_of_cover 2 (slabProduct (V m c main_v383) (V m c main_v384)) (fun t _ => flushed2_eq m c t) (covered)

end Cert.KernelIdeal.Hand

end
-- ==== Proof.ProductEq.lean ====
/- The two products are one function. The kernel re-lays M and diag(w)·M as sixteen 1024×1024 slabs (slab 8b+t is pair
   (b,t)'s matrix), rounds them to bf16 (the identity at the ideal values), multiplies slab by slab contracting the first
   matrix axis, and re-lays the sixteen product slabs as [2,8,1024,1024]. The reference contracts axis 2 of the two
   [2,8,1024,1024] arrays with (batch, time) batched. At (b,t,j,k) both are Σ_r M(b,t,r,j)·WM(b,t,r,k): row-major
   position ((8b+t)·1024 + r)·1024 + j of the slab layout is position (((b·8+t)·1024 + r)·1024 + j of the other. -/
import proofs.«117756_j83829171683377_1_alg».proof.Proof.KernelArray
import Idealize.ShloMosaic.Lib.Pipeline.Value

open scoped BigOperators

noncomputable section

namespace Cert.Bridge

open Idealize.ShloMosaic Idealize.ShloMosaic.ValueIdx

/-- A [2,8,1024,1024] array re-laid as sixteen slabs, read at (8b+t, r, j). -/
theorem slab_apply (M : FVec Ideal Cert.KernelIdeal.S2x8x1024x1024 .f32)
    (h : Cert.KernelIdeal.S2x8x1024x1024.ShapeCasts Cert.KernelIdeal.S16x1024x1024)
    (b : Fin 2) (t : Fin 8) (hbt : b.val * 8 + t.val < 16) (r j : Fin 1024) :
    shapeCast Cert.KernelIdeal.S16x1024x1024 M h (ix3 ⟨b.val * 8 + t.val, hbt⟩ r j) = M (ix4 b t r j) :=
  shapeCast_apply M h _ _ (by
    rw [Shape.rowMajor_val_four, Shape.rowMajor_val_three]
    rfl)

theorem product_eq (M WM : FVec Ideal Cert.KernelIdeal.S2x8x1024x1024 .f32)
    (h1 : Cert.KernelIdeal.S2x8x1024x1024.ShapeCasts Cert.KernelIdeal.S16x1024x1024)
    (h2 : Cert.KernelIdeal.S16x1024x1024.ShapeCasts Cert.KernelIdeal.S2x8x1024x1024)
    (hlt : FTy.bf16.bits < FTy.f32.bits) :
    shapeCast Cert.KernelIdeal.S2x8x1024x1024
        (Cert.KernelIdeal.Hand.slabProduct (truncf .bf16 (shapeCast Cert.KernelIdeal.S16x1024x1024 M h1) hlt)
          (truncf .bf16 (shapeCast Cert.KernelIdeal.S16x1024x1024 WM h1) hlt)) h2
      = Host.dotGeneral (F := Ideal) dR none M WM := by
  funext i
  obtain ⟨b, t, j, k, rfl⟩ : ∃ (b : Fin 2) (t : Fin 8) (j k : Fin 1024), i = ix4 b t j k := ⟨i 0, i 1, i 2, i 3, eq_ix4 i⟩
  have hbt : b.val * 8 + t.val < 16 := by omega
  rw [dotR_apply]
  refine (shapeCast_apply _ h2 (ix4 b t j k) (ix3 ⟨b.val * 8 + t.val, hbt⟩ j k) (by
    rw [Shape.rowMajor_val_three, Shape.rowMajor_val_four]; rfl)).trans ?_
  unfold Cert.KernelIdeal.Hand.slabProduct
  refine Finset.sum_congr rfl fun r _ => ?_
  show shapeCast Cert.KernelIdeal.S16x1024x1024 M h1 (ix3 ⟨b.val * 8 + t.val, hbt⟩ r j)
      * shapeCast Cert.KernelIdeal.S16x1024x1024 WM h1 (ix3 ⟨b.val * 8 + t.val, hbt⟩ r k) = _
  rw [slab_apply M h1 b t hbt r j, slab_apply WM h1 b t hbt r k]

end Cert.Bridge

end
-- ==== Proof.SplitK.lean ====
/- The kernel's last stretch of host operations before its region, cut in two: the part it shares with the reference
   (up to the two matrices M and diag(w)·M), and its own last four operations (each matrix re-laid as sixteen
   1024×1024 slabs and rounded to bf16 for the region). -/
import proofs.«117756_j83829171683377_1_alg».proof.Proof.LaunchKI

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

set_option maxHeartbeats 40000000 in
/-- The shared part: to M and diag(w)·M. -/
abbrev commonK : List (HloOp τ sig (Elt F)) :=
  ( StableHlo.nullary main_c_141 (constantI S_ 32 0#32)
  :: StableHlo.unary main_c_141 main_v349 (broadcastInDim S1024 ![] bcast_S_S1024 : (⟨S_, .i32⟩ : BufTy).Contents (Elt F) → (⟨S1024, .i32⟩ : BufTy).Contents (Elt F))
  :: StableHlo.binary main_v27 main_v349 main_v350 (cmpi .slt : (⟨S1024, .i32⟩ : BufTy).Contents (Elt F) → (⟨S1024, .i32⟩ : BufTy).Contents (Elt F) → (⟨S1024, .i1⟩ : BufTy).Contents (Elt F))
  :: StableHlo.nullary main_c_142 (constantI S_ 32 1024#32)
  :: StableHlo.unary main_c_142 main_v351 (broadcastInDim S1024 ![] bcast_S_S1024 : (⟨S_, .i32⟩ : BufTy).Contents (Elt F) → (⟨S1024, .i32⟩ : BufTy).Contents (Elt F))
  :: StableHlo.binary main_v27 main_v351 main_v352 (addi : (⟨S1024, .i32⟩ : BufTy).Contents (Elt F) → (⟨S1024, .i32⟩ : BufTy).Contents (Elt F) → (⟨S1024, .i32⟩ : BufTy).Contents (Elt F))
  :: StableHlo.ternary main_v350 main_v352 main_v27 main_v353 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_143 (constantI S_ 32 0#32)
  :: StableHlo.unary main_c_143 main_v354 (broadcastInDim S1024 ![] bcast_S_S1024 : (⟨S_, .i32⟩ : BufTy).Contents (Elt F) → (⟨S1024, .i32⟩ : BufTy).Contents (Elt F))
  :: StableHlo.binary main_v347 main_v354 main_v355 (cmpi .slt : (⟨S1024, .i32⟩ : BufTy).Contents (Elt F) → (⟨S1024, .i32⟩ : BufTy).Contents (Elt F) → (⟨S1024, .i1⟩ : BufTy).Contents (Elt F))
  :: StableHlo.nullary main_c_144 (constantI S_ 32 1024#32)
  :: StableHlo.unary main_c_144 main_v356 (broadcastInDim S1024 ![] bcast_S_S1024 : (⟨S_, .i32⟩ : BufTy).Contents (Elt F) → (⟨S1024, .i32⟩ : BufTy).Contents (Elt F))
  :: StableHlo.binary main_v347 main_v356 main_v357 (addi : (⟨S1024, .i32⟩ : BufTy).Contents (Elt F) → (⟨S1024, .i32⟩ : BufTy).Contents (Elt F) → (⟨S1024, .i32⟩ : BufTy).Contents (Elt F))
  :: StableHlo.ternary main_v355 main_v357 main_v347 main_v358 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v353 main_v359 (broadcastInDim S1024x1 ![0] bcast_S1024_S1024x1_0 : (⟨S1024, .i32⟩ : BufTy).Contents (Elt F) → (⟨S1024x1, .i32⟩ : BufTy).Contents (Elt F))
  :: StableHlo.unary main_v358 main_v360 (broadcastInDim S1024x1 ![0] bcast_S1024_S1024x1_0 : (⟨S1024, .i32⟩ : BufTy).Contents (Elt F) → (⟨S1024x1, .i32⟩ : BufTy).Contents (Elt F))
  :: StableHlo.binary main_v359 main_v360 main_v361 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v327 main_v361 main_v348 main_v362 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.reshape main_v362 main_v363 rfl shapeCasts_S16x1024x1024_S2x8x1024x1024
  :: StableHlo.nullary main_v364 (iotaInDim S1024x1024 32 0)
  :: StableHlo.nullary main_v365 (iotaInDim S1024x1024 32 1)
  :: StableHlo.nullary main_c_145 (constantI S_ 32 0#32)
  :: StableHlo.unary main_c_145 main_v366 (broadcastInDim S1024x1024 ![] bcast_S_S1024x1024 : (⟨S_, .i32⟩ : BufTy).Contents (Elt F) → (⟨S1024x1024, .i32⟩ : BufTy).Contents (Elt F))
  :: StableHlo.binary main_v364 main_v366 main_v367 (addi : (⟨S1024x1024, .i32⟩ : BufTy).Contents (Elt F) → (⟨S1024x1024, .i32⟩ : BufTy).Contents (Elt F) → (⟨S1024x1024, .i32⟩ : BufTy).Contents (Elt F))
  :: StableHlo.binary main_v367 main_v365 main_v368 (cmpi .eq : (⟨S1024x1024, .i32⟩ : BufTy).Contents (Elt F) → (⟨S1024x1024, .i32⟩ : BufTy).Contents (Elt F) → (⟨S1024x1024, .i1⟩ : BufTy).Contents (Elt F))
  :: StableHlo.unary main_v368 main_v369 (uitofp .f32 : (⟨S1024x1024, .i1⟩ : BufTy).Contents (Elt F) → (⟨S1024x1024, .f32⟩ : BufTy).Contents (Elt F))
  :: StableHlo.nullary main_cst_146 (constant S_ .f32 0x3F800000#32)
  :: StableHlo.unary main_cst_146 main_v370 (broadcastInDim S2x8x1024x1024 ![] bcast_S_S2x8x1024x1024 : (⟨S_, .f32⟩ : BufTy).Contents (Elt F) → (⟨S2x8x1024x1024, .f32⟩ : BufTy).Contents (Elt F))
  :: StableHlo.binary main_v370 main_v363 main_v371 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v369 main_v372 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v372 main_v373 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v373 main_v371 main_v374 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v18 main_v18 main_v375 (mulf : (⟨S2x8x1024, .f32⟩ : BufTy).Contents (Elt F) → (⟨S2x8x1024, .f32⟩ : BufTy).Contents (Elt F) → (⟨S2x8x1024, .f32⟩ : BufTy).Contents (Elt F))
  :: StableHlo.nullary main_cst_147 (constant S_ .f32 0x3F800000#32)
  :: StableHlo.unary main_cst_147 main_v376 (broadcastInDim S2x8x1024 ![] bcast_S_S2x8x1024 : (⟨S_, .f32⟩ : BufTy).Contents (Elt F) → (⟨S2x8x1024, .f32⟩ : BufTy).Contents (Elt F))
  :: StableHlo.binary main_v376 main_v375 main_v377 (Host.divf : (⟨S2x8x1024, .f32⟩ : BufTy).Contents (Elt F) → (⟨S2x8x1024, .f32⟩ : BufTy).Contents (Elt F) → (⟨S2x8x1024, .f32⟩ : BufTy).Contents (Elt F))
  :: StableHlo.unary main_v377 main_v378 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v378 main_v379 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.binary main_v379 main_v374 main_v380 (mulf : (⟨S2x8x1024x1024, .f32⟩ : BufTy).Contents (Elt F) → (⟨S2x8x1024x1024, .f32⟩ : BufTy).Contents (Elt F) → (⟨S2x8x1024x1024, .f32⟩ : BufTy).Contents (Elt F))
  :: [] )
/-- The kernel's own: both matrices as sixteen slabs, rounded to bf16. -/
abbrev extraK : List (HloOp τ sig (Elt F)) :=
  ( StableHlo.reshape main_v374 main_v381 rfl shapeCasts_S2x8x1024x1024_S16x1024x1024
  :: StableHlo.reshape main_v380 main_v382 rfl shapeCasts_S2x8x1024x1024_S16x1024x1024
  :: StableHlo.unary main_v381 main_v383 ((truncf .bf16 · bitsLt_bf16_f32) : (⟨S16x1024x1024, .f32⟩ : BufTy).Contents (Elt F) → (⟨S16x1024x1024, .bf16⟩ : BufTy).Contents (Elt F))
  :: StableHlo.unary main_v382 main_v384 ((truncf .bf16 · bitsLt_bf16_f32) : (⟨S16x1024x1024, .f32⟩ : BufTy).Contents (Elt F) → (⟨S16x1024x1024, .bf16⟩ : BufTy).Contents (Elt F))
  :: [] )

theorem hostOps0_50_split : (hostOps0_50 : List (HloOp τ sig (Elt F))) = commonK ++ extraK := rfl

end Cert.KernelIdeal.Hand

end
-- ==== Proof.SplitR.lean ====
/- The reference's last stretch of host operations cut in two: the part it shares with the kernel's program (up to
   the two matrices M and diag(w)·M), and the rest (their product as one dot_general, then the three block diagonals). -/
import proofs.«117756_j83829171683377_1_alg».proof.Proof.RefOps

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

set_option maxHeartbeats 40000000 in
/-- The shared part: to M and diag(w)·M. -/
abbrev commonR : List (HloOp τ sig (Elt F)) :=
  ( StableHlo.nullary main_c_141 (constantI S_ 32 0#32)
  :: StableHlo.unary main_c_141 main_v349 (broadcastInDim S1024 ![] bcast_S_S1024 : (⟨S_, .i32⟩ : BufTy).Contents (Elt F) → (⟨S1024, .i32⟩ : BufTy).Contents (Elt F))
  :: StableHlo.binary main_v27 main_v349 main_v350 (cmpi .slt : (⟨S1024, .i32⟩ : BufTy).Contents (Elt F) → (⟨S1024, .i32⟩ : BufTy).Contents (Elt F) → (⟨S1024, .i1⟩ : BufTy).Contents (Elt F))
  :: StableHlo.nullary main_c_142 (constantI S_ 32 1024#32)
  :: StableHlo.unary main_c_142 main_v351 (broadcastInDim S1024 ![] bcast_S_S1024 : (⟨S_, .i32⟩ : BufTy).Contents (Elt F) → (⟨S1024, .i32⟩ : BufTy).Contents (Elt F))
  :: StableHlo.binary main_v27 main_v351 main_v352 (addi : (⟨S1024, .i32⟩ : BufTy).Contents (Elt F) → (⟨S1024, .i32⟩ : BufTy).Contents (Elt F) → (⟨S1024, .i32⟩ : BufTy).Contents (Elt F))
  :: StableHlo.ternary main_v350 main_v352 main_v27 main_v353 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_143 (constantI S_ 32 0#32)
  :: StableHlo.unary main_c_143 main_v354 (broadcastInDim S1024 ![] bcast_S_S1024 : (⟨S_, .i32⟩ : BufTy).Contents (Elt F) → (⟨S1024, .i32⟩ : BufTy).Contents (Elt F))
  :: StableHlo.binary main_v347 main_v354 main_v355 (cmpi .slt : (⟨S1024, .i32⟩ : BufTy).Contents (Elt F) → (⟨S1024, .i32⟩ : BufTy).Contents (Elt F) → (⟨S1024, .i1⟩ : BufTy).Contents (Elt F))
  :: StableHlo.nullary main_c_144 (constantI S_ 32 1024#32)
  :: StableHlo.unary main_c_144 main_v356 (broadcastInDim S1024 ![] bcast_S_S1024 : (⟨S_, .i32⟩ : BufTy).Contents (Elt F) → (⟨S1024, .i32⟩ : BufTy).Contents (Elt F))
  :: StableHlo.binary main_v347 main_v356 main_v357 (addi : (⟨S1024, .i32⟩ : BufTy).Contents (Elt F) → (⟨S1024, .i32⟩ : BufTy).Contents (Elt F) → (⟨S1024, .i32⟩ : BufTy).Contents (Elt F))
  :: StableHlo.ternary main_v355 main_v357 main_v347 main_v358 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v353 main_v359 (broadcastInDim S1024x1 ![0] bcast_S1024_S1024x1_0 : (⟨S1024, .i32⟩ : BufTy).Contents (Elt F) → (⟨S1024x1, .i32⟩ : BufTy).Contents (Elt F))
  :: StableHlo.unary main_v358 main_v360 (broadcastInDim S1024x1 ![0] bcast_S1024_S1024x1_0 : (⟨S1024, .i32⟩ : BufTy).Contents (Elt F) → (⟨S1024x1, .i32⟩ : BufTy).Contents (Elt F))
  :: StableHlo.binary main_v359 main_v360 main_v361 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: StableHlo.ternary main_v327 main_v361 main_v348 main_v362 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.reshape main_v362 main_v363 rfl shapeCasts_S16x1024x1024_S2x8x1024x1024
  :: StableHlo.nullary main_v364 (iotaInDim S1024x1024 32 0)
  :: StableHlo.nullary main_v365 (iotaInDim S1024x1024 32 1)
  :: StableHlo.nullary main_c_145 (constantI S_ 32 0#32)
  :: StableHlo.unary main_c_145 main_v366 (broadcastInDim S1024x1024 ![] bcast_S_S1024x1024 : (⟨S_, .i32⟩ : BufTy).Contents (Elt F) → (⟨S1024x1024, .i32⟩ : BufTy).Contents (Elt F))
  :: StableHlo.binary main_v364 main_v366 main_v367 (addi : (⟨S1024x1024, .i32⟩ : BufTy).Contents (Elt F) → (⟨S1024x1024, .i32⟩ : BufTy).Contents (Elt F) → (⟨S1024x1024, .i32⟩ : BufTy).Contents (Elt F))
  :: StableHlo.binary main_v367 main_v365 main_v368 (cmpi .eq : (⟨S1024x1024, .i32⟩ : BufTy).Contents (Elt F) → (⟨S1024x1024, .i32⟩ : BufTy).Contents (Elt F) → (⟨S1024x1024, .i1⟩ : BufTy).Contents (Elt F))
  :: StableHlo.unary main_v368 main_v369 (uitofp .f32 : (⟨S1024x1024, .i1⟩ : BufTy).Contents (Elt F) → (⟨S1024x1024, .f32⟩ : BufTy).Contents (Elt F))
  :: StableHlo.nullary main_cst_146 (constant S_ .f32 0x3F800000#32)
  :: StableHlo.unary main_cst_146 main_v370 (broadcastInDim S2x8x1024x1024 ![] bcast_S_S2x8x1024x1024 : (⟨S_, .f32⟩ : BufTy).Contents (Elt F) → (⟨S2x8x1024x1024, .f32⟩ : BufTy).Contents (Elt F))
  :: StableHlo.binary main_v370 main_v363 main_v371 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v369 main_v372 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v372 main_v373 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v373 main_v371 main_v374 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v18 main_v18 main_v375 (mulf : (⟨S2x8x1024, .f32⟩ : BufTy).Contents (Elt F) → (⟨S2x8x1024, .f32⟩ : BufTy).Contents (Elt F) → (⟨S2x8x1024, .f32⟩ : BufTy).Contents (Elt F))
  :: StableHlo.nullary main_cst_147 (constant S_ .f32 0x3F800000#32)
  :: StableHlo.unary main_cst_147 main_v376 (broadcastInDim S2x8x1024 ![] bcast_S_S2x8x1024 : (⟨S_, .f32⟩ : BufTy).Contents (Elt F) → (⟨S2x8x1024, .f32⟩ : BufTy).Contents (Elt F))
  :: StableHlo.binary main_v376 main_v375 main_v377 (Host.divf : (⟨S2x8x1024, .f32⟩ : BufTy).Contents (Elt F) → (⟨S2x8x1024, .f32⟩ : BufTy).Contents (Elt F) → (⟨S2x8x1024, .f32⟩ : BufTy).Contents (Elt F))
  :: StableHlo.unary main_v377 main_v378 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v378 main_v379 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.binary main_v379 main_v374 main_v380 (mulf : (⟨S2x8x1024x1024, .f32⟩ : BufTy).Contents (Elt F) → (⟨S2x8x1024x1024, .f32⟩ : BufTy).Contents (Elt F) → (⟨S2x8x1024x1024, .f32⟩ : BufTy).Contents (Elt F))
  :: [] )
set_option maxHeartbeats 40000000 in
/-- The product and the assembly of the result. -/
abbrev lastR : List (HloOp τ sig (Elt F)) :=
  ( StableHlo.binary main_v374 main_v380 main_v381 ((fun l r => Host.dotGeneral dot_S2x8x1024x1024_S2x8x1024x1024_S2x8x1024x1024_2_2_3_3_01_01 none l r) : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v377 main_v382 ((extractStridedSlice S2x7x1024 ![0, 1, 0] · slices_S2x8x1024_S2x7x1024_0_1_0) : (⟨S2x8x1024, .f32⟩ : BufTy).Contents (Elt F) → (⟨S2x7x1024, .f32⟩ : BufTy).Contents (Elt F))
  :: StableHlo.unary main_v377 main_v383 ((extractStridedSlice S2x1x1024 ![0, 0, 0] · slices_S2x8x1024_S2x1x1024_0_0_0) : (⟨S2x8x1024, .f32⟩ : BufTy).Contents (Elt F) → (⟨S2x1x1024, .f32⟩ : BufTy).Contents (Elt F))
  :: StableHlo.nullary main_cst_148 (constant S_ .f32 0x00000000#32)
  :: StableHlo.unary main_cst_148 main_v384 (broadcastInDim S2x1x1024 ![] bcast_S_S2x1x1024 : (⟨S_, .f32⟩ : BufTy).Contents (Elt F) → (⟨S2x1x1024, .f32⟩ : BufTy).Contents (Elt F))
  :: StableHlo.binary main_v382 main_v384 main_v385 ((fun a b => concatenate S2x8x1024 1 [⟨S2x7x1024, a⟩, ⟨S2x1x1024, b⟩] concatenates_S2x7x1024_S2x1x1024_S2x8x1024_d1) : (⟨S2x7x1024, .f32⟩ : BufTy).Contents (Elt F) → (⟨S2x1x1024, .f32⟩ : BufTy).Contents (Elt F) → (⟨S2x8x1024, .f32⟩ : BufTy).Contents (Elt F))
  :: StableHlo.unary main_v385 main_v386 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v369 main_v387 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v386 main_v388 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.unary main_v387 main_v389 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v388 main_v389 main_v390 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v381 main_v390 main_v391 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.nullary main_cst_149 (constant S_ .f32 0x00000000#32)
  :: StableHlo.unary main_cst_149 main_v392 (broadcastInDim S2x1x1024x1024 ![] bcast_S_S2x1x1024x1024 : (⟨S_, .f32⟩ : BufTy).Contents (Elt F) → (⟨S2x1x1024x1024, .f32⟩ : BufTy).Contents (Elt F))
  :: StableHlo.unary main_v380 main_v393 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v393 main_v394 ((transpose S2x7x1024x1024 [0, 1, 3, 2] · transposes_S2x7x1024x1024_S2x7x1024x1024_0_1_3_2) : (⟨S2x7x1024x1024, .f32⟩ : BufTy).Contents (Elt F) → (⟨S2x7x1024x1024, .f32⟩ : BufTy).Contents (Elt F))
  :: StableHlo.unary main_v394 main_v395 (Host.negf : (⟨S2x7x1024x1024, .f32⟩ : BufTy).Contents (Elt F) → (⟨S2x7x1024x1024, .f32⟩ : BufTy).Contents (Elt F))
  :: StableHlo.binary main_v392 main_v395 main_v396 ((fun a b => concatenate S2x8x1024x1024 1 [⟨S2x1x1024x1024, a⟩, ⟨S2x7x1024x1024, b⟩] concatenates_S2x1x1024x1024_S2x7x1024x1024_S2x8x1024x1024_d1) : (⟨S2x1x1024x1024, .f32⟩ : BufTy).Contents (Elt F) → (⟨S2x7x1024x1024, .f32⟩ : BufTy).Contents (Elt F) → (⟨S2x8x1024x1024, .f32⟩ : BufTy).Contents (Elt F))
  :: StableHlo.unary main_v380 main_v397 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v397 main_v398 (Host.negf : (⟨S2x7x1024x1024, .f32⟩ : BufTy).Contents (Elt F) → (⟨S2x7x1024x1024, .f32⟩ : BufTy).Contents (Elt F))
  :: StableHlo.binary main_v398 main_v392 main_v399 ((fun a b => concatenate S2x8x1024x1024 1 [⟨S2x7x1024x1024, a⟩, ⟨S2x1x1024x1024, b⟩] concatenates_S2x7x1024x1024_S2x1x1024x1024_S2x8x1024x1024_d1) : (⟨S2x7x1024x1024, .f32⟩ : BufTy).Contents (Elt F) → (⟨S2x1x1024x1024, .f32⟩ : BufTy).Contents (Elt F) → (⟨S2x8x1024x1024, .f32⟩ : BufTy).Contents (Elt F))
  :: StableHlo.unary main_v391 main_v400 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v396 main_v401 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v399 main_v402 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.nary ![main_v400, main_v401, main_v402] main_v403 (fun u => concatenate S2x3x8x1024x1024 1 [⟨S2x1x8x1024x1024, u 0⟩, ⟨S2x1x8x1024x1024, u 1⟩, ⟨S2x1x8x1024x1024, u 2⟩] concatenates_S2x1x8x1024x1024_S2x1x8x1024x1024_S2x1x8x1024x1024_S2x3x8x1024x1024_d1)
  :: [] )

theorem refOps50_split : (refOps50 : List (HloOp τ sig (Elt F))) = commonR ++ lastR := rfl

end Cert.ReferenceIdeal.Hand

end
-- ==== Proof.LibNaryThree.lean ====
/-
  A host operation over a literal family of THREE references — a concatenation of three arrays — read at its result.

  Run over a valuation `F`, an `n`-ary operation's result is its function applied to `fun k => F (xs k)`: the operands'
  contents under a binder. When the operands are themselves results of earlier operations, nothing can go on rewriting
  `F (xs k)` there, because `xs k` is not a literal reference. For a literal family of three the function's argument is
  the same family written out, each operand's contents at its own reference (`Fin.cons` three times), and every one of
  them can be rewritten further. The library states this for four operands; this is the statement for three, with the
  form a `simp` pass can use (the result's reference un-indexed, as the library's primed lemmas are), and the one-pass
  tactic over the library's result lemmas with it in place of the binder form. Also: a line of operations split in two runs as
  its first part and then its second (`after_append`), so that the part before such an operation can be read on its own.
-/
import Idealize.ShloMosaic.Lib.StableHlo.Run

noncomputable section

namespace Idealize.ShloMosaic.StableHlo.NaryThree

open Idealize.ShloMosaic Idealize.ShloMosaic.StableHlo

variable {nD : Nat} {τ : Topo} {sig : RefSig} {Val : EltTy → Type} {x a b y : Ref sig .tc}

/-- The result of an operation over the literal family `![x, a, b]`: its function of the three operands' contents, each
    read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result's reference un-indexed, for a `simp` pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The buffers after two lines of operations run one after the other: the second line's, from the first line's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo.NaryThree

namespace Idealize.ShloMosaic.StableHlo

/-- The buffers after a line of host operations, by one `simp` pass over the result lemmas, a three- or four-operand
    operation's operands written out so that the pass goes on into them. -/
macro "after_results_simp3" : tactic =>
  `(tactic| (simp (disch := decide) only [after_cons, after_nil,
      nullary_result', unary_result', binary_result', ternary_result', quaternary_result', reshape_result', nary4_result',
      Idealize.ShloMosaic.StableHlo.NaryThree.nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.TailEval.lean ====
/- After the matrix product both programs assemble the result with the same operations: D = P + w_next·I on the
   diagonal blocks (w_next the weights shifted one step along the time axis, zero at the last step), the blocks below
   [0, −(WM)ᵀ] and above [−WM, 0], the three stacked along a new axis. Here that assembly is one function of the
   product P, the weights w, the identity matrix and WM, and each program's last operations are read back as it: the
   kernel's after its region from the reshaped product, the reference's from its own dot_general. Also: what the
   kernel's own four operations before its region leave (the two matrices as sixteen slabs rounded to bf16). -/
import proofs.«117756_j83829171683377_1_alg».proof.Proof.LaunchKI
import proofs.«117756_j83829171683377_1_alg».proof.Proof.SplitK
import proofs.«117756_j83829171683377_1_alg».proof.Proof.SplitR
import proofs.«117756_j83829171683377_1_alg».proof.Proof.LibNaryThree
import proofs.«117756_j83829171683377_1_alg».proof.Proof.DotAt
import Idealize.ShloMosaic.PureOps.Ideal

noncomputable section

namespace Cert.Bridge

open Idealize.ShloMosaic Idealize.ShloMosaic.StableHlo

/-- The kernel's program's buffer contents at the ideal values, and the reference's. -/
abbrev TValK := Valuation Cert.KernelIdeal.τ Cert.KernelIdeal.sig (Elt Ideal)
@[inherit_doc TValK]
abbrev TValR := Valuation Cert.ReferenceIdeal.τ Cert.ReferenceIdeal.sig (Elt Ideal)

/-! ## The assembly as one function -/

section Fn
open Cert.KernelIdeal Cert.KernelIdeal.Gen

/-- The diagonal blocks: P + w_next·I. -/
def diagFn (P : FVec Ideal S2x8x1024x1024 .f32) (w : FVec Ideal S2x8x1024 .f32) (eye : FVec Ideal S1024x1024 .f32) :
    FVec Ideal S2x8x1024x1024 .f32 :=
  addf (F := Ideal) P
    (mulf (F := Ideal)
      (broadcastInDim S2x8x1024x1024 ![0, 1, 2, 3] bcast_S2x8x1024x1_S2x8x1024x1024_0_1_2_3
        (broadcastInDim S2x8x1024x1 ![0, 1, 2] bcast_S2x8x1024_S2x8x1024x1_0_1_2
          (concatenate S2x8x1024 1
            [⟨S2x7x1024, extractStridedSlice S2x7x1024 ![0, 1, 0] w slices_S2x8x1024_S2x7x1024_0_1_0⟩,
             ⟨S2x1x1024, broadcastInDim S2x1x1024 ![] bcast_S_S2x1x1024 (constant (F := Ideal) S_ .f32 0x00000000#32)⟩]
            concatenates_S2x7x1024_S2x1x1024_S2x8x1024_d1)))
      (broadcastInDim S2x8x1024x1024 ![0, 1, 2, 3] bcast_S1x1x1024x1024_S2x8x1024x1024_0_1_2_3
        (broadcastInDim S1x1x1024x1024 ![2, 3] bcast_S1024x1024_S1x1x1024x1024_2_3 eye)))

/-- The blocks below the diagonal: a zero block, then −(WM)ᵀ from the second step on. -/
def lowerFn (WM : FVec Ideal S2x8x1024x1024 .f32) : FVec Ideal S2x8x1024x1024 .f32 :=
  concatenate S2x8x1024x1024 1
    [⟨S2x1x1024x1024, broadcastInDim S2x1x1024x1024 ![] bcast_S_S2x1x1024x1024 (constant (F := Ideal) S_ .f32 0x00000000#32)⟩,
     ⟨S2x7x1024x1024, Host.negf (F := Ideal) (transpose S2x7x1024x1024 [0, 1, 3, 2]
        (extractStridedSlice S2x7x1024x1024 ![0, 1, 0, 0] WM slices_S2x8x1024x1024_S2x7x1024x1024_0_1_0_0)
        transposes_S2x7x1024x1024_S2x7x1024x1024_0_1_3_2)⟩]
    concatenates_S2x1x1024x1024_S2x7x1024x1024_S2x8x1024x1024_d1

/-- The blocks above the diagonal: −WM from the second step on, then a zero block. -/
def upperFn (WM : FVec Ideal S2x8x1024x1024 .f32) : FVec Ideal S2x8x1024x1024 .f32 :=
  concatenate S2x8x1024x1024 1
    [⟨S2x7x1024x1024, Host.negf (F := Ideal)
        (extractStridedSlice S2x7x1024x1024 ![0, 1, 0, 0] WM slices_S2x8x1024x1024_S2x7x1024x1024_0_1_0_0)⟩,
     ⟨S2x1x1024x1024, broadcastInDim S2x1x1024x1024 ![] bcast_S_S2x1x1024x1024 (constant (F := Ideal) S_ .f32 0x00000000#32)⟩]
    concatenates_S2x7x1024x1024_S2x1x1024x1024_S2x8x1024x1024_d1

/-- The assembled result: the three families of blocks stacked along a new second axis. -/
def tailFn (P : FVec Ideal S2x8x1024x1024 .f32) (w : FVec Ideal S2x8x1024 .f32) (eye : FVec Ideal S1024x1024 .f32)
    (WM : FVec Ideal S2x8x1024x1024 .f32) : FVec Ideal S2x3x8x1024x1024 .f32 :=
  concatenate S2x3x8x1024x1024 1
    [⟨S2x1x8x1024x1024, broadcastInDim S2x1x8x1024x1024 ![0, 2, 3, 4] bcast_S2x8x1024x1024_S2x1x8x1024x1024_0_2_3_4 (diagFn P w eye)⟩,
     ⟨S2x1x8x1024x1024, broadcastInDim S2x1x8x1024x1024 ![0, 2, 3, 4] bcast_S2x8x1024x1024_S2x1x8x1024x1024_0_2_3_4 (lowerFn WM)⟩,
     ⟨S2x1x8x1024x1024, broadcastInDim S2x1x8x1024x1024 ![0, 2, 3, 4] bcast_S2x8x1024x1024_S2x1x8x1024x1024_0_2_3_4 (upperFn WM)⟩]
    concatenates_S2x1x8x1024x1024_S2x1x8x1024x1024_S2x1x8x1024x1024_S2x3x8x1024x1024_d1

end Fn

/-! ## The kernel's operations after its region -/

namespace TailK
open Cert.KernelIdeal Cert.KernelIdeal.Gen Cert.KernelIdeal.GenP Idealize.ShloMosaic.TcCoe
variable {F : FTy → Type} [FloatOps F]

/-- The assembly's operations up to the three blocks. -/
def asm : List (HloOp τ sig (Elt F)) :=
  ( StableHlo.unary main_v377 main_v387 ((extractStridedSlice S2x7x1024 ![0, 1, 0] · slices_S2x8x1024_S2x7x1024_0_1_0) : (⟨S2x8x1024, .f32⟩ : BufTy).Contents (Elt F) → (⟨S2x7x1024, .f32⟩ : BufTy).Contents (Elt F))
  :: StableHlo.unary main_v377 main_v388 ((extractStridedSlice S2x1x1024 ![0, 0, 0] · slices_S2x8x1024_S2x1x1024_0_0_0) : (⟨S2x8x1024, .f32⟩ : BufTy).Contents (Elt F) → (⟨S2x1x1024, .f32⟩ : BufTy).Contents (Elt F))
  :: StableHlo.nullary main_cst_148 (constant S_ .f32 0x00000000#32)
  :: StableHlo.unary main_cst_148 main_v389 (broadcastInDim S2x1x1024 ![] bcast_S_S2x1x1024 : (⟨S_, .f32⟩ : BufTy).Contents (Elt F) → (⟨S2x1x1024, .f32⟩ : BufTy).Contents (Elt F))
  :: StableHlo.binary main_v387 main_v389 main_v390 ((fun a b => concatenate S2x8x1024 1 [⟨S2x7x1024, a⟩, ⟨S2x1x1024, b⟩] concatenates_S2x7x1024_S2x1x1024_S2x8x1024_d1) : (⟨S2x7x1024, .f32⟩ : BufTy).Contents (Elt F) → (⟨S2x1x1024, .f32⟩ : BufTy).Contents (Elt F) → (⟨S2x8x1024, .f32⟩ : BufTy).Contents (Elt F))
  :: StableHlo.unary main_v390 main_v391 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v369 main_v392 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v391 main_v393 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.unary main_v392 main_v394 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v393 main_v394 main_v395 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v386 main_v395 main_v396 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.nullary main_cst_149 (constant S_ .f32 0x00000000#32)
  :: StableHlo.unary main_cst_149 main_v397 (broadcastInDim S2x1x1024x1024 ![] bcast_S_S2x1x1024x1024 : (⟨S_, .f32⟩ : BufTy).Contents (Elt F) → (⟨S2x1x1024x1024, .f32⟩ : BufTy).Contents (Elt F))
  :: StableHlo.unary main_v380 main_v398 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v398 main_v399 ((transpose S2x7x1024x1024 [0, 1, 3, 2] · transposes_S2x7x1024x1024_S2x7x1024x1024_0_1_3_2) : (⟨S2x7x1024x1024, .f32⟩ : BufTy).Contents (Elt F) → (⟨S2x7x1024x1024, .f32⟩ : BufTy).Contents (Elt F))
  :: StableHlo.unary main_v399 main_v400 (Host.negf : (⟨S2x7x1024x1024, .f32⟩ : BufTy).Contents (Elt F) → (⟨S2x7x1024x1024, .f32⟩ : BufTy).Contents (Elt F))
  :: StableHlo.binary main_v397 main_v400 main_v401 ((fun a b => concatenate S2x8x1024x1024 1 [⟨S2x1x1024x1024, a⟩, ⟨S2x7x1024x1024, b⟩] concatenates_S2x1x1024x1024_S2x7x1024x1024_S2x8x1024x1024_d1) : (⟨S2x1x1024x1024, .f32⟩ : BufTy).Contents (Elt F) → (⟨S2x7x1024x1024, .f32⟩ : BufTy).Contents (Elt F) → (⟨S2x8x1024x1024, .f32⟩ : BufTy).Contents (Elt F))
  :: StableHlo.unary main_v380 main_v402 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v402 main_v403 (Host.negf : (⟨S2x7x1024x1024, .f32⟩ : BufTy).Contents (Elt F) → (⟨S2x7x1024x1024, .f32⟩ : BufTy).Contents (Elt F))
  :: StableHlo.binary main_v403 main_v397 main_v404 ((fun a b => concatenate S2x8x1024x1024 1 [⟨S2x7x1024x1024, a⟩, ⟨S2x1x1024x1024, b⟩] concatenates_S2x7x1024x1024_S2x1x1024x1024_S2x8x1024x1024_d1) : (⟨S2x7x1024x1024, .f32⟩ : BufTy).Contents (Elt F) → (⟨S2x1x1024x1024, .f32⟩ : BufTy).Contents (Elt F) → (⟨S2x8x1024x1024, .f32⟩ : BufTy).Contents (Elt F))
  :: StableHlo.unary main_v396 main_v405 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v401 main_v406 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v404 main_v407 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: [] )

/-- The stacking of the three. -/
abbrev cat : HloOp τ sig (Elt F) :=
  StableHlo.nary ![main_v405, main_v406, main_v407] main_v408 (fun u => concatenate S2x3x8x1024x1024 1 [⟨S2x1x8x1024x1024, u 0⟩, ⟨S2x1x8x1024x1024, u 1⟩, ⟨S2x1x8x1024x1024, u 2⟩] concatenates_S2x1x8x1024x1024_S2x1x8x1024x1024_S2x1x8x1024x1024_S2x3x8x1024x1024_d1)

/-- The product of the region, reshaped to batch × time × 1024 × 1024. -/
abbrev resh : HloOp τ sig (Elt F) :=
  StableHlo.reshape main_v385 main_v386 rfl shapeCasts_S16x1024x1024_S2x8x1024x1024

/-- The operations after the region: the product reshaped, the assembly, the stacking. -/
theorem hostOps1_eq : (hostOps1 : List (HloOp τ sig (Elt F))) = resh :: (asm ++ [cat]) := rfl

set_option maxHeartbeats 4000000 in
theorem asm_v405 (X : TValK) : StableHlo.after (asm (F := Ideal)) X (Proc.devRef .tc main_v405)
    = broadcastInDim S2x1x8x1024x1024 ![0, 2, 3, 4] bcast_S2x8x1024x1024_S2x1x8x1024x1024_0_2_3_4 (diagFn (X (Proc.devRef .tc main_v386)) (X (Proc.devRef .tc main_v377)) (X (Proc.devRef .tc main_v369))) := by
  unfold asm; after_results_simp3; rfl
set_option maxHeartbeats 4000000 in
theorem asm_v406 (X : TValK) : StableHlo.after (asm (F := Ideal)) X (Proc.devRef .tc main_v406)
    = broadcastInDim S2x1x8x1024x1024 ![0, 2, 3, 4] bcast_S2x8x1024x1024_S2x1x8x1024x1024_0_2_3_4 (lowerFn (X (Proc.devRef .tc main_v380))) := by
  unfold asm; after_results_simp3; rfl
set_option maxHeartbeats 4000000 in
theorem asm_v407 (X : TValK) : StableHlo.after (asm (F := Ideal)) X (Proc.devRef .tc main_v407)
    = broadcastInDim S2x1x8x1024x1024 ![0, 2, 3, 4] bcast_S2x8x1024x1024_S2x1x8x1024x1024_0_2_3_4 (upperFn (X (Proc.devRef .tc main_v380))) := by
  unfold asm; after_results_simp3; rfl

end TailK

/-! ## The reference's operations after its product -/

namespace TailR
open Cert.ReferenceIdeal Cert.ReferenceIdeal.Gen Cert.ReferenceIdeal.Hand Idealize.ShloMosaic.TcCoe
variable {F : FTy → Type} [FloatOps F]

/-- The assembly's operations up to the three blocks. -/
def asm : List (HloOp τ sig (Elt F)) :=
  ( StableHlo.unary main_v377 main_v382 ((extractStridedSlice S2x7x1024 ![0, 1, 0] · slices_S2x8x1024_S2x7x1024_0_1_0) : (⟨S2x8x1024, .f32⟩ : BufTy).Contents (Elt F) → (⟨S2x7x1024, .f32⟩ : BufTy).Contents (Elt F))
  :: StableHlo.unary main_v377 main_v383 ((extractStridedSlice S2x1x1024 ![0, 0, 0] · slices_S2x8x1024_S2x1x1024_0_0_0) : (⟨S2x8x1024, .f32⟩ : BufTy).Contents (Elt F) → (⟨S2x1x1024, .f32⟩ : BufTy).Contents (Elt F))
  :: StableHlo.nullary main_cst_148 (constant S_ .f32 0x00000000#32)
  :: StableHlo.unary main_cst_148 main_v384 (broadcastInDim S2x1x1024 ![] bcast_S_S2x1x1024 : (⟨S_, .f32⟩ : BufTy).Contents (Elt F) → (⟨S2x1x1024, .f32⟩ : BufTy).Contents (Elt F))
  :: StableHlo.binary main_v382 main_v384 main_v385 ((fun a b => concatenate S2x8x1024 1 [⟨S2x7x1024, a⟩, ⟨S2x1x1024, b⟩] concatenates_S2x7x1024_S2x1x1024_S2x8x1024_d1) : (⟨S2x7x1024, .f32⟩ : BufTy).Contents (Elt F) → (⟨S2x1x1024, .f32⟩ : BufTy).Contents (Elt F) → (⟨S2x8x1024, .f32⟩ : BufTy).Contents (Elt F))
  :: StableHlo.unary main_v385 main_v386 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v369 main_v387 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v386 main_v388 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.unary main_v387 main_v389 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v388 main_v389 main_v390 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v381 main_v390 main_v391 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.nullary main_cst_149 (constant S_ .f32 0x00000000#32)
  :: StableHlo.unary main_cst_149 main_v392 (broadcastInDim S2x1x1024x1024 ![] bcast_S_S2x1x1024x1024 : (⟨S_, .f32⟩ : BufTy).Contents (Elt F) → (⟨S2x1x1024x1024, .f32⟩ : BufTy).Contents (Elt F))
  :: StableHlo.unary main_v380 main_v393 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v393 main_v394 ((transpose S2x7x1024x1024 [0, 1, 3, 2] · transposes_S2x7x1024x1024_S2x7x1024x1024_0_1_3_2) : (⟨S2x7x1024x1024, .f32⟩ : BufTy).Contents (Elt F) → (⟨S2x7x1024x1024, .f32⟩ : BufTy).Contents (Elt F))
  :: StableHlo.unary main_v394 main_v395 (Host.negf : (⟨S2x7x1024x1024, .f32⟩ : BufTy).Contents (Elt F) → (⟨S2x7x1024x1024, .f32⟩ : BufTy).Contents (Elt F))
  :: StableHlo.binary main_v392 main_v395 main_v396 ((fun a b => concatenate S2x8x1024x1024 1 [⟨S2x1x1024x1024, a⟩, ⟨S2x7x1024x1024, b⟩] concatenates_S2x1x1024x1024_S2x7x1024x1024_S2x8x1024x1024_d1) : (⟨S2x1x1024x1024, .f32⟩ : BufTy).Contents (Elt F) → (⟨S2x7x1024x1024, .f32⟩ : BufTy).Contents (Elt F) → (⟨S2x8x1024x1024, .f32⟩ : BufTy).Contents (Elt F))
  :: StableHlo.unary main_v380 main_v397 ((extractStridedSlice S2x7x1024x1024 ![0, 1, 0, 0] · slices_S2x8x1024x1024_S2x7x1024x1024_0_1_0_0) : (⟨S2x8x1024x1024, .f32⟩ : BufTy).Contents (Elt F) → (⟨S2x7x1024x1024, .f32⟩ : BufTy).Contents (Elt F))
  :: StableHlo.unary main_v397 main_v398 (Host.negf : (⟨S2x7x1024x1024, .f32⟩ : BufTy).Contents (Elt F) → (⟨S2x7x1024x1024, .f32⟩ : BufTy).Contents (Elt F))
  :: StableHlo.binary main_v398 main_v392 main_v399 ((fun a b => concatenate S2x8x1024x1024 1 [⟨S2x7x1024x1024, a⟩, ⟨S2x1x1024x1024, b⟩] concatenates_S2x7x1024x1024_S2x1x1024x1024_S2x8x1024x1024_d1) : (⟨S2x7x1024x1024, .f32⟩ : BufTy).Contents (Elt F) → (⟨S2x1x1024x1024, .f32⟩ : BufTy).Contents (Elt F) → (⟨S2x8x1024x1024, .f32⟩ : BufTy).Contents (Elt F))
  :: StableHlo.unary main_v391 main_v400 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v396 main_v401 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: StableHlo.unary main_v399 main_v402 (broadcastInDim S2x1x8x1024x1024 ![0, 2, 3, 4] bcast_S2x8x1024x1024_S2x1x8x1024x1024_0_2_3_4 : (⟨S2x8x1024x1024, .f32⟩ : BufTy).Contents (Elt F) → (⟨S2x1x8x1024x1024, .f32⟩ : BufTy).Contents (Elt F))
  :: [] )

/-- The stacking of the three. -/
abbrev cat : HloOp τ sig (Elt F) :=
  StableHlo.nary ![main_v400, main_v401, main_v402] main_v403 (fun u => concatenate S2x3x8x1024x1024 1 [⟨S2x1x8x1024x1024, u 0⟩, ⟨S2x1x8x1024x1024, u 1⟩, ⟨S2x1x8x1024x1024, u 2⟩] concatenates_S2x1x8x1024x1024_S2x1x8x1024x1024_S2x1x8x1024x1024_S2x3x8x1024x1024_d1)

/-- The reference's product. -/
abbrev dot : HloOp τ sig (Elt F) :=
  StableHlo.binary main_v374 main_v380 main_v381 ((fun l r => Host.dotGeneral dot_S2x8x1024x1024_S2x8x1024x1024_S2x8x1024x1024_2_2_3_3_01_01 none l r) : (⟨S2x8x1024x1024, .f32⟩ : BufTy).Contents (Elt F) → (⟨S2x8x1024x1024, .f32⟩ : BufTy).Contents (Elt F) → (⟨S2x8x1024x1024, .f32⟩ : BufTy).Contents (Elt F))

/-- The reference's last operations: the product, the assembly, the stacking. -/
theorem lastR_eq : (lastR : List (HloOp τ sig (Elt F))) = dot :: (asm ++ [cat]) := rfl

set_option maxHeartbeats 4000000 in
theorem asm_v400 (X : TValR) : @Eq ((⟨Cert.KernelIdeal.S2x1x8x1024x1024, .f32⟩ : BufTy).Contents (Elt Ideal))
    (StableHlo.after (asm (F := Ideal)) X (Proc.devRef .tc main_v400))
    (broadcastInDim Cert.KernelIdeal.S2x1x8x1024x1024 ![0, 2, 3, 4] Cert.KernelIdeal.Gen.bcast_S2x8x1024x1024_S2x1x8x1024x1024_0_2_3_4 (diagFn (X (Proc.devRef .tc main_v381)) (X (Proc.devRef .tc main_v377)) (X (Proc.devRef .tc main_v369)))) := by
  unfold asm; after_results_simp3; rfl
set_option maxHeartbeats 4000000 in
theorem asm_v401 (X : TValR) : @Eq ((⟨Cert.KernelIdeal.S2x1x8x1024x1024, .f32⟩ : BufTy).Contents (Elt Ideal))
    (StableHlo.after (asm (F := Ideal)) X (Proc.devRef .tc main_v401))
    (broadcastInDim Cert.KernelIdeal.S2x1x8x1024x1024 ![0, 2, 3, 4] Cert.KernelIdeal.Gen.bcast_S2x8x1024x1024_S2x1x8x1024x1024_0_2_3_4 (lowerFn (X (Proc.devRef .tc main_v380)))) := by
  unfold asm; after_results_simp3; rfl
set_option maxHeartbeats 4000000 in
theorem asm_v402 (X : TValR) : @Eq ((⟨Cert.KernelIdeal.S2x1x8x1024x1024, .f32⟩ : BufTy).Contents (Elt Ideal))
    (StableHlo.after (asm (F := Ideal)) X (Proc.devRef .tc main_v402))
    (broadcastInDim Cert.KernelIdeal.S2x1x8x1024x1024 ![0, 2, 3, 4] Cert.KernelIdeal.Gen.bcast_S2x8x1024x1024_S2x1x8x1024x1024_0_2_3_4 (upperFn (X (Proc.devRef .tc main_v380)))) := by
  unfold asm; after_results_simp3; rfl

end TailR

/-! ## Read back -/

set_option maxHeartbeats 4000000 in
/-- The kernel's result is the assembly of the reshaped product of its region, its weights, the identity and WM. -/
theorem tailK (U : TValK) : @Eq ((⟨Cert.KernelIdeal.S2x3x8x1024x1024, .f32⟩ : BufTy).Contents (Elt Ideal))
    (StableHlo.after (Cert.KernelIdeal.GenP.hostOps1 (F := Ideal)) U (Proc.devRef .tc Cert.KernelIdeal.main_v408))
    (tailFn (shapeCast Cert.KernelIdeal.S2x8x1024x1024 (U (Proc.devRef .tc Cert.KernelIdeal.main_v385)) Cert.KernelIdeal.Gen.shapeCasts_S16x1024x1024_S2x8x1024x1024)
      (U (Proc.devRef .tc Cert.KernelIdeal.main_v377)) (U (Proc.devRef .tc Cert.KernelIdeal.main_v369)) (U (Proc.devRef .tc Cert.KernelIdeal.main_v380))) := by
  have h5 := TailK.asm_v405 ((TailK.resh (F := Ideal)).result U)
  have h6 := TailK.asm_v406 ((TailK.resh (F := Ideal)).result U)
  have h7 := TailK.asm_v407 ((TailK.resh (F := Ideal)).result U)
  simp (disch := decide) only [reshape_result', reshape_result_ne'] at h5 h6 h7
  rw [TailK.hostOps1_eq, after_cons, NaryThree.after_append, after_cons, after_nil, NaryThree.nary3_result, h5, h6, h7]
  rfl

set_option maxHeartbeats 4000000 in
/-- The reference's result is the same assembly of its own product, weights, identity and WM. -/
theorem tailR (U : TValR) : @Eq ((⟨Cert.KernelIdeal.S2x3x8x1024x1024, .f32⟩ : BufTy).Contents (Elt Ideal))
    (StableHlo.after (Cert.ReferenceIdeal.Hand.lastR (F := Ideal)) U (Proc.devRef .tc Cert.ReferenceIdeal.main_v403))
    (tailFn (Host.dotGeneral (F := Ideal) (φ₁ := .f32) (φ₂ := .f32) Cert.Bridge.dR none (U (Proc.devRef .tc Cert.ReferenceIdeal.main_v374)) (U (Proc.devRef .tc Cert.ReferenceIdeal.main_v380)))
      (U (Proc.devRef .tc Cert.ReferenceIdeal.main_v377)) (U (Proc.devRef .tc Cert.ReferenceIdeal.main_v369)) (U (Proc.devRef .tc Cert.ReferenceIdeal.main_v380))) := by
  have h0 := TailR.asm_v400 ((TailR.dot (F := Ideal)).result U)
  have h1 := TailR.asm_v401 ((TailR.dot (F := Ideal)).result U)
  have h2 := TailR.asm_v402 ((TailR.dot (F := Ideal)).result U)
  simp (disch := decide) only [binary_result', binary_result_ne'] at h0 h1 h2
  rw [TailR.lastR_eq, after_cons, NaryThree.after_append, after_cons, after_nil, NaryThree.nary3_result, h0, h1, h2]
  rfl

/-! ## The kernel's own operations before its region -/

section Extra
open Cert.KernelIdeal Cert.KernelIdeal.Gen Cert.KernelIdeal.GenP Cert.KernelIdeal.Hand

set_option maxHeartbeats 4000000 in
theorem extraK_v383 (X : TValK) : StableHlo.after (extraK (F := Ideal)) X (Proc.devRef .tc main_v383)
    = truncf (F := Ideal) .bf16 (shapeCast S16x1024x1024 (X (Proc.devRef .tc main_v374)) shapeCasts_S2x8x1024x1024_S16x1024x1024) bitsLt_bf16_f32 := by
  after_results_simp3; rfl
set_option maxHeartbeats 4000000 in
theorem extraK_v384 (X : TValK) : StableHlo.after (extraK (F := Ideal)) X (Proc.devRef .tc main_v384)
    = truncf (F := Ideal) .bf16 (shapeCast S16x1024x1024 (X (Proc.devRef .tc main_v380)) shapeCasts_S2x8x1024x1024_S16x1024x1024) bitsLt_bf16_f32 := by
  after_results_simp3; rfl
theorem extraK_keep_v377 (X : TValK) : StableHlo.after (extraK (F := Ideal)) X (Proc.devRef .tc main_v377) = X (Proc.devRef .tc main_v377) := by
  after_results_simp3
theorem extraK_keep_v369 (X : TValK) : StableHlo.after (extraK (F := Ideal)) X (Proc.devRef .tc main_v369) = X (Proc.devRef .tc main_v369) := by
  after_results_simp3
theorem extraK_keep_v380 (X : TValK) : StableHlo.after (extraK (F := Ideal)) X (Proc.devRef .tc main_v380) = X (Proc.devRef .tc main_v380) := by
  after_results_simp3

end Extra

end Cert.Bridge

end
-- ==== Proof.AgreeDefs.lean ====
/- The two programs run the same host operations, on buffers of the same names, up to the two matrices M and diag(w)·M.
   Cut at the stretch boundaries, that common line is carried as an invariant: at boundary k the buffers that some later
   operation still reads (found by one backward pass over the line) hold the same contents in the kernel's program and in
   the reference. This module states the invariant at each of the 52 boundaries; the step lemmas are in the sibling modules.
   (Each agreement is stated at the buffer's literal type: the two programs' signatures give the same type to the same buffer, and an
   equation typed by one side's own dependent type would have the two signatures compared with each other.) -/
import proofs.«117756_j83829171683377_1_alg».proof.Proof.SplitK
import proofs.«117756_j83829171683377_1_alg».proof.Proof.SplitR
import proofs.«117756_j83829171683377_1_alg».proof.Proof.LibNaryThree
import Idealize.ShloMosaic.PureOps.Ideal

noncomputable section

namespace Cert.Bridge

open Idealize.ShloMosaic Idealize.SL.Sem

/-- A core's buffer contents in the kernel's program, and in the reference. -/
abbrev ValK := Valuation Cert.KernelIdeal.τ Cert.KernelIdeal.sig (Elt Ideal)
abbrev ValR := Valuation Cert.ReferenceIdeal.τ Cert.ReferenceIdeal.sig (Elt Ideal)

/-- The 4 buffers still read after boundary 0 hold the same contents in the two programs. -/
def Agree_0 (WK : ValK) (WR : ValR) : Prop :=
  @Eq ((⟨Cert.KernelIdeal.S2x1x1024x8, .f32⟩ : BufTy).Contents (Elt Ideal)) (WK (Proc.devRef .tc Cert.KernelIdeal.main_arg0)) (WR (Proc.devRef .tc Cert.ReferenceIdeal.main_arg0))
  ∧ @Eq ((⟨Cert.KernelIdeal.S2x2x1024x8, .f32⟩ : BufTy).Contents (Elt Ideal)) (WK (Proc.devRef .tc Cert.KernelIdeal.main_arg1)) (WR (Proc.devRef .tc Cert.ReferenceIdeal.main_arg1))
  ∧ @Eq ((⟨Cert.KernelIdeal.S2x2x2x1024x8, .f32⟩ : BufTy).Contents (Elt Ideal)) (WK (Proc.devRef .tc Cert.KernelIdeal.main_arg2)) (WR (Proc.devRef .tc Cert.ReferenceIdeal.main_arg2))
  ∧ @Eq ((⟨Cert.KernelIdeal.S2x1x1024x8, .f32⟩ : BufTy).Contents (Elt Ideal)) (WK (Proc.devRef .tc Cert.KernelIdeal.main_arg3)) (WR (Proc.devRef .tc Cert.ReferenceIdeal.main_arg3))
  ∧ True

/-- The 9 buffers still read after boundary 1 hold the same contents in the two programs. -/
def Agree_1 (WK : ValK) (WR : ValR) : Prop :=
  @Eq ((⟨Cert.KernelIdeal.S_, .i32⟩ : BufTy).Contents (Elt Ideal)) (WK (Proc.devRef .tc Cert.KernelIdeal.main_c)) (WR (Proc.devRef .tc Cert.ReferenceIdeal.main_c))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v19)) (WR (Proc.devRef .tc Cert.ReferenceIdeal.main_v19))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v25)) (WR (Proc.devRef .tc Cert.ReferenceIdeal.main_v25))
  ∧ True

/-- The 9 buffers still read after boundary 2 hold the same contents in the two programs. -/
def Agree_2 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v19)) (WR (Proc.devRef .tc Cert.ReferenceIdeal.main_v19))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ True

/-- The 16 buffers still read after boundary 3 hold the same contents in the two programs. -/
def Agree_3 (WK : ValK) (WR : ValR) : Prop :=
  @Eq ((⟨Cert.KernelIdeal.S_, .i32⟩ : BufTy).Contents (Elt Ideal)) (WK (Proc.devRef .tc Cert.KernelIdeal.main_c_16)) (WR (Proc.devRef .tc Cert.ReferenceIdeal.main_c_16))
  ∧ @Eq ((⟨Cert.KernelIdeal.S_, .i32⟩ : BufTy).Contents (Elt Ideal)) (WK (Proc.devRef .tc Cert.KernelIdeal.main_c_17)) (WR (Proc.devRef .tc Cert.ReferenceIdeal.main_c_17))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S16x1024, .f32⟩ : BufTy).Contents (Elt Ideal)) (WK (Proc.devRef .tc Cert.KernelIdeal.main_v60)) (WR (Proc.devRef .tc Cert.ReferenceIdeal.main_v60))
  ∧ @Eq ((⟨Cert.KernelIdeal.S1024, .i32⟩ : BufTy).Contents (Elt Ideal)) (WK (Proc.devRef .tc Cert.KernelIdeal.main_v62)) (WR (Proc.devRef .tc Cert.ReferenceIdeal.main_v62))
  ∧ @Eq ((⟨Cert.KernelIdeal.S1024, .i32⟩ : BufTy).Contents (Elt Ideal)) (WK (Proc.devRef .tc Cert.KernelIdeal.main_v64)) (WR (Proc.devRef .tc Cert.ReferenceIdeal.main_v64))
  ∧ @Eq ((⟨Cert.KernelIdeal.S1024, .i1⟩ : BufTy).Contents (Elt Ideal)) (WK (Proc.devRef .tc Cert.KernelIdeal.main_v75)) (WR (Proc.devRef .tc Cert.ReferenceIdeal.main_v75))
  ∧ True

/-- The 14 buffers still read after boundary 4 hold the same contents in the two programs. -/
def Agree_4 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S16x1024, .f32⟩ : BufTy).Contents (Elt Ideal)) (WK (Proc.devRef .tc Cert.KernelIdeal.main_v60)) (WR (Proc.devRef .tc Cert.ReferenceIdeal.main_v60))
  ∧ @Eq ((⟨Cert.KernelIdeal.S1024, .i32⟩ : BufTy).Contents (Elt Ideal)) (WK (Proc.devRef .tc Cert.KernelIdeal.main_v64)) (WR (Proc.devRef .tc Cert.ReferenceIdeal.main_v64))
  ∧ @Eq ((⟨Cert.KernelIdeal.S1024, .i1⟩ : BufTy).Contents (Elt Ideal)) (WK (Proc.devRef .tc Cert.KernelIdeal.main_v75)) (WR (Proc.devRef .tc Cert.ReferenceIdeal.main_v75))
  ∧ @Eq ((⟨Cert.KernelIdeal.S1024, .i32⟩ : BufTy).Contents (Elt Ideal)) (WK (Proc.devRef .tc Cert.KernelIdeal.main_v76)) (WR (Proc.devRef .tc Cert.ReferenceIdeal.main_v76))
  ∧ True

/-- The 16 buffers still read after boundary 5 hold the same contents in the two programs. -/
def Agree_5 (WK : ValK) (WR : ValR) : Prop :=
  @Eq ((⟨Cert.KernelIdeal.S_, .i32⟩ : BufTy).Contents (Elt Ideal)) (WK (Proc.devRef .tc Cert.KernelIdeal.main_c_19)) (WR (Proc.devRef .tc Cert.ReferenceIdeal.main_c_19))
  ∧ @Eq ((⟨Cert.KernelIdeal.S_, .i32⟩ : BufTy).Contents (Elt Ideal)) (WK (Proc.devRef .tc Cert.KernelIdeal.main_c_20)) (WR (Proc.devRef .tc Cert.ReferenceIdeal.main_c_20))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S16x1024, .f32⟩ : BufTy).Contents (Elt Ideal)) (WK (Proc.devRef .tc Cert.KernelIdeal.main_v60)) (WR (Proc.devRef .tc Cert.ReferenceIdeal.main_v60))
  ∧ @Eq ((⟨Cert.KernelIdeal.S1024, .i32⟩ : BufTy).Contents (Elt Ideal)) (WK (Proc.devRef .tc Cert.KernelIdeal.main_v64)) (WR (Proc.devRef .tc Cert.ReferenceIdeal.main_v64))
  ∧ @Eq ((⟨Cert.KernelIdeal.S1024, .i1⟩ : BufTy).Contents (Elt Ideal)) (WK (Proc.devRef .tc Cert.KernelIdeal.main_v75)) (WR (Proc.devRef .tc Cert.ReferenceIdeal.main_v75))
  ∧ @Eq ((⟨Cert.KernelIdeal.S1024, .i32⟩ : BufTy).Contents (Elt Ideal)) (WK (Proc.devRef .tc Cert.KernelIdeal.main_v78)) (WR (Proc.devRef .tc Cert.ReferenceIdeal.main_v78))
  ∧ True

/-- The 14 buffers still read after boundary 6 hold the same contents in the two programs. -/
def Agree_6 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S16x1024, .f32⟩ : BufTy).Contents (Elt Ideal)) (WK (Proc.devRef .tc Cert.KernelIdeal.main_v60)) (WR (Proc.devRef .tc Cert.ReferenceIdeal.main_v60))
  ∧ @Eq ((⟨Cert.KernelIdeal.S1024, .i1⟩ : BufTy).Contents (Elt Ideal)) (WK (Proc.devRef .tc Cert.KernelIdeal.main_v75)) (WR (Proc.devRef .tc Cert.ReferenceIdeal.main_v75))
  ∧ @Eq ((⟨Cert.KernelIdeal.S1024, .i32⟩ : BufTy).Contents (Elt Ideal)) (WK (Proc.devRef .tc Cert.KernelIdeal.main_v78)) (WR (Proc.devRef .tc Cert.ReferenceIdeal.main_v78))
  ∧ @Eq ((⟨Cert.KernelIdeal.S1024, .i32⟩ : BufTy).Contents (Elt Ideal)) (WK (Proc.devRef .tc Cert.KernelIdeal.main_v79)) (WR (Proc.devRef .tc Cert.ReferenceIdeal.main_v79))
  ∧ True

/-- The 14 buffers still read after boundary 7 hold the same contents in the two programs. -/
def Agree_7 (WK : ValK) (WR : ValR) : Prop :=
  @Eq ((⟨Cert.KernelIdeal.S_, .f32⟩ : BufTy).Contents (Elt Ideal)) (WK (Proc.devRef .tc Cert.KernelIdeal.main_cst_21)) (WR (Proc.devRef .tc Cert.ReferenceIdeal.main_cst_21))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S16x1024, .f32⟩ : BufTy).Contents (Elt Ideal)) (WK (Proc.devRef .tc Cert.KernelIdeal.main_v60)) (WR (Proc.devRef .tc Cert.ReferenceIdeal.main_v60))
  ∧ @Eq ((⟨Cert.KernelIdeal.S1024, .i1⟩ : BufTy).Contents (Elt Ideal)) (WK (Proc.devRef .tc Cert.KernelIdeal.main_v75)) (WR (Proc.devRef .tc Cert.ReferenceIdeal.main_v75))
  ∧ @Eq ((⟨Cert.KernelIdeal.S1024, .i32⟩ : BufTy).Contents (Elt Ideal)) (WK (Proc.devRef .tc Cert.KernelIdeal.main_v80)) (WR (Proc.devRef .tc Cert.ReferenceIdeal.main_v80))
  ∧ True

/-- The 12 buffers still read after boundary 8 hold the same contents in the two programs. -/
def Agree_8 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S1024, .i32⟩ : BufTy).Contents (Elt Ideal)) (WK (Proc.devRef .tc Cert.KernelIdeal.main_v80)) (WR (Proc.devRef .tc Cert.ReferenceIdeal.main_v80))
  ∧ @Eq ((⟨Cert.KernelIdeal.S16x1024, .f32⟩ : BufTy).Contents (Elt Ideal)) (WK (Proc.devRef .tc Cert.KernelIdeal.main_v81)) (WR (Proc.devRef .tc Cert.ReferenceIdeal.main_v81))
  ∧ True

/-- The 14 buffers still read after boundary 9 hold the same contents in the two programs. -/
def Agree_9 (WK : ValK) (WR : ValR) : Prop :=
  @Eq ((⟨Cert.KernelIdeal.S_, .i32⟩ : BufTy).Contents (Elt Ideal)) (WK (Proc.devRef .tc Cert.KernelIdeal.main_c_34)) (WR (Proc.devRef .tc Cert.ReferenceIdeal.main_c_34))
  ∧ @Eq ((⟨Cert.KernelIdeal.S_, .i32⟩ : BufTy).Contents (Elt Ideal)) (WK (Proc.devRef .tc Cert.KernelIdeal.main_c_35)) (WR (Proc.devRef .tc Cert.ReferenceIdeal.main_c_35))
  ∧ @Eq ((⟨Cert.KernelIdeal.S16x1024, .f32⟩ : BufTy).Contents (Elt Ideal)) (WK (Proc.devRef .tc Cert.KernelIdeal.main_v101)) (WR (Proc.devRef .tc Cert.ReferenceIdeal.main_v101))
  ∧ @Eq ((⟨Cert.KernelIdeal.S1024, .i32⟩ : BufTy).Contents (Elt Ideal)) (WK (Proc.devRef .tc Cert.KernelIdeal.main_v103)) (WR (Proc.devRef .tc Cert.ReferenceIdeal.main_v103))
  ∧ @Eq ((⟨Cert.KernelIdeal.S1024, .i32⟩ : BufTy).Contents (Elt Ideal)) (WK (Proc.devRef .tc Cert.KernelIdeal.main_v105)) (WR (Proc.devRef .tc Cert.ReferenceIdeal.main_v105))
  ∧ @Eq ((⟨Cert.KernelIdeal.S1024, .i1⟩ : BufTy).Contents (Elt Ideal)) (WK (Proc.devRef .tc Cert.KernelIdeal.main_v116)) (WR (Proc.devRef .tc Cert.ReferenceIdeal.main_v116))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- The 12 buffers still read after boundary 10 hold the same contents in the two programs. -/
def Agree_10 (WK : ValK) (WR : ValR) : Prop :=
  @Eq ((⟨Cert.KernelIdeal.S16x1024, .f32⟩ : BufTy).Contents (Elt Ideal)) (WK (Proc.devRef .tc Cert.KernelIdeal.main_v101)) (WR (Proc.devRef .tc Cert.ReferenceIdeal.main_v101))
  ∧ @Eq ((⟨Cert.KernelIdeal.S1024, .i32⟩ : BufTy).Contents (Elt Ideal)) (WK (Proc.devRef .tc Cert.KernelIdeal.main_v105)) (WR (Proc.devRef .tc Cert.ReferenceIdeal.main_v105))
  ∧ @Eq ((⟨Cert.KernelIdeal.S1024, .i1⟩ : BufTy).Contents (Elt Ideal)) (WK (Proc.devRef .tc Cert.KernelIdeal.main_v116)) (WR (Proc.devRef .tc Cert.ReferenceIdeal.main_v116))
  ∧ @Eq ((⟨Cert.KernelIdeal.S1024, .i32⟩ : BufTy).Contents (Elt Ideal)) (WK (Proc.devRef .tc Cert.KernelIdeal.main_v117)) (WR (Proc.devRef .tc Cert.ReferenceIdeal.main_v117))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- The 14 buffers still read after boundary 11 hold the same contents in the two programs. -/
def Agree_11 (WK : ValK) (WR : ValR) : Prop :=
  @Eq ((⟨Cert.KernelIdeal.S_, .i32⟩ : BufTy).Contents (Elt Ideal)) (WK (Proc.devRef .tc Cert.KernelIdeal.main_c_37)) (WR (Proc.devRef .tc Cert.ReferenceIdeal.main_c_37))
  ∧ @Eq ((⟨Cert.KernelIdeal.S_, .i32⟩ : BufTy).Contents (Elt Ideal)) (WK (Proc.devRef .tc Cert.KernelIdeal.main_c_38)) (WR (Proc.devRef .tc Cert.ReferenceIdeal.main_c_38))
  ∧ @Eq ((⟨Cert.KernelIdeal.S16x1024, .f32⟩ : BufTy).Contents (Elt Ideal)) (WK (Proc.devRef .tc Cert.KernelIdeal.main_v101)) (WR (Proc.devRef .tc Cert.ReferenceIdeal.main_v101))
  ∧ @Eq ((⟨Cert.KernelIdeal.S1024, .i32⟩ : BufTy).Contents (Elt Ideal)) (WK (Proc.devRef .tc Cert.KernelIdeal.main_v105)) (WR (Proc.devRef .tc Cert.ReferenceIdeal.main_v105))
  ∧ @Eq ((⟨Cert.KernelIdeal.S1024, .i1⟩ : BufTy).Contents (Elt Ideal)) (WK (Proc.devRef .tc Cert.KernelIdeal.main_v116)) (WR (Proc.devRef .tc Cert.ReferenceIdeal.main_v116))
  ∧ @Eq ((⟨Cert.KernelIdeal.S1024, .i32⟩ : BufTy).Contents (Elt Ideal)) (WK (Proc.devRef .tc Cert.KernelIdeal.main_v119)) (WR (Proc.devRef .tc Cert.ReferenceIdeal.main_v119))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- The 12 buffers still read after boundary 12 hold the same contents in the two programs. -/
def Agree_12 (WK : ValK) (WR : ValR) : Prop :=
  @Eq ((⟨Cert.KernelIdeal.S16x1024, .f32⟩ : BufTy).Contents (Elt Ideal)) (WK (Proc.devRef .tc Cert.KernelIdeal.main_v101)) (WR (Proc.devRef .tc Cert.ReferenceIdeal.main_v101))
  ∧ @Eq ((⟨Cert.KernelIdeal.S1024, .i1⟩ : BufTy).Contents (Elt Ideal)) (WK (Proc.devRef .tc Cert.KernelIdeal.main_v116)) (WR (Proc.devRef .tc Cert.ReferenceIdeal.main_v116))
  ∧ @Eq ((⟨Cert.KernelIdeal.S1024, .i32⟩ : BufTy).Contents (Elt Ideal)) (WK (Proc.devRef .tc Cert.KernelIdeal.main_v119)) (WR (Proc.devRef .tc Cert.ReferenceIdeal.main_v119))
  ∧ @Eq ((⟨Cert.KernelIdeal.S1024, .i32⟩ : BufTy).Contents (Elt Ideal)) (WK (Proc.devRef .tc Cert.KernelIdeal.main_v120)) (WR (Proc.devRef .tc Cert.ReferenceIdeal.main_v120))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- The 12 buffers still read after boundary 13 hold the same contents in the two programs. -/
def Agree_13 (WK : ValK) (WR : ValR) : Prop :=
  @Eq ((⟨Cert.KernelIdeal.S_, .f32⟩ : BufTy).Contents (Elt Ideal)) (WK (Proc.devRef .tc Cert.KernelIdeal.main_cst_39)) (WR (Proc.devRef .tc Cert.ReferenceIdeal.main_cst_39))
  ∧ @Eq ((⟨Cert.KernelIdeal.S16x1024, .f32⟩ : BufTy).Contents (Elt Ideal)) (WK (Proc.devRef .tc Cert.KernelIdeal.main_v101)) (WR (Proc.devRef .tc Cert.ReferenceIdeal.main_v101))
  ∧ @Eq ((⟨Cert.KernelIdeal.S1024, .i1⟩ : BufTy).Contents (Elt Ideal)) (WK (Proc.devRef .tc Cert.KernelIdeal.main_v116)) (WR (Proc.devRef .tc Cert.ReferenceIdeal.main_v116))
  ∧ @Eq ((⟨Cert.KernelIdeal.S1024, .i32⟩ : BufTy).Contents (Elt Ideal)) (WK (Proc.devRef .tc Cert.KernelIdeal.main_v121)) (WR (Proc.devRef .tc Cert.ReferenceIdeal.main_v121))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- The 10 buffers still read after boundary 14 hold the same contents in the two programs. -/
def Agree_14 (WK : ValK) (WR : ValR) : Prop :=
  @Eq ((⟨Cert.KernelIdeal.S1024, .i32⟩ : BufTy).Contents (Elt Ideal)) (WK (Proc.devRef .tc Cert.KernelIdeal.main_v121)) (WR (Proc.devRef .tc Cert.ReferenceIdeal.main_v121))
  ∧ @Eq ((⟨Cert.KernelIdeal.S16x1024, .f32⟩ : BufTy).Contents (Elt Ideal)) (WK (Proc.devRef .tc Cert.KernelIdeal.main_v122)) (WR (Proc.devRef .tc Cert.ReferenceIdeal.main_v122))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- The 14 buffers still read after boundary 15 hold the same contents in the two programs. -/
def Agree_15 (WK : ValK) (WR : ValR) : Prop :=
  @Eq ((⟨Cert.KernelIdeal.S_, .i32⟩ : BufTy).Contents (Elt Ideal)) (WK (Proc.devRef .tc Cert.KernelIdeal.main_c_52)) (WR (Proc.devRef .tc Cert.ReferenceIdeal.main_c_52))
  ∧ @Eq ((⟨Cert.KernelIdeal.S_, .i32⟩ : BufTy).Contents (Elt Ideal)) (WK (Proc.devRef .tc Cert.KernelIdeal.main_c_53)) (WR (Proc.devRef .tc Cert.ReferenceIdeal.main_c_53))
  ∧ @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S16x1024, .f32⟩ : BufTy).Contents (Elt Ideal)) (WK (Proc.devRef .tc Cert.KernelIdeal.main_v142)) (WR (Proc.devRef .tc Cert.ReferenceIdeal.main_v142))
  ∧ @Eq ((⟨Cert.KernelIdeal.S1024, .i32⟩ : BufTy).Contents (Elt Ideal)) (WK (Proc.devRef .tc Cert.KernelIdeal.main_v144)) (WR (Proc.devRef .tc Cert.ReferenceIdeal.main_v144))
  ∧ @Eq ((⟨Cert.KernelIdeal.S1024, .i32⟩ : BufTy).Contents (Elt Ideal)) (WK (Proc.devRef .tc Cert.KernelIdeal.main_v146)) (WR (Proc.devRef .tc Cert.ReferenceIdeal.main_v146))
  ∧ @Eq ((⟨Cert.KernelIdeal.S1024, .i1⟩ : BufTy).Contents (Elt Ideal)) (WK (Proc.devRef .tc Cert.KernelIdeal.main_v157)) (WR (Proc.devRef .tc Cert.ReferenceIdeal.main_v157))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 16 hold the same contents in the two programs. -/
def Agree_16 (WK : ValK) (WR : ValR) : Prop :=
  @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S16x1024, .f32⟩ : BufTy).Contents (Elt Ideal)) (WK (Proc.devRef .tc Cert.KernelIdeal.main_v142)) (WR (Proc.devRef .tc Cert.ReferenceIdeal.main_v142))
  ∧ @Eq ((⟨Cert.KernelIdeal.S1024, .i32⟩ : BufTy).Contents (Elt Ideal)) (WK (Proc.devRef .tc Cert.KernelIdeal.main_v146)) (WR (Proc.devRef .tc Cert.ReferenceIdeal.main_v146))
  ∧ @Eq ((⟨Cert.KernelIdeal.S1024, .i1⟩ : BufTy).Contents (Elt Ideal)) (WK (Proc.devRef .tc Cert.KernelIdeal.main_v157)) (WR (Proc.devRef .tc Cert.ReferenceIdeal.main_v157))
  ∧ @Eq ((⟨Cert.KernelIdeal.S1024, .i32⟩ : BufTy).Contents (Elt Ideal)) (WK (Proc.devRef .tc Cert.KernelIdeal.main_v158)) (WR (Proc.devRef .tc Cert.ReferenceIdeal.main_v158))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 14 buffers still read after boundary 17 hold the same contents in the two programs. -/
def Agree_17 (WK : ValK) (WR : ValR) : Prop :=
  @Eq ((⟨Cert.KernelIdeal.S_, .i32⟩ : BufTy).Contents (Elt Ideal)) (WK (Proc.devRef .tc Cert.KernelIdeal.main_c_55)) (WR (Proc.devRef .tc Cert.ReferenceIdeal.main_c_55))
  ∧ @Eq ((⟨Cert.KernelIdeal.S_, .i32⟩ : BufTy).Contents (Elt Ideal)) (WK (Proc.devRef .tc Cert.KernelIdeal.main_c_56)) (WR (Proc.devRef .tc Cert.ReferenceIdeal.main_c_56))
  ∧ @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S16x1024, .f32⟩ : BufTy).Contents (Elt Ideal)) (WK (Proc.devRef .tc Cert.KernelIdeal.main_v142)) (WR (Proc.devRef .tc Cert.ReferenceIdeal.main_v142))
  ∧ @Eq ((⟨Cert.KernelIdeal.S1024, .i32⟩ : BufTy).Contents (Elt Ideal)) (WK (Proc.devRef .tc Cert.KernelIdeal.main_v146)) (WR (Proc.devRef .tc Cert.ReferenceIdeal.main_v146))
  ∧ @Eq ((⟨Cert.KernelIdeal.S1024, .i1⟩ : BufTy).Contents (Elt Ideal)) (WK (Proc.devRef .tc Cert.KernelIdeal.main_v157)) (WR (Proc.devRef .tc Cert.ReferenceIdeal.main_v157))
  ∧ @Eq ((⟨Cert.KernelIdeal.S1024, .i32⟩ : BufTy).Contents (Elt Ideal)) (WK (Proc.devRef .tc Cert.KernelIdeal.main_v160)) (WR (Proc.devRef .tc Cert.ReferenceIdeal.main_v160))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 18 hold the same contents in the two programs. -/
def Agree_18 (WK : ValK) (WR : ValR) : Prop :=
  @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S16x1024, .f32⟩ : BufTy).Contents (Elt Ideal)) (WK (Proc.devRef .tc Cert.KernelIdeal.main_v142)) (WR (Proc.devRef .tc Cert.ReferenceIdeal.main_v142))
  ∧ @Eq ((⟨Cert.KernelIdeal.S1024, .i1⟩ : BufTy).Contents (Elt Ideal)) (WK (Proc.devRef .tc Cert.KernelIdeal.main_v157)) (WR (Proc.devRef .tc Cert.ReferenceIdeal.main_v157))
  ∧ @Eq ((⟨Cert.KernelIdeal.S1024, .i32⟩ : BufTy).Contents (Elt Ideal)) (WK (Proc.devRef .tc Cert.KernelIdeal.main_v160)) (WR (Proc.devRef .tc Cert.ReferenceIdeal.main_v160))
  ∧ @Eq ((⟨Cert.KernelIdeal.S1024, .i32⟩ : BufTy).Contents (Elt Ideal)) (WK (Proc.devRef .tc Cert.KernelIdeal.main_v161)) (WR (Proc.devRef .tc Cert.ReferenceIdeal.main_v161))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 19 hold the same contents in the two programs. -/
def Agree_19 (WK : ValK) (WR : ValR) : Prop :=
  @Eq ((⟨Cert.KernelIdeal.S_, .f32⟩ : BufTy).Contents (Elt Ideal)) (WK (Proc.devRef .tc Cert.KernelIdeal.main_cst_57)) (WR (Proc.devRef .tc Cert.ReferenceIdeal.main_cst_57))
  ∧ @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S16x1024, .f32⟩ : BufTy).Contents (Elt Ideal)) (WK (Proc.devRef .tc Cert.KernelIdeal.main_v142)) (WR (Proc.devRef .tc Cert.ReferenceIdeal.main_v142))
  ∧ @Eq ((⟨Cert.KernelIdeal.S1024, .i1⟩ : BufTy).Contents (Elt Ideal)) (WK (Proc.devRef .tc Cert.KernelIdeal.main_v157)) (WR (Proc.devRef .tc Cert.ReferenceIdeal.main_v157))
  ∧ @Eq ((⟨Cert.KernelIdeal.S1024, .i32⟩ : BufTy).Contents (Elt Ideal)) (WK (Proc.devRef .tc Cert.KernelIdeal.main_v162)) (WR (Proc.devRef .tc Cert.ReferenceIdeal.main_v162))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 10 buffers still read after boundary 20 hold the same contents in the two programs. -/
def Agree_20 (WK : ValK) (WR : ValR) : Prop :=
  @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S1024, .i32⟩ : BufTy).Contents (Elt Ideal)) (WK (Proc.devRef .tc Cert.KernelIdeal.main_v162)) (WR (Proc.devRef .tc Cert.ReferenceIdeal.main_v162))
  ∧ @Eq ((⟨Cert.KernelIdeal.S16x1024, .f32⟩ : BufTy).Contents (Elt Ideal)) (WK (Proc.devRef .tc Cert.KernelIdeal.main_v163)) (WR (Proc.devRef .tc Cert.ReferenceIdeal.main_v163))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 21 hold the same contents in the two programs. -/
def Agree_21 (WK : ValK) (WR : ValR) : Prop :=
  @Eq ((⟨Cert.KernelIdeal.S_, .i32⟩ : BufTy).Contents (Elt Ideal)) (WK (Proc.devRef .tc Cert.KernelIdeal.main_c_70)) (WR (Proc.devRef .tc Cert.ReferenceIdeal.main_c_70))
  ∧ @Eq ((⟨Cert.KernelIdeal.S_, .i32⟩ : BufTy).Contents (Elt Ideal)) (WK (Proc.devRef .tc Cert.KernelIdeal.main_c_71)) (WR (Proc.devRef .tc Cert.ReferenceIdeal.main_c_71))
  ∧ @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v183)) (WR (Proc.devRef .tc Cert.ReferenceIdeal.main_v183))
  ∧ @Eq ((⟨Cert.KernelIdeal.S1024, .i32⟩ : BufTy).Contents (Elt Ideal)) (WK (Proc.devRef .tc Cert.KernelIdeal.main_v185)) (WR (Proc.devRef .tc Cert.ReferenceIdeal.main_v185))
  ∧ @Eq ((⟨Cert.KernelIdeal.S1024, .i32⟩ : BufTy).Contents (Elt Ideal)) (WK (Proc.devRef .tc Cert.KernelIdeal.main_v187)) (WR (Proc.devRef .tc Cert.ReferenceIdeal.main_v187))
  ∧ @Eq ((⟨Cert.KernelIdeal.S1024, .i1⟩ : BufTy).Contents (Elt Ideal)) (WK (Proc.devRef .tc Cert.KernelIdeal.main_v198)) (WR (Proc.devRef .tc Cert.ReferenceIdeal.main_v198))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 10 buffers still read after boundary 22 hold the same contents in the two programs. -/
def Agree_22 (WK : ValK) (WR : ValR) : Prop :=
  @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v183)) (WR (Proc.devRef .tc Cert.ReferenceIdeal.main_v183))
  ∧ @Eq ((⟨Cert.KernelIdeal.S1024, .i32⟩ : BufTy).Contents (Elt Ideal)) (WK (Proc.devRef .tc Cert.KernelIdeal.main_v187)) (WR (Proc.devRef .tc Cert.ReferenceIdeal.main_v187))
  ∧ @Eq ((⟨Cert.KernelIdeal.S1024, .i1⟩ : BufTy).Contents (Elt Ideal)) (WK (Proc.devRef .tc Cert.KernelIdeal.main_v198)) (WR (Proc.devRef .tc Cert.ReferenceIdeal.main_v198))
  ∧ @Eq ((⟨Cert.KernelIdeal.S1024, .i32⟩ : BufTy).Contents (Elt Ideal)) (WK (Proc.devRef .tc Cert.KernelIdeal.main_v199)) (WR (Proc.devRef .tc Cert.ReferenceIdeal.main_v199))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 23 hold the same contents in the two programs. -/
def Agree_23 (WK : ValK) (WR : ValR) : Prop :=
  @Eq ((⟨Cert.KernelIdeal.S_, .i32⟩ : BufTy).Contents (Elt Ideal)) (WK (Proc.devRef .tc Cert.KernelIdeal.main_c_73)) (WR (Proc.devRef .tc Cert.ReferenceIdeal.main_c_73))
  ∧ @Eq ((⟨Cert.KernelIdeal.S_, .i32⟩ : BufTy).Contents (Elt Ideal)) (WK (Proc.devRef .tc Cert.KernelIdeal.main_c_74)) (WR (Proc.devRef .tc Cert.ReferenceIdeal.main_c_74))
  ∧ @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v183)) (WR (Proc.devRef .tc Cert.ReferenceIdeal.main_v183))
  ∧ @Eq ((⟨Cert.KernelIdeal.S1024, .i32⟩ : BufTy).Contents (Elt Ideal)) (WK (Proc.devRef .tc Cert.KernelIdeal.main_v187)) (WR (Proc.devRef .tc Cert.ReferenceIdeal.main_v187))
  ∧ @Eq ((⟨Cert.KernelIdeal.S1024, .i1⟩ : BufTy).Contents (Elt Ideal)) (WK (Proc.devRef .tc Cert.KernelIdeal.main_v198)) (WR (Proc.devRef .tc Cert.ReferenceIdeal.main_v198))
  ∧ @Eq ((⟨Cert.KernelIdeal.S1024, .i32⟩ : BufTy).Contents (Elt Ideal)) (WK (Proc.devRef .tc Cert.KernelIdeal.main_v201)) (WR (Proc.devRef .tc Cert.ReferenceIdeal.main_v201))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 10 buffers still read after boundary 24 hold the same contents in the two programs. -/
def Agree_24 (WK : ValK) (WR : ValR) : Prop :=
  @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v183)) (WR (Proc.devRef .tc Cert.ReferenceIdeal.main_v183))
  ∧ @Eq ((⟨Cert.KernelIdeal.S1024, .i1⟩ : BufTy).Contents (Elt Ideal)) (WK (Proc.devRef .tc Cert.KernelIdeal.main_v198)) (WR (Proc.devRef .tc Cert.ReferenceIdeal.main_v198))
  ∧ @Eq ((⟨Cert.KernelIdeal.S1024, .i32⟩ : BufTy).Contents (Elt Ideal)) (WK (Proc.devRef .tc Cert.KernelIdeal.main_v201)) (WR (Proc.devRef .tc Cert.ReferenceIdeal.main_v201))
  ∧ @Eq ((⟨Cert.KernelIdeal.S1024, .i32⟩ : BufTy).Contents (Elt Ideal)) (WK (Proc.devRef .tc Cert.KernelIdeal.main_v202)) (WR (Proc.devRef .tc Cert.ReferenceIdeal.main_v202))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 10 buffers still read after boundary 25 hold the same contents in the two programs. -/
def Agree_25 (WK : ValK) (WR : ValR) : Prop :=
  @Eq ((⟨Cert.KernelIdeal.S_, .f32⟩ : BufTy).Contents (Elt Ideal)) (WK (Proc.devRef .tc Cert.KernelIdeal.main_cst_75)) (WR (Proc.devRef .tc Cert.ReferenceIdeal.main_cst_75))
  ∧ @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v183)) (WR (Proc.devRef .tc Cert.ReferenceIdeal.main_v183))
  ∧ @Eq ((⟨Cert.KernelIdeal.S1024, .i1⟩ : BufTy).Contents (Elt Ideal)) (WK (Proc.devRef .tc Cert.KernelIdeal.main_v198)) (WR (Proc.devRef .tc Cert.ReferenceIdeal.main_v198))
  ∧ @Eq ((⟨Cert.KernelIdeal.S1024, .i32⟩ : BufTy).Contents (Elt Ideal)) (WK (Proc.devRef .tc Cert.KernelIdeal.main_v203)) (WR (Proc.devRef .tc Cert.ReferenceIdeal.main_v203))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 8 buffers still read after boundary 26 hold the same contents in the two programs. -/
def Agree_26 (WK : ValK) (WR : ValR) : Prop :=
  @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S1024, .i32⟩ : BufTy).Contents (Elt Ideal)) (WK (Proc.devRef .tc Cert.KernelIdeal.main_v203)) (WR (Proc.devRef .tc Cert.ReferenceIdeal.main_v203))
  ∧ @Eq ((⟨Cert.KernelIdeal.S16x1024, .f32⟩ : BufTy).Contents (Elt Ideal)) (WK (Proc.devRef .tc Cert.KernelIdeal.main_v204)) (WR (Proc.devRef .tc Cert.ReferenceIdeal.main_v204))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 27 hold the same contents in the two programs. -/
def Agree_27 (WK : ValK) (WR : ValR) : Prop :=
  @Eq ((⟨Cert.KernelIdeal.S_, .i32⟩ : BufTy).Contents (Elt Ideal)) (WK (Proc.devRef .tc Cert.KernelIdeal.main_c_87)) (WR (Proc.devRef .tc Cert.ReferenceIdeal.main_c_87))
  ∧ @Eq ((⟨Cert.KernelIdeal.S_, .i32⟩ : BufTy).Contents (Elt Ideal)) (WK (Proc.devRef .tc Cert.KernelIdeal.main_c_88)) (WR (Proc.devRef .tc Cert.ReferenceIdeal.main_c_88))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024, .f32⟩ : BufTy).Contents (Elt Ideal)) (WK (Proc.devRef .tc Cert.KernelIdeal.main_v221)) (WR (Proc.devRef .tc Cert.ReferenceIdeal.main_v221))
  ∧ @Eq ((⟨Cert.KernelIdeal.S1024, .i32⟩ : BufTy).Contents (Elt Ideal)) (WK (Proc.devRef .tc Cert.KernelIdeal.main_v223)) (WR (Proc.devRef .tc Cert.ReferenceIdeal.main_v223))
  ∧ @Eq ((⟨Cert.KernelIdeal.S1024, .i32⟩ : BufTy).Contents (Elt Ideal)) (WK (Proc.devRef .tc Cert.KernelIdeal.main_v225)) (WR (Proc.devRef .tc Cert.ReferenceIdeal.main_v225))
  ∧ @Eq ((⟨Cert.KernelIdeal.S1024, .i1⟩ : BufTy).Contents (Elt Ideal)) (WK (Proc.devRef .tc Cert.KernelIdeal.main_v236)) (WR (Proc.devRef .tc Cert.ReferenceIdeal.main_v236))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 10 buffers still read after boundary 28 hold the same contents in the two programs. -/
def Agree_28 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024, .f32⟩ : BufTy).Contents (Elt Ideal)) (WK (Proc.devRef .tc Cert.KernelIdeal.main_v221)) (WR (Proc.devRef .tc Cert.ReferenceIdeal.main_v221))
  ∧ @Eq ((⟨Cert.KernelIdeal.S1024, .i32⟩ : BufTy).Contents (Elt Ideal)) (WK (Proc.devRef .tc Cert.KernelIdeal.main_v225)) (WR (Proc.devRef .tc Cert.ReferenceIdeal.main_v225))
  ∧ @Eq ((⟨Cert.KernelIdeal.S1024, .i1⟩ : BufTy).Contents (Elt Ideal)) (WK (Proc.devRef .tc Cert.KernelIdeal.main_v236)) (WR (Proc.devRef .tc Cert.ReferenceIdeal.main_v236))
  ∧ @Eq ((⟨Cert.KernelIdeal.S1024, .i32⟩ : BufTy).Contents (Elt Ideal)) (WK (Proc.devRef .tc Cert.KernelIdeal.main_v237)) (WR (Proc.devRef .tc Cert.ReferenceIdeal.main_v237))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 29 hold the same contents in the two programs. -/
def Agree_29 (WK : ValK) (WR : ValR) : Prop :=
  @Eq ((⟨Cert.KernelIdeal.S_, .i32⟩ : BufTy).Contents (Elt Ideal)) (WK (Proc.devRef .tc Cert.KernelIdeal.main_c_90)) (WR (Proc.devRef .tc Cert.ReferenceIdeal.main_c_90))
  ∧ @Eq ((⟨Cert.KernelIdeal.S_, .i32⟩ : BufTy).Contents (Elt Ideal)) (WK (Proc.devRef .tc Cert.KernelIdeal.main_c_91)) (WR (Proc.devRef .tc Cert.ReferenceIdeal.main_c_91))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024, .f32⟩ : BufTy).Contents (Elt Ideal)) (WK (Proc.devRef .tc Cert.KernelIdeal.main_v221)) (WR (Proc.devRef .tc Cert.ReferenceIdeal.main_v221))
  ∧ @Eq ((⟨Cert.KernelIdeal.S1024, .i32⟩ : BufTy).Contents (Elt Ideal)) (WK (Proc.devRef .tc Cert.KernelIdeal.main_v225)) (WR (Proc.devRef .tc Cert.ReferenceIdeal.main_v225))
  ∧ @Eq ((⟨Cert.KernelIdeal.S1024, .i1⟩ : BufTy).Contents (Elt Ideal)) (WK (Proc.devRef .tc Cert.KernelIdeal.main_v236)) (WR (Proc.devRef .tc Cert.ReferenceIdeal.main_v236))
  ∧ @Eq ((⟨Cert.KernelIdeal.S1024, .i32⟩ : BufTy).Contents (Elt Ideal)) (WK (Proc.devRef .tc Cert.KernelIdeal.main_v239)) (WR (Proc.devRef .tc Cert.ReferenceIdeal.main_v239))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 10 buffers still read after boundary 30 hold the same contents in the two programs. -/
def Agree_30 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024, .f32⟩ : BufTy).Contents (Elt Ideal)) (WK (Proc.devRef .tc Cert.KernelIdeal.main_v221)) (WR (Proc.devRef .tc Cert.ReferenceIdeal.main_v221))
  ∧ @Eq ((⟨Cert.KernelIdeal.S1024, .i1⟩ : BufTy).Contents (Elt Ideal)) (WK (Proc.devRef .tc Cert.KernelIdeal.main_v236)) (WR (Proc.devRef .tc Cert.ReferenceIdeal.main_v236))
  ∧ @Eq ((⟨Cert.KernelIdeal.S1024, .i32⟩ : BufTy).Contents (Elt Ideal)) (WK (Proc.devRef .tc Cert.KernelIdeal.main_v239)) (WR (Proc.devRef .tc Cert.ReferenceIdeal.main_v239))
  ∧ @Eq ((⟨Cert.KernelIdeal.S1024, .i32⟩ : BufTy).Contents (Elt Ideal)) (WK (Proc.devRef .tc Cert.KernelIdeal.main_v240)) (WR (Proc.devRef .tc Cert.ReferenceIdeal.main_v240))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 10 buffers still read after boundary 31 hold the same contents in the two programs. -/
def Agree_31 (WK : ValK) (WR : ValR) : Prop :=
  @Eq ((⟨Cert.KernelIdeal.S_, .f32⟩ : BufTy).Contents (Elt Ideal)) (WK (Proc.devRef .tc Cert.KernelIdeal.main_cst_92)) (WR (Proc.devRef .tc Cert.ReferenceIdeal.main_cst_92))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024, .f32⟩ : BufTy).Contents (Elt Ideal)) (WK (Proc.devRef .tc Cert.KernelIdeal.main_v221)) (WR (Proc.devRef .tc Cert.ReferenceIdeal.main_v221))
  ∧ @Eq ((⟨Cert.KernelIdeal.S1024, .i1⟩ : BufTy).Contents (Elt Ideal)) (WK (Proc.devRef .tc Cert.KernelIdeal.main_v236)) (WR (Proc.devRef .tc Cert.ReferenceIdeal.main_v236))
  ∧ @Eq ((⟨Cert.KernelIdeal.S1024, .i32⟩ : BufTy).Contents (Elt Ideal)) (WK (Proc.devRef .tc Cert.KernelIdeal.main_v241)) (WR (Proc.devRef .tc Cert.ReferenceIdeal.main_v241))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 8 buffers still read after boundary 32 hold the same contents in the two programs. -/
def Agree_32 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v241)) (WR (Proc.devRef .tc Cert.ReferenceIdeal.main_v241))
  ∧ @Eq ((⟨Cert.KernelIdeal.S16x1024, .f32⟩ : BufTy).Contents (Elt Ideal)) (WK (Proc.devRef .tc Cert.KernelIdeal.main_v242)) (WR (Proc.devRef .tc Cert.ReferenceIdeal.main_v242))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- The 12 buffers still read after boundary 33 hold the same contents in the two programs. -/
def Agree_33 (WK : ValK) (WR : ValR) : Prop :=
  @Eq ((⟨Cert.KernelIdeal.S_, .i32⟩ : BufTy).Contents (Elt Ideal)) (WK (Proc.devRef .tc Cert.KernelIdeal.main_c_103)) (WR (Proc.devRef .tc Cert.ReferenceIdeal.main_c_103))
  ∧ @Eq ((⟨Cert.KernelIdeal.S_, .i32⟩ : BufTy).Contents (Elt Ideal)) (WK (Proc.devRef .tc Cert.KernelIdeal.main_c_104)) (WR (Proc.devRef .tc Cert.ReferenceIdeal.main_c_104))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S16x1024, .f32⟩ : BufTy).Contents (Elt Ideal)) (WK (Proc.devRef .tc Cert.KernelIdeal.main_v257)) (WR (Proc.devRef .tc Cert.ReferenceIdeal.main_v257))
  ∧ @Eq ((⟨Cert.KernelIdeal.S1024, .i32⟩ : BufTy).Contents (Elt Ideal)) (WK (Proc.devRef .tc Cert.KernelIdeal.main_v259)) (WR (Proc.devRef .tc Cert.ReferenceIdeal.main_v259))
  ∧ @Eq ((⟨Cert.KernelIdeal.S1024, .i32⟩ : BufTy).Contents (Elt Ideal)) (WK (Proc.devRef .tc Cert.KernelIdeal.main_v261)) (WR (Proc.devRef .tc Cert.ReferenceIdeal.main_v261))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S1024, .i1⟩ : BufTy).Contents (Elt Ideal)) (WK (Proc.devRef .tc Cert.KernelIdeal.main_v272)) (WR (Proc.devRef .tc Cert.ReferenceIdeal.main_v272))
  ∧ True

/-- The 10 buffers still read after boundary 34 hold the same contents in the two programs. -/
def Agree_34 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S16x1024, .f32⟩ : BufTy).Contents (Elt Ideal)) (WK (Proc.devRef .tc Cert.KernelIdeal.main_v257)) (WR (Proc.devRef .tc Cert.ReferenceIdeal.main_v257))
  ∧ @Eq ((⟨Cert.KernelIdeal.S1024, .i32⟩ : BufTy).Contents (Elt Ideal)) (WK (Proc.devRef .tc Cert.KernelIdeal.main_v261)) (WR (Proc.devRef .tc Cert.ReferenceIdeal.main_v261))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S1024, .i1⟩ : BufTy).Contents (Elt Ideal)) (WK (Proc.devRef .tc Cert.KernelIdeal.main_v272)) (WR (Proc.devRef .tc Cert.ReferenceIdeal.main_v272))
  ∧ @Eq ((⟨Cert.KernelIdeal.S1024, .i32⟩ : BufTy).Contents (Elt Ideal)) (WK (Proc.devRef .tc Cert.KernelIdeal.main_v273)) (WR (Proc.devRef .tc Cert.ReferenceIdeal.main_v273))
  ∧ True

/-- The 12 buffers still read after boundary 35 hold the same contents in the two programs. -/
def Agree_35 (WK : ValK) (WR : ValR) : Prop :=
  @Eq ((⟨Cert.KernelIdeal.S_, .i32⟩ : BufTy).Contents (Elt Ideal)) (WK (Proc.devRef .tc Cert.KernelIdeal.main_c_106)) (WR (Proc.devRef .tc Cert.ReferenceIdeal.main_c_106))
  ∧ @Eq ((⟨Cert.KernelIdeal.S_, .i32⟩ : BufTy).Contents (Elt Ideal)) (WK (Proc.devRef .tc Cert.KernelIdeal.main_c_107)) (WR (Proc.devRef .tc Cert.ReferenceIdeal.main_c_107))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S16x1024, .f32⟩ : BufTy).Contents (Elt Ideal)) (WK (Proc.devRef .tc Cert.KernelIdeal.main_v257)) (WR (Proc.devRef .tc Cert.ReferenceIdeal.main_v257))
  ∧ @Eq ((⟨Cert.KernelIdeal.S1024, .i32⟩ : BufTy).Contents (Elt Ideal)) (WK (Proc.devRef .tc Cert.KernelIdeal.main_v261)) (WR (Proc.devRef .tc Cert.ReferenceIdeal.main_v261))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S1024, .i1⟩ : BufTy).Contents (Elt Ideal)) (WK (Proc.devRef .tc Cert.KernelIdeal.main_v272)) (WR (Proc.devRef .tc Cert.ReferenceIdeal.main_v272))
  ∧ @Eq ((⟨Cert.KernelIdeal.S1024, .i32⟩ : BufTy).Contents (Elt Ideal)) (WK (Proc.devRef .tc Cert.KernelIdeal.main_v275)) (WR (Proc.devRef .tc Cert.ReferenceIdeal.main_v275))
  ∧ True

/-- The 10 buffers still read after boundary 36 hold the same contents in the two programs. -/
def Agree_36 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S16x1024, .f32⟩ : BufTy).Contents (Elt Ideal)) (WK (Proc.devRef .tc Cert.KernelIdeal.main_v257)) (WR (Proc.devRef .tc Cert.ReferenceIdeal.main_v257))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S1024, .i1⟩ : BufTy).Contents (Elt Ideal)) (WK (Proc.devRef .tc Cert.KernelIdeal.main_v272)) (WR (Proc.devRef .tc Cert.ReferenceIdeal.main_v272))
  ∧ @Eq ((⟨Cert.KernelIdeal.S1024, .i32⟩ : BufTy).Contents (Elt Ideal)) (WK (Proc.devRef .tc Cert.KernelIdeal.main_v275)) (WR (Proc.devRef .tc Cert.ReferenceIdeal.main_v275))
  ∧ @Eq ((⟨Cert.KernelIdeal.S1024, .i32⟩ : BufTy).Contents (Elt Ideal)) (WK (Proc.devRef .tc Cert.KernelIdeal.main_v276)) (WR (Proc.devRef .tc Cert.ReferenceIdeal.main_v276))
  ∧ True

/-- The 10 buffers still read after boundary 37 hold the same contents in the two programs. -/
def Agree_37 (WK : ValK) (WR : ValR) : Prop :=
  @Eq ((⟨Cert.KernelIdeal.S_, .f32⟩ : BufTy).Contents (Elt Ideal)) (WK (Proc.devRef .tc Cert.KernelIdeal.main_cst_108)) (WR (Proc.devRef .tc Cert.ReferenceIdeal.main_cst_108))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S16x1024, .f32⟩ : BufTy).Contents (Elt Ideal)) (WK (Proc.devRef .tc Cert.KernelIdeal.main_v257)) (WR (Proc.devRef .tc Cert.ReferenceIdeal.main_v257))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S1024, .i1⟩ : BufTy).Contents (Elt Ideal)) (WK (Proc.devRef .tc Cert.KernelIdeal.main_v272)) (WR (Proc.devRef .tc Cert.ReferenceIdeal.main_v272))
  ∧ @Eq ((⟨Cert.KernelIdeal.S1024, .i32⟩ : BufTy).Contents (Elt Ideal)) (WK (Proc.devRef .tc Cert.KernelIdeal.main_v277)) (WR (Proc.devRef .tc Cert.ReferenceIdeal.main_v277))
  ∧ True

/-- The 8 buffers still read after boundary 38 hold the same contents in the two programs. -/
def Agree_38 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S1024, .i32⟩ : BufTy).Contents (Elt Ideal)) (WK (Proc.devRef .tc Cert.KernelIdeal.main_v277)) (WR (Proc.devRef .tc Cert.ReferenceIdeal.main_v277))
  ∧ @Eq ((⟨Cert.KernelIdeal.S16x1024, .f32⟩ : BufTy).Contents (Elt Ideal)) (WK (Proc.devRef .tc Cert.KernelIdeal.main_v278)) (WR (Proc.devRef .tc Cert.ReferenceIdeal.main_v278))
  ∧ True

/-- The 11 buffers still read after boundary 39 hold the same contents in the two programs. -/
def Agree_39 (WK : ValK) (WR : ValR) : Prop :=
  @Eq ((⟨Cert.KernelIdeal.S_, .i32⟩ : BufTy).Contents (Elt Ideal)) (WK (Proc.devRef .tc Cert.KernelIdeal.main_c_119)) (WR (Proc.devRef .tc Cert.ReferenceIdeal.main_c_119))
  ∧ @Eq ((⟨Cert.KernelIdeal.S_, .i32⟩ : BufTy).Contents (Elt Ideal)) (WK (Proc.devRef .tc Cert.KernelIdeal.main_c_120)) (WR (Proc.devRef .tc Cert.ReferenceIdeal.main_c_120))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S1024, .i32⟩ : BufTy).Contents (Elt Ideal)) (WK (Proc.devRef .tc Cert.KernelIdeal.main_v294)) (WR (Proc.devRef .tc Cert.ReferenceIdeal.main_v294))
  ∧ @Eq ((⟨Cert.KernelIdeal.S1024, .i32⟩ : BufTy).Contents (Elt Ideal)) (WK (Proc.devRef .tc Cert.KernelIdeal.main_v296)) (WR (Proc.devRef .tc Cert.ReferenceIdeal.main_v296))
  ∧ @Eq ((⟨Cert.KernelIdeal.S1024, .i1⟩ : BufTy).Contents (Elt Ideal)) (WK (Proc.devRef .tc Cert.KernelIdeal.main_v307)) (WR (Proc.devRef .tc Cert.ReferenceIdeal.main_v307))
  ∧ True

/-- The 9 buffers still read after boundary 40 hold the same contents in the two programs. -/
def Agree_40 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S1024, .i32⟩ : BufTy).Contents (Elt Ideal)) (WK (Proc.devRef .tc Cert.KernelIdeal.main_v296)) (WR (Proc.devRef .tc Cert.ReferenceIdeal.main_v296))
  ∧ @Eq ((⟨Cert.KernelIdeal.S1024, .i1⟩ : BufTy).Contents (Elt Ideal)) (WK (Proc.devRef .tc Cert.KernelIdeal.main_v307)) (WR (Proc.devRef .tc Cert.ReferenceIdeal.main_v307))
  ∧ @Eq ((⟨Cert.KernelIdeal.S1024, .i32⟩ : BufTy).Contents (Elt Ideal)) (WK (Proc.devRef .tc Cert.KernelIdeal.main_v308)) (WR (Proc.devRef .tc Cert.ReferenceIdeal.main_v308))
  ∧ True

/-- The 11 buffers still read after boundary 41 hold the same contents in the two programs. -/
def Agree_41 (WK : ValK) (WR : ValR) : Prop :=
  @Eq ((⟨Cert.KernelIdeal.S_, .i32⟩ : BufTy).Contents (Elt Ideal)) (WK (Proc.devRef .tc Cert.KernelIdeal.main_c_122)) (WR (Proc.devRef .tc Cert.ReferenceIdeal.main_c_122))
  ∧ @Eq ((⟨Cert.KernelIdeal.S_, .i32⟩ : BufTy).Contents (Elt Ideal)) (WK (Proc.devRef .tc Cert.KernelIdeal.main_c_123)) (WR (Proc.devRef .tc Cert.ReferenceIdeal.main_c_123))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S1024, .i32⟩ : BufTy).Contents (Elt Ideal)) (WK (Proc.devRef .tc Cert.KernelIdeal.main_v296)) (WR (Proc.devRef .tc Cert.ReferenceIdeal.main_v296))
  ∧ @Eq ((⟨Cert.KernelIdeal.S1024, .i1⟩ : BufTy).Contents (Elt Ideal)) (WK (Proc.devRef .tc Cert.KernelIdeal.main_v307)) (WR (Proc.devRef .tc Cert.ReferenceIdeal.main_v307))
  ∧ @Eq ((⟨Cert.KernelIdeal.S1024, .i32⟩ : BufTy).Contents (Elt Ideal)) (WK (Proc.devRef .tc Cert.KernelIdeal.main_v310)) (WR (Proc.devRef .tc Cert.ReferenceIdeal.main_v310))
  ∧ True

/-- The 9 buffers still read after boundary 42 hold the same contents in the two programs. -/
def Agree_42 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S1024, .i1⟩ : BufTy).Contents (Elt Ideal)) (WK (Proc.devRef .tc Cert.KernelIdeal.main_v307)) (WR (Proc.devRef .tc Cert.ReferenceIdeal.main_v307))
  ∧ @Eq ((⟨Cert.KernelIdeal.S1024, .i32⟩ : BufTy).Contents (Elt Ideal)) (WK (Proc.devRef .tc Cert.KernelIdeal.main_v310)) (WR (Proc.devRef .tc Cert.ReferenceIdeal.main_v310))
  ∧ @Eq ((⟨Cert.KernelIdeal.S1024, .i32⟩ : BufTy).Contents (Elt Ideal)) (WK (Proc.devRef .tc Cert.KernelIdeal.main_v311)) (WR (Proc.devRef .tc Cert.ReferenceIdeal.main_v311))
  ∧ True

/-- The 9 buffers still read after boundary 43 hold the same contents in the two programs. -/
def Agree_43 (WK : ValK) (WR : ValR) : Prop :=
  @Eq ((⟨Cert.KernelIdeal.S_, .f32⟩ : BufTy).Contents (Elt Ideal)) (WK (Proc.devRef .tc Cert.KernelIdeal.main_cst_124)) (WR (Proc.devRef .tc Cert.ReferenceIdeal.main_cst_124))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S1024, .i1⟩ : BufTy).Contents (Elt Ideal)) (WK (Proc.devRef .tc Cert.KernelIdeal.main_v307)) (WR (Proc.devRef .tc Cert.ReferenceIdeal.main_v307))
  ∧ @Eq ((⟨Cert.KernelIdeal.S1024, .i32⟩ : BufTy).Contents (Elt Ideal)) (WK (Proc.devRef .tc Cert.KernelIdeal.main_v312)) (WR (Proc.devRef .tc Cert.ReferenceIdeal.main_v312))
  ∧ True

/-- The 8 buffers still read after boundary 44 hold the same contents in the two programs. -/
def Agree_44 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S1024, .i32⟩ : BufTy).Contents (Elt Ideal)) (WK (Proc.devRef .tc Cert.KernelIdeal.main_v312)) (WR (Proc.devRef .tc Cert.ReferenceIdeal.main_v312))
  ∧ @Eq ((⟨Cert.KernelIdeal.S16x1024, .f32⟩ : BufTy).Contents (Elt Ideal)) (WK (Proc.devRef .tc Cert.KernelIdeal.main_v313)) (WR (Proc.devRef .tc Cert.ReferenceIdeal.main_v313))
  ∧ True

/-- The 9 buffers still read after boundary 45 hold the same contents in the two programs. -/
def Agree_45 (WK : ValK) (WR : ValR) : Prop :=
  @Eq ((⟨Cert.KernelIdeal.S_, .i32⟩ : BufTy).Contents (Elt Ideal)) (WK (Proc.devRef .tc Cert.KernelIdeal.main_c_135)) (WR (Proc.devRef .tc Cert.ReferenceIdeal.main_c_135))
  ∧ @Eq ((⟨Cert.KernelIdeal.S_, .i32⟩ : BufTy).Contents (Elt Ideal)) (WK (Proc.devRef .tc Cert.KernelIdeal.main_c_136)) (WR (Proc.devRef .tc Cert.ReferenceIdeal.main_c_136))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S1024, .i32⟩ : BufTy).Contents (Elt Ideal)) (WK (Proc.devRef .tc Cert.KernelIdeal.main_v329)) (WR (Proc.devRef .tc Cert.ReferenceIdeal.main_v329))
  ∧ @Eq ((⟨Cert.KernelIdeal.S1024, .i32⟩ : BufTy).Contents (Elt Ideal)) (WK (Proc.devRef .tc Cert.KernelIdeal.main_v331)) (WR (Proc.devRef .tc Cert.ReferenceIdeal.main_v331))
  ∧ @Eq ((⟨Cert.KernelIdeal.S1024, .i1⟩ : BufTy).Contents (Elt Ideal)) (WK (Proc.devRef .tc Cert.KernelIdeal.main_v342)) (WR (Proc.devRef .tc Cert.ReferenceIdeal.main_v342))
  ∧ True

/-- The 7 buffers still read after boundary 46 hold the same contents in the two programs. -/
def Agree_46 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S1024, .i32⟩ : BufTy).Contents (Elt Ideal)) (WK (Proc.devRef .tc Cert.KernelIdeal.main_v331)) (WR (Proc.devRef .tc Cert.ReferenceIdeal.main_v331))
  ∧ @Eq ((⟨Cert.KernelIdeal.S1024, .i1⟩ : BufTy).Contents (Elt Ideal)) (WK (Proc.devRef .tc Cert.KernelIdeal.main_v342)) (WR (Proc.devRef .tc Cert.ReferenceIdeal.main_v342))
  ∧ @Eq ((⟨Cert.KernelIdeal.S1024, .i32⟩ : BufTy).Contents (Elt Ideal)) (WK (Proc.devRef .tc Cert.KernelIdeal.main_v343)) (WR (Proc.devRef .tc Cert.ReferenceIdeal.main_v343))
  ∧ True

/-- The 9 buffers still read after boundary 47 hold the same contents in the two programs. -/
def Agree_47 (WK : ValK) (WR : ValR) : Prop :=
  @Eq ((⟨Cert.KernelIdeal.S_, .i32⟩ : BufTy).Contents (Elt Ideal)) (WK (Proc.devRef .tc Cert.KernelIdeal.main_c_138)) (WR (Proc.devRef .tc Cert.ReferenceIdeal.main_c_138))
  ∧ @Eq ((⟨Cert.KernelIdeal.S_, .i32⟩ : BufTy).Contents (Elt Ideal)) (WK (Proc.devRef .tc Cert.KernelIdeal.main_c_139)) (WR (Proc.devRef .tc Cert.ReferenceIdeal.main_c_139))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S1024, .i32⟩ : BufTy).Contents (Elt Ideal)) (WK (Proc.devRef .tc Cert.KernelIdeal.main_v331)) (WR (Proc.devRef .tc Cert.ReferenceIdeal.main_v331))
  ∧ @Eq ((⟨Cert.KernelIdeal.S1024, .i1⟩ : BufTy).Contents (Elt Ideal)) (WK (Proc.devRef .tc Cert.KernelIdeal.main_v342)) (WR (Proc.devRef .tc Cert.ReferenceIdeal.main_v342))
  ∧ @Eq ((⟨Cert.KernelIdeal.S1024, .i32⟩ : BufTy).Contents (Elt Ideal)) (WK (Proc.devRef .tc Cert.KernelIdeal.main_v345)) (WR (Proc.devRef .tc Cert.ReferenceIdeal.main_v345))
  ∧ True

/-- The 7 buffers still read after boundary 48 hold the same contents in the two programs. -/
def Agree_48 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S1024, .i1⟩ : BufTy).Contents (Elt Ideal)) (WK (Proc.devRef .tc Cert.KernelIdeal.main_v342)) (WR (Proc.devRef .tc Cert.ReferenceIdeal.main_v342))
  ∧ @Eq ((⟨Cert.KernelIdeal.S1024, .i32⟩ : BufTy).Contents (Elt Ideal)) (WK (Proc.devRef .tc Cert.KernelIdeal.main_v345)) (WR (Proc.devRef .tc Cert.ReferenceIdeal.main_v345))
  ∧ @Eq ((⟨Cert.KernelIdeal.S1024, .i32⟩ : BufTy).Contents (Elt Ideal)) (WK (Proc.devRef .tc Cert.KernelIdeal.main_v346)) (WR (Proc.devRef .tc Cert.ReferenceIdeal.main_v346))
  ∧ True

/-- The 7 buffers still read after boundary 49 hold the same contents in the two programs. -/
def Agree_49 (WK : ValK) (WR : ValR) : Prop :=
  @Eq ((⟨Cert.KernelIdeal.S_, .f32⟩ : BufTy).Contents (Elt Ideal)) (WK (Proc.devRef .tc Cert.KernelIdeal.main_cst_140)) (WR (Proc.devRef .tc Cert.ReferenceIdeal.main_cst_140))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S1024, .i1⟩ : BufTy).Contents (Elt Ideal)) (WK (Proc.devRef .tc Cert.KernelIdeal.main_v342)) (WR (Proc.devRef .tc Cert.ReferenceIdeal.main_v342))
  ∧ @Eq ((⟨Cert.KernelIdeal.S1024, .i32⟩ : BufTy).Contents (Elt Ideal)) (WK (Proc.devRef .tc Cert.KernelIdeal.main_v347)) (WR (Proc.devRef .tc Cert.ReferenceIdeal.main_v347))
  ∧ True

/-- The 5 buffers still read after boundary 50 hold the same contents in the two programs. -/
def Agree_50 (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S1024, .i32⟩ : BufTy).Contents (Elt Ideal)) (WK (Proc.devRef .tc Cert.KernelIdeal.main_v347)) (WR (Proc.devRef .tc Cert.ReferenceIdeal.main_v347))
  ∧ @Eq ((⟨Cert.KernelIdeal.S16x1024, .f32⟩ : BufTy).Contents (Elt Ideal)) (WK (Proc.devRef .tc Cert.KernelIdeal.main_v348)) (WR (Proc.devRef .tc Cert.ReferenceIdeal.main_v348))
  ∧ True

/-- The 4 buffers still read after boundary 51 hold the same contents in the two programs. -/
def Agree_51 (WK : ValK) (WR : ValR) : Prop :=
  @Eq ((⟨Cert.KernelIdeal.S1024x1024, .f32⟩ : BufTy).Contents (Elt Ideal)) (WK (Proc.devRef .tc Cert.KernelIdeal.main_v369)) (WR (Proc.devRef .tc Cert.ReferenceIdeal.main_v369))
  ∧ @Eq ((⟨Cert.KernelIdeal.S2x8x1024x1024, .f32⟩ : BufTy).Contents (Elt Ideal)) (WK (Proc.devRef .tc Cert.KernelIdeal.main_v374)) (WR (Proc.devRef .tc Cert.ReferenceIdeal.main_v374))
  ∧ @Eq ((⟨Cert.KernelIdeal.S2x8x1024, .f32⟩ : BufTy).Contents (Elt Ideal)) (WK (Proc.devRef .tc Cert.KernelIdeal.main_v377)) (WR (Proc.devRef .tc Cert.ReferenceIdeal.main_v377))
  ∧ @Eq ((⟨Cert.KernelIdeal.S2x8x1024x1024, .f32⟩ : BufTy).Contents (Elt Ideal)) (WK (Proc.devRef .tc Cert.KernelIdeal.main_v380)) (WR (Proc.devRef .tc Cert.ReferenceIdeal.main_v380))
  ∧ True

end Cert.Bridge

end
-- ==== Proof.PreSplit.lean ====
/- Each program's buffer contents before its region (the kernel's) or at its end (the reference's) are the fold of its
   stretches over the launch memory. Cut at the same boundaries: first the fifty stretches the two programs share, then the
   shared part of the last one, then each program's own operations. -/
import proofs.«117756_j83829171683377_1_alg».proof.Proof.AgreeDefs
import proofs.«117756_j83829171683377_1_alg».proof.Proof.FrameDataKI
import proofs.«117756_j83829171683377_1_alg».proof.Proof.RefRun

noncomputable section

namespace Cert.Bridge

open Idealize.ShloMosaic Idealize.SL.Sem

/-- A core's buffers in the kernel's program after its first fifty stretches. -/
def preK (V : ValK) : ValK :=
  StableHlo.after (Cert.KernelIdeal.GenP.hostOps0_49 (F := Ideal)) (StableHlo.after (Cert.KernelIdeal.GenP.hostOps0_48 (F := Ideal)) (StableHlo.after (Cert.KernelIdeal.GenP.hostOps0_47 (F := Ideal)) (StableHlo.after (Cert.KernelIdeal.GenP.hostOps0_46 (F := Ideal)) (StableHlo.after (Cert.KernelIdeal.GenP.hostOps0_45 (F := Ideal)) (StableHlo.after (Cert.KernelIdeal.GenP.hostOps0_44 (F := Ideal)) (StableHlo.after (Cert.KernelIdeal.GenP.hostOps0_43 (F := Ideal)) (StableHlo.after (Cert.KernelIdeal.GenP.hostOps0_42 (F := Ideal)) (StableHlo.after (Cert.KernelIdeal.GenP.hostOps0_41 (F := Ideal)) (StableHlo.after (Cert.KernelIdeal.GenP.hostOps0_40 (F := Ideal)) (StableHlo.after (Cert.KernelIdeal.GenP.hostOps0_39 (F := Ideal)) (StableHlo.after (Cert.KernelIdeal.GenP.hostOps0_38 (F := Ideal)) (StableHlo.after (Cert.KernelIdeal.GenP.hostOps0_37 (F := Ideal)) (StableHlo.after (Cert.KernelIdeal.GenP.hostOps0_36 (F := Ideal)) (StableHlo.after (Cert.KernelIdeal.GenP.hostOps0_35 (F := Ideal)) (StableHlo.after (Cert.KernelIdeal.GenP.hostOps0_34 (F := Ideal)) (StableHlo.after (Cert.KernelIdeal.GenP.hostOps0_33 (F := Ideal)) (StableHlo.after (Cert.KernelIdeal.GenP.hostOps0_32 (F := Ideal)) (StableHlo.after (Cert.KernelIdeal.GenP.hostOps0_31 (F := Ideal)) (StableHlo.after (Cert.KernelIdeal.GenP.hostOps0_30 (F := Ideal)) (StableHlo.after (Cert.KernelIdeal.GenP.hostOps0_29 (F := Ideal)) (StableHlo.after (Cert.KernelIdeal.GenP.hostOps0_28 (F := Ideal)) (StableHlo.after (Cert.KernelIdeal.GenP.hostOps0_27 (F := Ideal)) (StableHlo.after (Cert.KernelIdeal.GenP.hostOps0_26 (F := Ideal)) (StableHlo.after (Cert.KernelIdeal.GenP.hostOps0_25 (F := Ideal)) (StableHlo.after (Cert.KernelIdeal.GenP.hostOps0_24 (F := Ideal)) (StableHlo.after (Cert.KernelIdeal.GenP.hostOps0_23 (F := Ideal)) (StableHlo.after (Cert.KernelIdeal.GenP.hostOps0_22 (F := Ideal)) (StableHlo.after (Cert.KernelIdeal.GenP.hostOps0_21 (F := Ideal)) (StableHlo.after (Cert.KernelIdeal.GenP.hostOps0_20 (F := Ideal)) (StableHlo.after (Cert.KernelIdeal.GenP.hostOps0_19 (F := Ideal)) (StableHlo.after (Cert.KernelIdeal.GenP.hostOps0_18 (F := Ideal)) (StableHlo.after (Cert.KernelIdeal.GenP.hostOps0_17 (F := Ideal)) (StableHlo.after (Cert.KernelIdeal.GenP.hostOps0_16 (F := Ideal)) (StableHlo.after (Cert.KernelIdeal.GenP.hostOps0_15 (F := Ideal)) (StableHlo.after (Cert.KernelIdeal.GenP.hostOps0_14 (F := Ideal)) (StableHlo.after (Cert.KernelIdeal.GenP.hostOps0_13 (F := Ideal)) (StableHlo.after (Cert.KernelIdeal.GenP.hostOps0_12 (F := Ideal)) (StableHlo.after (Cert.KernelIdeal.GenP.hostOps0_11 (F := Ideal)) (StableHlo.after (Cert.KernelIdeal.GenP.hostOps0_10 (F := Ideal)) (StableHlo.after (Cert.KernelIdeal.GenP.hostOps0_9 (F := Ideal)) (StableHlo.after (Cert.KernelIdeal.GenP.hostOps0_8 (F := Ideal)) (StableHlo.after (Cert.KernelIdeal.GenP.hostOps0_7 (F := Ideal)) (StableHlo.after (Cert.KernelIdeal.GenP.hostOps0_6 (F := Ideal)) (StableHlo.after (Cert.KernelIdeal.GenP.hostOps0_5 (F := Ideal)) (StableHlo.after (Cert.KernelIdeal.GenP.hostOps0_4 (F := Ideal)) (StableHlo.after (Cert.KernelIdeal.GenP.hostOps0_3 (F := Ideal)) (StableHlo.after (Cert.KernelIdeal.GenP.hostOps0_2 (F := Ideal)) (StableHlo.after (Cert.KernelIdeal.GenP.hostOps0_1 (F := Ideal)) (StableHlo.after (Cert.KernelIdeal.GenP.hostOps0 (F := Ideal)) (V))))))))))))))))))))))))))))))))))))))))))))))))))

/-- A core's buffers in the reference after its first fifty stretches. -/
def preR (V : ValR) : ValR :=
  StableHlo.after (Cert.ReferenceIdeal.Hand.hostOps0_49 (F := Ideal)) (StableHlo.after (Cert.ReferenceIdeal.Hand.hostOps0_48 (F := Ideal)) (StableHlo.after (Cert.ReferenceIdeal.Hand.hostOps0_47 (F := Ideal)) (StableHlo.after (Cert.ReferenceIdeal.Hand.hostOps0_46 (F := Ideal)) (StableHlo.after (Cert.ReferenceIdeal.Hand.hostOps0_45 (F := Ideal)) (StableHlo.after (Cert.ReferenceIdeal.Hand.hostOps0_44 (F := Ideal)) (StableHlo.after (Cert.ReferenceIdeal.Hand.hostOps0_43 (F := Ideal)) (StableHlo.after (Cert.ReferenceIdeal.Hand.hostOps0_42 (F := Ideal)) (StableHlo.after (Cert.ReferenceIdeal.Hand.hostOps0_41 (F := Ideal)) (StableHlo.after (Cert.ReferenceIdeal.Hand.hostOps0_40 (F := Ideal)) (StableHlo.after (Cert.ReferenceIdeal.Hand.hostOps0_39 (F := Ideal)) (StableHlo.after (Cert.ReferenceIdeal.Hand.hostOps0_38 (F := Ideal)) (StableHlo.after (Cert.ReferenceIdeal.Hand.hostOps0_37 (F := Ideal)) (StableHlo.after (Cert.ReferenceIdeal.Hand.hostOps0_36 (F := Ideal)) (StableHlo.after (Cert.ReferenceIdeal.Hand.hostOps0_35 (F := Ideal)) (StableHlo.after (Cert.ReferenceIdeal.Hand.hostOps0_34 (F := Ideal)) (StableHlo.after (Cert.ReferenceIdeal.Hand.hostOps0_33 (F := Ideal)) (StableHlo.after (Cert.ReferenceIdeal.Hand.hostOps0_32 (F := Ideal)) (StableHlo.after (Cert.ReferenceIdeal.Hand.hostOps0_31 (F := Ideal)) (StableHlo.after (Cert.ReferenceIdeal.Hand.hostOps0_30 (F := Ideal)) (StableHlo.after (Cert.ReferenceIdeal.Hand.hostOps0_29 (F := Ideal)) (StableHlo.after (Cert.ReferenceIdeal.Hand.hostOps0_28 (F := Ideal)) (StableHlo.after (Cert.ReferenceIdeal.Hand.hostOps0_27 (F := Ideal)) (StableHlo.after (Cert.ReferenceIdeal.Hand.hostOps0_26 (F := Ideal)) (StableHlo.after (Cert.ReferenceIdeal.Hand.hostOps0_25 (F := Ideal)) (StableHlo.after (Cert.ReferenceIdeal.Hand.hostOps0_24 (F := Ideal)) (StableHlo.after (Cert.ReferenceIdeal.Hand.hostOps0_23 (F := Ideal)) (StableHlo.after (Cert.ReferenceIdeal.Hand.hostOps0_22 (F := Ideal)) (StableHlo.after (Cert.ReferenceIdeal.Hand.hostOps0_21 (F := Ideal)) (StableHlo.after (Cert.ReferenceIdeal.Hand.hostOps0_20 (F := Ideal)) (StableHlo.after (Cert.ReferenceIdeal.Hand.hostOps0_19 (F := Ideal)) (StableHlo.after (Cert.ReferenceIdeal.Hand.hostOps0_18 (F := Ideal)) (StableHlo.after (Cert.ReferenceIdeal.Hand.hostOps0_17 (F := Ideal)) (StableHlo.after (Cert.ReferenceIdeal.Hand.hostOps0_16 (F := Ideal)) (StableHlo.after (Cert.ReferenceIdeal.Hand.hostOps0_15 (F := Ideal)) (StableHlo.after (Cert.ReferenceIdeal.Hand.hostOps0_14 (F := Ideal)) (StableHlo.after (Cert.ReferenceIdeal.Hand.hostOps0_13 (F := Ideal)) (StableHlo.after (Cert.ReferenceIdeal.Hand.hostOps0_12 (F := Ideal)) (StableHlo.after (Cert.ReferenceIdeal.Hand.hostOps0_11 (F := Ideal)) (StableHlo.after (Cert.ReferenceIdeal.Hand.hostOps0_10 (F := Ideal)) (StableHlo.after (Cert.ReferenceIdeal.Hand.hostOps0_9 (F := Ideal)) (StableHlo.after (Cert.ReferenceIdeal.Hand.hostOps0_8 (F := Ideal)) (StableHlo.after (Cert.ReferenceIdeal.Hand.hostOps0_7 (F := Ideal)) (StableHlo.after (Cert.ReferenceIdeal.Hand.hostOps0_6 (F := Ideal)) (StableHlo.after (Cert.ReferenceIdeal.Hand.hostOps0_5 (F := Ideal)) (StableHlo.after (Cert.ReferenceIdeal.Hand.hostOps0_4 (F := Ideal)) (StableHlo.after (Cert.ReferenceIdeal.Hand.hostOps0_3 (F := Ideal)) (StableHlo.after (Cert.ReferenceIdeal.Hand.hostOps0_2 (F := Ideal)) (StableHlo.after (Cert.ReferenceIdeal.Hand.hostOps0_1 (F := Ideal)) (StableHlo.after (Cert.ReferenceIdeal.Hand.hostOps0 (F := Ideal)) (V))))))))))))))))))))))))))))))))))))))))))))))))))

/-- The kernel's buffers when its region is entered: its own last four operations over the shared part's result. -/
theorem V0_split (V : ValK) :
    StableHlo.after (List.flatten (Cert.KernelIdeal.Hand.prefixOps (F := Ideal))) V
      = StableHlo.after (Cert.KernelIdeal.Hand.extraK (F := Ideal)) (StableHlo.after (Cert.KernelIdeal.Hand.commonK (F := Ideal)) (preK V)) := by
  simp only [Cert.KernelIdeal.Hand.prefixOps, List.flatten_cons, List.flatten_nil, List.append_nil, StableHlo.NaryThree.after_append, Cert.KernelIdeal.Hand.hostOps0_50_split]
  rfl

/-- The reference's buffers at its end: the product and the assembly over the shared part's result. -/
theorem refLists_split (V : ValR) :
    StableHlo.after (List.flatten (Cert.ReferenceIdeal.Hand.refLists (F := Ideal))) V
      = StableHlo.after (Cert.ReferenceIdeal.Hand.lastR (F := Ideal)) (StableHlo.after (Cert.ReferenceIdeal.Hand.commonR (F := Ideal)) (preR V)) := by
  simp only [Cert.ReferenceIdeal.Hand.refLists, List.flatten_cons, List.flatten_nil, List.append_nil, StableHlo.NaryThree.after_append, Cert.ReferenceIdeal.Hand.refOps50_split]
  rfl

end Cert.Bridge

end
-- ==== Proof.Value.lean ====
/- The two programs end with equal results. Both results are the same assembly (the three block diagonals, stacked) of
   four arrays: the product P, the weights w, the identity matrix and diag(w)·M. The last three are buffers of the shared
   host line, on which the programs agree; the reference's P is one dot_general of M and diag(w)·M, the kernel's P is its
   region's result array — sixteen product slabs — re-laid, and the two are one function of M and diag(w)·M. -/
import proofs.«117756_j83829171683377_1_alg».proof.Proof.FrameKI
import proofs.«117756_j83829171683377_1_alg».proof.Proof.RefRun
import proofs.«117756_j83829171683377_1_alg».proof.Proof.KernelArray
import proofs.«117756_j83829171683377_1_alg».proof.Proof.ProductEq
import proofs.«117756_j83829171683377_1_alg».proof.Proof.TailEval
import proofs.«117756_j83829171683377_1_alg».proof.Proof.PreSplit

noncomputable section

namespace Cert.Bridge

open Idealize.ShloMosaic Idealize.ShloMosaic.TcCoe Idealize.SL.Sem

/-- The literal type of the result buffer. -/
abbrev ResTy : Type := (⟨Cert.KernelIdeal.S2x3x8x1024x1024, .f32⟩ : BufTy).Contents (Elt Ideal)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel's buffers after the shared part of the host line, on core c. -/
abbrev XK (c : Dev Cert.KernelIdeal.nD) : ValK :=
  StableHlo.after (Cert.KernelIdeal.Hand.commonK (F := Ideal)) (preK (fun b => m (c, b)))
/-- The reference's. -/
abbrev YR (c : Dev Cert.ReferenceIdeal.nD) : ValR :=
  StableHlo.after (Cert.ReferenceIdeal.Hand.commonR (F := Ideal)) (preR (fun b => m' (c, b)))

/-- The common result: the assembly of the reference's product, weights, identity and diag(w)·M. -/
def result (c : Dev Cert.ReferenceIdeal.nD) : ResTy :=
  tailFn (Host.dotGeneral (F := Ideal) (φ₁ := .f32) (φ₂ := .f32) dR none (YR m' c (Proc.devRef .tc Cert.ReferenceIdeal.main_v374)) (YR m' c (Proc.devRef .tc Cert.ReferenceIdeal.main_v380)))
    (YR m' c (Proc.devRef .tc Cert.ReferenceIdeal.main_v377)) (YR m' c (Proc.devRef .tc Cert.ReferenceIdeal.main_v369))
    (YR m' c (Proc.devRef .tc Cert.ReferenceIdeal.main_v380))

/-- The reference ends at it. -/
theorem reference_value (c : Dev Cert.ReferenceIdeal.nD) :
    @Eq ResTy (StableHlo.after (List.flatten (Cert.ReferenceIdeal.Hand.refLists (F := Ideal))) (fun b => m' (c, b)) (Proc.devRef .tc Cert.ReferenceIdeal.main_v403))
      (result m' c) := by
  rw [refLists_split]
  exact tailR _

/-- The kernel's program ends at it too — its result buffer after the host operations that follow the region — once the two
    programs agree on the four buffers the rest reads. -/
theorem kernel_value_of (c : Dev Cert.KernelIdeal.nD) (h51 : Agree_51 (XK m c) (YR m' c)) :
    @Eq ResTy (Pipeline.afterTail₀ Cert.KernelIdeal.cfgs (Cert.KernelIdeal.Hand.dats m) 0 (Cert.KernelIdeal.Hand.V0 m)
        [Cert.KernelIdeal.GenP.hostOps1] c Cert.KernelIdeal.main_v408) (result m' c) := by
  obtain ⟨a369, a374, a377, a380, -⟩ := h51
  -- the kernel's buffers at the region's entry: its own last four operations over the shared part
  have hV0 : Cert.KernelIdeal.Hand.V0 m c = StableHlo.after (Cert.KernelIdeal.Hand.extraK (F := Ideal)) (XK m c) := V0_split _
  -- the two operand arrays of the region
  have e383 : Cert.KernelIdeal.Hand.V m c Cert.KernelIdeal.main_v383
      = truncf (F := Ideal) .bf16 (shapeCast Cert.KernelIdeal.S16x1024x1024 (XK m c (Proc.devRef .tc Cert.KernelIdeal.main_v374))
          Cert.KernelIdeal.Gen.shapeCasts_S2x8x1024x1024_S16x1024x1024) Cert.KernelIdeal.Gen.bitsLt_bf16_f32 := by
    show Cert.KernelIdeal.Hand.V0 m c (Proc.devRef .tc Cert.KernelIdeal.main_v383) = _
    rw [hV0]; exact extraK_v383 _
  have e384 : Cert.KernelIdeal.Hand.V m c Cert.KernelIdeal.main_v384
      = truncf (F := Ideal) .bf16 (shapeCast Cert.KernelIdeal.S16x1024x1024 (XK m c (Proc.devRef .tc Cert.KernelIdeal.main_v380))
          Cert.KernelIdeal.Gen.shapeCasts_S2x8x1024x1024_S16x1024x1024) Cert.KernelIdeal.Gen.bitsLt_bf16_f32 := by
    show Cert.KernelIdeal.Hand.V0 m c (Proc.devRef .tc Cert.KernelIdeal.main_v384) = _
    rw [hV0]; exact extraK_v384 _
  unfold Pipeline.afterTail₀
  simp only [List.flatten_cons, List.flatten_nil, List.append_nil]
  refine (tailK _).trans ?_
  -- the region's result array, and the three buffers the region leaves alone
  have e385 := (Pipeline.withArrays_arr Cert.KernelIdeal.spec0 Cert.KernelIdeal.GenP.launch0.win.arr_inj c (Cert.KernelIdeal.Hand.V0 m c)
      (fun w => (Cert.KernelIdeal.Hand.dats m 0 c).arrAt w (Cert.KernelIdeal.cfgs 0).N) (2 : Fin 3)).trans (Cert.KernelIdeal.Hand.final2 m c)
  have k377 := (Pipeline.withArrays_of_ne Cert.KernelIdeal.spec0 c (Cert.KernelIdeal.Hand.V0 m c)
      (fun w => (Cert.KernelIdeal.Hand.dats m 0 c).arrAt w (Cert.KernelIdeal.cfgs 0).N) Cert.KernelIdeal.main_v377 (by decide)).trans
      ((congrFun hV0 _).trans (extraK_keep_v377 _))
  have k369 := (Pipeline.withArrays_of_ne Cert.KernelIdeal.spec0 c (Cert.KernelIdeal.Hand.V0 m c)
      (fun w => (Cert.KernelIdeal.Hand.dats m 0 c).arrAt w (Cert.KernelIdeal.cfgs 0).N) Cert.KernelIdeal.main_v369 (by decide)).trans
      ((congrFun hV0 _).trans (extraK_keep_v369 _))
  have k380 := (Pipeline.withArrays_of_ne Cert.KernelIdeal.spec0 c (Cert.KernelIdeal.Hand.V0 m c)
      (fun w => (Cert.KernelIdeal.Hand.dats m 0 c).arrAt w (Cert.KernelIdeal.cfgs 0).N) Cert.KernelIdeal.main_v380 (by decide)).trans
      ((congrFun hV0 _).trans (extraK_keep_v380 _))
  rw [show Pipeline.withArrays Cert.KernelIdeal.spec0 c (Cert.KernelIdeal.Hand.V0 m c)
        (fun w => (Cert.KernelIdeal.Hand.dats m 0 c).arrAt w (Cert.KernelIdeal.cfgs 0).N) (Proc.devRef .tc Cert.KernelIdeal.main_v385) = _ from e385,
    k377, k369, k380, e383, e384, product_eq, a369, a374, a377, a380]
  rfl

end Cert.Bridge

end
-- ==== Proof.AgreeA.lean ====
/- The invariant of AgreeDefs across the stretches 0 … 0: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_0 (WK : ValK) (WR : ValR) (h : Agree_0 WK WR) :
    Agree_1 (StableHlo.after (Cert.KernelIdeal.GenP.hostOps0 (F := Ideal)) WK) (StableHlo.after (Cert.ReferenceIdeal.Hand.hostOps0 (F := Ideal)) WR) := by
  obtain ⟨h1, h2, h3, h4, -⟩ := h
  obtain ⟨x1, h1K, h1R⟩ : ∃ x : ((⟨Cert.KernelIdeal.S2x1x1024x8, .f32⟩ : BufTy).Contents (Elt Ideal)), @Eq ((⟨Cert.KernelIdeal.S2x1x1024x8, .f32⟩ : BufTy).Contents (Elt Ideal)) (WK (Proc.devRef .tc Cert.KernelIdeal.main_arg0)) x ∧ @Eq ((⟨Cert.KernelIdeal.S2x1x1024x8, .f32⟩ : BufTy).Contents (Elt Ideal)) (WR (Proc.devRef .tc Cert.ReferenceIdeal.main_arg0)) x := ⟨_, h1, rfl⟩
  obtain ⟨x2, h2K, h2R⟩ : ∃ x : ((⟨Cert.KernelIdeal.S2x2x1024x8, .f32⟩ : BufTy).Contents (Elt Ideal)), @Eq ((⟨Cert.KernelIdeal.S2x2x1024x8, .f32⟩ : BufTy).Contents (Elt Ideal)) (WK (Proc.devRef .tc Cert.KernelIdeal.main_arg1)) x ∧ @Eq ((⟨Cert.KernelIdeal.S2x2x1024x8, .f32⟩ : BufTy).Contents (Elt Ideal)) (WR (Proc.devRef .tc Cert.ReferenceIdeal.main_arg1)) x := ⟨_, h2, rfl⟩
  obtain ⟨x3, h3K, h3R⟩ : ∃ x : ((⟨Cert.KernelIdeal.S2x2x2x1024x8, .f32⟩ : BufTy).Contents (Elt Ideal)), @Eq ((⟨Cert.KernelIdeal.S2x2x2x1024x8, .f32⟩ : BufTy).Contents (Elt Ideal)) (WK (Proc.devRef .tc Cert.KernelIdeal.main_arg2)) x ∧ @Eq ((⟨Cert.KernelIdeal.S2x2x2x1024x8, .f32⟩ : BufTy).Contents (Elt Ideal)) (WR (Proc.devRef .tc Cert.ReferenceIdeal.main_arg2)) x := ⟨_, h3, rfl⟩
  obtain ⟨x4, h4K, h4R⟩ : ∃ x : ((⟨Cert.KernelIdeal.S2x1x1024x8, .f32⟩ : BufTy).Contents (Elt Ideal)), @Eq ((⟨Cert.KernelIdeal.S2x1x1024x8, .f32⟩ : BufTy).Contents (Elt Ideal)) (WK (Proc.devRef .tc Cert.KernelIdeal.main_arg3)) x ∧ @Eq ((⟨Cert.KernelIdeal.S2x1x1024x8, .f32⟩ : BufTy).Contents (Elt Ideal)) (WR (Proc.devRef .tc Cert.ReferenceIdeal.main_arg3)) x := ⟨_, h4, rfl⟩
  refine ⟨?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl

end Cert.Bridge

end
-- ==== Proof.AgreeB.lean ====
/- The invariant of AgreeDefs across the stretches 1 … 1: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_1 (WK : ValK) (WR : ValR) (h : Agree_1 WK WR) :
    Agree_2 (StableHlo.after (Cert.KernelIdeal.GenP.hostOps0_1 (F := Ideal)) WK) (StableHlo.after (Cert.ReferenceIdeal.Hand.hostOps0_1 (F := Ideal)) WR) := by
  obtain ⟨h1, h2, h3, h4, h5, h6, h7, h8, h9, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c)) x ∧ @Eq ((⟨Cert.KernelIdeal.S_, .i32⟩ : BufTy).Contents (Elt Ideal)) (WR (Proc.devRef .tc Cert.ReferenceIdeal.main_c)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v19)) x ∧ @Eq ((⟨Cert.KernelIdeal.S16x1024, .f32⟩ : BufTy).Contents (Elt Ideal)) (WR (Proc.devRef .tc Cert.ReferenceIdeal.main_v19)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v25)) x ∧ @Eq ((⟨Cert.KernelIdeal.S1024, .i32⟩ : BufTy).Contents (Elt Ideal)) (WR (Proc.devRef .tc Cert.ReferenceIdeal.main_v25)) x := ⟨_, h9, rfl⟩
  refine ⟨?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl

end Cert.Bridge

end
-- ==== Proof.AgreeC.lean ====
/- The invariant of AgreeDefs across the stretches 2 … 2: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_2 (WK : ValK) (WR : ValR) (h : Agree_2 WK WR) :
    Agree_3 (StableHlo.after (Cert.KernelIdeal.GenP.hostOps0_2 (F := Ideal)) WK) (StableHlo.after (Cert.ReferenceIdeal.Hand.hostOps0_2 (F := Ideal)) WR) := by
  obtain ⟨h1, h2, h3, h4, h5, h6, h7, h8, h9, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v19)) x ∧ @Eq ((⟨Cert.KernelIdeal.S16x1024, .f32⟩ : BufTy).Contents (Elt Ideal)) (WR (Proc.devRef .tc Cert.ReferenceIdeal.main_v19)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  refine ⟨?_, ?_, ?_, ?_, ?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl

end Cert.Bridge

end
-- ==== Proof.AgreeD.lean ====
/- The invariant of AgreeDefs across the stretches 3 … 7: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_3 (WK : ValK) (WR : ValR) (h : Agree_3 WK WR) :
    Agree_4 (StableHlo.after (Cert.KernelIdeal.GenP.hostOps0_3 (F := Ideal)) WK) (StableHlo.after (Cert.ReferenceIdeal.Hand.hostOps0_3 (F := Ideal)) WR) := by
  obtain ⟨h1, h2, h3, h4, h5, h6, h7, h8, h9, h10, h11, h12, h13, h14, h15, h16, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_16)) x ∧ @Eq ((⟨Cert.KernelIdeal.S_, .i32⟩ : BufTy).Contents (Elt Ideal)) (WR (Proc.devRef .tc Cert.ReferenceIdeal.main_c_16)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_17)) x ∧ @Eq ((⟨Cert.KernelIdeal.S_, .i32⟩ : BufTy).Contents (Elt Ideal)) (WR (Proc.devRef .tc Cert.ReferenceIdeal.main_c_17)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h11, rfl⟩
  obtain ⟨x12, h12K, h12R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v54)) x ∧ @Eq ((⟨Cert.KernelIdeal.S16x1024x1024, .f32⟩ : BufTy).Contents (Elt Ideal)) (WR (Proc.devRef .tc Cert.ReferenceIdeal.main_v54)) x := ⟨_, h12, rfl⟩
  obtain ⟨x13, h13K, h13R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v60)) x ∧ @Eq ((⟨Cert.KernelIdeal.S16x1024, .f32⟩ : BufTy).Contents (Elt Ideal)) (WR (Proc.devRef .tc Cert.ReferenceIdeal.main_v60)) x := ⟨_, h13, rfl⟩
  obtain ⟨x14, h14K, h14R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v62)) x ∧ @Eq ((⟨Cert.KernelIdeal.S1024, .i32⟩ : BufTy).Contents (Elt Ideal)) (WR (Proc.devRef .tc Cert.ReferenceIdeal.main_v62)) x := ⟨_, h14, rfl⟩
  obtain ⟨x15, h15K, h15R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v64)) x ∧ @Eq ((⟨Cert.KernelIdeal.S1024, .i32⟩ : BufTy).Contents (Elt Ideal)) (WR (Proc.devRef .tc Cert.ReferenceIdeal.main_v64)) x := ⟨_, h15, rfl⟩
  obtain ⟨x16, h16K, h16R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v75)) x ∧ @Eq ((⟨Cert.KernelIdeal.S1024, .i1⟩ : BufTy).Contents (Elt Ideal)) (WR (Proc.devRef .tc Cert.ReferenceIdeal.main_v75)) x := ⟨_, h16, rfl⟩
  refine ⟨?_, ?_, ?_, ?_, ?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h13)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h15)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h16)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h15K, h16K, h1R, h2R, h3R, h4R, h5R, h6R, h7R, h8R, h9R, h10R, h11R, h12R, h13R, h14R, h15R, h16R] <;> rfl

set_option maxHeartbeats 4000000 in
theorem step_4 (WK : ValK) (WR : ValR) (h : Agree_4 WK WR) :
    Agree_5 (StableHlo.after (Cert.KernelIdeal.GenP.hostOps0_4 (F := Ideal)) WK) (StableHlo.after (Cert.ReferenceIdeal.Hand.hostOps0_4 (F := Ideal)) WR) := by
  obtain ⟨h1, h2, h3, h4, h5, h6, h7, h8, h9, h10, h11, h12, h13, h14, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h9, rfl⟩
  obtain ⟨x10, h10K, h10R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v54)) x ∧ @Eq ((⟨Cert.KernelIdeal.S16x1024x1024, .f32⟩ : BufTy).Contents (Elt Ideal)) (WR (Proc.devRef .tc Cert.ReferenceIdeal.main_v54)) x := ⟨_, h10, rfl⟩
  obtain ⟨x11, h11K, h11R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v60)) x ∧ @Eq ((⟨Cert.KernelIdeal.S16x1024, .f32⟩ : BufTy).Contents (Elt Ideal)) (WR (Proc.devRef .tc Cert.ReferenceIdeal.main_v60)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v64)) x ∧ @Eq ((⟨Cert.KernelIdeal.S1024, .i32⟩ : BufTy).Contents (Elt Ideal)) (WR (Proc.devRef .tc Cert.ReferenceIdeal.main_v64)) x := ⟨_, h12, rfl⟩
  obtain ⟨x13, h13K, h13R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v75)) x ∧ @Eq ((⟨Cert.KernelIdeal.S1024, .i1⟩ : BufTy).Contents (Elt Ideal)) (WR (Proc.devRef .tc Cert.ReferenceIdeal.main_v75)) x := ⟨_, h13, rfl⟩
  obtain ⟨x14, h14K, h14R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v76)) x ∧ @Eq ((⟨Cert.KernelIdeal.S1024, .i32⟩ : BufTy).Contents (Elt Ideal)) (WR (Proc.devRef .tc Cert.ReferenceIdeal.main_v76)) x := ⟨_, h14, rfl⟩
  refine ⟨?_, ?_, ?_, ?_, ?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h13)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl

set_option maxHeartbeats 4000000 in
theorem step_5 (WK : ValK) (WR : ValR) (h : Agree_5 WK WR) :
    Agree_6 (StableHlo.after (Cert.KernelIdeal.GenP.hostOps0_5 (F := Ideal)) WK) (StableHlo.after (Cert.ReferenceIdeal.Hand.hostOps0_5 (F := Ideal)) WR) := by
  obtain ⟨h1, h2, h3, h4, h5, h6, h7, h8, h9, h10, h11, h12, h13, h14, h15, h16, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_19)) x ∧ @Eq ((⟨Cert.KernelIdeal.S_, .i32⟩ : BufTy).Contents (Elt Ideal)) (WR (Proc.devRef .tc Cert.ReferenceIdeal.main_c_19)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_20)) x ∧ @Eq ((⟨Cert.KernelIdeal.S_, .i32⟩ : BufTy).Contents (Elt Ideal)) (WR (Proc.devRef .tc Cert.ReferenceIdeal.main_c_20)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h11, rfl⟩
  obtain ⟨x12, h12K, h12R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v54)) x ∧ @Eq ((⟨Cert.KernelIdeal.S16x1024x1024, .f32⟩ : BufTy).Contents (Elt Ideal)) (WR (Proc.devRef .tc Cert.ReferenceIdeal.main_v54)) x := ⟨_, h12, rfl⟩
  obtain ⟨x13, h13K, h13R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v60)) x ∧ @Eq ((⟨Cert.KernelIdeal.S16x1024, .f32⟩ : BufTy).Contents (Elt Ideal)) (WR (Proc.devRef .tc Cert.ReferenceIdeal.main_v60)) x := ⟨_, h13, rfl⟩
  obtain ⟨x14, h14K, h14R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v64)) x ∧ @Eq ((⟨Cert.KernelIdeal.S1024, .i32⟩ : BufTy).Contents (Elt Ideal)) (WR (Proc.devRef .tc Cert.ReferenceIdeal.main_v64)) x := ⟨_, h14, rfl⟩
  obtain ⟨x15, h15K, h15R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v75)) x ∧ @Eq ((⟨Cert.KernelIdeal.S1024, .i1⟩ : BufTy).Contents (Elt Ideal)) (WR (Proc.devRef .tc Cert.ReferenceIdeal.main_v75)) x := ⟨_, h15, rfl⟩
  obtain ⟨x16, h16K, h16R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v78)) x ∧ @Eq ((⟨Cert.KernelIdeal.S1024, .i32⟩ : BufTy).Contents (Elt Ideal)) (WR (Proc.devRef .tc Cert.ReferenceIdeal.main_v78)) x := ⟨_, h16, rfl⟩
  refine ⟨?_, ?_, ?_, ?_, ?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h13)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h15)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h16)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h15K, h16K, h1R, h2R, h3R, h4R, h5R, h6R, h7R, h8R, h9R, h10R, h11R, h12R, h13R, h14R, h15R, h16R] <;> rfl

set_option maxHeartbeats 4000000 in
theorem step_6 (WK : ValK) (WR : ValR) (h : Agree_6 WK WR) :
    Agree_7 (StableHlo.after (Cert.KernelIdeal.GenP.hostOps0_6 (F := Ideal)) WK) (StableHlo.after (Cert.ReferenceIdeal.Hand.hostOps0_6 (F := Ideal)) WR) := by
  obtain ⟨h1, h2, h3, h4, h5, h6, h7, h8, h9, h10, h11, h12, h13, h14, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h9, rfl⟩
  obtain ⟨x10, h10K, h10R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v54)) x ∧ @Eq ((⟨Cert.KernelIdeal.S16x1024x1024, .f32⟩ : BufTy).Contents (Elt Ideal)) (WR (Proc.devRef .tc Cert.ReferenceIdeal.main_v54)) x := ⟨_, h10, rfl⟩
  obtain ⟨x11, h11K, h11R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v60)) x ∧ @Eq ((⟨Cert.KernelIdeal.S16x1024, .f32⟩ : BufTy).Contents (Elt Ideal)) (WR (Proc.devRef .tc Cert.ReferenceIdeal.main_v60)) x := ⟨_, h11, rfl⟩
  obtain ⟨x12, h12K, h12R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v75)) x ∧ @Eq ((⟨Cert.KernelIdeal.S1024, .i1⟩ : BufTy).Contents (Elt Ideal)) (WR (Proc.devRef .tc Cert.ReferenceIdeal.main_v75)) x := ⟨_, h12, rfl⟩
  obtain ⟨x13, h13K, h13R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v78)) x ∧ @Eq ((⟨Cert.KernelIdeal.S1024, .i32⟩ : BufTy).Contents (Elt Ideal)) (WR (Proc.devRef .tc Cert.ReferenceIdeal.main_v78)) x := ⟨_, h13, rfl⟩
  obtain ⟨x14, h14K, h14R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v79)) x ∧ @Eq ((⟨Cert.KernelIdeal.S1024, .i32⟩ : BufTy).Contents (Elt Ideal)) (WR (Proc.devRef .tc Cert.ReferenceIdeal.main_v79)) x := ⟨_, h14, rfl⟩
  refine ⟨?_, ?_, ?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl

set_option maxHeartbeats 4000000 in
theorem step_7 (WK : ValK) (WR : ValR) (h : Agree_7 WK WR) :
    Agree_8 (StableHlo.after (Cert.KernelIdeal.GenP.hostOps0_7 (F := Ideal)) WK) (StableHlo.after (Cert.ReferenceIdeal.Hand.hostOps0_7 (F := Ideal)) WR) := by
  obtain ⟨h1, h2, h3, h4, h5, h6, h7, h8, h9, h10, h11, h12, h13, h14, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_21)) x ∧ @Eq ((⟨Cert.KernelIdeal.S_, .f32⟩ : BufTy).Contents (Elt Ideal)) (WR (Proc.devRef .tc Cert.ReferenceIdeal.main_cst_21)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  obtain ⟨x11, h11K, h11R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v54)) x ∧ @Eq ((⟨Cert.KernelIdeal.S16x1024x1024, .f32⟩ : BufTy).Contents (Elt Ideal)) (WR (Proc.devRef .tc Cert.ReferenceIdeal.main_v54)) x := ⟨_, h11, rfl⟩
  obtain ⟨x12, h12K, h12R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v60)) x ∧ @Eq ((⟨Cert.KernelIdeal.S16x1024, .f32⟩ : BufTy).Contents (Elt Ideal)) (WR (Proc.devRef .tc Cert.ReferenceIdeal.main_v60)) x := ⟨_, h12, rfl⟩
  obtain ⟨x13, h13K, h13R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v75)) x ∧ @Eq ((⟨Cert.KernelIdeal.S1024, .i1⟩ : BufTy).Contents (Elt Ideal)) (WR (Proc.devRef .tc Cert.ReferenceIdeal.main_v75)) x := ⟨_, h13, rfl⟩
  obtain ⟨x14, h14K, h14R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v80)) x ∧ @Eq ((⟨Cert.KernelIdeal.S1024, .i32⟩ : BufTy).Contents (Elt Ideal)) (WR (Proc.devRef .tc Cert.ReferenceIdeal.main_v80)) x := ⟨_, h14, rfl⟩
  refine ⟨?_, ?_, ?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h14)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl

end Cert.Bridge

end
-- ==== Proof.ChunksK.lean ====
/- The stretches of host operations that hold a concatenate, each cut in three at it: the operations before it, the
   concatenate alone, the operations after it (the kernel's program). -/
import proofs.«117756_j83829171683377_1_alg».proof.Proof.SplitK

noncomputable section

namespace Cert.KernelIdeal.Hand

open Idealize.ShloMosaic Idealize.ShloMosaic.TcCoe Idealize.SL.Sem
open Cert.KernelIdeal Cert.KernelIdeal.Gen Cert.KernelIdeal.GenP

variable {F : FTy → Type} [FloatOps F]

set_option maxHeartbeats 40000000 in
/-- Stretch 8, before its concatenate. -/
abbrev ck_8_a : List (HloOp τ sig (Elt F)) :=
  ( StableHlo.nullary main_c_22 (constantI S_ 32 0#32)
  :: StableHlo.unary main_c_22 main_v82 (broadcastInDim S1024 ![] bcast_S_S1024 : (⟨S_, .i32⟩ : BufTy).Contents (Elt F) → (⟨S1024, .i32⟩ : BufTy).Contents (Elt F))
  :: StableHlo.binary main_v27 main_v82 main_v83 (cmpi .slt : (⟨S1024, .i32⟩ : BufTy).Contents (Elt F) → (⟨S1024, .i32⟩ : BufTy).Contents (Elt F) → (⟨S1024, .i1⟩ : BufTy).Contents (Elt F))
  :: StableHlo.nullary main_c_23 (constantI S_ 32 1024#32)
  :: StableHlo.unary main_c_23 main_v84 (broadcastInDim S1024 ![] bcast_S_S1024 : (⟨S_, .i32⟩ : BufTy).Contents (Elt F) → (⟨S1024, .i32⟩ : BufTy).Contents (Elt F))
  :: StableHlo.binary main_v27 main_v84 main_v85 (addi : (⟨S1024, .i32⟩ : BufTy).Contents (Elt F) → (⟨S1024, .i32⟩ : BufTy).Contents (Elt F) → (⟨S1024, .i32⟩ : BufTy).Contents (Elt F))
  :: StableHlo.ternary main_v83 main_v85 main_v27 main_v86 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_24 (constantI S_ 32 0#32)
  :: StableHlo.unary main_c_24 main_v87 (broadcastInDim S1024 ![] bcast_S_S1024 : (⟨S_, .i32⟩ : BufTy).Contents (Elt F) → (⟨S1024, .i32⟩ : BufTy).Contents (Elt F))
  :: StableHlo.binary main_v80 main_v87 main_v88 (cmpi .slt : (⟨S1024, .i32⟩ : BufTy).Contents (Elt F) → (⟨S1024, .i32⟩ : BufTy).Contents (Elt F) → (⟨S1024, .i1⟩ : BufTy).Contents (Elt F))
  :: StableHlo.nullary main_c_25 (constantI S_ 32 1024#32)
  :: StableHlo.unary main_c_25 main_v89 (broadcastInDim S1024 ![] bcast_S_S1024 : (⟨S_, .i32⟩ : BufTy).Contents (Elt F) → (⟨S1024, .i32⟩ : BufTy).Contents (Elt F))
  :: StableHlo.binary main_v80 main_v89 main_v90 (addi : (⟨S1024, .i32⟩ : BufTy).Contents (Elt F) → (⟨S1024, .i32⟩ : BufTy).Contents (Elt F) → (⟨S1024, .i32⟩ : BufTy).Contents (Elt F))
  :: StableHlo.ternary main_v88 main_v90 main_v80 main_v91 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v86 main_v92 (broadcastInDim S1024x1 ![0] bcast_S1024_S1024x1_0 : (⟨S1024, .i32⟩ : BufTy).Contents (Elt F) → (⟨S1024x1, .i32⟩ : BufTy).Contents (Elt F))
  :: StableHlo.unary main_v91 main_v93 (broadcastInDim S1024x1 ![0] bcast_S1024_S1024x1_0 : (⟨S1024, .i32⟩ : BufTy).Contents (Elt F) → (⟨S1024x1, .i32⟩ : BufTy).Contents (Elt F))
  :: [] )
/-- Stretch 8's concatenate. -/
abbrev ck_8_b : List (HloOp τ sig (Elt F)) :=
  ( StableHlo.binary main_v92 main_v93 main_v94 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 8, after its concatenate. -/
abbrev ck_8_c : List (HloOp τ sig (Elt F)) :=
  ( StableHlo.ternary main_v54 main_v94 main_v81 main_v95 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v22 main_v96 (Host.negf : (⟨S16x1024, .f32⟩ : BufTy).Contents (Elt F) → (⟨S16x1024, .f32⟩ : BufTy).Contents (Elt F))
  :: StableHlo.nullary main_cst_26 (constant S_ .f32 0x3F800000#32)
  :: StableHlo.unary main_cst_26 main_v97 (broadcastInDim S16x1024 ![] bcast_S_S16x1024 : (⟨S_, .f32⟩ : BufTy).Contents (Elt F) → (⟨S16x1024, .f32⟩ : BufTy).Contents (Elt F))
  :: StableHlo.binary main_v96 main_v97 main_v98 (Host.divf : (⟨S16x1024, .f32⟩ : BufTy).Contents (Elt F) → (⟨S16x1024, .f32⟩ : BufTy).Contents (Elt F) → (⟨S16x1024, .f32⟩ : BufTy).Contents (Elt F))
  :: StableHlo.nullary main_cst_27 (constant S_ .f32 0x40000000#32)
  :: StableHlo.unary main_cst_27 main_v99 (broadcastInDim S16x1024 ![] bcast_S_S16x1024 : (⟨S_, .f32⟩ : BufTy).Contents (Elt F) → (⟨S16x1024, .f32⟩ : BufTy).Contents (Elt F))
  :: StableHlo.binary main_v20 main_v99 main_v100 (Host.divf : (⟨S16x1024, .f32⟩ : BufTy).Contents (Elt F) → (⟨S16x1024, .f32⟩ : BufTy).Contents (Elt F) → (⟨S16x1024, .f32⟩ : BufTy).Contents (Elt F))
  :: StableHlo.binary main_v98 main_v100 main_v101 (subf : (⟨S16x1024, .f32⟩ : BufTy).Contents (Elt F) → (⟨S16x1024, .f32⟩ : BufTy).Contents (Elt F) → (⟨S16x1024, .f32⟩ : BufTy).Contents (Elt F))
  :: StableHlo.nullary main_c_28 (constantI S_ 32 0#32)
  :: StableHlo.unary main_c_28 main_v102 (broadcastInDim S1024 ![] bcast_S_S1024 : (⟨S_, .i32⟩ : BufTy).Contents (Elt F) → (⟨S1024, .i32⟩ : BufTy).Contents (Elt F))
  :: StableHlo.binary main_v26_0 main_v102 main_v103 (addi : (⟨S1024, .i32⟩ : BufTy).Contents (Elt F) → (⟨S1024, .i32⟩ : BufTy).Contents (Elt F) → (⟨S1024, .i32⟩ : BufTy).Contents (Elt F))
  :: StableHlo.nullary main_c_29 (constantI S_ 32 4294967295#32)
  :: StableHlo.unary main_c_29 main_v104 (broadcastInDim S1024 ![] bcast_S_S1024 : (⟨S_, .i32⟩ : BufTy).Contents (Elt F) → (⟨S1024, .i32⟩ : BufTy).Contents (Elt F))
  :: StableHlo.binary main_v26_1 main_v104 main_v105 (addi : (⟨S1024, .i32⟩ : BufTy).Contents (Elt F) → (⟨S1024, .i32⟩ : BufTy).Contents (Elt F) → (⟨S1024, .i32⟩ : BufTy).Contents (Elt F))
  :: StableHlo.nullary main_c_30 (constantI S_ 32 0#32)
  :: StableHlo.unary main_c_30 main_v106 (broadcastInDim S1024 ![] bcast_S_S1024 : (⟨S_, .i32⟩ : BufTy).Contents (Elt F) → (⟨S1024, .i32⟩ : BufTy).Contents (Elt F))
  :: StableHlo.binary main_v103 main_v106 main_v107 (cmpi .sge : (⟨S1024, .i32⟩ : BufTy).Contents (Elt F) → (⟨S1024, .i32⟩ : BufTy).Contents (Elt F) → (⟨S1024, .i1⟩ : BufTy).Contents (Elt F))
  :: StableHlo.nullary main_c_31 (constantI S_ 32 32#32)
  :: StableHlo.unary main_c_31 main_v108 (broadcastInDim S1024 ![] bcast_S_S1024 : (⟨S_, .i32⟩ : BufTy).Contents (Elt F) → (⟨S1024, .i32⟩ : BufTy).Contents (Elt F))
  :: StableHlo.binary main_v103 main_v108 main_v109 (cmpi .slt : (⟨S1024, .i32⟩ : BufTy).Contents (Elt F) → (⟨S1024, .i32⟩ : BufTy).Contents (Elt F) → (⟨S1024, .i1⟩ : BufTy).Contents (Elt F))
  :: StableHlo.binary main_v107 main_v109 main_v110 (andi : (⟨S1024, .i1⟩ : BufTy).Contents (Elt F) → (⟨S1024, .i1⟩ : BufTy).Contents (Elt F) → (⟨S1024, .i1⟩ : BufTy).Contents (Elt F))
  :: StableHlo.nullary main_c_32 (constantI S_ 32 0#32)
  :: StableHlo.unary main_c_32 main_v111 (broadcastInDim S1024 ![] bcast_S_S1024 : (⟨S_, .i32⟩ : BufTy).Contents (Elt F) → (⟨S1024, .i32⟩ : BufTy).Contents (Elt F))
  :: StableHlo.binary main_v105 main_v111 main_v112 (cmpi .sge : (⟨S1024, .i32⟩ : BufTy).Contents (Elt F) → (⟨S1024, .i32⟩ : BufTy).Contents (Elt F) → (⟨S1024, .i1⟩ : BufTy).Contents (Elt F))
  :: StableHlo.binary main_v110 main_v112 main_v113 (andi : (⟨S1024, .i1⟩ : BufTy).Contents (Elt F) → (⟨S1024, .i1⟩ : BufTy).Contents (Elt F) → (⟨S1024, .i1⟩ : BufTy).Contents (Elt F))
  :: StableHlo.nullary main_c_33 (constantI S_ 32 32#32)
  :: StableHlo.unary main_c_33 main_v114 (broadcastInDim S1024 ![] bcast_S_S1024 : (⟨S_, .i32⟩ : BufTy).Contents (Elt F) → (⟨S1024, .i32⟩ : BufTy).Contents (Elt F))
  :: StableHlo.binary main_v105 main_v114 main_v115 (cmpi .slt : (⟨S1024, .i32⟩ : BufTy).Contents (Elt F) → (⟨S1024, .i32⟩ : BufTy).Contents (Elt F) → (⟨S1024, .i1⟩ : BufTy).Contents (Elt F))
  :: StableHlo.binary main_v113 main_v115 main_v116 (andi : (⟨S1024, .i1⟩ : BufTy).Contents (Elt F) → (⟨S1024, .i1⟩ : BufTy).Contents (Elt F) → (⟨S1024, .i1⟩ : BufTy).Contents (Elt F))
  :: StableHlo.nullary main_c_34 (constantI S_ 32 0#32)
  :: StableHlo.nullary main_c_35 (constantI S_ 32 31#32)
  :: [] )
theorem chunks_8 : (hostOps0_8 : List (HloOp τ sig (Elt F))) = ck_8_a ++ ck_8_b ++ ck_8_c := rfl

set_option maxHeartbeats 40000000 in
/-- Stretch 14, before its concatenate. -/
abbrev ck_14_a : List (HloOp τ sig (Elt F)) :=
  ( StableHlo.nullary main_c_40 (constantI S_ 32 0#32)
  :: StableHlo.unary main_c_40 main_v123 (broadcastInDim S1024 ![] bcast_S_S1024 : (⟨S_, .i32⟩ : BufTy).Contents (Elt F) → (⟨S1024, .i32⟩ : BufTy).Contents (Elt F))
  :: StableHlo.binary main_v27 main_v123 main_v124 (cmpi .slt : (⟨S1024, .i32⟩ : BufTy).Contents (Elt F) → (⟨S1024, .i32⟩ : BufTy).Contents (Elt F) → (⟨S1024, .i1⟩ : BufTy).Contents (Elt F))
  :: StableHlo.nullary main_c_41 (constantI S_ 32 1024#32)
  :: StableHlo.unary main_c_41 main_v125 (broadcastInDim S1024 ![] bcast_S_S1024 : (⟨S_, .i32⟩ : BufTy).Contents (Elt F) → (⟨S1024, .i32⟩ : BufTy).Contents (Elt F))
  :: StableHlo.binary main_v27 main_v125 main_v126 (addi : (⟨S1024, .i32⟩ : BufTy).Contents (Elt F) → (⟨S1024, .i32⟩ : BufTy).Contents (Elt F) → (⟨S1024, .i32⟩ : BufTy).Contents (Elt F))
  :: StableHlo.ternary main_v124 main_v126 main_v27 main_v127 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_42 (constantI S_ 32 0#32)
  :: StableHlo.unary main_c_42 main_v128 (broadcastInDim S1024 ![] bcast_S_S1024 : (⟨S_, .i32⟩ : BufTy).Contents (Elt F) → (⟨S1024, .i32⟩ : BufTy).Contents (Elt F))
  :: StableHlo.binary main_v121 main_v128 main_v129 (cmpi .slt : (⟨S1024, .i32⟩ : BufTy).Contents (Elt F) → (⟨S1024, .i32⟩ : BufTy).Contents (Elt F) → (⟨S1024, .i1⟩ : BufTy).Contents (Elt F))
  :: StableHlo.nullary main_c_43 (constantI S_ 32 1024#32)
  :: StableHlo.unary main_c_43 main_v130 (broadcastInDim S1024 ![] bcast_S_S1024 : (⟨S_, .i32⟩ : BufTy).Contents (Elt F) → (⟨S1024, .i32⟩ : BufTy).Contents (Elt F))
  :: StableHlo.binary main_v121 main_v130 main_v131 (addi : (⟨S1024, .i32⟩ : BufTy).Contents (Elt F) → (⟨S1024, .i32⟩ : BufTy).Contents (Elt F) → (⟨S1024, .i32⟩ : BufTy).Contents (Elt F))
  :: StableHlo.ternary main_v129 main_v131 main_v121 main_v132 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v127 main_v133 (broadcastInDim S1024x1 ![0] bcast_S1024_S1024x1_0 : (⟨S1024, .i32⟩ : BufTy).Contents (Elt F) → (⟨S1024x1, .i32⟩ : BufTy).Contents (Elt F))
  :: StableHlo.unary main_v132 main_v134 (broadcastInDim S1024x1 ![0] bcast_S1024_S1024x1_0 : (⟨S1024, .i32⟩ : BufTy).Contents (Elt F) → (⟨S1024x1, .i32⟩ : BufTy).Contents (Elt F))
  :: [] )
/-- Stretch 14's concatenate. -/
abbrev ck_14_b : List (HloOp τ sig (Elt F)) :=
  ( StableHlo.binary main_v133 main_v134 main_v135 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 14, after its concatenate. -/
abbrev ck_14_c : List (HloOp τ sig (Elt F)) :=
  ( StableHlo.ternary main_v95 main_v135 main_v122 main_v136 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v137 (Host.negf : (⟨S16x1024, .f32⟩ : BufTy).Contents (Elt F) → (⟨S16x1024, .f32⟩ : BufTy).Contents (Elt F))
  :: StableHlo.nullary main_cst_44 (constant S_ .f32 0x3F800000#32)
  :: StableHlo.unary main_cst_44 main_v138 (broadcastInDim S16x1024 ![] bcast_S_S16x1024 : (⟨S_, .f32⟩ : BufTy).Contents (Elt F) → (⟨S16x1024, .f32⟩ : BufTy).Contents (Elt F))
  :: StableHlo.binary main_v137 main_v138 main_v139 (Host.divf : (⟨S16x1024, .f32⟩ : BufTy).Contents (Elt F) → (⟨S16x1024, .f32⟩ : BufTy).Contents (Elt F) → (⟨S16x1024, .f32⟩ : BufTy).Contents (Elt F))
  :: StableHlo.nullary main_cst_45 (constant S_ .f32 0x40000000#32)
  :: StableHlo.unary main_cst_45 main_v140 (broadcastInDim S16x1024 ![] bcast_S_S16x1024 : (⟨S_, .f32⟩ : BufTy).Contents (Elt F) → (⟨S16x1024, .f32⟩ : BufTy).Contents (Elt F))
  :: StableHlo.binary main_v21 main_v140 main_v141 (Host.divf : (⟨S16x1024, .f32⟩ : BufTy).Contents (Elt F) → (⟨S16x1024, .f32⟩ : BufTy).Contents (Elt F) → (⟨S16x1024, .f32⟩ : BufTy).Contents (Elt F))
  :: StableHlo.binary main_v139 main_v141 main_v142 (addf : (⟨S16x1024, .f32⟩ : BufTy).Contents (Elt F) → (⟨S16x1024, .f32⟩ : BufTy).Contents (Elt F) → (⟨S16x1024, .f32⟩ : BufTy).Contents (Elt F))
  :: StableHlo.nullary main_c_46 (constantI S_ 32 1#32)
  :: StableHlo.unary main_c_46 main_v143 (broadcastInDim S1024 ![] bcast_S_S1024 : (⟨S_, .i32⟩ : BufTy).Contents (Elt F) → (⟨S1024, .i32⟩ : BufTy).Contents (Elt F))
  :: StableHlo.binary main_v26_0 main_v143 main_v144 (addi : (⟨S1024, .i32⟩ : BufTy).Contents (Elt F) → (⟨S1024, .i32⟩ : BufTy).Contents (Elt F) → (⟨S1024, .i32⟩ : BufTy).Contents (Elt F))
  :: StableHlo.nullary main_c_47 (constantI S_ 32 0#32)
  :: StableHlo.unary main_c_47 main_v145 (broadcastInDim S1024 ![] bcast_S_S1024 : (⟨S_, .i32⟩ : BufTy).Contents (Elt F) → (⟨S1024, .i32⟩ : BufTy).Contents (Elt F))
  :: StableHlo.binary main_v26_1 main_v145 main_v146 (addi : (⟨S1024, .i32⟩ : BufTy).Contents (Elt F) → (⟨S1024, .i32⟩ : BufTy).Contents (Elt F) → (⟨S1024, .i32⟩ : BufTy).Contents (Elt F))
  :: StableHlo.nullary main_c_48 (constantI S_ 32 0#32)
  :: StableHlo.unary main_c_48 main_v147 (broadcastInDim S1024 ![] bcast_S_S1024 : (⟨S_, .i32⟩ : BufTy).Contents (Elt F) → (⟨S1024, .i32⟩ : BufTy).Contents (Elt F))
  :: StableHlo.binary main_v144 main_v147 main_v148 (cmpi .sge : (⟨S1024, .i32⟩ : BufTy).Contents (Elt F) → (⟨S1024, .i32⟩ : BufTy).Contents (Elt F) → (⟨S1024, .i1⟩ : BufTy).Contents (Elt F))
  :: StableHlo.nullary main_c_49 (constantI S_ 32 32#32)
  :: StableHlo.unary main_c_49 main_v149 (broadcastInDim S1024 ![] bcast_S_S1024 : (⟨S_, .i32⟩ : BufTy).Contents (Elt F) → (⟨S1024, .i32⟩ : BufTy).Contents (Elt F))
  :: StableHlo.binary main_v144 main_v149 main_v150 (cmpi .slt : (⟨S1024, .i32⟩ : BufTy).Contents (Elt F) → (⟨S1024, .i32⟩ : BufTy).Contents (Elt F) → (⟨S1024, .i1⟩ : BufTy).Contents (Elt F))
  :: StableHlo.binary main_v148 main_v150 main_v151 (andi : (⟨S1024, .i1⟩ : BufTy).Contents (Elt F) → (⟨S1024, .i1⟩ : BufTy).Contents (Elt F) → (⟨S1024, .i1⟩ : BufTy).Contents (Elt F))
  :: StableHlo.nullary main_c_50 (constantI S_ 32 0#32)
  :: StableHlo.unary main_c_50 main_v152 (broadcastInDim S1024 ![] bcast_S_S1024 : (⟨S_, .i32⟩ : BufTy).Contents (Elt F) → (⟨S1024, .i32⟩ : BufTy).Contents (Elt F))
  :: StableHlo.binary main_v146 main_v152 main_v153 (cmpi .sge : (⟨S1024, .i32⟩ : BufTy).Contents (Elt F) → (⟨S1024, .i32⟩ : BufTy).Contents (Elt F) → (⟨S1024, .i1⟩ : BufTy).Contents (Elt F))
  :: StableHlo.binary main_v151 main_v153 main_v154 (andi : (⟨S1024, .i1⟩ : BufTy).Contents (Elt F) → (⟨S1024, .i1⟩ : BufTy).Contents (Elt F) → (⟨S1024, .i1⟩ : BufTy).Contents (Elt F))
  :: StableHlo.nullary main_c_51 (constantI S_ 32 32#32)
  :: StableHlo.unary main_c_51 main_v155 (broadcastInDim S1024 ![] bcast_S_S1024 : (⟨S_, .i32⟩ : BufTy).Contents (Elt F) → (⟨S1024, .i32⟩ : BufTy).Contents (Elt F))
  :: StableHlo.binary main_v146 main_v155 main_v156 (cmpi .slt : (⟨S1024, .i32⟩ : BufTy).Contents (Elt F) → (⟨S1024, .i32⟩ : BufTy).Contents (Elt F) → (⟨S1024, .i1⟩ : BufTy).Contents (Elt F))
  :: StableHlo.binary main_v154 main_v156 main_v157 (andi : (⟨S1024, .i1⟩ : BufTy).Contents (Elt F) → (⟨S1024, .i1⟩ : BufTy).Contents (Elt F) → (⟨S1024, .i1⟩ : BufTy).Contents (Elt F))
  :: StableHlo.nullary main_c_52 (constantI S_ 32 0#32)
  :: StableHlo.nullary main_c_53 (constantI S_ 32 31#32)
  :: [] )
theorem chunks_14 : (hostOps0_14 : List (HloOp τ sig (Elt F))) = ck_14_a ++ ck_14_b ++ ck_14_c := rfl

set_option maxHeartbeats 40000000 in
/-- Stretch 20, before its concatenate. -/
abbrev ck_20_a : List (HloOp τ sig (Elt F)) :=
  ( StableHlo.nullary main_c_58 (constantI S_ 32 0#32)
  :: StableHlo.unary main_c_58 main_v164 (broadcastInDim S1024 ![] bcast_S_S1024 : (⟨S_, .i32⟩ : BufTy).Contents (Elt F) → (⟨S1024, .i32⟩ : BufTy).Contents (Elt F))
  :: StableHlo.binary main_v27 main_v164 main_v165 (cmpi .slt : (⟨S1024, .i32⟩ : BufTy).Contents (Elt F) → (⟨S1024, .i32⟩ : BufTy).Contents (Elt F) → (⟨S1024, .i1⟩ : BufTy).Contents (Elt F))
  :: StableHlo.nullary main_c_59 (constantI S_ 32 1024#32)
  :: StableHlo.unary main_c_59 main_v166 (broadcastInDim S1024 ![] bcast_S_S1024 : (⟨S_, .i32⟩ : BufTy).Contents (Elt F) → (⟨S1024, .i32⟩ : BufTy).Contents (Elt F))
  :: StableHlo.binary main_v27 main_v166 main_v167 (addi : (⟨S1024, .i32⟩ : BufTy).Contents (Elt F) → (⟨S1024, .i32⟩ : BufTy).Contents (Elt F) → (⟨S1024, .i32⟩ : BufTy).Contents (Elt F))
  :: StableHlo.ternary main_v165 main_v167 main_v27 main_v168 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_60 (constantI S_ 32 0#32)
  :: StableHlo.unary main_c_60 main_v169 (broadcastInDim S1024 ![] bcast_S_S1024 : (⟨S_, .i32⟩ : BufTy).Contents (Elt F) → (⟨S1024, .i32⟩ : BufTy).Contents (Elt F))
  :: StableHlo.binary main_v162 main_v169 main_v170 (cmpi .slt : (⟨S1024, .i32⟩ : BufTy).Contents (Elt F) → (⟨S1024, .i32⟩ : BufTy).Contents (Elt F) → (⟨S1024, .i1⟩ : BufTy).Contents (Elt F))
  :: StableHlo.nullary main_c_61 (constantI S_ 32 1024#32)
  :: StableHlo.unary main_c_61 main_v171 (broadcastInDim S1024 ![] bcast_S_S1024 : (⟨S_, .i32⟩ : BufTy).Contents (Elt F) → (⟨S1024, .i32⟩ : BufTy).Contents (Elt F))
  :: StableHlo.binary main_v162 main_v171 main_v172 (addi : (⟨S1024, .i32⟩ : BufTy).Contents (Elt F) → (⟨S1024, .i32⟩ : BufTy).Contents (Elt F) → (⟨S1024, .i32⟩ : BufTy).Contents (Elt F))
  :: StableHlo.ternary main_v170 main_v172 main_v162 main_v173 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v168 main_v174 (broadcastInDim S1024x1 ![0] bcast_S1024_S1024x1_0 : (⟨S1024, .i32⟩ : BufTy).Contents (Elt F) → (⟨S1024x1, .i32⟩ : BufTy).Contents (Elt F))
  :: StableHlo.unary main_v173 main_v175 (broadcastInDim S1024x1 ![0] bcast_S1024_S1024x1_0 : (⟨S1024, .i32⟩ : BufTy).Contents (Elt F) → (⟨S1024x1, .i32⟩ : BufTy).Contents (Elt F))
  :: [] )
/-- Stretch 20's concatenate. -/
abbrev ck_20_b : List (HloOp τ sig (Elt F)) :=
  ( StableHlo.binary main_v174 main_v175 main_v176 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 20, after its concatenate. -/
abbrev ck_20_c : List (HloOp τ sig (Elt F)) :=
  ( StableHlo.ternary main_v136 main_v176 main_v163 main_v177 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v178 (Host.negf : (⟨S16x1024, .f32⟩ : BufTy).Contents (Elt F) → (⟨S16x1024, .f32⟩ : BufTy).Contents (Elt F))
  :: StableHlo.nullary main_cst_62 (constant S_ .f32 0x3F800000#32)
  :: StableHlo.unary main_cst_62 main_v179 (broadcastInDim S16x1024 ![] bcast_S_S16x1024 : (⟨S_, .f32⟩ : BufTy).Contents (Elt F) → (⟨S16x1024, .f32⟩ : BufTy).Contents (Elt F))
  :: StableHlo.binary main_v178 main_v179 main_v180 (Host.divf : (⟨S16x1024, .f32⟩ : BufTy).Contents (Elt F) → (⟨S16x1024, .f32⟩ : BufTy).Contents (Elt F) → (⟨S16x1024, .f32⟩ : BufTy).Contents (Elt F))
  :: StableHlo.nullary main_cst_63 (constant S_ .f32 0x40000000#32)
  :: StableHlo.unary main_cst_63 main_v181 (broadcastInDim S16x1024 ![] bcast_S_S16x1024 : (⟨S_, .f32⟩ : BufTy).Contents (Elt F) → (⟨S16x1024, .f32⟩ : BufTy).Contents (Elt F))
  :: StableHlo.binary main_v21 main_v181 main_v182 (Host.divf : (⟨S16x1024, .f32⟩ : BufTy).Contents (Elt F) → (⟨S16x1024, .f32⟩ : BufTy).Contents (Elt F) → (⟨S16x1024, .f32⟩ : BufTy).Contents (Elt F))
  :: StableHlo.binary main_v180 main_v182 main_v183 (subf : (⟨S16x1024, .f32⟩ : BufTy).Contents (Elt F) → (⟨S16x1024, .f32⟩ : BufTy).Contents (Elt F) → (⟨S16x1024, .f32⟩ : BufTy).Contents (Elt F))
  :: StableHlo.nullary main_c_64 (constantI S_ 32 4294967295#32)
  :: StableHlo.unary main_c_64 main_v184 (broadcastInDim S1024 ![] bcast_S_S1024 : (⟨S_, .i32⟩ : BufTy).Contents (Elt F) → (⟨S1024, .i32⟩ : BufTy).Contents (Elt F))
  :: StableHlo.binary main_v26_0 main_v184 main_v185 (addi : (⟨S1024, .i32⟩ : BufTy).Contents (Elt F) → (⟨S1024, .i32⟩ : BufTy).Contents (Elt F) → (⟨S1024, .i32⟩ : BufTy).Contents (Elt F))
  :: StableHlo.nullary main_c_65 (constantI S_ 32 0#32)
  :: StableHlo.unary main_c_65 main_v186 (broadcastInDim S1024 ![] bcast_S_S1024 : (⟨S_, .i32⟩ : BufTy).Contents (Elt F) → (⟨S1024, .i32⟩ : BufTy).Contents (Elt F))
  :: StableHlo.binary main_v26_1 main_v186 main_v187 (addi : (⟨S1024, .i32⟩ : BufTy).Contents (Elt F) → (⟨S1024, .i32⟩ : BufTy).Contents (Elt F) → (⟨S1024, .i32⟩ : BufTy).Contents (Elt F))
  :: StableHlo.nullary main_c_66 (constantI S_ 32 0#32)
  :: StableHlo.unary main_c_66 main_v188 (broadcastInDim S1024 ![] bcast_S_S1024 : (⟨S_, .i32⟩ : BufTy).Contents (Elt F) → (⟨S1024, .i32⟩ : BufTy).Contents (Elt F))
  :: StableHlo.binary main_v185 main_v188 main_v189 (cmpi .sge : (⟨S1024, .i32⟩ : BufTy).Contents (Elt F) → (⟨S1024, .i32⟩ : BufTy).Contents (Elt F) → (⟨S1024, .i1⟩ : BufTy).Contents (Elt F))
  :: StableHlo.nullary main_c_67 (constantI S_ 32 32#32)
  :: StableHlo.unary main_c_67 main_v190 (broadcastInDim S1024 ![] bcast_S_S1024 : (⟨S_, .i32⟩ : BufTy).Contents (Elt F) → (⟨S1024, .i32⟩ : BufTy).Contents (Elt F))
  :: StableHlo.binary main_v185 main_v190 main_v191 (cmpi .slt : (⟨S1024, .i32⟩ : BufTy).Contents (Elt F) → (⟨S1024, .i32⟩ : BufTy).Contents (Elt F) → (⟨S1024, .i1⟩ : BufTy).Contents (Elt F))
  :: StableHlo.binary main_v189 main_v191 main_v192 (andi : (⟨S1024, .i1⟩ : BufTy).Contents (Elt F) → (⟨S1024, .i1⟩ : BufTy).Contents (Elt F) → (⟨S1024, .i1⟩ : BufTy).Contents (Elt F))
  :: StableHlo.nullary main_c_68 (constantI S_ 32 0#32)
  :: StableHlo.unary main_c_68 main_v193 (broadcastInDim S1024 ![] bcast_S_S1024 : (⟨S_, .i32⟩ : BufTy).Contents (Elt F) → (⟨S1024, .i32⟩ : BufTy).Contents (Elt F))
  :: StableHlo.binary main_v187 main_v193 main_v194 (cmpi .sge : (⟨S1024, .i32⟩ : BufTy).Contents (Elt F) → (⟨S1024, .i32⟩ : BufTy).Contents (Elt F) → (⟨S1024, .i1⟩ : BufTy).Contents (Elt F))
  :: StableHlo.binary main_v192 main_v194 main_v195 (andi : (⟨S1024, .i1⟩ : BufTy).Contents (Elt F) → (⟨S1024, .i1⟩ : BufTy).Contents (Elt F) → (⟨S1024, .i1⟩ : BufTy).Contents (Elt F))
  :: StableHlo.nullary main_c_69 (constantI S_ 32 32#32)
  :: StableHlo.unary main_c_69 main_v196 (broadcastInDim S1024 ![] bcast_S_S1024 : (⟨S_, .i32⟩ : BufTy).Contents (Elt F) → (⟨S1024, .i32⟩ : BufTy).Contents (Elt F))
  :: StableHlo.binary main_v187 main_v196 main_v197 (cmpi .slt : (⟨S1024, .i32⟩ : BufTy).Contents (Elt F) → (⟨S1024, .i32⟩ : BufTy).Contents (Elt F) → (⟨S1024, .i1⟩ : BufTy).Contents (Elt F))
  :: StableHlo.binary main_v195 main_v197 main_v198 (andi : (⟨S1024, .i1⟩ : BufTy).Contents (Elt F) → (⟨S1024, .i1⟩ : BufTy).Contents (Elt F) → (⟨S1024, .i1⟩ : BufTy).Contents (Elt F))
  :: StableHlo.nullary main_c_70 (constantI S_ 32 0#32)
  :: StableHlo.nullary main_c_71 (constantI S_ 32 31#32)
  :: [] )
theorem chunks_20 : (hostOps0_20 : List (HloOp τ sig (Elt F))) = ck_20_a ++ ck_20_b ++ ck_20_c := rfl

set_option maxHeartbeats 40000000 in
/-- Stretch 26, before its concatenate. -/
abbrev ck_26_a : List (HloOp τ sig (Elt F)) :=
  ( StableHlo.nullary main_c_76 (constantI S_ 32 0#32)
  :: StableHlo.unary main_c_76 main_v205 (broadcastInDim S1024 ![] bcast_S_S1024 : (⟨S_, .i32⟩ : BufTy).Contents (Elt F) → (⟨S1024, .i32⟩ : BufTy).Contents (Elt F))
  :: StableHlo.binary main_v27 main_v205 main_v206 (cmpi .slt : (⟨S1024, .i32⟩ : BufTy).Contents (Elt F) → (⟨S1024, .i32⟩ : BufTy).Contents (Elt F) → (⟨S1024, .i1⟩ : BufTy).Contents (Elt F))
  :: StableHlo.nullary main_c_77 (constantI S_ 32 1024#32)
  :: StableHlo.unary main_c_77 main_v207 (broadcastInDim S1024 ![] bcast_S_S1024 : (⟨S_, .i32⟩ : BufTy).Contents (Elt F) → (⟨S1024, .i32⟩ : BufTy).Contents (Elt F))
  :: StableHlo.binary main_v27 main_v207 main_v208 (addi : (⟨S1024, .i32⟩ : BufTy).Contents (Elt F) → (⟨S1024, .i32⟩ : BufTy).Contents (Elt F) → (⟨S1024, .i32⟩ : BufTy).Contents (Elt F))
  :: StableHlo.ternary main_v206 main_v208 main_v27 main_v209 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_78 (constantI S_ 32 0#32)
  :: StableHlo.unary main_c_78 main_v210 (broadcastInDim S1024 ![] bcast_S_S1024 : (⟨S_, .i32⟩ : BufTy).Contents (Elt F) → (⟨S1024, .i32⟩ : BufTy).Contents (Elt F))
  :: StableHlo.binary main_v203 main_v210 main_v211 (cmpi .slt : (⟨S1024, .i32⟩ : BufTy).Contents (Elt F) → (⟨S1024, .i32⟩ : BufTy).Contents (Elt F) → (⟨S1024, .i1⟩ : BufTy).Contents (Elt F))
  :: StableHlo.nullary main_c_79 (constantI S_ 32 1024#32)
  :: StableHlo.unary main_c_79 main_v212 (broadcastInDim S1024 ![] bcast_S_S1024 : (⟨S_, .i32⟩ : BufTy).Contents (Elt F) → (⟨S1024, .i32⟩ : BufTy).Contents (Elt F))
  :: StableHlo.binary main_v203 main_v212 main_v213 (addi : (⟨S1024, .i32⟩ : BufTy).Contents (Elt F) → (⟨S1024, .i32⟩ : BufTy).Contents (Elt F) → (⟨S1024, .i32⟩ : BufTy).Contents (Elt F))
  :: StableHlo.ternary main_v211 main_v213 main_v203 main_v214 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v209 main_v215 (broadcastInDim S1024x1 ![0] bcast_S1024_S1024x1_0 : (⟨S1024, .i32⟩ : BufTy).Contents (Elt F) → (⟨S1024x1, .i32⟩ : BufTy).Contents (Elt F))
  :: StableHlo.unary main_v214 main_v216 (broadcastInDim S1024x1 ![0] bcast_S1024_S1024x1_0 : (⟨S1024, .i32⟩ : BufTy).Contents (Elt F) → (⟨S1024x1, .i32⟩ : BufTy).Contents (Elt F))
  :: [] )
/-- Stretch 26's concatenate. -/
abbrev ck_26_b : List (HloOp τ sig (Elt F)) :=
  ( StableHlo.binary main_v215 main_v216 main_v217 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 26, after its concatenate. -/
abbrev ck_26_c : List (HloOp τ sig (Elt F)) :=
  ( StableHlo.ternary main_v177 main_v217 main_v204 main_v218 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_cst_80 (constant S_ .f32 0x40000000#32)
  :: StableHlo.unary main_cst_80 main_v219 (broadcastInDim S16x1024 ![] bcast_S_S16x1024 : (⟨S_, .f32⟩ : BufTy).Contents (Elt F) → (⟨S16x1024, .f32⟩ : BufTy).Contents (Elt F))
  :: StableHlo.binary main_v23 main_v219 main_v220 (Host.divf : (⟨S16x1024, .f32⟩ : BufTy).Contents (Elt F) → (⟨S16x1024, .f32⟩ : BufTy).Contents (Elt F) → (⟨S16x1024, .f32⟩ : BufTy).Contents (Elt F))
  :: StableHlo.unary main_v220 main_v221 (Host.negf : (⟨S16x1024, .f32⟩ : BufTy).Contents (Elt F) → (⟨S16x1024, .f32⟩ : BufTy).Contents (Elt F))
  :: StableHlo.nullary main_c_81 (constantI S_ 32 1#32)
  :: StableHlo.unary main_c_81 main_v222 (broadcastInDim S1024 ![] bcast_S_S1024 : (⟨S_, .i32⟩ : BufTy).Contents (Elt F) → (⟨S1024, .i32⟩ : BufTy).Contents (Elt F))
  :: StableHlo.binary main_v26_0 main_v222 main_v223 (addi : (⟨S1024, .i32⟩ : BufTy).Contents (Elt F) → (⟨S1024, .i32⟩ : BufTy).Contents (Elt F) → (⟨S1024, .i32⟩ : BufTy).Contents (Elt F))
  :: StableHlo.nullary main_c_82 (constantI S_ 32 1#32)
  :: StableHlo.unary main_c_82 main_v224 (broadcastInDim S1024 ![] bcast_S_S1024 : (⟨S_, .i32⟩ : BufTy).Contents (Elt F) → (⟨S1024, .i32⟩ : BufTy).Contents (Elt F))
  :: StableHlo.binary main_v26_1 main_v224 main_v225 (addi : (⟨S1024, .i32⟩ : BufTy).Contents (Elt F) → (⟨S1024, .i32⟩ : BufTy).Contents (Elt F) → (⟨S1024, .i32⟩ : BufTy).Contents (Elt F))
  :: StableHlo.nullary main_c_83 (constantI S_ 32 0#32)
  :: StableHlo.unary main_c_83 main_v226 (broadcastInDim S1024 ![] bcast_S_S1024 : (⟨S_, .i32⟩ : BufTy).Contents (Elt F) → (⟨S1024, .i32⟩ : BufTy).Contents (Elt F))
  :: StableHlo.binary main_v223 main_v226 main_v227 (cmpi .sge : (⟨S1024, .i32⟩ : BufTy).Contents (Elt F) → (⟨S1024, .i32⟩ : BufTy).Contents (Elt F) → (⟨S1024, .i1⟩ : BufTy).Contents (Elt F))
  :: StableHlo.nullary main_c_84 (constantI S_ 32 32#32)
  :: StableHlo.unary main_c_84 main_v228 (broadcastInDim S1024 ![] bcast_S_S1024 : (⟨S_, .i32⟩ : BufTy).Contents (Elt F) → (⟨S1024, .i32⟩ : BufTy).Contents (Elt F))
  :: StableHlo.binary main_v223 main_v228 main_v229 (cmpi .slt : (⟨S1024, .i32⟩ : BufTy).Contents (Elt F) → (⟨S1024, .i32⟩ : BufTy).Contents (Elt F) → (⟨S1024, .i1⟩ : BufTy).Contents (Elt F))
  :: StableHlo.binary main_v227 main_v229 main_v230 (andi : (⟨S1024, .i1⟩ : BufTy).Contents (Elt F) → (⟨S1024, .i1⟩ : BufTy).Contents (Elt F) → (⟨S1024, .i1⟩ : BufTy).Contents (Elt F))
  :: StableHlo.nullary main_c_85 (constantI S_ 32 0#32)
  :: StableHlo.unary main_c_85 main_v231 (broadcastInDim S1024 ![] bcast_S_S1024 : (⟨S_, .i32⟩ : BufTy).Contents (Elt F) → (⟨S1024, .i32⟩ : BufTy).Contents (Elt F))
  :: StableHlo.binary main_v225 main_v231 main_v232 (cmpi .sge : (⟨S1024, .i32⟩ : BufTy).Contents (Elt F) → (⟨S1024, .i32⟩ : BufTy).Contents (Elt F) → (⟨S1024, .i1⟩ : BufTy).Contents (Elt F))
  :: StableHlo.binary main_v230 main_v232 main_v233 (andi : (⟨S1024, .i1⟩ : BufTy).Contents (Elt F) → (⟨S1024, .i1⟩ : BufTy).Contents (Elt F) → (⟨S1024, .i1⟩ : BufTy).Contents (Elt F))
  :: StableHlo.nullary main_c_86 (constantI S_ 32 32#32)
  :: StableHlo.unary main_c_86 main_v234 (broadcastInDim S1024 ![] bcast_S_S1024 : (⟨S_, .i32⟩ : BufTy).Contents (Elt F) → (⟨S1024, .i32⟩ : BufTy).Contents (Elt F))
  :: StableHlo.binary main_v225 main_v234 main_v235 (cmpi .slt : (⟨S1024, .i32⟩ : BufTy).Contents (Elt F) → (⟨S1024, .i32⟩ : BufTy).Contents (Elt F) → (⟨S1024, .i1⟩ : BufTy).Contents (Elt F))
  :: StableHlo.binary main_v233 main_v235 main_v236 (andi : (⟨S1024, .i1⟩ : BufTy).Contents (Elt F) → (⟨S1024, .i1⟩ : BufTy).Contents (Elt F) → (⟨S1024, .i1⟩ : BufTy).Contents (Elt F))
  :: StableHlo.nullary main_c_87 (constantI S_ 32 0#32)
  :: StableHlo.nullary main_c_88 (constantI S_ 32 31#32)
  :: [] )
theorem chunks_26 : (hostOps0_26 : List (HloOp τ sig (Elt F))) = ck_26_a ++ ck_26_b ++ ck_26_c := rfl

set_option maxHeartbeats 40000000 in
/-- Stretch 32, before its concatenate. -/
abbrev ck_32_a : List (HloOp τ sig (Elt F)) :=
  ( StableHlo.nullary main_c_93 (constantI S_ 32 0#32)
  :: StableHlo.unary main_c_93 main_v243 (broadcastInDim S1024 ![] bcast_S_S1024 : (⟨S_, .i32⟩ : BufTy).Contents (Elt F) → (⟨S1024, .i32⟩ : BufTy).Contents (Elt F))
  :: StableHlo.binary main_v27 main_v243 main_v244 (cmpi .slt : (⟨S1024, .i32⟩ : BufTy).Contents (Elt F) → (⟨S1024, .i32⟩ : BufTy).Contents (Elt F) → (⟨S1024, .i1⟩ : BufTy).Contents (Elt F))
  :: StableHlo.nullary main_c_94 (constantI S_ 32 1024#32)
  :: StableHlo.unary main_c_94 main_v245 (broadcastInDim S1024 ![] bcast_S_S1024 : (⟨S_, .i32⟩ : BufTy).Contents (Elt F) → (⟨S1024, .i32⟩ : BufTy).Contents (Elt F))
  :: StableHlo.binary main_v27 main_v245 main_v246 (addi : (⟨S1024, .i32⟩ : BufTy).Contents (Elt F) → (⟨S1024, .i32⟩ : BufTy).Contents (Elt F) → (⟨S1024, .i32⟩ : BufTy).Contents (Elt F))
  :: StableHlo.ternary main_v244 main_v246 main_v27 main_v247 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_95 (constantI S_ 32 0#32)
  :: StableHlo.unary main_c_95 main_v248 (broadcastInDim S1024 ![] bcast_S_S1024 : (⟨S_, .i32⟩ : BufTy).Contents (Elt F) → (⟨S1024, .i32⟩ : BufTy).Contents (Elt F))
  :: StableHlo.binary main_v241 main_v248 main_v249 (cmpi .slt : (⟨S1024, .i32⟩ : BufTy).Contents (Elt F) → (⟨S1024, .i32⟩ : BufTy).Contents (Elt F) → (⟨S1024, .i1⟩ : BufTy).Contents (Elt F))
  :: StableHlo.nullary main_c_96 (constantI S_ 32 1024#32)
  :: StableHlo.unary main_c_96 main_v250 (broadcastInDim S1024 ![] bcast_S_S1024 : (⟨S_, .i32⟩ : BufTy).Contents (Elt F) → (⟨S1024, .i32⟩ : BufTy).Contents (Elt F))
  :: StableHlo.binary main_v241 main_v250 main_v251 (addi : (⟨S1024, .i32⟩ : BufTy).Contents (Elt F) → (⟨S1024, .i32⟩ : BufTy).Contents (Elt F) → (⟨S1024, .i32⟩ : BufTy).Contents (Elt F))
  :: StableHlo.ternary main_v249 main_v251 main_v241 main_v252 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v247 main_v253 (broadcastInDim S1024x1 ![0] bcast_S1024_S1024x1_0 : (⟨S1024, .i32⟩ : BufTy).Contents (Elt F) → (⟨S1024x1, .i32⟩ : BufTy).Contents (Elt F))
  :: StableHlo.unary main_v252 main_v254 (broadcastInDim S1024x1 ![0] bcast_S1024_S1024x1_0 : (⟨S1024, .i32⟩ : BufTy).Contents (Elt F) → (⟨S1024x1, .i32⟩ : BufTy).Contents (Elt F))
  :: [] )
/-- Stretch 32's concatenate. -/
abbrev ck_32_b : List (HloOp τ sig (Elt F)) :=
  ( StableHlo.binary main_v253 main_v254 main_v255 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 32, after its concatenate. -/
abbrev ck_32_c : List (HloOp τ sig (Elt F)) :=
  ( StableHlo.ternary main_v218 main_v255 main_v242 main_v256 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v220 main_v257 (Host.negf : (⟨S16x1024, .f32⟩ : BufTy).Contents (Elt F) → (⟨S16x1024, .f32⟩ : BufTy).Contents (Elt F))
  :: StableHlo.nullary main_c_97 (constantI S_ 32 4294967295#32)
  :: StableHlo.unary main_c_97 main_v258 (broadcastInDim S1024 ![] bcast_S_S1024 : (⟨S_, .i32⟩ : BufTy).Contents (Elt F) → (⟨S1024, .i32⟩ : BufTy).Contents (Elt F))
  :: StableHlo.binary main_v26_0 main_v258 main_v259 (addi : (⟨S1024, .i32⟩ : BufTy).Contents (Elt F) → (⟨S1024, .i32⟩ : BufTy).Contents (Elt F) → (⟨S1024, .i32⟩ : BufTy).Contents (Elt F))
  :: StableHlo.nullary main_c_98 (constantI S_ 32 4294967295#32)
  :: StableHlo.unary main_c_98 main_v260 (broadcastInDim S1024 ![] bcast_S_S1024 : (⟨S_, .i32⟩ : BufTy).Contents (Elt F) → (⟨S1024, .i32⟩ : BufTy).Contents (Elt F))
  :: StableHlo.binary main_v26_1 main_v260 main_v261 (addi : (⟨S1024, .i32⟩ : BufTy).Contents (Elt F) → (⟨S1024, .i32⟩ : BufTy).Contents (Elt F) → (⟨S1024, .i32⟩ : BufTy).Contents (Elt F))
  :: StableHlo.nullary main_c_99 (constantI S_ 32 0#32)
  :: StableHlo.unary main_c_99 main_v262 (broadcastInDim S1024 ![] bcast_S_S1024 : (⟨S_, .i32⟩ : BufTy).Contents (Elt F) → (⟨S1024, .i32⟩ : BufTy).Contents (Elt F))
  :: StableHlo.binary main_v259 main_v262 main_v263 (cmpi .sge : (⟨S1024, .i32⟩ : BufTy).Contents (Elt F) → (⟨S1024, .i32⟩ : BufTy).Contents (Elt F) → (⟨S1024, .i1⟩ : BufTy).Contents (Elt F))
  :: StableHlo.nullary main_c_100 (constantI S_ 32 32#32)
  :: StableHlo.unary main_c_100 main_v264 (broadcastInDim S1024 ![] bcast_S_S1024 : (⟨S_, .i32⟩ : BufTy).Contents (Elt F) → (⟨S1024, .i32⟩ : BufTy).Contents (Elt F))
  :: StableHlo.binary main_v259 main_v264 main_v265 (cmpi .slt : (⟨S1024, .i32⟩ : BufTy).Contents (Elt F) → (⟨S1024, .i32⟩ : BufTy).Contents (Elt F) → (⟨S1024, .i1⟩ : BufTy).Contents (Elt F))
  :: StableHlo.binary main_v263 main_v265 main_v266 (andi : (⟨S1024, .i1⟩ : BufTy).Contents (Elt F) → (⟨S1024, .i1⟩ : BufTy).Contents (Elt F) → (⟨S1024, .i1⟩ : BufTy).Contents (Elt F))
  :: StableHlo.nullary main_c_101 (constantI S_ 32 0#32)
  :: StableHlo.unary main_c_101 main_v267 (broadcastInDim S1024 ![] bcast_S_S1024 : (⟨S_, .i32⟩ : BufTy).Contents (Elt F) → (⟨S1024, .i32⟩ : BufTy).Contents (Elt F))
  :: StableHlo.binary main_v261 main_v267 main_v268 (cmpi .sge : (⟨S1024, .i32⟩ : BufTy).Contents (Elt F) → (⟨S1024, .i32⟩ : BufTy).Contents (Elt F) → (⟨S1024, .i1⟩ : BufTy).Contents (Elt F))
  :: StableHlo.binary main_v266 main_v268 main_v269 (andi : (⟨S1024, .i1⟩ : BufTy).Contents (Elt F) → (⟨S1024, .i1⟩ : BufTy).Contents (Elt F) → (⟨S1024, .i1⟩ : BufTy).Contents (Elt F))
  :: StableHlo.nullary main_c_102 (constantI S_ 32 32#32)
  :: StableHlo.unary main_c_102 main_v270 (broadcastInDim S1024 ![] bcast_S_S1024 : (⟨S_, .i32⟩ : BufTy).Contents (Elt F) → (⟨S1024, .i32⟩ : BufTy).Contents (Elt F))
  :: StableHlo.binary main_v261 main_v270 main_v271 (cmpi .slt : (⟨S1024, .i32⟩ : BufTy).Contents (Elt F) → (⟨S1024, .i32⟩ : BufTy).Contents (Elt F) → (⟨S1024, .i1⟩ : BufTy).Contents (Elt F))
  :: StableHlo.binary main_v269 main_v271 main_v272 (andi : (⟨S1024, .i1⟩ : BufTy).Contents (Elt F) → (⟨S1024, .i1⟩ : BufTy).Contents (Elt F) → (⟨S1024, .i1⟩ : BufTy).Contents (Elt F))
  :: StableHlo.nullary main_c_103 (constantI S_ 32 0#32)
  :: StableHlo.nullary main_c_104 (constantI S_ 32 31#32)
  :: [] )
theorem chunks_32 : (hostOps0_32 : List (HloOp τ sig (Elt F))) = ck_32_a ++ ck_32_b ++ ck_32_c := rfl

set_option maxHeartbeats 40000000 in
/-- Stretch 38, before its concatenate. -/
abbrev ck_38_a : List (HloOp τ sig (Elt F)) :=
  ( StableHlo.nullary main_c_109 (constantI S_ 32 0#32)
  :: StableHlo.unary main_c_109 main_v279 (broadcastInDim S1024 ![] bcast_S_S1024 : (⟨S_, .i32⟩ : BufTy).Contents (Elt F) → (⟨S1024, .i32⟩ : BufTy).Contents (Elt F))
  :: StableHlo.binary main_v27 main_v279 main_v280 (cmpi .slt : (⟨S1024, .i32⟩ : BufTy).Contents (Elt F) → (⟨S1024, .i32⟩ : BufTy).Contents (Elt F) → (⟨S1024, .i1⟩ : BufTy).Contents (Elt F))
  :: StableHlo.nullary main_c_110 (constantI S_ 32 1024#32)
  :: StableHlo.unary main_c_110 main_v281 (broadcastInDim S1024 ![] bcast_S_S1024 : (⟨S_, .i32⟩ : BufTy).Contents (Elt F) → (⟨S1024, .i32⟩ : BufTy).Contents (Elt F))
  :: StableHlo.binary main_v27 main_v281 main_v282 (addi : (⟨S1024, .i32⟩ : BufTy).Contents (Elt F) → (⟨S1024, .i32⟩ : BufTy).Contents (Elt F) → (⟨S1024, .i32⟩ : BufTy).Contents (Elt F))
  :: StableHlo.ternary main_v280 main_v282 main_v27 main_v283 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_111 (constantI S_ 32 0#32)
  :: StableHlo.unary main_c_111 main_v284 (broadcastInDim S1024 ![] bcast_S_S1024 : (⟨S_, .i32⟩ : BufTy).Contents (Elt F) → (⟨S1024, .i32⟩ : BufTy).Contents (Elt F))
  :: StableHlo.binary main_v277 main_v284 main_v285 (cmpi .slt : (⟨S1024, .i32⟩ : BufTy).Contents (Elt F) → (⟨S1024, .i32⟩ : BufTy).Contents (Elt F) → (⟨S1024, .i1⟩ : BufTy).Contents (Elt F))
  :: StableHlo.nullary main_c_112 (constantI S_ 32 1024#32)
  :: StableHlo.unary main_c_112 main_v286 (broadcastInDim S1024 ![] bcast_S_S1024 : (⟨S_, .i32⟩ : BufTy).Contents (Elt F) → (⟨S1024, .i32⟩ : BufTy).Contents (Elt F))
  :: StableHlo.binary main_v277 main_v286 main_v287 (addi : (⟨S1024, .i32⟩ : BufTy).Contents (Elt F) → (⟨S1024, .i32⟩ : BufTy).Contents (Elt F) → (⟨S1024, .i32⟩ : BufTy).Contents (Elt F))
  :: StableHlo.ternary main_v285 main_v287 main_v277 main_v288 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v283 main_v289 (broadcastInDim S1024x1 ![0] bcast_S1024_S1024x1_0 : (⟨S1024, .i32⟩ : BufTy).Contents (Elt F) → (⟨S1024x1, .i32⟩ : BufTy).Contents (Elt F))
  :: StableHlo.unary main_v288 main_v290 (broadcastInDim S1024x1 ![0] bcast_S1024_S1024x1_0 : (⟨S1024, .i32⟩ : BufTy).Contents (Elt F) → (⟨S1024x1, .i32⟩ : BufTy).Contents (Elt F))
  :: [] )
/-- Stretch 38's concatenate. -/
abbrev ck_38_b : List (HloOp τ sig (Elt F)) :=
  ( StableHlo.binary main_v289 main_v290 main_v291 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 38, after its concatenate. -/
abbrev ck_38_c : List (HloOp τ sig (Elt F)) :=
  ( StableHlo.ternary main_v256 main_v291 main_v278 main_v292 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_c_113 (constantI S_ 32 1#32)
  :: StableHlo.unary main_c_113 main_v293 (broadcastInDim S1024 ![] bcast_S_S1024 : (⟨S_, .i32⟩ : BufTy).Contents (Elt F) → (⟨S1024, .i32⟩ : BufTy).Contents (Elt F))
  :: StableHlo.binary main_v26_0 main_v293 main_v294 (addi : (⟨S1024, .i32⟩ : BufTy).Contents (Elt F) → (⟨S1024, .i32⟩ : BufTy).Contents (Elt F) → (⟨S1024, .i32⟩ : BufTy).Contents (Elt F))
  :: StableHlo.nullary main_c_114 (constantI S_ 32 4294967295#32)
  :: StableHlo.unary main_c_114 main_v295 (broadcastInDim S1024 ![] bcast_S_S1024 : (⟨S_, .i32⟩ : BufTy).Contents (Elt F) → (⟨S1024, .i32⟩ : BufTy).Contents (Elt F))
  :: StableHlo.binary main_v26_1 main_v295 main_v296 (addi : (⟨S1024, .i32⟩ : BufTy).Contents (Elt F) → (⟨S1024, .i32⟩ : BufTy).Contents (Elt F) → (⟨S1024, .i32⟩ : BufTy).Contents (Elt F))
  :: StableHlo.nullary main_c_115 (constantI S_ 32 0#32)
  :: StableHlo.unary main_c_115 main_v297 (broadcastInDim S1024 ![] bcast_S_S1024 : (⟨S_, .i32⟩ : BufTy).Contents (Elt F) → (⟨S1024, .i32⟩ : BufTy).Contents (Elt F))
  :: StableHlo.binary main_v294 main_v297 main_v298 (cmpi .sge : (⟨S1024, .i32⟩ : BufTy).Contents (Elt F) → (⟨S1024, .i32⟩ : BufTy).Contents (Elt F) → (⟨S1024, .i1⟩ : BufTy).Contents (Elt F))
  :: StableHlo.nullary main_c_116 (constantI S_ 32 32#32)
  :: StableHlo.unary main_c_116 main_v299 (broadcastInDim S1024 ![] bcast_S_S1024 : (⟨S_, .i32⟩ : BufTy).Contents (Elt F) → (⟨S1024, .i32⟩ : BufTy).Contents (Elt F))
  :: StableHlo.binary main_v294 main_v299 main_v300 (cmpi .slt : (⟨S1024, .i32⟩ : BufTy).Contents (Elt F) → (⟨S1024, .i32⟩ : BufTy).Contents (Elt F) → (⟨S1024, .i1⟩ : BufTy).Contents (Elt F))
  :: StableHlo.binary main_v298 main_v300 main_v301 (andi : (⟨S1024, .i1⟩ : BufTy).Contents (Elt F) → (⟨S1024, .i1⟩ : BufTy).Contents (Elt F) → (⟨S1024, .i1⟩ : BufTy).Contents (Elt F))
  :: StableHlo.nullary main_c_117 (constantI S_ 32 0#32)
  :: StableHlo.unary main_c_117 main_v302 (broadcastInDim S1024 ![] bcast_S_S1024 : (⟨S_, .i32⟩ : BufTy).Contents (Elt F) → (⟨S1024, .i32⟩ : BufTy).Contents (Elt F))
  :: StableHlo.binary main_v296 main_v302 main_v303 (cmpi .sge : (⟨S1024, .i32⟩ : BufTy).Contents (Elt F) → (⟨S1024, .i32⟩ : BufTy).Contents (Elt F) → (⟨S1024, .i1⟩ : BufTy).Contents (Elt F))
  :: StableHlo.binary main_v301 main_v303 main_v304 (andi : (⟨S1024, .i1⟩ : BufTy).Contents (Elt F) → (⟨S1024, .i1⟩ : BufTy).Contents (Elt F) → (⟨S1024, .i1⟩ : BufTy).Contents (Elt F))
  :: StableHlo.nullary main_c_118 (constantI S_ 32 32#32)
  :: StableHlo.unary main_c_118 main_v305 (broadcastInDim S1024 ![] bcast_S_S1024 : (⟨S_, .i32⟩ : BufTy).Contents (Elt F) → (⟨S1024, .i32⟩ : BufTy).Contents (Elt F))
  :: StableHlo.binary main_v296 main_v305 main_v306 (cmpi .slt : (⟨S1024, .i32⟩ : BufTy).Contents (Elt F) → (⟨S1024, .i32⟩ : BufTy).Contents (Elt F) → (⟨S1024, .i1⟩ : BufTy).Contents (Elt F))
  :: StableHlo.binary main_v304 main_v306 main_v307 (andi : (⟨S1024, .i1⟩ : BufTy).Contents (Elt F) → (⟨S1024, .i1⟩ : BufTy).Contents (Elt F) → (⟨S1024, .i1⟩ : BufTy).Contents (Elt F))
  :: StableHlo.nullary main_c_119 (constantI S_ 32 0#32)
  :: StableHlo.nullary main_c_120 (constantI S_ 32 31#32)
  :: [] )
theorem chunks_38 : (hostOps0_38 : List (HloOp τ sig (Elt F))) = ck_38_a ++ ck_38_b ++ ck_38_c := rfl

set_option maxHeartbeats 40000000 in
/-- Stretch 44, before its concatenate. -/
abbrev ck_44_a : List (HloOp τ sig (Elt F)) :=
  ( StableHlo.nullary main_c_125 (constantI S_ 32 0#32)
  :: StableHlo.unary main_c_125 main_v314 (broadcastInDim S1024 ![] bcast_S_S1024 : (⟨S_, .i32⟩ : BufTy).Contents (Elt F) → (⟨S1024, .i32⟩ : BufTy).Contents (Elt F))
  :: StableHlo.binary main_v27 main_v314 main_v315 (cmpi .slt : (⟨S1024, .i32⟩ : BufTy).Contents (Elt F) → (⟨S1024, .i32⟩ : BufTy).Contents (Elt F) → (⟨S1024, .i1⟩ : BufTy).Contents (Elt F))
  :: StableHlo.nullary main_c_126 (constantI S_ 32 1024#32)
  :: StableHlo.unary main_c_126 main_v316 (broadcastInDim S1024 ![] bcast_S_S1024 : (⟨S_, .i32⟩ : BufTy).Contents (Elt F) → (⟨S1024, .i32⟩ : BufTy).Contents (Elt F))
  :: StableHlo.binary main_v27 main_v316 main_v317 (addi : (⟨S1024, .i32⟩ : BufTy).Contents (Elt F) → (⟨S1024, .i32⟩ : BufTy).Contents (Elt F) → (⟨S1024, .i32⟩ : BufTy).Contents (Elt F))
  :: StableHlo.ternary main_v315 main_v317 main_v27 main_v318 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_127 (constantI S_ 32 0#32)
  :: StableHlo.unary main_c_127 main_v319 (broadcastInDim S1024 ![] bcast_S_S1024 : (⟨S_, .i32⟩ : BufTy).Contents (Elt F) → (⟨S1024, .i32⟩ : BufTy).Contents (Elt F))
  :: StableHlo.binary main_v312 main_v319 main_v320 (cmpi .slt : (⟨S1024, .i32⟩ : BufTy).Contents (Elt F) → (⟨S1024, .i32⟩ : BufTy).Contents (Elt F) → (⟨S1024, .i1⟩ : BufTy).Contents (Elt F))
  :: StableHlo.nullary main_c_128 (constantI S_ 32 1024#32)
  :: StableHlo.unary main_c_128 main_v321 (broadcastInDim S1024 ![] bcast_S_S1024 : (⟨S_, .i32⟩ : BufTy).Contents (Elt F) → (⟨S1024, .i32⟩ : BufTy).Contents (Elt F))
  :: StableHlo.binary main_v312 main_v321 main_v322 (addi : (⟨S1024, .i32⟩ : BufTy).Contents (Elt F) → (⟨S1024, .i32⟩ : BufTy).Contents (Elt F) → (⟨S1024, .i32⟩ : BufTy).Contents (Elt F))
  :: StableHlo.ternary main_v320 main_v322 main_v312 main_v323 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v318 main_v324 (broadcastInDim S1024x1 ![0] bcast_S1024_S1024x1_0 : (⟨S1024, .i32⟩ : BufTy).Contents (Elt F) → (⟨S1024x1, .i32⟩ : BufTy).Contents (Elt F))
  :: StableHlo.unary main_v323 main_v325 (broadcastInDim S1024x1 ![0] bcast_S1024_S1024x1_0 : (⟨S1024, .i32⟩ : BufTy).Contents (Elt F) → (⟨S1024x1, .i32⟩ : BufTy).Contents (Elt F))
  :: [] )
/-- Stretch 44's concatenate. -/
abbrev ck_44_b : List (HloOp τ sig (Elt F)) :=
  ( StableHlo.binary main_v324 main_v325 main_v326 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 44, after its concatenate. -/
abbrev ck_44_c : List (HloOp τ sig (Elt F)) :=
  ( StableHlo.ternary main_v292 main_v326 main_v313 main_v327 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_c_129 (constantI S_ 32 4294967295#32)
  :: StableHlo.unary main_c_129 main_v328 (broadcastInDim S1024 ![] bcast_S_S1024 : (⟨S_, .i32⟩ : BufTy).Contents (Elt F) → (⟨S1024, .i32⟩ : BufTy).Contents (Elt F))
  :: StableHlo.binary main_v26_0 main_v328 main_v329 (addi : (⟨S1024, .i32⟩ : BufTy).Contents (Elt F) → (⟨S1024, .i32⟩ : BufTy).Contents (Elt F) → (⟨S1024, .i32⟩ : BufTy).Contents (Elt F))
  :: StableHlo.nullary main_c_130 (constantI S_ 32 1#32)
  :: StableHlo.unary main_c_130 main_v330 (broadcastInDim S1024 ![] bcast_S_S1024 : (⟨S_, .i32⟩ : BufTy).Contents (Elt F) → (⟨S1024, .i32⟩ : BufTy).Contents (Elt F))
  :: StableHlo.binary main_v26_1 main_v330 main_v331 (addi : (⟨S1024, .i32⟩ : BufTy).Contents (Elt F) → (⟨S1024, .i32⟩ : BufTy).Contents (Elt F) → (⟨S1024, .i32⟩ : BufTy).Contents (Elt F))
  :: StableHlo.nullary main_c_131 (constantI S_ 32 0#32)
  :: StableHlo.unary main_c_131 main_v332 (broadcastInDim S1024 ![] bcast_S_S1024 : (⟨S_, .i32⟩ : BufTy).Contents (Elt F) → (⟨S1024, .i32⟩ : BufTy).Contents (Elt F))
  :: StableHlo.binary main_v329 main_v332 main_v333 (cmpi .sge : (⟨S1024, .i32⟩ : BufTy).Contents (Elt F) → (⟨S1024, .i32⟩ : BufTy).Contents (Elt F) → (⟨S1024, .i1⟩ : BufTy).Contents (Elt F))
  :: StableHlo.nullary main_c_132 (constantI S_ 32 32#32)
  :: StableHlo.unary main_c_132 main_v334 (broadcastInDim S1024 ![] bcast_S_S1024 : (⟨S_, .i32⟩ : BufTy).Contents (Elt F) → (⟨S1024, .i32⟩ : BufTy).Contents (Elt F))
  :: StableHlo.binary main_v329 main_v334 main_v335 (cmpi .slt : (⟨S1024, .i32⟩ : BufTy).Contents (Elt F) → (⟨S1024, .i32⟩ : BufTy).Contents (Elt F) → (⟨S1024, .i1⟩ : BufTy).Contents (Elt F))
  :: StableHlo.binary main_v333 main_v335 main_v336 (andi : (⟨S1024, .i1⟩ : BufTy).Contents (Elt F) → (⟨S1024, .i1⟩ : BufTy).Contents (Elt F) → (⟨S1024, .i1⟩ : BufTy).Contents (Elt F))
  :: StableHlo.nullary main_c_133 (constantI S_ 32 0#32)
  :: StableHlo.unary main_c_133 main_v337 (broadcastInDim S1024 ![] bcast_S_S1024 : (⟨S_, .i32⟩ : BufTy).Contents (Elt F) → (⟨S1024, .i32⟩ : BufTy).Contents (Elt F))
  :: StableHlo.binary main_v331 main_v337 main_v338 (cmpi .sge : (⟨S1024, .i32⟩ : BufTy).Contents (Elt F) → (⟨S1024, .i32⟩ : BufTy).Contents (Elt F) → (⟨S1024, .i1⟩ : BufTy).Contents (Elt F))
  :: StableHlo.binary main_v336 main_v338 main_v339 (andi : (⟨S1024, .i1⟩ : BufTy).Contents (Elt F) → (⟨S1024, .i1⟩ : BufTy).Contents (Elt F) → (⟨S1024, .i1⟩ : BufTy).Contents (Elt F))
  :: StableHlo.nullary main_c_134 (constantI S_ 32 32#32)
  :: StableHlo.unary main_c_134 main_v340 (broadcastInDim S1024 ![] bcast_S_S1024 : (⟨S_, .i32⟩ : BufTy).Contents (Elt F) → (⟨S1024, .i32⟩ : BufTy).Contents (Elt F))
  :: StableHlo.binary main_v331 main_v340 main_v341 (cmpi .slt : (⟨S1024, .i32⟩ : BufTy).Contents (Elt F) → (⟨S1024, .i32⟩ : BufTy).Contents (Elt F) → (⟨S1024, .i1⟩ : BufTy).Contents (Elt F))
  :: StableHlo.binary main_v339 main_v341 main_v342 (andi : (⟨S1024, .i1⟩ : BufTy).Contents (Elt F) → (⟨S1024, .i1⟩ : BufTy).Contents (Elt F) → (⟨S1024, .i1⟩ : BufTy).Contents (Elt F))
  :: StableHlo.nullary main_c_135 (constantI S_ 32 0#32)
  :: StableHlo.nullary main_c_136 (constantI S_ 32 31#32)
  :: [] )
theorem chunks_44 : (hostOps0_44 : List (HloOp τ sig (Elt F))) = ck_44_a ++ ck_44_b ++ ck_44_c := rfl

set_option maxHeartbeats 40000000 in
/-- Stretch 50, before its concatenate. -/
abbrev ck_50_a : List (HloOp τ sig (Elt F)) :=
  ( StableHlo.nullary main_c_141 (constantI S_ 32 0#32)
  :: StableHlo.unary main_c_141 main_v349 (broadcastInDim S1024 ![] bcast_S_S1024 : (⟨S_, .i32⟩ : BufTy).Contents (Elt F) → (⟨S1024, .i32⟩ : BufTy).Contents (Elt F))
  :: StableHlo.binary main_v27 main_v349 main_v350 (cmpi .slt : (⟨S1024, .i32⟩ : BufTy).Contents (Elt F) → (⟨S1024, .i32⟩ : BufTy).Contents (Elt F) → (⟨S1024, .i1⟩ : BufTy).Contents (Elt F))
  :: StableHlo.nullary main_c_142 (constantI S_ 32 1024#32)
  :: StableHlo.unary main_c_142 main_v351 (broadcastInDim S1024 ![] bcast_S_S1024 : (⟨S_, .i32⟩ : BufTy).Contents (Elt F) → (⟨S1024, .i32⟩ : BufTy).Contents (Elt F))
  :: StableHlo.binary main_v27 main_v351 main_v352 (addi : (⟨S1024, .i32⟩ : BufTy).Contents (Elt F) → (⟨S1024, .i32⟩ : BufTy).Contents (Elt F) → (⟨S1024, .i32⟩ : BufTy).Contents (Elt F))
  :: StableHlo.ternary main_v350 main_v352 main_v27 main_v353 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_143 (constantI S_ 32 0#32)
  :: StableHlo.unary main_c_143 main_v354 (broadcastInDim S1024 ![] bcast_S_S1024 : (⟨S_, .i32⟩ : BufTy).Contents (Elt F) → (⟨S1024, .i32⟩ : BufTy).Contents (Elt F))
  :: StableHlo.binary main_v347 main_v354 main_v355 (cmpi .slt : (⟨S1024, .i32⟩ : BufTy).Contents (Elt F) → (⟨S1024, .i32⟩ : BufTy).Contents (Elt F) → (⟨S1024, .i1⟩ : BufTy).Contents (Elt F))
  :: StableHlo.nullary main_c_144 (constantI S_ 32 1024#32)
  :: StableHlo.unary main_c_144 main_v356 (broadcastInDim S1024 ![] bcast_S_S1024 : (⟨S_, .i32⟩ : BufTy).Contents (Elt F) → (⟨S1024, .i32⟩ : BufTy).Contents (Elt F))
  :: StableHlo.binary main_v347 main_v356 main_v357 (addi : (⟨S1024, .i32⟩ : BufTy).Contents (Elt F) → (⟨S1024, .i32⟩ : BufTy).Contents (Elt F) → (⟨S1024, .i32⟩ : BufTy).Contents (Elt F))
  :: StableHlo.ternary main_v355 main_v357 main_v347 main_v358 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v353 main_v359 (broadcastInDim S1024x1 ![0] bcast_S1024_S1024x1_0 : (⟨S1024, .i32⟩ : BufTy).Contents (Elt F) → (⟨S1024x1, .i32⟩ : BufTy).Contents (Elt F))
  :: StableHlo.unary main_v358 main_v360 (broadcastInDim S1024x1 ![0] bcast_S1024_S1024x1_0 : (⟨S1024, .i32⟩ : BufTy).Contents (Elt F) → (⟨S1024x1, .i32⟩ : BufTy).Contents (Elt F))
  :: [] )
/-- Stretch 50's concatenate. -/
abbrev ck_50_b : List (HloOp τ sig (Elt F)) :=
  ( StableHlo.binary main_v359 main_v360 main_v361 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 50, after its concatenate. -/
abbrev ck_50_c : List (HloOp τ sig (Elt F)) :=
  ( StableHlo.ternary main_v327 main_v361 main_v348 main_v362 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.reshape main_v362 main_v363 rfl shapeCasts_S16x1024x1024_S2x8x1024x1024
  :: StableHlo.nullary main_v364 (iotaInDim S1024x1024 32 0)
  :: StableHlo.nullary main_v365 (iotaInDim S1024x1024 32 1)
  :: StableHlo.nullary main_c_145 (constantI S_ 32 0#32)
  :: StableHlo.unary main_c_145 main_v366 (broadcastInDim S1024x1024 ![] bcast_S_S1024x1024 : (⟨S_, .i32⟩ : BufTy).Contents (Elt F) → (⟨S1024x1024, .i32⟩ : BufTy).Contents (Elt F))
  :: StableHlo.binary main_v364 main_v366 main_v367 (addi : (⟨S1024x1024, .i32⟩ : BufTy).Contents (Elt F) → (⟨S1024x1024, .i32⟩ : BufTy).Contents (Elt F) → (⟨S1024x1024, .i32⟩ : BufTy).Contents (Elt F))
  :: StableHlo.binary main_v367 main_v365 main_v368 (cmpi .eq : (⟨S1024x1024, .i32⟩ : BufTy).Contents (Elt F) → (⟨S1024x1024, .i32⟩ : BufTy).Contents (Elt F) → (⟨S1024x1024, .i1⟩ : BufTy).Contents (Elt F))
  :: StableHlo.unary main_v368 main_v369 (uitofp .f32 : (⟨S1024x1024, .i1⟩ : BufTy).Contents (Elt F) → (⟨S1024x1024, .f32⟩ : BufTy).Contents (Elt F))
  :: StableHlo.nullary main_cst_146 (constant S_ .f32 0x3F800000#32)
  :: StableHlo.unary main_cst_146 main_v370 (broadcastInDim S2x8x1024x1024 ![] bcast_S_S2x8x1024x1024 : (⟨S_, .f32⟩ : BufTy).Contents (Elt F) → (⟨S2x8x1024x1024, .f32⟩ : BufTy).Contents (Elt F))
  :: StableHlo.binary main_v370 main_v363 main_v371 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v369 main_v372 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v372 main_v373 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v373 main_v371 main_v374 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v18 main_v18 main_v375 (mulf : (⟨S2x8x1024, .f32⟩ : BufTy).Contents (Elt F) → (⟨S2x8x1024, .f32⟩ : BufTy).Contents (Elt F) → (⟨S2x8x1024, .f32⟩ : BufTy).Contents (Elt F))
  :: StableHlo.nullary main_cst_147 (constant S_ .f32 0x3F800000#32)
  :: StableHlo.unary main_cst_147 main_v376 (broadcastInDim S2x8x1024 ![] bcast_S_S2x8x1024 : (⟨S_, .f32⟩ : BufTy).Contents (Elt F) → (⟨S2x8x1024, .f32⟩ : BufTy).Contents (Elt F))
  :: StableHlo.binary main_v376 main_v375 main_v377 (Host.divf : (⟨S2x8x1024, .f32⟩ : BufTy).Contents (Elt F) → (⟨S2x8x1024, .f32⟩ : BufTy).Contents (Elt F) → (⟨S2x8x1024, .f32⟩ : BufTy).Contents (Elt F))
  :: StableHlo.unary main_v377 main_v378 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v378 main_v379 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.binary main_v379 main_v374 main_v380 (mulf : (⟨S2x8x1024x1024, .f32⟩ : BufTy).Contents (Elt F) → (⟨S2x8x1024x1024, .f32⟩ : BufTy).Contents (Elt F) → (⟨S2x8x1024x1024, .f32⟩ : BufTy).Contents (Elt F))
  :: [] )
theorem chunks_50 : (commonK : List (HloOp τ sig (Elt F))) = ck_50_a ++ ck_50_b ++ ck_50_c := rfl

end Cert.KernelIdeal.Hand

end
-- ==== Proof.ChunksR.lean ====
/- The stretches of host operations that hold a concatenate, each cut in three at it: the operations before it, the
   concatenate alone, the operations after it (the reference). -/
import proofs.«117756_j83829171683377_1_alg».proof.Proof.SplitR

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

set_option maxHeartbeats 40000000 in
/-- Stretch 8, before its concatenate. -/
abbrev cr_8_a : List (HloOp τ sig (Elt F)) :=
  ( StableHlo.nullary main_c_22 (constantI S_ 32 0#32)
  :: StableHlo.unary main_c_22 main_v82 (broadcastInDim S1024 ![] bcast_S_S1024 : (⟨S_, .i32⟩ : BufTy).Contents (Elt F) → (⟨S1024, .i32⟩ : BufTy).Contents (Elt F))
  :: StableHlo.binary main_v27 main_v82 main_v83 (cmpi .slt : (⟨S1024, .i32⟩ : BufTy).Contents (Elt F) → (⟨S1024, .i32⟩ : BufTy).Contents (Elt F) → (⟨S1024, .i1⟩ : BufTy).Contents (Elt F))
  :: StableHlo.nullary main_c_23 (constantI S_ 32 1024#32)
  :: StableHlo.unary main_c_23 main_v84 (broadcastInDim S1024 ![] bcast_S_S1024 : (⟨S_, .i32⟩ : BufTy).Contents (Elt F) → (⟨S1024, .i32⟩ : BufTy).Contents (Elt F))
  :: StableHlo.binary main_v27 main_v84 main_v85 (addi : (⟨S1024, .i32⟩ : BufTy).Contents (Elt F) → (⟨S1024, .i32⟩ : BufTy).Contents (Elt F) → (⟨S1024, .i32⟩ : BufTy).Contents (Elt F))
  :: StableHlo.ternary main_v83 main_v85 main_v27 main_v86 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_24 (constantI S_ 32 0#32)
  :: StableHlo.unary main_c_24 main_v87 (broadcastInDim S1024 ![] bcast_S_S1024 : (⟨S_, .i32⟩ : BufTy).Contents (Elt F) → (⟨S1024, .i32⟩ : BufTy).Contents (Elt F))
  :: StableHlo.binary main_v80 main_v87 main_v88 (cmpi .slt : (⟨S1024, .i32⟩ : BufTy).Contents (Elt F) → (⟨S1024, .i32⟩ : BufTy).Contents (Elt F) → (⟨S1024, .i1⟩ : BufTy).Contents (Elt F))
  :: StableHlo.nullary main_c_25 (constantI S_ 32 1024#32)
  :: StableHlo.unary main_c_25 main_v89 (broadcastInDim S1024 ![] bcast_S_S1024 : (⟨S_, .i32⟩ : BufTy).Contents (Elt F) → (⟨S1024, .i32⟩ : BufTy).Contents (Elt F))
  :: StableHlo.binary main_v80 main_v89 main_v90 (addi : (⟨S1024, .i32⟩ : BufTy).Contents (Elt F) → (⟨S1024, .i32⟩ : BufTy).Contents (Elt F) → (⟨S1024, .i32⟩ : BufTy).Contents (Elt F))
  :: StableHlo.ternary main_v88 main_v90 main_v80 main_v91 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v86 main_v92 (broadcastInDim S1024x1 ![0] bcast_S1024_S1024x1_0 : (⟨S1024, .i32⟩ : BufTy).Contents (Elt F) → (⟨S1024x1, .i32⟩ : BufTy).Contents (Elt F))
  :: StableHlo.unary main_v91 main_v93 (broadcastInDim S1024x1 ![0] bcast_S1024_S1024x1_0 : (⟨S1024, .i32⟩ : BufTy).Contents (Elt F) → (⟨S1024x1, .i32⟩ : BufTy).Contents (Elt F))
  :: [] )
/-- Stretch 8's concatenate. -/
abbrev cr_8_b : List (HloOp τ sig (Elt F)) :=
  ( StableHlo.binary main_v92 main_v93 main_v94 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 8, after its concatenate. -/
abbrev cr_8_c : List (HloOp τ sig (Elt F)) :=
  ( StableHlo.ternary main_v54 main_v94 main_v81 main_v95 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v22 main_v96 (Host.negf : (⟨S16x1024, .f32⟩ : BufTy).Contents (Elt F) → (⟨S16x1024, .f32⟩ : BufTy).Contents (Elt F))
  :: StableHlo.nullary main_cst_26 (constant S_ .f32 0x3F800000#32)
  :: StableHlo.unary main_cst_26 main_v97 (broadcastInDim S16x1024 ![] bcast_S_S16x1024 : (⟨S_, .f32⟩ : BufTy).Contents (Elt F) → (⟨S16x1024, .f32⟩ : BufTy).Contents (Elt F))
  :: StableHlo.binary main_v96 main_v97 main_v98 (Host.divf : (⟨S16x1024, .f32⟩ : BufTy).Contents (Elt F) → (⟨S16x1024, .f32⟩ : BufTy).Contents (Elt F) → (⟨S16x1024, .f32⟩ : BufTy).Contents (Elt F))
  :: StableHlo.nullary main_cst_27 (constant S_ .f32 0x40000000#32)
  :: StableHlo.unary main_cst_27 main_v99 (broadcastInDim S16x1024 ![] bcast_S_S16x1024 : (⟨S_, .f32⟩ : BufTy).Contents (Elt F) → (⟨S16x1024, .f32⟩ : BufTy).Contents (Elt F))
  :: StableHlo.binary main_v20 main_v99 main_v100 (Host.divf : (⟨S16x1024, .f32⟩ : BufTy).Contents (Elt F) → (⟨S16x1024, .f32⟩ : BufTy).Contents (Elt F) → (⟨S16x1024, .f32⟩ : BufTy).Contents (Elt F))
  :: StableHlo.binary main_v98 main_v100 main_v101 (subf : (⟨S16x1024, .f32⟩ : BufTy).Contents (Elt F) → (⟨S16x1024, .f32⟩ : BufTy).Contents (Elt F) → (⟨S16x1024, .f32⟩ : BufTy).Contents (Elt F))
  :: StableHlo.nullary main_c_28 (constantI S_ 32 0#32)
  :: StableHlo.unary main_c_28 main_v102 (broadcastInDim S1024 ![] bcast_S_S1024 : (⟨S_, .i32⟩ : BufTy).Contents (Elt F) → (⟨S1024, .i32⟩ : BufTy).Contents (Elt F))
  :: StableHlo.binary main_v26_0 main_v102 main_v103 (addi : (⟨S1024, .i32⟩ : BufTy).Contents (Elt F) → (⟨S1024, .i32⟩ : BufTy).Contents (Elt F) → (⟨S1024, .i32⟩ : BufTy).Contents (Elt F))
  :: StableHlo.nullary main_c_29 (constantI S_ 32 4294967295#32)
  :: StableHlo.unary main_c_29 main_v104 (broadcastInDim S1024 ![] bcast_S_S1024 : (⟨S_, .i32⟩ : BufTy).Contents (Elt F) → (⟨S1024, .i32⟩ : BufTy).Contents (Elt F))
  :: StableHlo.binary main_v26_1 main_v104 main_v105 (addi : (⟨S1024, .i32⟩ : BufTy).Contents (Elt F) → (⟨S1024, .i32⟩ : BufTy).Contents (Elt F) → (⟨S1024, .i32⟩ : BufTy).Contents (Elt F))
  :: StableHlo.nullary main_c_30 (constantI S_ 32 0#32)
  :: StableHlo.unary main_c_30 main_v106 (broadcastInDim S1024 ![] bcast_S_S1024 : (⟨S_, .i32⟩ : BufTy).Contents (Elt F) → (⟨S1024, .i32⟩ : BufTy).Contents (Elt F))
  :: StableHlo.binary main_v103 main_v106 main_v107 (cmpi .sge : (⟨S1024, .i32⟩ : BufTy).Contents (Elt F) → (⟨S1024, .i32⟩ : BufTy).Contents (Elt F) → (⟨S1024, .i1⟩ : BufTy).Contents (Elt F))
  :: StableHlo.nullary main_c_31 (constantI S_ 32 32#32)
  :: StableHlo.unary main_c_31 main_v108 (broadcastInDim S1024 ![] bcast_S_S1024 : (⟨S_, .i32⟩ : BufTy).Contents (Elt F) → (⟨S1024, .i32⟩ : BufTy).Contents (Elt F))
  :: StableHlo.binary main_v103 main_v108 main_v109 (cmpi .slt : (⟨S1024, .i32⟩ : BufTy).Contents (Elt F) → (⟨S1024, .i32⟩ : BufTy).Contents (Elt F) → (⟨S1024, .i1⟩ : BufTy).Contents (Elt F))
  :: StableHlo.binary main_v107 main_v109 main_v110 (andi : (⟨S1024, .i1⟩ : BufTy).Contents (Elt F) → (⟨S1024, .i1⟩ : BufTy).Contents (Elt F) → (⟨S1024, .i1⟩ : BufTy).Contents (Elt F))
  :: StableHlo.nullary main_c_32 (constantI S_ 32 0#32)
  :: StableHlo.unary main_c_32 main_v111 (broadcastInDim S1024 ![] bcast_S_S1024 : (⟨S_, .i32⟩ : BufTy).Contents (Elt F) → (⟨S1024, .i32⟩ : BufTy).Contents (Elt F))
  :: StableHlo.binary main_v105 main_v111 main_v112 (cmpi .sge : (⟨S1024, .i32⟩ : BufTy).Contents (Elt F) → (⟨S1024, .i32⟩ : BufTy).Contents (Elt F) → (⟨S1024, .i1⟩ : BufTy).Contents (Elt F))
  :: StableHlo.binary main_v110 main_v112 main_v113 (andi : (⟨S1024, .i1⟩ : BufTy).Contents (Elt F) → (⟨S1024, .i1⟩ : BufTy).Contents (Elt F) → (⟨S1024, .i1⟩ : BufTy).Contents (Elt F))
  :: StableHlo.nullary main_c_33 (constantI S_ 32 32#32)
  :: StableHlo.unary main_c_33 main_v114 (broadcastInDim S1024 ![] bcast_S_S1024 : (⟨S_, .i32⟩ : BufTy).Contents (Elt F) → (⟨S1024, .i32⟩ : BufTy).Contents (Elt F))
  :: StableHlo.binary main_v105 main_v114 main_v115 (cmpi .slt : (⟨S1024, .i32⟩ : BufTy).Contents (Elt F) → (⟨S1024, .i32⟩ : BufTy).Contents (Elt F) → (⟨S1024, .i1⟩ : BufTy).Contents (Elt F))
  :: StableHlo.binary main_v113 main_v115 main_v116 (andi : (⟨S1024, .i1⟩ : BufTy).Contents (Elt F) → (⟨S1024, .i1⟩ : BufTy).Contents (Elt F) → (⟨S1024, .i1⟩ : BufTy).Contents (Elt F))
  :: StableHlo.nullary main_c_34 (constantI S_ 32 0#32)
  :: StableHlo.nullary main_c_35 (constantI S_ 32 31#32)
  :: [] )
theorem chunks_8 : (hostOps0_8 : List (HloOp τ sig (Elt F))) = cr_8_a ++ cr_8_b ++ cr_8_c := rfl

set_option maxHeartbeats 40000000 in
/-- Stretch 14, before its concatenate. -/
abbrev cr_14_a : List (HloOp τ sig (Elt F)) :=
  ( StableHlo.nullary main_c_40 (constantI S_ 32 0#32)
  :: StableHlo.unary main_c_40 main_v123 (broadcastInDim S1024 ![] bcast_S_S1024 : (⟨S_, .i32⟩ : BufTy).Contents (Elt F) → (⟨S1024, .i32⟩ : BufTy).Contents (Elt F))
  :: StableHlo.binary main_v27 main_v123 main_v124 (cmpi .slt : (⟨S1024, .i32⟩ : BufTy).Contents (Elt F) → (⟨S1024, .i32⟩ : BufTy).Contents (Elt F) → (⟨S1024, .i1⟩ : BufTy).Contents (Elt F))
  :: StableHlo.nullary main_c_41 (constantI S_ 32 1024#32)
  :: StableHlo.unary main_c_41 main_v125 (broadcastInDim S1024 ![] bcast_S_S1024 : (⟨S_, .i32⟩ : BufTy).Contents (Elt F) → (⟨S1024, .i32⟩ : BufTy).Contents (Elt F))
  :: StableHlo.binary main_v27 main_v125 main_v126 (addi : (⟨S1024, .i32⟩ : BufTy).Contents (Elt F) → (⟨S1024, .i32⟩ : BufTy).Contents (Elt F) → (⟨S1024, .i32⟩ : BufTy).Contents (Elt F))
  :: StableHlo.ternary main_v124 main_v126 main_v27 main_v127 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_42 (constantI S_ 32 0#32)
  :: StableHlo.unary main_c_42 main_v128 (broadcastInDim S1024 ![] bcast_S_S1024 : (⟨S_, .i32⟩ : BufTy).Contents (Elt F) → (⟨S1024, .i32⟩ : BufTy).Contents (Elt F))
  :: StableHlo.binary main_v121 main_v128 main_v129 (cmpi .slt : (⟨S1024, .i32⟩ : BufTy).Contents (Elt F) → (⟨S1024, .i32⟩ : BufTy).Contents (Elt F) → (⟨S1024, .i1⟩ : BufTy).Contents (Elt F))
  :: StableHlo.nullary main_c_43 (constantI S_ 32 1024#32)
  :: StableHlo.unary main_c_43 main_v130 (broadcastInDim S1024 ![] bcast_S_S1024 : (⟨S_, .i32⟩ : BufTy).Contents (Elt F) → (⟨S1024, .i32⟩ : BufTy).Contents (Elt F))
  :: StableHlo.binary main_v121 main_v130 main_v131 (addi : (⟨S1024, .i32⟩ : BufTy).Contents (Elt F) → (⟨S1024, .i32⟩ : BufTy).Contents (Elt F) → (⟨S1024, .i32⟩ : BufTy).Contents (Elt F))
  :: StableHlo.ternary main_v129 main_v131 main_v121 main_v132 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v127 main_v133 (broadcastInDim S1024x1 ![0] bcast_S1024_S1024x1_0 : (⟨S1024, .i32⟩ : BufTy).Contents (Elt F) → (⟨S1024x1, .i32⟩ : BufTy).Contents (Elt F))
  :: StableHlo.unary main_v132 main_v134 (broadcastInDim S1024x1 ![0] bcast_S1024_S1024x1_0 : (⟨S1024, .i32⟩ : BufTy).Contents (Elt F) → (⟨S1024x1, .i32⟩ : BufTy).Contents (Elt F))
  :: [] )
/-- Stretch 14's concatenate. -/
abbrev cr_14_b : List (HloOp τ sig (Elt F)) :=
  ( StableHlo.binary main_v133 main_v134 main_v135 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 14, after its concatenate. -/
abbrev cr_14_c : List (HloOp τ sig (Elt F)) :=
  ( StableHlo.ternary main_v95 main_v135 main_v122 main_v136 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v137 (Host.negf : (⟨S16x1024, .f32⟩ : BufTy).Contents (Elt F) → (⟨S16x1024, .f32⟩ : BufTy).Contents (Elt F))
  :: StableHlo.nullary main_cst_44 (constant S_ .f32 0x3F800000#32)
  :: StableHlo.unary main_cst_44 main_v138 (broadcastInDim S16x1024 ![] bcast_S_S16x1024 : (⟨S_, .f32⟩ : BufTy).Contents (Elt F) → (⟨S16x1024, .f32⟩ : BufTy).Contents (Elt F))
  :: StableHlo.binary main_v137 main_v138 main_v139 (Host.divf : (⟨S16x1024, .f32⟩ : BufTy).Contents (Elt F) → (⟨S16x1024, .f32⟩ : BufTy).Contents (Elt F) → (⟨S16x1024, .f32⟩ : BufTy).Contents (Elt F))
  :: StableHlo.nullary main_cst_45 (constant S_ .f32 0x40000000#32)
  :: StableHlo.unary main_cst_45 main_v140 (broadcastInDim S16x1024 ![] bcast_S_S16x1024 : (⟨S_, .f32⟩ : BufTy).Contents (Elt F) → (⟨S16x1024, .f32⟩ : BufTy).Contents (Elt F))
  :: StableHlo.binary main_v21 main_v140 main_v141 (Host.divf : (⟨S16x1024, .f32⟩ : BufTy).Contents (Elt F) → (⟨S16x1024, .f32⟩ : BufTy).Contents (Elt F) → (⟨S16x1024, .f32⟩ : BufTy).Contents (Elt F))
  :: StableHlo.binary main_v139 main_v141 main_v142 (addf : (⟨S16x1024, .f32⟩ : BufTy).Contents (Elt F) → (⟨S16x1024, .f32⟩ : BufTy).Contents (Elt F) → (⟨S16x1024, .f32⟩ : BufTy).Contents (Elt F))
  :: StableHlo.nullary main_c_46 (constantI S_ 32 1#32)
  :: StableHlo.unary main_c_46 main_v143 (broadcastInDim S1024 ![] bcast_S_S1024 : (⟨S_, .i32⟩ : BufTy).Contents (Elt F) → (⟨S1024, .i32⟩ : BufTy).Contents (Elt F))
  :: StableHlo.binary main_v26_0 main_v143 main_v144 (addi : (⟨S1024, .i32⟩ : BufTy).Contents (Elt F) → (⟨S1024, .i32⟩ : BufTy).Contents (Elt F) → (⟨S1024, .i32⟩ : BufTy).Contents (Elt F))
  :: StableHlo.nullary main_c_47 (constantI S_ 32 0#32)
  :: StableHlo.unary main_c_47 main_v145 (broadcastInDim S1024 ![] bcast_S_S1024 : (⟨S_, .i32⟩ : BufTy).Contents (Elt F) → (⟨S1024, .i32⟩ : BufTy).Contents (Elt F))
  :: StableHlo.binary main_v26_1 main_v145 main_v146 (addi : (⟨S1024, .i32⟩ : BufTy).Contents (Elt F) → (⟨S1024, .i32⟩ : BufTy).Contents (Elt F) → (⟨S1024, .i32⟩ : BufTy).Contents (Elt F))
  :: StableHlo.nullary main_c_48 (constantI S_ 32 0#32)
  :: StableHlo.unary main_c_48 main_v147 (broadcastInDim S1024 ![] bcast_S_S1024 : (⟨S_, .i32⟩ : BufTy).Contents (Elt F) → (⟨S1024, .i32⟩ : BufTy).Contents (Elt F))
  :: StableHlo.binary main_v144 main_v147 main_v148 (cmpi .sge : (⟨S1024, .i32⟩ : BufTy).Contents (Elt F) → (⟨S1024, .i32⟩ : BufTy).Contents (Elt F) → (⟨S1024, .i1⟩ : BufTy).Contents (Elt F))
  :: StableHlo.nullary main_c_49 (constantI S_ 32 32#32)
  :: StableHlo.unary main_c_49 main_v149 (broadcastInDim S1024 ![] bcast_S_S1024 : (⟨S_, .i32⟩ : BufTy).Contents (Elt F) → (⟨S1024, .i32⟩ : BufTy).Contents (Elt F))
  :: StableHlo.binary main_v144 main_v149 main_v150 (cmpi .slt : (⟨S1024, .i32⟩ : BufTy).Contents (Elt F) → (⟨S1024, .i32⟩ : BufTy).Contents (Elt F) → (⟨S1024, .i1⟩ : BufTy).Contents (Elt F))
  :: StableHlo.binary main_v148 main_v150 main_v151 (andi : (⟨S1024, .i1⟩ : BufTy).Contents (Elt F) → (⟨S1024, .i1⟩ : BufTy).Contents (Elt F) → (⟨S1024, .i1⟩ : BufTy).Contents (Elt F))
  :: StableHlo.nullary main_c_50 (constantI S_ 32 0#32)
  :: StableHlo.unary main_c_50 main_v152 (broadcastInDim S1024 ![] bcast_S_S1024 : (⟨S_, .i32⟩ : BufTy).Contents (Elt F) → (⟨S1024, .i32⟩ : BufTy).Contents (Elt F))
  :: StableHlo.binary main_v146 main_v152 main_v153 (cmpi .sge : (⟨S1024, .i32⟩ : BufTy).Contents (Elt F) → (⟨S1024, .i32⟩ : BufTy).Contents (Elt F) → (⟨S1024, .i1⟩ : BufTy).Contents (Elt F))
  :: StableHlo.binary main_v151 main_v153 main_v154 (andi : (⟨S1024, .i1⟩ : BufTy).Contents (Elt F) → (⟨S1024, .i1⟩ : BufTy).Contents (Elt F) → (⟨S1024, .i1⟩ : BufTy).Contents (Elt F))
  :: StableHlo.nullary main_c_51 (constantI S_ 32 32#32)
  :: StableHlo.unary main_c_51 main_v155 (broadcastInDim S1024 ![] bcast_S_S1024 : (⟨S_, .i32⟩ : BufTy).Contents (Elt F) → (⟨S1024, .i32⟩ : BufTy).Contents (Elt F))
  :: StableHlo.binary main_v146 main_v155 main_v156 (cmpi .slt : (⟨S1024, .i32⟩ : BufTy).Contents (Elt F) → (⟨S1024, .i32⟩ : BufTy).Contents (Elt F) → (⟨S1024, .i1⟩ : BufTy).Contents (Elt F))
  :: StableHlo.binary main_v154 main_v156 main_v157 (andi : (⟨S1024, .i1⟩ : BufTy).Contents (Elt F) → (⟨S1024, .i1⟩ : BufTy).Contents (Elt F) → (⟨S1024, .i1⟩ : BufTy).Contents (Elt F))
  :: StableHlo.nullary main_c_52 (constantI S_ 32 0#32)
  :: StableHlo.nullary main_c_53 (constantI S_ 32 31#32)
  :: [] )
theorem chunks_14 : (hostOps0_14 : List (HloOp τ sig (Elt F))) = cr_14_a ++ cr_14_b ++ cr_14_c := rfl

set_option maxHeartbeats 40000000 in
/-- Stretch 20, before its concatenate. -/
abbrev cr_20_a : List (HloOp τ sig (Elt F)) :=
  ( StableHlo.nullary main_c_58 (constantI S_ 32 0#32)
  :: StableHlo.unary main_c_58 main_v164 (broadcastInDim S1024 ![] bcast_S_S1024 : (⟨S_, .i32⟩ : BufTy).Contents (Elt F) → (⟨S1024, .i32⟩ : BufTy).Contents (Elt F))
  :: StableHlo.binary main_v27 main_v164 main_v165 (cmpi .slt : (⟨S1024, .i32⟩ : BufTy).Contents (Elt F) → (⟨S1024, .i32⟩ : BufTy).Contents (Elt F) → (⟨S1024, .i1⟩ : BufTy).Contents (Elt F))
  :: StableHlo.nullary main_c_59 (constantI S_ 32 1024#32)
  :: StableHlo.unary main_c_59 main_v166 (broadcastInDim S1024 ![] bcast_S_S1024 : (⟨S_, .i32⟩ : BufTy).Contents (Elt F) → (⟨S1024, .i32⟩ : BufTy).Contents (Elt F))
  :: StableHlo.binary main_v27 main_v166 main_v167 (addi : (⟨S1024, .i32⟩ : BufTy).Contents (Elt F) → (⟨S1024, .i32⟩ : BufTy).Contents (Elt F) → (⟨S1024, .i32⟩ : BufTy).Contents (Elt F))
  :: StableHlo.ternary main_v165 main_v167 main_v27 main_v168 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_60 (constantI S_ 32 0#32)
  :: StableHlo.unary main_c_60 main_v169 (broadcastInDim S1024 ![] bcast_S_S1024 : (⟨S_, .i32⟩ : BufTy).Contents (Elt F) → (⟨S1024, .i32⟩ : BufTy).Contents (Elt F))
  :: StableHlo.binary main_v162 main_v169 main_v170 (cmpi .slt : (⟨S1024, .i32⟩ : BufTy).Contents (Elt F) → (⟨S1024, .i32⟩ : BufTy).Contents (Elt F) → (⟨S1024, .i1⟩ : BufTy).Contents (Elt F))
  :: StableHlo.nullary main_c_61 (constantI S_ 32 1024#32)
  :: StableHlo.unary main_c_61 main_v171 (broadcastInDim S1024 ![] bcast_S_S1024 : (⟨S_, .i32⟩ : BufTy).Contents (Elt F) → (⟨S1024, .i32⟩ : BufTy).Contents (Elt F))
  :: StableHlo.binary main_v162 main_v171 main_v172 (addi : (⟨S1024, .i32⟩ : BufTy).Contents (Elt F) → (⟨S1024, .i32⟩ : BufTy).Contents (Elt F) → (⟨S1024, .i32⟩ : BufTy).Contents (Elt F))
  :: StableHlo.ternary main_v170 main_v172 main_v162 main_v173 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v168 main_v174 (broadcastInDim S1024x1 ![0] bcast_S1024_S1024x1_0 : (⟨S1024, .i32⟩ : BufTy).Contents (Elt F) → (⟨S1024x1, .i32⟩ : BufTy).Contents (Elt F))
  :: StableHlo.unary main_v173 main_v175 (broadcastInDim S1024x1 ![0] bcast_S1024_S1024x1_0 : (⟨S1024, .i32⟩ : BufTy).Contents (Elt F) → (⟨S1024x1, .i32⟩ : BufTy).Contents (Elt F))
  :: [] )
/-- Stretch 20's concatenate. -/
abbrev cr_20_b : List (HloOp τ sig (Elt F)) :=
  ( StableHlo.binary main_v174 main_v175 main_v176 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 20, after its concatenate. -/
abbrev cr_20_c : List (HloOp τ sig (Elt F)) :=
  ( StableHlo.ternary main_v136 main_v176 main_v163 main_v177 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v24 main_v178 (Host.negf : (⟨S16x1024, .f32⟩ : BufTy).Contents (Elt F) → (⟨S16x1024, .f32⟩ : BufTy).Contents (Elt F))
  :: StableHlo.nullary main_cst_62 (constant S_ .f32 0x3F800000#32)
  :: StableHlo.unary main_cst_62 main_v179 (broadcastInDim S16x1024 ![] bcast_S_S16x1024 : (⟨S_, .f32⟩ : BufTy).Contents (Elt F) → (⟨S16x1024, .f32⟩ : BufTy).Contents (Elt F))
  :: StableHlo.binary main_v178 main_v179 main_v180 (Host.divf : (⟨S16x1024, .f32⟩ : BufTy).Contents (Elt F) → (⟨S16x1024, .f32⟩ : BufTy).Contents (Elt F) → (⟨S16x1024, .f32⟩ : BufTy).Contents (Elt F))
  :: StableHlo.nullary main_cst_63 (constant S_ .f32 0x40000000#32)
  :: StableHlo.unary main_cst_63 main_v181 (broadcastInDim S16x1024 ![] bcast_S_S16x1024 : (⟨S_, .f32⟩ : BufTy).Contents (Elt F) → (⟨S16x1024, .f32⟩ : BufTy).Contents (Elt F))
  :: StableHlo.binary main_v21 main_v181 main_v182 (Host.divf : (⟨S16x1024, .f32⟩ : BufTy).Contents (Elt F) → (⟨S16x1024, .f32⟩ : BufTy).Contents (Elt F) → (⟨S16x1024, .f32⟩ : BufTy).Contents (Elt F))
  :: StableHlo.binary main_v180 main_v182 main_v183 (subf : (⟨S16x1024, .f32⟩ : BufTy).Contents (Elt F) → (⟨S16x1024, .f32⟩ : BufTy).Contents (Elt F) → (⟨S16x1024, .f32⟩ : BufTy).Contents (Elt F))
  :: StableHlo.nullary main_c_64 (constantI S_ 32 4294967295#32)
  :: StableHlo.unary main_c_64 main_v184 (broadcastInDim S1024 ![] bcast_S_S1024 : (⟨S_, .i32⟩ : BufTy).Contents (Elt F) → (⟨S1024, .i32⟩ : BufTy).Contents (Elt F))
  :: StableHlo.binary main_v26_0 main_v184 main_v185 (addi : (⟨S1024, .i32⟩ : BufTy).Contents (Elt F) → (⟨S1024, .i32⟩ : BufTy).Contents (Elt F) → (⟨S1024, .i32⟩ : BufTy).Contents (Elt F))
  :: StableHlo.nullary main_c_65 (constantI S_ 32 0#32)
  :: StableHlo.unary main_c_65 main_v186 (broadcastInDim S1024 ![] bcast_S_S1024 : (⟨S_, .i32⟩ : BufTy).Contents (Elt F) → (⟨S1024, .i32⟩ : BufTy).Contents (Elt F))
  :: StableHlo.binary main_v26_1 main_v186 main_v187 (addi : (⟨S1024, .i32⟩ : BufTy).Contents (Elt F) → (⟨S1024, .i32⟩ : BufTy).Contents (Elt F) → (⟨S1024, .i32⟩ : BufTy).Contents (Elt F))
  :: StableHlo.nullary main_c_66 (constantI S_ 32 0#32)
  :: StableHlo.unary main_c_66 main_v188 (broadcastInDim S1024 ![] bcast_S_S1024 : (⟨S_, .i32⟩ : BufTy).Contents (Elt F) → (⟨S1024, .i32⟩ : BufTy).Contents (Elt F))
  :: StableHlo.binary main_v185 main_v188 main_v189 (cmpi .sge : (⟨S1024, .i32⟩ : BufTy).Contents (Elt F) → (⟨S1024, .i32⟩ : BufTy).Contents (Elt F) → (⟨S1024, .i1⟩ : BufTy).Contents (Elt F))
  :: StableHlo.nullary main_c_67 (constantI S_ 32 32#32)
  :: StableHlo.unary main_c_67 main_v190 (broadcastInDim S1024 ![] bcast_S_S1024 : (⟨S_, .i32⟩ : BufTy).Contents (Elt F) → (⟨S1024, .i32⟩ : BufTy).Contents (Elt F))
  :: StableHlo.binary main_v185 main_v190 main_v191 (cmpi .slt : (⟨S1024, .i32⟩ : BufTy).Contents (Elt F) → (⟨S1024, .i32⟩ : BufTy).Contents (Elt F) → (⟨S1024, .i1⟩ : BufTy).Contents (Elt F))
  :: StableHlo.binary main_v189 main_v191 main_v192 (andi : (⟨S1024, .i1⟩ : BufTy).Contents (Elt F) → (⟨S1024, .i1⟩ : BufTy).Contents (Elt F) → (⟨S1024, .i1⟩ : BufTy).Contents (Elt F))
  :: StableHlo.nullary main_c_68 (constantI S_ 32 0#32)
  :: StableHlo.unary main_c_68 main_v193 (broadcastInDim S1024 ![] bcast_S_S1024 : (⟨S_, .i32⟩ : BufTy).Contents (Elt F) → (⟨S1024, .i32⟩ : BufTy).Contents (Elt F))
  :: StableHlo.binary main_v187 main_v193 main_v194 (cmpi .sge : (⟨S1024, .i32⟩ : BufTy).Contents (Elt F) → (⟨S1024, .i32⟩ : BufTy).Contents (Elt F) → (⟨S1024, .i1⟩ : BufTy).Contents (Elt F))
  :: StableHlo.binary main_v192 main_v194 main_v195 (andi : (⟨S1024, .i1⟩ : BufTy).Contents (Elt F) → (⟨S1024, .i1⟩ : BufTy).Contents (Elt F) → (⟨S1024, .i1⟩ : BufTy).Contents (Elt F))
  :: StableHlo.nullary main_c_69 (constantI S_ 32 32#32)
  :: StableHlo.unary main_c_69 main_v196 (broadcastInDim S1024 ![] bcast_S_S1024 : (⟨S_, .i32⟩ : BufTy).Contents (Elt F) → (⟨S1024, .i32⟩ : BufTy).Contents (Elt F))
  :: StableHlo.binary main_v187 main_v196 main_v197 (cmpi .slt : (⟨S1024, .i32⟩ : BufTy).Contents (Elt F) → (⟨S1024, .i32⟩ : BufTy).Contents (Elt F) → (⟨S1024, .i1⟩ : BufTy).Contents (Elt F))
  :: StableHlo.binary main_v195 main_v197 main_v198 (andi : (⟨S1024, .i1⟩ : BufTy).Contents (Elt F) → (⟨S1024, .i1⟩ : BufTy).Contents (Elt F) → (⟨S1024, .i1⟩ : BufTy).Contents (Elt F))
  :: StableHlo.nullary main_c_70 (constantI S_ 32 0#32)
  :: StableHlo.nullary main_c_71 (constantI S_ 32 31#32)
  :: [] )
theorem chunks_20 : (hostOps0_20 : List (HloOp τ sig (Elt F))) = cr_20_a ++ cr_20_b ++ cr_20_c := rfl

set_option maxHeartbeats 40000000 in
/-- Stretch 26, before its concatenate. -/
abbrev cr_26_a : List (HloOp τ sig (Elt F)) :=
  ( StableHlo.nullary main_c_76 (constantI S_ 32 0#32)
  :: StableHlo.unary main_c_76 main_v205 (broadcastInDim S1024 ![] bcast_S_S1024 : (⟨S_, .i32⟩ : BufTy).Contents (Elt F) → (⟨S1024, .i32⟩ : BufTy).Contents (Elt F))
  :: StableHlo.binary main_v27 main_v205 main_v206 (cmpi .slt : (⟨S1024, .i32⟩ : BufTy).Contents (Elt F) → (⟨S1024, .i32⟩ : BufTy).Contents (Elt F) → (⟨S1024, .i1⟩ : BufTy).Contents (Elt F))
  :: StableHlo.nullary main_c_77 (constantI S_ 32 1024#32)
  :: StableHlo.unary main_c_77 main_v207 (broadcastInDim S1024 ![] bcast_S_S1024 : (⟨S_, .i32⟩ : BufTy).Contents (Elt F) → (⟨S1024, .i32⟩ : BufTy).Contents (Elt F))
  :: StableHlo.binary main_v27 main_v207 main_v208 (addi : (⟨S1024, .i32⟩ : BufTy).Contents (Elt F) → (⟨S1024, .i32⟩ : BufTy).Contents (Elt F) → (⟨S1024, .i32⟩ : BufTy).Contents (Elt F))
  :: StableHlo.ternary main_v206 main_v208 main_v27 main_v209 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_78 (constantI S_ 32 0#32)
  :: StableHlo.unary main_c_78 main_v210 (broadcastInDim S1024 ![] bcast_S_S1024 : (⟨S_, .i32⟩ : BufTy).Contents (Elt F) → (⟨S1024, .i32⟩ : BufTy).Contents (Elt F))
  :: StableHlo.binary main_v203 main_v210 main_v211 (cmpi .slt : (⟨S1024, .i32⟩ : BufTy).Contents (Elt F) → (⟨S1024, .i32⟩ : BufTy).Contents (Elt F) → (⟨S1024, .i1⟩ : BufTy).Contents (Elt F))
  :: StableHlo.nullary main_c_79 (constantI S_ 32 1024#32)
  :: StableHlo.unary main_c_79 main_v212 (broadcastInDim S1024 ![] bcast_S_S1024 : (⟨S_, .i32⟩ : BufTy).Contents (Elt F) → (⟨S1024, .i32⟩ : BufTy).Contents (Elt F))
  :: StableHlo.binary main_v203 main_v212 main_v213 (addi : (⟨S1024, .i32⟩ : BufTy).Contents (Elt F) → (⟨S1024, .i32⟩ : BufTy).Contents (Elt F) → (⟨S1024, .i32⟩ : BufTy).Contents (Elt F))
  :: StableHlo.ternary main_v211 main_v213 main_v203 main_v214 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v209 main_v215 (broadcastInDim S1024x1 ![0] bcast_S1024_S1024x1_0 : (⟨S1024, .i32⟩ : BufTy).Contents (Elt F) → (⟨S1024x1, .i32⟩ : BufTy).Contents (Elt F))
  :: StableHlo.unary main_v214 main_v216 (broadcastInDim S1024x1 ![0] bcast_S1024_S1024x1_0 : (⟨S1024, .i32⟩ : BufTy).Contents (Elt F) → (⟨S1024x1, .i32⟩ : BufTy).Contents (Elt F))
  :: [] )
/-- Stretch 26's concatenate. -/
abbrev cr_26_b : List (HloOp τ sig (Elt F)) :=
  ( StableHlo.binary main_v215 main_v216 main_v217 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 26, after its concatenate. -/
abbrev cr_26_c : List (HloOp τ sig (Elt F)) :=
  ( StableHlo.ternary main_v177 main_v217 main_v204 main_v218 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_cst_80 (constant S_ .f32 0x40000000#32)
  :: StableHlo.unary main_cst_80 main_v219 (broadcastInDim S16x1024 ![] bcast_S_S16x1024 : (⟨S_, .f32⟩ : BufTy).Contents (Elt F) → (⟨S16x1024, .f32⟩ : BufTy).Contents (Elt F))
  :: StableHlo.binary main_v23 main_v219 main_v220 (Host.divf : (⟨S16x1024, .f32⟩ : BufTy).Contents (Elt F) → (⟨S16x1024, .f32⟩ : BufTy).Contents (Elt F) → (⟨S16x1024, .f32⟩ : BufTy).Contents (Elt F))
  :: StableHlo.unary main_v220 main_v221 (Host.negf : (⟨S16x1024, .f32⟩ : BufTy).Contents (Elt F) → (⟨S16x1024, .f32⟩ : BufTy).Contents (Elt F))
  :: StableHlo.nullary main_c_81 (constantI S_ 32 1#32)
  :: StableHlo.unary main_c_81 main_v222 (broadcastInDim S1024 ![] bcast_S_S1024 : (⟨S_, .i32⟩ : BufTy).Contents (Elt F) → (⟨S1024, .i32⟩ : BufTy).Contents (Elt F))
  :: StableHlo.binary main_v26_0 main_v222 main_v223 (addi : (⟨S1024, .i32⟩ : BufTy).Contents (Elt F) → (⟨S1024, .i32⟩ : BufTy).Contents (Elt F) → (⟨S1024, .i32⟩ : BufTy).Contents (Elt F))
  :: StableHlo.nullary main_c_82 (constantI S_ 32 1#32)
  :: StableHlo.unary main_c_82 main_v224 (broadcastInDim S1024 ![] bcast_S_S1024 : (⟨S_, .i32⟩ : BufTy).Contents (Elt F) → (⟨S1024, .i32⟩ : BufTy).Contents (Elt F))
  :: StableHlo.binary main_v26_1 main_v224 main_v225 (addi : (⟨S1024, .i32⟩ : BufTy).Contents (Elt F) → (⟨S1024, .i32⟩ : BufTy).Contents (Elt F) → (⟨S1024, .i32⟩ : BufTy).Contents (Elt F))
  :: StableHlo.nullary main_c_83 (constantI S_ 32 0#32)
  :: StableHlo.unary main_c_83 main_v226 (broadcastInDim S1024 ![] bcast_S_S1024 : (⟨S_, .i32⟩ : BufTy).Contents (Elt F) → (⟨S1024, .i32⟩ : BufTy).Contents (Elt F))
  :: StableHlo.binary main_v223 main_v226 main_v227 (cmpi .sge : (⟨S1024, .i32⟩ : BufTy).Contents (Elt F) → (⟨S1024, .i32⟩ : BufTy).Contents (Elt F) → (⟨S1024, .i1⟩ : BufTy).Contents (Elt F))
  :: StableHlo.nullary main_c_84 (constantI S_ 32 32#32)
  :: StableHlo.unary main_c_84 main_v228 (broadcastInDim S1024 ![] bcast_S_S1024 : (⟨S_, .i32⟩ : BufTy).Contents (Elt F) → (⟨S1024, .i32⟩ : BufTy).Contents (Elt F))
  :: StableHlo.binary main_v223 main_v228 main_v229 (cmpi .slt : (⟨S1024, .i32⟩ : BufTy).Contents (Elt F) → (⟨S1024, .i32⟩ : BufTy).Contents (Elt F) → (⟨S1024, .i1⟩ : BufTy).Contents (Elt F))
  :: StableHlo.binary main_v227 main_v229 main_v230 (andi : (⟨S1024, .i1⟩ : BufTy).Contents (Elt F) → (⟨S1024, .i1⟩ : BufTy).Contents (Elt F) → (⟨S1024, .i1⟩ : BufTy).Contents (Elt F))
  :: StableHlo.nullary main_c_85 (constantI S_ 32 0#32)
  :: StableHlo.unary main_c_85 main_v231 (broadcastInDim S1024 ![] bcast_S_S1024 : (⟨S_, .i32⟩ : BufTy).Contents (Elt F) → (⟨S1024, .i32⟩ : BufTy).Contents (Elt F))
  :: StableHlo.binary main_v225 main_v231 main_v232 (cmpi .sge : (⟨S1024, .i32⟩ : BufTy).Contents (Elt F) → (⟨S1024, .i32⟩ : BufTy).Contents (Elt F) → (⟨S1024, .i1⟩ : BufTy).Contents (Elt F))
  :: StableHlo.binary main_v230 main_v232 main_v233 (andi : (⟨S1024, .i1⟩ : BufTy).Contents (Elt F) → (⟨S1024, .i1⟩ : BufTy).Contents (Elt F) → (⟨S1024, .i1⟩ : BufTy).Contents (Elt F))
  :: StableHlo.nullary main_c_86 (constantI S_ 32 32#32)
  :: StableHlo.unary main_c_86 main_v234 (broadcastInDim S1024 ![] bcast_S_S1024 : (⟨S_, .i32⟩ : BufTy).Contents (Elt F) → (⟨S1024, .i32⟩ : BufTy).Contents (Elt F))
  :: StableHlo.binary main_v225 main_v234 main_v235 (cmpi .slt : (⟨S1024, .i32⟩ : BufTy).Contents (Elt F) → (⟨S1024, .i32⟩ : BufTy).Contents (Elt F) → (⟨S1024, .i1⟩ : BufTy).Contents (Elt F))
  :: StableHlo.binary main_v233 main_v235 main_v236 (andi : (⟨S1024, .i1⟩ : BufTy).Contents (Elt F) → (⟨S1024, .i1⟩ : BufTy).Contents (Elt F) → (⟨S1024, .i1⟩ : BufTy).Contents (Elt F))
  :: StableHlo.nullary main_c_87 (constantI S_ 32 0#32)
  :: StableHlo.nullary main_c_88 (constantI S_ 32 31#32)
  :: [] )
theorem chunks_26 : (hostOps0_26 : List (HloOp τ sig (Elt F))) = cr_26_a ++ cr_26_b ++ cr_26_c := rfl

set_option maxHeartbeats 40000000 in
/-- Stretch 32, before its concatenate. -/
abbrev cr_32_a : List (HloOp τ sig (Elt F)) :=
  ( StableHlo.nullary main_c_93 (constantI S_ 32 0#32)
  :: StableHlo.unary main_c_93 main_v243 (broadcastInDim S1024 ![] bcast_S_S1024 : (⟨S_, .i32⟩ : BufTy).Contents (Elt F) → (⟨S1024, .i32⟩ : BufTy).Contents (Elt F))
  :: StableHlo.binary main_v27 main_v243 main_v244 (cmpi .slt : (⟨S1024, .i32⟩ : BufTy).Contents (Elt F) → (⟨S1024, .i32⟩ : BufTy).Contents (Elt F) → (⟨S1024, .i1⟩ : BufTy).Contents (Elt F))
  :: StableHlo.nullary main_c_94 (constantI S_ 32 1024#32)
  :: StableHlo.unary main_c_94 main_v245 (broadcastInDim S1024 ![] bcast_S_S1024 : (⟨S_, .i32⟩ : BufTy).Contents (Elt F) → (⟨S1024, .i32⟩ : BufTy).Contents (Elt F))
  :: StableHlo.binary main_v27 main_v245 main_v246 (addi : (⟨S1024, .i32⟩ : BufTy).Contents (Elt F) → (⟨S1024, .i32⟩ : BufTy).Contents (Elt F) → (⟨S1024, .i32⟩ : BufTy).Contents (Elt F))
  :: StableHlo.ternary main_v244 main_v246 main_v27 main_v247 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_95 (constantI S_ 32 0#32)
  :: StableHlo.unary main_c_95 main_v248 (broadcastInDim S1024 ![] bcast_S_S1024 : (⟨S_, .i32⟩ : BufTy).Contents (Elt F) → (⟨S1024, .i32⟩ : BufTy).Contents (Elt F))
  :: StableHlo.binary main_v241 main_v248 main_v249 (cmpi .slt : (⟨S1024, .i32⟩ : BufTy).Contents (Elt F) → (⟨S1024, .i32⟩ : BufTy).Contents (Elt F) → (⟨S1024, .i1⟩ : BufTy).Contents (Elt F))
  :: StableHlo.nullary main_c_96 (constantI S_ 32 1024#32)
  :: StableHlo.unary main_c_96 main_v250 (broadcastInDim S1024 ![] bcast_S_S1024 : (⟨S_, .i32⟩ : BufTy).Contents (Elt F) → (⟨S1024, .i32⟩ : BufTy).Contents (Elt F))
  :: StableHlo.binary main_v241 main_v250 main_v251 (addi : (⟨S1024, .i32⟩ : BufTy).Contents (Elt F) → (⟨S1024, .i32⟩ : BufTy).Contents (Elt F) → (⟨S1024, .i32⟩ : BufTy).Contents (Elt F))
  :: StableHlo.ternary main_v249 main_v251 main_v241 main_v252 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v247 main_v253 (broadcastInDim S1024x1 ![0] bcast_S1024_S1024x1_0 : (⟨S1024, .i32⟩ : BufTy).Contents (Elt F) → (⟨S1024x1, .i32⟩ : BufTy).Contents (Elt F))
  :: StableHlo.unary main_v252 main_v254 (broadcastInDim S1024x1 ![0] bcast_S1024_S1024x1_0 : (⟨S1024, .i32⟩ : BufTy).Contents (Elt F) → (⟨S1024x1, .i32⟩ : BufTy).Contents (Elt F))
  :: [] )
/-- Stretch 32's concatenate. -/
abbrev cr_32_b : List (HloOp τ sig (Elt F)) :=
  ( StableHlo.binary main_v253 main_v254 main_v255 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 32, after its concatenate. -/
abbrev cr_32_c : List (HloOp τ sig (Elt F)) :=
  ( StableHlo.ternary main_v218 main_v255 main_v242 main_v256 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.unary main_v220 main_v257 (Host.negf : (⟨S16x1024, .f32⟩ : BufTy).Contents (Elt F) → (⟨S16x1024, .f32⟩ : BufTy).Contents (Elt F))
  :: StableHlo.nullary main_c_97 (constantI S_ 32 4294967295#32)
  :: StableHlo.unary main_c_97 main_v258 (broadcastInDim S1024 ![] bcast_S_S1024 : (⟨S_, .i32⟩ : BufTy).Contents (Elt F) → (⟨S1024, .i32⟩ : BufTy).Contents (Elt F))
  :: StableHlo.binary main_v26_0 main_v258 main_v259 (addi : (⟨S1024, .i32⟩ : BufTy).Contents (Elt F) → (⟨S1024, .i32⟩ : BufTy).Contents (Elt F) → (⟨S1024, .i32⟩ : BufTy).Contents (Elt F))
  :: StableHlo.nullary main_c_98 (constantI S_ 32 4294967295#32)
  :: StableHlo.unary main_c_98 main_v260 (broadcastInDim S1024 ![] bcast_S_S1024 : (⟨S_, .i32⟩ : BufTy).Contents (Elt F) → (⟨S1024, .i32⟩ : BufTy).Contents (Elt F))
  :: StableHlo.binary main_v26_1 main_v260 main_v261 (addi : (⟨S1024, .i32⟩ : BufTy).Contents (Elt F) → (⟨S1024, .i32⟩ : BufTy).Contents (Elt F) → (⟨S1024, .i32⟩ : BufTy).Contents (Elt F))
  :: StableHlo.nullary main_c_99 (constantI S_ 32 0#32)
  :: StableHlo.unary main_c_99 main_v262 (broadcastInDim S1024 ![] bcast_S_S1024 : (⟨S_, .i32⟩ : BufTy).Contents (Elt F) → (⟨S1024, .i32⟩ : BufTy).Contents (Elt F))
  :: StableHlo.binary main_v259 main_v262 main_v263 (cmpi .sge : (⟨S1024, .i32⟩ : BufTy).Contents (Elt F) → (⟨S1024, .i32⟩ : BufTy).Contents (Elt F) → (⟨S1024, .i1⟩ : BufTy).Contents (Elt F))
  :: StableHlo.nullary main_c_100 (constantI S_ 32 32#32)
  :: StableHlo.unary main_c_100 main_v264 (broadcastInDim S1024 ![] bcast_S_S1024 : (⟨S_, .i32⟩ : BufTy).Contents (Elt F) → (⟨S1024, .i32⟩ : BufTy).Contents (Elt F))
  :: StableHlo.binary main_v259 main_v264 main_v265 (cmpi .slt : (⟨S1024, .i32⟩ : BufTy).Contents (Elt F) → (⟨S1024, .i32⟩ : BufTy).Contents (Elt F) → (⟨S1024, .i1⟩ : BufTy).Contents (Elt F))
  :: StableHlo.binary main_v263 main_v265 main_v266 (andi : (⟨S1024, .i1⟩ : BufTy).Contents (Elt F) → (⟨S1024, .i1⟩ : BufTy).Contents (Elt F) → (⟨S1024, .i1⟩ : BufTy).Contents (Elt F))
  :: StableHlo.nullary main_c_101 (constantI S_ 32 0#32)
  :: StableHlo.unary main_c_101 main_v267 (broadcastInDim S1024 ![] bcast_S_S1024 : (⟨S_, .i32⟩ : BufTy).Contents (Elt F) → (⟨S1024, .i32⟩ : BufTy).Contents (Elt F))
  :: StableHlo.binary main_v261 main_v267 main_v268 (cmpi .sge : (⟨S1024, .i32⟩ : BufTy).Contents (Elt F) → (⟨S1024, .i32⟩ : BufTy).Contents (Elt F) → (⟨S1024, .i1⟩ : BufTy).Contents (Elt F))
  :: StableHlo.binary main_v266 main_v268 main_v269 (andi : (⟨S1024, .i1⟩ : BufTy).Contents (Elt F) → (⟨S1024, .i1⟩ : BufTy).Contents (Elt F) → (⟨S1024, .i1⟩ : BufTy).Contents (Elt F))
  :: StableHlo.nullary main_c_102 (constantI S_ 32 32#32)
  :: StableHlo.unary main_c_102 main_v270 (broadcastInDim S1024 ![] bcast_S_S1024 : (⟨S_, .i32⟩ : BufTy).Contents (Elt F) → (⟨S1024, .i32⟩ : BufTy).Contents (Elt F))
  :: StableHlo.binary main_v261 main_v270 main_v271 (cmpi .slt : (⟨S1024, .i32⟩ : BufTy).Contents (Elt F) → (⟨S1024, .i32⟩ : BufTy).Contents (Elt F) → (⟨S1024, .i1⟩ : BufTy).Contents (Elt F))
  :: StableHlo.binary main_v269 main_v271 main_v272 (andi : (⟨S1024, .i1⟩ : BufTy).Contents (Elt F) → (⟨S1024, .i1⟩ : BufTy).Contents (Elt F) → (⟨S1024, .i1⟩ : BufTy).Contents (Elt F))
  :: StableHlo.nullary main_c_103 (constantI S_ 32 0#32)
  :: StableHlo.nullary main_c_104 (constantI S_ 32 31#32)
  :: [] )
theorem chunks_32 : (hostOps0_32 : List (HloOp τ sig (Elt F))) = cr_32_a ++ cr_32_b ++ cr_32_c := rfl

set_option maxHeartbeats 40000000 in
/-- Stretch 38, before its concatenate. -/
abbrev cr_38_a : List (HloOp τ sig (Elt F)) :=
  ( StableHlo.nullary main_c_109 (constantI S_ 32 0#32)
  :: StableHlo.unary main_c_109 main_v279 (broadcastInDim S1024 ![] bcast_S_S1024 : (⟨S_, .i32⟩ : BufTy).Contents (Elt F) → (⟨S1024, .i32⟩ : BufTy).Contents (Elt F))
  :: StableHlo.binary main_v27 main_v279 main_v280 (cmpi .slt : (⟨S1024, .i32⟩ : BufTy).Contents (Elt F) → (⟨S1024, .i32⟩ : BufTy).Contents (Elt F) → (⟨S1024, .i1⟩ : BufTy).Contents (Elt F))
  :: StableHlo.nullary main_c_110 (constantI S_ 32 1024#32)
  :: StableHlo.unary main_c_110 main_v281 (broadcastInDim S1024 ![] bcast_S_S1024 : (⟨S_, .i32⟩ : BufTy).Contents (Elt F) → (⟨S1024, .i32⟩ : BufTy).Contents (Elt F))
  :: StableHlo.binary main_v27 main_v281 main_v282 (addi : (⟨S1024, .i32⟩ : BufTy).Contents (Elt F) → (⟨S1024, .i32⟩ : BufTy).Contents (Elt F) → (⟨S1024, .i32⟩ : BufTy).Contents (Elt F))
  :: StableHlo.ternary main_v280 main_v282 main_v27 main_v283 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_111 (constantI S_ 32 0#32)
  :: StableHlo.unary main_c_111 main_v284 (broadcastInDim S1024 ![] bcast_S_S1024 : (⟨S_, .i32⟩ : BufTy).Contents (Elt F) → (⟨S1024, .i32⟩ : BufTy).Contents (Elt F))
  :: StableHlo.binary main_v277 main_v284 main_v285 (cmpi .slt : (⟨S1024, .i32⟩ : BufTy).Contents (Elt F) → (⟨S1024, .i32⟩ : BufTy).Contents (Elt F) → (⟨S1024, .i1⟩ : BufTy).Contents (Elt F))
  :: StableHlo.nullary main_c_112 (constantI S_ 32 1024#32)
  :: StableHlo.unary main_c_112 main_v286 (broadcastInDim S1024 ![] bcast_S_S1024 : (⟨S_, .i32⟩ : BufTy).Contents (Elt F) → (⟨S1024, .i32⟩ : BufTy).Contents (Elt F))
  :: StableHlo.binary main_v277 main_v286 main_v287 (addi : (⟨S1024, .i32⟩ : BufTy).Contents (Elt F) → (⟨S1024, .i32⟩ : BufTy).Contents (Elt F) → (⟨S1024, .i32⟩ : BufTy).Contents (Elt F))
  :: StableHlo.ternary main_v285 main_v287 main_v277 main_v288 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v283 main_v289 (broadcastInDim S1024x1 ![0] bcast_S1024_S1024x1_0 : (⟨S1024, .i32⟩ : BufTy).Contents (Elt F) → (⟨S1024x1, .i32⟩ : BufTy).Contents (Elt F))
  :: StableHlo.unary main_v288 main_v290 (broadcastInDim S1024x1 ![0] bcast_S1024_S1024x1_0 : (⟨S1024, .i32⟩ : BufTy).Contents (Elt F) → (⟨S1024x1, .i32⟩ : BufTy).Contents (Elt F))
  :: [] )
/-- Stretch 38's concatenate. -/
abbrev cr_38_b : List (HloOp τ sig (Elt F)) :=
  ( StableHlo.binary main_v289 main_v290 main_v291 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 38, after its concatenate. -/
abbrev cr_38_c : List (HloOp τ sig (Elt F)) :=
  ( StableHlo.ternary main_v256 main_v291 main_v278 main_v292 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_c_113 (constantI S_ 32 1#32)
  :: StableHlo.unary main_c_113 main_v293 (broadcastInDim S1024 ![] bcast_S_S1024 : (⟨S_, .i32⟩ : BufTy).Contents (Elt F) → (⟨S1024, .i32⟩ : BufTy).Contents (Elt F))
  :: StableHlo.binary main_v26_0 main_v293 main_v294 (addi : (⟨S1024, .i32⟩ : BufTy).Contents (Elt F) → (⟨S1024, .i32⟩ : BufTy).Contents (Elt F) → (⟨S1024, .i32⟩ : BufTy).Contents (Elt F))
  :: StableHlo.nullary main_c_114 (constantI S_ 32 4294967295#32)
  :: StableHlo.unary main_c_114 main_v295 (broadcastInDim S1024 ![] bcast_S_S1024 : (⟨S_, .i32⟩ : BufTy).Contents (Elt F) → (⟨S1024, .i32⟩ : BufTy).Contents (Elt F))
  :: StableHlo.binary main_v26_1 main_v295 main_v296 (addi : (⟨S1024, .i32⟩ : BufTy).Contents (Elt F) → (⟨S1024, .i32⟩ : BufTy).Contents (Elt F) → (⟨S1024, .i32⟩ : BufTy).Contents (Elt F))
  :: StableHlo.nullary main_c_115 (constantI S_ 32 0#32)
  :: StableHlo.unary main_c_115 main_v297 (broadcastInDim S1024 ![] bcast_S_S1024 : (⟨S_, .i32⟩ : BufTy).Contents (Elt F) → (⟨S1024, .i32⟩ : BufTy).Contents (Elt F))
  :: StableHlo.binary main_v294 main_v297 main_v298 (cmpi .sge : (⟨S1024, .i32⟩ : BufTy).Contents (Elt F) → (⟨S1024, .i32⟩ : BufTy).Contents (Elt F) → (⟨S1024, .i1⟩ : BufTy).Contents (Elt F))
  :: StableHlo.nullary main_c_116 (constantI S_ 32 32#32)
  :: StableHlo.unary main_c_116 main_v299 (broadcastInDim S1024 ![] bcast_S_S1024 : (⟨S_, .i32⟩ : BufTy).Contents (Elt F) → (⟨S1024, .i32⟩ : BufTy).Contents (Elt F))
  :: StableHlo.binary main_v294 main_v299 main_v300 (cmpi .slt : (⟨S1024, .i32⟩ : BufTy).Contents (Elt F) → (⟨S1024, .i32⟩ : BufTy).Contents (Elt F) → (⟨S1024, .i1⟩ : BufTy).Contents (Elt F))
  :: StableHlo.binary main_v298 main_v300 main_v301 (andi : (⟨S1024, .i1⟩ : BufTy).Contents (Elt F) → (⟨S1024, .i1⟩ : BufTy).Contents (Elt F) → (⟨S1024, .i1⟩ : BufTy).Contents (Elt F))
  :: StableHlo.nullary main_c_117 (constantI S_ 32 0#32)
  :: StableHlo.unary main_c_117 main_v302 (broadcastInDim S1024 ![] bcast_S_S1024 : (⟨S_, .i32⟩ : BufTy).Contents (Elt F) → (⟨S1024, .i32⟩ : BufTy).Contents (Elt F))
  :: StableHlo.binary main_v296 main_v302 main_v303 (cmpi .sge : (⟨S1024, .i32⟩ : BufTy).Contents (Elt F) → (⟨S1024, .i32⟩ : BufTy).Contents (Elt F) → (⟨S1024, .i1⟩ : BufTy).Contents (Elt F))
  :: StableHlo.binary main_v301 main_v303 main_v304 (andi : (⟨S1024, .i1⟩ : BufTy).Contents (Elt F) → (⟨S1024, .i1⟩ : BufTy).Contents (Elt F) → (⟨S1024, .i1⟩ : BufTy).Contents (Elt F))
  :: StableHlo.nullary main_c_118 (constantI S_ 32 32#32)
  :: StableHlo.unary main_c_118 main_v305 (broadcastInDim S1024 ![] bcast_S_S1024 : (⟨S_, .i32⟩ : BufTy).Contents (Elt F) → (⟨S1024, .i32⟩ : BufTy).Contents (Elt F))
  :: StableHlo.binary main_v296 main_v305 main_v306 (cmpi .slt : (⟨S1024, .i32⟩ : BufTy).Contents (Elt F) → (⟨S1024, .i32⟩ : BufTy).Contents (Elt F) → (⟨S1024, .i1⟩ : BufTy).Contents (Elt F))
  :: StableHlo.binary main_v304 main_v306 main_v307 (andi : (⟨S1024, .i1⟩ : BufTy).Contents (Elt F) → (⟨S1024, .i1⟩ : BufTy).Contents (Elt F) → (⟨S1024, .i1⟩ : BufTy).Contents (Elt F))
  :: StableHlo.nullary main_c_119 (constantI S_ 32 0#32)
  :: StableHlo.nullary main_c_120 (constantI S_ 32 31#32)
  :: [] )
theorem chunks_38 : (hostOps0_38 : List (HloOp τ sig (Elt F))) = cr_38_a ++ cr_38_b ++ cr_38_c := rfl

set_option maxHeartbeats 40000000 in
/-- Stretch 44, before its concatenate. -/
abbrev cr_44_a : List (HloOp τ sig (Elt F)) :=
  ( StableHlo.nullary main_c_125 (constantI S_ 32 0#32)
  :: StableHlo.unary main_c_125 main_v314 (broadcastInDim S1024 ![] bcast_S_S1024 : (⟨S_, .i32⟩ : BufTy).Contents (Elt F) → (⟨S1024, .i32⟩ : BufTy).Contents (Elt F))
  :: StableHlo.binary main_v27 main_v314 main_v315 (cmpi .slt : (⟨S1024, .i32⟩ : BufTy).Contents (Elt F) → (⟨S1024, .i32⟩ : BufTy).Contents (Elt F) → (⟨S1024, .i1⟩ : BufTy).Contents (Elt F))
  :: StableHlo.nullary main_c_126 (constantI S_ 32 1024#32)
  :: StableHlo.unary main_c_126 main_v316 (broadcastInDim S1024 ![] bcast_S_S1024 : (⟨S_, .i32⟩ : BufTy).Contents (Elt F) → (⟨S1024, .i32⟩ : BufTy).Contents (Elt F))
  :: StableHlo.binary main_v27 main_v316 main_v317 (addi : (⟨S1024, .i32⟩ : BufTy).Contents (Elt F) → (⟨S1024, .i32⟩ : BufTy).Contents (Elt F) → (⟨S1024, .i32⟩ : BufTy).Contents (Elt F))
  :: StableHlo.ternary main_v315 main_v317 main_v27 main_v318 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_127 (constantI S_ 32 0#32)
  :: StableHlo.unary main_c_127 main_v319 (broadcastInDim S1024 ![] bcast_S_S1024 : (⟨S_, .i32⟩ : BufTy).Contents (Elt F) → (⟨S1024, .i32⟩ : BufTy).Contents (Elt F))
  :: StableHlo.binary main_v312 main_v319 main_v320 (cmpi .slt : (⟨S1024, .i32⟩ : BufTy).Contents (Elt F) → (⟨S1024, .i32⟩ : BufTy).Contents (Elt F) → (⟨S1024, .i1⟩ : BufTy).Contents (Elt F))
  :: StableHlo.nullary main_c_128 (constantI S_ 32 1024#32)
  :: StableHlo.unary main_c_128 main_v321 (broadcastInDim S1024 ![] bcast_S_S1024 : (⟨S_, .i32⟩ : BufTy).Contents (Elt F) → (⟨S1024, .i32⟩ : BufTy).Contents (Elt F))
  :: StableHlo.binary main_v312 main_v321 main_v322 (addi : (⟨S1024, .i32⟩ : BufTy).Contents (Elt F) → (⟨S1024, .i32⟩ : BufTy).Contents (Elt F) → (⟨S1024, .i32⟩ : BufTy).Contents (Elt F))
  :: StableHlo.ternary main_v320 main_v322 main_v312 main_v323 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v318 main_v324 (broadcastInDim S1024x1 ![0] bcast_S1024_S1024x1_0 : (⟨S1024, .i32⟩ : BufTy).Contents (Elt F) → (⟨S1024x1, .i32⟩ : BufTy).Contents (Elt F))
  :: StableHlo.unary main_v323 main_v325 (broadcastInDim S1024x1 ![0] bcast_S1024_S1024x1_0 : (⟨S1024, .i32⟩ : BufTy).Contents (Elt F) → (⟨S1024x1, .i32⟩ : BufTy).Contents (Elt F))
  :: [] )
/-- Stretch 44's concatenate. -/
abbrev cr_44_b : List (HloOp τ sig (Elt F)) :=
  ( StableHlo.binary main_v324 main_v325 main_v326 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 44, after its concatenate. -/
abbrev cr_44_c : List (HloOp τ sig (Elt F)) :=
  ( StableHlo.ternary main_v292 main_v326 main_v313 main_v327 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.nullary main_c_129 (constantI S_ 32 4294967295#32)
  :: StableHlo.unary main_c_129 main_v328 (broadcastInDim S1024 ![] bcast_S_S1024 : (⟨S_, .i32⟩ : BufTy).Contents (Elt F) → (⟨S1024, .i32⟩ : BufTy).Contents (Elt F))
  :: StableHlo.binary main_v26_0 main_v328 main_v329 (addi : (⟨S1024, .i32⟩ : BufTy).Contents (Elt F) → (⟨S1024, .i32⟩ : BufTy).Contents (Elt F) → (⟨S1024, .i32⟩ : BufTy).Contents (Elt F))
  :: StableHlo.nullary main_c_130 (constantI S_ 32 1#32)
  :: StableHlo.unary main_c_130 main_v330 (broadcastInDim S1024 ![] bcast_S_S1024 : (⟨S_, .i32⟩ : BufTy).Contents (Elt F) → (⟨S1024, .i32⟩ : BufTy).Contents (Elt F))
  :: StableHlo.binary main_v26_1 main_v330 main_v331 (addi : (⟨S1024, .i32⟩ : BufTy).Contents (Elt F) → (⟨S1024, .i32⟩ : BufTy).Contents (Elt F) → (⟨S1024, .i32⟩ : BufTy).Contents (Elt F))
  :: StableHlo.nullary main_c_131 (constantI S_ 32 0#32)
  :: StableHlo.unary main_c_131 main_v332 (broadcastInDim S1024 ![] bcast_S_S1024 : (⟨S_, .i32⟩ : BufTy).Contents (Elt F) → (⟨S1024, .i32⟩ : BufTy).Contents (Elt F))
  :: StableHlo.binary main_v329 main_v332 main_v333 (cmpi .sge : (⟨S1024, .i32⟩ : BufTy).Contents (Elt F) → (⟨S1024, .i32⟩ : BufTy).Contents (Elt F) → (⟨S1024, .i1⟩ : BufTy).Contents (Elt F))
  :: StableHlo.nullary main_c_132 (constantI S_ 32 32#32)
  :: StableHlo.unary main_c_132 main_v334 (broadcastInDim S1024 ![] bcast_S_S1024 : (⟨S_, .i32⟩ : BufTy).Contents (Elt F) → (⟨S1024, .i32⟩ : BufTy).Contents (Elt F))
  :: StableHlo.binary main_v329 main_v334 main_v335 (cmpi .slt : (⟨S1024, .i32⟩ : BufTy).Contents (Elt F) → (⟨S1024, .i32⟩ : BufTy).Contents (Elt F) → (⟨S1024, .i1⟩ : BufTy).Contents (Elt F))
  :: StableHlo.binary main_v333 main_v335 main_v336 (andi : (⟨S1024, .i1⟩ : BufTy).Contents (Elt F) → (⟨S1024, .i1⟩ : BufTy).Contents (Elt F) → (⟨S1024, .i1⟩ : BufTy).Contents (Elt F))
  :: StableHlo.nullary main_c_133 (constantI S_ 32 0#32)
  :: StableHlo.unary main_c_133 main_v337 (broadcastInDim S1024 ![] bcast_S_S1024 : (⟨S_, .i32⟩ : BufTy).Contents (Elt F) → (⟨S1024, .i32⟩ : BufTy).Contents (Elt F))
  :: StableHlo.binary main_v331 main_v337 main_v338 (cmpi .sge : (⟨S1024, .i32⟩ : BufTy).Contents (Elt F) → (⟨S1024, .i32⟩ : BufTy).Contents (Elt F) → (⟨S1024, .i1⟩ : BufTy).Contents (Elt F))
  :: StableHlo.binary main_v336 main_v338 main_v339 (andi : (⟨S1024, .i1⟩ : BufTy).Contents (Elt F) → (⟨S1024, .i1⟩ : BufTy).Contents (Elt F) → (⟨S1024, .i1⟩ : BufTy).Contents (Elt F))
  :: StableHlo.nullary main_c_134 (constantI S_ 32 32#32)
  :: StableHlo.unary main_c_134 main_v340 (broadcastInDim S1024 ![] bcast_S_S1024 : (⟨S_, .i32⟩ : BufTy).Contents (Elt F) → (⟨S1024, .i32⟩ : BufTy).Contents (Elt F))
  :: StableHlo.binary main_v331 main_v340 main_v341 (cmpi .slt : (⟨S1024, .i32⟩ : BufTy).Contents (Elt F) → (⟨S1024, .i32⟩ : BufTy).Contents (Elt F) → (⟨S1024, .i1⟩ : BufTy).Contents (Elt F))
  :: StableHlo.binary main_v339 main_v341 main_v342 (andi : (⟨S1024, .i1⟩ : BufTy).Contents (Elt F) → (⟨S1024, .i1⟩ : BufTy).Contents (Elt F) → (⟨S1024, .i1⟩ : BufTy).Contents (Elt F))
  :: StableHlo.nullary main_c_135 (constantI S_ 32 0#32)
  :: StableHlo.nullary main_c_136 (constantI S_ 32 31#32)
  :: [] )
theorem chunks_44 : (hostOps0_44 : List (HloOp τ sig (Elt F))) = cr_44_a ++ cr_44_b ++ cr_44_c := rfl

set_option maxHeartbeats 40000000 in
/-- Stretch 50, before its concatenate. -/
abbrev cr_50_a : List (HloOp τ sig (Elt F)) :=
  ( StableHlo.nullary main_c_141 (constantI S_ 32 0#32)
  :: StableHlo.unary main_c_141 main_v349 (broadcastInDim S1024 ![] bcast_S_S1024 : (⟨S_, .i32⟩ : BufTy).Contents (Elt F) → (⟨S1024, .i32⟩ : BufTy).Contents (Elt F))
  :: StableHlo.binary main_v27 main_v349 main_v350 (cmpi .slt : (⟨S1024, .i32⟩ : BufTy).Contents (Elt F) → (⟨S1024, .i32⟩ : BufTy).Contents (Elt F) → (⟨S1024, .i1⟩ : BufTy).Contents (Elt F))
  :: StableHlo.nullary main_c_142 (constantI S_ 32 1024#32)
  :: StableHlo.unary main_c_142 main_v351 (broadcastInDim S1024 ![] bcast_S_S1024 : (⟨S_, .i32⟩ : BufTy).Contents (Elt F) → (⟨S1024, .i32⟩ : BufTy).Contents (Elt F))
  :: StableHlo.binary main_v27 main_v351 main_v352 (addi : (⟨S1024, .i32⟩ : BufTy).Contents (Elt F) → (⟨S1024, .i32⟩ : BufTy).Contents (Elt F) → (⟨S1024, .i32⟩ : BufTy).Contents (Elt F))
  :: StableHlo.ternary main_v350 main_v352 main_v27 main_v353 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.nullary main_c_143 (constantI S_ 32 0#32)
  :: StableHlo.unary main_c_143 main_v354 (broadcastInDim S1024 ![] bcast_S_S1024 : (⟨S_, .i32⟩ : BufTy).Contents (Elt F) → (⟨S1024, .i32⟩ : BufTy).Contents (Elt F))
  :: StableHlo.binary main_v347 main_v354 main_v355 (cmpi .slt : (⟨S1024, .i32⟩ : BufTy).Contents (Elt F) → (⟨S1024, .i32⟩ : BufTy).Contents (Elt F) → (⟨S1024, .i1⟩ : BufTy).Contents (Elt F))
  :: StableHlo.nullary main_c_144 (constantI S_ 32 1024#32)
  :: StableHlo.unary main_c_144 main_v356 (broadcastInDim S1024 ![] bcast_S_S1024 : (⟨S_, .i32⟩ : BufTy).Contents (Elt F) → (⟨S1024, .i32⟩ : BufTy).Contents (Elt F))
  :: StableHlo.binary main_v347 main_v356 main_v357 (addi : (⟨S1024, .i32⟩ : BufTy).Contents (Elt F) → (⟨S1024, .i32⟩ : BufTy).Contents (Elt F) → (⟨S1024, .i32⟩ : BufTy).Contents (Elt F))
  :: StableHlo.ternary main_v355 main_v357 main_v347 main_v358 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v353 main_v359 (broadcastInDim S1024x1 ![0] bcast_S1024_S1024x1_0 : (⟨S1024, .i32⟩ : BufTy).Contents (Elt F) → (⟨S1024x1, .i32⟩ : BufTy).Contents (Elt F))
  :: StableHlo.unary main_v358 main_v360 (broadcastInDim S1024x1 ![0] bcast_S1024_S1024x1_0 : (⟨S1024, .i32⟩ : BufTy).Contents (Elt F) → (⟨S1024x1, .i32⟩ : BufTy).Contents (Elt F))
  :: [] )
/-- Stretch 50's concatenate. -/
abbrev cr_50_b : List (HloOp τ sig (Elt F)) :=
  ( StableHlo.binary main_v359 main_v360 main_v361 ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F))
  :: [] )
set_option maxHeartbeats 40000000 in
/-- Stretch 50, after its concatenate. -/
abbrev cr_50_c : List (HloOp τ sig (Elt F)) :=
  ( StableHlo.ternary main_v327 main_v361 main_v348 main_v362 ((fun x i u => Host.scatterAdd scatter_S16x1024x1024_S1024x2_S16x1024_0_12_12_1 x i u) : (⟨S16x1024x1024, .f32⟩ : BufTy).Contents (Elt F) → (⟨S1024x2, .i32⟩ : BufTy).Contents (Elt F) → (⟨S16x1024, .f32⟩ : BufTy).Contents (Elt F) → (⟨S16x1024x1024, .f32⟩ : BufTy).Contents (Elt F))
  :: StableHlo.reshape main_v362 main_v363 rfl shapeCasts_S16x1024x1024_S2x8x1024x1024
  :: StableHlo.nullary main_v364 (iotaInDim S1024x1024 32 0)
  :: StableHlo.nullary main_v365 (iotaInDim S1024x1024 32 1)
  :: StableHlo.nullary main_c_145 (constantI S_ 32 0#32)
  :: StableHlo.unary main_c_145 main_v366 (broadcastInDim S1024x1024 ![] bcast_S_S1024x1024 : (⟨S_, .i32⟩ : BufTy).Contents (Elt F) → (⟨S1024x1024, .i32⟩ : BufTy).Contents (Elt F))
  :: StableHlo.binary main_v364 main_v366 main_v367 (addi : (⟨S1024x1024, .i32⟩ : BufTy).Contents (Elt F) → (⟨S1024x1024, .i32⟩ : BufTy).Contents (Elt F) → (⟨S1024x1024, .i32⟩ : BufTy).Contents (Elt F))
  :: StableHlo.binary main_v367 main_v365 main_v368 (cmpi .eq : (⟨S1024x1024, .i32⟩ : BufTy).Contents (Elt F) → (⟨S1024x1024, .i32⟩ : BufTy).Contents (Elt F) → (⟨S1024x1024, .i1⟩ : BufTy).Contents (Elt F))
  :: StableHlo.unary main_v368 main_v369 (uitofp .f32 : (⟨S1024x1024, .i1⟩ : BufTy).Contents (Elt F) → (⟨S1024x1024, .f32⟩ : BufTy).Contents (Elt F))
  :: StableHlo.nullary main_cst_146 (constant S_ .f32 0x3F800000#32)
  :: StableHlo.unary main_cst_146 main_v370 (broadcastInDim S2x8x1024x1024 ![] bcast_S_S2x8x1024x1024 : (⟨S_, .f32⟩ : BufTy).Contents (Elt F) → (⟨S2x8x1024x1024, .f32⟩ : BufTy).Contents (Elt F))
  :: StableHlo.binary main_v370 main_v363 main_v371 (mulf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.unary main_v369 main_v372 (broadcastInDim S1x1x1024x1024 ![2, 3] bcast_S1024x1024_S1x1x1024x1024_2_3 : (⟨S1024x1024, .f32⟩ : BufTy).Contents (Elt F) → (⟨S1x1x1024x1024, .f32⟩ : BufTy).Contents (Elt F))
  :: StableHlo.unary main_v372 main_v373 (broadcastInDim S2x8x1024x1024 ![0, 1, 2, 3] bcast_S1x1x1024x1024_S2x8x1024x1024_0_1_2_3 : (⟨S1x1x1024x1024, .f32⟩ : BufTy).Contents (Elt F) → (⟨S2x8x1024x1024, .f32⟩ : BufTy).Contents (Elt F))
  :: StableHlo.binary main_v373 main_v371 main_v374 (addf : (⟨S2x8x1024x1024, .f32⟩ : BufTy).Contents (Elt F) → (⟨S2x8x1024x1024, .f32⟩ : BufTy).Contents (Elt F) → (⟨S2x8x1024x1024, .f32⟩ : BufTy).Contents (Elt F))
  :: StableHlo.binary main_v18 main_v18 main_v375 (mulf : (⟨S2x8x1024, .f32⟩ : BufTy).Contents (Elt F) → (⟨S2x8x1024, .f32⟩ : BufTy).Contents (Elt F) → (⟨S2x8x1024, .f32⟩ : BufTy).Contents (Elt F))
  :: StableHlo.nullary main_cst_147 (constant S_ .f32 0x3F800000#32)
  :: StableHlo.unary main_cst_147 main_v376 (broadcastInDim S2x8x1024 ![] bcast_S_S2x8x1024 : (⟨S_, .f32⟩ : BufTy).Contents (Elt F) → (⟨S2x8x1024, .f32⟩ : BufTy).Contents (Elt F))
  :: StableHlo.binary main_v376 main_v375 main_v377 (Host.divf : (⟨S2x8x1024, .f32⟩ : BufTy).Contents (Elt F) → (⟨S2x8x1024, .f32⟩ : BufTy).Contents (Elt F) → (⟨S2x8x1024, .f32⟩ : BufTy).Contents (Elt F))
  :: StableHlo.unary main_v377 main_v378 (broadcastInDim S2x8x1024x1 ![0, 1, 2] bcast_S2x8x1024_S2x8x1024x1_0_1_2 : (⟨S2x8x1024, .f32⟩ : BufTy).Contents (Elt F) → (⟨S2x8x1024x1, .f32⟩ : BufTy).Contents (Elt F))
  :: StableHlo.unary main_v378 main_v379 (broadcastInDim S2x8x1024x1024 ![0, 1, 2, 3] bcast_S2x8x1024x1_S2x8x1024x1024_0_1_2_3 : (⟨S2x8x1024x1, .f32⟩ : BufTy).Contents (Elt F) → (⟨S2x8x1024x1024, .f32⟩ : BufTy).Contents (Elt F))
  :: StableHlo.binary main_v379 main_v374 main_v380 (mulf : (⟨S2x8x1024x1024, .f32⟩ : BufTy).Contents (Elt F) → (⟨S2x8x1024x1024, .f32⟩ : BufTy).Contents (Elt F) → (⟨S2x8x1024x1024, .f32⟩ : BufTy).Contents (Elt F))
  :: [] )
theorem chunks_50 : (commonR : List (HloOp τ sig (Elt F))) = cr_50_a ++ cr_50_b ++ cr_50_c := rfl

end Cert.ReferenceIdeal.Hand

end
-- ==== Proof.AgreeDefs2.lean ====
/- The invariant of AgreeDefs at two more boundaries inside each stretch that holds a concatenate: right before it and right
   after it. (A concatenate packs its operands with their shapes; cutting there keeps every operand of it a buffer whose
   contents are named, so that it is handled by one congruence: equal operands, equal results.) -/
import proofs.«117756_j83829171683377_1_alg».proof.Proof.AgreeDefs
import proofs.«117756_j83829171683377_1_alg».proof.Proof.ChunksK
import proofs.«117756_j83829171683377_1_alg».proof.Proof.ChunksR

noncomputable section

namespace Cert.Bridge

open Idealize.ShloMosaic Idealize.SL.Sem

/-- Stretch 8, before its concatenate: the buffers still read agree. -/
def Agree_8a (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S16x1024, .f32⟩ : BufTy).Contents (Elt Ideal)) (WK (Proc.devRef .tc Cert.KernelIdeal.main_v81)) (WR (Proc.devRef .tc Cert.ReferenceIdeal.main_v81))
  ∧ @Eq ((⟨Cert.KernelIdeal.S1024x1, .i32⟩ : BufTy).Contents (Elt Ideal)) (WK (Proc.devRef .tc Cert.KernelIdeal.main_v92)) (WR (Proc.devRef .tc Cert.ReferenceIdeal.main_v92))
  ∧ @Eq ((⟨Cert.KernelIdeal.S1024x1, .i32⟩ : BufTy).Contents (Elt Ideal)) (WK (Proc.devRef .tc Cert.KernelIdeal.main_v93)) (WR (Proc.devRef .tc Cert.ReferenceIdeal.main_v93))
  ∧ True

/-- Stretch 8, after its concatenate. -/
def Agree_8b (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v20)) (WR (Proc.devRef .tc Cert.ReferenceIdeal.main_v20))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v22)) (WR (Proc.devRef .tc Cert.ReferenceIdeal.main_v22))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v54)) (WR (Proc.devRef .tc Cert.ReferenceIdeal.main_v54))
  ∧ @Eq ((⟨Cert.KernelIdeal.S16x1024, .f32⟩ : BufTy).Contents (Elt Ideal)) (WK (Proc.devRef .tc Cert.KernelIdeal.main_v81)) (WR (Proc.devRef .tc Cert.ReferenceIdeal.main_v81))
  ∧ @Eq ((⟨Cert.KernelIdeal.S1024x2, .i32⟩ : BufTy).Contents (Elt Ideal)) (WK (Proc.devRef .tc Cert.KernelIdeal.main_v94)) (WR (Proc.devRef .tc Cert.ReferenceIdeal.main_v94))
  ∧ True

/-- Stretch 14, before its concatenate: the buffers still read agree. -/
def Agree_14a (WK : ValK) (WR : ValR) : Prop :=
  @Eq ((⟨Cert.KernelIdeal.S16x1024, .f32⟩ : BufTy).Contents (Elt Ideal)) (WK (Proc.devRef .tc Cert.KernelIdeal.main_v122)) (WR (Proc.devRef .tc Cert.ReferenceIdeal.main_v122))
  ∧ @Eq ((⟨Cert.KernelIdeal.S1024x1, .i32⟩ : BufTy).Contents (Elt Ideal)) (WK (Proc.devRef .tc Cert.KernelIdeal.main_v133)) (WR (Proc.devRef .tc Cert.ReferenceIdeal.main_v133))
  ∧ @Eq ((⟨Cert.KernelIdeal.S1024x1, .i32⟩ : BufTy).Contents (Elt Ideal)) (WK (Proc.devRef .tc Cert.KernelIdeal.main_v134)) (WR (Proc.devRef .tc Cert.ReferenceIdeal.main_v134))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- Stretch 14, after its concatenate. -/
def Agree_14b (WK : ValK) (WR : ValR) : Prop :=
  @Eq ((⟨Cert.KernelIdeal.S16x1024, .f32⟩ : BufTy).Contents (Elt Ideal)) (WK (Proc.devRef .tc Cert.KernelIdeal.main_v122)) (WR (Proc.devRef .tc Cert.ReferenceIdeal.main_v122))
  ∧ @Eq ((⟨Cert.KernelIdeal.S1024x2, .i32⟩ : BufTy).Contents (Elt Ideal)) (WK (Proc.devRef .tc Cert.KernelIdeal.main_v135)) (WR (Proc.devRef .tc Cert.ReferenceIdeal.main_v135))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v95)) (WR (Proc.devRef .tc Cert.ReferenceIdeal.main_v95))
  ∧ True

/-- Stretch 20, before its concatenate: the buffers still read agree. -/
def Agree_20a (WK : ValK) (WR : ValR) : Prop :=
  @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S16x1024, .f32⟩ : BufTy).Contents (Elt Ideal)) (WK (Proc.devRef .tc Cert.KernelIdeal.main_v163)) (WR (Proc.devRef .tc Cert.ReferenceIdeal.main_v163))
  ∧ @Eq ((⟨Cert.KernelIdeal.S1024x1, .i32⟩ : BufTy).Contents (Elt Ideal)) (WK (Proc.devRef .tc Cert.KernelIdeal.main_v174)) (WR (Proc.devRef .tc Cert.ReferenceIdeal.main_v174))
  ∧ @Eq ((⟨Cert.KernelIdeal.S1024x1, .i32⟩ : BufTy).Contents (Elt Ideal)) (WK (Proc.devRef .tc Cert.KernelIdeal.main_v175)) (WR (Proc.devRef .tc Cert.ReferenceIdeal.main_v175))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- Stretch 20, after its concatenate. -/
def Agree_20b (WK : ValK) (WR : ValR) : Prop :=
  @Eq ((⟨Cert.KernelIdeal.S16x1024x1024, .f32⟩ : BufTy).Contents (Elt Ideal)) (WK (Proc.devRef .tc Cert.KernelIdeal.main_v136)) (WR (Proc.devRef .tc Cert.ReferenceIdeal.main_v136))
  ∧ @Eq ((⟨Cert.KernelIdeal.S16x1024, .f32⟩ : BufTy).Contents (Elt Ideal)) (WK (Proc.devRef .tc Cert.KernelIdeal.main_v163)) (WR (Proc.devRef .tc Cert.ReferenceIdeal.main_v163))
  ∧ @Eq ((⟨Cert.KernelIdeal.S1024x2, .i32⟩ : BufTy).Contents (Elt Ideal)) (WK (Proc.devRef .tc Cert.KernelIdeal.main_v176)) (WR (Proc.devRef .tc Cert.ReferenceIdeal.main_v176))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v21)) (WR (Proc.devRef .tc Cert.ReferenceIdeal.main_v21))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S16x1024, .f32⟩ : BufTy).Contents (Elt Ideal)) (WK (Proc.devRef .tc Cert.KernelIdeal.main_v24)) (WR (Proc.devRef .tc Cert.ReferenceIdeal.main_v24))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- Stretch 26, before its concatenate: the buffers still read agree. -/
def Agree_26a (WK : ValK) (WR : ValR) : Prop :=
  @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v204)) (WR (Proc.devRef .tc Cert.ReferenceIdeal.main_v204))
  ∧ @Eq ((⟨Cert.KernelIdeal.S1024x1, .i32⟩ : BufTy).Contents (Elt Ideal)) (WK (Proc.devRef .tc Cert.KernelIdeal.main_v215)) (WR (Proc.devRef .tc Cert.ReferenceIdeal.main_v215))
  ∧ @Eq ((⟨Cert.KernelIdeal.S1024x1, .i32⟩ : BufTy).Contents (Elt Ideal)) (WK (Proc.devRef .tc Cert.KernelIdeal.main_v216)) (WR (Proc.devRef .tc Cert.ReferenceIdeal.main_v216))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- Stretch 26, after its concatenate. -/
def Agree_26b (WK : ValK) (WR : ValR) : Prop :=
  @Eq ((⟨Cert.KernelIdeal.S16x1024x1024, .f32⟩ : BufTy).Contents (Elt Ideal)) (WK (Proc.devRef .tc Cert.KernelIdeal.main_v177)) (WR (Proc.devRef .tc Cert.ReferenceIdeal.main_v177))
  ∧ @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v204)) (WR (Proc.devRef .tc Cert.ReferenceIdeal.main_v204))
  ∧ @Eq ((⟨Cert.KernelIdeal.S1024x2, .i32⟩ : BufTy).Contents (Elt Ideal)) (WK (Proc.devRef .tc Cert.KernelIdeal.main_v217)) (WR (Proc.devRef .tc Cert.ReferenceIdeal.main_v217))
  ∧ @Eq ((⟨Cert.KernelIdeal.S16x1024, .f32⟩ : BufTy).Contents (Elt Ideal)) (WK (Proc.devRef .tc Cert.KernelIdeal.main_v23)) (WR (Proc.devRef .tc Cert.ReferenceIdeal.main_v23))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- Stretch 32, before its concatenate: the buffers still read agree. -/
def Agree_32a (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024, .f32⟩ : BufTy).Contents (Elt Ideal)) (WK (Proc.devRef .tc Cert.KernelIdeal.main_v242)) (WR (Proc.devRef .tc Cert.ReferenceIdeal.main_v242))
  ∧ @Eq ((⟨Cert.KernelIdeal.S1024x1, .i32⟩ : BufTy).Contents (Elt Ideal)) (WK (Proc.devRef .tc Cert.KernelIdeal.main_v253)) (WR (Proc.devRef .tc Cert.ReferenceIdeal.main_v253))
  ∧ @Eq ((⟨Cert.KernelIdeal.S1024x1, .i32⟩ : BufTy).Contents (Elt Ideal)) (WK (Proc.devRef .tc Cert.KernelIdeal.main_v254)) (WR (Proc.devRef .tc Cert.ReferenceIdeal.main_v254))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- Stretch 32, after its concatenate. -/
def Agree_32b (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v218)) (WR (Proc.devRef .tc Cert.ReferenceIdeal.main_v218))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024, .f32⟩ : BufTy).Contents (Elt Ideal)) (WK (Proc.devRef .tc Cert.KernelIdeal.main_v242)) (WR (Proc.devRef .tc Cert.ReferenceIdeal.main_v242))
  ∧ @Eq ((⟨Cert.KernelIdeal.S1024x2, .i32⟩ : BufTy).Contents (Elt Ideal)) (WK (Proc.devRef .tc Cert.KernelIdeal.main_v255)) (WR (Proc.devRef .tc Cert.ReferenceIdeal.main_v255))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ True

/-- Stretch 38, before its concatenate: the buffers still read agree. -/
def Agree_38a (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024, .f32⟩ : BufTy).Contents (Elt Ideal)) (WK (Proc.devRef .tc Cert.KernelIdeal.main_v278)) (WR (Proc.devRef .tc Cert.ReferenceIdeal.main_v278))
  ∧ @Eq ((⟨Cert.KernelIdeal.S1024x1, .i32⟩ : BufTy).Contents (Elt Ideal)) (WK (Proc.devRef .tc Cert.KernelIdeal.main_v289)) (WR (Proc.devRef .tc Cert.ReferenceIdeal.main_v289))
  ∧ @Eq ((⟨Cert.KernelIdeal.S1024x1, .i32⟩ : BufTy).Contents (Elt Ideal)) (WK (Proc.devRef .tc Cert.KernelIdeal.main_v290)) (WR (Proc.devRef .tc Cert.ReferenceIdeal.main_v290))
  ∧ True

/-- Stretch 38, after its concatenate. -/
def Agree_38b (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S16x1024x1024, .f32⟩ : BufTy).Contents (Elt Ideal)) (WK (Proc.devRef .tc Cert.KernelIdeal.main_v256)) (WR (Proc.devRef .tc Cert.ReferenceIdeal.main_v256))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024, .f32⟩ : BufTy).Contents (Elt Ideal)) (WK (Proc.devRef .tc Cert.KernelIdeal.main_v278)) (WR (Proc.devRef .tc Cert.ReferenceIdeal.main_v278))
  ∧ @Eq ((⟨Cert.KernelIdeal.S1024x2, .i32⟩ : BufTy).Contents (Elt Ideal)) (WK (Proc.devRef .tc Cert.KernelIdeal.main_v291)) (WR (Proc.devRef .tc Cert.ReferenceIdeal.main_v291))
  ∧ True

/-- Stretch 44, before its concatenate: the buffers still read agree. -/
def Agree_44a (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S16x1024, .f32⟩ : BufTy).Contents (Elt Ideal)) (WK (Proc.devRef .tc Cert.KernelIdeal.main_v313)) (WR (Proc.devRef .tc Cert.ReferenceIdeal.main_v313))
  ∧ @Eq ((⟨Cert.KernelIdeal.S1024x1, .i32⟩ : BufTy).Contents (Elt Ideal)) (WK (Proc.devRef .tc Cert.KernelIdeal.main_v324)) (WR (Proc.devRef .tc Cert.ReferenceIdeal.main_v324))
  ∧ @Eq ((⟨Cert.KernelIdeal.S1024x1, .i32⟩ : BufTy).Contents (Elt Ideal)) (WK (Proc.devRef .tc Cert.KernelIdeal.main_v325)) (WR (Proc.devRef .tc Cert.ReferenceIdeal.main_v325))
  ∧ True

/-- Stretch 44, after its concatenate. -/
def Agree_44b (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024, .f32⟩ : BufTy).Contents (Elt Ideal)) (WK (Proc.devRef .tc Cert.KernelIdeal.main_v220)) (WR (Proc.devRef .tc Cert.ReferenceIdeal.main_v220))
  ∧ @Eq ((⟨Cert.KernelIdeal.S1024, .i32⟩ : BufTy).Contents (Elt Ideal)) (WK (Proc.devRef .tc Cert.KernelIdeal.main_v26_0)) (WR (Proc.devRef .tc Cert.ReferenceIdeal.main_v26_0))
  ∧ @Eq ((⟨Cert.KernelIdeal.S1024, .i32⟩ : BufTy).Contents (Elt Ideal)) (WK (Proc.devRef .tc Cert.KernelIdeal.main_v26_1)) (WR (Proc.devRef .tc Cert.ReferenceIdeal.main_v26_1))
  ∧ @Eq ((⟨Cert.KernelIdeal.S1024, .i32⟩ : BufTy).Contents (Elt Ideal)) (WK (Proc.devRef .tc Cert.KernelIdeal.main_v27)) (WR (Proc.devRef .tc Cert.ReferenceIdeal.main_v27))
  ∧ @Eq ((⟨Cert.KernelIdeal.S16x1024x1024, .f32⟩ : BufTy).Contents (Elt Ideal)) (WK (Proc.devRef .tc Cert.KernelIdeal.main_v292)) (WR (Proc.devRef .tc Cert.ReferenceIdeal.main_v292))
  ∧ @Eq ((⟨Cert.KernelIdeal.S16x1024, .f32⟩ : BufTy).Contents (Elt Ideal)) (WK (Proc.devRef .tc Cert.KernelIdeal.main_v313)) (WR (Proc.devRef .tc Cert.ReferenceIdeal.main_v313))
  ∧ @Eq ((⟨Cert.KernelIdeal.S1024x2, .i32⟩ : BufTy).Contents (Elt Ideal)) (WK (Proc.devRef .tc Cert.KernelIdeal.main_v326)) (WR (Proc.devRef .tc Cert.ReferenceIdeal.main_v326))
  ∧ True

/-- Stretch 50, before its concatenate: the buffers still read agree. -/
def Agree_50a (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S16x1024, .f32⟩ : BufTy).Contents (Elt Ideal)) (WK (Proc.devRef .tc Cert.KernelIdeal.main_v348)) (WR (Proc.devRef .tc Cert.ReferenceIdeal.main_v348))
  ∧ @Eq ((⟨Cert.KernelIdeal.S1024x1, .i32⟩ : BufTy).Contents (Elt Ideal)) (WK (Proc.devRef .tc Cert.KernelIdeal.main_v359)) (WR (Proc.devRef .tc Cert.ReferenceIdeal.main_v359))
  ∧ @Eq ((⟨Cert.KernelIdeal.S1024x1, .i32⟩ : BufTy).Contents (Elt Ideal)) (WK (Proc.devRef .tc Cert.KernelIdeal.main_v360)) (WR (Proc.devRef .tc Cert.ReferenceIdeal.main_v360))
  ∧ True

/-- Stretch 50, after its concatenate. -/
def Agree_50b (WK : ValK) (WR : ValR) : Prop :=
  @Eq ((⟨Cert.KernelIdeal.S2x8x1024, .f32⟩ : BufTy).Contents (Elt Ideal)) (WK (Proc.devRef .tc Cert.KernelIdeal.main_v18)) (WR (Proc.devRef .tc Cert.ReferenceIdeal.main_v18))
  ∧ @Eq ((⟨Cert.KernelIdeal.S16x1024x1024, .f32⟩ : BufTy).Contents (Elt Ideal)) (WK (Proc.devRef .tc Cert.KernelIdeal.main_v327)) (WR (Proc.devRef .tc Cert.ReferenceIdeal.main_v327))
  ∧ @Eq ((⟨Cert.KernelIdeal.S16x1024, .f32⟩ : BufTy).Contents (Elt Ideal)) (WK (Proc.devRef .tc Cert.KernelIdeal.main_v348)) (WR (Proc.devRef .tc Cert.ReferenceIdeal.main_v348))
  ∧ @Eq ((⟨Cert.KernelIdeal.S1024x2, .i32⟩ : BufTy).Contents (Elt Ideal)) (WK (Proc.devRef .tc Cert.KernelIdeal.main_v361)) (WR (Proc.devRef .tc Cert.ReferenceIdeal.main_v361))
  ∧ True

end Cert.Bridge

end
-- ==== Proof.AgreeE.lean ====
/- The invariant of AgreeDefs across the stretches 8 … 8: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_8a (WK : ValK) (WR : ValR) (h : Agree_8 WK WR) :
    Agree_8a (StableHlo.after (Cert.KernelIdeal.Hand.ck_8_a (F := Ideal)) WK) (StableHlo.after (Cert.ReferenceIdeal.Hand.cr_8_a (F := Ideal)) WR) := by
  obtain ⟨h1, h2, h3, h4, h5, h6, h7, h8, h9, h10, h11, h12, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h9, rfl⟩
  obtain ⟨x10, h10K, h10R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v54)) x ∧ @Eq ((⟨Cert.KernelIdeal.S16x1024x1024, .f32⟩ : BufTy).Contents (Elt Ideal)) (WR (Proc.devRef .tc Cert.ReferenceIdeal.main_v54)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v80)) x ∧ @Eq ((⟨Cert.KernelIdeal.S1024, .i32⟩ : BufTy).Contents (Elt Ideal)) (WR (Proc.devRef .tc Cert.ReferenceIdeal.main_v80)) x := ⟨_, h11, rfl⟩
  obtain ⟨x12, h12K, h12R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v81)) x ∧ @Eq ((⟨Cert.KernelIdeal.S16x1024, .f32⟩ : BufTy).Contents (Elt Ideal)) (WR (Proc.devRef .tc Cert.ReferenceIdeal.main_v81)) x := ⟨_, h12, rfl⟩
  refine ⟨?_, ?_, ?_, ?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl

set_option maxHeartbeats 4000000 in
theorem step_8b (WK : ValK) (WR : ValR) (h : Agree_8a WK WR) :
    Agree_8b (StableHlo.after (Cert.KernelIdeal.Hand.ck_8_b (F := Ideal)) WK) (StableHlo.after (Cert.ReferenceIdeal.Hand.cr_8_b (F := Ideal)) WR) := by
  obtain ⟨h1, h2, h3, h4, h5, h6, h7, h8, h9, h10, h11, h12, h13, -⟩ := h
  refine ⟨?_, ?_, ?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h12 h13

set_option maxHeartbeats 4000000 in
theorem step_8c (WK : ValK) (WR : ValR) (h : Agree_8b WK WR) :
    Agree_9 (StableHlo.after (Cert.KernelIdeal.Hand.ck_8_c (F := Ideal)) WK) (StableHlo.after (Cert.ReferenceIdeal.Hand.cr_8_c (F := Ideal)) WR) := by
  obtain ⟨h1, h2, h3, h4, h5, h6, h7, h8, h9, h10, h11, h12, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v20)) x ∧ @Eq ((⟨Cert.KernelIdeal.S16x1024, .f32⟩ : BufTy).Contents (Elt Ideal)) (WR (Proc.devRef .tc Cert.ReferenceIdeal.main_v20)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v22)) x ∧ @Eq ((⟨Cert.KernelIdeal.S16x1024, .f32⟩ : BufTy).Contents (Elt Ideal)) (WR (Proc.devRef .tc Cert.ReferenceIdeal.main_v22)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h9, rfl⟩
  obtain ⟨x10, h10K, h10R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v54)) x ∧ @Eq ((⟨Cert.KernelIdeal.S16x1024x1024, .f32⟩ : BufTy).Contents (Elt Ideal)) (WR (Proc.devRef .tc Cert.ReferenceIdeal.main_v54)) x := ⟨_, h10, rfl⟩
  obtain ⟨x11, h11K, h11R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v81)) x ∧ @Eq ((⟨Cert.KernelIdeal.S16x1024, .f32⟩ : BufTy).Contents (Elt Ideal)) (WR (Proc.devRef .tc Cert.ReferenceIdeal.main_v81)) x := ⟨_, h11, rfl⟩
  obtain ⟨x12, h12K, h12R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v94)) x ∧ @Eq ((⟨Cert.KernelIdeal.S1024x2, .i32⟩ : BufTy).Contents (Elt Ideal)) (WR (Proc.devRef .tc Cert.ReferenceIdeal.main_v94)) x := ⟨_, h12, rfl⟩
  refine ⟨?_, ?_, ?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl

theorem step_8 (WK : ValK) (WR : ValR) (h : Agree_8 WK WR) :
    Agree_9 (StableHlo.after (Cert.KernelIdeal.GenP.hostOps0_8 (F := Ideal)) WK) (StableHlo.after (Cert.ReferenceIdeal.Hand.hostOps0_8 (F := Ideal)) WR) := by
  rw [Cert.KernelIdeal.Hand.chunks_8 (F := Ideal), Cert.ReferenceIdeal.Hand.chunks_8 (F := Ideal), StableHlo.NaryThree.after_append, StableHlo.NaryThree.after_append,
    StableHlo.NaryThree.after_append, StableHlo.NaryThree.after_append]
  exact step_8c _ _ (step_8b _ _ (step_8a _ _ h))

end Cert.Bridge

end
-- ==== Proof.AgreeF.lean ====
/- The invariant of AgreeDefs across the stretches 9 … 13: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_9 (WK : ValK) (WR : ValR) (h : Agree_9 WK WR) :
    Agree_10 (StableHlo.after (Cert.KernelIdeal.GenP.hostOps0_9 (F := Ideal)) WK) (StableHlo.after (Cert.ReferenceIdeal.Hand.hostOps0_9 (F := Ideal)) WR) := by
  obtain ⟨h1, h2, h3, h4, h5, h6, h7, h8, h9, h10, h11, h12, h13, h14, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_34)) x ∧ @Eq ((⟨Cert.KernelIdeal.S_, .i32⟩ : BufTy).Contents (Elt Ideal)) (WR (Proc.devRef .tc Cert.ReferenceIdeal.main_c_34)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_35)) x ∧ @Eq ((⟨Cert.KernelIdeal.S_, .i32⟩ : BufTy).Contents (Elt Ideal)) (WR (Proc.devRef .tc Cert.ReferenceIdeal.main_c_35)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v101)) x ∧ @Eq ((⟨Cert.KernelIdeal.S16x1024, .f32⟩ : BufTy).Contents (Elt Ideal)) (WR (Proc.devRef .tc Cert.ReferenceIdeal.main_v101)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v103)) x ∧ @Eq ((⟨Cert.KernelIdeal.S1024, .i32⟩ : BufTy).Contents (Elt Ideal)) (WR (Proc.devRef .tc Cert.ReferenceIdeal.main_v103)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v105)) x ∧ @Eq ((⟨Cert.KernelIdeal.S1024, .i32⟩ : BufTy).Contents (Elt Ideal)) (WR (Proc.devRef .tc Cert.ReferenceIdeal.main_v105)) x := ⟨_, h5, rfl⟩
  obtain ⟨x6, h6K, h6R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v116)) x ∧ @Eq ((⟨Cert.KernelIdeal.S1024, .i1⟩ : BufTy).Contents (Elt Ideal)) (WR (Proc.devRef .tc Cert.ReferenceIdeal.main_v116)) x := ⟨_, h6, rfl⟩
  obtain ⟨x7, h7K, h7R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h9, rfl⟩
  obtain ⟨x10, h10K, h10R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h12, rfl⟩
  obtain ⟨x13, h13K, h13R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h13, rfl⟩
  obtain ⟨x14, h14K, h14R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v95)) x ∧ @Eq ((⟨Cert.KernelIdeal.S16x1024x1024, .f32⟩ : BufTy).Contents (Elt Ideal)) (WR (Proc.devRef .tc Cert.ReferenceIdeal.main_v95)) x := ⟨_, h14, rfl⟩
  refine ⟨?_, ?_, ?_, ?_, ?_, ?_, ?_, ?_, ?_, ?_, ?_, ?_, trivial⟩
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h13)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h14)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_10 (WK : ValK) (WR : ValR) (h : Agree_10 WK WR) :
    Agree_11 (StableHlo.after (Cert.KernelIdeal.GenP.hostOps0_10 (F := Ideal)) WK) (StableHlo.after (Cert.ReferenceIdeal.Hand.hostOps0_10 (F := Ideal)) WR) := by
  obtain ⟨h1, h2, h3, h4, h5, h6, h7, h8, h9, h10, h11, h12, -⟩ := h
  obtain ⟨x1, h1K, h1R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v101)) x ∧ @Eq ((⟨Cert.KernelIdeal.S16x1024, .f32⟩ : BufTy).Contents (Elt Ideal)) (WR (Proc.devRef .tc Cert.ReferenceIdeal.main_v101)) x := ⟨_, h1, rfl⟩
  obtain ⟨x2, h2K, h2R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v105)) x ∧ @Eq ((⟨Cert.KernelIdeal.S1024, .i32⟩ : BufTy).Contents (Elt Ideal)) (WR (Proc.devRef .tc Cert.ReferenceIdeal.main_v105)) x := ⟨_, h2, rfl⟩
  obtain ⟨x3, h3K, h3R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v116)) x ∧ @Eq ((⟨Cert.KernelIdeal.S1024, .i1⟩ : BufTy).Contents (Elt Ideal)) (WR (Proc.devRef .tc Cert.ReferenceIdeal.main_v116)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v117)) x ∧ @Eq ((⟨Cert.KernelIdeal.S1024, .i32⟩ : BufTy).Contents (Elt Ideal)) (WR (Proc.devRef .tc Cert.ReferenceIdeal.main_v117)) x := ⟨_, h4, rfl⟩
  obtain ⟨x5, h5K, h5R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h11, rfl⟩
  obtain ⟨x12, h12K, h12R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v95)) x ∧ @Eq ((⟨Cert.KernelIdeal.S16x1024x1024, .f32⟩ : BufTy).Contents (Elt Ideal)) (WR (Proc.devRef .tc Cert.ReferenceIdeal.main_v95)) x := ⟨_, h12, rfl⟩
  refine ⟨?_, ?_, ?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_11 (WK : ValK) (WR : ValR) (h : Agree_11 WK WR) :
    Agree_12 (StableHlo.after (Cert.KernelIdeal.GenP.hostOps0_11 (F := Ideal)) WK) (StableHlo.after (Cert.ReferenceIdeal.Hand.hostOps0_11 (F := Ideal)) WR) := by
  obtain ⟨h1, h2, h3, h4, h5, h6, h7, h8, h9, h10, h11, h12, h13, h14, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_37)) x ∧ @Eq ((⟨Cert.KernelIdeal.S_, .i32⟩ : BufTy).Contents (Elt Ideal)) (WR (Proc.devRef .tc Cert.ReferenceIdeal.main_c_37)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_38)) x ∧ @Eq ((⟨Cert.KernelIdeal.S_, .i32⟩ : BufTy).Contents (Elt Ideal)) (WR (Proc.devRef .tc Cert.ReferenceIdeal.main_c_38)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v101)) x ∧ @Eq ((⟨Cert.KernelIdeal.S16x1024, .f32⟩ : BufTy).Contents (Elt Ideal)) (WR (Proc.devRef .tc Cert.ReferenceIdeal.main_v101)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v105)) x ∧ @Eq ((⟨Cert.KernelIdeal.S1024, .i32⟩ : BufTy).Contents (Elt Ideal)) (WR (Proc.devRef .tc Cert.ReferenceIdeal.main_v105)) x := ⟨_, h4, rfl⟩
  obtain ⟨x5, h5K, h5R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v116)) x ∧ @Eq ((⟨Cert.KernelIdeal.S1024, .i1⟩ : BufTy).Contents (Elt Ideal)) (WR (Proc.devRef .tc Cert.ReferenceIdeal.main_v116)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v119)) x ∧ @Eq ((⟨Cert.KernelIdeal.S1024, .i32⟩ : BufTy).Contents (Elt Ideal)) (WR (Proc.devRef .tc Cert.ReferenceIdeal.main_v119)) x := ⟨_, h6, rfl⟩
  obtain ⟨x7, h7K, h7R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h9, rfl⟩
  obtain ⟨x10, h10K, h10R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h12, rfl⟩
  obtain ⟨x13, h13K, h13R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h13, rfl⟩
  obtain ⟨x14, h14K, h14R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v95)) x ∧ @Eq ((⟨Cert.KernelIdeal.S16x1024x1024, .f32⟩ : BufTy).Contents (Elt Ideal)) (WR (Proc.devRef .tc Cert.ReferenceIdeal.main_v95)) x := ⟨_, h14, rfl⟩
  refine ⟨?_, ?_, ?_, ?_, ?_, ?_, ?_, ?_, ?_, ?_, ?_, ?_, trivial⟩
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h13)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h14)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_12 (WK : ValK) (WR : ValR) (h : Agree_12 WK WR) :
    Agree_13 (StableHlo.after (Cert.KernelIdeal.GenP.hostOps0_12 (F := Ideal)) WK) (StableHlo.after (Cert.ReferenceIdeal.Hand.hostOps0_12 (F := Ideal)) WR) := by
  obtain ⟨h1, h2, h3, h4, h5, h6, h7, h8, h9, h10, h11, h12, -⟩ := h
  obtain ⟨x1, h1K, h1R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v101)) x ∧ @Eq ((⟨Cert.KernelIdeal.S16x1024, .f32⟩ : BufTy).Contents (Elt Ideal)) (WR (Proc.devRef .tc Cert.ReferenceIdeal.main_v101)) x := ⟨_, h1, rfl⟩
  obtain ⟨x2, h2K, h2R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v116)) x ∧ @Eq ((⟨Cert.KernelIdeal.S1024, .i1⟩ : BufTy).Contents (Elt Ideal)) (WR (Proc.devRef .tc Cert.ReferenceIdeal.main_v116)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v119)) x ∧ @Eq ((⟨Cert.KernelIdeal.S1024, .i32⟩ : BufTy).Contents (Elt Ideal)) (WR (Proc.devRef .tc Cert.ReferenceIdeal.main_v119)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v120)) x ∧ @Eq ((⟨Cert.KernelIdeal.S1024, .i32⟩ : BufTy).Contents (Elt Ideal)) (WR (Proc.devRef .tc Cert.ReferenceIdeal.main_v120)) x := ⟨_, h4, rfl⟩
  obtain ⟨x5, h5K, h5R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h11, rfl⟩
  obtain ⟨x12, h12K, h12R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v95)) x ∧ @Eq ((⟨Cert.KernelIdeal.S16x1024x1024, .f32⟩ : BufTy).Contents (Elt Ideal)) (WR (Proc.devRef .tc Cert.ReferenceIdeal.main_v95)) x := ⟨_, h12, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_13 (WK : ValK) (WR : ValR) (h : Agree_13 WK WR) :
    Agree_14 (StableHlo.after (Cert.KernelIdeal.GenP.hostOps0_13 (F := Ideal)) WK) (StableHlo.after (Cert.ReferenceIdeal.Hand.hostOps0_13 (F := Ideal)) WR) := by
  obtain ⟨h1, h2, h3, h4, h5, h6, h7, h8, h9, h10, h11, h12, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_39)) x ∧ @Eq ((⟨Cert.KernelIdeal.S_, .f32⟩ : BufTy).Contents (Elt Ideal)) (WR (Proc.devRef .tc Cert.ReferenceIdeal.main_cst_39)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v101)) x ∧ @Eq ((⟨Cert.KernelIdeal.S16x1024, .f32⟩ : BufTy).Contents (Elt Ideal)) (WR (Proc.devRef .tc Cert.ReferenceIdeal.main_v101)) x := ⟨_, h2, rfl⟩
  obtain ⟨x3, h3K, h3R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v116)) x ∧ @Eq ((⟨Cert.KernelIdeal.S1024, .i1⟩ : BufTy).Contents (Elt Ideal)) (WR (Proc.devRef .tc Cert.ReferenceIdeal.main_v116)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v121)) x ∧ @Eq ((⟨Cert.KernelIdeal.S1024, .i32⟩ : BufTy).Contents (Elt Ideal)) (WR (Proc.devRef .tc Cert.ReferenceIdeal.main_v121)) x := ⟨_, h4, rfl⟩
  obtain ⟨x5, h5K, h5R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h11, rfl⟩
  obtain ⟨x12, h12K, h12R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v95)) x ∧ @Eq ((⟨Cert.KernelIdeal.S16x1024x1024, .f32⟩ : BufTy).Contents (Elt Ideal)) (WR (Proc.devRef .tc Cert.ReferenceIdeal.main_v95)) x := ⟨_, h12, rfl⟩
  refine ⟨?_, ?_, ?_, ?_, ?_, ?_, ?_, ?_, ?_, ?_, trivial⟩
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

end Cert.Bridge

end
-- ==== Proof.AgreeG.lean ====
/- The invariant of AgreeDefs across the stretches 14 … 14: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_14a (WK : ValK) (WR : ValR) (h : Agree_14 WK WR) :
    Agree_14a (StableHlo.after (Cert.KernelIdeal.Hand.ck_14_a (F := Ideal)) WK) (StableHlo.after (Cert.ReferenceIdeal.Hand.cr_14_a (F := Ideal)) WR) := by
  obtain ⟨h1, h2, h3, h4, h5, h6, h7, h8, h9, h10, -⟩ := h
  obtain ⟨x1, h1K, h1R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v121)) x ∧ @Eq ((⟨Cert.KernelIdeal.S1024, .i32⟩ : BufTy).Contents (Elt Ideal)) (WR (Proc.devRef .tc Cert.ReferenceIdeal.main_v121)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v122)) x ∧ @Eq ((⟨Cert.KernelIdeal.S16x1024, .f32⟩ : BufTy).Contents (Elt Ideal)) (WR (Proc.devRef .tc Cert.ReferenceIdeal.main_v122)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h9, rfl⟩
  obtain ⟨x10, h10K, h10R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v95)) x ∧ @Eq ((⟨Cert.KernelIdeal.S16x1024x1024, .f32⟩ : BufTy).Contents (Elt Ideal)) (WR (Proc.devRef .tc Cert.ReferenceIdeal.main_v95)) x := ⟨_, h10, rfl⟩
  refine ⟨?_, ?_, ?_, ?_, ?_, ?_, ?_, ?_, ?_, ?_, ?_, trivial⟩
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_14b (WK : ValK) (WR : ValR) (h : Agree_14a WK WR) :
    Agree_14b (StableHlo.after (Cert.KernelIdeal.Hand.ck_14_b (F := Ideal)) WK) (StableHlo.after (Cert.ReferenceIdeal.Hand.cr_14_b (F := Ideal)) WR) := by
  obtain ⟨h1, h2, h3, h4, h5, h6, h7, h8, h9, h10, h11, -⟩ := h
  refine ⟨?_, ?_, ?_, ?_, ?_, ?_, ?_, ?_, ?_, ?_, trivial⟩
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h2 h3
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_14c (WK : ValK) (WR : ValR) (h : Agree_14b WK WR) :
    Agree_15 (StableHlo.after (Cert.KernelIdeal.Hand.ck_14_c (F := Ideal)) WK) (StableHlo.after (Cert.ReferenceIdeal.Hand.cr_14_c (F := Ideal)) WR) := by
  obtain ⟨h1, h2, h3, h4, h5, h6, h7, h8, h9, h10, -⟩ := h
  obtain ⟨x1, h1K, h1R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v122)) x ∧ @Eq ((⟨Cert.KernelIdeal.S16x1024, .f32⟩ : BufTy).Contents (Elt Ideal)) (WR (Proc.devRef .tc Cert.ReferenceIdeal.main_v122)) x := ⟨_, h1, rfl⟩
  obtain ⟨x2, h2K, h2R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v135)) x ∧ @Eq ((⟨Cert.KernelIdeal.S1024x2, .i32⟩ : BufTy).Contents (Elt Ideal)) (WR (Proc.devRef .tc Cert.ReferenceIdeal.main_v135)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h9, rfl⟩
  obtain ⟨x10, h10K, h10R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v95)) x ∧ @Eq ((⟨Cert.KernelIdeal.S16x1024x1024, .f32⟩ : BufTy).Contents (Elt Ideal)) (WR (Proc.devRef .tc Cert.ReferenceIdeal.main_v95)) x := ⟨_, h10, rfl⟩
  refine ⟨?_, ?_, ?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

theorem step_14 (WK : ValK) (WR : ValR) (h : Agree_14 WK WR) :
    Agree_15 (StableHlo.after (Cert.KernelIdeal.GenP.hostOps0_14 (F := Ideal)) WK) (StableHlo.after (Cert.ReferenceIdeal.Hand.hostOps0_14 (F := Ideal)) WR) := by
  rw [Cert.KernelIdeal.Hand.chunks_14 (F := Ideal), Cert.ReferenceIdeal.Hand.chunks_14 (F := Ideal), StableHlo.NaryThree.after_append, StableHlo.NaryThree.after_append,
    StableHlo.NaryThree.after_append, StableHlo.NaryThree.after_append]
  exact step_14c _ _ (step_14b _ _ (step_14a _ _ h))

end Cert.Bridge

end
-- ==== Proof.AgreeH.lean ====
/- The invariant of AgreeDefs across the stretches 15 … 19: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_15 (WK : ValK) (WR : ValR) (h : Agree_15 WK WR) :
    Agree_16 (StableHlo.after (Cert.KernelIdeal.GenP.hostOps0_15 (F := Ideal)) WK) (StableHlo.after (Cert.ReferenceIdeal.Hand.hostOps0_15 (F := Ideal)) WR) := by
  obtain ⟨h1, h2, h3, h4, h5, h6, h7, h8, h9, h10, h11, h12, h13, h14, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_52)) x ∧ @Eq ((⟨Cert.KernelIdeal.S_, .i32⟩ : BufTy).Contents (Elt Ideal)) (WR (Proc.devRef .tc Cert.ReferenceIdeal.main_c_52)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_53)) x ∧ @Eq ((⟨Cert.KernelIdeal.S_, .i32⟩ : BufTy).Contents (Elt Ideal)) (WR (Proc.devRef .tc Cert.ReferenceIdeal.main_c_53)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v136)) x ∧ @Eq ((⟨Cert.KernelIdeal.S16x1024x1024, .f32⟩ : BufTy).Contents (Elt Ideal)) (WR (Proc.devRef .tc Cert.ReferenceIdeal.main_v136)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v142)) x ∧ @Eq ((⟨Cert.KernelIdeal.S16x1024, .f32⟩ : BufTy).Contents (Elt Ideal)) (WR (Proc.devRef .tc Cert.ReferenceIdeal.main_v142)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v144)) x ∧ @Eq ((⟨Cert.KernelIdeal.S1024, .i32⟩ : BufTy).Contents (Elt Ideal)) (WR (Proc.devRef .tc Cert.ReferenceIdeal.main_v144)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v146)) x ∧ @Eq ((⟨Cert.KernelIdeal.S1024, .i32⟩ : BufTy).Contents (Elt Ideal)) (WR (Proc.devRef .tc Cert.ReferenceIdeal.main_v146)) x := ⟨_, h6, rfl⟩
  obtain ⟨x7, h7K, h7R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v157)) x ∧ @Eq ((⟨Cert.KernelIdeal.S1024, .i1⟩ : BufTy).Contents (Elt Ideal)) (WR (Proc.devRef .tc Cert.ReferenceIdeal.main_v157)) x := ⟨_, h7, rfl⟩
  obtain ⟨x8, h8K, h8R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h9, rfl⟩
  obtain ⟨x10, h10K, h10R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h10, rfl⟩
  obtain ⟨x11, h11K, h11R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h12, rfl⟩
  obtain ⟨x13, h13K, h13R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h13, rfl⟩
  obtain ⟨x14, h14K, h14R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h14, rfl⟩
  refine ⟨?_, ?_, ?_, ?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h13)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h14)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_16 (WK : ValK) (WR : ValR) (h : Agree_16 WK WR) :
    Agree_17 (StableHlo.after (Cert.KernelIdeal.GenP.hostOps0_16 (F := Ideal)) WK) (StableHlo.after (Cert.ReferenceIdeal.Hand.hostOps0_16 (F := Ideal)) WR) := by
  obtain ⟨h1, h2, h3, h4, h5, h6, h7, h8, h9, h10, h11, h12, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v136)) x ∧ @Eq ((⟨Cert.KernelIdeal.S16x1024x1024, .f32⟩ : BufTy).Contents (Elt Ideal)) (WR (Proc.devRef .tc Cert.ReferenceIdeal.main_v136)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v142)) x ∧ @Eq ((⟨Cert.KernelIdeal.S16x1024, .f32⟩ : BufTy).Contents (Elt Ideal)) (WR (Proc.devRef .tc Cert.ReferenceIdeal.main_v142)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v146)) x ∧ @Eq ((⟨Cert.KernelIdeal.S1024, .i32⟩ : BufTy).Contents (Elt Ideal)) (WR (Proc.devRef .tc Cert.ReferenceIdeal.main_v146)) x := ⟨_, h3, rfl⟩
  obtain ⟨x4, h4K, h4R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v157)) x ∧ @Eq ((⟨Cert.KernelIdeal.S1024, .i1⟩ : BufTy).Contents (Elt Ideal)) (WR (Proc.devRef .tc Cert.ReferenceIdeal.main_v157)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v158)) x ∧ @Eq ((⟨Cert.KernelIdeal.S1024, .i32⟩ : BufTy).Contents (Elt Ideal)) (WR (Proc.devRef .tc Cert.ReferenceIdeal.main_v158)) x := ⟨_, h5, rfl⟩
  obtain ⟨x6, h6K, h6R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h12, rfl⟩
  refine ⟨?_, ?_, ?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_17 (WK : ValK) (WR : ValR) (h : Agree_17 WK WR) :
    Agree_18 (StableHlo.after (Cert.KernelIdeal.GenP.hostOps0_17 (F := Ideal)) WK) (StableHlo.after (Cert.ReferenceIdeal.Hand.hostOps0_17 (F := Ideal)) WR) := by
  obtain ⟨h1, h2, h3, h4, h5, h6, h7, h8, h9, h10, h11, h12, h13, h14, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_55)) x ∧ @Eq ((⟨Cert.KernelIdeal.S_, .i32⟩ : BufTy).Contents (Elt Ideal)) (WR (Proc.devRef .tc Cert.ReferenceIdeal.main_c_55)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_56)) x ∧ @Eq ((⟨Cert.KernelIdeal.S_, .i32⟩ : BufTy).Contents (Elt Ideal)) (WR (Proc.devRef .tc Cert.ReferenceIdeal.main_c_56)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v136)) x ∧ @Eq ((⟨Cert.KernelIdeal.S16x1024x1024, .f32⟩ : BufTy).Contents (Elt Ideal)) (WR (Proc.devRef .tc Cert.ReferenceIdeal.main_v136)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v142)) x ∧ @Eq ((⟨Cert.KernelIdeal.S16x1024, .f32⟩ : BufTy).Contents (Elt Ideal)) (WR (Proc.devRef .tc Cert.ReferenceIdeal.main_v142)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v146)) x ∧ @Eq ((⟨Cert.KernelIdeal.S1024, .i32⟩ : BufTy).Contents (Elt Ideal)) (WR (Proc.devRef .tc Cert.ReferenceIdeal.main_v146)) x := ⟨_, h5, rfl⟩
  obtain ⟨x6, h6K, h6R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v157)) x ∧ @Eq ((⟨Cert.KernelIdeal.S1024, .i1⟩ : BufTy).Contents (Elt Ideal)) (WR (Proc.devRef .tc Cert.ReferenceIdeal.main_v157)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v160)) x ∧ @Eq ((⟨Cert.KernelIdeal.S1024, .i32⟩ : BufTy).Contents (Elt Ideal)) (WR (Proc.devRef .tc Cert.ReferenceIdeal.main_v160)) x := ⟨_, h7, rfl⟩
  obtain ⟨x8, h8K, h8R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h9, rfl⟩
  obtain ⟨x10, h10K, h10R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h10, rfl⟩
  obtain ⟨x11, h11K, h11R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h12, rfl⟩
  obtain ⟨x13, h13K, h13R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h13, rfl⟩
  obtain ⟨x14, h14K, h14R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h14, rfl⟩
  refine ⟨?_, ?_, ?_, ?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h13K, h14K, h1R, h2R, h3R, h4R, h5R, h6R, h7R, h8R, h9R, h10R, h11R, h12R, h13R, h14R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h13)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h14)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_18 (WK : ValK) (WR : ValR) (h : Agree_18 WK WR) :
    Agree_19 (StableHlo.after (Cert.KernelIdeal.GenP.hostOps0_18 (F := Ideal)) WK) (StableHlo.after (Cert.ReferenceIdeal.Hand.hostOps0_18 (F := Ideal)) WR) := by
  obtain ⟨h1, h2, h3, h4, h5, h6, h7, h8, h9, h10, h11, h12, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v136)) x ∧ @Eq ((⟨Cert.KernelIdeal.S16x1024x1024, .f32⟩ : BufTy).Contents (Elt Ideal)) (WR (Proc.devRef .tc Cert.ReferenceIdeal.main_v136)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v142)) x ∧ @Eq ((⟨Cert.KernelIdeal.S16x1024, .f32⟩ : BufTy).Contents (Elt Ideal)) (WR (Proc.devRef .tc Cert.ReferenceIdeal.main_v142)) x := ⟨_, h2, rfl⟩
  obtain ⟨x3, h3K, h3R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v157)) x ∧ @Eq ((⟨Cert.KernelIdeal.S1024, .i1⟩ : BufTy).Contents (Elt Ideal)) (WR (Proc.devRef .tc Cert.ReferenceIdeal.main_v157)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v160)) x ∧ @Eq ((⟨Cert.KernelIdeal.S1024, .i32⟩ : BufTy).Contents (Elt Ideal)) (WR (Proc.devRef .tc Cert.ReferenceIdeal.main_v160)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v161)) x ∧ @Eq ((⟨Cert.KernelIdeal.S1024, .i32⟩ : BufTy).Contents (Elt Ideal)) (WR (Proc.devRef .tc Cert.ReferenceIdeal.main_v161)) x := ⟨_, h5, rfl⟩
  obtain ⟨x6, h6K, h6R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h12, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_19 (WK : ValK) (WR : ValR) (h : Agree_19 WK WR) :
    Agree_20 (StableHlo.after (Cert.KernelIdeal.GenP.hostOps0_19 (F := Ideal)) WK) (StableHlo.after (Cert.ReferenceIdeal.Hand.hostOps0_19 (F := Ideal)) WR) := by
  obtain ⟨h1, h2, h3, h4, h5, h6, h7, h8, h9, h10, h11, h12, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_57)) x ∧ @Eq ((⟨Cert.KernelIdeal.S_, .f32⟩ : BufTy).Contents (Elt Ideal)) (WR (Proc.devRef .tc Cert.ReferenceIdeal.main_cst_57)) x := ⟨_, h1, rfl⟩
  obtain ⟨x2, h2K, h2R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v136)) x ∧ @Eq ((⟨Cert.KernelIdeal.S16x1024x1024, .f32⟩ : BufTy).Contents (Elt Ideal)) (WR (Proc.devRef .tc Cert.ReferenceIdeal.main_v136)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v142)) x ∧ @Eq ((⟨Cert.KernelIdeal.S16x1024, .f32⟩ : BufTy).Contents (Elt Ideal)) (WR (Proc.devRef .tc Cert.ReferenceIdeal.main_v142)) x := ⟨_, h3, rfl⟩
  obtain ⟨x4, h4K, h4R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v157)) x ∧ @Eq ((⟨Cert.KernelIdeal.S1024, .i1⟩ : BufTy).Contents (Elt Ideal)) (WR (Proc.devRef .tc Cert.ReferenceIdeal.main_v157)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v162)) x ∧ @Eq ((⟨Cert.KernelIdeal.S1024, .i32⟩ : BufTy).Contents (Elt Ideal)) (WR (Proc.devRef .tc Cert.ReferenceIdeal.main_v162)) x := ⟨_, h5, rfl⟩
  obtain ⟨x6, h6K, h6R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h12, rfl⟩
  refine ⟨?_, ?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

end Cert.Bridge

end
-- ==== Proof.AgreeI.lean ====
/- The invariant of AgreeDefs across the stretches 20 … 20: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_20a (WK : ValK) (WR : ValR) (h : Agree_20 WK WR) :
    Agree_20a (StableHlo.after (Cert.KernelIdeal.Hand.ck_20_a (F := Ideal)) WK) (StableHlo.after (Cert.ReferenceIdeal.Hand.cr_20_a (F := Ideal)) WR) := by
  obtain ⟨h1, h2, h3, h4, h5, h6, h7, h8, h9, h10, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v136)) x ∧ @Eq ((⟨Cert.KernelIdeal.S16x1024x1024, .f32⟩ : BufTy).Contents (Elt Ideal)) (WR (Proc.devRef .tc Cert.ReferenceIdeal.main_v136)) x := ⟨_, h1, rfl⟩
  obtain ⟨x2, h2K, h2R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v162)) x ∧ @Eq ((⟨Cert.KernelIdeal.S1024, .i32⟩ : BufTy).Contents (Elt Ideal)) (WR (Proc.devRef .tc Cert.ReferenceIdeal.main_v162)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v163)) x ∧ @Eq ((⟨Cert.KernelIdeal.S16x1024, .f32⟩ : BufTy).Contents (Elt Ideal)) (WR (Proc.devRef .tc Cert.ReferenceIdeal.main_v163)) x := ⟨_, h3, rfl⟩
  obtain ⟨x4, h4K, h4R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_20b (WK : ValK) (WR : ValR) (h : Agree_20a WK WR) :
    Agree_20b (StableHlo.after (Cert.KernelIdeal.Hand.ck_20_b (F := Ideal)) WK) (StableHlo.after (Cert.ReferenceIdeal.Hand.cr_20_b (F := Ideal)) WR) := by
  obtain ⟨h1, h2, h3, h4, h5, h6, h7, h8, h9, h10, h11, -⟩ := h
  refine ⟨?_, ?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h3 h4
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_20c (WK : ValK) (WR : ValR) (h : Agree_20b WK WR) :
    Agree_21 (StableHlo.after (Cert.KernelIdeal.Hand.ck_20_c (F := Ideal)) WK) (StableHlo.after (Cert.ReferenceIdeal.Hand.cr_20_c (F := Ideal)) WR) := by
  obtain ⟨h1, h2, h3, h4, h5, h6, h7, h8, h9, h10, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v136)) x ∧ @Eq ((⟨Cert.KernelIdeal.S16x1024x1024, .f32⟩ : BufTy).Contents (Elt Ideal)) (WR (Proc.devRef .tc Cert.ReferenceIdeal.main_v136)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v163)) x ∧ @Eq ((⟨Cert.KernelIdeal.S16x1024, .f32⟩ : BufTy).Contents (Elt Ideal)) (WR (Proc.devRef .tc Cert.ReferenceIdeal.main_v163)) x := ⟨_, h2, rfl⟩
  obtain ⟨x3, h3K, h3R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v176)) x ∧ @Eq ((⟨Cert.KernelIdeal.S1024x2, .i32⟩ : BufTy).Contents (Elt Ideal)) (WR (Proc.devRef .tc Cert.ReferenceIdeal.main_v176)) x := ⟨_, h3, rfl⟩
  obtain ⟨x4, h4K, h4R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v21)) x ∧ @Eq ((⟨Cert.KernelIdeal.S16x1024, .f32⟩ : BufTy).Contents (Elt Ideal)) (WR (Proc.devRef .tc Cert.ReferenceIdeal.main_v21)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v24)) x ∧ @Eq ((⟨Cert.KernelIdeal.S16x1024, .f32⟩ : BufTy).Contents (Elt Ideal)) (WR (Proc.devRef .tc Cert.ReferenceIdeal.main_v24)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

theorem step_20 (WK : ValK) (WR : ValR) (h : Agree_20 WK WR) :
    Agree_21 (StableHlo.after (Cert.KernelIdeal.GenP.hostOps0_20 (F := Ideal)) WK) (StableHlo.after (Cert.ReferenceIdeal.Hand.hostOps0_20 (F := Ideal)) WR) := by
  rw [Cert.KernelIdeal.Hand.chunks_20 (F := Ideal), Cert.ReferenceIdeal.Hand.chunks_20 (F := Ideal), StableHlo.NaryThree.after_append, StableHlo.NaryThree.after_append,
    StableHlo.NaryThree.after_append, StableHlo.NaryThree.after_append]
  exact step_20c _ _ (step_20b _ _ (step_20a _ _ h))

end Cert.Bridge

end
-- ==== Proof.AgreeJ.lean ====
/- The invariant of AgreeDefs across the stretches 21 … 25: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_21 (WK : ValK) (WR : ValR) (h : Agree_21 WK WR) :
    Agree_22 (StableHlo.after (Cert.KernelIdeal.GenP.hostOps0_21 (F := Ideal)) WK) (StableHlo.after (Cert.ReferenceIdeal.Hand.hostOps0_21 (F := Ideal)) WR) := by
  obtain ⟨h1, h2, h3, h4, h5, h6, h7, h8, h9, h10, h11, h12, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_70)) x ∧ @Eq ((⟨Cert.KernelIdeal.S_, .i32⟩ : BufTy).Contents (Elt Ideal)) (WR (Proc.devRef .tc Cert.ReferenceIdeal.main_c_70)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_71)) x ∧ @Eq ((⟨Cert.KernelIdeal.S_, .i32⟩ : BufTy).Contents (Elt Ideal)) (WR (Proc.devRef .tc Cert.ReferenceIdeal.main_c_71)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v177)) x ∧ @Eq ((⟨Cert.KernelIdeal.S16x1024x1024, .f32⟩ : BufTy).Contents (Elt Ideal)) (WR (Proc.devRef .tc Cert.ReferenceIdeal.main_v177)) x := ⟨_, h3, rfl⟩
  obtain ⟨x4, h4K, h4R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v183)) x ∧ @Eq ((⟨Cert.KernelIdeal.S16x1024, .f32⟩ : BufTy).Contents (Elt Ideal)) (WR (Proc.devRef .tc Cert.ReferenceIdeal.main_v183)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v185)) x ∧ @Eq ((⟨Cert.KernelIdeal.S1024, .i32⟩ : BufTy).Contents (Elt Ideal)) (WR (Proc.devRef .tc Cert.ReferenceIdeal.main_v185)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v187)) x ∧ @Eq ((⟨Cert.KernelIdeal.S1024, .i32⟩ : BufTy).Contents (Elt Ideal)) (WR (Proc.devRef .tc Cert.ReferenceIdeal.main_v187)) x := ⟨_, h7, rfl⟩
  obtain ⟨x8, h8K, h8R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v198)) x ∧ @Eq ((⟨Cert.KernelIdeal.S1024, .i1⟩ : BufTy).Contents (Elt Ideal)) (WR (Proc.devRef .tc Cert.ReferenceIdeal.main_v198)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h12, rfl⟩
  refine ⟨?_, ?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_22 (WK : ValK) (WR : ValR) (h : Agree_22 WK WR) :
    Agree_23 (StableHlo.after (Cert.KernelIdeal.GenP.hostOps0_22 (F := Ideal)) WK) (StableHlo.after (Cert.ReferenceIdeal.Hand.hostOps0_22 (F := Ideal)) WR) := by
  obtain ⟨h1, h2, h3, h4, h5, h6, h7, h8, h9, h10, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v177)) x ∧ @Eq ((⟨Cert.KernelIdeal.S16x1024x1024, .f32⟩ : BufTy).Contents (Elt Ideal)) (WR (Proc.devRef .tc Cert.ReferenceIdeal.main_v177)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v183)) x ∧ @Eq ((⟨Cert.KernelIdeal.S16x1024, .f32⟩ : BufTy).Contents (Elt Ideal)) (WR (Proc.devRef .tc Cert.ReferenceIdeal.main_v183)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v187)) x ∧ @Eq ((⟨Cert.KernelIdeal.S1024, .i32⟩ : BufTy).Contents (Elt Ideal)) (WR (Proc.devRef .tc Cert.ReferenceIdeal.main_v187)) x := ⟨_, h4, rfl⟩
  obtain ⟨x5, h5K, h5R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v198)) x ∧ @Eq ((⟨Cert.KernelIdeal.S1024, .i1⟩ : BufTy).Contents (Elt Ideal)) (WR (Proc.devRef .tc Cert.ReferenceIdeal.main_v198)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v199)) x ∧ @Eq ((⟨Cert.KernelIdeal.S1024, .i32⟩ : BufTy).Contents (Elt Ideal)) (WR (Proc.devRef .tc Cert.ReferenceIdeal.main_v199)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_23 (WK : ValK) (WR : ValR) (h : Agree_23 WK WR) :
    Agree_24 (StableHlo.after (Cert.KernelIdeal.GenP.hostOps0_23 (F := Ideal)) WK) (StableHlo.after (Cert.ReferenceIdeal.Hand.hostOps0_23 (F := Ideal)) WR) := by
  obtain ⟨h1, h2, h3, h4, h5, h6, h7, h8, h9, h10, h11, h12, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_73)) x ∧ @Eq ((⟨Cert.KernelIdeal.S_, .i32⟩ : BufTy).Contents (Elt Ideal)) (WR (Proc.devRef .tc Cert.ReferenceIdeal.main_c_73)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_74)) x ∧ @Eq ((⟨Cert.KernelIdeal.S_, .i32⟩ : BufTy).Contents (Elt Ideal)) (WR (Proc.devRef .tc Cert.ReferenceIdeal.main_c_74)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v177)) x ∧ @Eq ((⟨Cert.KernelIdeal.S16x1024x1024, .f32⟩ : BufTy).Contents (Elt Ideal)) (WR (Proc.devRef .tc Cert.ReferenceIdeal.main_v177)) x := ⟨_, h3, rfl⟩
  obtain ⟨x4, h4K, h4R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v183)) x ∧ @Eq ((⟨Cert.KernelIdeal.S16x1024, .f32⟩ : BufTy).Contents (Elt Ideal)) (WR (Proc.devRef .tc Cert.ReferenceIdeal.main_v183)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v187)) x ∧ @Eq ((⟨Cert.KernelIdeal.S1024, .i32⟩ : BufTy).Contents (Elt Ideal)) (WR (Proc.devRef .tc Cert.ReferenceIdeal.main_v187)) x := ⟨_, h6, rfl⟩
  obtain ⟨x7, h7K, h7R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v198)) x ∧ @Eq ((⟨Cert.KernelIdeal.S1024, .i1⟩ : BufTy).Contents (Elt Ideal)) (WR (Proc.devRef .tc Cert.ReferenceIdeal.main_v198)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v201)) x ∧ @Eq ((⟨Cert.KernelIdeal.S1024, .i32⟩ : BufTy).Contents (Elt Ideal)) (WR (Proc.devRef .tc Cert.ReferenceIdeal.main_v201)) x := ⟨_, h8, rfl⟩
  obtain ⟨x9, h9K, h9R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h12, rfl⟩
  refine ⟨?_, ?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_24 (WK : ValK) (WR : ValR) (h : Agree_24 WK WR) :
    Agree_25 (StableHlo.after (Cert.KernelIdeal.GenP.hostOps0_24 (F := Ideal)) WK) (StableHlo.after (Cert.ReferenceIdeal.Hand.hostOps0_24 (F := Ideal)) WR) := by
  obtain ⟨h1, h2, h3, h4, h5, h6, h7, h8, h9, h10, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v177)) x ∧ @Eq ((⟨Cert.KernelIdeal.S16x1024x1024, .f32⟩ : BufTy).Contents (Elt Ideal)) (WR (Proc.devRef .tc Cert.ReferenceIdeal.main_v177)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v183)) x ∧ @Eq ((⟨Cert.KernelIdeal.S16x1024, .f32⟩ : BufTy).Contents (Elt Ideal)) (WR (Proc.devRef .tc Cert.ReferenceIdeal.main_v183)) x := ⟨_, h3, rfl⟩
  obtain ⟨x4, h4K, h4R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v198)) x ∧ @Eq ((⟨Cert.KernelIdeal.S1024, .i1⟩ : BufTy).Contents (Elt Ideal)) (WR (Proc.devRef .tc Cert.ReferenceIdeal.main_v198)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v201)) x ∧ @Eq ((⟨Cert.KernelIdeal.S1024, .i32⟩ : BufTy).Contents (Elt Ideal)) (WR (Proc.devRef .tc Cert.ReferenceIdeal.main_v201)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v202)) x ∧ @Eq ((⟨Cert.KernelIdeal.S1024, .i32⟩ : BufTy).Contents (Elt Ideal)) (WR (Proc.devRef .tc Cert.ReferenceIdeal.main_v202)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_25 (WK : ValK) (WR : ValR) (h : Agree_25 WK WR) :
    Agree_26 (StableHlo.after (Cert.KernelIdeal.GenP.hostOps0_25 (F := Ideal)) WK) (StableHlo.after (Cert.ReferenceIdeal.Hand.hostOps0_25 (F := Ideal)) WR) := by
  obtain ⟨h1, h2, h3, h4, h5, h6, h7, h8, h9, h10, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_75)) x ∧ @Eq ((⟨Cert.KernelIdeal.S_, .f32⟩ : BufTy).Contents (Elt Ideal)) (WR (Proc.devRef .tc Cert.ReferenceIdeal.main_cst_75)) x := ⟨_, h1, rfl⟩
  obtain ⟨x2, h2K, h2R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v177)) x ∧ @Eq ((⟨Cert.KernelIdeal.S16x1024x1024, .f32⟩ : BufTy).Contents (Elt Ideal)) (WR (Proc.devRef .tc Cert.ReferenceIdeal.main_v177)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v183)) x ∧ @Eq ((⟨Cert.KernelIdeal.S16x1024, .f32⟩ : BufTy).Contents (Elt Ideal)) (WR (Proc.devRef .tc Cert.ReferenceIdeal.main_v183)) x := ⟨_, h4, rfl⟩
  obtain ⟨x5, h5K, h5R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v198)) x ∧ @Eq ((⟨Cert.KernelIdeal.S1024, .i1⟩ : BufTy).Contents (Elt Ideal)) (WR (Proc.devRef .tc Cert.ReferenceIdeal.main_v198)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v203)) x ∧ @Eq ((⟨Cert.KernelIdeal.S1024, .i32⟩ : BufTy).Contents (Elt Ideal)) (WR (Proc.devRef .tc Cert.ReferenceIdeal.main_v203)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

end Cert.Bridge

end
-- ==== Proof.AgreeK.lean ====
/- The invariant of AgreeDefs across the stretches 26 … 26: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_26a (WK : ValK) (WR : ValR) (h : Agree_26 WK WR) :
    Agree_26a (StableHlo.after (Cert.KernelIdeal.Hand.ck_26_a (F := Ideal)) WK) (StableHlo.after (Cert.ReferenceIdeal.Hand.cr_26_a (F := Ideal)) WR) := by
  obtain ⟨h1, h2, h3, h4, h5, h6, h7, h8, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v177)) x ∧ @Eq ((⟨Cert.KernelIdeal.S16x1024x1024, .f32⟩ : BufTy).Contents (Elt Ideal)) (WR (Proc.devRef .tc Cert.ReferenceIdeal.main_v177)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v203)) x ∧ @Eq ((⟨Cert.KernelIdeal.S1024, .i32⟩ : BufTy).Contents (Elt Ideal)) (WR (Proc.devRef .tc Cert.ReferenceIdeal.main_v203)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v204)) x ∧ @Eq ((⟨Cert.KernelIdeal.S16x1024, .f32⟩ : BufTy).Contents (Elt Ideal)) (WR (Proc.devRef .tc Cert.ReferenceIdeal.main_v204)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h8, rfl⟩
  refine ⟨?_, ?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_26b (WK : ValK) (WR : ValR) (h : Agree_26a WK WR) :
    Agree_26b (StableHlo.after (Cert.KernelIdeal.Hand.ck_26_b (F := Ideal)) WK) (StableHlo.after (Cert.ReferenceIdeal.Hand.cr_26_b (F := Ideal)) WR) := by
  obtain ⟨h1, h2, h3, h4, h5, h6, h7, h8, h9, -⟩ := h
  refine ⟨?_, ?_, ?_, ?_, ?_, ?_, ?_, ?_, trivial⟩
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h4 h5
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_26c (WK : ValK) (WR : ValR) (h : Agree_26b WK WR) :
    Agree_27 (StableHlo.after (Cert.KernelIdeal.Hand.ck_26_c (F := Ideal)) WK) (StableHlo.after (Cert.ReferenceIdeal.Hand.cr_26_c (F := Ideal)) WR) := by
  obtain ⟨h1, h2, h3, h4, h5, h6, h7, h8, -⟩ := h
  obtain ⟨x1, h1K, h1R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v177)) x ∧ @Eq ((⟨Cert.KernelIdeal.S16x1024x1024, .f32⟩ : BufTy).Contents (Elt Ideal)) (WR (Proc.devRef .tc Cert.ReferenceIdeal.main_v177)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v204)) x ∧ @Eq ((⟨Cert.KernelIdeal.S16x1024, .f32⟩ : BufTy).Contents (Elt Ideal)) (WR (Proc.devRef .tc Cert.ReferenceIdeal.main_v204)) x := ⟨_, h3, rfl⟩
  obtain ⟨x4, h4K, h4R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v217)) x ∧ @Eq ((⟨Cert.KernelIdeal.S1024x2, .i32⟩ : BufTy).Contents (Elt Ideal)) (WR (Proc.devRef .tc Cert.ReferenceIdeal.main_v217)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v23)) x ∧ @Eq ((⟨Cert.KernelIdeal.S16x1024, .f32⟩ : BufTy).Contents (Elt Ideal)) (WR (Proc.devRef .tc Cert.ReferenceIdeal.main_v23)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h8, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

theorem step_26 (WK : ValK) (WR : ValR) (h : Agree_26 WK WR) :
    Agree_27 (StableHlo.after (Cert.KernelIdeal.GenP.hostOps0_26 (F := Ideal)) WK) (StableHlo.after (Cert.ReferenceIdeal.Hand.hostOps0_26 (F := Ideal)) WR) := by
  rw [Cert.KernelIdeal.Hand.chunks_26 (F := Ideal), Cert.ReferenceIdeal.Hand.chunks_26 (F := Ideal), StableHlo.NaryThree.after_append, StableHlo.NaryThree.after_append,
    StableHlo.NaryThree.after_append, StableHlo.NaryThree.after_append]
  exact step_26c _ _ (step_26b _ _ (step_26a _ _ h))

end Cert.Bridge

end
-- ==== Proof.AgreeL.lean ====
/- The invariant of AgreeDefs across the stretches 27 … 31: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_27 (WK : ValK) (WR : ValR) (h : Agree_27 WK WR) :
    Agree_28 (StableHlo.after (Cert.KernelIdeal.GenP.hostOps0_27 (F := Ideal)) WK) (StableHlo.after (Cert.ReferenceIdeal.Hand.hostOps0_27 (F := Ideal)) WR) := by
  obtain ⟨h1, h2, h3, h4, h5, h6, h7, h8, h9, h10, h11, h12, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_87)) x ∧ @Eq ((⟨Cert.KernelIdeal.S_, .i32⟩ : BufTy).Contents (Elt Ideal)) (WR (Proc.devRef .tc Cert.ReferenceIdeal.main_c_87)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_88)) x ∧ @Eq ((⟨Cert.KernelIdeal.S_, .i32⟩ : BufTy).Contents (Elt Ideal)) (WR (Proc.devRef .tc Cert.ReferenceIdeal.main_c_88)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v218)) x ∧ @Eq ((⟨Cert.KernelIdeal.S16x1024x1024, .f32⟩ : BufTy).Contents (Elt Ideal)) (WR (Proc.devRef .tc Cert.ReferenceIdeal.main_v218)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v221)) x ∧ @Eq ((⟨Cert.KernelIdeal.S16x1024, .f32⟩ : BufTy).Contents (Elt Ideal)) (WR (Proc.devRef .tc Cert.ReferenceIdeal.main_v221)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v223)) x ∧ @Eq ((⟨Cert.KernelIdeal.S1024, .i32⟩ : BufTy).Contents (Elt Ideal)) (WR (Proc.devRef .tc Cert.ReferenceIdeal.main_v223)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v225)) x ∧ @Eq ((⟨Cert.KernelIdeal.S1024, .i32⟩ : BufTy).Contents (Elt Ideal)) (WR (Proc.devRef .tc Cert.ReferenceIdeal.main_v225)) x := ⟨_, h8, rfl⟩
  obtain ⟨x9, h9K, h9R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v236)) x ∧ @Eq ((⟨Cert.KernelIdeal.S1024, .i1⟩ : BufTy).Contents (Elt Ideal)) (WR (Proc.devRef .tc Cert.ReferenceIdeal.main_v236)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h12, rfl⟩
  refine ⟨?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_28 (WK : ValK) (WR : ValR) (h : Agree_28 WK WR) :
    Agree_29 (StableHlo.after (Cert.KernelIdeal.GenP.hostOps0_28 (F := Ideal)) WK) (StableHlo.after (Cert.ReferenceIdeal.Hand.hostOps0_28 (F := Ideal)) WR) := by
  obtain ⟨h1, h2, h3, h4, h5, h6, h7, h8, h9, h10, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v218)) x ∧ @Eq ((⟨Cert.KernelIdeal.S16x1024x1024, .f32⟩ : BufTy).Contents (Elt Ideal)) (WR (Proc.devRef .tc Cert.ReferenceIdeal.main_v218)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v221)) x ∧ @Eq ((⟨Cert.KernelIdeal.S16x1024, .f32⟩ : BufTy).Contents (Elt Ideal)) (WR (Proc.devRef .tc Cert.ReferenceIdeal.main_v221)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v225)) x ∧ @Eq ((⟨Cert.KernelIdeal.S1024, .i32⟩ : BufTy).Contents (Elt Ideal)) (WR (Proc.devRef .tc Cert.ReferenceIdeal.main_v225)) x := ⟨_, h5, rfl⟩
  obtain ⟨x6, h6K, h6R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v236)) x ∧ @Eq ((⟨Cert.KernelIdeal.S1024, .i1⟩ : BufTy).Contents (Elt Ideal)) (WR (Proc.devRef .tc Cert.ReferenceIdeal.main_v236)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v237)) x ∧ @Eq ((⟨Cert.KernelIdeal.S1024, .i32⟩ : BufTy).Contents (Elt Ideal)) (WR (Proc.devRef .tc Cert.ReferenceIdeal.main_v237)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_29 (WK : ValK) (WR : ValR) (h : Agree_29 WK WR) :
    Agree_30 (StableHlo.after (Cert.KernelIdeal.GenP.hostOps0_29 (F := Ideal)) WK) (StableHlo.after (Cert.ReferenceIdeal.Hand.hostOps0_29 (F := Ideal)) WR) := by
  obtain ⟨h1, h2, h3, h4, h5, h6, h7, h8, h9, h10, h11, h12, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_90)) x ∧ @Eq ((⟨Cert.KernelIdeal.S_, .i32⟩ : BufTy).Contents (Elt Ideal)) (WR (Proc.devRef .tc Cert.ReferenceIdeal.main_c_90)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_91)) x ∧ @Eq ((⟨Cert.KernelIdeal.S_, .i32⟩ : BufTy).Contents (Elt Ideal)) (WR (Proc.devRef .tc Cert.ReferenceIdeal.main_c_91)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v218)) x ∧ @Eq ((⟨Cert.KernelIdeal.S16x1024x1024, .f32⟩ : BufTy).Contents (Elt Ideal)) (WR (Proc.devRef .tc Cert.ReferenceIdeal.main_v218)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v221)) x ∧ @Eq ((⟨Cert.KernelIdeal.S16x1024, .f32⟩ : BufTy).Contents (Elt Ideal)) (WR (Proc.devRef .tc Cert.ReferenceIdeal.main_v221)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v225)) x ∧ @Eq ((⟨Cert.KernelIdeal.S1024, .i32⟩ : BufTy).Contents (Elt Ideal)) (WR (Proc.devRef .tc Cert.ReferenceIdeal.main_v225)) x := ⟨_, h7, rfl⟩
  obtain ⟨x8, h8K, h8R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v236)) x ∧ @Eq ((⟨Cert.KernelIdeal.S1024, .i1⟩ : BufTy).Contents (Elt Ideal)) (WR (Proc.devRef .tc Cert.ReferenceIdeal.main_v236)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v239)) x ∧ @Eq ((⟨Cert.KernelIdeal.S1024, .i32⟩ : BufTy).Contents (Elt Ideal)) (WR (Proc.devRef .tc Cert.ReferenceIdeal.main_v239)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h12, rfl⟩
  refine ⟨?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_30 (WK : ValK) (WR : ValR) (h : Agree_30 WK WR) :
    Agree_31 (StableHlo.after (Cert.KernelIdeal.GenP.hostOps0_30 (F := Ideal)) WK) (StableHlo.after (Cert.ReferenceIdeal.Hand.hostOps0_30 (F := Ideal)) WR) := by
  obtain ⟨h1, h2, h3, h4, h5, h6, h7, h8, h9, h10, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v218)) x ∧ @Eq ((⟨Cert.KernelIdeal.S16x1024x1024, .f32⟩ : BufTy).Contents (Elt Ideal)) (WR (Proc.devRef .tc Cert.ReferenceIdeal.main_v218)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v221)) x ∧ @Eq ((⟨Cert.KernelIdeal.S16x1024, .f32⟩ : BufTy).Contents (Elt Ideal)) (WR (Proc.devRef .tc Cert.ReferenceIdeal.main_v221)) x := ⟨_, h4, rfl⟩
  obtain ⟨x5, h5K, h5R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v236)) x ∧ @Eq ((⟨Cert.KernelIdeal.S1024, .i1⟩ : BufTy).Contents (Elt Ideal)) (WR (Proc.devRef .tc Cert.ReferenceIdeal.main_v236)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v239)) x ∧ @Eq ((⟨Cert.KernelIdeal.S1024, .i32⟩ : BufTy).Contents (Elt Ideal)) (WR (Proc.devRef .tc Cert.ReferenceIdeal.main_v239)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v240)) x ∧ @Eq ((⟨Cert.KernelIdeal.S1024, .i32⟩ : BufTy).Contents (Elt Ideal)) (WR (Proc.devRef .tc Cert.ReferenceIdeal.main_v240)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_31 (WK : ValK) (WR : ValR) (h : Agree_31 WK WR) :
    Agree_32 (StableHlo.after (Cert.KernelIdeal.GenP.hostOps0_31 (F := Ideal)) WK) (StableHlo.after (Cert.ReferenceIdeal.Hand.hostOps0_31 (F := Ideal)) WR) := by
  obtain ⟨h1, h2, h3, h4, h5, h6, h7, h8, h9, h10, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_92)) x ∧ @Eq ((⟨Cert.KernelIdeal.S_, .f32⟩ : BufTy).Contents (Elt Ideal)) (WR (Proc.devRef .tc Cert.ReferenceIdeal.main_cst_92)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v218)) x ∧ @Eq ((⟨Cert.KernelIdeal.S16x1024x1024, .f32⟩ : BufTy).Contents (Elt Ideal)) (WR (Proc.devRef .tc Cert.ReferenceIdeal.main_v218)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v221)) x ∧ @Eq ((⟨Cert.KernelIdeal.S16x1024, .f32⟩ : BufTy).Contents (Elt Ideal)) (WR (Proc.devRef .tc Cert.ReferenceIdeal.main_v221)) x := ⟨_, h5, rfl⟩
  obtain ⟨x6, h6K, h6R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v236)) x ∧ @Eq ((⟨Cert.KernelIdeal.S1024, .i1⟩ : BufTy).Contents (Elt Ideal)) (WR (Proc.devRef .tc Cert.ReferenceIdeal.main_v236)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v241)) x ∧ @Eq ((⟨Cert.KernelIdeal.S1024, .i32⟩ : BufTy).Contents (Elt Ideal)) (WR (Proc.devRef .tc Cert.ReferenceIdeal.main_v241)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  refine ⟨?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

end Cert.Bridge

end
-- ==== Proof.AgreeM.lean ====
/- The invariant of AgreeDefs across the stretches 32 … 32: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_32a (WK : ValK) (WR : ValR) (h : Agree_32 WK WR) :
    Agree_32a (StableHlo.after (Cert.KernelIdeal.Hand.ck_32_a (F := Ideal)) WK) (StableHlo.after (Cert.ReferenceIdeal.Hand.cr_32_a (F := Ideal)) WR) := by
  obtain ⟨h1, h2, h3, h4, h5, h6, h7, h8, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v218)) x ∧ @Eq ((⟨Cert.KernelIdeal.S16x1024x1024, .f32⟩ : BufTy).Contents (Elt Ideal)) (WR (Proc.devRef .tc Cert.ReferenceIdeal.main_v218)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v241)) x ∧ @Eq ((⟨Cert.KernelIdeal.S1024, .i32⟩ : BufTy).Contents (Elt Ideal)) (WR (Proc.devRef .tc Cert.ReferenceIdeal.main_v241)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v242)) x ∧ @Eq ((⟨Cert.KernelIdeal.S16x1024, .f32⟩ : BufTy).Contents (Elt Ideal)) (WR (Proc.devRef .tc Cert.ReferenceIdeal.main_v242)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h8, rfl⟩
  refine ⟨?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_32b (WK : ValK) (WR : ValR) (h : Agree_32a WK WR) :
    Agree_32b (StableHlo.after (Cert.KernelIdeal.Hand.ck_32_b (F := Ideal)) WK) (StableHlo.after (Cert.ReferenceIdeal.Hand.cr_32_b (F := Ideal)) WR) := by
  obtain ⟨h1, h2, h3, h4, h5, h6, h7, h8, h9, -⟩ := h
  refine ⟨?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h5 h6
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))

set_option maxHeartbeats 4000000 in
theorem step_32c (WK : ValK) (WR : ValR) (h : Agree_32b WK WR) :
    Agree_33 (StableHlo.after (Cert.KernelIdeal.Hand.ck_32_c (F := Ideal)) WK) (StableHlo.after (Cert.ReferenceIdeal.Hand.cr_32_c (F := Ideal)) WR) := by
  obtain ⟨h1, h2, h3, h4, h5, h6, h7, h8, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v218)) x ∧ @Eq ((⟨Cert.KernelIdeal.S16x1024x1024, .f32⟩ : BufTy).Contents (Elt Ideal)) (WR (Proc.devRef .tc Cert.ReferenceIdeal.main_v218)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v242)) x ∧ @Eq ((⟨Cert.KernelIdeal.S16x1024, .f32⟩ : BufTy).Contents (Elt Ideal)) (WR (Proc.devRef .tc Cert.ReferenceIdeal.main_v242)) x := ⟨_, h4, rfl⟩
  obtain ⟨x5, h5K, h5R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v255)) x ∧ @Eq ((⟨Cert.KernelIdeal.S1024x2, .i32⟩ : BufTy).Contents (Elt Ideal)) (WR (Proc.devRef .tc Cert.ReferenceIdeal.main_v255)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h8, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl

theorem step_32 (WK : ValK) (WR : ValR) (h : Agree_32 WK WR) :
    Agree_33 (StableHlo.after (Cert.KernelIdeal.GenP.hostOps0_32 (F := Ideal)) WK) (StableHlo.after (Cert.ReferenceIdeal.Hand.hostOps0_32 (F := Ideal)) WR) := by
  rw [Cert.KernelIdeal.Hand.chunks_32 (F := Ideal), Cert.ReferenceIdeal.Hand.chunks_32 (F := Ideal), StableHlo.NaryThree.after_append, StableHlo.NaryThree.after_append,
    StableHlo.NaryThree.after_append, StableHlo.NaryThree.after_append]
  exact step_32c _ _ (step_32b _ _ (step_32a _ _ h))

end Cert.Bridge

end
-- ==== Proof.AgreeN.lean ====
/- The invariant of AgreeDefs across the stretches 33 … 37: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_33 (WK : ValK) (WR : ValR) (h : Agree_33 WK WR) :
    Agree_34 (StableHlo.after (Cert.KernelIdeal.GenP.hostOps0_33 (F := Ideal)) WK) (StableHlo.after (Cert.ReferenceIdeal.Hand.hostOps0_33 (F := Ideal)) WR) := by
  obtain ⟨h1, h2, h3, h4, h5, h6, h7, h8, h9, h10, h11, h12, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_103)) x ∧ @Eq ((⟨Cert.KernelIdeal.S_, .i32⟩ : BufTy).Contents (Elt Ideal)) (WR (Proc.devRef .tc Cert.ReferenceIdeal.main_c_103)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_104)) x ∧ @Eq ((⟨Cert.KernelIdeal.S_, .i32⟩ : BufTy).Contents (Elt Ideal)) (WR (Proc.devRef .tc Cert.ReferenceIdeal.main_c_104)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h4, rfl⟩
  obtain ⟨x5, h5K, h5R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v256)) x ∧ @Eq ((⟨Cert.KernelIdeal.S16x1024x1024, .f32⟩ : BufTy).Contents (Elt Ideal)) (WR (Proc.devRef .tc Cert.ReferenceIdeal.main_v256)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v257)) x ∧ @Eq ((⟨Cert.KernelIdeal.S16x1024, .f32⟩ : BufTy).Contents (Elt Ideal)) (WR (Proc.devRef .tc Cert.ReferenceIdeal.main_v257)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v259)) x ∧ @Eq ((⟨Cert.KernelIdeal.S1024, .i32⟩ : BufTy).Contents (Elt Ideal)) (WR (Proc.devRef .tc Cert.ReferenceIdeal.main_v259)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v261)) x ∧ @Eq ((⟨Cert.KernelIdeal.S1024, .i32⟩ : BufTy).Contents (Elt Ideal)) (WR (Proc.devRef .tc Cert.ReferenceIdeal.main_v261)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h11, rfl⟩
  obtain ⟨x12, h12K, h12R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v272)) x ∧ @Eq ((⟨Cert.KernelIdeal.S1024, .i1⟩ : BufTy).Contents (Elt Ideal)) (WR (Proc.devRef .tc Cert.ReferenceIdeal.main_v272)) x := ⟨_, h12, rfl⟩
  refine ⟨?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl

set_option maxHeartbeats 4000000 in
theorem step_34 (WK : ValK) (WR : ValR) (h : Agree_34 WK WR) :
    Agree_35 (StableHlo.after (Cert.KernelIdeal.GenP.hostOps0_34 (F := Ideal)) WK) (StableHlo.after (Cert.ReferenceIdeal.Hand.hostOps0_34 (F := Ideal)) WR) := by
  obtain ⟨h1, h2, h3, h4, h5, h6, h7, h8, h9, h10, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v256)) x ∧ @Eq ((⟨Cert.KernelIdeal.S16x1024x1024, .f32⟩ : BufTy).Contents (Elt Ideal)) (WR (Proc.devRef .tc Cert.ReferenceIdeal.main_v256)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v257)) x ∧ @Eq ((⟨Cert.KernelIdeal.S16x1024, .f32⟩ : BufTy).Contents (Elt Ideal)) (WR (Proc.devRef .tc Cert.ReferenceIdeal.main_v257)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v261)) x ∧ @Eq ((⟨Cert.KernelIdeal.S1024, .i32⟩ : BufTy).Contents (Elt Ideal)) (WR (Proc.devRef .tc Cert.ReferenceIdeal.main_v261)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h8, rfl⟩
  obtain ⟨x9, h9K, h9R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v272)) x ∧ @Eq ((⟨Cert.KernelIdeal.S1024, .i1⟩ : BufTy).Contents (Elt Ideal)) (WR (Proc.devRef .tc Cert.ReferenceIdeal.main_v272)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v273)) x ∧ @Eq ((⟨Cert.KernelIdeal.S1024, .i32⟩ : BufTy).Contents (Elt Ideal)) (WR (Proc.devRef .tc Cert.ReferenceIdeal.main_v273)) x := ⟨_, h10, rfl⟩
  refine ⟨?_, ?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl

set_option maxHeartbeats 4000000 in
theorem step_35 (WK : ValK) (WR : ValR) (h : Agree_35 WK WR) :
    Agree_36 (StableHlo.after (Cert.KernelIdeal.GenP.hostOps0_35 (F := Ideal)) WK) (StableHlo.after (Cert.ReferenceIdeal.Hand.hostOps0_35 (F := Ideal)) WR) := by
  obtain ⟨h1, h2, h3, h4, h5, h6, h7, h8, h9, h10, h11, h12, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_106)) x ∧ @Eq ((⟨Cert.KernelIdeal.S_, .i32⟩ : BufTy).Contents (Elt Ideal)) (WR (Proc.devRef .tc Cert.ReferenceIdeal.main_c_106)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_107)) x ∧ @Eq ((⟨Cert.KernelIdeal.S_, .i32⟩ : BufTy).Contents (Elt Ideal)) (WR (Proc.devRef .tc Cert.ReferenceIdeal.main_c_107)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h4, rfl⟩
  obtain ⟨x5, h5K, h5R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v256)) x ∧ @Eq ((⟨Cert.KernelIdeal.S16x1024x1024, .f32⟩ : BufTy).Contents (Elt Ideal)) (WR (Proc.devRef .tc Cert.ReferenceIdeal.main_v256)) x := ⟨_, h5, rfl⟩
  obtain ⟨x6, h6K, h6R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v257)) x ∧ @Eq ((⟨Cert.KernelIdeal.S16x1024, .f32⟩ : BufTy).Contents (Elt Ideal)) (WR (Proc.devRef .tc Cert.ReferenceIdeal.main_v257)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v261)) x ∧ @Eq ((⟨Cert.KernelIdeal.S1024, .i32⟩ : BufTy).Contents (Elt Ideal)) (WR (Proc.devRef .tc Cert.ReferenceIdeal.main_v261)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h10, rfl⟩
  obtain ⟨x11, h11K, h11R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v272)) x ∧ @Eq ((⟨Cert.KernelIdeal.S1024, .i1⟩ : BufTy).Contents (Elt Ideal)) (WR (Proc.devRef .tc Cert.ReferenceIdeal.main_v272)) x := ⟨_, h11, rfl⟩
  obtain ⟨x12, h12K, h12R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v275)) x ∧ @Eq ((⟨Cert.KernelIdeal.S1024, .i32⟩ : BufTy).Contents (Elt Ideal)) (WR (Proc.devRef .tc Cert.ReferenceIdeal.main_v275)) x := ⟨_, h12, rfl⟩
  refine ⟨?_, ?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h12)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h12K, h1R, h2R, h3R, h4R, h5R, h6R, h7R, h8R, h9R, h10R, h11R, h12R] <;> rfl

set_option maxHeartbeats 4000000 in
theorem step_36 (WK : ValK) (WR : ValR) (h : Agree_36 WK WR) :
    Agree_37 (StableHlo.after (Cert.KernelIdeal.GenP.hostOps0_36 (F := Ideal)) WK) (StableHlo.after (Cert.ReferenceIdeal.Hand.hostOps0_36 (F := Ideal)) WR) := by
  obtain ⟨h1, h2, h3, h4, h5, h6, h7, h8, h9, h10, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v256)) x ∧ @Eq ((⟨Cert.KernelIdeal.S16x1024x1024, .f32⟩ : BufTy).Contents (Elt Ideal)) (WR (Proc.devRef .tc Cert.ReferenceIdeal.main_v256)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v257)) x ∧ @Eq ((⟨Cert.KernelIdeal.S16x1024, .f32⟩ : BufTy).Contents (Elt Ideal)) (WR (Proc.devRef .tc Cert.ReferenceIdeal.main_v257)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h7, rfl⟩
  obtain ⟨x8, h8K, h8R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v272)) x ∧ @Eq ((⟨Cert.KernelIdeal.S1024, .i1⟩ : BufTy).Contents (Elt Ideal)) (WR (Proc.devRef .tc Cert.ReferenceIdeal.main_v272)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v275)) x ∧ @Eq ((⟨Cert.KernelIdeal.S1024, .i32⟩ : BufTy).Contents (Elt Ideal)) (WR (Proc.devRef .tc Cert.ReferenceIdeal.main_v275)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v276)) x ∧ @Eq ((⟨Cert.KernelIdeal.S1024, .i32⟩ : BufTy).Contents (Elt Ideal)) (WR (Proc.devRef .tc Cert.ReferenceIdeal.main_v276)) x := ⟨_, h10, rfl⟩
  refine ⟨?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl

set_option maxHeartbeats 4000000 in
theorem step_37 (WK : ValK) (WR : ValR) (h : Agree_37 WK WR) :
    Agree_38 (StableHlo.after (Cert.KernelIdeal.GenP.hostOps0_37 (F := Ideal)) WK) (StableHlo.after (Cert.ReferenceIdeal.Hand.hostOps0_37 (F := Ideal)) WR) := by
  obtain ⟨h1, h2, h3, h4, h5, h6, h7, h8, h9, h10, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_108)) x ∧ @Eq ((⟨Cert.KernelIdeal.S_, .f32⟩ : BufTy).Contents (Elt Ideal)) (WR (Proc.devRef .tc Cert.ReferenceIdeal.main_cst_108)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h3, rfl⟩
  obtain ⟨x4, h4K, h4R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v256)) x ∧ @Eq ((⟨Cert.KernelIdeal.S16x1024x1024, .f32⟩ : BufTy).Contents (Elt Ideal)) (WR (Proc.devRef .tc Cert.ReferenceIdeal.main_v256)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v257)) x ∧ @Eq ((⟨Cert.KernelIdeal.S16x1024, .f32⟩ : BufTy).Contents (Elt Ideal)) (WR (Proc.devRef .tc Cert.ReferenceIdeal.main_v257)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h8, rfl⟩
  obtain ⟨x9, h9K, h9R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v272)) x ∧ @Eq ((⟨Cert.KernelIdeal.S1024, .i1⟩ : BufTy).Contents (Elt Ideal)) (WR (Proc.devRef .tc Cert.ReferenceIdeal.main_v272)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v277)) x ∧ @Eq ((⟨Cert.KernelIdeal.S1024, .i32⟩ : BufTy).Contents (Elt Ideal)) (WR (Proc.devRef .tc Cert.ReferenceIdeal.main_v277)) x := ⟨_, h10, rfl⟩
  refine ⟨?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h1R, h2R, h3R, h4R, h5R, h6R, h7R, h8R, h9R, h10R] <;> rfl

end Cert.Bridge

end
-- ==== Proof.AgreeO.lean ====
/- The invariant of AgreeDefs across the stretches 38 … 38: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_38a (WK : ValK) (WR : ValR) (h : Agree_38 WK WR) :
    Agree_38a (StableHlo.after (Cert.KernelIdeal.Hand.ck_38_a (F := Ideal)) WK) (StableHlo.after (Cert.ReferenceIdeal.Hand.cr_38_a (F := Ideal)) WR) := by
  obtain ⟨h1, h2, h3, h4, h5, h6, h7, h8, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v256)) x ∧ @Eq ((⟨Cert.KernelIdeal.S16x1024x1024, .f32⟩ : BufTy).Contents (Elt Ideal)) (WR (Proc.devRef .tc Cert.ReferenceIdeal.main_v256)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v277)) x ∧ @Eq ((⟨Cert.KernelIdeal.S1024, .i32⟩ : BufTy).Contents (Elt Ideal)) (WR (Proc.devRef .tc Cert.ReferenceIdeal.main_v277)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v278)) x ∧ @Eq ((⟨Cert.KernelIdeal.S16x1024, .f32⟩ : BufTy).Contents (Elt Ideal)) (WR (Proc.devRef .tc Cert.ReferenceIdeal.main_v278)) x := ⟨_, h8, rfl⟩
  refine ⟨?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl

set_option maxHeartbeats 4000000 in
theorem step_38b (WK : ValK) (WR : ValR) (h : Agree_38a WK WR) :
    Agree_38b (StableHlo.after (Cert.KernelIdeal.Hand.ck_38_b (F := Ideal)) WK) (StableHlo.after (Cert.ReferenceIdeal.Hand.cr_38_b (F := Ideal)) WR) := by
  obtain ⟨h1, h2, h3, h4, h5, h6, h7, h8, h9, -⟩ := h
  refine ⟨?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h8 h9

set_option maxHeartbeats 4000000 in
theorem step_38c (WK : ValK) (WR : ValR) (h : Agree_38b WK WR) :
    Agree_39 (StableHlo.after (Cert.KernelIdeal.Hand.ck_38_c (F := Ideal)) WK) (StableHlo.after (Cert.ReferenceIdeal.Hand.cr_38_c (F := Ideal)) WR) := by
  obtain ⟨h1, h2, h3, h4, h5, h6, h7, h8, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v256)) x ∧ @Eq ((⟨Cert.KernelIdeal.S16x1024x1024, .f32⟩ : BufTy).Contents (Elt Ideal)) (WR (Proc.devRef .tc Cert.ReferenceIdeal.main_v256)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v278)) x ∧ @Eq ((⟨Cert.KernelIdeal.S16x1024, .f32⟩ : BufTy).Contents (Elt Ideal)) (WR (Proc.devRef .tc Cert.ReferenceIdeal.main_v278)) x := ⟨_, h7, rfl⟩
  obtain ⟨x8, h8K, h8R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v291)) x ∧ @Eq ((⟨Cert.KernelIdeal.S1024x2, .i32⟩ : BufTy).Contents (Elt Ideal)) (WR (Proc.devRef .tc Cert.ReferenceIdeal.main_v291)) x := ⟨_, h8, rfl⟩
  refine ⟨?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl

theorem step_38 (WK : ValK) (WR : ValR) (h : Agree_38 WK WR) :
    Agree_39 (StableHlo.after (Cert.KernelIdeal.GenP.hostOps0_38 (F := Ideal)) WK) (StableHlo.after (Cert.ReferenceIdeal.Hand.hostOps0_38 (F := Ideal)) WR) := by
  rw [Cert.KernelIdeal.Hand.chunks_38 (F := Ideal), Cert.ReferenceIdeal.Hand.chunks_38 (F := Ideal), StableHlo.NaryThree.after_append, StableHlo.NaryThree.after_append,
    StableHlo.NaryThree.after_append, StableHlo.NaryThree.after_append]
  exact step_38c _ _ (step_38b _ _ (step_38a _ _ h))

end Cert.Bridge

end
-- ==== Proof.AgreeQ.lean ====
/- The invariant of AgreeDefs across the stretches 39 … 43: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_39 (WK : ValK) (WR : ValR) (h : Agree_39 WK WR) :
    Agree_40 (StableHlo.after (Cert.KernelIdeal.GenP.hostOps0_39 (F := Ideal)) WK) (StableHlo.after (Cert.ReferenceIdeal.Hand.hostOps0_39 (F := Ideal)) WR) := by
  obtain ⟨h1, h2, h3, h4, h5, h6, h7, h8, h9, h10, h11, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_119)) x ∧ @Eq ((⟨Cert.KernelIdeal.S_, .i32⟩ : BufTy).Contents (Elt Ideal)) (WR (Proc.devRef .tc Cert.ReferenceIdeal.main_c_119)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_120)) x ∧ @Eq ((⟨Cert.KernelIdeal.S_, .i32⟩ : BufTy).Contents (Elt Ideal)) (WR (Proc.devRef .tc Cert.ReferenceIdeal.main_c_120)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h7, rfl⟩
  obtain ⟨x8, h8K, h8R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v292)) x ∧ @Eq ((⟨Cert.KernelIdeal.S16x1024x1024, .f32⟩ : BufTy).Contents (Elt Ideal)) (WR (Proc.devRef .tc Cert.ReferenceIdeal.main_v292)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v294)) x ∧ @Eq ((⟨Cert.KernelIdeal.S1024, .i32⟩ : BufTy).Contents (Elt Ideal)) (WR (Proc.devRef .tc Cert.ReferenceIdeal.main_v294)) x := ⟨_, h9, rfl⟩
  obtain ⟨x10, h10K, h10R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v296)) x ∧ @Eq ((⟨Cert.KernelIdeal.S1024, .i32⟩ : BufTy).Contents (Elt Ideal)) (WR (Proc.devRef .tc Cert.ReferenceIdeal.main_v296)) x := ⟨_, h10, rfl⟩
  obtain ⟨x11, h11K, h11R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v307)) x ∧ @Eq ((⟨Cert.KernelIdeal.S1024, .i1⟩ : BufTy).Contents (Elt Ideal)) (WR (Proc.devRef .tc Cert.ReferenceIdeal.main_v307)) x := ⟨_, h11, rfl⟩
  refine ⟨?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h1R, h2R, h3R, h4R, h5R, h6R, h7R, h8R, h9R, h10R, h11R] <;> rfl

set_option maxHeartbeats 4000000 in
theorem step_40 (WK : ValK) (WR : ValR) (h : Agree_40 WK WR) :
    Agree_41 (StableHlo.after (Cert.KernelIdeal.GenP.hostOps0_40 (F := Ideal)) WK) (StableHlo.after (Cert.ReferenceIdeal.Hand.hostOps0_40 (F := Ideal)) WR) := by
  obtain ⟨h1, h2, h3, h4, h5, h6, h7, h8, h9, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h5, rfl⟩
  obtain ⟨x6, h6K, h6R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v292)) x ∧ @Eq ((⟨Cert.KernelIdeal.S16x1024x1024, .f32⟩ : BufTy).Contents (Elt Ideal)) (WR (Proc.devRef .tc Cert.ReferenceIdeal.main_v292)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v296)) x ∧ @Eq ((⟨Cert.KernelIdeal.S1024, .i32⟩ : BufTy).Contents (Elt Ideal)) (WR (Proc.devRef .tc Cert.ReferenceIdeal.main_v296)) x := ⟨_, h7, rfl⟩
  obtain ⟨x8, h8K, h8R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v307)) x ∧ @Eq ((⟨Cert.KernelIdeal.S1024, .i1⟩ : BufTy).Contents (Elt Ideal)) (WR (Proc.devRef .tc Cert.ReferenceIdeal.main_v307)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v308)) x ∧ @Eq ((⟨Cert.KernelIdeal.S1024, .i32⟩ : BufTy).Contents (Elt Ideal)) (WR (Proc.devRef .tc Cert.ReferenceIdeal.main_v308)) x := ⟨_, h9, rfl⟩
  refine ⟨?_, ?_, ?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl

set_option maxHeartbeats 4000000 in
theorem step_41 (WK : ValK) (WR : ValR) (h : Agree_41 WK WR) :
    Agree_42 (StableHlo.after (Cert.KernelIdeal.GenP.hostOps0_41 (F := Ideal)) WK) (StableHlo.after (Cert.ReferenceIdeal.Hand.hostOps0_41 (F := Ideal)) WR) := by
  obtain ⟨h1, h2, h3, h4, h5, h6, h7, h8, h9, h10, h11, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_122)) x ∧ @Eq ((⟨Cert.KernelIdeal.S_, .i32⟩ : BufTy).Contents (Elt Ideal)) (WR (Proc.devRef .tc Cert.ReferenceIdeal.main_c_122)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_123)) x ∧ @Eq ((⟨Cert.KernelIdeal.S_, .i32⟩ : BufTy).Contents (Elt Ideal)) (WR (Proc.devRef .tc Cert.ReferenceIdeal.main_c_123)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h7, rfl⟩
  obtain ⟨x8, h8K, h8R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v292)) x ∧ @Eq ((⟨Cert.KernelIdeal.S16x1024x1024, .f32⟩ : BufTy).Contents (Elt Ideal)) (WR (Proc.devRef .tc Cert.ReferenceIdeal.main_v292)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v296)) x ∧ @Eq ((⟨Cert.KernelIdeal.S1024, .i32⟩ : BufTy).Contents (Elt Ideal)) (WR (Proc.devRef .tc Cert.ReferenceIdeal.main_v296)) x := ⟨_, h9, rfl⟩
  obtain ⟨x10, h10K, h10R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v307)) x ∧ @Eq ((⟨Cert.KernelIdeal.S1024, .i1⟩ : BufTy).Contents (Elt Ideal)) (WR (Proc.devRef .tc Cert.ReferenceIdeal.main_v307)) x := ⟨_, h10, rfl⟩
  obtain ⟨x11, h11K, h11R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v310)) x ∧ @Eq ((⟨Cert.KernelIdeal.S1024, .i32⟩ : BufTy).Contents (Elt Ideal)) (WR (Proc.devRef .tc Cert.ReferenceIdeal.main_v310)) x := ⟨_, h11, rfl⟩
  refine ⟨?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h10)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h11)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h10K, h11K, h1R, h2R, h3R, h4R, h5R, h6R, h7R, h8R, h9R, h10R, h11R] <;> rfl

set_option maxHeartbeats 4000000 in
theorem step_42 (WK : ValK) (WR : ValR) (h : Agree_42 WK WR) :
    Agree_43 (StableHlo.after (Cert.KernelIdeal.GenP.hostOps0_42 (F := Ideal)) WK) (StableHlo.after (Cert.ReferenceIdeal.Hand.hostOps0_42 (F := Ideal)) WR) := by
  obtain ⟨h1, h2, h3, h4, h5, h6, h7, h8, h9, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h5, rfl⟩
  obtain ⟨x6, h6K, h6R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v292)) x ∧ @Eq ((⟨Cert.KernelIdeal.S16x1024x1024, .f32⟩ : BufTy).Contents (Elt Ideal)) (WR (Proc.devRef .tc Cert.ReferenceIdeal.main_v292)) x := ⟨_, h6, rfl⟩
  obtain ⟨x7, h7K, h7R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v307)) x ∧ @Eq ((⟨Cert.KernelIdeal.S1024, .i1⟩ : BufTy).Contents (Elt Ideal)) (WR (Proc.devRef .tc Cert.ReferenceIdeal.main_v307)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v310)) x ∧ @Eq ((⟨Cert.KernelIdeal.S1024, .i32⟩ : BufTy).Contents (Elt Ideal)) (WR (Proc.devRef .tc Cert.ReferenceIdeal.main_v310)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v311)) x ∧ @Eq ((⟨Cert.KernelIdeal.S1024, .i32⟩ : BufTy).Contents (Elt Ideal)) (WR (Proc.devRef .tc Cert.ReferenceIdeal.main_v311)) x := ⟨_, h9, rfl⟩
  refine ⟨?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl

set_option maxHeartbeats 4000000 in
theorem step_43 (WK : ValK) (WR : ValR) (h : Agree_43 WK WR) :
    Agree_44 (StableHlo.after (Cert.KernelIdeal.GenP.hostOps0_43 (F := Ideal)) WK) (StableHlo.after (Cert.ReferenceIdeal.Hand.hostOps0_43 (F := Ideal)) WR) := by
  obtain ⟨h1, h2, h3, h4, h5, h6, h7, h8, h9, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_124)) x ∧ @Eq ((⟨Cert.KernelIdeal.S_, .f32⟩ : BufTy).Contents (Elt Ideal)) (WR (Proc.devRef .tc Cert.ReferenceIdeal.main_cst_124)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h6, rfl⟩
  obtain ⟨x7, h7K, h7R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v292)) x ∧ @Eq ((⟨Cert.KernelIdeal.S16x1024x1024, .f32⟩ : BufTy).Contents (Elt Ideal)) (WR (Proc.devRef .tc Cert.ReferenceIdeal.main_v292)) x := ⟨_, h7, rfl⟩
  obtain ⟨x8, h8K, h8R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v307)) x ∧ @Eq ((⟨Cert.KernelIdeal.S1024, .i1⟩ : BufTy).Contents (Elt Ideal)) (WR (Proc.devRef .tc Cert.ReferenceIdeal.main_v307)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v312)) x ∧ @Eq ((⟨Cert.KernelIdeal.S1024, .i32⟩ : BufTy).Contents (Elt Ideal)) (WR (Proc.devRef .tc Cert.ReferenceIdeal.main_v312)) x := ⟨_, h9, rfl⟩
  refine ⟨?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl

end Cert.Bridge

end
-- ==== Proof.AgreeR.lean ====
/- The invariant of AgreeDefs across the stretches 44 … 44: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_44a (WK : ValK) (WR : ValR) (h : Agree_44 WK WR) :
    Agree_44a (StableHlo.after (Cert.KernelIdeal.Hand.ck_44_a (F := Ideal)) WK) (StableHlo.after (Cert.ReferenceIdeal.Hand.cr_44_a (F := Ideal)) WR) := by
  obtain ⟨h1, h2, h3, h4, h5, h6, h7, h8, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h5, rfl⟩
  obtain ⟨x6, h6K, h6R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v292)) x ∧ @Eq ((⟨Cert.KernelIdeal.S16x1024x1024, .f32⟩ : BufTy).Contents (Elt Ideal)) (WR (Proc.devRef .tc Cert.ReferenceIdeal.main_v292)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v312)) x ∧ @Eq ((⟨Cert.KernelIdeal.S1024, .i32⟩ : BufTy).Contents (Elt Ideal)) (WR (Proc.devRef .tc Cert.ReferenceIdeal.main_v312)) x := ⟨_, h7, rfl⟩
  obtain ⟨x8, h8K, h8R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v313)) x ∧ @Eq ((⟨Cert.KernelIdeal.S16x1024, .f32⟩ : BufTy).Contents (Elt Ideal)) (WR (Proc.devRef .tc Cert.ReferenceIdeal.main_v313)) x := ⟨_, h8, rfl⟩
  refine ⟨?_, ?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl

set_option maxHeartbeats 4000000 in
theorem step_44b (WK : ValK) (WR : ValR) (h : Agree_44a WK WR) :
    Agree_44b (StableHlo.after (Cert.KernelIdeal.Hand.ck_44_b (F := Ideal)) WK) (StableHlo.after (Cert.ReferenceIdeal.Hand.cr_44_b (F := Ideal)) WR) := by
  obtain ⟨h1, h2, h3, h4, h5, h6, h7, h8, h9, -⟩ := h
  refine ⟨?_, ?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h8 h9

set_option maxHeartbeats 4000000 in
theorem step_44c (WK : ValK) (WR : ValR) (h : Agree_44b WK WR) :
    Agree_45 (StableHlo.after (Cert.KernelIdeal.Hand.ck_44_c (F := Ideal)) WK) (StableHlo.after (Cert.ReferenceIdeal.Hand.cr_44_c (F := Ideal)) WR) := by
  obtain ⟨h1, h2, h3, h4, h5, h6, h7, h8, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_0)) x ∧ @Eq ((⟨Cert.KernelIdeal.S1024, .i32⟩ : BufTy).Contents (Elt Ideal)) (WR (Proc.devRef .tc Cert.ReferenceIdeal.main_v26_0)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v26_1)) x ∧ @Eq ((⟨Cert.KernelIdeal.S1024, .i32⟩ : BufTy).Contents (Elt Ideal)) (WR (Proc.devRef .tc Cert.ReferenceIdeal.main_v26_1)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h5, rfl⟩
  obtain ⟨x6, h6K, h6R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v292)) x ∧ @Eq ((⟨Cert.KernelIdeal.S16x1024x1024, .f32⟩ : BufTy).Contents (Elt Ideal)) (WR (Proc.devRef .tc Cert.ReferenceIdeal.main_v292)) x := ⟨_, h6, rfl⟩
  obtain ⟨x7, h7K, h7R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v313)) x ∧ @Eq ((⟨Cert.KernelIdeal.S16x1024, .f32⟩ : BufTy).Contents (Elt Ideal)) (WR (Proc.devRef .tc Cert.ReferenceIdeal.main_v313)) x := ⟨_, h7, rfl⟩
  obtain ⟨x8, h8K, h8R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v326)) x ∧ @Eq ((⟨Cert.KernelIdeal.S1024x2, .i32⟩ : BufTy).Contents (Elt Ideal)) (WR (Proc.devRef .tc Cert.ReferenceIdeal.main_v326)) x := ⟨_, h8, rfl⟩
  refine ⟨?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h1R, h2R, h3R, h4R, h5R, h6R, h7R, h8R] <;> rfl

theorem step_44 (WK : ValK) (WR : ValR) (h : Agree_44 WK WR) :
    Agree_45 (StableHlo.after (Cert.KernelIdeal.GenP.hostOps0_44 (F := Ideal)) WK) (StableHlo.after (Cert.ReferenceIdeal.Hand.hostOps0_44 (F := Ideal)) WR) := by
  rw [Cert.KernelIdeal.Hand.chunks_44 (F := Ideal), Cert.ReferenceIdeal.Hand.chunks_44 (F := Ideal), StableHlo.NaryThree.after_append, StableHlo.NaryThree.after_append,
    StableHlo.NaryThree.after_append, StableHlo.NaryThree.after_append]
  exact step_44c _ _ (step_44b _ _ (step_44a _ _ h))

end Cert.Bridge

end
-- ==== Proof.AgreeS.lean ====
/- The invariant of AgreeDefs across the stretches 45 … 49: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs

noncomputable section

namespace Cert.Bridge

open Idealize.ShloMosaic Idealize.SL.Sem

set_option maxHeartbeats 4000000 in
theorem step_45 (WK : ValK) (WR : ValR) (h : Agree_45 WK WR) :
    Agree_46 (StableHlo.after (Cert.KernelIdeal.GenP.hostOps0_45 (F := Ideal)) WK) (StableHlo.after (Cert.ReferenceIdeal.Hand.hostOps0_45 (F := Ideal)) WR) := by
  obtain ⟨h1, h2, h3, h4, h5, h6, h7, h8, h9, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_135)) x ∧ @Eq ((⟨Cert.KernelIdeal.S_, .i32⟩ : BufTy).Contents (Elt Ideal)) (WR (Proc.devRef .tc Cert.ReferenceIdeal.main_c_135)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_136)) x ∧ @Eq ((⟨Cert.KernelIdeal.S_, .i32⟩ : BufTy).Contents (Elt Ideal)) (WR (Proc.devRef .tc Cert.ReferenceIdeal.main_c_136)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h5, rfl⟩
  obtain ⟨x6, h6K, h6R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v327)) x ∧ @Eq ((⟨Cert.KernelIdeal.S16x1024x1024, .f32⟩ : BufTy).Contents (Elt Ideal)) (WR (Proc.devRef .tc Cert.ReferenceIdeal.main_v327)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v329)) x ∧ @Eq ((⟨Cert.KernelIdeal.S1024, .i32⟩ : BufTy).Contents (Elt Ideal)) (WR (Proc.devRef .tc Cert.ReferenceIdeal.main_v329)) x := ⟨_, h7, rfl⟩
  obtain ⟨x8, h8K, h8R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v331)) x ∧ @Eq ((⟨Cert.KernelIdeal.S1024, .i32⟩ : BufTy).Contents (Elt Ideal)) (WR (Proc.devRef .tc Cert.ReferenceIdeal.main_v331)) x := ⟨_, h8, rfl⟩
  obtain ⟨x9, h9K, h9R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v342)) x ∧ @Eq ((⟨Cert.KernelIdeal.S1024, .i1⟩ : BufTy).Contents (Elt Ideal)) (WR (Proc.devRef .tc Cert.ReferenceIdeal.main_v342)) x := ⟨_, h9, rfl⟩
  refine ⟨?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl

set_option maxHeartbeats 4000000 in
theorem step_46 (WK : ValK) (WR : ValR) (h : Agree_46 WK WR) :
    Agree_47 (StableHlo.after (Cert.KernelIdeal.GenP.hostOps0_46 (F := Ideal)) WK) (StableHlo.after (Cert.ReferenceIdeal.Hand.hostOps0_46 (F := Ideal)) WR) := by
  obtain ⟨h1, h2, h3, h4, h5, h6, h7, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h3, rfl⟩
  obtain ⟨x4, h4K, h4R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v327)) x ∧ @Eq ((⟨Cert.KernelIdeal.S16x1024x1024, .f32⟩ : BufTy).Contents (Elt Ideal)) (WR (Proc.devRef .tc Cert.ReferenceIdeal.main_v327)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v331)) x ∧ @Eq ((⟨Cert.KernelIdeal.S1024, .i32⟩ : BufTy).Contents (Elt Ideal)) (WR (Proc.devRef .tc Cert.ReferenceIdeal.main_v331)) x := ⟨_, h5, rfl⟩
  obtain ⟨x6, h6K, h6R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v342)) x ∧ @Eq ((⟨Cert.KernelIdeal.S1024, .i1⟩ : BufTy).Contents (Elt Ideal)) (WR (Proc.devRef .tc Cert.ReferenceIdeal.main_v342)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v343)) x ∧ @Eq ((⟨Cert.KernelIdeal.S1024, .i32⟩ : BufTy).Contents (Elt Ideal)) (WR (Proc.devRef .tc Cert.ReferenceIdeal.main_v343)) x := ⟨_, h7, rfl⟩
  refine ⟨?_, ?_, ?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h1R, h2R, h3R, h4R, h5R, h6R, h7R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h1R, h2R, h3R, h4R, h5R, h6R, h7R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h1R, h2R, h3R, h4R, h5R, h6R, h7R] <;> rfl

set_option maxHeartbeats 4000000 in
theorem step_47 (WK : ValK) (WR : ValR) (h : Agree_47 WK WR) :
    Agree_48 (StableHlo.after (Cert.KernelIdeal.GenP.hostOps0_47 (F := Ideal)) WK) (StableHlo.after (Cert.ReferenceIdeal.Hand.hostOps0_47 (F := Ideal)) WR) := by
  obtain ⟨h1, h2, h3, h4, h5, h6, h7, h8, h9, -⟩ := h
  obtain ⟨x1, h1K, h1R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_138)) x ∧ @Eq ((⟨Cert.KernelIdeal.S_, .i32⟩ : BufTy).Contents (Elt Ideal)) (WR (Proc.devRef .tc Cert.ReferenceIdeal.main_c_138)) x := ⟨_, h1, rfl⟩
  obtain ⟨x2, h2K, h2R⟩ : ∃ x : ((⟨Cert.KernelIdeal.S_, .i32⟩ : BufTy).Contents (Elt Ideal)), @Eq ((⟨Cert.KernelIdeal.S_, .i32⟩ : BufTy).Contents (Elt Ideal)) (WK (Proc.devRef .tc Cert.KernelIdeal.main_c_139)) x ∧ @Eq ((⟨Cert.KernelIdeal.S_, .i32⟩ : BufTy).Contents (Elt Ideal)) (WR (Proc.devRef .tc Cert.ReferenceIdeal.main_c_139)) x := ⟨_, h2, rfl⟩
  obtain ⟨x3, h3K, h3R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h3, rfl⟩
  obtain ⟨x4, h4K, h4R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h4, rfl⟩
  obtain ⟨x5, h5K, h5R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h5, rfl⟩
  obtain ⟨x6, h6K, h6R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v327)) x ∧ @Eq ((⟨Cert.KernelIdeal.S16x1024x1024, .f32⟩ : BufTy).Contents (Elt Ideal)) (WR (Proc.devRef .tc Cert.ReferenceIdeal.main_v327)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v331)) x ∧ @Eq ((⟨Cert.KernelIdeal.S1024, .i32⟩ : BufTy).Contents (Elt Ideal)) (WR (Proc.devRef .tc Cert.ReferenceIdeal.main_v331)) x := ⟨_, h7, rfl⟩
  obtain ⟨x8, h8K, h8R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v342)) x ∧ @Eq ((⟨Cert.KernelIdeal.S1024, .i1⟩ : BufTy).Contents (Elt Ideal)) (WR (Proc.devRef .tc Cert.ReferenceIdeal.main_v342)) x := ⟨_, h8, rfl⟩
  obtain ⟨x9, h9K, h9R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v345)) x ∧ @Eq ((⟨Cert.KernelIdeal.S1024, .i32⟩ : BufTy).Contents (Elt Ideal)) (WR (Proc.devRef .tc Cert.ReferenceIdeal.main_v345)) x := ⟨_, h9, rfl⟩
  refine ⟨?_, ?_, ?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h6)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h8)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h9)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h8K, h9K, h1R, h2R, h3R, h4R, h5R, h6R, h7R, h8R, h9R] <;> rfl

set_option maxHeartbeats 4000000 in
theorem step_48 (WK : ValK) (WR : ValR) (h : Agree_48 WK WR) :
    Agree_49 (StableHlo.after (Cert.KernelIdeal.GenP.hostOps0_48 (F := Ideal)) WK) (StableHlo.after (Cert.ReferenceIdeal.Hand.hostOps0_48 (F := Ideal)) WR) := by
  obtain ⟨h1, h2, h3, h4, h5, h6, h7, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h2, rfl⟩
  obtain ⟨x3, h3K, h3R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h3, rfl⟩
  obtain ⟨x4, h4K, h4R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v327)) x ∧ @Eq ((⟨Cert.KernelIdeal.S16x1024x1024, .f32⟩ : BufTy).Contents (Elt Ideal)) (WR (Proc.devRef .tc Cert.ReferenceIdeal.main_v327)) x := ⟨_, h4, rfl⟩
  obtain ⟨x5, h5K, h5R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v342)) x ∧ @Eq ((⟨Cert.KernelIdeal.S1024, .i1⟩ : BufTy).Contents (Elt Ideal)) (WR (Proc.devRef .tc Cert.ReferenceIdeal.main_v342)) x := ⟨_, h5, rfl⟩
  obtain ⟨x6, h6K, h6R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v345)) x ∧ @Eq ((⟨Cert.KernelIdeal.S1024, .i32⟩ : BufTy).Contents (Elt Ideal)) (WR (Proc.devRef .tc Cert.ReferenceIdeal.main_v345)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v346)) x ∧ @Eq ((⟨Cert.KernelIdeal.S1024, .i32⟩ : BufTy).Contents (Elt Ideal)) (WR (Proc.devRef .tc Cert.ReferenceIdeal.main_v346)) x := ⟨_, h7, rfl⟩
  refine ⟨?_, ?_, ?_, ?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h1R, h2R, h3R, h4R, h5R, h6R, h7R] <;> rfl
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i1⟩ : BufTy).Contents (Elt Ideal)) _ _ _ (@Eq.trans ((⟨Cert.KernelIdeal.S1024, .i1⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S1024, .i1⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h1R, h2R, h3R, h4R, h5R, h6R, h7R] <;> rfl

set_option maxHeartbeats 4000000 in
theorem step_49 (WK : ValK) (WR : ValR) (h : Agree_49 WK WR) :
    Agree_50 (StableHlo.after (Cert.KernelIdeal.GenP.hostOps0_49 (F := Ideal)) WK) (StableHlo.after (Cert.ReferenceIdeal.Hand.hostOps0_49 (F := Ideal)) WR) := by
  obtain ⟨h1, h2, h3, h4, h5, h6, h7, -⟩ := h
  obtain ⟨x1, h1K, h1R⟩ : ∃ x : ((⟨Cert.KernelIdeal.S_, .f32⟩ : BufTy).Contents (Elt Ideal)), @Eq ((⟨Cert.KernelIdeal.S_, .f32⟩ : BufTy).Contents (Elt Ideal)) (WK (Proc.devRef .tc Cert.KernelIdeal.main_cst_140)) x ∧ @Eq ((⟨Cert.KernelIdeal.S_, .f32⟩ : BufTy).Contents (Elt Ideal)) (WR (Proc.devRef .tc Cert.ReferenceIdeal.main_cst_140)) x := ⟨_, h1, rfl⟩
  obtain ⟨x2, h2K, h2R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v220)) x ∧ @Eq ((⟨Cert.KernelIdeal.S16x1024, .f32⟩ : BufTy).Contents (Elt Ideal)) (WR (Proc.devRef .tc Cert.ReferenceIdeal.main_v220)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h4, rfl⟩
  obtain ⟨x5, h5K, h5R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v327)) x ∧ @Eq ((⟨Cert.KernelIdeal.S16x1024x1024, .f32⟩ : BufTy).Contents (Elt Ideal)) (WR (Proc.devRef .tc Cert.ReferenceIdeal.main_v327)) x := ⟨_, h5, rfl⟩
  obtain ⟨x6, h6K, h6R⟩ : ∃ x : ((⟨Cert.KernelIdeal.S1024, .i1⟩ : BufTy).Contents (Elt Ideal)), @Eq ((⟨Cert.KernelIdeal.S1024, .i1⟩ : BufTy).Contents (Elt Ideal)) (WK (Proc.devRef .tc Cert.KernelIdeal.main_v342)) x ∧ @Eq ((⟨Cert.KernelIdeal.S1024, .i1⟩ : BufTy).Contents (Elt Ideal)) (WR (Proc.devRef .tc Cert.ReferenceIdeal.main_v342)) x := ⟨_, h6, rfl⟩
  obtain ⟨x7, h7K, h7R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v347)) x ∧ @Eq ((⟨Cert.KernelIdeal.S1024, .i32⟩ : BufTy).Contents (Elt Ideal)) (WR (Proc.devRef .tc Cert.ReferenceIdeal.main_v347)) x := ⟨_, h7, rfl⟩
  refine ⟨?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h4)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S1024, .i32⟩ : BufTy).Contents (Elt Ideal)) _ _ _ (@Eq.trans ((⟨Cert.KernelIdeal.S1024, .i32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h7)
      (@Eq.symm ((⟨Cert.KernelIdeal.S1024, .i32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h6K, h7K, h1R, h2R, h3R, h4R, h5R, h6R, h7R] <;> rfl

end Cert.Bridge

end
-- ==== Proof.AgreeT.lean ====
/- The invariant of AgreeDefs across the stretches 50 … 50: run over any two valuations that agree on the buffers
   live before a stretch, the two programs' copies of the stretch leave valuations that agree on the buffers live after it.
   Each side's stretch is read operation by operation (a result buffer at its operation's function of the operands' contents,
   any other buffer unchanged); the two sides' incoming contents, which agree, are named once as variables of the buffers' literal types, and both
   terms are then the same operations of those variables (a called function's operations move each value between its buffer's
   type and the value's own along an equation that is the identity at a literal reference: those transports are dropped on each side).
   A live buffer the stretch does not write keeps its contents on both sides (no operation of the stretch writes it), so its agreement is the incoming one. -/
import proofs.«117756_j83829171683377_1_alg».proof.Proof.AgreeDefs2

noncomputable section

namespace Cert.Bridge

open Idealize.ShloMosaic Idealize.SL.Sem

set_option maxHeartbeats 4000000 in
theorem step_50a (WK : ValK) (WR : ValR) (h : Agree_50 WK WR) :
    Agree_50a (StableHlo.after (Cert.KernelIdeal.Hand.ck_50_a (F := Ideal)) WK) (StableHlo.after (Cert.ReferenceIdeal.Hand.cr_50_a (F := Ideal)) WR) := by
  obtain ⟨h1, h2, h3, h4, h5, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v27)) x ∧ @Eq ((⟨Cert.KernelIdeal.S1024, .i32⟩ : BufTy).Contents (Elt Ideal)) (WR (Proc.devRef .tc Cert.ReferenceIdeal.main_v27)) x := ⟨_, h2, rfl⟩
  obtain ⟨x3, h3K, h3R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v327)) x ∧ @Eq ((⟨Cert.KernelIdeal.S16x1024x1024, .f32⟩ : BufTy).Contents (Elt Ideal)) (WR (Proc.devRef .tc Cert.ReferenceIdeal.main_v327)) x := ⟨_, h3, rfl⟩
  obtain ⟨x4, h4K, h4R⟩ : ∃ x : ((⟨Cert.KernelIdeal.S1024, .i32⟩ : BufTy).Contents (Elt Ideal)), @Eq ((⟨Cert.KernelIdeal.S1024, .i32⟩ : BufTy).Contents (Elt Ideal)) (WK (Proc.devRef .tc Cert.KernelIdeal.main_v347)) x ∧ @Eq ((⟨Cert.KernelIdeal.S1024, .i32⟩ : BufTy).Contents (Elt Ideal)) (WR (Proc.devRef .tc Cert.ReferenceIdeal.main_v347)) x := ⟨_, h4, rfl⟩
  obtain ⟨x5, h5K, h5R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v348)) x ∧ @Eq ((⟨Cert.KernelIdeal.S16x1024, .f32⟩ : BufTy).Contents (Elt Ideal)) (WR (Proc.devRef .tc Cert.ReferenceIdeal.main_v348)) x := ⟨_, h5, rfl⟩
  refine ⟨?_, ?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h5)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h1R, h2R, h3R, h4R, h5R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h5K, h1R, h2R, h3R, h4R, h5R] <;> rfl

set_option maxHeartbeats 4000000 in
theorem step_50b (WK : ValK) (WR : ValR) (h : Agree_50a WK WR) :
    Agree_50b (StableHlo.after (Cert.KernelIdeal.Hand.ck_50_b (F := Ideal)) WK) (StableHlo.after (Cert.ReferenceIdeal.Hand.cr_50_b (F := Ideal)) WR) := by
  obtain ⟨h1, h2, h3, h4, h5, -⟩ := h
  refine ⟨?_, ?_, ?_, ?_, trivial⟩
  · exact @Eq.trans ((⟨Cert.KernelIdeal.S2x8x1024, .f32⟩ : BufTy).Contents (Elt Ideal)) _ _ _ (@Eq.trans ((⟨Cert.KernelIdeal.S2x8x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h1)
      (@Eq.symm ((⟨Cert.KernelIdeal.S2x8x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024x1024, .f32⟩ : BufTy).Contents (Elt Ideal)) _ _ _ (@Eq.trans ((⟨Cert.KernelIdeal.S16x1024x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h2)
      (@Eq.symm ((⟨Cert.KernelIdeal.S16x1024x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · exact @Eq.trans ((⟨Cert.KernelIdeal.S16x1024, .f32⟩ : BufTy).Contents (Elt Ideal)) _ _ _ (@Eq.trans ((⟨Cert.KernelIdeal.S16x1024, .f32⟩ : BufTy).Contents (Elt Ideal)) _ _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))) h3)
      (@Eq.symm ((⟨Cert.KernelIdeal.S16x1024, .f32⟩ : BufTy).Contents (Elt Ideal)) _ _ (StableHlo.after_of_forall_not_mem _ _ (List.forall_iff_forall_mem.mp (by (simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]; (repeat' apply And.intro); all_goals exact StableHlo.devRef_ne_of_ne (by decide))))))
  · have e : ∀ (a a' : ((⟨Cert.KernelIdeal.S1024x1, .i32⟩ : BufTy).Contents (Elt Ideal))) (b b' : ((⟨Cert.KernelIdeal.S1024x1, .i32⟩ : BufTy).Contents (Elt Ideal))), a = a' → b = b' →
        @Eq ((⟨Cert.KernelIdeal.S1024x2, .i32⟩ : BufTy).Contents (Elt Ideal)) (concatenate Cert.KernelIdeal.S1024x2 1 [⟨Cert.KernelIdeal.S1024x1, a⟩, ⟨Cert.KernelIdeal.S1024x1, b⟩] Cert.KernelIdeal.Gen.concatenates_S1024x1_S1024x1_S1024x2_d1) (concatenate Cert.ReferenceIdeal.S1024x2 1 [⟨Cert.ReferenceIdeal.S1024x1, a'⟩, ⟨Cert.ReferenceIdeal.S1024x1, b'⟩] Cert.ReferenceIdeal.Gen.concatenates_S1024x1_S1024x1_S1024x2_d1) := by
      intro a a' b b' ha hb; subst ha; subst hb; rfl
    simp only [StableHlo.after_cons, StableHlo.after_nil, StableHlo.binary_result']
    exact e _ _ _ _ h4 h5

set_option maxHeartbeats 4000000 in
theorem step_50c (WK : ValK) (WR : ValR) (h : Agree_50b WK WR) :
    Agree_51 (StableHlo.after (Cert.KernelIdeal.Hand.ck_50_c (F := Ideal)) WK) (StableHlo.after (Cert.ReferenceIdeal.Hand.cr_50_c (F := Ideal)) WR) := by
  obtain ⟨h1, h2, h3, h4, -⟩ := h
  obtain ⟨x1, h1K, h1R⟩ : ∃ x : ((⟨Cert.KernelIdeal.S2x8x1024, .f32⟩ : BufTy).Contents (Elt Ideal)), @Eq ((⟨Cert.KernelIdeal.S2x8x1024, .f32⟩ : BufTy).Contents (Elt Ideal)) (WK (Proc.devRef .tc Cert.KernelIdeal.main_v18)) x ∧ @Eq ((⟨Cert.KernelIdeal.S2x8x1024, .f32⟩ : BufTy).Contents (Elt Ideal)) (WR (Proc.devRef .tc Cert.ReferenceIdeal.main_v18)) x := ⟨_, h1, rfl⟩
  obtain ⟨x2, h2K, h2R⟩ : ∃ x : ((⟨Cert.KernelIdeal.S16x1024x1024, .f32⟩ : BufTy).Contents (Elt Ideal)), @Eq ((⟨Cert.KernelIdeal.S16x1024x1024, .f32⟩ : BufTy).Contents (Elt Ideal)) (WK (Proc.devRef .tc Cert.KernelIdeal.main_v327)) x ∧ @Eq ((⟨Cert.KernelIdeal.S16x1024x1024, .f32⟩ : BufTy).Contents (Elt Ideal)) (WR (Proc.devRef .tc Cert.ReferenceIdeal.main_v327)) x := ⟨_, h2, rfl⟩
  obtain ⟨x3, h3K, h3R⟩ : ∃ x : ((⟨Cert.KernelIdeal.S16x1024, .f32⟩ : BufTy).Contents (Elt Ideal)), @Eq ((⟨Cert.KernelIdeal.S16x1024, .f32⟩ : BufTy).Contents (Elt Ideal)) (WK (Proc.devRef .tc Cert.KernelIdeal.main_v348)) x ∧ @Eq ((⟨Cert.KernelIdeal.S16x1024, .f32⟩ : BufTy).Contents (Elt Ideal)) (WR (Proc.devRef .tc Cert.ReferenceIdeal.main_v348)) x := ⟨_, h3, rfl⟩
  obtain ⟨x4, h4K, h4R⟩ : ∃ x : ((⟨Cert.KernelIdeal.S1024x2, .i32⟩ : BufTy).Contents (Elt Ideal)), @Eq ((⟨Cert.KernelIdeal.S1024x2, .i32⟩ : BufTy).Contents (Elt Ideal)) (WK (Proc.devRef .tc Cert.KernelIdeal.main_v361)) x ∧ @Eq ((⟨Cert.KernelIdeal.S1024x2, .i32⟩ : BufTy).Contents (Elt Ideal)) (WR (Proc.devRef .tc Cert.ReferenceIdeal.main_v361)) x := ⟨_, h4, rfl⟩
  refine ⟨?_, ?_, ?_, ?_, trivial⟩
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl
  · simp (disch := decide) only [StableHlo.after_cons, StableHlo.after_nil, cast_eq, StableHlo.nullary_result', StableHlo.unary_result', StableHlo.binary_result', StableHlo.ternary_result', StableHlo.quaternary_result', StableHlo.reshape_result', StableHlo.nary4_result', StableHlo.NaryThree.nary3_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', h1K, h2K, h3K, h4K, h1R, h2R, h3R, h4R] <;> rfl

theorem step_50 (WK : ValK) (WR : ValR) (h : Agree_50 WK WR) :
    Agree_51 (StableHlo.after (Cert.KernelIdeal.Hand.commonK (F := Ideal)) WK) (StableHlo.after (Cert.ReferenceIdeal.Hand.commonR (F := Ideal)) WR) := by
  rw [Cert.KernelIdeal.Hand.chunks_50 (F := Ideal), Cert.ReferenceIdeal.Hand.chunks_50 (F := Ideal), StableHlo.NaryThree.after_append, StableHlo.NaryThree.after_append,
    StableHlo.NaryThree.after_append, StableHlo.NaryThree.after_append]
  exact step_50c _ _ (step_50b _ _ (step_50a _ _ h))

end Cert.Bridge

end
-- ==== Proof.AgreeChain.lean ====
/- The steps composed. From launch memories that agree on the four arguments, after the shared part of the host line the two
   programs agree on the four buffers the rest reads: the matrix M, diag(w)·M, the weights w and the identity matrix. -/
import proofs.«117756_j83829171683377_1_alg».proof.Proof.AgreeA
import proofs.«117756_j83829171683377_1_alg».proof.Proof.AgreeB
import proofs.«117756_j83829171683377_1_alg».proof.Proof.AgreeC
import proofs.«117756_j83829171683377_1_alg».proof.Proof.AgreeD
import proofs.«117756_j83829171683377_1_alg».proof.Proof.AgreeE
import proofs.«117756_j83829171683377_1_alg».proof.Proof.AgreeF
import proofs.«117756_j83829171683377_1_alg».proof.Proof.AgreeG
import proofs.«117756_j83829171683377_1_alg».proof.Proof.AgreeH
import proofs.«117756_j83829171683377_1_alg».proof.Proof.AgreeI
import proofs.«117756_j83829171683377_1_alg».proof.Proof.AgreeJ
import proofs.«117756_j83829171683377_1_alg».proof.Proof.AgreeK
import proofs.«117756_j83829171683377_1_alg».proof.Proof.AgreeL
import proofs.«117756_j83829171683377_1_alg».proof.Proof.AgreeM
import proofs.«117756_j83829171683377_1_alg».proof.Proof.AgreeN
import proofs.«117756_j83829171683377_1_alg».proof.Proof.AgreeO
import proofs.«117756_j83829171683377_1_alg».proof.Proof.AgreeQ
import proofs.«117756_j83829171683377_1_alg».proof.Proof.AgreeR
import proofs.«117756_j83829171683377_1_alg».proof.Proof.AgreeS
import proofs.«117756_j83829171683377_1_alg».proof.Proof.AgreeT
import proofs.«117756_j83829171683377_1_alg».proof.Proof.PreSplit

noncomputable section

namespace Cert.Bridge

open Idealize.ShloMosaic Idealize.SL.Sem

theorem agree_51 (VK : ValK) (VR : ValR) (h : Agree_0 VK VR) :
    Agree_51 (StableHlo.after (Cert.KernelIdeal.Hand.commonK (F := Ideal)) (preK VK)) (StableHlo.after (Cert.ReferenceIdeal.Hand.commonR (F := Ideal)) (preR VR)) :=
  step_50 _ _ (step_49 _ _ (step_48 _ _ (step_47 _ _ (step_46 _ _ (step_45 _ _ (step_44 _ _ (step_43 _ _ (step_42 _ _ (step_41 _ _ (step_40 _ _ (step_39 _ _ (step_38 _ _ (step_37 _ _ (step_36 _ _ (step_35 _ _ (step_34 _ _ (step_33 _ _ (step_32 _ _ (step_31 _ _ (step_30 _ _ (step_29 _ _ (step_28 _ _ (step_27 _ _ (step_26 _ _ (step_25 _ _ (step_24 _ _ (step_23 _ _ (step_22 _ _ (step_21 _ _ (step_20 _ _ (step_19 _ _ (step_18 _ _ (step_17 _ _ (step_16 _ _ (step_15 _ _ (step_14 _ _ (step_13 _ _ (step_12 _ _ (step_11 _ _ (step_10 _ _ (step_9 _ _ (step_8 _ _ (step_7 _ _ (step_6 _ _ (step_5 _ _ (step_4 _ _ (step_3 _ _ (step_2 _ _ (step_1 _ _ (step_0 VK VR h))))))))))))))))))))))))))))))))))))))))))))))))))

end Cert.Bridge

end
-- ==== Proof.Algebraic.lean ====
/- The claims about the two idealized programs' results, and the three frames.
   Launch memories that agree on the four arguments give, after the shared host line, agreement on the four buffers the rest
   of either program reads (the composed step lemmas); under that agreement both programs end at the same assembly of the same
   four arrays. -/
import proofs.«117756_j83829171683377_1_alg».proof.Defs
import proofs.«117756_j83829171683377_1_alg».proof.Proof.Gen.Pre_finite_inputs
import proofs.«117756_j83829171683377_1_alg».proof.Proof.FrameK
import proofs.«117756_j83829171683377_1_alg».proof.Proof.Value
import proofs.«117756_j83829171683377_1_alg».proof.Proof.AgreeChain

noncomputable section

namespace Cert.Proof.Claims

open Idealize.ShloMosaic Idealize.ShloMosaic.TcCoe Idealize.SL.Sem Cert.Bridge

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.Hand.frame m ρ

theorem algebraic : Cert.algebraic_KernelIdeal_ReferenceIdeal := by
  intro m ρ m' ρ' _ hagree
  have hag : ∀ c, Agree_0 (fun b => m (c, b)) (fun b => m' (c, b)) := fun c =>
    ⟨(hagree c).1.symm, (hagree c).2.1.symm, (hagree c).2.2.1.symm, (hagree c).2.2.2.symm, trivial⟩
  refine ⟨fun c => result m' c, ?_, ?_⟩
  · refine (θ_run Cert.KernelIdeal.defs _ _).mono (fun r h c => ⟨?_, ?_, ?_, ?_, ?_⟩) (Cert.KernelIdeal.Hand.run_main (F := Ideal) m ρ)
    · exact ((h c).2 Cert.KernelIdeal.main_v408 (Pipeline.mem_restRefs_of Cert.KernelIdeal.main_v408 (by decide) (by decide))).trans
        (kernel_value_of m m' c (agree_51 _ _ (hag c)))
    · exact ((h c).2 Cert.KernelIdeal.main_arg0 (Pipeline.mem_restRefs_of Cert.KernelIdeal.main_arg0 (by decide) (by decide))).trans
        (Cert.KernelIdeal.Hand.W_main_arg0 m c)
    · exact ((h c).2 Cert.KernelIdeal.main_arg1 (Pipeline.mem_restRefs_of Cert.KernelIdeal.main_arg1 (by decide) (by decide))).trans
        (Cert.KernelIdeal.Hand.W_main_arg1 m c)
    · exact ((h c).2 Cert.KernelIdeal.main_arg2 (Pipeline.mem_restRefs_of Cert.KernelIdeal.main_arg2 (by decide) (by decide))).trans
        (Cert.KernelIdeal.Hand.W_main_arg2 m c)
    · exact ((h c).2 Cert.KernelIdeal.main_arg3 (Pipeline.mem_restRefs_of Cert.KernelIdeal.main_arg3 (by decide) (by decide))).trans
        (Cert.KernelIdeal.Hand.W_main_arg3 m c)
  · refine (θ_run Cert.ReferenceIdeal.defs _ _).mono (fun r h c => ⟨?_, ?_, ?_, ?_, ?_⟩) (Cert.ReferenceIdeal.Hand.run (F := Ideal) m' ρ')
    · exact (h c Cert.ReferenceIdeal.main_v403).trans (reference_value m' c)
    · exact (h c Cert.ReferenceIdeal.main_arg0).trans (Cert.ReferenceIdeal.Hand.kept_arg0 _)
    · exact (h c Cert.ReferenceIdeal.main_arg1).trans (Cert.ReferenceIdeal.Hand.kept_arg1 _)
    · exact (h c Cert.ReferenceIdeal.main_arg2).trans (Cert.ReferenceIdeal.Hand.kept_arg2 _)
    · exact (h c Cert.ReferenceIdeal.main_arg3).trans (Cert.ReferenceIdeal.Hand.kept_arg3 _)

end Cert.Proof.Claims

end
-- ==== Proof.lean ====
/- The proof of `Cert.Claim`: the three frames, the (empty) idealization ledger, and the equality of the two idealized
   programs' results.
   The kernel's program is a long line of host operations (the dense 9-point advection–diffusion operator of each (batch,
   time) pair built by nine scatter-adds, then M = I + A and diag(w)·M), one region that multiplies Mᵀ by diag(w)·M pair by
   pair, and a host tail that assembles the block-tridiagonal precision (diagonal, lower, upper). The reference runs the very
   same host line, takes the product as one batched dot_general, and assembles the same way.
   Frames: each program runs to the end and leaves its four arguments as launched — for the kernel's two printed instances
   from the region's launch theorem with the body's triple (the body loads both blocks, multiplies, stores), for the reference
   from its run as a straight line of host operations.
   Results: carried stretch by stretch, the shared host line leaves the two programs agreeing on M, diag(w)·M, w and the
   identity; the kernel's region writes the slab-by-slab product, which re-laid is the reference's dot_general (both are
   Σ_r M(b,t,r,j)·WM(b,t,r,k) at the ideal values, where rounding to bf16 is the identity); the assembly is one function of
   those four arrays on both sides. No finiteness of the inputs is used: only commutative-monoid facts about finite sums. -/
import proofs.«117756_j83829171683377_1_alg».proof.Defs
import proofs.«117756_j83829171683377_1_alg».proof.Proof.Gen.Kernel
import proofs.«117756_j83829171683377_1_alg».proof.Proof.Gen.KernelIdeal
import proofs.«117756_j83829171683377_1_alg».proof.Proof.Gen.ReferenceIdeal
import proofs.«117756_j83829171683377_1_alg».proof.Proof.Gen.Pre_finite_inputs
import proofs.«117756_j83829171683377_1_alg».proof.Proof.Algebraic

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, trivial, Cert.Proof.Claims.algebraic⟩

end Cert.Proof

end
